-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S4096x4096 : Shape := ⟨2, ![4096, 4096]⟩
abbrev S4096x2048 : Shape := ⟨2, ![4096, 2048]⟩
abbrev S2048 : Shape := ⟨1, ![2048]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg4 : IVec S4096 32) (main_v64 : IVec S_ 1) (main_v66 : IVec S4096 1) (main_c_26 : IVec S_ 32) : IVec S_ 1 :=
  let main_v67 : IVec S4096 32 := broadcastInDim S4096 ![] bcast_S_S4096 main_c_26
  let main_v68 : IVec S4096 1 := cmpi .sle main_arg4 main_v67
  let main_v69 : IVec S4096 1 := andi main_v66 main_v68
  let main_c_27 : IVec S_ 1 := constantI S_ 1 1#1
  let main_v70 : IVec S_ 1 := (fun x v => Host.reduce IntOp.andi x v reducesTo_S4096_S_d0 h_S_) main_v69 main_c_27
  let main_v71 : IVec S_ 1 := andi main_v64 main_v70
  main_v71

def fn_part3 {F : FTy → Type} [FloatOps F] (main_arg2 : IVec S4096 32) (main_arg3 : IVec S4096 32) (main_arg4 : IVec S4096 32) (main_v50 : IVec S_ 1) : IVec S_ 1 :=
  let main_c_19 : IVec S_ 32 := constantI S_ 32 0#32
  let main_v51 : IVec S4096 32 := broadcastInDim S4096 ![] bcast_S_S4096 main_c_19
  let main_v52 : IVec S4096 1 := cmpi .sge main_arg2 main_v51
  let main_c_20 : IVec S_ 32 := constantI S_ 32 8191#32
  let main_v53 : IVec S4096 32 := broadcastInDim S4096 ![] bcast_S_S4096 main_c_20
  let main_v54 : IVec S4096 1 := cmpi .sle main_arg2 main_v53
  let main_v55 : IVec S4096 1 := andi main_v52 main_v54
  let main_c_21 : IVec S_ 1 := constantI S_ 1 1#1
  let main_v56 : IVec S_ 1 := (fun x v => Host.reduce IntOp.andi x v reducesTo_S4096_S_d0 h_S_) main_v55 main_c_21
  let main_v57 : IVec S_ 1 := andi main_v50 main_v56
  let main_c_22 : IVec S_ 32 := constantI S_ 32 0#32
  let main_v58 : IVec S4096 32 := broadcastInDim S4096 ![] bcast_S_S4096 main_c_22
  let main_v59 : IVec S4096 1 := cmpi .sge main_arg3 main_v58
  let main_c_23 : IVec S_ 32 := constantI S_ 32 12287#32
  let main_v60 : IVec S4096 32 := broadcastInDim S4096 ![] bcast_S_S4096 main_c_23
  let main_v61 : IVec S4096 1 := cmpi .sle main_arg3 main_v60
  let main_v62 : IVec S4096 1 := andi main_v59 main_v61
  let main_c_24 : IVec S_ 1 := constantI S_ 1 1#1
  let main_v63 : IVec S_ 1 := (fun x v => Host.reduce IntOp.andi x v reducesTo_S4096_S_d0 h_S_) main_v62 main_c_24
  let main_v64 : IVec S_ 1 := andi main_v57 main_v63
  let main_c_25 : IVec S_ 32 := constantI S_ 32 0#32
  let main_v65 : IVec S4096 32 := broadcastInDim S4096 ![] bcast_S_S4096 main_c_25
  let main_v66 : IVec S4096 1 := cmpi .sge main_arg4 main_v65
  let main_c_26 : IVec S_ 32 := constantI S_ 32 16383#32
  fn_part4 (F := F) main_arg4 main_v64 main_v66 main_c_26

def fn_part2 {F : FTy → Type} [FloatOps F] (main_arg1 : IVec S4096 32) (main_arg2 : IVec S4096 32) (main_arg3 : IVec S4096 32) (main_arg4 : IVec S4096 32) (main_arg11 : FVec F S4096 .f32) (main_arg12 : FVec F S2048 .f32) (main_v33 : IVec S_ 1) : IVec S_ 1 :=
  let main_v34 : FVec F S4096 .f32 := Host.absf main_arg11
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S2048 .f32 := Host.absf main_arg12
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_c_16 : IVec S_ 32 := constantI S_ 32 0#32
  let main_v44 : IVec S4096 32 := broadcastInDim S4096 ![] bcast_S_S4096 main_c_16
  let main_v45 : IVec S4096 1 := cmpi .sge main_arg1 main_v44
  let main_c_17 : IVec S_ 32 := constantI S_ 32 4095#32
  let main_v46 : IVec S4096 32 := broadcastInDim S4096 ![] bcast_S_S4096 main_c_17
  let main_v47 : IVec S4096 1 := cmpi .sle main_arg1 main_v46
  let main_v48 : IVec S4096 1 := andi main_v45 main_v47
  let main_c_18 : IVec S_ 1 := constantI S_ 1 1#1
  let main_v49 : IVec S_ 1 := (fun x v => Host.reduce IntOp.andi x v reducesTo_S4096_S_d0 h_S_) main_v48 main_c_18
  let main_v50 : IVec S_ 1 := andi main_v43 main_v49
  fn_part3 (F := F) main_arg2 main_arg3 main_arg4 main_v50

def fn_part1 {F : FTy → Type} [FloatOps F] (main_arg1 : IVec S4096 32) (main_arg2 : IVec S4096 32) (main_arg3 : IVec S4096 32) (main_arg4 : IVec S4096 32) (main_arg8 : FVec F S4096x2048 .f32) (main_arg9 : FVec F S4096 .f32) (main_arg10 : FVec F S4096 .f32) (main_arg11 : FVec F S4096 .f32) (main_arg12 : FVec F S2048 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x2048 .f32 := Host.absf main_arg8
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096 .f32 := Host.absf main_arg9
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg10
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg1 main_arg2 main_arg3 main_arg4 main_arg11 main_arg12 main_v33

def fn {F : FTy → Type} [FloatOps F] (main_arg0 : FVec F S4096 .f32) (main_arg1 : IVec S4096 32) (main_arg2 : IVec S4096 32) (main_arg3 : IVec S4096 32) (main_arg4 : IVec S4096 32) (main_arg5 : FVec F S4096x4096 .f32) (main_arg6 : FVec F S4096x4096 .f32) (main_arg7 : FVec F S4096x4096 .f32) (main_arg8 : FVec F S4096x2048 .f32) (main_arg9 : FVec F S4096 .f32) (main_arg10 : FVec F S4096 .f32) (main_arg11 : FVec F S4096 .f32) (main_arg12 : FVec F S2048 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x4096 .f32 := Host.absf main_arg5
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg6
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg7
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg1 main_arg2 main_arg3 main_arg4 main_arg8 main_arg9 main_arg10 main_arg11 main_arg12 main_v13 main_v16
-- ==== Kernel.lean ====
abbrev S4096 : Shape := ⟨1, ![4096]⟩
abbrev S4096x4096 : Shape := ⟨2, ![4096, 4096]⟩
abbrev S4096x2048 : Shape := ⟨2, ![4096, 2048]⟩
abbrev S2048 : Shape := ⟨1, ![2048]⟩
abbrev S1x4096 : Shape := ⟨2, ![1, 4096]⟩
abbrev S_ : Shape := ⟨0, ![]⟩
abbrev S1x12288 : Shape := ⟨2, ![1, 12288]⟩
abbrev S1x16384 : Shape := ⟨2, ![1, 16384]⟩
abbrev S16384 : Shape := ⟨1, ![16384]⟩
abbrev S256 : Shape := ⟨1, ![256]⟩
abbrev S128 : Shape := ⟨1, ![128]⟩
abbrev S128x4096 : Shape := ⟨2, ![128, 4096]⟩
abbrev S1x128 : Shape := ⟨2, ![1, 128]⟩
abbrev S1x2048 : Shape := ⟨2, ![1, 2048]⟩
abbrev S128x2048 : Shape := ⟨2, ![128, 2048]⟩

abbrev nBuf : Table → Nat
  | .hbm => 38
  | .local .tc .vmem => 76
  | .local .scVector .vmem => 8
  | _ => 0

abbrev bufTy : (tb : Table) → Fin (nBuf tb) → BufTy
  | .hbm, ⟨0, _⟩ => ⟨S4096, .f32⟩
  | .hbm, ⟨1, _⟩ => ⟨S4096, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x2048, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S2048, .f32⟩
  | .hbm, ⟨13, _⟩ => ⟨S1x4096, .f32⟩
  | .hbm, ⟨14, _⟩ => ⟨S_, .f32⟩
  | .hbm, ⟨15, _⟩ => ⟨S1x12288, .f32⟩
  | .hbm, ⟨16, _⟩ => ⟨S1x16384, .f32⟩
  | .hbm, ⟨17, _⟩ => ⟨S16384, .f32⟩
  | .hbm, ⟨18, _⟩ => ⟨S4096, .f32⟩
  | .hbm, ⟨19, _⟩ => ⟨S1x4096, .f32⟩
  | .hbm, ⟨20, _⟩ => ⟨S1x4096, .f32⟩
  | .hbm, ⟨21, _⟩ => ⟨S1x16384, .f32⟩
  | .hbm, ⟨22, _⟩ => ⟨S16384, .f32⟩
  | .hbm, ⟨23, _⟩ => ⟨S4096, .f32⟩
  | .hbm, ⟨24, _⟩ => ⟨S1x4096, .f32⟩
  | .hbm, ⟨25, _⟩ => ⟨S1x4096, .f32⟩
  | .hbm, ⟨26, _⟩ => ⟨S1x16384, .f32⟩
  | .hbm, ⟨27, _⟩ => ⟨S16384, .f32⟩
  | .hbm, ⟨28, _⟩ => ⟨S4096, .f32⟩
  | .hbm, ⟨29, _⟩ => ⟨S1x4096, .f32⟩
  | .hbm, ⟨30, _⟩ => ⟨S1x4096, .f32⟩
  | .hbm, ⟨31, _⟩ => ⟨S1x16384, .f32⟩
  | .hbm, ⟨32, _⟩ => ⟨S16384, .f32⟩
  | .hbm, ⟨33, _⟩ => ⟨S4096, .f32⟩
  | .hbm, ⟨34, _⟩ => ⟨S1x4096, .f32⟩
  | .hbm, ⟨35, _⟩ => ⟨S1x2048, .f32⟩
  | .hbm, ⟨36, _⟩ => ⟨S1x2048, .f32⟩
  | .hbm, ⟨37, _⟩ => ⟨S2048, .f32⟩
  | .local .tc .vmem, ⟨0, _⟩ => ⟨S1x4096, .f32⟩
  | .local .tc .vmem, ⟨1, _⟩ => ⟨S128x4096, .f32⟩
  | .local .tc .vmem, ⟨2, _⟩ => ⟨S128x4096, .f32⟩
  | .local .tc .vmem, ⟨3, _⟩ => ⟨S128x4096, .f32⟩
  | .local .tc .vmem, ⟨4, _⟩ => ⟨S128x4096, .f32⟩
  | .local .tc .vmem, ⟨5, _⟩ => ⟨S128x4096, .f32⟩
  | .local .tc .vmem, ⟨6, _⟩ => ⟨S128x4096, .f32⟩
  | .local .tc .vmem, ⟨7, _⟩ => ⟨S128x4096, .f32⟩
  | .local .tc .vmem, ⟨8, _⟩ => ⟨S128x4096, .f32⟩
  | .local .tc .vmem, ⟨9, _⟩ => ⟨S128x4096, .f32⟩
  | .local .tc .vmem, ⟨10, _⟩ => ⟨S128x4096, .f32⟩
  | .local .tc .vmem, ⟨11, _⟩ => ⟨S128x4096, .f32⟩
  | .local .tc .vmem, ⟨12, _⟩ => ⟨S128x4096, .f32⟩
  | .local .tc .vmem, ⟨13, _⟩ => ⟨S128x4096, .f32⟩
  | .local .tc .vmem, ⟨14, _⟩ => ⟨S128x4096, .f32⟩
  | .local .tc .vmem, ⟨15, _⟩ => ⟨S128x4096, .f32⟩
  | .local .tc .vmem, ⟨16, _⟩ => ⟨S128x4096, .f32⟩
  | .local .tc .vmem, ⟨17, _⟩ => ⟨S1x4096, .f32⟩
  | .local .tc .vmem, ⟨18, _⟩ => ⟨S1x4096, .f32⟩
  | .local .tc .vmem, ⟨19, _⟩ => ⟨S1x4096, .f32⟩
  | .local .tc .vmem, ⟨20, _⟩ => ⟨S128x4096, .f32⟩
  | .local .tc .vmem, ⟨21, _⟩ => ⟨S128x4096, .f32⟩
  | .local .tc .vmem, ⟨22, _⟩ => ⟨S128x4096, .f32⟩
  | .local .tc .vmem, ⟨23, _⟩ => ⟨S128x4096, .f32⟩
  | .local .tc .vmem, ⟨24, _⟩ => ⟨S128x4096, .f32⟩
  | .local .tc .vmem, ⟨25, _⟩ => ⟨S128x4096, .f32⟩
  | .local .tc .vmem, ⟨26, _⟩ => ⟨S128x4096, .f32⟩
  | .local .tc .vmem, ⟨27, _⟩ => ⟨S128x4096, .f32⟩
  | .local .tc .vmem, ⟨28, _⟩ => ⟨S128x4096, .f32⟩
  | .local .tc .vmem, ⟨29, _⟩ => ⟨S128x4096, .f32⟩
  | .local .tc .vmem, ⟨30, _⟩ => ⟨S128x4096, .f32⟩
  | .local .tc .vmem, ⟨31, _⟩ => ⟨S128x4096, .f32⟩
  | .local .tc .vmem, ⟨32, _⟩ => ⟨S128x4096, .f32⟩
  | .local .tc .vmem, ⟨33, _⟩ => ⟨S128x4096, .f32⟩
  | .local .tc .vmem, ⟨34, _⟩ => ⟨S128x4096, .f32⟩
  | .local .tc .vmem, ⟨35, _⟩ => ⟨S128x4096, .f32⟩
  | .local .tc .vmem, ⟨36, _⟩ => ⟨S1x4096, .f32⟩
  | .local .tc .vmem, ⟨37, _⟩ => ⟨S1x4096, .f32⟩
  | .local .tc .vmem, ⟨38, _⟩ => ⟨S1x4096, .f32⟩
  | .local .tc .vmem, ⟨39, _⟩ => ⟨S128x4096, .f32⟩
  | .local .tc .vmem, ⟨40, _⟩ => ⟨S128x4096, .f32⟩
  | .local .tc .vmem, ⟨41, _⟩ => ⟨S128x4096, .f32⟩
  | .local .tc .vmem, ⟨42, _⟩ => ⟨S128x4096, .f32⟩
  | .local .tc .vmem, ⟨43, _⟩ => ⟨S128x4096, .f32⟩
  | .local .tc .vmem, ⟨44, _⟩ => ⟨S128x4096, .f32⟩
  | .local .tc .vmem, ⟨45, _⟩ => ⟨S128x4096, .f32⟩
  | .local .tc .vmem, ⟨46, _⟩ => ⟨S128x4096, .f32⟩
  | .local .tc .vmem, ⟨47, _⟩ => ⟨S128x4096, .f32⟩
  | .local .tc .vmem, ⟨48, _⟩ => ⟨S128x4096, .f32⟩
  | .local .tc .vmem, ⟨49, _⟩ => ⟨S128x4096, .f32⟩
  | .local .tc .vmem, ⟨50, _⟩ => ⟨S128x4096, .f32⟩
  | .local .tc .vmem, ⟨51, _⟩ => ⟨S128x4096, .f32⟩
  | .local .tc .vmem, ⟨52, _⟩ => ⟨S128x4096, .f32⟩
  | .local .tc .vmem, ⟨53, _⟩ => ⟨S128x4096, .f32⟩
  | .local .tc .vmem, ⟨54, _⟩ => ⟨S128x4096, .f32⟩
  | .local .tc .vmem, ⟨55, _⟩ => ⟨S1x4096, .f32⟩
  | .local .tc .vmem, ⟨56, _⟩ => ⟨S1x4096, .f32⟩
  | .local .tc .vmem, ⟨57, _⟩ => ⟨S1x4096, .f32⟩
  | .local .tc .vmem, ⟨58, _⟩ => ⟨S128x2048, .f32⟩
  | .local .tc .vmem, ⟨59, _⟩ => ⟨S128x2048, .f32⟩
  | .local .tc .vmem, ⟨60, _⟩ => ⟨S128x2048, .f32⟩
  | .local .tc .vmem, ⟨61, _⟩ => ⟨S128x2048, .f32⟩
  | .local .tc .vmem, ⟨62, _⟩ => ⟨S128x2048, .f32⟩
  | .local .tc .vmem, ⟨63, _⟩ => ⟨S128x2048, .f32⟩
  | .local .tc .vmem, ⟨64, _⟩ => ⟨S128x2048, .f32⟩
  | .local .tc .vmem, ⟨65, _⟩ => ⟨S128x2048, .f32⟩
  | .local .tc .vmem, ⟨66, _⟩ => ⟨S128x2048, .f32⟩
  | .local .tc .vmem, ⟨67, _⟩ => ⟨S128x2048, .f32⟩
  | .local .tc .vmem, ⟨68, _⟩ => ⟨S128x2048, .f32⟩
  | .local .tc .vmem, ⟨69, _⟩ => ⟨S128x2048, .f32⟩
  | .local .tc .vmem, ⟨70, _⟩ => ⟨S128x2048, .f32⟩
  | .local .tc .vmem, ⟨71, _⟩ => ⟨S128x2048, .f32⟩
  | .local .tc .vmem, ⟨72, _⟩ => ⟨S128x2048, .f32⟩
  | .local .tc .vmem, ⟨73, _⟩ => ⟨S128x2048, .f32⟩
  | .local .tc .vmem, ⟨74, _⟩ => ⟨S1x2048, .f32⟩
  | .local .tc .vmem, ⟨75, _⟩ => ⟨S1x2048, .f32⟩
  | .local .scVector .vmem, ⟨0, _⟩ => ⟨S256, .i32⟩
  | .local .scVector .vmem, ⟨1, _⟩ => ⟨S256, .f32⟩
  | .local .scVector .vmem, ⟨2, _⟩ => ⟨S256, .i32⟩
  | .local .scVector .vmem, ⟨3, _⟩ => ⟨S256, .f32⟩
  | .local .scVector .vmem, ⟨4, _⟩ => ⟨S256, .i32⟩
  | .local .scVector .vmem, ⟨5, _⟩ => ⟨S256, .f32⟩
  | .local .scVector .vmem, ⟨6, _⟩ => ⟨S256, .i32⟩
  | .local .scVector .vmem, ⟨7, _⟩ => ⟨S256, .f32⟩
  | _, _ => ⟨S4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 96 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => false
  | ⟨25, _⟩ => false
  | ⟨26, _⟩ => false
  | ⟨27, _⟩ => false
  | ⟨28, _⟩ => false
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => false
  | ⟨49, _⟩ => false
  | ⟨50, _⟩ => false
  | ⟨51, _⟩ => false
  | ⟨52, _⟩ => false
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => false
  | ⟨73, _⟩ => false
  | ⟨74, _⟩ => false
  | ⟨75, _⟩ => false
  | ⟨76, _⟩ => false
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTables nBuf rfl bufTy 4 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v3_scv : Ref sig .scVector := ⟨.hbm, 17, rfl⟩
abbrev main_arg1_scv : Ref sig .scVector := ⟨.hbm, 1, rfl⟩
abbrev main_v4_scv : Ref sig .scVector := ⟨.hbm, 18, rfl⟩
abbrev main_v8_scv : Ref sig .scVector := ⟨.hbm, 22, rfl⟩
abbrev main_arg2_scv : Ref sig .scVector := ⟨.hbm, 2, rfl⟩
abbrev main_v9_scv : Ref sig .scVector := ⟨.hbm, 23, rfl⟩
abbrev main_v13_scv : Ref sig .scVector := ⟨.hbm, 27, rfl⟩
abbrev main_arg3_scv : Ref sig .scVector := ⟨.hbm, 3, rfl⟩
abbrev main_v14_scv : Ref sig .scVector := ⟨.hbm, 28, rfl⟩
abbrev main_v18_scv : Ref sig .scVector := ⟨.hbm, 32, rfl⟩
abbrev main_arg4_scv : Ref sig .scVector := ⟨.hbm, 4, rfl⟩
abbrev main_v19_scv : Ref sig .scVector := ⟨.hbm, 33, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg10_0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc3_stg5_0 : Ref sig .tc := ⟨.vmem, 28, rfl⟩
abbrev cc3_stg5_1 : Ref sig .tc := ⟨.vmem, 29, rfl⟩
abbrev cc3_stg6_0 : Ref sig .tc := ⟨.vmem, 30, rfl⟩
abbrev cc3_stg6_1 : Ref sig .tc := ⟨.vmem, 31, rfl⟩
abbrev cc3_stg7_0 : Ref sig .tc := ⟨.vmem, 32, rfl⟩
abbrev cc3_stg7_1 : Ref sig .tc := ⟨.vmem, 33, rfl⟩
abbrev cc3_stg8_0 : Ref sig .tc := ⟨.vmem, 34, rfl⟩
abbrev cc3_stg8_1 : Ref sig .tc := ⟨.vmem, 35, rfl⟩
abbrev cc3_stg9_0 : Ref sig .tc := ⟨.vmem, 36, rfl⟩
abbrev cc3_stg10_0 : Ref sig .tc := ⟨.vmem, 37, rfl⟩
abbrev cc5_stg0_0 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg3_1 : Ref sig .tc := ⟨.vmem, 44, rfl⟩
abbrev cc5_stg4_0 : Ref sig .tc := ⟨.vmem, 45, rfl⟩
abbrev cc5_stg4_1 : Ref sig .tc := ⟨.vmem, 46, rfl⟩
abbrev cc5_stg5_0 : Ref sig .tc := ⟨.vmem, 47, rfl⟩
abbrev cc5_stg5_1 : Ref sig .tc := ⟨.vmem, 48, rfl⟩
abbrev cc5_stg6_0 : Ref sig .tc := ⟨.vmem, 49, rfl⟩
abbrev cc5_stg6_1 : Ref sig .tc := ⟨.vmem, 50, rfl⟩
abbrev cc5_stg7_0 : Ref sig .tc := ⟨.vmem, 51, rfl⟩
abbrev cc5_stg7_1 : Ref sig .tc := ⟨.vmem, 52, rfl⟩
abbrev cc5_stg8_0 : Ref sig .tc := ⟨.vmem, 53, rfl⟩
abbrev cc5_stg8_1 : Ref sig .tc := ⟨.vmem, 54, rfl⟩
abbrev cc5_stg9_0 : Ref sig .tc := ⟨.vmem, 55, rfl⟩
abbrev cc5_stg10_0 : Ref sig .tc := ⟨.vmem, 56, rfl⟩
abbrev cc7_stg0_0 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg2_1 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc7_stg5_0 : Ref sig .tc := ⟨.vmem, 66, rfl⟩
abbrev cc7_stg5_1 : Ref sig .tc := ⟨.vmem, 67, rfl⟩
abbrev cc7_stg6_0 : Ref sig .tc := ⟨.vmem, 68, rfl⟩
abbrev cc7_stg6_1 : Ref sig .tc := ⟨.vmem, 69, rfl⟩
abbrev cc7_stg7_0 : Ref sig .tc := ⟨.vmem, 70, rfl⟩
abbrev cc7_stg7_1 : Ref sig .tc := ⟨.vmem, 71, rfl⟩
abbrev cc7_stg8_0 : Ref sig .tc := ⟨.vmem, 72, rfl⟩
abbrev cc7_stg8_1 : Ref sig .tc := ⟨.vmem, 73, rfl⟩
abbrev cc7_stg9_0 : Ref sig .tc := ⟨.vmem, 74, rfl⟩
abbrev cc7_stg10_0 : Ref sig .tc := ⟨.vmem, 75, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc4_scratch0 : Ref sig .scVector := ⟨.vmem, 4, rfl⟩
abbrev cc4_scratch1 : Ref sig .scVector := ⟨.vmem, 5, rfl⟩
abbrev cc6_scratch0 : Ref sig .scVector := ⟨.vmem, 6, rfl⟩
abbrev cc6_scratch1 : Ref sig .scVector := ⟨.vmem, 7, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem10_0 : DmaSem sig := 23
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem5_1 : DmaSem sig := 39
abbrev cc3_sem6_0 : DmaSem sig := 40
abbrev cc3_sem6_1 : DmaSem sig := 41
abbrev cc3_sem7_0 : DmaSem sig := 42
abbrev cc3_sem7_1 : DmaSem sig := 43
abbrev cc3_sem8_0 : DmaSem sig := 44
abbrev cc3_sem8_1 : DmaSem sig := 45
abbrev cc3_sem9_0 : DmaSem sig := 46
abbrev cc3_sem10_0 : DmaSem sig := 47
abbrev cc5_sem0_0 : DmaSem sig := 53
abbrev cc5_sem1_0 : DmaSem sig := 54
abbrev cc5_sem1_1 : DmaSem sig := 55
abbrev cc5_sem2_0 : DmaSem sig := 56
abbrev cc5_sem2_1 : DmaSem sig := 57
abbrev cc5_sem3_0 : DmaSem sig := 58
abbrev cc5_sem3_1 : DmaSem sig := 59
abbrev cc5_sem4_0 : DmaSem sig := 60
abbrev cc5_sem4_1 : DmaSem sig := 61
abbrev cc5_sem5_0 : DmaSem sig := 62
abbrev cc5_sem5_1 : DmaSem sig := 63
abbrev cc5_sem6_0 : DmaSem sig := 64
abbrev cc5_sem6_1 : DmaSem sig := 65
abbrev cc5_sem7_0 : DmaSem sig := 66
abbrev cc5_sem7_1 : DmaSem sig := 67
abbrev cc5_sem8_0 : DmaSem sig := 68
abbrev cc5_sem8_1 : DmaSem sig := 69
abbrev cc5_sem9_0 : DmaSem sig := 70
abbrev cc5_sem10_0 : DmaSem sig := 71
abbrev cc7_sem0_0 : DmaSem sig := 77
abbrev cc7_sem1_0 : DmaSem sig := 78
abbrev cc7_sem1_1 : DmaSem sig := 79
abbrev cc7_sem2_0 : DmaSem sig := 80
abbrev cc7_sem2_1 : DmaSem sig := 81
abbrev cc7_sem3_0 : DmaSem sig := 82
abbrev cc7_sem3_1 : DmaSem sig := 83
abbrev cc7_sem4_0 : DmaSem sig := 84
abbrev cc7_sem4_1 : DmaSem sig := 85
abbrev cc7_sem5_0 : DmaSem sig := 86
abbrev cc7_sem5_1 : DmaSem sig := 87
abbrev cc7_sem6_0 : DmaSem sig := 88
abbrev cc7_sem6_1 : DmaSem sig := 89
abbrev cc7_sem7_0 : DmaSem sig := 90
abbrev cc7_sem7_1 : DmaSem sig := 91
abbrev cc7_sem8_0 : DmaSem sig := 92
abbrev cc7_sem8_1 : DmaSem sig := 93
abbrev cc7_sem9_0 : DmaSem sig := 94
abbrev cc7_sem10_0 : DmaSem sig := 95
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off3 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_10 : BitVec 32 := 128#32
  let v15 : BitVec 32 := Scalar.addi v2 c128_i32_10
  ![v15.toNat]
abbrev grid1 : Pipeline.Grid := ⟨1, ![4], ![false]⟩

def k1_off1 (i : grid1.Coords) (c0_i32_1 : BitVec 32) : Fin 2 → Nat :=
  let c0 : Index := 0#32
  let arg0 : BitVec 32 := BitVec.ofNat 32 (i 0).val
  let c128_i32 : BitVec 32 := 128#32
  let v4 : BitVec 32 := Scalar.muli arg0 c128_i32
  let v5 : BitVec 32 := Scalar.addi c0_i32_1 v4
  let v6 : Index := Scalar.indexCast v5
  ![0, v6.toNat]
def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x4096 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x4096 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨2, ![1, 16], ![false, false]⟩

def k2_off1 (i : grid2.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k2_off2 (i : grid2.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k2_off3 (i : grid2.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_10 : BitVec 32 := 128#32
  let v15 : BitVec 32 := Scalar.addi v2 c128_i32_10
  ![v15.toNat]
abbrev grid3 : Pipeline.Grid := ⟨1, ![4], ![false]⟩

def k3_off1 (i : grid3.Coords) (c0_i32_1 : BitVec 32) : Fin 2 → Nat :=
  let c0 : Index := 0#32
  let arg0 : BitVec 32 := BitVec.ofNat 32 (i 0).val
  let c128_i32 : BitVec 32 := 128#32
  let v4 : BitVec 32 := Scalar.muli arg0 c128_i32
  let v5 : BitVec 32 := Scalar.addi c0_i32_1 v4
  let v6 : Index := Scalar.indexCast v5
  ![0, v6.toNat]
def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc3_transform_3 (i : grid3.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc3_transform_4 (i : grid3.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc3_transform_5 (i : grid3.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc3_transform_6 (i : grid3.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc3_transform_7 (i : grid3.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc3_transform_8 (i : grid3.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc3_transform_9 (i : grid3.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

abbrev stage3_0 : Fin 1 → Memref sig .tc .vmem S1x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S128x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S128x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S128x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S128x4096 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S128x4096 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S128x4096 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S128x4096 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S128x4096 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S1x4096 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x4096 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev grid4 : Pipeline.Grid := ⟨2, ![1, 16], ![false, false]⟩

def k4_off1 (i : grid4.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k4_off2 (i : grid4.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k4_off3 (i : grid4.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_10 : BitVec 32 := 128#32
  let v15 : BitVec 32 := Scalar.addi v2 c128_i32_10
  ![v15.toNat]
abbrev grid5 : Pipeline.Grid := ⟨1, ![4], ![false]⟩

def k5_off1 (i : grid5.Coords) (c0_i32_1 : BitVec 32) : Fin 2 → Nat :=
  let c0 : Index := 0#32
  let arg0 : BitVec 32 := BitVec.ofNat 32 (i 0).val
  let c128_i32 : BitVec 32 := 128#32
  let v4 : BitVec 32 := Scalar.muli arg0 c128_i32
  let v5 : BitVec 32 := Scalar.addi c0_i32_1 v4
  let v6 : Index := Scalar.indexCast v5
  ![0, v6.toNat]
def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc5_transform_3 (i : grid5.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc5_transform_4 (i : grid5.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc5_transform_5 (i : grid5.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc5_transform_6 (i : grid5.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc5_transform_7 (i : grid5.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc5_transform_8 (i : grid5.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc5_transform_9 (i : grid5.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

abbrev stage5_0 : Fin 1 → Memref sig .tc .vmem S1x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 2 → Memref sig .tc .vmem S128x4096 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S128x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S128x4096 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S128x4096 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S128x4096 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S128x4096 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S128x4096 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S128x4096 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev stage5_9 : Fin 1 → Memref sig .tc .vmem S1x4096 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x4096 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev grid6 : Pipeline.Grid := ⟨2, ![1, 16], ![false, false]⟩

def k6_off1 (i : grid6.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k6_off2 (i : grid6.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k6_off3 (i : grid6.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c256_i32 : BitVec 32 := 256#32
  let v2 : BitVec 32 := Scalar.muli v1 c256_i32
  let c128_i32_10 : BitVec 32 := 128#32
  let v15 : BitVec 32 := Scalar.addi v2 c128_i32_10
  ![v15.toNat]
abbrev grid7 : Pipeline.Grid := ⟨1, ![4], ![false]⟩

def k7_off1 (i : grid7.Coords) (c0_i32_1 : BitVec 32) : Fin 2 → Nat :=
  let c0 : Index := 0#32
  let arg0 : BitVec 32 := BitVec.ofNat 32 (i 0).val
  let c128_i32 : BitVec 32 := 128#32
  let v4 : BitVec 32 := Scalar.muli arg0 c128_i32
  let v5 : BitVec 32 := Scalar.addi c0_i32_1 v4
  let v6 : Index := Scalar.indexCast v5
  ![0, v6.toNat]
def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc7_transform_2 (i : grid7.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc7_transform_3 (i : grid7.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc7_transform_4 (i : grid7.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc7_transform_5 (i : grid7.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc7_transform_6 (i : grid7.Coords) : Fin 2 → Nat :=
  let arg0 : BitVec 32 := BitVec.ofNat 32 (i 0).val
  let c20_i32 : BitVec 32 := 20#32
  let v0 : BitVec 32 := Scalar.addi c20_i32 arg0
  let c0_i32 : BitVec 32 := 0#32
  let c0_i32_0 : BitVec 32 := 0#32
  ![v0.toNat, c0_i32.toNat]

def cc7_transform_7 (i : grid7.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc7_transform_8 (i : grid7.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1x4096 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 2 → Memref sig .tc .vmem S128x2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S128x2048 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S128x2048 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S128x2048 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S128x2048 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S128x2048 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S128x2048 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S128x2048 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev stage7_9 : Fin 1 → Memref sig .tc .vmem S1x2048 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x2048 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 1 | 1 => 1 | 2 => 1 | 3 => 1 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  shapeCasts_S4096_S1x4096 : S4096.ShapeCasts S1x4096
  bcast_S_S1x12288 : S_.BroadcastsInDim S1x12288 (![] : Fin 0 → Fin S1x12288.rank)
  concatenates_S1x4096_S1x12288_S1x16384_d1 : Shape.Concatenates [S1x4096, S1x12288] S1x16384 1
  shapeCasts_S1x16384_S16384 : S1x16384.ShapeCasts S16384
  inb_S256_S128_0 : ∀ a, (![0] : Fin 1 → Nat) a + S128.size a ≤ S256.size a
  inb_S16384_S16384_0 : ∀ a, (![0] : Fin 1 → Nat) a + S16384.size a ≤ S16384.size a
  gathers_S16384_S128 : S16384.Gathers 0 S128
  inb_S256_S128_128 : ∀ a, (![128] : Fin 1 → Nat) a + S128.size a ≤ S256.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  h_S1x128 : 0 < S1x128.numel
  shapeCasts_S1x128_S1x128 : S1x128.ShapeCasts S1x128
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S128x2048_S128x2048_0_0 : ∀ a, (![0, 0] : Fin 2 → Nat) a + S128x2048.size a ≤ S128x2048.size a
  h_S128x2048 : 0 < S128x2048.numel
  shapeCasts_S1x2048_S2048 : S1x2048.ShapeCasts S2048
  dot_S1x128_S128x4096_S1x4096_1_0_0_1_n_n_wf : DotDims.WF S1x128 S128x4096 S1x4096 [1] [0] [0] [1] [] []
  dot_S1x128_S128x2048_S1x2048_1_0_0_1_n_n_wf : DotDims.WF S1x128 S128x2048 S1x2048 [1] [0] [0] [1] [] []
  hcc0_scratch2 : 0 + S_.numel ≤ 96
  hcc0_scratch3 : 1 + S_.numel ≤ 96
  hcc0_scoped0 : 2 + S_.numel ≤ 96
  hcc0_scoped1 : 3 + S_.numel ≤ 96
  hcc0_scoped2 : 4 + S_.numel ≤ 96
  hcc2_scratch2 : 24 + S_.numel ≤ 96
  hcc2_scratch3 : 25 + S_.numel ≤ 96
  hcc2_scoped0 : 26 + S_.numel ≤ 96
  hcc2_scoped1 : 27 + S_.numel ≤ 96
  hcc2_scoped2 : 28 + S_.numel ≤ 96
  hcc4_scratch2 : 48 + S_.numel ≤ 96
  hcc4_scratch3 : 49 + S_.numel ≤ 96
  hcc4_scoped0 : 50 + S_.numel ≤ 96
  hcc4_scoped1 : 51 + S_.numel ≤ 96
  hcc4_scoped2 : 52 + S_.numel ≤ 96
  hcc6_scratch2 : 72 + S_.numel ≤ 96
  hcc6_scratch3 : 73 + S_.numel ≤ 96
  hcc6_scoped0 : 74 + S_.numel ≤ 96
  hcc6_scoped1 : 75 + S_.numel ≤ 96
  hcc6_scoped2 : 76 + S_.numel ≤ 96
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S256.size a ≤ S4096.size a
  k0_off2_inb : ∀ i : grid0.Coords, ∀ a, (k0_off2 i) a + S128.size a ≤ S4096.size a
  k0_off3_inb : ∀ i : grid0.Coords, ∀ a, (k0_off3 i) a + S128.size a ≤ S4096.size a
  hrank1 : 0 < grid1.rank
  k1_off1_inb : ∀ i : grid1.Coords, ∀ (r : Fin 8), ∀ a, (k1_off1 i (BitVec.ofNat 32 (512 * r.val))) a + S1x128.size a ≤ S1x4096.size a
  hstage1_0 : ∀ j, (stage1_0 j).IsWhole
  nbuf1_0 : grid1.bufCount reads1_0 true = 1
  hreads1_0 : ∀ i i' : grid1.Coords, (∀ a, reads1_0 a = true → i a = i' a) → cc1_transform_1 i = cc1_transform_1 i'
  hinb1_0 : ∀ (i : grid1.Coords) a, (cc1_transform_1 i a + 1) * S1x4096.size a ≤ S1x4096.size a
  hwx1_0 : ∀ i : grid1.Coords, EltTy.bits .f32 = 32 ∨ (Rect.block (s := S1x4096) S1x4096.size (cc1_transform_1 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_2 i = cc1_transform_2 i'
  hinb1_1 : ∀ (i : grid1.Coords) a, (cc1_transform_2 i a + 1) * S128x4096.size a ≤ S4096x4096.size a
  hwx1_1 : ∀ i : grid1.Coords, EltTy.bits .f32 = 32 ∨ (Rect.block (s := S4096x4096) S128x4096.size (cc1_transform_2 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_3 i = cc1_transform_3 i'
  hinb1_2 : ∀ (i : grid1.Coords) a, (cc1_transform_3 i a + 1) * S128x4096.size a ≤ S4096x4096.size a
  hwx1_2 : ∀ i : grid1.Coords, EltTy.bits .f32 = 32 ∨ (Rect.block (s := S4096x4096) S128x4096.size (cc1_transform_3 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_4 i = cc1_transform_4 i'
  hinb1_3 : ∀ (i : grid1.Coords) a, (cc1_transform_4 i a + 1) * S128x4096.size a ≤ S4096x4096.size a
  hwx1_3 : ∀ i : grid1.Coords, EltTy.bits .f32 = 32 ∨ (Rect.block (s := S4096x4096) S128x4096.size (cc1_transform_4 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_5 i = cc1_transform_5 i'
  hinb1_4 : ∀ (i : grid1.Coords) a, (cc1_transform_5 i a + 1) * S128x4096.size a ≤ S4096x4096.size a
  hwx1_4 : ∀ i : grid1.Coords, EltTy.bits .f32 = 32 ∨ (Rect.block (s := S4096x4096) S128x4096.size (cc1_transform_5 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_6 i = cc1_transform_6 i'
  hinb1_5 : ∀ (i : grid1.Coords) a, (cc1_transform_6 i a + 1) * S128x4096.size a ≤ S4096x4096.size a
  hwx1_5 : ∀ i : grid1.Coords, EltTy.bits .f32 = 32 ∨ (Rect.block (s := S4096x4096) S128x4096.size (cc1_transform_6 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_7 i = cc1_transform_7 i'
  hinb1_6 : ∀ (i : grid1.Coords) a, (cc1_transform_7 i a + 1) * S128x4096.size a ≤ S4096x4096.size a
  hwx1_6 : ∀ i : grid1.Coords, EltTy.bits .f32 = 32 ∨ (Rect.block (s := S4096x4096) S128x4096.size (cc1_transform_7 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_8 i = cc1_transform_8 i'
  hinb1_7 : ∀ (i : grid1.Coords) a, (cc1_transform_8 i a + 1) * S128x4096.size a ≤ S4096x4096.size a
  hwx1_7 : ∀ i : grid1.Coords, EltTy.bits .f32 = 32 ∨ (Rect.block (s := S4096x4096) S128x4096.size (cc1_transform_8 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_9 i = cc1_transform_9 i'
  hinb1_8 : ∀ (i : grid1.Coords) a, (cc1_transform_9 i a + 1) * S128x4096.size a ≤ S4096x4096.size a
  hwx1_8 : ∀ i : grid1.Coords, EltTy.bits .f32 = 32 ∨ (Rect.block (s := S4096x4096) S128x4096.size (cc1_transform_9 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_10 i = cc1_transform_10 i'
  hinb1_9 : ∀ (i : grid1.Coords) a, (cc1_transform_10 i a + 1) * S1x4096.size a ≤ S1x4096.size a
  hwx1_9 : ∀ i : grid1.Coords, EltTy.bits .f32 = 32 ∨ (Rect.block (s := S1x4096) S1x4096.size (cc1_transform_10 i) (hinb1_9 i)).WholeWords (EltTy.packing .f32)
  hstage1_10 : ∀ j, (stage1_10 j).IsWhole
  nbuf1_10 : grid1.bufCount reads1_10 false = 1
  hreads1_10 : ∀ i i' : grid1.Coords, (∀ a, reads1_10 a = true → i a = i' a) → cc1_transform_11 i = cc1_transform_11 i'
  hinb1_10 : ∀ (i : grid1.Coords) a, (cc1_transform_11 i a + 1) * S1x4096.size a ≤ S1x16384.size a
  hwx1_10 : ∀ i : grid1.Coords, EltTy.bits .f32 = 32 ∨ (Rect.block (s := S1x16384) S1x4096.size (cc1_transform_11 i) (hinb1_10 i)).WholeWords (EltTy.packing .f32)
  hcore2 : grid2.bound 0 ≤ τ.nSC
  hsub2 : grid2.bound 1 ≤ τ.nSub
  k2_off1_inb : ∀ i : grid2.Coords, ∀ a, (k2_off1 i) a + S256.size a ≤ S4096.size a
  k2_off2_inb : ∀ i : grid2.Coords, ∀ a, (k2_off2 i) a + S128.size a ≤ S4096.size a
  k2_off3_inb : ∀ i : grid2.Coords, ∀ a, (k2_off3 i) a + S128.size a ≤ S4096.size a
  hrank3 : 0 < grid3.rank
  k3_off1_inb : ∀ i : grid3.Coords, ∀ (r : Fin 8), ∀ a, (k3_off1 i (BitVec.ofNat 32 (512 * r.val))) a + S1x128.size a ≤ S1x4096.size a
  hstage3_0 : ∀ j, (stage3_0 j).IsWhole
  nbuf3_0 : grid3.bufCount reads3_0 true = 1
  hreads3_0 : ∀ i i' : grid3.Coords, (∀ a, reads3_0 a = true → i a = i' a) → cc3_transform_1 i = cc3_transform_1 i'
  hinb3_0 : ∀ (i : grid3.Coords) a, (cc3_transform_1 i a + 1) * S1x4096.size a ≤ S1x4096.size a
  hwx3_0 : ∀ i : grid3.Coords, EltTy.bits .f32 = 32 ∨ (Rect.block (s := S1x4096) S1x4096.size (cc3_transform_1 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_2 i = cc3_transform_2 i'
  hinb3_1 : ∀ (i : grid3.Coords) a, (cc3_transform_2 i a + 1) * S128x4096.size a ≤ S4096x4096.size a
  hwx3_1 : ∀ i : grid3.Coords, EltTy.bits .f32 = 32 ∨ (Rect.block (s := S4096x4096) S128x4096.size (cc3_transform_2 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_3 i = cc3_transform_3 i'
  hinb3_2 : ∀ (i : grid3.Coords) a, (cc3_transform_3 i a + 1) * S128x4096.size a ≤ S4096x4096.size a
  hwx3_2 : ∀ i : grid3.Coords, EltTy.bits .f32 = 32 ∨ (Rect.block (s := S4096x4096) S128x4096.size (cc3_transform_3 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_4 i = cc3_transform_4 i'
  hinb3_3 : ∀ (i : grid3.Coords) a, (cc3_transform_4 i a + 1) * S128x4096.size a ≤ S4096x4096.size a
  hwx3_3 : ∀ i : grid3.Coords, EltTy.bits .f32 = 32 ∨ (Rect.block (s := S4096x4096) S128x4096.size (cc3_transform_4 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_5 i = cc3_transform_5 i'
  hinb3_4 : ∀ (i : grid3.Coords) a, (cc3_transform_5 i a + 1) * S128x4096.size a ≤ S4096x4096.size a
  hwx3_4 : ∀ i : grid3.Coords, EltTy.bits .f32 = 32 ∨ (Rect.block (s := S4096x4096) S128x4096.size (cc3_transform_5 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_6 i = cc3_transform_6 i'
  hinb3_5 : ∀ (i : grid3.Coords) a, (cc3_transform_6 i a + 1) * S128x4096.size a ≤ S4096x4096.size a
  hwx3_5 : ∀ i : grid3.Coords, EltTy.bits .f32 = 32 ∨ (Rect.block (s := S4096x4096) S128x4096.size (cc3_transform_6 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_7 i = cc3_transform_7 i'
  hinb3_6 : ∀ (i : grid3.Coords) a, (cc3_transform_7 i a + 1) * S128x4096.size a ≤ S4096x4096.size a
  hwx3_6 : ∀ i : grid3.Coords, EltTy.bits .f32 = 32 ∨ (Rect.block (s := S4096x4096) S128x4096.size (cc3_transform_7 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_8 i = cc3_transform_8 i'
  hinb3_7 : ∀ (i : grid3.Coords) a, (cc3_transform_8 i a + 1) * S128x4096.size a ≤ S4096x4096.size a
  hwx3_7 : ∀ i : grid3.Coords, EltTy.bits .f32 = 32 ∨ (Rect.block (s := S4096x4096) S128x4096.size (cc3_transform_8 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_9 i = cc3_transform_9 i'
  hinb3_8 : ∀ (i : grid3.Coords) a, (cc3_transform_9 i a + 1) * S128x4096.size a ≤ S4096x4096.size a
  hwx3_8 : ∀ i : grid3.Coords, EltTy.bits .f32 = 32 ∨ (Rect.block (s := S4096x4096) S128x4096.size (cc3_transform_9 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_10 i = cc3_transform_10 i'
  hinb3_9 : ∀ (i : grid3.Coords) a, (cc3_transform_10 i a + 1) * S1x4096.size a ≤ S1x4096.size a
  hwx3_9 : ∀ i : grid3.Coords, EltTy.bits .f32 = 32 ∨ (Rect.block (s := S1x4096) S1x4096.size (cc3_transform_10 i) (hinb3_9 i)).WholeWords (EltTy.packing .f32)
  hstage3_10 : ∀ j, (stage3_10 j).IsWhole
  nbuf3_10 : grid3.bufCount reads3_10 false = 1
  hreads3_10 : ∀ i i' : grid3.Coords, (∀ a, reads3_10 a = true → i a = i' a) → cc3_transform_11 i = cc3_transform_11 i'
  hinb3_10 : ∀ (i : grid3.Coords) a, (cc3_transform_11 i a + 1) * S1x4096.size a ≤ S1x16384.size a
  hwx3_10 : ∀ i : grid3.Coords, EltTy.bits .f32 = 32 ∨ (Rect.block (s := S1x16384) S1x4096.size (cc3_transform_11 i) (hinb3_10 i)).WholeWords (EltTy.packing .f32)
  hcore4 : grid4.bound 0 ≤ τ.nSC
  hsub4 : grid4.bound 1 ≤ τ.nSub
  k4_off1_inb : ∀ i : grid4.Coords, ∀ a, (k4_off1 i) a + S256.size a ≤ S4096.size a
  k4_off2_inb : ∀ i : grid4.Coords, ∀ a, (k4_off2 i) a + S128.size a ≤ S4096.size a
  k4_off3_inb : ∀ i : grid4.Coords, ∀ a, (k4_off3 i) a + S128.size a ≤ S4096.size a
  hrank5 : 0 < grid5.rank
  k5_off1_inb : ∀ i : grid5.Coords, ∀ (r : Fin 8), ∀ a, (k5_off1 i (BitVec.ofNat 32 (512 * r.val))) a + S1x128.size a ≤ S1x4096.size a
  hstage5_0 : ∀ j, (stage5_0 j).IsWhole
  nbuf5_0 : grid5.bufCount reads5_0 true = 1
  hreads5_0 : ∀ i i' : grid5.Coords, (∀ a, reads5_0 a = true → i a = i' a) → cc5_transform_1 i = cc5_transform_1 i'
  hinb5_0 : ∀ (i : grid5.Coords) a, (cc5_transform_1 i a + 1) * S1x4096.size a ≤ S1x4096.size a
  hwx5_0 : ∀ i : grid5.Coords, EltTy.bits .f32 = 32 ∨ (Rect.block (s := S1x4096) S1x4096.size (cc5_transform_1 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_2 i = cc5_transform_2 i'
  hinb5_1 : ∀ (i : grid5.Coords) a, (cc5_transform_2 i a + 1) * S128x4096.size a ≤ S4096x4096.size a
  hwx5_1 : ∀ i : grid5.Coords, EltTy.bits .f32 = 32 ∨ (Rect.block (s := S4096x4096) S128x4096.size (cc5_transform_2 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_3 i = cc5_transform_3 i'
  hinb5_2 : ∀ (i : grid5.Coords) a, (cc5_transform_3 i a + 1) * S128x4096.size a ≤ S4096x4096.size a
  hwx5_2 : ∀ i : grid5.Coords, EltTy.bits .f32 = 32 ∨ (Rect.block (s := S4096x4096) S128x4096.size (cc5_transform_3 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_4 i = cc5_transform_4 i'
  hinb5_3 : ∀ (i : grid5.Coords) a, (cc5_transform_4 i a + 1) * S128x4096.size a ≤ S4096x4096.size a
  hwx5_3 : ∀ i : grid5.Coords, EltTy.bits .f32 = 32 ∨ (Rect.block (s := S4096x4096) S128x4096.size (cc5_transform_4 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_5 i = cc5_transform_5 i'
  hinb5_4 : ∀ (i : grid5.Coords) a, (cc5_transform_5 i a + 1) * S128x4096.size a ≤ S4096x4096.size a
  hwx5_4 : ∀ i : grid5.Coords, EltTy.bits .f32 = 32 ∨ (Rect.block (s := S4096x4096) S128x4096.size (cc5_transform_5 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_6 i = cc5_transform_6 i'
  hinb5_5 : ∀ (i : grid5.Coords) a, (cc5_transform_6 i a + 1) * S128x4096.size a ≤ S4096x4096.size a
  hwx5_5 : ∀ i : grid5.Coords, EltTy.bits .f32 = 32 ∨ (Rect.block (s := S4096x4096) S128x4096.size (cc5_transform_6 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_7 i = cc5_transform_7 i'
  hinb5_6 : ∀ (i : grid5.Coords) a, (cc5_transform_7 i a + 1) * S128x4096.size a ≤ S4096x4096.size a
  hwx5_6 : ∀ i : grid5.Coords, EltTy.bits .f32 = 32 ∨ (Rect.block (s := S4096x4096) S128x4096.size (cc5_transform_7 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_8 i = cc5_transform_8 i'
  hinb5_7 : ∀ (i : grid5.Coords) a, (cc5_transform_8 i a + 1) * S128x4096.size a ≤ S4096x4096.size a
  hwx5_7 : ∀ i : grid5.Coords, EltTy.bits .f32 = 32 ∨ (Rect.block (s := S4096x4096) S128x4096.size (cc5_transform_8 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_9 i = cc5_transform_9 i'
  hinb5_8 : ∀ (i : grid5.Coords) a, (cc5_transform_9 i a + 1) * S128x4096.size a ≤ S4096x4096.size a
  hwx5_8 : ∀ i : grid5.Coords, EltTy.bits .f32 = 32 ∨ (Rect.block (s := S4096x4096) S128x4096.size (cc5_transform_9 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_10 i = cc5_transform_10 i'
  hinb5_9 : ∀ (i : grid5.Coords) a, (cc5_transform_10 i a + 1) * S1x4096.size a ≤ S1x4096.size a
  hwx5_9 : ∀ i : grid5.Coords, EltTy.bits .f32 = 32 ∨ (Rect.block (s := S1x4096) S1x4096.size (cc5_transform_10 i) (hinb5_9 i)).WholeWords (EltTy.packing .f32)
  hstage5_10 : ∀ j, (stage5_10 j).IsWhole
  nbuf5_10 : grid5.bufCount reads5_10 false = 1
  hreads5_10 : ∀ i i' : grid5.Coords, (∀ a, reads5_10 a = true → i a = i' a) → cc5_transform_11 i = cc5_transform_11 i'
  hinb5_10 : ∀ (i : grid5.Coords) a, (cc5_transform_11 i a + 1) * S1x4096.size a ≤ S1x16384.size a
  hwx5_10 : ∀ i : grid5.Coords, EltTy.bits .f32 = 32 ∨ (Rect.block (s := S1x16384) S1x4096.size (cc5_transform_11 i) (hinb5_10 i)).WholeWords (EltTy.packing .f32)
  hcore6 : grid6.bound 0 ≤ τ.nSC
  hsub6 : grid6.bound 1 ≤ τ.nSub
  k6_off1_inb : ∀ i : grid6.Coords, ∀ a, (k6_off1 i) a + S256.size a ≤ S4096.size a
  k6_off2_inb : ∀ i : grid6.Coords, ∀ a, (k6_off2 i) a + S128.size a ≤ S4096.size a
  k6_off3_inb : ∀ i : grid6.Coords, ∀ a, (k6_off3 i) a + S128.size a ≤ S4096.size a
  hrank7 : 0 < grid7.rank
  k7_off1_inb : ∀ i : grid7.Coords, ∀ (r : Fin 8), ∀ a, (k7_off1 i (BitVec.ofNat 32 (512 * r.val))) a + S1x128.size a ≤ S1x4096.size a
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1x4096.size a ≤ S1x4096.size a
  hwx7_0 : ∀ i : grid7.Coords, EltTy.bits .f32 = 32 ∨ (Rect.block (s := S1x4096) S1x4096.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S128x2048.size a ≤ S4096x2048.size a
  hwx7_1 : ∀ i : grid7.Coords, EltTy.bits .f32 = 32 ∨ (Rect.block (s := S4096x2048) S128x2048.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S128x2048.size a ≤ S4096x2048.size a
  hwx7_2 : ∀ i : grid7.Coords, EltTy.bits .f32 = 32 ∨ (Rect.block (s := S4096x2048) S128x2048.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S128x2048.size a ≤ S4096x2048.size a
  hwx7_3 : ∀ i : grid7.Coords, EltTy.bits .f32 = 32 ∨ (Rect.block (s := S4096x2048) S128x2048.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S128x2048.size a ≤ S4096x2048.size a
  hwx7_4 : ∀ i : grid7.Coords, EltTy.bits .f32 = 32 ∨ (Rect.block (s := S4096x2048) S128x2048.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S128x2048.size a ≤ S4096x2048.size a
  hwx7_5 : ∀ i : grid7.Coords, EltTy.bits .f32 = 32 ∨ (Rect.block (s := S4096x2048) S128x2048.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S128x2048.size a ≤ S4096x2048.size a
  hwx7_6 : ∀ i : grid7.Coords, EltTy.bits .f32 = 32 ∨ (Rect.block (s := S4096x2048) S128x2048.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S128x2048.size a ≤ S4096x2048.size a
  hwx7_7 : ∀ i : grid7.Coords, EltTy.bits .f32 = 32 ∨ (Rect.block (s := S4096x2048) S128x2048.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S128x2048.size a ≤ S4096x2048.size a
  hwx7_8 : ∀ i : grid7.Coords, EltTy.bits .f32 = 32 ∨ (Rect.block (s := S4096x2048) S128x2048.size (cc7_transform_8 i) (hinb7_8 i)).WholeWords (EltTy.packing .f32)
  hstage7_9 : ∀ j, (stage7_9 j).IsWhole
  nbuf7_9 : grid7.bufCount reads7_9 true = 1
  hreads7_9 : ∀ i i' : grid7.Coords, (∀ a, reads7_9 a = true → i a = i' a) → cc7_transform_9 i = cc7_transform_9 i'
  hinb7_9 : ∀ (i : grid7.Coords) a, (cc7_transform_9 i a + 1) * S1x2048.size a ≤ S1x2048.size a
  hwx7_9 : ∀ i : grid7.Coords, EltTy.bits .f32 = 32 ∨ (Rect.block (s := S1x2048) S1x2048.size (cc7_transform_9 i) (hinb7_9 i)).WholeWords (EltTy.packing .f32)
  hstage7_10 : ∀ j, (stage7_10 j).IsWhole
  nbuf7_10 : grid7.bufCount reads7_10 true = 1
  hreads7_10 : ∀ i i' : grid7.Coords, (∀ a, reads7_10 a = true → i a = i' a) → cc7_transform_10 i = cc7_transform_10 i'
  hinb7_10 : ∀ (i : grid7.Coords) a, (cc7_transform_10 i a + 1) * S1x2048.size a ≤ S1x2048.size a
  hwx7_10 : ∀ i : grid7.Coords, EltTy.bits .f32 = 32 ∨ (Rect.block (s := S1x2048) S1x2048.size (cc7_transform_10 i) (hinb7_10 i)).WholeWords (EltTy.packing .f32)

variable [Facts₀]

abbrev cc0_scratch2 : DmaSems sig S_ := SemArray.consecutive 0 S_ hcc0_scratch2
abbrev cc0_scratch3 : DmaSems sig S_ := SemArray.consecutive 1 S_ hcc0_scratch3
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc2_scratch2 : DmaSems sig S_ := SemArray.consecutive 24 S_ hcc2_scratch2
abbrev cc2_scratch3 : DmaSems sig S_ := SemArray.consecutive 25 S_ hcc2_scratch3
abbrev cc2_scoped0 : DmaSems sig S_ := SemArray.consecutive 26 S_ hcc2_scoped0
abbrev cc2_scoped1 : DmaSems sig S_ := SemArray.consecutive 27 S_ hcc2_scoped1
abbrev cc2_scoped2 : DmaSems sig S_ := SemArray.consecutive 28 S_ hcc2_scoped2
abbrev cc4_scratch2 : DmaSems sig S_ := SemArray.consecutive 48 S_ hcc4_scratch2
abbrev cc4_scratch3 : DmaSems sig S_ := SemArray.consecutive 49 S_ hcc4_scratch3
abbrev cc4_scoped0 : DmaSems sig S_ := SemArray.consecutive 50 S_ hcc4_scoped0
abbrev cc4_scoped1 : DmaSems sig S_ := SemArray.consecutive 51 S_ hcc4_scoped1
abbrev cc4_scoped2 : DmaSems sig S_ := SemArray.consecutive 52 S_ hcc4_scoped2
abbrev cc6_scratch2 : DmaSems sig S_ := SemArray.consecutive 72 S_ hcc6_scratch2
abbrev cc6_scratch3 : DmaSems sig S_ := SemArray.consecutive 73 S_ hcc6_scratch3
abbrev cc6_scoped0 : DmaSems sig S_ := SemArray.consecutive 74 S_ hcc6_scoped0
abbrev cc6_scoped1 : DmaSems sig S_ := SemArray.consecutive 75 S_ hcc6_scoped1
abbrev cc6_scoped2 : DmaSems sig S_ := SemArray.consecutive 76 S_ hcc6_scoped2
def dot_S1x128_S128x4096_S1x4096_1_0_0_1_n_n : DotDims S1x128 S128x4096 S1x4096 where
  lhsContracting := [1]
  rhsContracting := [0]
  lhsNonContracting := [0]
  rhsNonContracting := [1]
  lhsBatch := []
  rhsBatch := []
  wf := dot_S1x128_S128x4096_S1x4096_1_0_0_1_n_n_wf
def dot_S1x128_S128x2048_S1x2048_1_0_0_1_n_n : DotDims S1x128 S128x2048 S1x2048 where
  lhsContracting := [1]
  rhsContracting := [0]
  lhsNonContracting := [0]
  rhsNonContracting := [1]
  lhsBatch := []
  rhsBatch := []
  wf := dot_S1x128_S128x2048_S1x2048_1_0_0_1_n_n_wf

abbrev win1_0 : Pipeline.Window sig grid1 :=
  Pipeline.Window.ofSpec (Memref.whole main_v5) S1x4096.size cc1_transform_1 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x4096.size cc1_transform_2 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x4096.size cc1_transform_3 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x4096.size cc1_transform_4 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x4096.size cc1_transform_5 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x4096.size cc1_transform_6 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S128x4096.size cc1_transform_7 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg5) S128x4096.size cc1_transform_8 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg5) S128x4096.size cc1_transform_9 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v6) S1x4096.size cc1_transform_10 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v7) S1x4096.size cc1_transform_11 reads1_10 true false 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win3_0 : Pipeline.Window sig grid3 :=
  Pipeline.Window.ofSpec (Memref.whole main_v10) S1x4096.size cc3_transform_1 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x4096.size cc3_transform_2 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x4096.size cc3_transform_3 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S128x4096.size cc3_transform_4 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S128x4096.size cc3_transform_5 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg6) S128x4096.size cc3_transform_6 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg6) S128x4096.size cc3_transform_7 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg6) S128x4096.size cc3_transform_8 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg6) S128x4096.size cc3_transform_9 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v11) S1x4096.size cc3_transform_10 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v12) S1x4096.size cc3_transform_11 reads3_10 true false 1 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win5_0 : Pipeline.Window sig grid5 :=
  Pipeline.Window.ofSpec (Memref.whole main_v15) S1x4096.size cc5_transform_1 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x4096.size cc5_transform_2 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg7) S128x4096.size cc5_transform_3 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg7) S128x4096.size cc5_transform_4 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_arg7) S128x4096.size cc5_transform_5 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_arg7) S128x4096.size cc5_transform_6 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_arg7) S128x4096.size cc5_transform_7 reads5_6 false false 2 stage5_6 sem5_6
    hrank5 hreads5_6 hinb5_6 nbuf5_6 (Memref.isWhole_whole _) hwx5_6 hstage5_6

abbrev win5_7 : Pipeline.Window sig grid5 :=
  Pipeline.Window.ofSpec (Memref.whole main_arg7) S128x4096.size cc5_transform_8 reads5_7 false false 2 stage5_7 sem5_7
    hrank5 hreads5_7 hinb5_7 nbuf5_7 (Memref.isWhole_whole _) hwx5_7 hstage5_7

abbrev win5_8 : Pipeline.Window sig grid5 :=
  Pipeline.Window.ofSpec (Memref.whole main_arg7) S128x4096.size cc5_transform_9 reads5_8 false false 2 stage5_8 sem5_8
    hrank5 hreads5_8 hinb5_8 nbuf5_8 (Memref.isWhole_whole _) hwx5_8 hstage5_8

abbrev win5_9 : Pipeline.Window sig grid5 :=
  Pipeline.Window.ofSpec (Memref.whole main_v16) S1x4096.size cc5_transform_10 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v17) S1x4096.size cc5_transform_11 reads5_10 true false 1 stage5_10 sem5_10
    hrank5 hreads5_10 hinb5_10 nbuf5_10 (Memref.isWhole_whole _) hwx5_10 hstage5_10

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win7_0 : Pipeline.Window sig grid7 :=
  Pipeline.Window.ofSpec (Memref.whole main_v20) S1x4096.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S128x2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg8) S128x2048.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg8) S128x2048.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_arg8) S128x2048.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_arg8) S128x2048.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_arg8) S128x2048.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_arg8) S128x2048.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_arg8) S128x2048.size cc7_transform_8 reads7_8 false false 2 stage7_8 sem7_8
    hrank7 hreads7_8 hinb7_8 nbuf7_8 (Memref.isWhole_whole _) hwx7_8 hstage7_8

abbrev win7_9 : Pipeline.Window sig grid7 :=
  Pipeline.Window.ofSpec (Memref.whole main_v21) S1x2048.size cc7_transform_9 reads7_9 false true 1 stage7_9 sem7_9
    hrank7 hreads7_9 hinb7_9 nbuf7_9 (Memref.isWhole_whole _) hwx7_9 hstage7_9

abbrev win7_10 : Pipeline.Window sig grid7 :=
  Pipeline.Window.ofSpec (Memref.whole main_v22) S1x2048.size cc7_transform_10 reads7_10 true true 1 stage7_10 sem7_10
    hrank7 hreads7_10 hinb7_10 nbuf7_10 (Memref.isWhole_whole _) hwx7_10 hstage7_10

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

class Facts : Prop extends Facts₀ where

variable [Facts]
-- ==== ReferenceIdeal.lean ====
abbrev S4096 : Shape := ⟨1, ![4096]⟩
abbrev S4096x4096 : Shape := ⟨2, ![4096, 4096]⟩
abbrev S4096x2048 : Shape := ⟨2, ![4096, 2048]⟩
abbrev S2048 : Shape := ⟨1, ![2048]⟩
abbrev S_ : Shape := ⟨0, ![]⟩
abbrev S18432 : Shape := ⟨1, ![18432]⟩
abbrev S4096x1 : Shape := ⟨2, ![4096, 1]⟩
abbrev S1 : Shape := ⟨1, ![1]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S4096, .f32⟩
  | 1 => ⟨S4096, .i32⟩
  | 2 => ⟨S4096, .i32⟩
  | 3 => ⟨S4096, .i32⟩
  | 4 => ⟨S4096, .i32⟩
  | 5 => ⟨S4096x4096, .f32⟩
  | 6 => ⟨S4096x4096, .f32⟩
  | 7 => ⟨S4096x4096, .f32⟩
  | 8 => ⟨S4096x2048, .f32⟩
  | 9 => ⟨S4096, .f32⟩
  | 10 => ⟨S4096, .f32⟩
  | 11 => ⟨S4096, .f32⟩
  | 12 => ⟨S2048, .f32⟩
  | 13 => ⟨S4096, .i32⟩
  | 14 => ⟨S4096, .i32⟩
  | 15 => ⟨S_, .i32⟩
  | 16 => ⟨S4096, .i32⟩
  | 17 => ⟨S4096, .i32⟩
  | 18 => ⟨S4096, .i32⟩
  | 19 => ⟨S_, .i32⟩
  | 20 => ⟨S4096, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .f32⟩
  | 27 => ⟨S18432, .f32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S18432, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S1, .i32⟩
  | 46 => ⟨S_, .i32⟩
  | 47 => ⟨S4096x1, .i32⟩
  | 48 => ⟨S4096x1, .i1⟩
  | 49 => ⟨S1x1, .i32⟩
  | 50 => ⟨S4096x1, .i32⟩
  | 51 => ⟨S4096x1, .i1⟩
  | 52 => ⟨S4096x1, .i1⟩
  | 53 => ⟨S_, .i1⟩
  | 54 => ⟨S4096, .i1⟩
  | 55 => ⟨S4096, .f32⟩
  | 56 => ⟨S_, .f32⟩
  | 57 => ⟨S4096, .f32⟩
  | 58 => ⟨S4096, .f32⟩
  | 59 => ⟨S4096, .f32⟩
  | 60 => ⟨S4096, .f32⟩
  | 61 => ⟨S4096, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S18432, .f32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S4096x1, .i32⟩
  | 79 => ⟨S1, .i32⟩
  | 80 => ⟨S_, .i32⟩
  | 81 => ⟨S4096x1, .i32⟩
  | 82 => ⟨S4096x1, .i1⟩
  | 83 => ⟨S1x1, .i32⟩
  | 84 => ⟨S4096x1, .i32⟩
  | 85 => ⟨S4096x1, .i1⟩
  | 86 => ⟨S4096x1, .i1⟩
  | 87 => ⟨S_, .i1⟩
  | 88 => ⟨S4096, .i1⟩
  | 89 => ⟨S4096, .f32⟩
  | 90 => ⟨S_, .f32⟩
  | 91 => ⟨S4096, .f32⟩
  | 92 => ⟨S4096, .f32⟩
  | 93 => ⟨S4096, .f32⟩
  | 94 => ⟨S4096, .f32⟩
  | 95 => ⟨S4096, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S18432, .f32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S4096, .i32⟩
  | 112 => ⟨S4096x1, .i32⟩
  | 113 => ⟨S1, .i32⟩
  | 114 => ⟨S_, .i32⟩
  | 115 => ⟨S4096x1, .i32⟩
  | 116 => ⟨S4096x1, .i1⟩
  | 117 => ⟨S1x1, .i32⟩
  | 118 => ⟨S4096x1, .i32⟩
  | 119 => ⟨S4096x1, .i1⟩
  | 120 => ⟨S4096x1, .i1⟩
  | 121 => ⟨S_, .i1⟩
  | 122 => ⟨S4096, .i1⟩
  | 123 => ⟨S4096, .f32⟩
  | 124 => ⟨S_, .f32⟩
  | 125 => ⟨S4096, .f32⟩
  | 126 => ⟨S4096, .f32⟩
  | 127 => ⟨S4096, .f32⟩
  | _ => ⟨S4096, .f32⟩

abbrev hbmTy0_1 (i : Nat) : BufTy := match i % 128 with
  | 0 => ⟨S4096, .f32⟩
  | 1 => ⟨S4096, .f32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S18432, .f32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S1, .i32⟩
  | 20 => ⟨S_, .i32⟩
  | 21 => ⟨S4096x1, .i32⟩
  | 22 => ⟨S4096x1, .i1⟩
  | 23 => ⟨S1x1, .i32⟩
  | 24 => ⟨S4096x1, .i32⟩
  | 25 => ⟨S4096x1, .i1⟩
  | 26 => ⟨S4096x1, .i1⟩
  | 27 => ⟨S_, .i1⟩
  | 28 => ⟨S4096, .i1⟩
  | 29 => ⟨S4096, .f32⟩
  | 30 => ⟨S_, .f32⟩
  | 31 => ⟨S4096, .f32⟩
  | 32 => ⟨S4096, .f32⟩
  | 33 => ⟨S2048, .f32⟩
  | 34 => ⟨S2048, .f32⟩
  | 35 => ⟨S2048, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_1 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_c_3 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_cst : Ref sig .tc := ⟨.hbm, 56, rfl⟩
abbrev main_call0_v14 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_c_4 : Ref sig .tc := ⟨.hbm, 62, rfl⟩
abbrev main_v22 : Ref sig .tc := ⟨.hbm, 63, rfl⟩
abbrev main_v23 : Ref sig .tc := ⟨.hbm, 64, rfl⟩
abbrev main_c_5 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_call1_c : Ref sig .tc := ⟨.hbm, 71, rfl⟩
abbrev main_call1_v0 : Ref sig .tc := ⟨.hbm, 72, rfl⟩
abbrev main_call1_v1 : Ref sig .tc := ⟨.hbm, 73, rfl⟩
abbrev main_call1_c_0 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_c_1 : Ref sig .tc := ⟨.hbm, 79, rfl⟩
abbrev main_call1_c_2 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_call1_c_3 : Ref sig .tc := ⟨.hbm, 87, rfl⟩
abbrev main_call1_v12 : Ref sig .tc := ⟨.hbm, 88, rfl⟩
abbrev main_call1_v13 : Ref sig .tc := ⟨.hbm, 89, rfl⟩
abbrev main_call1_cst : Ref sig .tc := ⟨.hbm, 90, rfl⟩
abbrev main_call1_v14 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_c_6 : Ref sig .tc := ⟨.hbm, 96, rfl⟩
abbrev main_v33 : Ref sig .tc := ⟨.hbm, 97, rfl⟩
abbrev main_v34 : Ref sig .tc := ⟨.hbm, 98, rfl⟩
abbrev main_c_7 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_call2_c : Ref sig .tc := ⟨.hbm, 105, rfl⟩
abbrev main_call2_v0 : Ref sig .tc := ⟨.hbm, 106, rfl⟩
abbrev main_call2_v1 : Ref sig .tc := ⟨.hbm, 107, rfl⟩
abbrev main_call2_c_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_c_1 : Ref sig .tc := ⟨.hbm, 113, rfl⟩
abbrev main_call2_c_2 : Ref sig .tc := ⟨.hbm, 114, rfl⟩
abbrev main_call2_v6 : Ref sig .tc := ⟨.hbm, 115, rfl⟩
abbrev main_call2_v7 : Ref sig .tc := ⟨.hbm, 116, rfl⟩
abbrev main_call2_v8 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_3 : Ref sig .tc := ⟨.hbm, 121, rfl⟩
abbrev main_call2_v12 : Ref sig .tc := ⟨.hbm, 122, rfl⟩
abbrev main_call2_v13 : Ref sig .tc := ⟨.hbm, 123, rfl⟩
abbrev main_call2_cst : Ref sig .tc := ⟨.hbm, 124, rfl⟩
abbrev main_call2_v14 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_c_8 : Ref sig .tc := ⟨.hbm, 130, rfl⟩
abbrev main_v44 : Ref sig .tc := ⟨.hbm, 131, rfl⟩
abbrev main_v45 : Ref sig .tc := ⟨.hbm, 132, rfl⟩
abbrev main_c_9 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_call3_c : Ref sig .tc := ⟨.hbm, 139, rfl⟩
abbrev main_call3_v0 : Ref sig .tc := ⟨.hbm, 140, rfl⟩
abbrev main_call3_v1 : Ref sig .tc := ⟨.hbm, 141, rfl⟩
abbrev main_call3_c_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_c_1 : Ref sig .tc := ⟨.hbm, 147, rfl⟩
abbrev main_call3_c_2 : Ref sig .tc := ⟨.hbm, 148, rfl⟩
abbrev main_call3_v6 : Ref sig .tc := ⟨.hbm, 149, rfl⟩
abbrev main_call3_v7 : Ref sig .tc := ⟨.hbm, 150, rfl⟩
abbrev main_call3_v8 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_c_3 : Ref sig .tc := ⟨.hbm, 155, rfl⟩
abbrev main_call3_v12 : Ref sig .tc := ⟨.hbm, 156, rfl⟩
abbrev main_call3_v13 : Ref sig .tc := ⟨.hbm, 157, rfl⟩
abbrev main_call3_cst : Ref sig .tc := ⟨.hbm, 158, rfl⟩
abbrev main_call3_v14 : Ref sig .tc := ⟨.hbm, 159, rfl⟩
abbrev main_v51 : Ref sig .tc := ⟨.hbm, 160, rfl⟩
abbrev main_v52 : Ref sig .tc := ⟨.hbm, 161, rfl⟩
abbrev main_v53 : Ref sig .tc := ⟨.hbm, 162, rfl⟩
abbrev main_v54 : Ref sig .tc := ⟨.hbm, 163, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S18432 : S_.BroadcastsInDim S18432 (![] : Fin 0 → Fin S18432.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  scatter_S18432_S4096x1_S4096_n_0_0_1_wf : ScatterDims.WF S18432 S4096x1 S4096 [] [0] [0] 1
  gather_S18432_S4096x1_S4096_n_0_n_n_0_1_1_wf : GatherDims.WF S18432 S4096x1 S4096 [] [0] [] [0] [] 1 ![1]
  dot_S4096_S4096x4096_S4096_0_0_n_1_n_n_wf : DotDims.WF S4096 S4096x4096 S4096 [0] [0] [] [1] [] []
  dot_S4096_S4096x2048_S2048_0_0_n_1_n_n_wf : DotDims.WF S4096 S4096x2048 S2048 [0] [0] [] [1] [] []

variable [Facts₀]

def scatter_S18432_S4096x1_S4096_n_0_0_1 : ScatterDims S18432 S4096x1 S4096 where
  updateWindowDims := []
  insertedWindowDims := [0]
  scatterDimsToOperandDims := [0]
  indexVectorDim := 1
  wf := scatter_S18432_S4096x1_S4096_n_0_0_1_wf
def gather_S18432_S4096x1_S4096_n_0_n_n_0_1_1 : GatherDims S18432 S4096x1 S4096 where
  offsetDims := []
  collapsedSliceDims := [0]
  operandBatchingDims := []
  startIndicesBatchingDims := []
  startIndexMap := [0]
  indexVectorDim := 1
  sliceSizes := ![1]
  wf := gather_S18432_S4096x1_S4096_n_0_n_n_0_1_1_wf
def dot_S4096_S4096x4096_S4096_0_0_n_1_n_n : DotDims S4096 S4096x4096 S4096 where
  lhsContracting := [0]
  rhsContracting := [0]
  lhsNonContracting := []
  rhsNonContracting := [1]
  lhsBatch := []
  rhsBatch := []
  wf := dot_S4096_S4096x4096_S4096_0_0_n_1_n_n_wf
def dot_S4096_S4096x2048_S2048_0_0_n_1_n_n : DotDims S4096 S4096x2048 S2048 where
  lhsContracting := [0]
  rhsContracting := [0]
  lhsNonContracting := []
  rhsNonContracting := [1]
  lhsBatch := []
  rhsBatch := []
  wf := dot_S4096_S4096x2048_S2048_0_0_n_1_n_n_wf

class Facts : Prop extends Facts₀ where

variable [Facts]
-- ==== Proof.LibTiles.lean ====
/-
  Dealing an array to the tiles of a SparseCore grid. The a·b tiles numbered w = b·c + i, grouped SparseCore by SparseCore,
  are the pairs (c, i). An array whose entries are classified by a row function r with r j < n·B splits into the n row
  blocks "r j / B = w": they are pairwise disjoint and cover the array, so a points-to of the whole array is the points-tos
  of its blocks, and blocks each held at some contents join into the whole array at some contents.
-/
import Idealize.ShloMosaic.Rules
import Idealize.ShloMosaic.Lib.Transfers

noncomputable section

namespace Cert.Proof.LibTiles

open Idealize.ShloMosaic
open Idealize.SL Idealize.SL.RA Idealize.SL.BI
open scoped Idealize.SL.BI
open Idealize.SL.BI.BIBase Idealize.SL.BI.Laws Idealize.SL.ProofMode Idealize.SL.Sem

/-! ## The tiles, SparseCore by SparseCore -/

/-- The pair (SparseCore, tile) as the tile's number. -/
def tileEquiv (a b : ℕ) : Fin a × Fin b ≃ Fin (a * b) := finProdFinEquiv

theorem tileEquiv_val (a b : ℕ) (c : Fin a) (i : Fin b) : (tileEquiv a b (c, i)).val = i.val + b * c.val := by
  simp only [tileEquiv, finProdFinEquiv_apply_val]

theorem bigSep_tiles {M : Type} [URA M] (a b : ℕ) (Φ : ℕ → sProp M) :
    (bigSep (Finset.univ : Finset (Fin a)) fun c => bigSep (Finset.univ : Finset (Fin b)) fun i => Φ (i.val + b * c.val))
      = bigSep (Finset.univ : Finset (Fin (a * b))) fun w => Φ w.val := by
  rw [bigSep_univ_equiv (tileEquiv a b) (fun w : Fin (a * b) => Φ w.val), bigSep_univ_prod]
  exact bigSep_congr fun c _ => bigSep_congr fun i _ => by rw [tileEquiv_val]

/-! ## Row blocks by a quotient classifier -/

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

variable {ℓ : Loc nD τ sig} (r : Idx ℓ → ℕ) (B : ℕ)

/-- The entries whose row falls in block `w`. -/
def blk (w : ℕ) : Finset (Idx ℓ) := Finset.univ.filter fun j => r j / B = w

theorem blk_disjoint {w w' : ℕ} (h : w ≠ w') : Disjoint (blk r B w) (blk r B w') :=
  Finset.disjoint_filter.mpr fun _ _ e e' => h (e.symm.trans e')

theorem blk_pairwise (n : ℕ) : ∀ w ∈ (Finset.univ : Finset (Fin n)), ∀ w' ∈ (Finset.univ : Finset (Fin n)), w ≠ w' →
    Disjoint (blk r B w.val) (blk r B w'.val) :=
  fun w _ w' _ h => blk_disjoint r B fun e => h (Fin.ext e)

theorem blk_cover (n : ℕ) (hB : 0 < B) (hr : ∀ j, r j < n * B) :
    (Finset.univ : Finset (Fin n)).biUnion (fun w => blk r B w.val) = Finset.univ := by
  ext j
  simp only [Finset.mem_biUnion, Finset.mem_univ, true_and, iff_true, blk, Finset.mem_filter]
  exact ⟨⟨r j / B, (Nat.div_lt_iff_lt_mul hB).mpr (hr j)⟩, rfl⟩

/-- The whole array is its n row blocks. -/
theorem pts_blocks (n : ℕ) (hB : 0 < B) (hr : ∀ j, r j < n * B) (q : PosShare TreeShare) (f : Buf Val ℓ) :
    (ℓ ↦{q} f : sProp 𝕄) = bigSep (Finset.univ : Finset (Fin n)) fun w => ℓ ↦[blk r B w.val]{q} f := by
  rw [← pointsTo_biUnion Finset.univ (ℓ := ℓ) (fun w : Fin n => blk r B w.val) (blk_pairwise r B n), blk_cover r B n hB hr]

/-- … each block then held at some contents (what a kernel that writes its block is lent). -/
theorem pts_some (n : ℕ) (hB : 0 < B) (hr : ∀ j, r j < n * B) (q : PosShare TreeShare) (f : Buf Val ℓ) :
    (ℓ ↦{q} f : sProp 𝕄) ⊢ bigSep (Finset.univ : Finset (Fin n)) fun w => iprop(∃ f, ℓ ↦[blk r B w.val]{q} f) :=
  (Entails.of_eq (pts_blocks r B n hB hr q f)).trans (bigSep_mono fun w _ => by
    show (ℓ ↦[blk r B w.val]{q} f : sProp 𝕄) ⊢ iprop(∃ f, ℓ ↦[blk r B w.val]{q} f)
    iintro H; iexists f; iexact H)

/-- The n blocks, each at some contents, are the whole array at some contents. -/
theorem pts_join [∀ e, Nonempty (Val e)] (n : ℕ) (hB : 0 < B) (hr : ∀ j, r j < n * B) (q : PosShare TreeShare) (f₀ : Buf Val ℓ) :
    (bigSep (Finset.univ : Finset (Fin n)) fun w => iprop(∃ f, ℓ ↦[blk r B w.val]{q} f)) ⊢ (iprop(∃ f, ℓ ↦{q} f) : sProp 𝕄) := by
  haveI : Nonempty (Buf Val ℓ) := ⟨f₀⟩
  refine (bigSep_exists_pi Finset.univ (fun (w : Fin n) (f : Buf Val ℓ) => (ℓ ↦[blk r B w.val]{q} f : sProp 𝕄))).trans ?_
  iintro ⟨%fs, H⟩
  ihave H' := (pointsTo_biUnion_join (ℓ := ℓ) (q := q) (Val := Val) Finset.univ (fun w : Fin n => blk r B w.val) fs f₀ (blk_pairwise r B n)) $$ H
  icases H' with ⟨%g, -, Hg⟩
  rw [blk_cover r B n hB hr]
  iexists g; iexact Hg

/-- The same keeping what each block held: if block `w` comes back at contents satisfying `Φ w`, the whole array comes back at
    contents that agree, on each block, with contents satisfying that block's `Φ`. -/
theorem pts_join_val [∀ e, Nonempty (Val e)] (n : ℕ) (hB : 0 < B) (hr : ∀ j, r j < n * B) (q : PosShare TreeShare) (f₀ : Buf Val ℓ)
    (Φ : Fin n → Buf Val ℓ → Prop) :
    (bigSep (Finset.univ : Finset (Fin n)) fun w => iprop(∃ f, ⌜Φ w f⌝ ∗ ℓ ↦[blk r B w.val]{q} f))
      ⊢ (iprop(∃ g, ⌜∀ w : Fin n, ∃ f, Φ w f ∧ ∀ i ∈ blk r B w.val, g i = f i⌝ ∗ ℓ ↦{q} g) : sProp 𝕄) := by
  haveI : Nonempty (Buf Val ℓ) := ⟨f₀⟩
  refine (bigSep_exists_pi Finset.univ (fun (w : Fin n) (f : Buf Val ℓ) => (iprop(⌜Φ w f⌝ ∗ ℓ ↦[blk r B w.val]{q} f) : sProp 𝕄))).trans ?_
  iintro ⟨%fs, H⟩
  ihave H := (bigSep_pure_sep (Finset.univ : Finset (Fin n)) (fun w => Φ w (fs w)) (fun w => (ℓ ↦[blk r B w.val]{q} fs w : sProp 𝕄))) $$ H
  icases H with ⟨%hΦ, H⟩
  ihave H' := (pointsTo_biUnion_join (ℓ := ℓ) (q := q) (Val := Val) Finset.univ (fun w : Fin n => blk r B w.val) fs f₀ (blk_pairwise r B n)) $$ H
  icases H' with ⟨%g, %hg, Hg⟩
  rw [blk_cover r B n hB hr]
  iexists g; isplitr
  · ipureintro; exact fun w => ⟨fs w, hΦ w (Finset.mem_univ w), hg w (Finset.mem_univ w)⟩
  iexact Hg

end Cert.Proof.LibTiles

end
-- ==== Proof.LibReadShares.lean ====
/-
  Read shares of one array, lent to several readers and returned at contents not named. A whole array split by
  Transfers.pointsTo_toks into a remainder and n read shares; the readers give their shares back each at SOME contents;
  every returned share agrees with the remainder that was kept (two shares of one location agree on its contents), so the
  n shares are again shares of the kept contents and rejoin the remainder into the whole array.
-/
import Idealize.ShloMosaic.Lib.Transfers

noncomputable section

namespace Cert.Proof.LibReadShares

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- One share returned at some contents, beside a kept share: it is a share of the kept contents. -/
theorem tok_back {ℓ : Loc nD τ sig} (r q : PosShare TreeShare) (f : Buf Val ℓ) :
    iprop((ℓ ↦{r} f) ∗ ∃ g, ℓ ↦{q} g) ⊢ (iprop((ℓ ↦{r} f) ∗ ℓ ↦{q} f) : sProp 𝕄) := by
  iintro ⟨Hr, %g, Hq⟩
  ihave H := (persistent_entails_right (pointsTo_agree (ℓ := ℓ) (I := Finset.univ) (J := Finset.univ) (q₁ := r) (q₂ := q) (f := f) (g := g))) $$ [Hr Hq]
  · isplitl [Hr] <;> iassumption
  icases H with ⟨%h, Hr, Hq⟩
  isplitl [Hr]; · iexact Hr
  rw [pointsTo_congr (g := g) (fun i _ => (h i (Finset.mem_inter.mpr ⟨Finset.mem_univ i, Finset.mem_univ i⟩)).1)]
  iexact Hq

/-- The same for a family of shares. -/
theorem toks_back {ℓ : Loc nD τ sig} {ι : Type} [DecidableEq ι] (r : PosShare TreeShare) (q : ι → PosShare TreeShare) (f : Buf Val ℓ) (s : Finset ι) :
    iprop((ℓ ↦{r} f) ∗ bigSep s fun w => iprop(∃ g, ℓ ↦{q w} g))
      ⊢ (iprop((ℓ ↦{r} f) ∗ bigSep s fun w => ℓ ↦{q w} f) : sProp 𝕄) := by
  induction s using Finset.induction_on with
  | empty => rw [bigSep_empty, bigSep_empty]
  | insert a s ha ih =>
    rw [bigSep_insert ha, bigSep_insert ha]
    show iprop((ℓ ↦{r} f) ∗ (∃ g, ℓ ↦{q a} g) ∗ bigSep s fun w => iprop(∃ g, ℓ ↦{q w} g))
      ⊢ (iprop((ℓ ↦{r} f) ∗ (ℓ ↦{q a} f) ∗ bigSep s fun w => ℓ ↦{q w} f) : sProp 𝕄)
    iintro ⟨Hr, Ha, Hs⟩
    ihave H := (tok_back (Val := Val) r (q a) f) $$ [Hr Ha]
    · isplitl [Hr] <;> iassumption
    icases H with ⟨Hr, Ha⟩
    ihave H := ih $$ [Hr Hs]
    · isplitl [Hr] <;> iassumption
    icases H with ⟨Hr, Hs⟩
    isplitl [Hr]; · iexact Hr
    isplitl [Ha] <;> iassumption

/-- The n read shares of `Transfers.pointsTo_toks`, returned each at some contents, rejoin the kept remainder into the whole
    array at the kept contents. -/
theorem toks_rejoin {ℓ : Loc nD τ sig} (p : PosShare TreeShare) (n : ℕ) (f : Buf Val ℓ) :
    iprop((ℓ ↦{Transfers.shareDrop p n} f) ∗ bigSep (Finset.univ : Finset (Fin n)) fun w => iprop(∃ g, ℓ ↦{Transfers.shareTok p n w} g))
      ⊢ (ℓ ↦{p} f : sProp 𝕄) :=
  (toks_back (Val := Val) _ (fun w : Fin n => Transfers.shareTok p n w) f Finset.univ).trans (Transfers.pointsTo_toks_join p n)

end Cert.Proof.LibReadShares

end
-- ==== Proof.ScCall0.lean ====
/-
  One vector subcore's task of a gather call. The sixteen tasks of the call each take 256 consecutive entries of the
  index vector, fetch them into their index scratch, gather the entries of the 16384-slot state those indices name into
  their value scratch — two streams of 128 entries, each on a semaphore of its own, the second started before the first is
  waited for — and copy the two halves out to their 256 consecutive entries of the result. A task only reads the index
  vector and the state, so it holds a share of each, whole; it holds its two 128-entry pieces of the result outright.
  The indices are in range of the state: an index out of range would leave a stream unanswered.
-/
import proofs.«208418_g89945205112833_cont_sun_c4_809_35_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208418_g89945205112833_cont_sun_c4_809_35_alg».proof.Proof.Gen.KernelIdeal
import proofs.«208418_g89945205112833_cont_sun_c4_809_35_alg».proof.Proof.Gen.KernelIdeal.Skeleton
import proofs.«208418_g89945205112833_cont_sun_c4_809_35_alg».proof.Proof.LibTiles
import proofs.«208418_g89945205112833_cont_sun_c4_809_35_alg».proof.Proof.LibReadShares

noncomputable section

namespace Cert.Proof.KI.Call0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

abbrev ΛP : Labels := Pipeline.Sig Λ₀ (Fin 4) fun p => (pcfgs (F := F) p).Adm
abbrev K : SparseCore.Cfg τ sig (ΛP (F := F)) 4 := sc (F := F)
abbrev 𝒱₀ : Variants := Variants.none

/-- The certificate's ghost state: the launch handshakes' rounds, the pipelines' staging cells' rounds, the transfers' counters. -/
abbrev UH : Type := URounds (GSem nD τ sig) ℕ
abbrev UPp : Type := URounds (GSem nD τ sig) Unit
abbrev UU : Type := UH × (UPp × Counters)

local notation "𝕄" => MT nD τ sig (HIx 4) (Elt F) ℕ UU ℕ

local notation "xV" => (Memref.whole Cert.KernelIdeal.main_v3_scv : Memref Cert.KernelIdeal.sig Kind.scVector Space.hbm Cert.KernelIdeal.S16384 EltTy.f32)
local notation "iV" => (Memref.whole Cert.KernelIdeal.main_arg1_scv : Memref Cert.KernelIdeal.sig Kind.scVector Space.hbm Cert.KernelIdeal.S4096 EltTy.i32)
local notation "oV" => (Memref.whole Cert.KernelIdeal.main_v4_scv : Memref Cert.KernelIdeal.sig Kind.scVector Space.hbm Cert.KernelIdeal.S4096 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256 EltTy.f32)

/-- The call's three arrays, as the TensorCore names them. -/
abbrev iLoc (d : Dev nD) : Loc nD τ sig := (SparseCore.T d).loc main_arg1
abbrev xLoc (d : Dev nD) : Loc nD τ sig := (SparseCore.T d).loc main_v3
abbrev oLoc (d : Dev nD) : Loc nD τ sig := (SparseCore.T d).loc main_v4

/-- Read token `i` of sixteen of a whole array. -/
abbrev tok (i : Fin 16) : PosShare TreeShare := Transfers.shareTok fullShare 16 i

/-- The result's entries whose position falls in the `w`-th piece of 128. -/
abbrev oSet (d : Dev nD) (w : ℕ) : Finset (Idx (oLoc d)) := LibTiles.blk (ℓ := oLoc d) (fun j : S4096.Idx => (j 0).val) 128 w

variable [FloatOps F]

/-- What task `i` is handed and hands back: a read token of the indices at their launch contents, a read token of the state
    at whatever it holds, its two pieces of the result at whatever they hold. -/
def taskRes (d : Dev nD) (fi : Buf (Elt F) (iLoc d)) (i : Fin 16) : sProp 𝕄 :=
  iprop((iLoc d ↦{tok i} fi) ∗ (∃ f, xLoc d ↦{tok i} f)
    ∗ (∃ g, oLoc d ↦[oSet d (2 * i.val)]{fullShare} g) ∗ ∃ g, oLoc d ↦[oSet d (2 * i.val + 1)]{fullShare} g)

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The task's two pieces of the result, as the task addresses them. -/
abbrev outAK (L : grid0.Coords) : Memref sig .scVector .hbm S128 .f32 := (oV).slice (Rect.unit (s := S4096) (k0_off2 L) S128.size (k0_off2_inb L)) (fun _ => rfl)
abbrev outBK (L : grid0.Coords) : Memref sig .scVector .hbm S128 .f32 := (oV).slice (Rect.unit (s := S4096) (k0_off3 L) S128.size (k0_off3_inb L)) (fun _ => rfl)

omit [FloatOps F] in
/-- A task's coordinate on the SparseCore axis is 0: the call runs on one SparseCore. -/
theorem L0_zero : (L 0).val = 0 := by have h : (L 0).val < 1 := (L 0).isLt; omega

omit [FloatOps F] in
theorem set_outAK : (outAK L).view.set = oSet d (2 * (jL L).val) := by
  show ((View.whole (main_v4_scv : Ref sig .scVector)).slice _).set = _
  rw [View.set_slice_whole]
  ext j
  rw [Rect.mem_set_unit]
  show _ ↔ j ∈ Finset.univ.filter (fun j : S4096.Idx => (j 0).val / 128 = 2 * (jL L).val)
  rw [Finset.mem_filter]
  simp only [Finset.mem_univ, true_and, k0_off2_eq]
  have h0 := L0_zero L
  constructor
  · intro h; have := h 0; simp only [Matrix.cons_val_zero, S128] at this
    show (j 0).val / 128 = 2 * (L 1).val; omega
  · intro h a
    have h' : (j 0).val / 128 = 2 * (L 1).val := h
    match a with
    | 0 => simp only [Matrix.cons_val_zero, S128]; omega

omit [FloatOps F] in
theorem set_outBK : (outBK L).view.set = oSet d (2 * (jL L).val + 1) := by
  show ((View.whole (main_v4_scv : Ref sig .scVector)).slice _).set = _
  rw [View.set_slice_whole]
  ext j
  rw [Rect.mem_set_unit]
  show _ ↔ j ∈ Finset.univ.filter (fun j : S4096.Idx => (j 0).val / 128 = 2 * (jL L).val + 1)
  rw [Finset.mem_filter]
  simp only [Finset.mem_univ, true_and, k0_off3_eq]
  have h0 := L0_zero L
  constructor
  · intro h; have := h 0; simp only [Matrix.cons_val_zero, S128] at this
    show (j 0).val / 128 = 2 * (L 1).val + 1; omega
  · intro h a
    have h' : (j 0).val / 128 = 2 * (L 1).val + 1 := h
    match a with
    | 0 => simp only [Matrix.cons_val_zero, S128]; omega

abbrev c2cell (d : Dev nD) (c : Fin τ.nSC) (i : Fin τ.nSub) : GSem nD τ sig := (V d c i, .dma cc0_scratch2.sem)
abbrev c3cell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The task's five semaphores are among the subcore's own: they, at zero, and the rest. -/
theorem ownSems0_V :
    (ownSems0 (V d (cV L) (jV L)) : sProp 𝕄)
      = iprop(semVal (c2cell d (cV L) (jV L)) 0 ∗ semVal (c3cell d (cV L) (jV L)) 0 ∗ semVal (cAcell d (cV L) (jV L)) 0
          ∗ semVal (cBcell d (cV L) (jV L)) 0 ∗ semVal (cCcell d (cV L) (jV L)) 0
          ∗ bigSep ((((((ownCells (V d (cV L) (jV L))).erase (c2cell d (cV L) (jV L))).erase (c3cell d (cV L) (jV L))).erase (cAcell d (cV L) (jV L))).erase
              (cBcell d (cV L) (jV L))).erase (cCcell d (cV L) (jV L))) fun g => semVal g 0) := by
  unfold SparseCore.Cfg.ownSems0
  have m2 : c2cell d (cV L) (jV L) ∈ ownCells (V d (cV L) (jV L)) := mem_ownCells.mpr ⟨rfl, by
    show (SemLoc.dma cc0_scratch2.sem : SemLoc sig).isScoped .scVector = true; decide⟩
  have m3 : c3cell d (cV L) (jV L) ∈ ownCells (V d (cV L) (jV L)) := mem_ownCells.mpr ⟨rfl, by
    show (SemLoc.dma cc0_scratch3.sem : SemLoc sig).isScoped .scVector = true; decide⟩
  have mA : cAcell d (cV L) (jV L) ∈ ownCells (V d (cV L) (jV L)) := mem_ownCells.mpr ⟨rfl, by
    show (SemLoc.dma cc0_scoped0.sem : SemLoc sig).isScoped .scVector = true; decide⟩
  have mB : cBcell d (cV L) (jV L) ∈ ownCells (V d (cV L) (jV L)) := mem_ownCells.mpr ⟨rfl, by
    show (SemLoc.dma cc0_scoped1.sem : SemLoc sig).isScoped .scVector = true; decide⟩
  have mC : cCcell d (cV L) (jV L) ∈ ownCells (V d (cV L) (jV L)) := mem_ownCells.mpr ⟨rfl, by
    show (SemLoc.dma cc0_scoped2.sem : SemLoc sig).isScoped .scVector = true; decide⟩
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  rw [SparseCore.bigSep_erase' m2,
    SparseCore.bigSep_erase' (Finset.mem_erase.mpr ⟨ne (by decide), m3⟩),
    SparseCore.bigSep_erase' (Finset.mem_erase.mpr ⟨ne (by decide), Finset.mem_erase.mpr ⟨ne (by decide), mA⟩⟩),
    SparseCore.bigSep_erase' (Finset.mem_erase.mpr ⟨ne (by decide), Finset.mem_erase.mpr ⟨ne (by decide), Finset.mem_erase.mpr ⟨ne (by decide), mB⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mC⟩⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_outAK (f : Buf (Elt F) (oLoc d)) :
    ((outAK L).view.loc (V d (cV L) (jV L)) ↦[(outAK L).view.set]{fullShare} f : sProp 𝕄) = oLoc d ↦[oSet d (2 * (jL L).val)]{fullShare} f := by
  rw [set_outAK d L]
omit [FloatOps F] in
theorem pts_outBK (f : Buf (Elt F) (oLoc d)) :
    ((outBK L).view.loc (V d (cV L) (jV L)) ↦[(outBK L).view.set]{fullShare} f : sProp 𝕄) = oLoc d ↦[oSet d (2 * (jL L).val + 1)]{fullShare} f := by
  rw [set_outBK d L]

/-- The task's 256 indices, as the task addresses them. -/
abbrev idxK (L : grid0.Coords) : Memref sig .scVector .hbm S256 .i32 := (iV).slice (Rect.unit (s := S4096) (k0_off1 L) S256.size (k0_off1_inb L)) (fun _ => rfl)

set_option maxHeartbeats 4000000 in
/-- The task on vector subcore `(L 0, L 1)`: the index fetch and its wait, the two gathers, each gather's wait followed by the
    copy of its half to the result and that copy's wait. Every index is in range of the state (`hidx`). -/
theorem tile_body (hF : (K (F := F)).Facts) (fi : Buf (Elt F) (iLoc d)) (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskRes d fi (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L xV (Memref.isWhole_whole _) iV (Memref.isWhole_whole _) oV (Memref.isWhole_whole _)
            sV (Memref.isWhole_whole _) rV (Memref.isWhole_whole _) cc0_scratch2 cc0_scratch3 cc0_scoped0 cc0_scoped1 cc0_scoped2)
          fun _ => iprop(taskRes d fi (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hi, ⟨%fx, Hx⟩, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc0_scratch0 ↦{fullShare} fs : sProp 𝕄) = ((sV).view.loc (V d (cV L) (jV L)) ↦{fullShare} fs) from rfl)) $$ Hs
  ihave Hr := (Entails.of_eq (show ((V d (cV L) (jV L)).loc cc0_scratch1 ↦{fullShare} fr : sProp 𝕄) = ((rV).view.loc (V d (cV L) (jV L)) ↦{fullShare} fr) from rfl)) $$ Hr
  have hin0 : ∀ (g : Buf (Elt F) ((V d (cV L) (jV L)).loc cc0_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc0_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  isplitl [Hi Hx HoA HoB]
  · isplitl [Hi]; · iexact Hi
    isplitl [Hx]; · iexists fx; iexact Hx
    isplitl [HoA]
    · iexists _; iapply (Entails.of_eq (pts_outAK (F := F) d L _)); iexact HoA
    · iexists _; iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and gathered back -/

/-- The call's operands, whole: the indices at their launch contents, the state and the result at whatever they hold. -/
def callRes (d : Dev nD) (fi : Buf (Elt F) (iLoc d)) : sProp 𝕄 :=
  iprop((iLoc d ↦{fullShare} fi) ∗ (∃ f, xLoc d ↦{fullShare} f) ∗ ∃ g, oLoc d ↦{fullShare} g)

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
/-- The result's 32 pieces of 128 are the tasks' pairs of pieces. -/
theorem out_pieces (d : Dev nD) :
    (bigSep Finset.univ fun w : Fin 32 => iprop(∃ g, oLoc d ↦[oSet d w.val]{fullShare} g) : sProp 𝕄)
      = bigSep Finset.univ fun i : Fin 16 =>
          iprop((∃ g, oLoc d ↦[oSet d (2 * i.val)]{fullShare} g) ∗ ∃ g, oLoc d ↦[oSet d (2 * i.val + 1)]{fullShare} g) := by
  refine (LibTiles.bigSep_tiles 16 2 (fun w => (iprop(∃ g, oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
/-- A read token at known contents is one at some contents. -/
theorem toks_some {ℓ : Loc nD τ sig} (f : Buf (Elt F) ℓ) :
    (bigSep Finset.univ fun i : Fin 16 => (ℓ ↦{tok i} f : sProp 𝕄)) ⊢ bigSep Finset.univ fun i : Fin 16 => iprop(∃ g, ℓ ↦{tok i} g) :=
  bigSep_mono fun i _ => by
    show (ℓ ↦{tok i} f : sProp 𝕄) ⊢ iprop(∃ g, ℓ ↦{tok i} g)
    iintro H; iexists f; iexact H

omit [FloatOps F] in
theorem deal [∀ e, Nonempty (Elt F e)] (d : Dev nD) (fi : Buf (Elt F) (iLoc d)) :
    callRes d fi ⊢ |={Set.univ}=> iprop((bigSep Finset.univ fun i : Fin 16 => taskRes d fi i)
      ∗ ((bigSep Finset.univ fun i : Fin 16 => taskRes d fi i) -∗ callRes d fi)) := by
  unfold callRes taskRes
  rw [bigSep_sep', bigSep_sep', ← out_pieces d]
  iintro ⟨Hi, ⟨%fx, Hx⟩, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iapply (toks_some (F := F) fx); iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iexists fx; iapply (LibReadShares.toks_rejoin (ℓ := xLoc d) fullShare 16 fx); isplitl [Hxd] <;> iassumption
  · iapply (LibTiles.pts_join (ℓ := oLoc d) (fun j : S4096.Idx => (j 0).val) 128 32 (by decide) (fun j => (j 0).isLt) fullShare g); iexact Ho

end Cert.Proof.KI.Call0

end
-- ==== Proof.ScCall2.lean ====
/-
  One vector subcore's task of a gather call. The sixteen tasks of the call each take 256 consecutive entries of the
  index vector, fetch them into their index scratch, gather the entries of the 16384-slot state those indices name into
  their value scratch — two streams of 128 entries, each on a semaphore of its own, the second started before the first is
  waited for — and copy the two halves out to their 256 consecutive entries of the result. A task only reads the index
  vector and the state, so it holds a share of each, whole; it holds its two 128-entry pieces of the result outright.
  The indices are in range of the state: an index out of range would leave a stream unanswered.
-/
import proofs.«208418_g89945205112833_cont_sun_c4_809_35_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208418_g89945205112833_cont_sun_c4_809_35_alg».proof.Proof.Gen.KernelIdeal
import proofs.«208418_g89945205112833_cont_sun_c4_809_35_alg».proof.Proof.Gen.KernelIdeal.Skeleton
import proofs.«208418_g89945205112833_cont_sun_c4_809_35_alg».proof.Proof.LibTiles
import proofs.«208418_g89945205112833_cont_sun_c4_809_35_alg».proof.Proof.LibReadShares

noncomputable section

namespace Cert.Proof.KI.Call2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

abbrev ΛP : Labels := Pipeline.Sig Λ₀ (Fin 4) fun p => (pcfgs (F := F) p).Adm
abbrev K : SparseCore.Cfg τ sig (ΛP (F := F)) 4 := sc (F := F)
abbrev 𝒱₀ : Variants := Variants.none

/-- The certificate's ghost state: the launch handshakes' rounds, the pipelines' staging cells' rounds, the transfers' counters. -/
abbrev UH : Type := URounds (GSem nD τ sig) ℕ
abbrev UPp : Type := URounds (GSem nD τ sig) Unit
abbrev UU : Type := UH × (UPp × Counters)

local notation "𝕄" => MT nD τ sig (HIx 4) (Elt F) ℕ UU ℕ

local notation "xV" => (Memref.whole Cert.KernelIdeal.main_v8_scv : Memref Cert.KernelIdeal.sig Kind.scVector Space.hbm Cert.KernelIdeal.S16384 EltTy.f32)
local notation "iV" => (Memref.whole Cert.KernelIdeal.main_arg2_scv : Memref Cert.KernelIdeal.sig Kind.scVector Space.hbm Cert.KernelIdeal.S4096 EltTy.i32)
local notation "oV" => (Memref.whole Cert.KernelIdeal.main_v9_scv : Memref Cert.KernelIdeal.sig Kind.scVector Space.hbm Cert.KernelIdeal.S4096 EltTy.f32)
local notation "sV" => (Memref.whole Cert.KernelIdeal.cc2_scratch0 : Memref Cert.KernelIdeal.sig Kind.scVector Space.vmem Cert.KernelIdeal.S256 EltTy.i32)
local notation "rV" => (Memref.whole Cert.KernelIdeal.cc2_scratch1 : Memref Cert.KernelIdeal.sig Kind.scVector Space.vmem Cert.KernelIdeal.S256 EltTy.f32)

/-- The call's three arrays, as the TensorCore names them. -/
abbrev iLoc (d : Dev nD) : Loc nD τ sig := (SparseCore.T d).loc main_arg2
abbrev xLoc (d : Dev nD) : Loc nD τ sig := (SparseCore.T d).loc main_v8
abbrev oLoc (d : Dev nD) : Loc nD τ sig := (SparseCore.T d).loc main_v9

/-- Read token `i` of sixteen of a whole array. -/
abbrev tok (i : Fin 16) : PosShare TreeShare := Transfers.shareTok fullShare 16 i

/-- The result's entries whose position falls in the `w`-th piece of 128. -/
abbrev oSet (d : Dev nD) (w : ℕ) : Finset (Idx (oLoc d)) := LibTiles.blk (ℓ := oLoc d) (fun j : S4096.Idx => (j 0).val) 128 w

variable [FloatOps F]

/-- What task `i` is handed and hands back: a read token of the indices at their launch contents, a read token of the state
    at whatever it holds, its two pieces of the result at whatever they hold. -/
def taskRes (d : Dev nD) (fi : Buf (Elt F) (iLoc d)) (i : Fin 16) : sProp 𝕄 :=
  iprop((iLoc d ↦{tok i} fi) ∗ (∃ f, xLoc d ↦{tok i} f)
    ∗ (∃ g, oLoc d ↦[oSet d (2 * i.val)]{fullShare} g) ∗ ∃ g, oLoc d ↦[oSet d (2 * i.val + 1)]{fullShare} g)

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound_one : grid2.bound 1 = 16 := rfl
abbrev jL (L : grid2.Coords) : Fin 16 := Fin.cast bound_one (L 1)

/-- The task's two pieces of the result, as the task addresses them. -/
abbrev outAK (L : grid2.Coords) : Memref sig .scVector .hbm S128 .f32 := (oV).slice (Rect.unit (s := S4096) (k2_off2 L) S128.size (k2_off2_inb L)) (fun _ => rfl)
abbrev outBK (L : grid2.Coords) : Memref sig .scVector .hbm S128 .f32 := (oV).slice (Rect.unit (s := S4096) (k2_off3 L) S128.size (k2_off3_inb L)) (fun _ => rfl)

omit [FloatOps F] in
/-- A task's coordinate on the SparseCore axis is 0: the call runs on one SparseCore. -/
theorem L0_zero : (L 0).val = 0 := by have h : (L 0).val < 1 := (L 0).isLt; omega

omit [FloatOps F] in
theorem set_outAK : (outAK L).view.set = oSet d (2 * (jL L).val) := by
  show ((View.whole (main_v9_scv : Ref sig .scVector)).slice _).set = _
  rw [View.set_slice_whole]
  ext j
  rw [Rect.mem_set_unit]
  show _ ↔ j ∈ Finset.univ.filter (fun j : S4096.Idx => (j 0).val / 128 = 2 * (jL L).val)
  rw [Finset.mem_filter]
  simp only [Finset.mem_univ, true_and, k2_off2_eq]
  have h0 := L0_zero L
  constructor
  · intro h; have := h 0; simp only [Matrix.cons_val_zero, S128] at this
    show (j 0).val / 128 = 2 * (L 1).val; omega
  · intro h a
    have h' : (j 0).val / 128 = 2 * (L 1).val := h
    match a with
    | 0 => simp only [Matrix.cons_val_zero, S128]; omega

omit [FloatOps F] in
theorem set_outBK : (outBK L).view.set = oSet d (2 * (jL L).val + 1) := by
  show ((View.whole (main_v9_scv : Ref sig .scVector)).slice _).set = _
  rw [View.set_slice_whole]
  ext j
  rw [Rect.mem_set_unit]
  show _ ↔ j ∈ Finset.univ.filter (fun j : S4096.Idx => (j 0).val / 128 = 2 * (jL L).val + 1)
  rw [Finset.mem_filter]
  simp only [Finset.mem_univ, true_and, k2_off3_eq]
  have h0 := L0_zero L
  constructor
  · intro h; have := h 0; simp only [Matrix.cons_val_zero, S128] at this
    show (j 0).val / 128 = 2 * (L 1).val + 1; omega
  · intro h a
    have h' : (j 0).val / 128 = 2 * (L 1).val + 1 := h
    match a with
    | 0 => simp only [Matrix.cons_val_zero, S128]; omega

abbrev c2cell (d : Dev nD) (c : Fin τ.nSC) (i : Fin τ.nSub) : GSem nD τ sig := (V d c i, .dma cc2_scratch2.sem)
abbrev c3cell (d : Dev nD) (c : Fin τ.nSC) (i : Fin τ.nSub) : GSem nD τ sig := (V d c i, .dma cc2_scratch3.sem)
abbrev cAcell (d : Dev nD) (c : Fin τ.nSC) (i : Fin τ.nSub) : GSem nD τ sig := (V d c i, .dma cc2_scoped0.sem)
abbrev cBcell (d : Dev nD) (c : Fin τ.nSC) (i : Fin τ.nSub) : GSem nD τ sig := (V d c i, .dma cc2_scoped1.sem)
abbrev cCcell (d : Dev nD) (c : Fin τ.nSC) (i : Fin τ.nSub) : GSem nD τ sig := (V d c i, .dma cc2_scoped2.sem)

omit [FloatOps F] in
/-- The task's five semaphores are among the subcore's own: they, at zero, and the rest. -/
theorem ownSems0_V :
    (ownSems0 (V d (cV L) (jV L)) : sProp 𝕄)
      = iprop(semVal (c2cell d (cV L) (jV L)) 0 ∗ semVal (c3cell d (cV L) (jV L)) 0 ∗ semVal (cAcell d (cV L) (jV L)) 0
          ∗ semVal (cBcell d (cV L) (jV L)) 0 ∗ semVal (cCcell d (cV L) (jV L)) 0
          ∗ bigSep ((((((ownCells (V d (cV L) (jV L))).erase (c2cell d (cV L) (jV L))).erase (c3cell d (cV L) (jV L))).erase (cAcell d (cV L) (jV L))).erase
              (cBcell d (cV L) (jV L))).erase (cCcell d (cV L) (jV L))) fun g => semVal g 0) := by
  unfold SparseCore.Cfg.ownSems0
  have m2 : c2cell d (cV L) (jV L) ∈ ownCells (V d (cV L) (jV L)) := mem_ownCells.mpr ⟨rfl, by
    show (SemLoc.dma cc2_scratch2.sem : SemLoc sig).isScoped .scVector = true; decide⟩
  have m3 : c3cell d (cV L) (jV L) ∈ ownCells (V d (cV L) (jV L)) := mem_ownCells.mpr ⟨rfl, by
    show (SemLoc.dma cc2_scratch3.sem : SemLoc sig).isScoped .scVector = true; decide⟩
  have mA : cAcell d (cV L) (jV L) ∈ ownCells (V d (cV L) (jV L)) := mem_ownCells.mpr ⟨rfl, by
    show (SemLoc.dma cc2_scoped0.sem : SemLoc sig).isScoped .scVector = true; decide⟩
  have mB : cBcell d (cV L) (jV L) ∈ ownCells (V d (cV L) (jV L)) := mem_ownCells.mpr ⟨rfl, by
    show (SemLoc.dma cc2_scoped1.sem : SemLoc sig).isScoped .scVector = true; decide⟩
  have mC : cCcell d (cV L) (jV L) ∈ ownCells (V d (cV L) (jV L)) := mem_ownCells.mpr ⟨rfl, by
    show (SemLoc.dma cc2_scoped2.sem : SemLoc sig).isScoped .scVector = true; decide⟩
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  rw [SparseCore.bigSep_erase' m2,
    SparseCore.bigSep_erase' (Finset.mem_erase.mpr ⟨ne (by decide), m3⟩),
    SparseCore.bigSep_erase' (Finset.mem_erase.mpr ⟨ne (by decide), Finset.mem_erase.mpr ⟨ne (by decide), mA⟩⟩),
    SparseCore.bigSep_erase' (Finset.mem_erase.mpr ⟨ne (by decide), Finset.mem_erase.mpr ⟨ne (by decide), Finset.mem_erase.mpr ⟨ne (by decide), mB⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mC⟩⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

omit [FloatOps F] in
theorem pts_outAK (f : Buf (Elt F) (oLoc d)) :
    ((outAK L).view.loc (V d (cV L) (jV L)) ↦[(outAK L).view.set]{fullShare} f : sProp 𝕄) = oLoc d ↦[oSet d (2 * (jL L).val)]{fullShare} f := by
  rw [set_outAK d L]
omit [FloatOps F] in
theorem pts_outBK (f : Buf (Elt F) (oLoc d)) :
    ((outBK L).view.loc (V d (cV L) (jV L)) ↦[(outBK L).view.set]{fullShare} f : sProp 𝕄) = oLoc d ↦[oSet d (2 * (jL L).val + 1)]{fullShare} f := by
  rw [set_outBK d L]

/-- The task's 256 indices, as the task addresses them. -/
abbrev idxK (L : grid2.Coords) : Memref sig .scVector .hbm S256 .i32 := (iV).slice (Rect.unit (s := S4096) (k2_off1 L) S256.size (k2_off1_inb L)) (fun _ => rfl)

set_option maxHeartbeats 4000000 in
/-- The task on vector subcore `(L 0, L 1)`: the index fetch and its wait, the two gathers, each gather's wait followed by the
    copy of its half to the result and that copy's wait. Every index is in range of the state (`hidx`). -/
theorem tile_body (hF : (K (F := F)).Facts) (fi : Buf (Elt F) (iLoc d)) (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskRes d fi (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_gather L xV (Memref.isWhole_whole _) iV (Memref.isWhole_whole _) oV (Memref.isWhole_whole _)
            sV (Memref.isWhole_whole _) rV (Memref.isWhole_whole _) cc2_scratch2 cc2_scratch3 cc2_scoped0 cc2_scoped1 cc2_scoped2)
          fun _ => iprop(taskRes d fi (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hi, ⟨%fx, Hx⟩, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc2_scratch0 ↦{fullShare} fs : sProp 𝕄) = ((sV).view.loc (V d (cV L) (jV L)) ↦{fullShare} fs) from rfl)) $$ Hs
  ihave Hr := (Entails.of_eq (show ((V d (cV L) (jV L)).loc cc2_scratch1 ↦{fullShare} fr : sProp 𝕄) = ((rV).view.loc (V d (cV L) (jV L)) ↦{fullShare} fr) from rfl)) $$ Hr
  have hin0 : ∀ (g : Buf (Elt F) ((V d (cV L) (jV L)).loc cc2_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc2_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  isplitl [Hi Hx HoA HoB]
  · isplitl [Hi]; · iexact Hi
    isplitl [Hx]; · iexists fx; iexact Hx
    isplitl [HoA]
    · iexists _; iapply (Entails.of_eq (pts_outAK (F := F) d L _)); iexact HoA
    · iexists _; iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and gathered back -/

/-- The call's operands, whole: the indices at their launch contents, the state and the result at whatever they hold. -/
def callRes (d : Dev nD) (fi : Buf (Elt F) (iLoc d)) : sProp 𝕄 :=
  iprop((iLoc d ↦{fullShare} fi) ∗ (∃ f, xLoc d ↦{fullShare} f) ∗ ∃ g, oLoc d ↦{fullShare} g)

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
/-- The result's 32 pieces of 128 are the tasks' pairs of pieces. -/
theorem out_pieces (d : Dev nD) :
    (bigSep Finset.univ fun w : Fin 32 => iprop(∃ g, oLoc d ↦[oSet d w.val]{fullShare} g) : sProp 𝕄)
      = bigSep Finset.univ fun i : Fin 16 =>
          iprop((∃ g, oLoc d ↦[oSet d (2 * i.val)]{fullShare} g) ∗ ∃ g, oLoc d ↦[oSet d (2 * i.val + 1)]{fullShare} g) := by
  refine (LibTiles.bigSep_tiles 16 2 (fun w => (iprop(∃ g, oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
/-- A read token at known contents is one at some contents. -/
theorem toks_some {ℓ : Loc nD τ sig} (f : Buf (Elt F) ℓ) :
    (bigSep Finset.univ fun i : Fin 16 => (ℓ ↦{tok i} f : sProp 𝕄)) ⊢ bigSep Finset.univ fun i : Fin 16 => iprop(∃ g, ℓ ↦{tok i} g) :=
  bigSep_mono fun i _ => by
    show (ℓ ↦{tok i} f : sProp 𝕄) ⊢ iprop(∃ g, ℓ ↦{tok i} g)
    iintro H; iexists f; iexact H

omit [FloatOps F] in
theorem deal [∀ e, Nonempty (Elt F e)] (d : Dev nD) (fi : Buf (Elt F) (iLoc d)) :
    callRes d fi ⊢ |={Set.univ}=> iprop((bigSep Finset.univ fun i : Fin 16 => taskRes d fi i)
      ∗ ((bigSep Finset.univ fun i : Fin 16 => taskRes d fi i) -∗ callRes d fi)) := by
  unfold callRes taskRes
  rw [bigSep_sep', bigSep_sep', ← out_pieces d]
  iintro ⟨Hi, ⟨%fx, Hx⟩, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iapply (toks_some (F := F) fx); iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iexists fx; iapply (LibReadShares.toks_rejoin (ℓ := xLoc d) fullShare 16 fx); isplitl [Hxd] <;> iassumption
  · iapply (LibTiles.pts_join (ℓ := oLoc d) (fun j : S4096.Idx => (j 0).val) 128 32 (by decide) (fun j => (j 0).isLt) fullShare g); iexact Ho

end Cert.Proof.KI.Call2

end
-- ==== Proof.ScCall4.lean ====
/-
  One vector subcore's task of a gather call. The sixteen tasks of the call each take 256 consecutive entries of the
  index vector, fetch them into their index scratch, gather the entries of the 16384-slot state those indices name into
  their value scratch — two streams of 128 entries, each on a semaphore of its own, the second started before the first is
  waited for — and copy the two halves out to their 256 consecutive entries of the result. A task only reads the index
  vector and the state, so it holds a share of each, whole; it holds its two 128-entry pieces of the result outright.
  The indices are in range of the state: an index out of range would leave a stream unanswered.
-/
import proofs.«208418_g89945205112833_cont_sun_c4_809_35_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208418_g89945205112833_cont_sun_c4_809_35_alg».proof.Proof.Gen.KernelIdeal
import proofs.«208418_g89945205112833_cont_sun_c4_809_35_alg».proof.Proof.Gen.KernelIdeal.Skeleton
import proofs.«208418_g89945205112833_cont_sun_c4_809_35_alg».proof.Proof.LibTiles
import proofs.«208418_g89945205112833_cont_sun_c4_809_35_alg».proof.Proof.LibReadShares

noncomputable section

namespace Cert.Proof.KI.Call4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

abbrev ΛP : Labels := Pipeline.Sig Λ₀ (Fin 4) fun p => (pcfgs (F := F) p).Adm
abbrev K : SparseCore.Cfg τ sig (ΛP (F := F)) 4 := sc (F := F)
abbrev 𝒱₀ : Variants := Variants.none

/-- The certificate's ghost state: the launch handshakes' rounds, the pipelines' staging cells' rounds, the transfers' counters. -/
abbrev UH : Type := URounds (GSem nD τ sig) ℕ
abbrev UPp : Type := URounds (GSem nD τ sig) Unit
abbrev UU : Type := UH × (UPp × Counters)

local notation "𝕄" => MT nD τ sig (HIx 4) (Elt F) ℕ UU ℕ

local notation "xV" => (Memref.whole Cert.KernelIdeal.main_v13_scv : Memref Cert.KernelIdeal.sig Kind.scVector Space.hbm Cert.KernelIdeal.S16384 EltTy.f32)
local notation "iV" => (Memref.whole Cert.KernelIdeal.main_arg3_scv : Memref Cert.KernelIdeal.sig Kind.scVector Space.hbm Cert.KernelIdeal.S4096 EltTy.i32)
local notation "oV" => (Memref.whole Cert.KernelIdeal.main_v14_scv : Memref Cert.KernelIdeal.sig Kind.scVector Space.hbm Cert.KernelIdeal.S4096 EltTy.f32)
local notation "sV" => (Memref.whole Cert.KernelIdeal.cc4_scratch0 : Memref Cert.KernelIdeal.sig Kind.scVector Space.vmem Cert.KernelIdeal.S256 EltTy.i32)
local notation "rV" => (Memref.whole Cert.KernelIdeal.cc4_scratch1 : Memref Cert.KernelIdeal.sig Kind.scVector Space.vmem Cert.KernelIdeal.S256 EltTy.f32)

/-- The call's three arrays, as the TensorCore names them. -/
abbrev iLoc (d : Dev nD) : Loc nD τ sig := (SparseCore.T d).loc main_arg3
abbrev xLoc (d : Dev nD) : Loc nD τ sig := (SparseCore.T d).loc main_v13
abbrev oLoc (d : Dev nD) : Loc nD τ sig := (SparseCore.T d).loc main_v14

/-- Read token `i` of sixteen of a whole array. -/
abbrev tok (i : Fin 16) : PosShare TreeShare := Transfers.shareTok fullShare 16 i

/-- The result's entries whose position falls in the `w`-th piece of 128. -/
abbrev oSet (d : Dev nD) (w : ℕ) : Finset (Idx (oLoc d)) := LibTiles.blk (ℓ := oLoc d) (fun j : S4096.Idx => (j 0).val) 128 w

variable [FloatOps F]

/-- What task `i` is handed and hands back: a read token of the indices at their launch contents, a read token of the state
    at whatever it holds, its two pieces of the result at whatever they hold. -/
def taskRes (d : Dev nD) (fi : Buf (Elt F) (iLoc d)) (i : Fin 16) : sProp 𝕄 :=
  iprop((iLoc d ↦{tok i} fi) ∗ (∃ f, xLoc d ↦{tok i} f)
    ∗ (∃ g, oLoc d ↦[oSet d (2 * i.val)]{fullShare} g) ∗ ∃ g, oLoc d ↦[oSet d (2 * i.val + 1)]{fullShare} g)

section Tile

variable (d : Dev nD) (L : grid4.Coords)

abbrev cV (L : grid4.Coords) : Fin τ.nSC := (L 0).castLE hcore4
abbrev jV (L : grid4.Coords) : Fin τ.nSub := (L 1).castLE hsub4
omit [FloatOps F] in
theorem bound_one : grid4.bound 1 = 16 := rfl
abbrev jL (L : grid4.Coords) : Fin 16 := Fin.cast bound_one (L 1)

/-- The task's two pieces of the result, as the task addresses them. -/
abbrev outAK (L : grid4.Coords) : Memref sig .scVector .hbm S128 .f32 := (oV).slice (Rect.unit (s := S4096) (k4_off2 L) S128.size (k4_off2_inb L)) (fun _ => rfl)
abbrev outBK (L : grid4.Coords) : Memref sig .scVector .hbm S128 .f32 := (oV).slice (Rect.unit (s := S4096) (k4_off3 L) S128.size (k4_off3_inb L)) (fun _ => rfl)

omit [FloatOps F] in
/-- A task's coordinate on the SparseCore axis is 0: the call runs on one SparseCore. -/
theorem L0_zero : (L 0).val = 0 := by have h : (L 0).val < 1 := (L 0).isLt; omega

omit [FloatOps F] in
theorem set_outAK : (outAK L).view.set = oSet d (2 * (jL L).val) := by
  show ((View.whole (main_v14_scv : Ref sig .scVector)).slice _).set = _
  rw [View.set_slice_whole]
  ext j
  rw [Rect.mem_set_unit]
  show _ ↔ j ∈ Finset.univ.filter (fun j : S4096.Idx => (j 0).val / 128 = 2 * (jL L).val)
  rw [Finset.mem_filter]
  simp only [Finset.mem_univ, true_and, k4_off2_eq]
  have h0 := L0_zero L
  constructor
  · intro h; have := h 0; simp only [Matrix.cons_val_zero, S128] at this
    show (j 0).val / 128 = 2 * (L 1).val; omega
  · intro h a
    have h' : (j 0).val / 128 = 2 * (L 1).val := h
    match a with
    | 0 => simp only [Matrix.cons_val_zero, S128]; omega

omit [FloatOps F] in
theorem set_outBK : (outBK L).view.set = oSet d (2 * (jL L).val + 1) := by
  show ((View.whole (main_v14_scv : Ref sig .scVector)).slice _).set = _
  rw [View.set_slice_whole]
  ext j
  rw [Rect.mem_set_unit]
  show _ ↔ j ∈ Finset.univ.filter (fun j : S4096.Idx => (j 0).val / 128 = 2 * (jL L).val + 1)
  rw [Finset.mem_filter]
  simp only [Finset.mem_univ, true_and, k4_off3_eq]
  have h0 := L0_zero L
  constructor
  · intro h; have := h 0; simp only [Matrix.cons_val_zero, S128] at this
    show (j 0).val / 128 = 2 * (L 1).val + 1; omega
  · intro h a
    have h' : (j 0).val / 128 = 2 * (L 1).val + 1 := h
    match a with
    | 0 => simp only [Matrix.cons_val_zero, S128]; omega

abbrev c2cell (d : Dev nD) (c : Fin τ.nSC) (i : Fin τ.nSub) : GSem nD τ sig := (V d c i, .dma cc4_scratch2.sem)
abbrev c3cell (d : Dev nD) (c : Fin τ.nSC) (i : Fin τ.nSub) : GSem nD τ sig := (V d c i, .dma cc4_scratch3.sem)
abbrev cAcell (d : Dev nD) (c : Fin τ.nSC) (i : Fin τ.nSub) : GSem nD τ sig := (V d c i, .dma cc4_scoped0.sem)
abbrev cBcell (d : Dev nD) (c : Fin τ.nSC) (i : Fin τ.nSub) : GSem nD τ sig := (V d c i, .dma cc4_scoped1.sem)
abbrev cCcell (d : Dev nD) (c : Fin τ.nSC) (i : Fin τ.nSub) : GSem nD τ sig := (V d c i, .dma cc4_scoped2.sem)

omit [FloatOps F] in
/-- The task's five semaphores are among the subcore's own: they, at zero, and the rest. -/
theorem ownSems0_V :
    (ownSems0 (V d (cV L) (jV L)) : sProp 𝕄)
      = iprop(semVal (c2cell d (cV L) (jV L)) 0 ∗ semVal (c3cell d (cV L) (jV L)) 0 ∗ semVal (cAcell d (cV L) (jV L)) 0
          ∗ semVal (cBcell d (cV L) (jV L)) 0 ∗ semVal (cCcell d (cV L) (jV L)) 0
          ∗ bigSep ((((((ownCells (V d (cV L) (jV L))).erase (c2cell d (cV L) (jV L))).erase (c3cell d (cV L) (jV L))).erase (cAcell d (cV L) (jV L))).erase
              (cBcell d (cV L) (jV L))).erase (cCcell d (cV L) (jV L))) fun g => semVal g 0) := by
  unfold SparseCore.Cfg.ownSems0
  have m2 : c2cell d (cV L) (jV L) ∈ ownCells (V d (cV L) (jV L)) := mem_ownCells.mpr ⟨rfl, by
    show (SemLoc.dma cc4_scratch2.sem : SemLoc sig).isScoped .scVector = true; decide⟩
  have m3 : c3cell d (cV L) (jV L) ∈ ownCells (V d (cV L) (jV L)) := mem_ownCells.mpr ⟨rfl, by
    show (SemLoc.dma cc4_scratch3.sem : SemLoc sig).isScoped .scVector = true; decide⟩
  have mA : cAcell d (cV L) (jV L) ∈ ownCells (V d (cV L) (jV L)) := mem_ownCells.mpr ⟨rfl, by
    show (SemLoc.dma cc4_scoped0.sem : SemLoc sig).isScoped .scVector = true; decide⟩
  have mB : cBcell d (cV L) (jV L) ∈ ownCells (V d (cV L) (jV L)) := mem_ownCells.mpr ⟨rfl, by
    show (SemLoc.dma cc4_scoped1.sem : SemLoc sig).isScoped .scVector = true; decide⟩
  have mC : cCcell d (cV L) (jV L) ∈ ownCells (V d (cV L) (jV L)) := mem_ownCells.mpr ⟨rfl, by
    show (SemLoc.dma cc4_scoped2.sem : SemLoc sig).isScoped .scVector = true; decide⟩
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  rw [SparseCore.bigSep_erase' m2,
    SparseCore.bigSep_erase' (Finset.mem_erase.mpr ⟨ne (by decide), m3⟩),
    SparseCore.bigSep_erase' (Finset.mem_erase.mpr ⟨ne (by decide), Finset.mem_erase.mpr ⟨ne (by decide), mA⟩⟩),
    SparseCore.bigSep_erase' (Finset.mem_erase.mpr ⟨ne (by decide), Finset.mem_erase.mpr ⟨ne (by decide), Finset.mem_erase.mpr ⟨ne (by decide), mB⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mC⟩⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc4_scratch0 ↦{fullShare} f) ∗ (∃ f, (V d (cV L) (jV L)).loc cc4_scratch1 ↦{fullShare} f)
          ∗ bigSep (((ownRefs (τ := τ) (.scVector (cV L) (jV L))).erase ((Proc.scVector (cV L) (jV L)).devRef cc4_scratch0)).erase
              ((Proc.scVector (cV L) (jV L)).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV L) (jV L)) (b := (Proc.scVector (cV L) (jV L)).devRef cc4_scratch1) rfl⟩)]

omit [FloatOps F] in
theorem pts_outAK (f : Buf (Elt F) (oLoc d)) :
    ((outAK L).view.loc (V d (cV L) (jV L)) ↦[(outAK L).view.set]{fullShare} f : sProp 𝕄) = oLoc d ↦[oSet d (2 * (jL L).val)]{fullShare} f := by
  rw [set_outAK d L]
omit [FloatOps F] in
theorem pts_outBK (f : Buf (Elt F) (oLoc d)) :
    ((outBK L).view.loc (V d (cV L) (jV L)) ↦[(outBK L).view.set]{fullShare} f : sProp 𝕄) = oLoc d ↦[oSet d (2 * (jL L).val + 1)]{fullShare} f := by
  rw [set_outBK d L]

/-- The task's 256 indices, as the task addresses them. -/
abbrev idxK (L : grid4.Coords) : Memref sig .scVector .hbm S256 .i32 := (iV).slice (Rect.unit (s := S4096) (k4_off1 L) S256.size (k4_off1_inb L)) (fun _ => rfl)

set_option maxHeartbeats 4000000 in
/-- The task on vector subcore `(L 0, L 1)`: the index fetch and its wait, the two gathers, each gather's wait followed by the
    copy of its half to the result and that copy's wait. Every index is in range of the state (`hidx`). -/
theorem tile_body (hF : (K (F := F)).Facts) (fi : Buf (Elt F) (iLoc d)) (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskRes d fi (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_sc_gather L xV (Memref.isWhole_whole _) iV (Memref.isWhole_whole _) oV (Memref.isWhole_whole _)
            sV (Memref.isWhole_whole _) rV (Memref.isWhole_whole _) cc4_scratch2 cc4_scratch3 cc4_scoped0 cc4_scoped1 cc4_scoped2)
          fun _ => iprop(taskRes d fi (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hi, ⟨%fx, Hx⟩, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc4_scratch0 ↦{fullShare} fs : sProp 𝕄) = ((sV).view.loc (V d (cV L) (jV L)) ↦{fullShare} fs) from rfl)) $$ Hs
  ihave Hr := (Entails.of_eq (show ((V d (cV L) (jV L)).loc cc4_scratch1 ↦{fullShare} fr : sProp 𝕄) = ((rV).view.loc (V d (cV L) (jV L)) ↦{fullShare} fr) from rfl)) $$ Hr
  have hin0 : ∀ (g : Buf (Elt F) ((V d (cV L) (jV L)).loc cc4_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc4_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  isplitl [Hi Hx HoA HoB]
  · isplitl [Hi]; · iexact Hi
    isplitl [Hx]; · iexists fx; iexact Hx
    isplitl [HoA]
    · iexists _; iapply (Entails.of_eq (pts_outAK (F := F) d L _)); iexact HoA
    · iexists _; iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and gathered back -/

/-- The call's operands, whole: the indices at their launch contents, the state and the result at whatever they hold. -/
def callRes (d : Dev nD) (fi : Buf (Elt F) (iLoc d)) : sProp 𝕄 :=
  iprop((iLoc d ↦{fullShare} fi) ∗ (∃ f, xLoc d ↦{fullShare} f) ∗ ∃ g, oLoc d ↦{fullShare} g)

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
/-- The result's 32 pieces of 128 are the tasks' pairs of pieces. -/
theorem out_pieces (d : Dev nD) :
    (bigSep Finset.univ fun w : Fin 32 => iprop(∃ g, oLoc d ↦[oSet d w.val]{fullShare} g) : sProp 𝕄)
      = bigSep Finset.univ fun i : Fin 16 =>
          iprop((∃ g, oLoc d ↦[oSet d (2 * i.val)]{fullShare} g) ∗ ∃ g, oLoc d ↦[oSet d (2 * i.val + 1)]{fullShare} g) := by
  refine (LibTiles.bigSep_tiles 16 2 (fun w => (iprop(∃ g, oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
/-- A read token at known contents is one at some contents. -/
theorem toks_some {ℓ : Loc nD τ sig} (f : Buf (Elt F) ℓ) :
    (bigSep Finset.univ fun i : Fin 16 => (ℓ ↦{tok i} f : sProp 𝕄)) ⊢ bigSep Finset.univ fun i : Fin 16 => iprop(∃ g, ℓ ↦{tok i} g) :=
  bigSep_mono fun i _ => by
    show (ℓ ↦{tok i} f : sProp 𝕄) ⊢ iprop(∃ g, ℓ ↦{tok i} g)
    iintro H; iexists f; iexact H

omit [FloatOps F] in
theorem deal [∀ e, Nonempty (Elt F e)] (d : Dev nD) (fi : Buf (Elt F) (iLoc d)) :
    callRes d fi ⊢ |={Set.univ}=> iprop((bigSep Finset.univ fun i : Fin 16 => taskRes d fi i)
      ∗ ((bigSep Finset.univ fun i : Fin 16 => taskRes d fi i) -∗ callRes d fi)) := by
  unfold callRes taskRes
  rw [bigSep_sep', bigSep_sep', ← out_pieces d]
  iintro ⟨Hi, ⟨%fx, Hx⟩, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iapply (toks_some (F := F) fx); iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iexists fx; iapply (LibReadShares.toks_rejoin (ℓ := xLoc d) fullShare 16 fx); isplitl [Hxd] <;> iassumption
  · iapply (LibTiles.pts_join (ℓ := oLoc d) (fun j : S4096.Idx => (j 0).val) 128 32 (by decide) (fun j => (j 0).isLt) fullShare g); iexact Ho

end Cert.Proof.KI.Call4

end
-- ==== Proof.ScCall6.lean ====
/-
  One vector subcore's task of a gather call. The sixteen tasks of the call each take 256 consecutive entries of the
  index vector, fetch them into their index scratch, gather the entries of the 16384-slot state those indices name into
  their value scratch — two streams of 128 entries, each on a semaphore of its own, the second started before the first is
  waited for — and copy the two halves out to their 256 consecutive entries of the result. A task only reads the index
  vector and the state, so it holds a share of each, whole; it holds its two 128-entry pieces of the result outright.
  The indices are in range of the state: an index out of range would leave a stream unanswered.
-/
import proofs.«208418_g89945205112833_cont_sun_c4_809_35_alg».proof.KernelIdeal
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208418_g89945205112833_cont_sun_c4_809_35_alg».proof.Proof.Gen.KernelIdeal
import proofs.«208418_g89945205112833_cont_sun_c4_809_35_alg».proof.Proof.Gen.KernelIdeal.Skeleton
import proofs.«208418_g89945205112833_cont_sun_c4_809_35_alg».proof.Proof.LibTiles
import proofs.«208418_g89945205112833_cont_sun_c4_809_35_alg».proof.Proof.LibReadShares

noncomputable section

namespace Cert.Proof.KI.Call6

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

abbrev ΛP : Labels := Pipeline.Sig Λ₀ (Fin 4) fun p => (pcfgs (F := F) p).Adm
abbrev K : SparseCore.Cfg τ sig (ΛP (F := F)) 4 := sc (F := F)
abbrev 𝒱₀ : Variants := Variants.none

/-- The certificate's ghost state: the launch handshakes' rounds, the pipelines' staging cells' rounds, the transfers' counters. -/
abbrev UH : Type := URounds (GSem nD τ sig) ℕ
abbrev UPp : Type := URounds (GSem nD τ sig) Unit
abbrev UU : Type := UH × (UPp × Counters)

local notation "𝕄" => MT nD τ sig (HIx 4) (Elt F) ℕ UU ℕ

local notation "xV" => (Memref.whole Cert.KernelIdeal.main_v18_scv : Memref Cert.KernelIdeal.sig Kind.scVector Space.hbm Cert.KernelIdeal.S16384 EltTy.f32)
local notation "iV" => (Memref.whole Cert.KernelIdeal.main_arg4_scv : Memref Cert.KernelIdeal.sig Kind.scVector Space.hbm Cert.KernelIdeal.S4096 EltTy.i32)
local notation "oV" => (Memref.whole Cert.KernelIdeal.main_v19_scv : Memref Cert.KernelIdeal.sig Kind.scVector Space.hbm Cert.KernelIdeal.S4096 EltTy.f32)
local notation "sV" => (Memref.whole Cert.KernelIdeal.cc6_scratch0 : Memref Cert.KernelIdeal.sig Kind.scVector Space.vmem Cert.KernelIdeal.S256 EltTy.i32)
local notation "rV" => (Memref.whole Cert.KernelIdeal.cc6_scratch1 : Memref Cert.KernelIdeal.sig Kind.scVector Space.vmem Cert.KernelIdeal.S256 EltTy.f32)

/-- The call's three arrays, as the TensorCore names them. -/
abbrev iLoc (d : Dev nD) : Loc nD τ sig := (SparseCore.T d).loc main_arg4
abbrev xLoc (d : Dev nD) : Loc nD τ sig := (SparseCore.T d).loc main_v18
abbrev oLoc (d : Dev nD) : Loc nD τ sig := (SparseCore.T d).loc main_v19

/-- Read token `i` of sixteen of a whole array. -/
abbrev tok (i : Fin 16) : PosShare TreeShare := Transfers.shareTok fullShare 16 i

/-- The result's entries whose position falls in the `w`-th piece of 128. -/
abbrev oSet (d : Dev nD) (w : ℕ) : Finset (Idx (oLoc d)) := LibTiles.blk (ℓ := oLoc d) (fun j : S4096.Idx => (j 0).val) 128 w

variable [FloatOps F]

/-- What task `i` is handed and hands back: a read token of the indices at their launch contents, a read token of the state
    at whatever it holds, its two pieces of the result at whatever they hold. -/
def taskRes (d : Dev nD) (fi : Buf (Elt F) (iLoc d)) (i : Fin 16) : sProp 𝕄 :=
  iprop((iLoc d ↦{tok i} fi) ∗ (∃ f, xLoc d ↦{tok i} f)
    ∗ (∃ g, oLoc d ↦[oSet d (2 * i.val)]{fullShare} g) ∗ ∃ g, oLoc d ↦[oSet d (2 * i.val + 1)]{fullShare} g)

section Tile

variable (d : Dev nD) (L : grid6.Coords)

abbrev cV (L : grid6.Coords) : Fin τ.nSC := (L 0).castLE hcore6
abbrev jV (L : grid6.Coords) : Fin τ.nSub := (L 1).castLE hsub6
omit [FloatOps F] in
theorem bound_one : grid6.bound 1 = 16 := rfl
abbrev jL (L : grid6.Coords) : Fin 16 := Fin.cast bound_one (L 1)

/-- The task's two pieces of the result, as the task addresses them. -/
abbrev outAK (L : grid6.Coords) : Memref sig .scVector .hbm S128 .f32 := (oV).slice (Rect.unit (s := S4096) (k6_off2 L) S128.size (k6_off2_inb L)) (fun _ => rfl)
abbrev outBK (L : grid6.Coords) : Memref sig .scVector .hbm S128 .f32 := (oV).slice (Rect.unit (s := S4096) (k6_off3 L) S128.size (k6_off3_inb L)) (fun _ => rfl)

omit [FloatOps F] in
/-- A task's coordinate on the SparseCore axis is 0: the call runs on one SparseCore. -/
theorem L0_zero : (L 0).val = 0 := by have h : (L 0).val < 1 := (L 0).isLt; omega

omit [FloatOps F] in
theorem set_outAK : (outAK L).view.set = oSet d (2 * (jL L).val) := by
  show ((View.whole (main_v19_scv : Ref sig .scVector)).slice _).set = _
  rw [View.set_slice_whole]
  ext j
  rw [Rect.mem_set_unit]
  show _ ↔ j ∈ Finset.univ.filter (fun j : S4096.Idx => (j 0).val / 128 = 2 * (jL L).val)
  rw [Finset.mem_filter]
  simp only [Finset.mem_univ, true_and, k6_off2_eq]
  have h0 := L0_zero L
  constructor
  · intro h; have := h 0; simp only [Matrix.cons_val_zero, S128] at this
    show (j 0).val / 128 = 2 * (L 1).val; omega
  · intro h a
    have h' : (j 0).val / 128 = 2 * (L 1).val := h
    match a with
    | 0 => simp only [Matrix.cons_val_zero, S128]; omega

omit [FloatOps F] in
theorem set_outBK : (outBK L).view.set = oSet d (2 * (jL L).val + 1) := by
  show ((View.whole (main_v19_scv : Ref sig .scVector)).slice _).set = _
  rw [View.set_slice_whole]
  ext j
  rw [Rect.mem_set_unit]
  show _ ↔ j ∈ Finset.univ.filter (fun j : S4096.Idx => (j 0).val / 128 = 2 * (jL L).val + 1)
  rw [Finset.mem_filter]
  simp only [Finset.mem_univ, true_and, k6_off3_eq]
  have h0 := L0_zero L
  constructor
  · intro h; have := h 0; simp only [Matrix.cons_val_zero, S128] at this
    show (j 0).val / 128 = 2 * (L 1).val + 1; omega
  · intro h a
    have h' : (j 0).val / 128 = 2 * (L 1).val + 1 := h
    match a with
    | 0 => simp only [Matrix.cons_val_zero, S128]; omega

abbrev c2cell (d : Dev nD) (c : Fin τ.nSC) (i : Fin τ.nSub) : GSem nD τ sig := (V d c i, .dma cc6_scratch2.sem)
abbrev c3cell (d : Dev nD) (c : Fin τ.nSC) (i : Fin τ.nSub) : GSem nD τ sig := (V d c i, .dma cc6_scratch3.sem)
abbrev cAcell (d : Dev nD) (c : Fin τ.nSC) (i : Fin τ.nSub) : GSem nD τ sig := (V d c i, .dma cc6_scoped0.sem)
abbrev cBcell (d : Dev nD) (c : Fin τ.nSC) (i : Fin τ.nSub) : GSem nD τ sig := (V d c i, .dma cc6_scoped1.sem)
abbrev cCcell (d : Dev nD) (c : Fin τ.nSC) (i : Fin τ.nSub) : GSem nD τ sig := (V d c i, .dma cc6_scoped2.sem)

omit [FloatOps F] in
/-- The task's five semaphores are among the subcore's own: they, at zero, and the rest. -/
theorem ownSems0_V :
    (ownSems0 (V d (cV L) (jV L)) : sProp 𝕄)
      = iprop(semVal (c2cell d (cV L) (jV L)) 0 ∗ semVal (c3cell d (cV L) (jV L)) 0 ∗ semVal (cAcell d (cV L) (jV L)) 0
          ∗ semVal (cBcell d (cV L) (jV L)) 0 ∗ semVal (cCcell d (cV L) (jV L)) 0
          ∗ bigSep ((((((ownCells (V d (cV L) (jV L))).erase (c2cell d (cV L) (jV L))).erase (c3cell d (cV L) (jV L))).erase (cAcell d (cV L) (jV L))).erase
              (cBcell d (cV L) (jV L))).erase (cCcell d (cV L) (jV L))) fun g => semVal g 0) := by
  unfold SparseCore.Cfg.ownSems0
  have m2 : c2cell d (cV L) (jV L) ∈ ownCells (V d (cV L) (jV L)) := mem_ownCells.mpr ⟨rfl, by
    show (SemLoc.dma cc6_scratch2.sem : SemLoc sig).isScoped .scVector = true; decide⟩
  have m3 : c3cell d (cV L) (jV L) ∈ ownCells (V d (cV L) (jV L)) := mem_ownCells.mpr ⟨rfl, by
    show (SemLoc.dma cc6_scratch3.sem : SemLoc sig).isScoped .scVector = true; decide⟩
  have mA : cAcell d (cV L) (jV L) ∈ ownCells (V d (cV L) (jV L)) := mem_ownCells.mpr ⟨rfl, by
    show (SemLoc.dma cc6_scoped0.sem : SemLoc sig).isScoped .scVector = true; decide⟩
  have mB : cBcell d (cV L) (jV L) ∈ ownCells (V d (cV L) (jV L)) := mem_ownCells.mpr ⟨rfl, by
    show (SemLoc.dma cc6_scoped1.sem : SemLoc sig).isScoped .scVector = true; decide⟩
  have mC : cCcell d (cV L) (jV L) ∈ ownCells (V d (cV L) (jV L)) := mem_ownCells.mpr ⟨rfl, by
    show (SemLoc.dma cc6_scoped2.sem : SemLoc sig).isScoped .scVector = true; decide⟩
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  rw [SparseCore.bigSep_erase' m2,
    SparseCore.bigSep_erase' (Finset.mem_erase.mpr ⟨ne (by decide), m3⟩),
    SparseCore.bigSep_erase' (Finset.mem_erase.mpr ⟨ne (by decide), Finset.mem_erase.mpr ⟨ne (by decide), mA⟩⟩),
    SparseCore.bigSep_erase' (Finset.mem_erase.mpr ⟨ne (by decide), Finset.mem_erase.mpr ⟨ne (by decide), Finset.mem_erase.mpr ⟨ne (by decide), mB⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mC⟩⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc6_scratch0 ↦{fullShare} f) ∗ (∃ f, (V d (cV L) (jV L)).loc cc6_scratch1 ↦{fullShare} f)
          ∗ bigSep (((ownRefs (τ := τ) (.scVector (cV L) (jV L))).erase ((Proc.scVector (cV L) (jV L)).devRef cc6_scratch0)).erase
              ((Proc.scVector (cV L) (jV L)).devRef cc6_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc6_scratch0) rfl)).trans ?_
  rw [SparseCore.bigSep_erase' (Finset.mem_erase.mpr ⟨fun e => absurd (Proc.devRef_injective _ e) (show (cc6_scratch1 : Ref sig .scVector) ≠ cc6_scratch0 by decide),
    SparseCore.Cfg.mem_ownRefs_of_owner (p := Proc.scVector (cV L) (jV L)) (b := (Proc.scVector (cV L) (jV L)).devRef cc6_scratch1) rfl⟩)]

omit [FloatOps F] in
theorem pts_outAK (f : Buf (Elt F) (oLoc d)) :
    ((outAK L).view.loc (V d (cV L) (jV L)) ↦[(outAK L).view.set]{fullShare} f : sProp 𝕄) = oLoc d ↦[oSet d (2 * (jL L).val)]{fullShare} f := by
  rw [set_outAK d L]
omit [FloatOps F] in
theorem pts_outBK (f : Buf (Elt F) (oLoc d)) :
    ((outBK L).view.loc (V d (cV L) (jV L)) ↦[(outBK L).view.set]{fullShare} f : sProp 𝕄) = oLoc d ↦[oSet d (2 * (jL L).val + 1)]{fullShare} f := by
  rw [set_outBK d L]

/-- The task's 256 indices, as the task addresses them. -/
abbrev idxK (L : grid6.Coords) : Memref sig .scVector .hbm S256 .i32 := (iV).slice (Rect.unit (s := S4096) (k6_off1 L) S256.size (k6_off1_inb L)) (fun _ => rfl)

set_option maxHeartbeats 4000000 in
/-- The task on vector subcore `(L 0, L 1)`: the index fetch and its wait, the two gathers, each gather's wait followed by the
    copy of its half to the result and that copy's wait. Every index is in range of the state (`hidx`). -/
theorem tile_body (hF : (K (F := F)).Facts) (fi : Buf (Elt F) (iLoc d)) (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskRes d fi (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6_sc_gather L xV (Memref.isWhole_whole _) iV (Memref.isWhole_whole _) oV (Memref.isWhole_whole _)
            sV (Memref.isWhole_whole _) rV (Memref.isWhole_whole _) cc6_scratch2 cc6_scratch3 cc6_scoped0 cc6_scoped1 cc6_scoped2)
          fun _ => iprop(taskRes d fi (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hi, ⟨%fx, Hx⟩, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc6_scratch0 ↦{fullShare} fs : sProp 𝕄) = ((sV).view.loc (V d (cV L) (jV L)) ↦{fullShare} fs) from rfl)) $$ Hs
  ihave Hr := (Entails.of_eq (show ((V d (cV L) (jV L)).loc cc6_scratch1 ↦{fullShare} fr : sProp 𝕄) = ((rV).view.loc (V d (cV L) (jV L)) ↦{fullShare} fr) from rfl)) $$ Hr
  have hin0 : ∀ (g : Buf (Elt F) ((V d (cV L) (jV L)).loc cc6_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc6_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  isplitl [Hi Hx HoA HoB]
  · isplitl [Hi]; · iexact Hi
    isplitl [Hx]; · iexists fx; iexact Hx
    isplitl [HoA]
    · iexists _; iapply (Entails.of_eq (pts_outAK (F := F) d L _)); iexact HoA
    · iexists _; iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and gathered back -/

/-- The call's operands, whole: the indices at their launch contents, the state and the result at whatever they hold. -/
def callRes (d : Dev nD) (fi : Buf (Elt F) (iLoc d)) : sProp 𝕄 :=
  iprop((iLoc d ↦{fullShare} fi) ∗ (∃ f, xLoc d ↦{fullShare} f) ∗ ∃ g, oLoc d ↦{fullShare} g)

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
/-- The result's 32 pieces of 128 are the tasks' pairs of pieces. -/
theorem out_pieces (d : Dev nD) :
    (bigSep Finset.univ fun w : Fin 32 => iprop(∃ g, oLoc d ↦[oSet d w.val]{fullShare} g) : sProp 𝕄)
      = bigSep Finset.univ fun i : Fin 16 =>
          iprop((∃ g, oLoc d ↦[oSet d (2 * i.val)]{fullShare} g) ∗ ∃ g, oLoc d ↦[oSet d (2 * i.val + 1)]{fullShare} g) := by
  refine (LibTiles.bigSep_tiles 16 2 (fun w => (iprop(∃ g, oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
/-- A read token at known contents is one at some contents. -/
theorem toks_some {ℓ : Loc nD τ sig} (f : Buf (Elt F) ℓ) :
    (bigSep Finset.univ fun i : Fin 16 => (ℓ ↦{tok i} f : sProp 𝕄)) ⊢ bigSep Finset.univ fun i : Fin 16 => iprop(∃ g, ℓ ↦{tok i} g) :=
  bigSep_mono fun i _ => by
    show (ℓ ↦{tok i} f : sProp 𝕄) ⊢ iprop(∃ g, ℓ ↦{tok i} g)
    iintro H; iexists f; iexact H

omit [FloatOps F] in
theorem deal [∀ e, Nonempty (Elt F e)] (d : Dev nD) (fi : Buf (Elt F) (iLoc d)) :
    callRes d fi ⊢ |={Set.univ}=> iprop((bigSep Finset.univ fun i : Fin 16 => taskRes d fi i)
      ∗ ((bigSep Finset.univ fun i : Fin 16 => taskRes d fi i) -∗ callRes d fi)) := by
  unfold callRes taskRes
  rw [bigSep_sep', bigSep_sep', ← out_pieces d]
  iintro ⟨Hi, ⟨%fx, Hx⟩, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iapply (toks_some (F := F) fx); iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iexists fx; iapply (LibReadShares.toks_rejoin (ℓ := xLoc d) fullShare 16 fx); isplitl [Hxd] <;> iassumption
  · iapply (LibTiles.pts_join (ℓ := oLoc d) (fun j : S4096.Idx => (j 0).val) 128 32 (by decide) (fun j => (j 0).isLt) fullShare g); iexact Ho

end Cert.Proof.KI.Call6

end
-- ==== Proof.ScPay.lean ====
/-
  The four gather calls together: what the launch handshakes carry for each (the call's operands to the SparseCore, each
  task's share of them to its vector subcore, and the same back), each call's task as the launch theorem asks for it, and
  how a call's operands are dealt to its sixteen tasks and gathered again.
-/
import proofs.«208418_g89945205112833_cont_sun_c4_809_35_alg».proof.Proof.ScCall0
import proofs.«208418_g89945205112833_cont_sun_c4_809_35_alg».proof.Proof.ScCall2
import proofs.«208418_g89945205112833_cont_sun_c4_809_35_alg».proof.Proof.ScCall4
import proofs.«208418_g89945205112833_cont_sun_c4_809_35_alg».proof.Proof.ScCall6

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := Call0.UH
abbrev UPp : Type := Call0.UPp
abbrev UU : Type := Call0.UU

local notation "𝕄" => MT nD τ sig (HIx 4) (Elt F) ℕ UU ℕ

abbrev EH : Emb UH (MT nD τ sig (HIx 4) (Elt F) ℕ UU ℕ) := embL

/-- The pipelines' staging cells' rounds sit in the middle component of the ghost state. -/
abbrev EP : Emb UPp (MT nD τ sig (HIx 4) (Elt F) ℕ UU ℕ) :=
  (Emb.inl : Emb UPp (UPp × Counters)).trans (embR : Emb (UPp × Counters) (MT nD τ sig (HIx 4) (Elt F) ℕ UU ℕ))

instance EP_landsIn : (EP (F := F)).LandsIn (upEmb : UEmb _ (MT nD τ sig (HIx 4) (Elt F) ℕ UU ℕ)) := by
  unfold EP embR; infer_instance

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub0 : (K (F := F)).nSub 0 = 16 := rfl
theorem nSub1 : (K (F := F)).nSub 1 = 16 := rfl
theorem nSub2 : (K (F := F)).nSub 2 = 16 := rfl
theorem nSub3 : (K (F := F)).nSub 3 = 16 := rfl

variable (m : (ℓ : Loc nD τ sig) → Buf (Elt F) ℓ) (ρ : Dev nD → PrngReg)

variable [FloatOps F]

/-- What the handshakes carry: call `q` takes its operands whole and brings them back; each of its tasks its share. -/
def P : (K (F := F)).Pay (nD := nD) (Val := Elt F) (Name := ℕ) (U := UU) where
  st := fun q d _ => match q with
    | 0 => Call0.callRes d (m (Call0.iLoc d)) | 1 => Call2.callRes d (m (Call2.iLoc d))
    | 2 => Call4.callRes d (m (Call4.iLoc d)) | 3 => Call6.callRes d (m (Call6.iLoc d))
  dn := fun q d _ => match q with
    | 0 => Call0.callRes d (m (Call0.iLoc d)) | 1 => Call2.callRes d (m (Call2.iLoc d))
    | 2 => Call4.callRes d (m (Call4.iLoc d)) | 3 => Call6.callRes d (m (Call6.iLoc d))
  go := fun q d _ i => match q with
    | 0 => Call0.taskRes d (m (Call0.iLoc d)) (Fin.cast nSub0 i) | 1 => Call2.taskRes d (m (Call2.iLoc d)) (Fin.cast nSub1 i)
    | 2 => Call4.taskRes d (m (Call4.iLoc d)) (Fin.cast nSub2 i) | 3 => Call6.taskRes d (m (Call6.iLoc d)) (Fin.cast nSub3 i)
  td := fun q d _ i => match q with
    | 0 => Call0.taskRes d (m (Call0.iLoc d)) (Fin.cast nSub0 i) | 1 => Call2.taskRes d (m (Call2.iLoc d)) (Fin.cast nSub1 i)
    | 2 => Call4.taskRes d (m (Call4.iLoc d)) (Fin.cast nSub2 i) | 3 => Call6.taskRes d (m (Call6.iLoc d)) (Fin.cast nSub3 i)
  x := fun _ _ => iprop(emp)

set_option maxHeartbeats 4000000 in
instance P_storable : (P (F := F) m).IsStorable where
  st q d _ := match q with
    | 0 => (by unfold Call0.callRes; infer_instance : BI.Storable (upEmb : UEmb _ 𝕄) (Call0.callRes d (m (Call0.iLoc d))))
    | 1 => (by unfold Call2.callRes; infer_instance : BI.Storable (upEmb : UEmb _ 𝕄) (Call2.callRes d (m (Call2.iLoc d))))
    | 2 => (by unfold Call4.callRes; infer_instance : BI.Storable (upEmb : UEmb _ 𝕄) (Call4.callRes d (m (Call4.iLoc d))))
    | 3 => (by unfold Call6.callRes; infer_instance : BI.Storable (upEmb : UEmb _ 𝕄) (Call6.callRes d (m (Call6.iLoc d))))
  dn q d _ := match q with
    | 0 => (by unfold Call0.callRes; infer_instance : BI.Storable (upEmb : UEmb _ 𝕄) (Call0.callRes d (m (Call0.iLoc d))))
    | 1 => (by unfold Call2.callRes; infer_instance : BI.Storable (upEmb : UEmb _ 𝕄) (Call2.callRes d (m (Call2.iLoc d))))
    | 2 => (by unfold Call4.callRes; infer_instance : BI.Storable (upEmb : UEmb _ 𝕄) (Call4.callRes d (m (Call4.iLoc d))))
    | 3 => (by unfold Call6.callRes; infer_instance : BI.Storable (upEmb : UEmb _ 𝕄) (Call6.callRes d (m (Call6.iLoc d))))
  go q d _ i := match q with
    | 0 => (by unfold Call0.taskRes; infer_instance : BI.Storable (upEmb : UEmb _ 𝕄) (Call0.taskRes d (m (Call0.iLoc d)) (Fin.cast nSub0 i)))
    | 1 => (by unfold Call2.taskRes; infer_instance : BI.Storable (upEmb : UEmb _ 𝕄) (Call2.taskRes d (m (Call2.iLoc d)) (Fin.cast nSub1 i)))
    | 2 => (by unfold Call4.taskRes; infer_instance : BI.Storable (upEmb : UEmb _ 𝕄) (Call4.taskRes d (m (Call4.iLoc d)) (Fin.cast nSub2 i)))
    | 3 => (by unfold Call6.taskRes; infer_instance : BI.Storable (upEmb : UEmb _ 𝕄) (Call6.taskRes d (m (Call6.iLoc d)) (Fin.cast nSub3 i)))
  td q d _ i := match q with
    | 0 => (by unfold Call0.taskRes; infer_instance : BI.Storable (upEmb : UEmb _ 𝕄) (Call0.taskRes d (m (Call0.iLoc d)) (Fin.cast nSub0 i)))
    | 1 => (by unfold Call2.taskRes; infer_instance : BI.Storable (upEmb : UEmb _ 𝕄) (Call2.taskRes d (m (Call2.iLoc d)) (Fin.cast nSub1 i)))
    | 2 => (by unfold Call4.taskRes; infer_instance : BI.Storable (upEmb : UEmb _ 𝕄) (Call4.taskRes d (m (Call4.iLoc d)) (Fin.cast nSub2 i)))
    | 3 => (by unfold Call6.taskRes; infer_instance : BI.Storable (upEmb : UEmb _ 𝕄) (Call6.taskRes d (m (Call6.iLoc d)) (Fin.cast nSub3 i)))

/-- What the proof asks of the launch memory: every word of the four index vectors names a slot of the state. -/
def PreOK : Prop := ∀ d : Dev nD,
  (∀ j, (m (Call0.iLoc d) j).toNat < S16384.size gathers_S16384_S128.axis) ∧ (∀ j, (m (Call2.iLoc d) j).toNat < S16384.size gathers_S16384_S128.axis)
  ∧ (∀ j, (m (Call4.iLoc d) j).toNat < S16384.size gathers_S16384_S128.axis) ∧ (∀ j, (m (Call6.iLoc d) j).toNat < S16384.size gathers_S16384_S128.axis)

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ### Call 0 -/

def coordsV0 (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0_sc_gather (coordsV0 c s)
          (Memref.whole main_v3_scv) (Memref.isWhole_whole _) (Memref.whole main_arg1_scv) (Memref.isWhole_whole _)
          (Memref.whole main_v4_scv) (Memref.isWhole_whole _)
          (Memref.whole cc0_scratch0) (Memref.isWhole_whole _) (Memref.whole cc0_scratch1) (Memref.isWhole_whole _)
          cc0_scratch2 cc0_scratch3 cc0_scoped0 cc0_scoped1 cc0_scoped2) ⟨⟩ c s := rfl

set_option maxHeartbeats 4000000 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (Call0.tile_body d (coordsV0 ⟨_, hc.1⟩ ⟨_, hc.2⟩) hF (m (Call0.iLoc d)) (hpre d).1 O W hO).trans (wp_mono frame _ _ fun _ => obl_post)

set_option maxHeartbeats 4000000 in
omit [FloatOps F] in
theorem bigSep_tasks0 (Φ : Fin 16 → sProp 𝕄) :
    (bigSep Finset.univ fun i : Fin ((K (F := F)).nSub 0) => Φ (Fin.cast nSub0 i)) = bigSep Finset.univ Φ :=
  bigSep_congr fun _ _ => congrArg Φ (Fin.ext rfl)

set_option maxHeartbeats 4000000 in
theorem vecSplit0 [∀ e, Nonempty (Elt F e)] : (K (F := F)).VecSplit' (P m) 0 := by
  intro d c
  show Call0.callRes d (m (Call0.iLoc d)) ⊢ |={Set.univ}=> iprop(
      (bigSep Finset.univ fun i : Fin ((K (F := F)).nSub 0) => Call0.taskRes d (m (Call0.iLoc d)) (Fin.cast nSub0 i))
      ∗ ((bigSep Finset.univ fun i : Fin ((K (F := F)).nSub 0) => Call0.taskRes d (m (Call0.iLoc d)) (Fin.cast nSub0 i))
          -∗ Call0.callRes d (m (Call0.iLoc d))))
  rw [bigSep_tasks0 (F := F) (fun i => Call0.taskRes d (m (Call0.iLoc d)) i)]
  exact Call0.deal d _

/-! ### Call 1 -/

def coordsV2 (c : Fin (grid2.bound 0)) (s : Fin (grid2.bound 1)) : grid2.Coords :=
  fun | 0 => c | 1 => s | ⟨_ + 2, h⟩ => absurd h (Nat.not_lt.2 (Nat.le_add_left _ _))

theorem defs₀_vector2 (c : Fin τ.nSC) (s : Fin τ.nSub) :
    defs₀ (F := F) (.scVector c s) 2 ()
      = SparseCore.onTile hcore2 hsub2 (fun c s => cc2_sc_gather (coordsV2 c s)
          (Memref.whole main_v8_scv) (Memref.isWhole_whole _) (Memref.whole main_arg2_scv) (Memref.isWhole_whole _)
          (Memref.whole main_v9_scv) (Memref.isWhole_whole _)
          (Memref.whole cc2_scratch0) (Memref.isWhole_whole _) (Memref.whole cc2_scratch1) (Memref.isWhole_whole _)
          cc2_scratch2 cc2_scratch3 cc2_scoped0 cc2_scoped1 cc2_scoped2) ⟨⟩ c s := rfl

set_option maxHeartbeats 4000000 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (Call2.tile_body d (coordsV2 ⟨_, hc.1⟩ ⟨_, hc.2⟩) hF (m (Call2.iLoc d)) (hpre d).2.1 O W hO).trans (wp_mono frame _ _ fun _ => obl_post)

set_option maxHeartbeats 4000000 in
omit [FloatOps F] in
theorem bigSep_tasks1 (Φ : Fin 16 → sProp 𝕄) :
    (bigSep Finset.univ fun i : Fin ((K (F := F)).nSub 1) => Φ (Fin.cast nSub1 i)) = bigSep Finset.univ Φ :=
  bigSep_congr fun _ _ => congrArg Φ (Fin.ext rfl)

set_option maxHeartbeats 4000000 in
theorem vecSplit1 [∀ e, Nonempty (Elt F e)] : (K (F := F)).VecSplit' (P m) 1 := by
  intro d c
  show Call2.callRes d (m (Call2.iLoc d)) ⊢ |={Set.univ}=> iprop(
      (bigSep Finset.univ fun i : Fin ((K (F := F)).nSub 1) => Call2.taskRes d (m (Call2.iLoc d)) (Fin.cast nSub1 i))
      ∗ ((bigSep Finset.univ fun i : Fin ((K (F := F)).nSub 1) => Call2.taskRes d (m (Call2.iLoc d)) (Fin.cast nSub1 i))
          -∗ Call2.callRes d (m (Call2.iLoc d))))
  rw [bigSep_tasks1 (F := F) (fun i => Call2.taskRes d (m (Call2.iLoc d)) i)]
  exact Call2.deal d _

/-! ### Call 2 -/

def coordsV4 (c : Fin (grid4.bound 0)) (s : Fin (grid4.bound 1)) : grid4.Coords :=
  fun | 0 => c | 1 => s | ⟨_ + 2, h⟩ => absurd h (Nat.not_lt.2 (Nat.le_add_left _ _))

theorem defs₀_vector4 (c : Fin τ.nSC) (s : Fin τ.nSub) :
    defs₀ (F := F) (.scVector c s) 4 ()
      = SparseCore.onTile hcore4 hsub4 (fun c s => cc4_sc_gather (coordsV4 c s)
          (Memref.whole main_v13_scv) (Memref.isWhole_whole _) (Memref.whole main_arg3_scv) (Memref.isWhole_whole _)
          (Memref.whole main_v14_scv) (Memref.isWhole_whole _)
          (Memref.whole cc4_scratch0) (Memref.isWhole_whole _) (Memref.whole cc4_scratch1) (Memref.isWhole_whole _)
          cc4_scratch2 cc4_scratch3 cc4_scoped0 cc4_scoped1 cc4_scoped2) ⟨⟩ c s := rfl

set_option maxHeartbeats 4000000 in
theorem tileObl2 (hF : (K (F := F)).Facts) (hpre : PreOK m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector4]; simp only [SparseCore.onTile, hc, and_self, ↓reduceDIte]
  exact (Call4.tile_body d (coordsV4 ⟨_, hc.1⟩ ⟨_, hc.2⟩) hF (m (Call4.iLoc d)) (hpre d).2.2.1 O W hO).trans (wp_mono frame _ _ fun _ => obl_post)

set_option maxHeartbeats 4000000 in
omit [FloatOps F] in
theorem bigSep_tasks2 (Φ : Fin 16 → sProp 𝕄) :
    (bigSep Finset.univ fun i : Fin ((K (F := F)).nSub 2) => Φ (Fin.cast nSub2 i)) = bigSep Finset.univ Φ :=
  bigSep_congr fun _ _ => congrArg Φ (Fin.ext rfl)

set_option maxHeartbeats 4000000 in
theorem vecSplit2 [∀ e, Nonempty (Elt F e)] : (K (F := F)).VecSplit' (P m) 2 := by
  intro d c
  show Call4.callRes d (m (Call4.iLoc d)) ⊢ |={Set.univ}=> iprop(
      (bigSep Finset.univ fun i : Fin ((K (F := F)).nSub 2) => Call4.taskRes d (m (Call4.iLoc d)) (Fin.cast nSub2 i))
      ∗ ((bigSep Finset.univ fun i : Fin ((K (F := F)).nSub 2) => Call4.taskRes d (m (Call4.iLoc d)) (Fin.cast nSub2 i))
          -∗ Call4.callRes d (m (Call4.iLoc d))))
  rw [bigSep_tasks2 (F := F) (fun i => Call4.taskRes d (m (Call4.iLoc d)) i)]
  exact Call4.deal d _

/-! ### Call 3 -/

def coordsV6 (c : Fin (grid6.bound 0)) (s : Fin (grid6.bound 1)) : grid6.Coords :=
  fun | 0 => c | 1 => s | ⟨_ + 2, h⟩ => absurd h (Nat.not_lt.2 (Nat.le_add_left _ _))

theorem defs₀_vector6 (c : Fin τ.nSC) (s : Fin τ.nSub) :
    defs₀ (F := F) (.scVector c s) 6 ()
      = SparseCore.onTile hcore6 hsub6 (fun c s => cc6_sc_gather (coordsV6 c s)
          (Memref.whole main_v18_scv) (Memref.isWhole_whole _) (Memref.whole main_arg4_scv) (Memref.isWhole_whole _)
          (Memref.whole main_v19_scv) (Memref.isWhole_whole _)
          (Memref.whole cc6_scratch0) (Memref.isWhole_whole _) (Memref.whole cc6_scratch1) (Memref.isWhole_whole _)
          cc6_scratch2 cc6_scratch3 cc6_scoped0 cc6_scoped1 cc6_scoped2) ⟨⟩ c s := rfl

set_option maxHeartbeats 4000000 in
theorem tileObl3 (hF : (K (F := F)).Facts) (hpre : PreOK m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vector6]; simp only [SparseCore.onTile, hc, and_self, ↓reduceDIte]
  exact (Call6.tile_body d (coordsV6 ⟨_, hc.1⟩ ⟨_, hc.2⟩) hF (m (Call6.iLoc d)) (hpre d).2.2.2 O W hO).trans (wp_mono frame _ _ fun _ => obl_post)

set_option maxHeartbeats 4000000 in
omit [FloatOps F] in
theorem bigSep_tasks3 (Φ : Fin 16 → sProp 𝕄) :
    (bigSep Finset.univ fun i : Fin ((K (F := F)).nSub 3) => Φ (Fin.cast nSub3 i)) = bigSep Finset.univ Φ :=
  bigSep_congr fun _ _ => congrArg Φ (Fin.ext rfl)

set_option maxHeartbeats 4000000 in
theorem vecSplit3 [∀ e, Nonempty (Elt F e)] : (K (F := F)).VecSplit' (P m) 3 := by
  intro d c
  show Call6.callRes d (m (Call6.iLoc d)) ⊢ |={Set.univ}=> iprop(
      (bigSep Finset.univ fun i : Fin ((K (F := F)).nSub 3) => Call6.taskRes d (m (Call6.iLoc d)) (Fin.cast nSub3 i))
      ∗ ((bigSep Finset.univ fun i : Fin ((K (F := F)).nSub 3) => Call6.taskRes d (m (Call6.iLoc d)) (Fin.cast nSub3 i))
          -∗ Call6.callRes d (m (Call6.iLoc d))))
  rw [bigSep_tasks3 (F := F) (fun i => Call6.taskRes d (m (Call6.iLoc d)) i)]
  exact Call6.deal d _

end Cert.Proof.KI

end
-- ==== Proof.ScIface.lean ====
/-
  What @main's proof asks of a TensorCore region between two gather calls, as one statement per region: entered holding the
  region boundary, what the TensorCore still owes the SparseCores (with the bound on the waits it has recorded), and the four
  arrays the region touches — the gathered vector, the weight matrix, the bias, the output — whole, the region's custom call
  runs and hands all of it back, the first three arrays at the contents they were handed in at, the output at whatever
  the region left.
-/
import proofs.«208418_g89945205112833_cont_sun_c4_809_35_alg».proof.Proof.ScPay

noncomputable section

namespace Cert.Proof.KI

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- No pipeline of the program has prefetched tables: the admissible tables are the empty ones. -/
abbrev adm : (p : Fin 4) → (pcfgs (F := F) p).Adm := fun p => (cfgs p).toPCfg_adm

variable [FloatOps F]

/-- A region's entry: the debt with its bound, and the four arrays whole at the contents `Vc` gives them. -/
def regPre (d : Dev nD) (n : ℕ) (g w b o : Ref sig .tc) (Vc : (r : Ref sig .tc) → Buf (Elt F) ((SparseCore.T d : Thread nD τ).loc r)) : sProp 𝕄 :=
  iprop((∃ W, ⌜(K (F := F)).WBelow (SparseCore.T d) W (8 * n)⌝ ∗ owes (SparseCore.T d) ((K (F := F)).Otc d n) W)
    ∗ ((SparseCore.T d).loc g ↦{fullShare} Vc g) ∗ ((SparseCore.T d).loc w ↦{fullShare} Vc w) ∗ ((SparseCore.T d).loc b ↦{fullShare} Vc b) ∗ ((SparseCore.T d).loc o ↦{fullShare} Vc o))

/-- A region's exit: the same, the output at whatever the region left. -/
def regPost (d : Dev nD) (n : ℕ) (g w b o : Ref sig .tc) (Vc : (r : Ref sig .tc) → Buf (Elt F) ((SparseCore.T d : Thread nD τ).loc r)) : sProp 𝕄 :=
  iprop((∃ W, ⌜(K (F := F)).WBelow (SparseCore.T d) W (8 * n)⌝ ∗ owes (SparseCore.T d) ((K (F := F)).Otc d n) W)
    ∗ ((SparseCore.T d).loc g ↦{fullShare} Vc g) ∗ ((SparseCore.T d).loc w ↦{fullShare} Vc w) ∗ ((SparseCore.T d).loc b ↦{fullShare} Vc b) ∗ ∃ f, (SparseCore.T d).loc o ↦{fullShare} f)

/-- Region `p` over the arrays `g w b o`, as @main's proof uses it. -/
def RegionStep (p : Fin 4) (g w b o : Ref sig .tc) : Prop :=
  ∀ (d : Dev nD) (n : ℕ) (Vc : (r : Ref sig .tc) → Buf (Elt F) ((SparseCore.T d : Thread nD τ).loc r)) (Φ : PUnit → sProp 𝕄),
    iprop((iprop(boundary (SparseCore.T d) ∗ regPost d n g w b o Vc) -∗ Φ ⟨⟩) ∗ boundary (SparseCore.T d) ∗ regPre d n g w b o Vc
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ

end Cert.Proof.KI

end
-- ==== Proof.LibScRegion.lean ====
/-
  A TensorCore pipeline region entered from @main of a SparseCore program (any number of regions, any number of
  SparseCore calls): the general part. Between two SparseCore calls the TensorCore's state holds what it still owes the
  SparseCores — the start signals of the calls to come, each at the index of its call — together with a bound on the waits
  it has recorded. A region of the pipeline library is entered with that debt carried unchanged: it has nothing at the
  kernels' own index (none), where the staging cells' waits sit, so those waits are admissible beneath it, and the waits
  the region records sit at level 0, below every bound. The region's custom call in the SparseCore program is the
  pipeline program's call, lifted.

  To use it: in the proof of @main, open the state with tcSt_open, hand the `owes` and its bound to the region's
  precondition (proof data with owed := K.Otc d n, recorded := rcAt K d n), enter through region_lift and the pipeline
  library's region rule with wait evidence from the launch library's mayWait_none at Otc_none, and after the region close
  the state again with wbelow_of_bound and tcSt_open.
-/
import Idealize.ShloMosaic.Lib.SparseCore.Launch
import Idealize.ShloMosaic.Lib.Pipeline.Regions

noncomputable section

namespace Cert.Proof.LibScRegion

open Idealize.ShloMosaic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ : Labels} {Q : Nat}
variable {Name : Type} [DecidableEq Name] {U : Type} [URA U]
variable (K : SparseCore.Cfg τ sig Λ Q)

local notation "𝕄" => MT nD τ sig (HIx Q) Val Name U ℕ

/-- What the TensorCore owes the SparseCores before call `n` has nothing at the kernels' own index. -/
theorem Otc_none (d : Dev nD) (n : ℕ) (g : GSem nD τ sig) : K.Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    unfold tallyAt tallyOn
    by_cases h : g = K.startCell d (K.core q c)
    · subst h; rw [Pi.single_eq_same]; exact Finsupp.single_eq_of_ne (by simp)
    · rw [Pi.single_eq_of_ne h]; rfl
  · rfl

variable (EH : Emb (URounds (GSem nD τ sig) ℕ) (MT nD τ sig (HIx Q) Val Name U ℕ))

/-- The handshake part of the TensorCore's state before call `n`: everything but what it owes. -/
def tcRest (d : Dev nD) (n : ℕ) : sProp 𝕄 :=
  iprop(atPos EH (K.doneCell d) n ∅ 0 ∗ reached EH (K.doneCell d) n
    ∗ (bigSep Finset.univ fun c : Fin τ.nSC => reached EH (K.startCell d c) (K.sRank c n))
    ∗ bigSep (SparseCore.Cfg.callsFrom (Q := Q) n) fun q => bigSep Finset.univ fun c : Fin (K.nCore q) =>
        iprop(dutyTok EH (K.startCell d (K.core q c)) (K.sRank (K.core q c) q.val) 0 ∗ cred (tallyAt (K.doneCell d) (some q) 1)))

/-- The TensorCore's state before call `n`, opened: its debt with the bound on its recorded waits, and the rest. -/
theorem tcSt_open (d : Dev nD) (n : ℕ) :
    (K.tcSt EH d n : sProp 𝕄)
      = iprop((∃ W, ⌜K.WBelow (T d) W (8 * n)⌝ ∗ owes (T d) (K.Otc d n) W) ∗ tcRest K EH d n) := rfl

/-- The recorded waits the TensorCore may have before call `n`, as a set of (semaphore, index) pairs: what a region's
    proof data state as their `recorded`. -/
def rcAt (d : Dev nD) (n : ℕ) : Set (SemLoc sig × HIx Q) := {pr | K.lev (T d, pr.1) pr.2 ≤ 8 * n}

/-- After a region: waits within the bound it was entered with, or recorded by the region at the kernels' own index,
    are within the bound. -/
theorem wbelow_of_bound (d : Dev nD) (n : ℕ) (W : Waits sig (HIx Q)) (B : Set (SemLoc sig × HIx Q))
    (hB : ∀ pr ∈ B, pr.2 = none) (hW : ∀ pr ∈ W, pr ∈ rcAt K d n ∪ B) : K.WBelow (T d) W (8 * n) := fun pr hpr => by
  rcases hW pr hpr with h | h
  · exact h
  · show K.lev (T d, pr.1) pr.2 ≤ 8 * n
    rw [hB pr h]; exact Nat.zero_le _

/-- A pipeline region's custom call in the SparseCore program is the pipeline program's, lifted: a proof of the call under
    the certificate's own body table is a proof of it under the launch's extended table. -/
theorem region_lift {Λ₀ : Labels} {P : Type} {A : P → Type} (K : SparseCore.Cfg τ sig (Pipeline.Sig Λ₀ P A) Q)
    (D : Defs nD τ sig Val (Pipeline.Sig Λ₀ P A)) (𝒱 : Variants) (d : Dev nD) (p : P)
    (Φ : PUnit → sProp (MT nD τ sig (HIx Q) Val Name U ℕ)) :
    wp frame (wpE D 𝒱 (T d) none) Set.univ (Prog.op (.customCall (Pipeline.entry p) ()) Prog.ret) Φ
      ⊢ wp frame (wpE (K.defs D) 𝒱 (T d) none) Set.univ (Prog.lift (.customCall (SparseCore.inner (Pipeline.entry p)) ())) Φ :=
  K.wp_liftProg D 𝒱 (T d) Set.univ none _ Φ

/-- The whole region step as @main's proof uses it: from the continuation after the region, the boundary, the region's
    precondition, the level facts and the pipeline's launch ghost state, the region's custom call in the SparseCore program
    runs to the continuation. (The region rule of the pipeline library under the lifted call, the call's own continuation
    being the return.) -/
theorem wp_region_step {Λ₀ : Labels} {P : Type} [Fintype P] (pcs : P → Pipeline.PCfg sig Λ₀ Val) (a : (p : P) → (pcs p).Adm)
    (K : SparseCore.Cfg τ sig (Pipeline.Sig Λ₀ P fun p => (pcs p).Adm) Q)
    (pdats : (p : P) → (c : Dev nD) → Pipeline.Dat τ Val (HIx Q) Name U ℕ (Pipeline.pin pcs a p) c)
    (phinj : Function.Injective (Pipeline.cellOf (nD := nD) (τ := τ) (Pipeline.pin pcs a)))
    (EP : Emb (URounds (GSem nD τ sig) Unit) (MT nD τ sig (HIx Q) Val Name U ℕ)) [EP.LandsIn (upEmb : UEmb _ (MT nD τ sig (HIx Q) Val Name U ℕ))]
    (defs₀ : Defs nD τ sig Val Λ₀) (𝒱₀ : Variants) [∀ e, Nonempty (Val e)] [Infinite Name]
    {p : P} (R : Pipeline.RegionSeg pcs a pdats (none : HIx Q) defs₀ 𝒱₀ K.L K.lev p) (d : Dev nD)
    (Φ : PUnit → sProp (MT nD τ sig (HIx Q) Val Name U ℕ)) :
    iprop((iprop(boundary (T d) ∗ R.post d) -∗ Φ ⟨⟩) ∗ boundary (T d) ∗ R.pre d ∗ levAts K.L K.lev
        ∗ Pipeline.cellsGhost (Pipeline.pin pcs a) EP p d ∗ Pipeline.toksInit (Pipeline.pin pcs a) EP p d)
      ⊢ wp frame (wpE (K.defs (Pipeline.defs pcs defs₀)) (Variants.lift 𝒱₀) (T d) none) Set.univ
          (Prog.lift (.customCall (SparseCore.inner (Pipeline.entry p)) ())) Φ := by
  refine BIBase.Entails.trans ?_ (region_lift K (Pipeline.defs pcs defs₀) (Variants.lift 𝒱₀) d p Φ)
  refine BIBase.Entails.trans ?_ (Pipeline.RegionSeg.wp pcs a pdats (none : HIx Q) phinj EP defs₀ 𝒱₀ K.L K.lev R d none (fun u hu => nomatch hu) Prog.ret Φ)
  iintro ⟨Hk, Hrest⟩
  isplitl [Hk]
  · iintro H
    rw [wp_ret]; imodintro
    iapply Hk; iexact H
  · iexact Hrest

end Cert.Proof.LibScRegion

end
-- ==== Proof.ScMain.lean ====
import proofs.«208418_g89945205112833_cont_sun_c4_809_35_alg».proof.Proof.ScIface
import proofs.«208418_g89945205112833_cont_sun_c4_809_35_alg».proof.Proof.Gen.KernelIdeal.Launch
import proofs.«208418_g89945205112833_cont_sun_c4_809_35_alg».proof.Proof.LibScRegion
import Idealize.ShloMosaic.Lib.Pipeline.Frame

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## @main as stretches of host operations between the calls and the regions -/

abbrev ops0 : List (HloOp τ sig (Elt F)) :=
  [StableHlo.reshape main_arg0 main_v0 rfl shapeCasts_S4096_S1x4096,
   StableHlo.nullary main_cst (constant S_ .f32 0x00000000#32),
   StableHlo.unary main_cst main_v1 (broadcastInDim S1x12288 ![] bcast_S_S1x12288 : (⟨S_, .f32⟩ : BufTy).Contents (Elt F) → (⟨S1x12288, .f32⟩ : BufTy).Contents (Elt F)),
   StableHlo.binary main_v0 main_v1 main_v2 ((fun a b => concatenate S1x16384 1 [⟨S1x4096, a⟩, ⟨S1x12288, b⟩] concatenates_S1x4096_S1x12288_S1x16384_d1) : (⟨S1x4096, .f32⟩ : BufTy).Contents (Elt F) → (⟨S1x12288, .f32⟩ : BufTy).Contents (Elt F) → (⟨S1x16384, .f32⟩ : BufTy).Contents (Elt F)),
   StableHlo.reshape main_v2 main_v3 rfl shapeCasts_S1x16384_S16384]

abbrev ops1 : List (HloOp τ sig (Elt F)) :=
  [StableHlo.reshape main_v4 main_v5 rfl shapeCasts_S4096_S1x4096,
   StableHlo.reshape main_arg9 main_v6 rfl shapeCasts_S4096_S1x4096,
   StableHlo.unary main_v2 main_v7 id]

abbrev ops2 : List (HloOp τ sig (Elt F)) :=
  [StableHlo.reshape main_v7 main_v8 rfl shapeCasts_S1x16384_S16384]

abbrev ops3 : List (HloOp τ sig (Elt F)) :=
  [StableHlo.reshape main_v9 main_v10 rfl shapeCasts_S4096_S1x4096,
   StableHlo.reshape main_arg10 main_v11 rfl shapeCasts_S4096_S1x4096,
   StableHlo.unary main_v7 main_v12 id]

abbrev ops4 : List (HloOp τ sig (Elt F)) :=
  [StableHlo.reshape main_v12 main_v13 rfl shapeCasts_S1x16384_S16384]

abbrev ops5 : List (HloOp τ sig (Elt F)) :=
  [StableHlo.reshape main_v14 main_v15 rfl shapeCasts_S4096_S1x4096,
   StableHlo.reshape main_arg11 main_v16 rfl shapeCasts_S4096_S1x4096,
   StableHlo.unary main_v12 main_v17 id]

abbrev ops6 : List (HloOp τ sig (Elt F)) :=
  [StableHlo.reshape main_v17 main_v18 rfl shapeCasts_S1x16384_S16384]

abbrev ops7 : List (HloOp τ sig (Elt F)) :=
  [StableHlo.reshape main_v19 main_v20 rfl shapeCasts_S4096_S1x4096,
   StableHlo.reshape main_arg12 main_v21 rfl shapeCasts_S2048_S1x2048]

abbrev ops8 : List (HloOp τ sig (Elt F)) :=
  [StableHlo.reshape main_v22 main_v23 rfl shapeCasts_S1x2048_S2048]

theorem main_eq (d : Dev nD) :
    main (F := F) d =
      (StableHlo.seq (ops0 (F := F)) >>= fun _ =>
      (K (F := F)).run d 0 >>= fun _ =>
      StableHlo.seq (ops1 (F := F)) >>= fun _ =>
      Prog.lift (.customCall (SparseCore.inner (Pipeline.entry 0)) ()) >>= fun _ =>
      StableHlo.seq (ops2 (F := F)) >>= fun _ =>
      (K (F := F)).run d 1 >>= fun _ =>
      StableHlo.seq (ops3 (F := F)) >>= fun _ =>
      Prog.lift (.customCall (SparseCore.inner (Pipeline.entry 1)) ()) >>= fun _ =>
      StableHlo.seq (ops4 (F := F)) >>= fun _ =>
      (K (F := F)).run d 2 >>= fun _ =>
      StableHlo.seq (ops5 (F := F)) >>= fun _ =>
      Prog.lift (.customCall (SparseCore.inner (Pipeline.entry 2)) ()) >>= fun _ =>
      StableHlo.seq (ops6 (F := F)) >>= fun _ =>
      (K (F := F)).run d 3 >>= fun _ =>
      StableHlo.seq (ops7 (F := F)) >>= fun _ =>
      Prog.lift (.customCall (SparseCore.inner (Pipeline.entry 3)) ()) >>= fun _ =>
      StableHlo.seq (ops8 (F := F)) >>= fun _ =>
      pure ⟨⟩) := rfl

/-! ## What each stretch touches and writes -/

theorem ops0_sub : (ops0 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops0_fresh : (ops0 (F := F)).Forall fun op => op.fresh = ∅ := by
  simp only [List.Forall]; repeat' constructor
abbrev ops0_W : List (Ref sig .tc) := [main_v0, main_cst, main_v1, main_v2, main_v3]
theorem ops0_writes : (ops0 (F := F)).Forall fun op => op.writes ⊆ (ops0_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.reshape_writes, Finset.singleton_subset_iff, List.mem_toFinset]
     exact List.mem_map_of_mem (by decide))

theorem ops1_sub : (ops1 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops1_fresh : (ops1 (F := F)).Forall fun op => op.fresh = ∅ := by
  simp only [List.Forall]; repeat' constructor
abbrev ops1_W : List (Ref sig .tc) := [main_v5, main_v6, main_v7]
theorem ops1_writes : (ops1 (F := F)).Forall fun op => op.writes ⊆ (ops1_W.map (Proc.devRef (τ := τ) .tc)).toFinset := by
  simp only [List.Forall]
  refine ⟨?_, ?_, ?_⟩ <;>
    (simp only [StableHlo.nullary_writes, StableHlo.unary_writes, StableHlo.binary_writes, StableHlo.reshape_writes, Finset.singleton_subset_iff, List.mem_toFinset]
     exact List.mem_map_of_mem (by decide))

theorem ops2_sub : (ops2 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops2_fresh : (ops2 (F := F)).Forall fun op => op.fresh = ∅ := by
  simp only [List.Forall]; repeat' constructor
abbrev ops2_W : List (Ref sig .tc) := [main_v8]
theorem ops2_writes : (ops2 (F := F)).Forall fun op => op.writes ⊆ (ops2_W.map (Proc.devRef (τ := τ) .tc)).toFinset := by
  simp only [List.Forall]
  simp only [StableHlo.nullary_writes, StableHlo.unary_writes, StableHlo.binary_writes, StableHlo.reshape_writes, Finset.singleton_subset_iff, List.mem_toFinset]
  exact List.mem_map_of_mem (by decide)

theorem ops3_sub : (ops3 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops3_fresh : (ops3 (F := F)).Forall fun op => op.fresh = ∅ := by
  simp only [List.Forall]; repeat' constructor
abbrev ops3_W : List (Ref sig .tc) := [main_v10, main_v11, main_v12]
theorem ops3_writes : (ops3 (F := F)).Forall fun op => op.writes ⊆ (ops3_W.map (Proc.devRef (τ := τ) .tc)).toFinset := by
  simp only [List.Forall]
  refine ⟨?_, ?_, ?_⟩ <;>
    (simp only [StableHlo.nullary_writes, StableHlo.unary_writes, StableHlo.binary_writes, StableHlo.reshape_writes, Finset.singleton_subset_iff, List.mem_toFinset]
     exact List.mem_map_of_mem (by decide))

theorem ops4_sub : (ops4 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops4_fresh : (ops4 (F := F)).Forall fun op => op.fresh = ∅ := by
  simp only [List.Forall]; repeat' constructor
abbrev ops4_W : List (Ref sig .tc) := [main_v13]
theorem ops4_writes : (ops4 (F := F)).Forall fun op => op.writes ⊆ (ops4_W.map (Proc.devRef (τ := τ) .tc)).toFinset := by
  simp only [List.Forall]
  simp only [StableHlo.nullary_writes, StableHlo.unary_writes, StableHlo.binary_writes, StableHlo.reshape_writes, Finset.singleton_subset_iff, List.mem_toFinset]
  exact List.mem_map_of_mem (by decide)

theorem ops5_sub : (ops5 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops5_fresh : (ops5 (F := F)).Forall fun op => op.fresh = ∅ := by
  simp only [List.Forall]; repeat' constructor
abbrev ops5_W : List (Ref sig .tc) := [main_v15, main_v16, main_v17]
theorem ops5_writes : (ops5 (F := F)).Forall fun op => op.writes ⊆ (ops5_W.map (Proc.devRef (τ := τ) .tc)).toFinset := by
  simp only [List.Forall]
  refine ⟨?_, ?_, ?_⟩ <;>
    (simp only [StableHlo.nullary_writes, StableHlo.unary_writes, StableHlo.binary_writes, StableHlo.reshape_writes, Finset.singleton_subset_iff, List.mem_toFinset]
     exact List.mem_map_of_mem (by decide))

theorem ops6_sub : (ops6 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops6_fresh : (ops6 (F := F)).Forall fun op => op.fresh = ∅ := by
  simp only [List.Forall]; repeat' constructor
abbrev ops6_W : List (Ref sig .tc) := [main_v18]
theorem ops6_writes : (ops6 (F := F)).Forall fun op => op.writes ⊆ (ops6_W.map (Proc.devRef (τ := τ) .tc)).toFinset := by
  simp only [List.Forall]
  simp only [StableHlo.nullary_writes, StableHlo.unary_writes, StableHlo.binary_writes, StableHlo.reshape_writes, Finset.singleton_subset_iff, List.mem_toFinset]
  exact List.mem_map_of_mem (by decide)

theorem ops7_sub : (ops7 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops7_fresh : (ops7 (F := F)).Forall fun op => op.fresh = ∅ := by
  simp only [List.Forall]; repeat' constructor
abbrev ops7_W : List (Ref sig .tc) := [main_v20, main_v21]
theorem ops7_writes : (ops7 (F := F)).Forall fun op => op.writes ⊆ (ops7_W.map (Proc.devRef (τ := τ) .tc)).toFinset := by
  simp only [List.Forall]
  refine ⟨?_, ?_⟩ <;>
    (simp only [StableHlo.nullary_writes, StableHlo.unary_writes, StableHlo.binary_writes, StableHlo.reshape_writes, Finset.singleton_subset_iff, List.mem_toFinset]
     exact List.mem_map_of_mem (by decide))

theorem ops8_sub : (ops8 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops8_fresh : (ops8 (F := F)).Forall fun op => op.fresh = ∅ := by
  simp only [List.Forall]; repeat' constructor
abbrev ops8_W : List (Ref sig .tc) := [main_v23]
theorem ops8_writes : (ops8 (F := F)).Forall fun op => op.writes ⊆ (ops8_W.map (Proc.devRef (τ := τ) .tc)).toFinset := by
  simp only [List.Forall]
  simp only [StableHlo.nullary_writes, StableHlo.unary_writes, StableHlo.binary_writes, StableHlo.reshape_writes, Finset.singleton_subset_iff, List.mem_toFinset]
  exact List.mem_map_of_mem (by decide)

/-! ## The TensorCore's arrays as one held set -/

section Main

variable (m : (ℓ : Loc nD τ sig) → Buf (Elt F) ℓ) (ρ : Dev nD → PrngReg) (d : Dev nD)

abbrev dr (r : Ref sig .tc) : DevRef τ sig := Proc.devRef .tc r
/-- The device's arrays at launch. -/
abbrev V₀ : Valuation τ sig (Elt F) := fun b => m (d, b)
/-- @main's thirteen arguments. -/
abbrev argRefs : List (Ref sig .tc) := [main_arg0, main_arg1, main_arg2, main_arg3, main_arg4, main_arg5, main_arg6, main_arg7, main_arg8, main_arg9, main_arg10, main_arg11, main_arg12]

/-- The arguments hold what they held at launch. -/
def Keeps (Vc : Valuation τ sig (Elt F)) : Prop := ∀ r ∈ argRefs, Vc (dr r) = V₀ m d (dr r)

omit [FloatOps F] in
theorem keeps_after (ops : List (HloOp τ sig (Elt F))) (W : List (Ref sig .tc))
    (hW : ops.Forall fun op => op.writes ⊆ (W.map (Proc.devRef (τ := τ) .tc)).toFinset) (hd : ∀ r ∈ argRefs, r ∉ W)
    {Vc : Valuation τ sig (Elt F)} (h : Keeps m d Vc) : Keeps m d (StableHlo.after ops Vc) :=
  fun r hr => (StableHlo.after_of_writes_sub ops Vc hW (hd r hr)).trans (h r hr)

omit [FloatOps F] in
theorem keeps_update {Vc : Valuation τ sig (Elt F)} (h : Keeps m d Vc) (r' : Ref sig .tc) (hr' : ∀ r ∈ argRefs, r ≠ r')
    (f : (dr r').ty.Contents (Elt F)) : Keeps m d (Function.update Vc (dr r') f) :=
  fun r hr => (Function.update_of_ne (StableHlo.devRef_ne_of_ne (hr' r hr)) _ _).trans (h r hr)

omit [FloatOps F] in
theorem mem_uc (r : Ref sig .tc) (h : (dr r).isScoped = false) : dr r ∈ Pipeline.ucRefs τ sig :=
  Finset.mem_filter.mpr ⟨StableHlo.devRef_mem_tcRefs r, by rw [h]; exact Bool.false_ne_true⟩

omit [FloatOps F] in
/-- One array out of a held set. -/
theorem held_take {Sf : Finset (DevRef τ sig)} {b : DevRef τ sig} (hb : b ∈ Sf) (Vc : Valuation τ sig (Elt F)) :
    (StableHlo.held (SparseCore.T d) Sf Vc : sProp 𝕄) = iprop((((d, b) : Loc nD τ sig) ↦{fullShare} Vc b) ∗ StableHlo.held (SparseCore.T d) (Sf.erase b) Vc) := by
  unfold StableHlo.held; exact SparseCore.bigSep_erase' hb

omit [FloatOps F] in
/-- One array back into a held set, at new contents. -/
theorem held_put {Sf : Finset (DevRef τ sig)} {b : DevRef τ sig} (hb : b ∈ Sf) (Vc : Valuation τ sig (Elt F)) (f : b.ty.Contents (Elt F)) :
    iprop((((d, b) : Loc nD τ sig) ↦{fullShare} f) ∗ StableHlo.held (SparseCore.T d) (Sf.erase b) Vc) ⊢ (StableHlo.held (SparseCore.T d) Sf (Function.update Vc b f) : sProp 𝕄) := by
  rw [held_take d hb (Function.update Vc b f), Function.update_self]
  refine sep_mono .rfl (Entails.of_eq ?_)
  unfold StableHlo.held
  exact bigSep_congr fun b' hb' => by rw [Function.update_of_ne (Finset.ne_of_mem_erase hb')]

/-! ## The launch element, what @main starts from, and the final assertion -/

/-- The launch element: the handshakes' rounds, the pipelines' staging cells' rounds, the counters. -/
def u₀ : UU :=
  (initOf (K (F := F)).hsCells (K (F := F)).hsToks, (initOf (Pipeline.cells (cfgs) cellOf_inj) (Pipeline.launchToks (cfgs) cellOf_inj), (1 : Counters)))

/-- What @main's proof starts from beyond what the launch deals it: the four pipelines' cells' ghost state and duty tokens. -/
def G (d : Dev nD) : sProp 𝕄 :=
  iprop((bigSep Finset.univ fun p : Fin 4 => Pipeline.cellsGhost (Pipeline.pin (pcfgs (F := F)) (adm (F := F))) (EP (F := F)) p d)
    ∗ bigSep Finset.univ fun p : Fin 4 => Pipeline.toksInit (Pipeline.pin (pcfgs (F := F)) (adm (F := F))) (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_pair (initOf (K (F := F)).hsCells (K (F := F)).hsToks)
    ((initOf (Pipeline.cells (cfgs) cellOf_inj) (Pipeline.launchToks (cfgs) cellOf_inj), (1 : Counters)) : UPp × Counters)) $$ Hu
  icases H with ⟨HH, HR⟩
  ihave HR := (own_pair_emb (embR : Emb (UPp × Counters) 𝕄)
    (initOf (Pipeline.cells (cfgs) cellOf_inj) (Pipeline.launchToks (cfgs) cellOf_inj)) (1 : Counters)) $$ HR
  icases HR with ⟨HP, -⟩
  imod (Pipeline.fund_ghost (cfgs) (EP (F := F)) cellOf_inj) $$ HP with ⟨Hg, Ht⟩
  imodintro
  isplitl [HH]; · iexact HH
  isplitl [Hg Ht]
  · unfold G; rw [bigSep_sep']
    isplitl [Hg]; · iexact Hg
    iexact Ht
  rw [show (bigSep Finset.univ fun thr : Thread nD τ => bigSep Finset.univ fun q : Fin 4 => (P (F := F) m).x q thr) = bigSep Finset.univ fun _ => iprop(emp) from
    bigSep_congr fun _ _ => bigSep_emp' _, bigSep_emp']
  iempintro

/-- What @main ends with: its arrays held at contents that agree with the launch on the arguments. -/
def FIN (d : Dev nD) : sProp 𝕄 := iprop(∃ Vc : Valuation τ sig (Elt F), ⌜Keeps m d Vc⌝ ∗ StableHlo.held (SparseCore.T d) (Pipeline.ucRefs τ sig) Vc)

def fq (d : Dev nD) (s' : Phys nD τ sig (Elt F)) : Prop := ∀ r ∈ argRefs, s'.mem.mem (d, dr r) = m (d, dr r)

omit [FloatOps F] in
theorem hfin (s' : Phys nD τ sig (Elt F)) : iprop(FIN m d ∗ SI s') ⊢ (⌜fq m d s'⌝ : sProp 𝕄) := by
  unfold FIN StableHlo.held
  iintro ⟨⟨%Vc, %hK, Hh⟩, HSI⟩
  ihave Hr := (pointsTo_read_all (Pipeline.ucRefs τ sig) (fun b => ((d, b) : Loc nD τ sig)) Vc s') $$ [Hh HSI]
  · isplitl [Hh] <;> iassumption
  icases Hr with ⟨%h, -⟩
  ipureintro
  intro r hr
  have hm : dr r ∈ Pipeline.ucRefs τ sig := mem_uc r (by
    simp only [argRefs, List.mem_cons, List.mem_singleton, List.not_mem_nil, or_false] at hr
    rcases hr with rfl | rfl | rfl | rfl | rfl | rfl | rfl | rfl | rfl | rfl | rfl | rfl | rfl <;> decide)
  exact (h (dr r) hm).trans (hK r hr)

omit [FloatOps F] in
theorem keeps_update_at {Vc : Valuation τ sig (Elt F)} (h : Keeps m d Vc) (r' : Ref sig .tc) (f : (dr r').ty.Contents (Elt F))
    (hf : r' ∈ argRefs → f = V₀ m d (dr r')) : Keeps m d (Function.update Vc (dr r') f) := fun r hr => by
  by_cases e : r = r'
  · subst e; rw [Function.update_self]; exact hf hr
  · rw [Function.update_of_ne (StableHlo.devRef_ne_of_ne e)]; exact h r hr

omit [FloatOps F] in
theorem bigSep_fin4 {M : Type} [URA M] (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The steps of @main, each from the arrays held at any contents that keep the arguments -/

set_option backward.isDefEq.respectTransparency.types false in
/-- A stretch of host operations that writes no argument. -/
theorem step_ops {β : Type} (ops : List (HloOp τ sig (Elt F))) (W : List (Ref sig .tc))
    (hsub : ops.Forall fun op => op.bufs ⊆ StableHlo.tcRefs τ sig) (hfresh : ops.Forall fun op => op.fresh = ∅)
    (hW : ops.Forall fun op => op.writes ⊆ (W.map (Proc.devRef (τ := τ) .tc)).toFinset) (hd : ∀ r ∈ argRefs, r ∉ W)
    (k : PUnit → Prog (TpuEff nD τ sig (Elt F) (SparseCore.Sig (ΛP (F := F)) 4) .tc) β) (Φ : β → sProp 𝕄)
    (Vc : Valuation τ sig (Elt F)) (hK : Keeps m d Vc) :
    iprop(boundary (SparseCore.T d) ∗ StableHlo.held (SparseCore.T d) (Pipeline.ucRefs τ sig) Vc
        ∗ (∀ Vc' : Valuation τ sig (Elt F), ⌜Keeps m d Vc'⌝ -∗ iprop(boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  iintro ⟨Hb, Hh, Hk⟩
  iapply (StableHlo.wp_seq (defs := (K (F := F)).defs (D (F := F))) 𝒱 none Set.univ d (Pipeline.ucRefs τ sig) k ops
      (fun op h => Pipeline.sub_ucRefs op ((List.forall_iff_forall_mem.mp hsub) op h)) (List.forall_iff_forall_mem.mp hfresh) Vc) $$ [Hb Hh]
  · isplitl [Hb] <;> iassumption
  iintro H
  ispecialize Hk $$ %(StableHlo.after ops Vc)
  iapply Hk
  · ipureintro; exact keeps_after m d ops W hW hd hK
  · iexact H

omit [FloatOps F] in
theorem callRes0_eq (fi : Buf (Elt F) (Call0.iLoc d)) : Call0.callRes d fi
    = (iprop((Call0.iLoc d ↦{fullShare} fi) ∗ (∃ f, Call0.xLoc d ↦{fullShare} f) ∗ ∃ g, Call0.oLoc d ↦{fullShare} g) : sProp 𝕄) := rfl
theorem st0_eq : (bigSep Finset.univ fun c : Fin ((K (F := F)).nCore 0) => (P m).st 0 d c) = Call0.callRes d (m (Call0.iLoc d)) :=
  bigSep_univ_of_subsingleton (0 : Fin 1)
theorem dn0_eq : (bigSep Finset.univ fun c : Fin ((K (F := F)).nCore 0) => (P m).dn 0 d c) = Call0.callRes d (m (Call0.iLoc d)) :=
  bigSep_univ_of_subsingleton (0 : Fin 1)

set_option maxHeartbeats 2000000 in
/-- Gather call 0: its indices lent at their launch contents, its state and result at whatever they hold; all three come back. -/
theorem step_run0 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 0 ∗ boundary (SparseCore.T d) ∗ StableHlo.held (SparseCore.T d) (Pipeline.ucRefs τ sig) Vc
        ∗ (∀ Vc' : Valuation τ sig (Elt F), ⌜Keeps m d Vc'⌝ -∗ iprop((K (F := F)).tcSt EH d 1 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 0 >>= k) Φ := by
  rw [wp_bind]
  iintro ⟨#Hctx, Hst, Hb, Hh, Hk⟩
  ihave Hx := (Entails.of_eq (held_take (F := F) d (mem_uc main_arg1 (by decide)) Vc)) $$ Hh
  icases Hx with ⟨Hi, Hh⟩
  ihave Hx := (Entails.of_eq (held_take (F := F) d (Finset.mem_erase.mpr ⟨StableHlo.devRef_ne_of_ne (x := main_v3) (y := main_arg1) (by decide), mem_uc main_v3 (by decide)⟩) Vc)) $$ Hh
  icases Hx with ⟨Hs, Hh⟩
  ihave Hx := (Entails.of_eq (held_take (F := F) d (Finset.mem_erase.mpr ⟨StableHlo.devRef_ne_of_ne (x := main_v4) (y := main_v3) (by decide), Finset.mem_erase.mpr ⟨StableHlo.devRef_ne_of_ne (x := main_v4) (y := main_arg1) (by decide), mem_uc main_v4 (by decide)⟩⟩) Vc)) $$ Hh
  icases Hx with ⟨Ho, Hh⟩
  ihave Hi := (Entails.of_eq (show ((((d, dr main_arg1) : Loc nD τ sig) ↦{fullShare} Vc (dr main_arg1)) : sProp 𝕄)
      = (Call0.iLoc d ↦{fullShare} m (Call0.iLoc d)) from by rw [hK main_arg1 (by decide)])) $$ Hi
  iapply ((K (F := F)).wp_run (D (F := F)) 𝒱 (EH := EH) (P := P m) κ d 0) $$ [Hst Hi Hs Ho Hb Hh Hk]
  isplitr; · iexact Hctx
  isplitl [Hst]; · iexact Hst
  isplitl [Hi Hs Ho]
  · iapply (Entails.of_eq ((st0_eq m d).trans (callRes0_eq d _)).symm)
    isplitl [Hi]; · iexact Hi
    isplitl [Hs]; · iexists _; iexact Hs
    iexists _; iexact Ho
  iintro ⟨Hst, Hdn⟩
  ihave Hdn := (Entails.of_eq ((dn0_eq m d).trans (callRes0_eq d _))) $$ Hdn
  icases Hdn with ⟨Hi, ⟨%fs, Hs⟩, ⟨%fo, Ho⟩⟩
  ihave Hh := (held_put (F := F) d (Finset.mem_erase.mpr ⟨StableHlo.devRef_ne_of_ne (x := main_v4) (y := main_v3) (by decide), Finset.mem_erase.mpr ⟨StableHlo.devRef_ne_of_ne (x := main_v4) (y := main_arg1) (by decide), mem_uc main_v4 (by decide)⟩⟩) Vc fo) $$ [Ho Hh]
  · isplitl [Ho] <;> iassumption
  ihave Hh := (held_put (F := F) d (Finset.mem_erase.mpr ⟨StableHlo.devRef_ne_of_ne (x := main_v3) (y := main_arg1) (by decide), mem_uc main_v3 (by decide)⟩) (Function.update Vc (dr main_v4) fo) fs) $$ [Hs Hh]
  · isplitl [Hs] <;> iassumption
  ihave Hh := (held_put (F := F) d (mem_uc main_arg1 (by decide)) (Function.update (Function.update Vc (dr main_v4) fo) (dr main_v3) fs) (V₀ m d (dr main_arg1))) $$ [Hi Hh]
  · isplitl [Hi] <;> iassumption
  ispecialize Hk $$ %(Function.update (Function.update (Function.update Vc (dr main_v4) fo) (dr main_v3) fs) (dr main_arg1) (V₀ m d (dr main_arg1)))
  iapply Hk
  · ipureintro
    exact keeps_update_at m d (keeps_update_at m d (keeps_update_at m d hK main_v4 fo (fun h => absurd h (by decide))) main_v3 fs (fun h => absurd h (by decide))) main_arg1 _ (fun _ => rfl)
  · isplitl [Hst]; · iexact Hst
    isplitl [Hb]; · iexact Hb
    iexact Hh

omit [FloatOps F] in
theorem callRes1_eq (fi : Buf (Elt F) (Call2.iLoc d)) : Call2.callRes d fi
    = (iprop((Call2.iLoc d ↦{fullShare} fi) ∗ (∃ f, Call2.xLoc d ↦{fullShare} f) ∗ ∃ g, Call2.oLoc d ↦{fullShare} g) : sProp 𝕄) := rfl
theorem st1_eq : (bigSep Finset.univ fun c : Fin ((K (F := F)).nCore 1) => (P m).st 1 d c) = Call2.callRes d (m (Call2.iLoc d)) :=
  bigSep_univ_of_subsingleton (0 : Fin 1)
theorem dn1_eq : (bigSep Finset.univ fun c : Fin ((K (F := F)).nCore 1) => (P m).dn 1 d c) = Call2.callRes d (m (Call2.iLoc d)) :=
  bigSep_univ_of_subsingleton (0 : Fin 1)

set_option maxHeartbeats 2000000 in
/-- Gather call 1: its indices lent at their launch contents, its state and result at whatever they hold; all three come back. -/
theorem step_run1 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 1 ∗ boundary (SparseCore.T d) ∗ StableHlo.held (SparseCore.T d) (Pipeline.ucRefs τ sig) Vc
        ∗ (∀ Vc' : Valuation τ sig (Elt F), ⌜Keeps m d Vc'⌝ -∗ iprop((K (F := F)).tcSt EH d 2 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 1 >>= k) Φ := by
  rw [wp_bind]
  iintro ⟨#Hctx, Hst, Hb, Hh, Hk⟩
  ihave Hx := (Entails.of_eq (held_take (F := F) d (mem_uc main_arg2 (by decide)) Vc)) $$ Hh
  icases Hx with ⟨Hi, Hh⟩
  ihave Hx := (Entails.of_eq (held_take (F := F) d (Finset.mem_erase.mpr ⟨StableHlo.devRef_ne_of_ne (x := main_v8) (y := main_arg2) (by decide), mem_uc main_v8 (by decide)⟩) Vc)) $$ Hh
  icases Hx with ⟨Hs, Hh⟩
  ihave Hx := (Entails.of_eq (held_take (F := F) d (Finset.mem_erase.mpr ⟨StableHlo.devRef_ne_of_ne (x := main_v9) (y := main_v8) (by decide), Finset.mem_erase.mpr ⟨StableHlo.devRef_ne_of_ne (x := main_v9) (y := main_arg2) (by decide), mem_uc main_v9 (by decide)⟩⟩) Vc)) $$ Hh
  icases Hx with ⟨Ho, Hh⟩
  ihave Hi := (Entails.of_eq (show ((((d, dr main_arg2) : Loc nD τ sig) ↦{fullShare} Vc (dr main_arg2)) : sProp 𝕄)
      = (Call2.iLoc d ↦{fullShare} m (Call2.iLoc d)) from by rw [hK main_arg2 (by decide)])) $$ Hi
  iapply ((K (F := F)).wp_run (D (F := F)) 𝒱 (EH := EH) (P := P m) κ d 1) $$ [Hst Hi Hs Ho Hb Hh Hk]
  isplitr; · iexact Hctx
  isplitl [Hst]; · iexact Hst
  isplitl [Hi Hs Ho]
  · iapply (Entails.of_eq ((st1_eq m d).trans (callRes1_eq d _)).symm)
    isplitl [Hi]; · iexact Hi
    isplitl [Hs]; · iexists _; iexact Hs
    iexists _; iexact Ho
  iintro ⟨Hst, Hdn⟩
  ihave Hdn := (Entails.of_eq ((dn1_eq m d).trans (callRes1_eq d _))) $$ Hdn
  icases Hdn with ⟨Hi, ⟨%fs, Hs⟩, ⟨%fo, Ho⟩⟩
  ihave Hh := (held_put (F := F) d (Finset.mem_erase.mpr ⟨StableHlo.devRef_ne_of_ne (x := main_v9) (y := main_v8) (by decide), Finset.mem_erase.mpr ⟨StableHlo.devRef_ne_of_ne (x := main_v9) (y := main_arg2) (by decide), mem_uc main_v9 (by decide)⟩⟩) Vc fo) $$ [Ho Hh]
  · isplitl [Ho] <;> iassumption
  ihave Hh := (held_put (F := F) d (Finset.mem_erase.mpr ⟨StableHlo.devRef_ne_of_ne (x := main_v8) (y := main_arg2) (by decide), mem_uc main_v8 (by decide)⟩) (Function.update Vc (dr main_v9) fo) fs) $$ [Hs Hh]
  · isplitl [Hs] <;> iassumption
  ihave Hh := (held_put (F := F) d (mem_uc main_arg2 (by decide)) (Function.update (Function.update Vc (dr main_v9) fo) (dr main_v8) fs) (V₀ m d (dr main_arg2))) $$ [Hi Hh]
  · isplitl [Hi] <;> iassumption
  ispecialize Hk $$ %(Function.update (Function.update (Function.update Vc (dr main_v9) fo) (dr main_v8) fs) (dr main_arg2) (V₀ m d (dr main_arg2)))
  iapply Hk
  · ipureintro
    exact keeps_update_at m d (keeps_update_at m d (keeps_update_at m d hK main_v9 fo (fun h => absurd h (by decide))) main_v8 fs (fun h => absurd h (by decide))) main_arg2 _ (fun _ => rfl)
  · isplitl [Hst]; · iexact Hst
    isplitl [Hb]; · iexact Hb
    iexact Hh

omit [FloatOps F] in
theorem callRes2_eq (fi : Buf (Elt F) (Call4.iLoc d)) : Call4.callRes d fi
    = (iprop((Call4.iLoc d ↦{fullShare} fi) ∗ (∃ f, Call4.xLoc d ↦{fullShare} f) ∗ ∃ g, Call4.oLoc d ↦{fullShare} g) : sProp 𝕄) := rfl
theorem st2_eq : (bigSep Finset.univ fun c : Fin ((K (F := F)).nCore 2) => (P m).st 2 d c) = Call4.callRes d (m (Call4.iLoc d)) :=
  bigSep_univ_of_subsingleton (0 : Fin 1)
theorem dn2_eq : (bigSep Finset.univ fun c : Fin ((K (F := F)).nCore 2) => (P m).dn 2 d c) = Call4.callRes d (m (Call4.iLoc d)) :=
  bigSep_univ_of_subsingleton (0 : Fin 1)

set_option maxHeartbeats 2000000 in
/-- Gather call 2: its indices lent at their launch contents, its state and result at whatever they hold; all three come back. -/
theorem step_run2 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 2 ∗ boundary (SparseCore.T d) ∗ StableHlo.held (SparseCore.T d) (Pipeline.ucRefs τ sig) Vc
        ∗ (∀ Vc' : Valuation τ sig (Elt F), ⌜Keeps m d Vc'⌝ -∗ iprop((K (F := F)).tcSt EH d 3 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 2 >>= k) Φ := by
  rw [wp_bind]
  iintro ⟨#Hctx, Hst, Hb, Hh, Hk⟩
  ihave Hx := (Entails.of_eq (held_take (F := F) d (mem_uc main_arg3 (by decide)) Vc)) $$ Hh
  icases Hx with ⟨Hi, Hh⟩
  ihave Hx := (Entails.of_eq (held_take (F := F) d (Finset.mem_erase.mpr ⟨StableHlo.devRef_ne_of_ne (x := main_v13) (y := main_arg3) (by decide), mem_uc main_v13 (by decide)⟩) Vc)) $$ Hh
  icases Hx with ⟨Hs, Hh⟩
  ihave Hx := (Entails.of_eq (held_take (F := F) d (Finset.mem_erase.mpr ⟨StableHlo.devRef_ne_of_ne (x := main_v14) (y := main_v13) (by decide), Finset.mem_erase.mpr ⟨StableHlo.devRef_ne_of_ne (x := main_v14) (y := main_arg3) (by decide), mem_uc main_v14 (by decide)⟩⟩) Vc)) $$ Hh
  icases Hx with ⟨Ho, Hh⟩
  ihave Hi := (Entails.of_eq (show ((((d, dr main_arg3) : Loc nD τ sig) ↦{fullShare} Vc (dr main_arg3)) : sProp 𝕄)
      = (Call4.iLoc d ↦{fullShare} m (Call4.iLoc d)) from by rw [hK main_arg3 (by decide)])) $$ Hi
  iapply ((K (F := F)).wp_run (D (F := F)) 𝒱 (EH := EH) (P := P m) κ d 2) $$ [Hst Hi Hs Ho Hb Hh Hk]
  isplitr; · iexact Hctx
  isplitl [Hst]; · iexact Hst
  isplitl [Hi Hs Ho]
  · iapply (Entails.of_eq ((st2_eq m d).trans (callRes2_eq d _)).symm)
    isplitl [Hi]; · iexact Hi
    isplitl [Hs]; · iexists _; iexact Hs
    iexists _; iexact Ho
  iintro ⟨Hst, Hdn⟩
  ihave Hdn := (Entails.of_eq ((dn2_eq m d).trans (callRes2_eq d _))) $$ Hdn
  icases Hdn with ⟨Hi, ⟨%fs, Hs⟩, ⟨%fo, Ho⟩⟩
  ihave Hh := (held_put (F := F) d (Finset.mem_erase.mpr ⟨StableHlo.devRef_ne_of_ne (x := main_v14) (y := main_v13) (by decide), Finset.mem_erase.mpr ⟨StableHlo.devRef_ne_of_ne (x := main_v14) (y := main_arg3) (by decide), mem_uc main_v14 (by decide)⟩⟩) Vc fo) $$ [Ho Hh]
  · isplitl [Ho] <;> iassumption
  ihave Hh := (held_put (F := F) d (Finset.mem_erase.mpr ⟨StableHlo.devRef_ne_of_ne (x := main_v13) (y := main_arg3) (by decide), mem_uc main_v13 (by decide)⟩) (Function.update Vc (dr main_v14) fo) fs) $$ [Hs Hh]
  · isplitl [Hs] <;> iassumption
  ihave Hh := (held_put (F := F) d (mem_uc main_arg3 (by decide)) (Function.update (Function.update Vc (dr main_v14) fo) (dr main_v13) fs) (V₀ m d (dr main_arg3))) $$ [Hi Hh]
  · isplitl [Hi] <;> iassumption
  ispecialize Hk $$ %(Function.update (Function.update (Function.update Vc (dr main_v14) fo) (dr main_v13) fs) (dr main_arg3) (V₀ m d (dr main_arg3)))
  iapply Hk
  · ipureintro
    exact keeps_update_at m d (keeps_update_at m d (keeps_update_at m d hK main_v14 fo (fun h => absurd h (by decide))) main_v13 fs (fun h => absurd h (by decide))) main_arg3 _ (fun _ => rfl)
  · isplitl [Hst]; · iexact Hst
    isplitl [Hb]; · iexact Hb
    iexact Hh

omit [FloatOps F] in
theorem callRes3_eq (fi : Buf (Elt F) (Call6.iLoc d)) : Call6.callRes d fi
    = (iprop((Call6.iLoc d ↦{fullShare} fi) ∗ (∃ f, Call6.xLoc d ↦{fullShare} f) ∗ ∃ g, Call6.oLoc d ↦{fullShare} g) : sProp 𝕄) := rfl
theorem st3_eq : (bigSep Finset.univ fun c : Fin ((K (F := F)).nCore 3) => (P m).st 3 d c) = Call6.callRes d (m (Call6.iLoc d)) :=
  bigSep_univ_of_subsingleton (0 : Fin 1)
theorem dn3_eq : (bigSep Finset.univ fun c : Fin ((K (F := F)).nCore 3) => (P m).dn 3 d c) = Call6.callRes d (m (Call6.iLoc d)) :=
  bigSep_univ_of_subsingleton (0 : Fin 1)

set_option maxHeartbeats 2000000 in
/-- Gather call 3: its indices lent at their launch contents, its state and result at whatever they hold; all three come back. -/
theorem step_run3 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 3 ∗ boundary (SparseCore.T d) ∗ StableHlo.held (SparseCore.T d) (Pipeline.ucRefs τ sig) Vc
        ∗ (∀ Vc' : Valuation τ sig (Elt F), ⌜Keeps m d Vc'⌝ -∗ iprop((K (F := F)).tcSt EH d 4 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 3 >>= k) Φ := by
  rw [wp_bind]
  iintro ⟨#Hctx, Hst, Hb, Hh, Hk⟩
  ihave Hx := (Entails.of_eq (held_take (F := F) d (mem_uc main_arg4 (by decide)) Vc)) $$ Hh
  icases Hx with ⟨Hi, Hh⟩
  ihave Hx := (Entails.of_eq (held_take (F := F) d (Finset.mem_erase.mpr ⟨StableHlo.devRef_ne_of_ne (x := main_v18) (y := main_arg4) (by decide), mem_uc main_v18 (by decide)⟩) Vc)) $$ Hh
  icases Hx with ⟨Hs, Hh⟩
  ihave Hx := (Entails.of_eq (held_take (F := F) d (Finset.mem_erase.mpr ⟨StableHlo.devRef_ne_of_ne (x := main_v19) (y := main_v18) (by decide), Finset.mem_erase.mpr ⟨StableHlo.devRef_ne_of_ne (x := main_v19) (y := main_arg4) (by decide), mem_uc main_v19 (by decide)⟩⟩) Vc)) $$ Hh
  icases Hx with ⟨Ho, Hh⟩
  ihave Hi := (Entails.of_eq (show ((((d, dr main_arg4) : Loc nD τ sig) ↦{fullShare} Vc (dr main_arg4)) : sProp 𝕄)
      = (Call6.iLoc d ↦{fullShare} m (Call6.iLoc d)) from by rw [hK main_arg4 (by decide)])) $$ Hi
  iapply ((K (F := F)).wp_run (D (F := F)) 𝒱 (EH := EH) (P := P m) κ d 3) $$ [Hst Hi Hs Ho Hb Hh Hk]
  isplitr; · iexact Hctx
  isplitl [Hst]; · iexact Hst
  isplitl [Hi Hs Ho]
  · iapply (Entails.of_eq ((st3_eq m d).trans (callRes3_eq d _)).symm)
    isplitl [Hi]; · iexact Hi
    isplitl [Hs]; · iexists _; iexact Hs
    iexists _; iexact Ho
  iintro ⟨Hst, Hdn⟩
  ihave Hdn := (Entails.of_eq ((dn3_eq m d).trans (callRes3_eq d _))) $$ Hdn
  icases Hdn with ⟨Hi, ⟨%fs, Hs⟩, ⟨%fo, Ho⟩⟩
  ihave Hh := (held_put (F := F) d (Finset.mem_erase.mpr ⟨StableHlo.devRef_ne_of_ne (x := main_v19) (y := main_v18) (by decide), Finset.mem_erase.mpr ⟨StableHlo.devRef_ne_of_ne (x := main_v19) (y := main_arg4) (by decide), mem_uc main_v19 (by decide)⟩⟩) Vc fo) $$ [Ho Hh]
  · isplitl [Ho] <;> iassumption
  ihave Hh := (held_put (F := F) d (Finset.mem_erase.mpr ⟨StableHlo.devRef_ne_of_ne (x := main_v18) (y := main_arg4) (by decide), mem_uc main_v18 (by decide)⟩) (Function.update Vc (dr main_v19) fo) fs) $$ [Hs Hh]
  · isplitl [Hs] <;> iassumption
  ihave Hh := (held_put (F := F) d (mem_uc main_arg4 (by decide)) (Function.update (Function.update Vc (dr main_v19) fo) (dr main_v18) fs) (V₀ m d (dr main_arg4))) $$ [Hi Hh]
  · isplitl [Hi] <;> iassumption
  ispecialize Hk $$ %(Function.update (Function.update (Function.update Vc (dr main_v19) fo) (dr main_v18) fs) (dr main_arg4) (V₀ m d (dr main_arg4)))
  iapply Hk
  · ipureintro
    exact keeps_update_at m d (keeps_update_at m d (keeps_update_at m d hK main_v19 fo (fun h => absurd h (by decide))) main_v18 fs (fun h => absurd h (by decide))) main_arg4 _ (fun _ => rfl)
  · isplitl [Hst]; · iexact Hst
    isplitl [Hb]; · iexact Hb
    iexact Hh

omit [FloatOps F] in
theorem regPre_eq (n : ℕ) (g w b o : Ref sig .tc) (Vc : (r : Ref sig .tc) → Buf (Elt F) ((SparseCore.T d : Thread nD τ).loc r)) :
    regPre d n g w b o Vc = (iprop((∃ W, ⌜(K (F := F)).WBelow (SparseCore.T d) W (8 * n)⌝ ∗ owes (SparseCore.T d) ((K (F := F)).Otc d n) W)
      ∗ ((SparseCore.T d).loc g ↦{fullShare} Vc g) ∗ ((SparseCore.T d).loc w ↦{fullShare} Vc w) ∗ ((SparseCore.T d).loc b ↦{fullShare} Vc b)
      ∗ ((SparseCore.T d).loc o ↦{fullShare} Vc o)) : sProp 𝕄) := rfl
omit [FloatOps F] in
theorem regPost_eq (n : ℕ) (g w b o : Ref sig .tc) (Vc : (r : Ref sig .tc) → Buf (Elt F) ((SparseCore.T d : Thread nD τ).loc r)) :
    regPost d n g w b o Vc = (iprop((∃ W, ⌜(K (F := F)).WBelow (SparseCore.T d) W (8 * n)⌝ ∗ owes (SparseCore.T d) ((K (F := F)).Otc d n) W)
      ∗ ((SparseCore.T d).loc g ↦{fullShare} Vc g) ∗ ((SparseCore.T d).loc w ↦{fullShare} Vc w) ∗ ((SparseCore.T d).loc b ↦{fullShare} Vc b)
      ∗ ∃ f, (SparseCore.T d).loc o ↦{fullShare} f) : sProp 𝕄) := rfl

set_option maxHeartbeats 2000000 in
/-- Region 0, between gather calls: its four arrays lent, the first three back as they were, the output at whatever it holds. -/
theorem step_region0 (hr : RegionStep (F := F) 0 main_v5 main_arg5 main_v6 main_v7) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 1 ∗ boundary (SparseCore.T d) ∗ StableHlo.held (SparseCore.T d) (Pipeline.ucRefs τ sig) Vc
        ∗ Pipeline.cellsGhost (Pipeline.pin (pcfgs (F := F)) (adm (F := F))) (EP (F := F)) 0 d ∗ Pipeline.toksInit (Pipeline.pin (pcfgs (F := F)) (adm (F := F))) (EP (F := F)) 0 d
        ∗ (∀ Vc' : Valuation τ sig (Elt F), ⌜Keeps m d Vc'⌝ -∗ iprop((K (F := F)).tcSt EH d 1 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 0)) ()) >>= k) Φ := by
  rw [wp_bind]
  iintro ⟨#Hctx, Hst, Hb, Hh, Hgp, Htp, Hk⟩
  ihave Hst := (Entails.of_eq (LibScRegion.tcSt_open (K (F := F)) EH d 1)) $$ Hst
  icases Hst with ⟨Hdebt, Hrest⟩
  ihave Hx := (Entails.of_eq (held_take (F := F) d (mem_uc main_v5 (by decide)) Vc)) $$ Hh
  icases Hx with ⟨Hg, Hh⟩
  ihave Hx := (Entails.of_eq (held_take (F := F) d (Finset.mem_erase.mpr ⟨StableHlo.devRef_ne_of_ne (x := main_arg5) (y := main_v5) (by decide), mem_uc main_arg5 (by decide)⟩) Vc)) $$ Hh
  icases Hx with ⟨Hw, Hh⟩
  ihave Hx := (Entails.of_eq (held_take (F := F) d (Finset.mem_erase.mpr ⟨StableHlo.devRef_ne_of_ne (x := main_v6) (y := main_arg5) (by decide), Finset.mem_erase.mpr ⟨StableHlo.devRef_ne_of_ne (x := main_v6) (y := main_v5) (by decide), mem_uc main_v6 (by decide)⟩⟩) Vc)) $$ Hh
  icases Hx with ⟨Hbi, Hh⟩
  ihave Hx := (Entails.of_eq (held_take (F := F) d (Finset.mem_erase.mpr ⟨StableHlo.devRef_ne_of_ne (x := main_v7) (y := main_v6) (by decide), Finset.mem_erase.mpr ⟨StableHlo.devRef_ne_of_ne (x := main_v7) (y := main_arg5) (by decide), Finset.mem_erase.mpr ⟨StableHlo.devRef_ne_of_ne (x := main_v7) (y := main_v5) (by decide), mem_uc main_v7 (by decide)⟩⟩⟩) Vc)) $$ Hh
  icases Hx with ⟨Ho, Hh⟩
  ihave Hlev := ((K (F := F)).ctx_levAts (EH := EH) (P := P m) κ) $$ Hctx
  iapply (hr d 1 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPost_eq (F := F) d _ _ _ _ _ _)) $$ Hpost
  icases Hpost with ⟨Hdebt, Hg, Hw, Hbi, ⟨%fo, Ho⟩⟩
  ihave Hst := (Entails.of_eq (LibScRegion.tcSt_open (K (F := F)) EH d 1).symm) $$ [Hdebt Hrest]
  · isplitl [Hdebt] <;> iassumption
  ihave Hh := (held_put (F := F) d (Finset.mem_erase.mpr ⟨StableHlo.devRef_ne_of_ne (x := main_v7) (y := main_v6) (by decide), Finset.mem_erase.mpr ⟨StableHlo.devRef_ne_of_ne (x := main_v7) (y := main_arg5) (by decide), Finset.mem_erase.mpr ⟨StableHlo.devRef_ne_of_ne (x := main_v7) (y := main_v5) (by decide), mem_uc main_v7 (by decide)⟩⟩⟩) Vc fo) $$ [Ho Hh]
  · isplitl [Ho] <;> iassumption
  ihave Hh := (held_put (F := F) d (Finset.mem_erase.mpr ⟨StableHlo.devRef_ne_of_ne (x := main_v6) (y := main_arg5) (by decide), Finset.mem_erase.mpr ⟨StableHlo.devRef_ne_of_ne (x := main_v6) (y := main_v5) (by decide), mem_uc main_v6 (by decide)⟩⟩) (Function.update Vc (dr main_v7) fo) (Vc (dr main_v6))) $$ [Hbi Hh]
  · isplitl [Hbi] <;> iassumption
  ihave Hh := (held_put (F := F) d (Finset.mem_erase.mpr ⟨StableHlo.devRef_ne_of_ne (x := main_arg5) (y := main_v5) (by decide), mem_uc main_arg5 (by decide)⟩) (Function.update (Function.update Vc (dr main_v7) fo) (dr main_v6) (Vc (dr main_v6))) (Vc (dr main_arg5))) $$ [Hw Hh]
  · isplitl [Hw] <;> iassumption
  ihave Hh := (held_put (F := F) d (mem_uc main_v5 (by decide)) (Function.update (Function.update (Function.update Vc (dr main_v7) fo) (dr main_v6) (Vc (dr main_v6))) (dr main_arg5) (Vc (dr main_arg5))) (Vc (dr main_v5))) $$ [Hg Hh]
  · isplitl [Hg] <;> iassumption
  ispecialize Hk $$ %(Function.update (Function.update (Function.update (Function.update Vc (dr main_v7) fo) (dr main_v6) (Vc (dr main_v6))) (dr main_arg5) (Vc (dr main_arg5))) (dr main_v5) (Vc (dr main_v5)))
  iapply Hk
  · ipureintro
    exact keeps_update_at m d (keeps_update_at m d (keeps_update_at m d (keeps_update_at m d hK main_v7 fo (fun h => absurd h (by decide))) main_v6 _ (fun h => absurd h (by decide))) main_arg5 _ (fun _ => hK main_arg5 (by decide))) main_v5 _ (fun h => absurd h (by decide))
  · isplitl [Hst]; · iexact Hst
    isplitl [Hb]; · iexact Hb
    iexact Hh

set_option maxHeartbeats 2000000 in
/-- Region 1, between gather calls: its four arrays lent, the first three back as they were, the output at whatever it holds. -/
theorem step_region1 (hr : RegionStep (F := F) 1 main_v10 main_arg6 main_v11 main_v12) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 2 ∗ boundary (SparseCore.T d) ∗ StableHlo.held (SparseCore.T d) (Pipeline.ucRefs τ sig) Vc
        ∗ Pipeline.cellsGhost (Pipeline.pin (pcfgs (F := F)) (adm (F := F))) (EP (F := F)) 1 d ∗ Pipeline.toksInit (Pipeline.pin (pcfgs (F := F)) (adm (F := F))) (EP (F := F)) 1 d
        ∗ (∀ Vc' : Valuation τ sig (Elt F), ⌜Keeps m d Vc'⌝ -∗ iprop((K (F := F)).tcSt EH d 2 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 1)) ()) >>= k) Φ := by
  rw [wp_bind]
  iintro ⟨#Hctx, Hst, Hb, Hh, Hgp, Htp, Hk⟩
  ihave Hst := (Entails.of_eq (LibScRegion.tcSt_open (K (F := F)) EH d 2)) $$ Hst
  icases Hst with ⟨Hdebt, Hrest⟩
  ihave Hx := (Entails.of_eq (held_take (F := F) d (mem_uc main_v10 (by decide)) Vc)) $$ Hh
  icases Hx with ⟨Hg, Hh⟩
  ihave Hx := (Entails.of_eq (held_take (F := F) d (Finset.mem_erase.mpr ⟨StableHlo.devRef_ne_of_ne (x := main_arg6) (y := main_v10) (by decide), mem_uc main_arg6 (by decide)⟩) Vc)) $$ Hh
  icases Hx with ⟨Hw, Hh⟩
  ihave Hx := (Entails.of_eq (held_take (F := F) d (Finset.mem_erase.mpr ⟨StableHlo.devRef_ne_of_ne (x := main_v11) (y := main_arg6) (by decide), Finset.mem_erase.mpr ⟨StableHlo.devRef_ne_of_ne (x := main_v11) (y := main_v10) (by decide), mem_uc main_v11 (by decide)⟩⟩) Vc)) $$ Hh
  icases Hx with ⟨Hbi, Hh⟩
  ihave Hx := (Entails.of_eq (held_take (F := F) d (Finset.mem_erase.mpr ⟨StableHlo.devRef_ne_of_ne (x := main_v12) (y := main_v11) (by decide), Finset.mem_erase.mpr ⟨StableHlo.devRef_ne_of_ne (x := main_v12) (y := main_arg6) (by decide), Finset.mem_erase.mpr ⟨StableHlo.devRef_ne_of_ne (x := main_v12) (y := main_v10) (by decide), mem_uc main_v12 (by decide)⟩⟩⟩) Vc)) $$ Hh
  icases Hx with ⟨Ho, Hh⟩
  ihave Hlev := ((K (F := F)).ctx_levAts (EH := EH) (P := P m) κ) $$ Hctx
  iapply (hr d 2 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPost_eq (F := F) d _ _ _ _ _ _)) $$ Hpost
  icases Hpost with ⟨Hdebt, Hg, Hw, Hbi, ⟨%fo, Ho⟩⟩
  ihave Hst := (Entails.of_eq (LibScRegion.tcSt_open (K (F := F)) EH d 2).symm) $$ [Hdebt Hrest]
  · isplitl [Hdebt] <;> iassumption
  ihave Hh := (held_put (F := F) d (Finset.mem_erase.mpr ⟨StableHlo.devRef_ne_of_ne (x := main_v12) (y := main_v11) (by decide), Finset.mem_erase.mpr ⟨StableHlo.devRef_ne_of_ne (x := main_v12) (y := main_arg6) (by decide), Finset.mem_erase.mpr ⟨StableHlo.devRef_ne_of_ne (x := main_v12) (y := main_v10) (by decide), mem_uc main_v12 (by decide)⟩⟩⟩) Vc fo) $$ [Ho Hh]
  · isplitl [Ho] <;> iassumption
  ihave Hh := (held_put (F := F) d (Finset.mem_erase.mpr ⟨StableHlo.devRef_ne_of_ne (x := main_v11) (y := main_arg6) (by decide), Finset.mem_erase.mpr ⟨StableHlo.devRef_ne_of_ne (x := main_v11) (y := main_v10) (by decide), mem_uc main_v11 (by decide)⟩⟩) (Function.update Vc (dr main_v12) fo) (Vc (dr main_v11))) $$ [Hbi Hh]
  · isplitl [Hbi] <;> iassumption
  ihave Hh := (held_put (F := F) d (Finset.mem_erase.mpr ⟨StableHlo.devRef_ne_of_ne (x := main_arg6) (y := main_v10) (by decide), mem_uc main_arg6 (by decide)⟩) (Function.update (Function.update Vc (dr main_v12) fo) (dr main_v11) (Vc (dr main_v11))) (Vc (dr main_arg6))) $$ [Hw Hh]
  · isplitl [Hw] <;> iassumption
  ihave Hh := (held_put (F := F) d (mem_uc main_v10 (by decide)) (Function.update (Function.update (Function.update Vc (dr main_v12) fo) (dr main_v11) (Vc (dr main_v11))) (dr main_arg6) (Vc (dr main_arg6))) (Vc (dr main_v10))) $$ [Hg Hh]
  · isplitl [Hg] <;> iassumption
  ispecialize Hk $$ %(Function.update (Function.update (Function.update (Function.update Vc (dr main_v12) fo) (dr main_v11) (Vc (dr main_v11))) (dr main_arg6) (Vc (dr main_arg6))) (dr main_v10) (Vc (dr main_v10)))
  iapply Hk
  · ipureintro
    exact keeps_update_at m d (keeps_update_at m d (keeps_update_at m d (keeps_update_at m d hK main_v12 fo (fun h => absurd h (by decide))) main_v11 _ (fun h => absurd h (by decide))) main_arg6 _ (fun _ => hK main_arg6 (by decide))) main_v10 _ (fun h => absurd h (by decide))
  · isplitl [Hst]; · iexact Hst
    isplitl [Hb]; · iexact Hb
    iexact Hh

set_option maxHeartbeats 2000000 in
/-- Region 2, between gather calls: its four arrays lent, the first three back as they were, the output at whatever it holds. -/
theorem step_region2 (hr : RegionStep (F := F) 2 main_v15 main_arg7 main_v16 main_v17) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 3 ∗ boundary (SparseCore.T d) ∗ StableHlo.held (SparseCore.T d) (Pipeline.ucRefs τ sig) Vc
        ∗ Pipeline.cellsGhost (Pipeline.pin (pcfgs (F := F)) (adm (F := F))) (EP (F := F)) 2 d ∗ Pipeline.toksInit (Pipeline.pin (pcfgs (F := F)) (adm (F := F))) (EP (F := F)) 2 d
        ∗ (∀ Vc' : Valuation τ sig (Elt F), ⌜Keeps m d Vc'⌝ -∗ iprop((K (F := F)).tcSt EH d 3 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 2)) ()) >>= k) Φ := by
  rw [wp_bind]
  iintro ⟨#Hctx, Hst, Hb, Hh, Hgp, Htp, Hk⟩
  ihave Hst := (Entails.of_eq (LibScRegion.tcSt_open (K (F := F)) EH d 3)) $$ Hst
  icases Hst with ⟨Hdebt, Hrest⟩
  ihave Hx := (Entails.of_eq (held_take (F := F) d (mem_uc main_v15 (by decide)) Vc)) $$ Hh
  icases Hx with ⟨Hg, Hh⟩
  ihave Hx := (Entails.of_eq (held_take (F := F) d (Finset.mem_erase.mpr ⟨StableHlo.devRef_ne_of_ne (x := main_arg7) (y := main_v15) (by decide), mem_uc main_arg7 (by decide)⟩) Vc)) $$ Hh
  icases Hx with ⟨Hw, Hh⟩
  ihave Hx := (Entails.of_eq (held_take (F := F) d (Finset.mem_erase.mpr ⟨StableHlo.devRef_ne_of_ne (x := main_v16) (y := main_arg7) (by decide), Finset.mem_erase.mpr ⟨StableHlo.devRef_ne_of_ne (x := main_v16) (y := main_v15) (by decide), mem_uc main_v16 (by decide)⟩⟩) Vc)) $$ Hh
  icases Hx with ⟨Hbi, Hh⟩
  ihave Hx := (Entails.of_eq (held_take (F := F) d (Finset.mem_erase.mpr ⟨StableHlo.devRef_ne_of_ne (x := main_v17) (y := main_v16) (by decide), Finset.mem_erase.mpr ⟨StableHlo.devRef_ne_of_ne (x := main_v17) (y := main_arg7) (by decide), Finset.mem_erase.mpr ⟨StableHlo.devRef_ne_of_ne (x := main_v17) (y := main_v15) (by decide), mem_uc main_v17 (by decide)⟩⟩⟩) Vc)) $$ Hh
  icases Hx with ⟨Ho, Hh⟩
  ihave Hlev := ((K (F := F)).ctx_levAts (EH := EH) (P := P m) κ) $$ Hctx
  iapply (hr d 3 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPost_eq (F := F) d _ _ _ _ _ _)) $$ Hpost
  icases Hpost with ⟨Hdebt, Hg, Hw, Hbi, ⟨%fo, Ho⟩⟩
  ihave Hst := (Entails.of_eq (LibScRegion.tcSt_open (K (F := F)) EH d 3).symm) $$ [Hdebt Hrest]
  · isplitl [Hdebt] <;> iassumption
  ihave Hh := (held_put (F := F) d (Finset.mem_erase.mpr ⟨StableHlo.devRef_ne_of_ne (x := main_v17) (y := main_v16) (by decide), Finset.mem_erase.mpr ⟨StableHlo.devRef_ne_of_ne (x := main_v17) (y := main_arg7) (by decide), Finset.mem_erase.mpr ⟨StableHlo.devRef_ne_of_ne (x := main_v17) (y := main_v15) (by decide), mem_uc main_v17 (by decide)⟩⟩⟩) Vc fo) $$ [Ho Hh]
  · isplitl [Ho] <;> iassumption
  ihave Hh := (held_put (F := F) d (Finset.mem_erase.mpr ⟨StableHlo.devRef_ne_of_ne (x := main_v16) (y := main_arg7) (by decide), Finset.mem_erase.mpr ⟨StableHlo.devRef_ne_of_ne (x := main_v16) (y := main_v15) (by decide), mem_uc main_v16 (by decide)⟩⟩) (Function.update Vc (dr main_v17) fo) (Vc (dr main_v16))) $$ [Hbi Hh]
  · isplitl [Hbi] <;> iassumption
  ihave Hh := (held_put (F := F) d (Finset.mem_erase.mpr ⟨StableHlo.devRef_ne_of_ne (x := main_arg7) (y := main_v15) (by decide), mem_uc main_arg7 (by decide)⟩) (Function.update (Function.update Vc (dr main_v17) fo) (dr main_v16) (Vc (dr main_v16))) (Vc (dr main_arg7))) $$ [Hw Hh]
  · isplitl [Hw] <;> iassumption
  ihave Hh := (held_put (F := F) d (mem_uc main_v15 (by decide)) (Function.update (Function.update (Function.update Vc (dr main_v17) fo) (dr main_v16) (Vc (dr main_v16))) (dr main_arg7) (Vc (dr main_arg7))) (Vc (dr main_v15))) $$ [Hg Hh]
  · isplitl [Hg] <;> iassumption
  ispecialize Hk $$ %(Function.update (Function.update (Function.update (Function.update Vc (dr main_v17) fo) (dr main_v16) (Vc (dr main_v16))) (dr main_arg7) (Vc (dr main_arg7))) (dr main_v15) (Vc (dr main_v15)))
  iapply Hk
  · ipureintro
    exact keeps_update_at m d (keeps_update_at m d (keeps_update_at m d (keeps_update_at m d hK main_v17 fo (fun h => absurd h (by decide))) main_v16 _ (fun h => absurd h (by decide))) main_arg7 _ (fun _ => hK main_arg7 (by decide))) main_v15 _ (fun h => absurd h (by decide))
  · isplitl [Hst]; · iexact Hst
    isplitl [Hb]; · iexact Hb
    iexact Hh

set_option maxHeartbeats 2000000 in
/-- Region 3, between gather calls: its four arrays lent, the first three back as they were, the output at whatever it holds. -/
theorem step_region3 (hr : RegionStep (F := F) 3 main_v20 main_arg8 main_v21 main_v22) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 4 ∗ boundary (SparseCore.T d) ∗ StableHlo.held (SparseCore.T d) (Pipeline.ucRefs τ sig) Vc
        ∗ Pipeline.cellsGhost (Pipeline.pin (pcfgs (F := F)) (adm (F := F))) (EP (F := F)) 3 d ∗ Pipeline.toksInit (Pipeline.pin (pcfgs (F := F)) (adm (F := F))) (EP (F := F)) 3 d
        ∗ (∀ Vc' : Valuation τ sig (Elt F), ⌜Keeps m d Vc'⌝ -∗ iprop((K (F := F)).tcSt EH d 4 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 3)) ()) >>= k) Φ := by
  rw [wp_bind]
  iintro ⟨#Hctx, Hst, Hb, Hh, Hgp, Htp, Hk⟩
  ihave Hst := (Entails.of_eq (LibScRegion.tcSt_open (K (F := F)) EH d 4)) $$ Hst
  icases Hst with ⟨Hdebt, Hrest⟩
  ihave Hx := (Entails.of_eq (held_take (F := F) d (mem_uc main_v20 (by decide)) Vc)) $$ Hh
  icases Hx with ⟨Hg, Hh⟩
  ihave Hx := (Entails.of_eq (held_take (F := F) d (Finset.mem_erase.mpr ⟨StableHlo.devRef_ne_of_ne (x := main_arg8) (y := main_v20) (by decide), mem_uc main_arg8 (by decide)⟩) Vc)) $$ Hh
  icases Hx with ⟨Hw, Hh⟩
  ihave Hx := (Entails.of_eq (held_take (F := F) d (Finset.mem_erase.mpr ⟨StableHlo.devRef_ne_of_ne (x := main_v21) (y := main_arg8) (by decide), Finset.mem_erase.mpr ⟨StableHlo.devRef_ne_of_ne (x := main_v21) (y := main_v20) (by decide), mem_uc main_v21 (by decide)⟩⟩) Vc)) $$ Hh
  icases Hx with ⟨Hbi, Hh⟩
  ihave Hx := (Entails.of_eq (held_take (F := F) d (Finset.mem_erase.mpr ⟨StableHlo.devRef_ne_of_ne (x := main_v22) (y := main_v21) (by decide), Finset.mem_erase.mpr ⟨StableHlo.devRef_ne_of_ne (x := main_v22) (y := main_arg8) (by decide), Finset.mem_erase.mpr ⟨StableHlo.devRef_ne_of_ne (x := main_v22) (y := main_v20) (by decide), mem_uc main_v22 (by decide)⟩⟩⟩) Vc)) $$ Hh
  icases Hx with ⟨Ho, Hh⟩
  ihave Hlev := ((K (F := F)).ctx_levAts (EH := EH) (P := P m) κ) $$ Hctx
  iapply (hr d 4 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPost_eq (F := F) d _ _ _ _ _ _)) $$ Hpost
  icases Hpost with ⟨Hdebt, Hg, Hw, Hbi, ⟨%fo, Ho⟩⟩
  ihave Hst := (Entails.of_eq (LibScRegion.tcSt_open (K (F := F)) EH d 4).symm) $$ [Hdebt Hrest]
  · isplitl [Hdebt] <;> iassumption
  ihave Hh := (held_put (F := F) d (Finset.mem_erase.mpr ⟨StableHlo.devRef_ne_of_ne (x := main_v22) (y := main_v21) (by decide), Finset.mem_erase.mpr ⟨StableHlo.devRef_ne_of_ne (x := main_v22) (y := main_arg8) (by decide), Finset.mem_erase.mpr ⟨StableHlo.devRef_ne_of_ne (x := main_v22) (y := main_v20) (by decide), mem_uc main_v22 (by decide)⟩⟩⟩) Vc fo) $$ [Ho Hh]
  · isplitl [Ho] <;> iassumption
  ihave Hh := (held_put (F := F) d (Finset.mem_erase.mpr ⟨StableHlo.devRef_ne_of_ne (x := main_v21) (y := main_arg8) (by decide), Finset.mem_erase.mpr ⟨StableHlo.devRef_ne_of_ne (x := main_v21) (y := main_v20) (by decide), mem_uc main_v21 (by decide)⟩⟩) (Function.update Vc (dr main_v22) fo) (Vc (dr main_v21))) $$ [Hbi Hh]
  · isplitl [Hbi] <;> iassumption
  ihave Hh := (held_put (F := F) d (Finset.mem_erase.mpr ⟨StableHlo.devRef_ne_of_ne (x := main_arg8) (y := main_v20) (by decide), mem_uc main_arg8 (by decide)⟩) (Function.update (Function.update Vc (dr main_v22) fo) (dr main_v21) (Vc (dr main_v21))) (Vc (dr main_arg8))) $$ [Hw Hh]
  · isplitl [Hw] <;> iassumption
  ihave Hh := (held_put (F := F) d (mem_uc main_v20 (by decide)) (Function.update (Function.update (Function.update Vc (dr main_v22) fo) (dr main_v21) (Vc (dr main_v21))) (dr main_arg8) (Vc (dr main_arg8))) (Vc (dr main_v20))) $$ [Hg Hh]
  · isplitl [Hg] <;> iassumption
  ispecialize Hk $$ %(Function.update (Function.update (Function.update (Function.update Vc (dr main_v22) fo) (dr main_v21) (Vc (dr main_v21))) (dr main_arg8) (Vc (dr main_arg8))) (dr main_v20) (Vc (dr main_v20)))
  iapply Hk
  · ipureintro
    exact keeps_update_at m d (keeps_update_at m d (keeps_update_at m d (keeps_update_at m d hK main_v22 fo (fun h => absurd h (by decide))) main_v21 _ (fun h => absurd h (by decide))) main_arg8 _ (fun _ => hK main_arg8 (by decide))) main_v20 _ (fun h => absurd h (by decide))
  · isplitl [Hst]; · iexact Hst
    isplitl [Hb]; · iexact Hb
    iexact Hh

end Main

end Cert.Proof.KI

end
-- ==== Proof.ScRun.lean ====
/-
  @main of the gather program on the TensorCore, from the launch to the return, and the program's run: every weakly fair
  execution of the TensorCore's @main beside the SparseCores' sequencers and vector subcores terminates, nothing faulting, and
  the thirteen arguments end as they were launched.
-/
import proofs.«208418_g89945205112833_cont_sun_c4_809_35_alg».proof.Proof.ScMain

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Main

variable (m : (ℓ : Loc nD τ sig) → Buf (Elt F) ℓ) (ρ : Dev nD → PrngReg) (d : Dev nD)

variable (hr0 : RegionStep (F := F) 0 main_v5 main_arg5 main_v6 main_v7) (hr1 : RegionStep (F := F) 1 main_v10 main_arg6 main_v11 main_v12)
  (hr2 : RegionStep (F := F) 2 main_v15 main_arg7 main_v16 main_v17) (hr3 : RegionStep (F := F) 3 main_v20 main_arg8 main_v21 main_v22)

omit [FloatOps F] in
theorem FIN_eq : FIN m d = (iprop(∃ Vc : Valuation τ sig (Elt F), ⌜Keeps m d Vc⌝ ∗ StableHlo.held (SparseCore.T d) (Pipeline.ucRefs τ sig) Vc) : sProp 𝕄) := rfl

include hr0 hr1 hr2 hr3 in
set_option maxHeartbeats 4000000 in
set_option backward.isDefEq.respectTransparency.types false in
/-- @main on the TensorCore: the nine stretches of host operations, the four gather calls and the four regions in order; the
    arguments are never written. -/
theorem hmain (κ : GSem nD τ sig → ℕ) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d) fun _ => iprop((K (F := F)).tcSt EH d 4 ∗ FIN m d) := by
  unfold SparseCore.Cfg.tcRes G
  rw [main_eq, show (unscopedBufs d (fun b => m ((SparseCore.T d).loc b)) : sProp 𝕄) = StableHlo.held (SparseCore.T d) (Pipeline.ucRefs τ sig) (V₀ m d) from
    Pipeline.unscopedBufs_held d (V₀ m d), bigSep_fin4, bigSep_fin4]
  iintro ⟨#Hctx, Hst, ⟨Hb, Hh, -, -⟩, ⟨⟨Hg0, Hg1, Hg2, Hg3⟩, ⟨Ht0, Ht1, Ht2, Ht3⟩⟩⟩
  have hK0 : Keeps m d (V₀ m d) := fun _ _ => rfl
  iapply (step_ops m d (ops0 (F := F)) ops0_W ops0_sub ops0_fresh ops0_writes (by decide) _ _ (V₀ m d) hK0)
  isplitl [Hb]; · iexact Hb
  isplitl [Hh]; · iexact Hh
  iintro %V1 %hK1 ⟨Hb, Hh⟩
  iapply (step_run0 m d κ _ _ V1 hK1)
  isplitr; · iexact Hctx
  isplitl [Hst]; · iexact Hst
  isplitl [Hb]; · iexact Hb
  isplitl [Hh]; · iexact Hh
  iintro %V2 %hK2 ⟨Hst, Hb, Hh⟩
  iapply (step_ops m d (ops1 (F := F)) ops1_W ops1_sub ops1_fresh ops1_writes (by decide) _ _ V2 hK2)
  isplitl [Hb]; · iexact Hb
  isplitl [Hh]; · iexact Hh
  iintro %V3 %hK3 ⟨Hb, Hh⟩
  iapply (step_region0 m d hr0 κ _ _ V3 hK3)
  isplitr; · iexact Hctx
  isplitl [Hst]; · iexact Hst
  isplitl [Hb]; · iexact Hb
  isplitl [Hh]; · iexact Hh
  isplitl [Hg0]; · iexact Hg0
  isplitl [Ht0]; · iexact Ht0
  iintro %V4 %hK4 ⟨Hst, Hb, Hh⟩
  iapply (step_ops m d (ops2 (F := F)) ops2_W ops2_sub ops2_fresh ops2_writes (by decide) _ _ V4 hK4)
  isplitl [Hb]; · iexact Hb
  isplitl [Hh]; · iexact Hh
  iintro %V5 %hK5 ⟨Hb, Hh⟩
  iapply (step_run1 m d κ _ _ V5 hK5)
  isplitr; · iexact Hctx
  isplitl [Hst]; · iexact Hst
  isplitl [Hb]; · iexact Hb
  isplitl [Hh]; · iexact Hh
  iintro %V6 %hK6 ⟨Hst, Hb, Hh⟩
  iapply (step_ops m d (ops3 (F := F)) ops3_W ops3_sub ops3_fresh ops3_writes (by decide) _ _ V6 hK6)
  isplitl [Hb]; · iexact Hb
  isplitl [Hh]; · iexact Hh
  iintro %V7 %hK7 ⟨Hb, Hh⟩
  iapply (step_region1 m d hr1 κ _ _ V7 hK7)
  isplitr; · iexact Hctx
  isplitl [Hst]; · iexact Hst
  isplitl [Hb]; · iexact Hb
  isplitl [Hh]; · iexact Hh
  isplitl [Hg1]; · iexact Hg1
  isplitl [Ht1]; · iexact Ht1
  iintro %V8 %hK8 ⟨Hst, Hb, Hh⟩
  iapply (step_ops m d (ops4 (F := F)) ops4_W ops4_sub ops4_fresh ops4_writes (by decide) _ _ V8 hK8)
  isplitl [Hb]; · iexact Hb
  isplitl [Hh]; · iexact Hh
  iintro %V9 %hK9 ⟨Hb, Hh⟩
  iapply (step_run2 m d κ _ _ V9 hK9)
  isplitr; · iexact Hctx
  isplitl [Hst]; · iexact Hst
  isplitl [Hb]; · iexact Hb
  isplitl [Hh]; · iexact Hh
  iintro %V10 %hK10 ⟨Hst, Hb, Hh⟩
  iapply (step_ops m d (ops5 (F := F)) ops5_W ops5_sub ops5_fresh ops5_writes (by decide) _ _ V10 hK10)
  isplitl [Hb]; · iexact Hb
  isplitl [Hh]; · iexact Hh
  iintro %V11 %hK11 ⟨Hb, Hh⟩
  iapply (step_region2 m d hr2 κ _ _ V11 hK11)
  isplitr; · iexact Hctx
  isplitl [Hst]; · iexact Hst
  isplitl [Hb]; · iexact Hb
  isplitl [Hh]; · iexact Hh
  isplitl [Hg2]; · iexact Hg2
  isplitl [Ht2]; · iexact Ht2
  iintro %V12 %hK12 ⟨Hst, Hb, Hh⟩
  iapply (step_ops m d (ops6 (F := F)) ops6_W ops6_sub ops6_fresh ops6_writes (by decide) _ _ V12 hK12)
  isplitl [Hb]; · iexact Hb
  isplitl [Hh]; · iexact Hh
  iintro %V13 %hK13 ⟨Hb, Hh⟩
  iapply (step_run3 m d κ _ _ V13 hK13)
  isplitr; · iexact Hctx
  isplitl [Hst]; · iexact Hst
  isplitl [Hb]; · iexact Hb
  isplitl [Hh]; · iexact Hh
  iintro %V14 %hK14 ⟨Hst, Hb, Hh⟩
  iapply (step_ops m d (ops7 (F := F)) ops7_W ops7_sub ops7_fresh ops7_writes (by decide) _ _ V14 hK14)
  isplitl [Hb]; · iexact Hb
  isplitl [Hh]; · iexact Hh
  iintro %V15 %hK15 ⟨Hb, Hh⟩
  iapply (step_region3 m d hr3 κ _ _ V15 hK15)
  isplitr; · iexact Hctx
  isplitl [Hst]; · iexact Hst
  isplitl [Hb]; · iexact Hb
  isplitl [Hh]; · iexact Hh
  isplitl [Hg3]; · iexact Hg3
  isplitl [Ht3]; · iexact Ht3
  iintro %V16 %hK16 ⟨Hst, Hb, Hh⟩
  iapply (step_ops m d (ops8 (F := F)) ops8_W ops8_sub ops8_fresh ops8_writes (by decide) _ _ V16 hK16)
  isplitl [Hb]; · iexact Hb
  isplitl [Hh]; · iexact Hh
  iintro %V17 %hK17 ⟨Hb, Hh⟩
  rw [wp_pure]; imodintro
  isplitl [Hst]; · iexact Hst
  iapply (Entails.of_eq (FIN_eq m d).symm)
  iexists V17; isplitr
  · ipureintro; exact hK17
  · iexact Hh

end Main

/-! ## The program's run -/

section Run

variable (m : (ℓ : Loc nD τ sig) → Buf (Elt F) ℓ) (ρ : Dev nD → PrngReg)
variable (hr0 : RegionStep (F := F) 0 main_v5 main_arg5 main_v6 main_v7) (hr1 : RegionStep (F := F) 1 main_v10 main_arg6 main_v11 main_v12)
  (hr2 : RegionStep (F := F) 2 main_v15 main_arg7 main_v16 main_v17) (hr3 : RegionStep (F := F) 3 main_v20 main_arg8 main_v21 main_v22)

/-- Every device's thirteen arguments end as they were launched. -/
def QC : PUnit × MemSt nD τ sig (Elt F) → Prop := fun r => ∀ c : Dev nD, ∀ r' ∈ argRefs, r.2.mem (c, dr r') = m (c, dr r')

include hr0 hr1 hr2 hr3 in
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq | 2 => nomatch hq | 3 => nomatch hq)
    (fun q _ => match q with | 0 => tileObl0 m facts hpre | 1 => tileObl1 m facts hpre | 2 => tileObl2 m facts hpre | 3 => tileObl3 m facts hpre)
    (fun q _ => match q with
      | 0 => SparseCore.Cfg.VecSplit.of_plain (vecSplit0 m) | 1 => SparseCore.Cfg.VecSplit.of_plain (vecSplit1 m)
      | 2 => SparseCore.Cfg.VecSplit.of_plain (vecSplit2 m) | 3 => SparseCore.Cfg.VecSplit.of_plain (vecSplit3 m))
    m ρ main (fun d => G (F := F) d) (fun d => FIN m d) (u₀ (F := F)) (sep_elim_left.trans (hu₀ m))
    (fun κ d => hmain m ρ d hr0 hr1 hr2 hr3 κ) (fq m) (fun d s' => hfin m d s') (QC m) (fun _ h => h)

end Run

end Cert.Proof.KI

end
-- ==== Proof.KbCall0.lean ====
/-
  One vector subcore's task of a gather call. The sixteen tasks of the call each take 256 consecutive entries of the
  index vector, fetch them into their index scratch, gather the entries of the 16384-slot state those indices name into
  their value scratch — two streams of 128 entries, each on a semaphore of its own, the second started before the first is
  waited for — and copy the two halves out to their 256 consecutive entries of the result. A task only reads the index
  vector and the state, so it holds a share of each, whole; it holds its two 128-entry pieces of the result outright.
  The indices are in range of the state: an index out of range would leave a stream unanswered.
-/
import proofs.«208418_g89945205112833_cont_sun_c4_809_35_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208418_g89945205112833_cont_sun_c4_809_35_alg».proof.Proof.Gen.Kernel
import proofs.«208418_g89945205112833_cont_sun_c4_809_35_alg».proof.Proof.Gen.Kernel.Skeleton
import proofs.«208418_g89945205112833_cont_sun_c4_809_35_alg».proof.Proof.LibTiles
import proofs.«208418_g89945205112833_cont_sun_c4_809_35_alg».proof.Proof.LibReadShares

noncomputable section

namespace Cert.Proof.KB.Call0

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

abbrev ΛP : Labels := Pipeline.Sig Λ₀ (Fin 4) fun p => (pcfgs (F := F) p).Adm
abbrev K : SparseCore.Cfg τ sig (ΛP (F := F)) 4 := sc (F := F)
abbrev 𝒱₀ : Variants := Variants.none

/-- The certificate's ghost state: the launch handshakes' rounds, the pipelines' staging cells' rounds, the transfers' counters. -/
abbrev UH : Type := URounds (GSem nD τ sig) ℕ
abbrev UPp : Type := URounds (GSem nD τ sig) Unit
abbrev UU : Type := UH × (UPp × Counters)

local notation "𝕄" => MT nD τ sig (HIx 4) (Elt F) ℕ UU ℕ

local notation "xV" => (Memref.whole Cert.Kernel.main_v3_scv : Memref Cert.Kernel.sig Kind.scVector Space.hbm Cert.Kernel.S16384 EltTy.f32)
local notation "iV" => (Memref.whole Cert.Kernel.main_arg1_scv : Memref Cert.Kernel.sig Kind.scVector Space.hbm Cert.Kernel.S4096 EltTy.i32)
local notation "oV" => (Memref.whole Cert.Kernel.main_v4_scv : Memref Cert.Kernel.sig Kind.scVector Space.hbm Cert.Kernel.S4096 EltTy.f32)
local notation "sV" => (Memref.whole Cert.Kernel.cc0_scratch0 : Memref Cert.Kernel.sig Kind.scVector Space.vmem Cert.Kernel.S256 EltTy.i32)
local notation "rV" => (Memref.whole Cert.Kernel.cc0_scratch1 : Memref Cert.Kernel.sig Kind.scVector Space.vmem Cert.Kernel.S256 EltTy.f32)

/-- The call's three arrays, as the TensorCore names them. -/
abbrev iLoc (d : Dev nD) : Loc nD τ sig := (SparseCore.T d).loc main_arg1
abbrev xLoc (d : Dev nD) : Loc nD τ sig := (SparseCore.T d).loc main_v3
abbrev oLoc (d : Dev nD) : Loc nD τ sig := (SparseCore.T d).loc main_v4

/-- Read token `i` of sixteen of a whole array. -/
abbrev tok (i : Fin 16) : PosShare TreeShare := Transfers.shareTok fullShare 16 i

/-- The result's entries whose position falls in the `w`-th piece of 128. -/
abbrev oSet (d : Dev nD) (w : ℕ) : Finset (Idx (oLoc d)) := LibTiles.blk (ℓ := oLoc d) (fun j : S4096.Idx => (j 0).val) 128 w

variable [FloatOps F]

/-- What task `i` is handed and hands back: a read token of the indices at their launch contents, a read token of the state
    at whatever it holds, its two pieces of the result at whatever they hold. -/
def taskRes (d : Dev nD) (fi : Buf (Elt F) (iLoc d)) (i : Fin 16) : sProp 𝕄 :=
  iprop((iLoc d ↦{tok i} fi) ∗ (∃ f, xLoc d ↦{tok i} f)
    ∗ (∃ g, oLoc d ↦[oSet d (2 * i.val)]{fullShare} g) ∗ ∃ g, oLoc d ↦[oSet d (2 * i.val + 1)]{fullShare} g)

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_one : grid0.bound 1 = 16 := rfl
abbrev jL (L : grid0.Coords) : Fin 16 := Fin.cast bound_one (L 1)

/-- The task's two pieces of the result, as the task addresses them. -/
abbrev outAK (L : grid0.Coords) : Memref sig .scVector .hbm S128 .f32 := (oV).slice (Rect.unit (s := S4096) (k0_off2 L) S128.size (k0_off2_inb L)) (fun _ => rfl)
abbrev outBK (L : grid0.Coords) : Memref sig .scVector .hbm S128 .f32 := (oV).slice (Rect.unit (s := S4096) (k0_off3 L) S128.size (k0_off3_inb L)) (fun _ => rfl)

omit [FloatOps F] in
/-- A task's coordinate on the SparseCore axis is 0: the call runs on one SparseCore. -/
theorem L0_zero : (L 0).val = 0 := by have h : (L 0).val < 1 := (L 0).isLt; omega

omit [FloatOps F] in
theorem set_outAK : (outAK L).view.set = oSet d (2 * (jL L).val) := by
  show ((View.whole (main_v4_scv : Ref sig .scVector)).slice _).set = _
  rw [View.set_slice_whole]
  ext j
  rw [Rect.mem_set_unit]
  show _ ↔ j ∈ Finset.univ.filter (fun j : S4096.Idx => (j 0).val / 128 = 2 * (jL L).val)
  rw [Finset.mem_filter]
  simp only [Finset.mem_univ, true_and, k0_off2_eq]
  have h0 := L0_zero L
  constructor
  · intro h; have := h 0; simp only [Matrix.cons_val_zero, S128] at this
    show (j 0).val / 128 = 2 * (L 1).val; omega
  · intro h a
    have h' : (j 0).val / 128 = 2 * (L 1).val := h
    match a with
    | 0 => simp only [Matrix.cons_val_zero, S128]; omega

omit [FloatOps F] in
theorem set_outBK : (outBK L).view.set = oSet d (2 * (jL L).val + 1) := by
  show ((View.whole (main_v4_scv : Ref sig .scVector)).slice _).set = _
  rw [View.set_slice_whole]
  ext j
  rw [Rect.mem_set_unit]
  show _ ↔ j ∈ Finset.univ.filter (fun j : S4096.Idx => (j 0).val / 128 = 2 * (jL L).val + 1)
  rw [Finset.mem_filter]
  simp only [Finset.mem_univ, true_and, k0_off3_eq]
  have h0 := L0_zero L
  constructor
  · intro h; have := h 0; simp only [Matrix.cons_val_zero, S128] at this
    show (j 0).val / 128 = 2 * (L 1).val + 1; omega
  · intro h a
    have h' : (j 0).val / 128 = 2 * (L 1).val + 1 := h
    match a with
    | 0 => simp only [Matrix.cons_val_zero, S128]; omega

abbrev c2cell (d : Dev nD) (c : Fin τ.nSC) (i : Fin τ.nSub) : GSem nD τ sig := (V d c i, .dma cc0_scratch2.sem)
abbrev c3cell (d : Dev nD) (c : Fin τ.nSC) (i : Fin τ.nSub) : GSem nD τ sig := (V d c i, .dma cc0_scratch3.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)
abbrev cCcell (d : Dev nD) (c : Fin τ.nSC) (i : Fin τ.nSub) : GSem nD τ sig := (V d c i, .dma cc0_scoped2.sem)

omit [FloatOps F] in
/-- The task's five semaphores are among the subcore's own: they, at zero, and the rest. -/
theorem ownSems0_V :
    (ownSems0 (V d (cV L) (jV L)) : sProp 𝕄)
      = iprop(semVal (c2cell d (cV L) (jV L)) 0 ∗ semVal (c3cell d (cV L) (jV L)) 0 ∗ semVal (cAcell d (cV L) (jV L)) 0
          ∗ semVal (cBcell d (cV L) (jV L)) 0 ∗ semVal (cCcell d (cV L) (jV L)) 0
          ∗ bigSep ((((((ownCells (V d (cV L) (jV L))).erase (c2cell d (cV L) (jV L))).erase (c3cell d (cV L) (jV L))).erase (cAcell d (cV L) (jV L))).erase
              (cBcell d (cV L) (jV L))).erase (cCcell d (cV L) (jV L))) fun g => semVal g 0) := by
  unfold SparseCore.Cfg.ownSems0
  have m2 : c2cell d (cV L) (jV L) ∈ ownCells (V d (cV L) (jV L)) := mem_ownCells.mpr ⟨rfl, by
    show (SemLoc.dma cc0_scratch2.sem : SemLoc sig).isScoped .scVector = true; decide⟩
  have m3 : c3cell d (cV L) (jV L) ∈ ownCells (V d (cV L) (jV L)) := mem_ownCells.mpr ⟨rfl, by
    show (SemLoc.dma cc0_scratch3.sem : SemLoc sig).isScoped .scVector = true; decide⟩
  have mA : cAcell d (cV L) (jV L) ∈ ownCells (V d (cV L) (jV L)) := mem_ownCells.mpr ⟨rfl, by
    show (SemLoc.dma cc0_scoped0.sem : SemLoc sig).isScoped .scVector = true; decide⟩
  have mB : cBcell d (cV L) (jV L) ∈ ownCells (V d (cV L) (jV L)) := mem_ownCells.mpr ⟨rfl, by
    show (SemLoc.dma cc0_scoped1.sem : SemLoc sig).isScoped .scVector = true; decide⟩
  have mC : cCcell d (cV L) (jV L) ∈ ownCells (V d (cV L) (jV L)) := mem_ownCells.mpr ⟨rfl, by
    show (SemLoc.dma cc0_scoped2.sem : SemLoc sig).isScoped .scVector = true; decide⟩
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  rw [SparseCore.bigSep_erase' m2,
    SparseCore.bigSep_erase' (Finset.mem_erase.mpr ⟨ne (by decide), m3⟩),
    SparseCore.bigSep_erase' (Finset.mem_erase.mpr ⟨ne (by decide), Finset.mem_erase.mpr ⟨ne (by decide), mA⟩⟩),
    SparseCore.bigSep_erase' (Finset.mem_erase.mpr ⟨ne (by decide), Finset.mem_erase.mpr ⟨ne (by decide), Finset.mem_erase.mpr ⟨ne (by decide), mB⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mC⟩⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_outAK (f : Buf (Elt F) (oLoc d)) :
    ((outAK L).view.loc (V d (cV L) (jV L)) ↦[(outAK L).view.set]{fullShare} f : sProp 𝕄) = oLoc d ↦[oSet d (2 * (jL L).val)]{fullShare} f := by
  rw [set_outAK d L]
omit [FloatOps F] in
theorem pts_outBK (f : Buf (Elt F) (oLoc d)) :
    ((outBK L).view.loc (V d (cV L) (jV L)) ↦[(outBK L).view.set]{fullShare} f : sProp 𝕄) = oLoc d ↦[oSet d (2 * (jL L).val + 1)]{fullShare} f := by
  rw [set_outBK d L]

/-- The task's 256 indices, as the task addresses them. -/
abbrev idxK (L : grid0.Coords) : Memref sig .scVector .hbm S256 .i32 := (iV).slice (Rect.unit (s := S4096) (k0_off1 L) S256.size (k0_off1_inb L)) (fun _ => rfl)

set_option maxHeartbeats 4000000 in
/-- The task on vector subcore `(L 0, L 1)`: the index fetch and its wait, the two gathers, each gather's wait followed by the
    copy of its half to the result and that copy's wait. Every index is in range of the state (`hidx`). -/
theorem tile_body (hF : (K (F := F)).Facts) (fi : Buf (Elt F) (iLoc d)) (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskRes d fi (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L xV (Memref.isWhole_whole _) iV (Memref.isWhole_whole _) oV (Memref.isWhole_whole _)
            sV (Memref.isWhole_whole _) rV (Memref.isWhole_whole _) cc0_scratch2 cc0_scratch3 cc0_scoped0 cc0_scoped1 cc0_scoped2)
          fun _ => iprop(taskRes d fi (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hi, ⟨%fx, Hx⟩, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc0_scratch0 ↦{fullShare} fs : sProp 𝕄) = ((sV).view.loc (V d (cV L) (jV L)) ↦{fullShare} fs) from rfl)) $$ Hs
  ihave Hr := (Entails.of_eq (show ((V d (cV L) (jV L)).loc cc0_scratch1 ↦{fullShare} fr : sProp 𝕄) = ((rV).view.loc (V d (cV L) (jV L)) ↦{fullShare} fr) from rfl)) $$ Hr
  have hin0 : ∀ (g : Buf (Elt F) ((V d (cV L) (jV L)).loc cc0_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc0_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  isplitl [Hi Hx HoA HoB]
  · isplitl [Hi]; · iexact Hi
    isplitl [Hx]; · iexists fx; iexact Hx
    isplitl [HoA]
    · iexists _; iapply (Entails.of_eq (pts_outAK (F := F) d L _)); iexact HoA
    · iexists _; iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and gathered back -/

/-- The call's operands, whole: the indices at their launch contents, the state and the result at whatever they hold. -/
def callRes (d : Dev nD) (fi : Buf (Elt F) (iLoc d)) : sProp 𝕄 :=
  iprop((iLoc d ↦{fullShare} fi) ∗ (∃ f, xLoc d ↦{fullShare} f) ∗ ∃ g, oLoc d ↦{fullShare} g)

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
/-- The result's 32 pieces of 128 are the tasks' pairs of pieces. -/
theorem out_pieces (d : Dev nD) :
    (bigSep Finset.univ fun w : Fin 32 => iprop(∃ g, oLoc d ↦[oSet d w.val]{fullShare} g) : sProp 𝕄)
      = bigSep Finset.univ fun i : Fin 16 =>
          iprop((∃ g, oLoc d ↦[oSet d (2 * i.val)]{fullShare} g) ∗ ∃ g, oLoc d ↦[oSet d (2 * i.val + 1)]{fullShare} g) := by
  refine (LibTiles.bigSep_tiles 16 2 (fun w => (iprop(∃ g, oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
/-- A read token at known contents is one at some contents. -/
theorem toks_some {ℓ : Loc nD τ sig} (f : Buf (Elt F) ℓ) :
    (bigSep Finset.univ fun i : Fin 16 => (ℓ ↦{tok i} f : sProp 𝕄)) ⊢ bigSep Finset.univ fun i : Fin 16 => iprop(∃ g, ℓ ↦{tok i} g) :=
  bigSep_mono fun i _ => by
    show (ℓ ↦{tok i} f : sProp 𝕄) ⊢ iprop(∃ g, ℓ ↦{tok i} g)
    iintro H; iexists f; iexact H

omit [FloatOps F] in
theorem deal [∀ e, Nonempty (Elt F e)] (d : Dev nD) (fi : Buf (Elt F) (iLoc d)) :
    callRes d fi ⊢ |={Set.univ}=> iprop((bigSep Finset.univ fun i : Fin 16 => taskRes d fi i)
      ∗ ((bigSep Finset.univ fun i : Fin 16 => taskRes d fi i) -∗ callRes d fi)) := by
  unfold callRes taskRes
  rw [bigSep_sep', bigSep_sep', ← out_pieces d]
  iintro ⟨Hi, ⟨%fx, Hx⟩, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iapply (toks_some (F := F) fx); iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iexists fx; iapply (LibReadShares.toks_rejoin (ℓ := xLoc d) fullShare 16 fx); isplitl [Hxd] <;> iassumption
  · iapply (LibTiles.pts_join (ℓ := oLoc d) (fun j : S4096.Idx => (j 0).val) 128 32 (by decide) (fun j => (j 0).isLt) fullShare g); iexact Ho

end Cert.Proof.KB.Call0

end
-- ==== Proof.KbCall2.lean ====
/-
  One vector subcore's task of a gather call. The sixteen tasks of the call each take 256 consecutive entries of the
  index vector, fetch them into their index scratch, gather the entries of the 16384-slot state those indices name into
  their value scratch — two streams of 128 entries, each on a semaphore of its own, the second started before the first is
  waited for — and copy the two halves out to their 256 consecutive entries of the result. A task only reads the index
  vector and the state, so it holds a share of each, whole; it holds its two 128-entry pieces of the result outright.
  The indices are in range of the state: an index out of range would leave a stream unanswered.
-/
import proofs.«208418_g89945205112833_cont_sun_c4_809_35_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208418_g89945205112833_cont_sun_c4_809_35_alg».proof.Proof.Gen.Kernel
import proofs.«208418_g89945205112833_cont_sun_c4_809_35_alg».proof.Proof.Gen.Kernel.Skeleton
import proofs.«208418_g89945205112833_cont_sun_c4_809_35_alg».proof.Proof.LibTiles
import proofs.«208418_g89945205112833_cont_sun_c4_809_35_alg».proof.Proof.LibReadShares

noncomputable section

namespace Cert.Proof.KB.Call2

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

abbrev ΛP : Labels := Pipeline.Sig Λ₀ (Fin 4) fun p => (pcfgs (F := F) p).Adm
abbrev K : SparseCore.Cfg τ sig (ΛP (F := F)) 4 := sc (F := F)
abbrev 𝒱₀ : Variants := Variants.none

/-- The certificate's ghost state: the launch handshakes' rounds, the pipelines' staging cells' rounds, the transfers' counters. -/
abbrev UH : Type := URounds (GSem nD τ sig) ℕ
abbrev UPp : Type := URounds (GSem nD τ sig) Unit
abbrev UU : Type := UH × (UPp × Counters)

local notation "𝕄" => MT nD τ sig (HIx 4) (Elt F) ℕ UU ℕ

local notation "xV" => (Memref.whole Cert.Kernel.main_v8_scv : Memref Cert.Kernel.sig Kind.scVector Space.hbm Cert.Kernel.S16384 EltTy.f32)
local notation "iV" => (Memref.whole Cert.Kernel.main_arg2_scv : Memref Cert.Kernel.sig Kind.scVector Space.hbm Cert.Kernel.S4096 EltTy.i32)
local notation "oV" => (Memref.whole Cert.Kernel.main_v9_scv : Memref Cert.Kernel.sig Kind.scVector Space.hbm Cert.Kernel.S4096 EltTy.f32)
local notation "sV" => (Memref.whole Cert.Kernel.cc2_scratch0 : Memref Cert.Kernel.sig Kind.scVector Space.vmem Cert.Kernel.S256 EltTy.i32)
local notation "rV" => (Memref.whole Cert.Kernel.cc2_scratch1 : Memref Cert.Kernel.sig Kind.scVector Space.vmem Cert.Kernel.S256 EltTy.f32)

/-- The call's three arrays, as the TensorCore names them. -/
abbrev iLoc (d : Dev nD) : Loc nD τ sig := (SparseCore.T d).loc main_arg2
abbrev xLoc (d : Dev nD) : Loc nD τ sig := (SparseCore.T d).loc main_v8
abbrev oLoc (d : Dev nD) : Loc nD τ sig := (SparseCore.T d).loc main_v9

/-- Read token `i` of sixteen of a whole array. -/
abbrev tok (i : Fin 16) : PosShare TreeShare := Transfers.shareTok fullShare 16 i

/-- The result's entries whose position falls in the `w`-th piece of 128. -/
abbrev oSet (d : Dev nD) (w : ℕ) : Finset (Idx (oLoc d)) := LibTiles.blk (ℓ := oLoc d) (fun j : S4096.Idx => (j 0).val) 128 w

variable [FloatOps F]

/-- What task `i` is handed and hands back: a read token of the indices at their launch contents, a read token of the state
    at whatever it holds, its two pieces of the result at whatever they hold. -/
def taskRes (d : Dev nD) (fi : Buf (Elt F) (iLoc d)) (i : Fin 16) : sProp 𝕄 :=
  iprop((iLoc d ↦{tok i} fi) ∗ (∃ f, xLoc d ↦{tok i} f)
    ∗ (∃ g, oLoc d ↦[oSet d (2 * i.val)]{fullShare} g) ∗ ∃ g, oLoc d ↦[oSet d (2 * i.val + 1)]{fullShare} g)

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound_one : grid2.bound 1 = 16 := rfl
abbrev jL (L : grid2.Coords) : Fin 16 := Fin.cast bound_one (L 1)

/-- The task's two pieces of the result, as the task addresses them. -/
abbrev outAK (L : grid2.Coords) : Memref sig .scVector .hbm S128 .f32 := (oV).slice (Rect.unit (s := S4096) (k2_off2 L) S128.size (k2_off2_inb L)) (fun _ => rfl)
abbrev outBK (L : grid2.Coords) : Memref sig .scVector .hbm S128 .f32 := (oV).slice (Rect.unit (s := S4096) (k2_off3 L) S128.size (k2_off3_inb L)) (fun _ => rfl)

omit [FloatOps F] in
/-- A task's coordinate on the SparseCore axis is 0: the call runs on one SparseCore. -/
theorem L0_zero : (L 0).val = 0 := by have h : (L 0).val < 1 := (L 0).isLt; omega

omit [FloatOps F] in
theorem set_outAK : (outAK L).view.set = oSet d (2 * (jL L).val) := by
  show ((View.whole (main_v9_scv : Ref sig .scVector)).slice _).set = _
  rw [View.set_slice_whole]
  ext j
  rw [Rect.mem_set_unit]
  show _ ↔ j ∈ Finset.univ.filter (fun j : S4096.Idx => (j 0).val / 128 = 2 * (jL L).val)
  rw [Finset.mem_filter]
  simp only [Finset.mem_univ, true_and, k2_off2_eq]
  have h0 := L0_zero L
  constructor
  · intro h; have := h 0; simp only [Matrix.cons_val_zero, S128] at this
    show (j 0).val / 128 = 2 * (L 1).val; omega
  · intro h a
    have h' : (j 0).val / 128 = 2 * (L 1).val := h
    match a with
    | 0 => simp only [Matrix.cons_val_zero, S128]; omega

omit [FloatOps F] in
theorem set_outBK : (outBK L).view.set = oSet d (2 * (jL L).val + 1) := by
  show ((View.whole (main_v9_scv : Ref sig .scVector)).slice _).set = _
  rw [View.set_slice_whole]
  ext j
  rw [Rect.mem_set_unit]
  show _ ↔ j ∈ Finset.univ.filter (fun j : S4096.Idx => (j 0).val / 128 = 2 * (jL L).val + 1)
  rw [Finset.mem_filter]
  simp only [Finset.mem_univ, true_and, k2_off3_eq]
  have h0 := L0_zero L
  constructor
  · intro h; have := h 0; simp only [Matrix.cons_val_zero, S128] at this
    show (j 0).val / 128 = 2 * (L 1).val + 1; omega
  · intro h a
    have h' : (j 0).val / 128 = 2 * (L 1).val + 1 := h
    match a with
    | 0 => simp only [Matrix.cons_val_zero, S128]; omega

abbrev c2cell (d : Dev nD) (c : Fin τ.nSC) (i : Fin τ.nSub) : GSem nD τ sig := (V d c i, .dma cc2_scratch2.sem)
abbrev c3cell (d : Dev nD) (c : Fin τ.nSC) (i : Fin τ.nSub) : GSem nD τ sig := (V d c i, .dma cc2_scratch3.sem)
abbrev cAcell (d : Dev nD) (c : Fin τ.nSC) (i : Fin τ.nSub) : GSem nD τ sig := (V d c i, .dma cc2_scoped0.sem)
abbrev cBcell (d : Dev nD) (c : Fin τ.nSC) (i : Fin τ.nSub) : GSem nD τ sig := (V d c i, .dma cc2_scoped1.sem)
abbrev cCcell (d : Dev nD) (c : Fin τ.nSC) (i : Fin τ.nSub) : GSem nD τ sig := (V d c i, .dma cc2_scoped2.sem)

omit [FloatOps F] in
/-- The task's five semaphores are among the subcore's own: they, at zero, and the rest. -/
theorem ownSems0_V :
    (ownSems0 (V d (cV L) (jV L)) : sProp 𝕄)
      = iprop(semVal (c2cell d (cV L) (jV L)) 0 ∗ semVal (c3cell d (cV L) (jV L)) 0 ∗ semVal (cAcell d (cV L) (jV L)) 0
          ∗ semVal (cBcell d (cV L) (jV L)) 0 ∗ semVal (cCcell d (cV L) (jV L)) 0
          ∗ bigSep ((((((ownCells (V d (cV L) (jV L))).erase (c2cell d (cV L) (jV L))).erase (c3cell d (cV L) (jV L))).erase (cAcell d (cV L) (jV L))).erase
              (cBcell d (cV L) (jV L))).erase (cCcell d (cV L) (jV L))) fun g => semVal g 0) := by
  unfold SparseCore.Cfg.ownSems0
  have m2 : c2cell d (cV L) (jV L) ∈ ownCells (V d (cV L) (jV L)) := mem_ownCells.mpr ⟨rfl, by
    show (SemLoc.dma cc2_scratch2.sem : SemLoc sig).isScoped .scVector = true; decide⟩
  have m3 : c3cell d (cV L) (jV L) ∈ ownCells (V d (cV L) (jV L)) := mem_ownCells.mpr ⟨rfl, by
    show (SemLoc.dma cc2_scratch3.sem : SemLoc sig).isScoped .scVector = true; decide⟩
  have mA : cAcell d (cV L) (jV L) ∈ ownCells (V d (cV L) (jV L)) := mem_ownCells.mpr ⟨rfl, by
    show (SemLoc.dma cc2_scoped0.sem : SemLoc sig).isScoped .scVector = true; decide⟩
  have mB : cBcell d (cV L) (jV L) ∈ ownCells (V d (cV L) (jV L)) := mem_ownCells.mpr ⟨rfl, by
    show (SemLoc.dma cc2_scoped1.sem : SemLoc sig).isScoped .scVector = true; decide⟩
  have mC : cCcell d (cV L) (jV L) ∈ ownCells (V d (cV L) (jV L)) := mem_ownCells.mpr ⟨rfl, by
    show (SemLoc.dma cc2_scoped2.sem : SemLoc sig).isScoped .scVector = true; decide⟩
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  rw [SparseCore.bigSep_erase' m2,
    SparseCore.bigSep_erase' (Finset.mem_erase.mpr ⟨ne (by decide), m3⟩),
    SparseCore.bigSep_erase' (Finset.mem_erase.mpr ⟨ne (by decide), Finset.mem_erase.mpr ⟨ne (by decide), mA⟩⟩),
    SparseCore.bigSep_erase' (Finset.mem_erase.mpr ⟨ne (by decide), Finset.mem_erase.mpr ⟨ne (by decide), Finset.mem_erase.mpr ⟨ne (by decide), mB⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mC⟩⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

omit [FloatOps F] in
theorem pts_outAK (f : Buf (Elt F) (oLoc d)) :
    ((outAK L).view.loc (V d (cV L) (jV L)) ↦[(outAK L).view.set]{fullShare} f : sProp 𝕄) = oLoc d ↦[oSet d (2 * (jL L).val)]{fullShare} f := by
  rw [set_outAK d L]
omit [FloatOps F] in
theorem pts_outBK (f : Buf (Elt F) (oLoc d)) :
    ((outBK L).view.loc (V d (cV L) (jV L)) ↦[(outBK L).view.set]{fullShare} f : sProp 𝕄) = oLoc d ↦[oSet d (2 * (jL L).val + 1)]{fullShare} f := by
  rw [set_outBK d L]

/-- The task's 256 indices, as the task addresses them. -/
abbrev idxK (L : grid2.Coords) : Memref sig .scVector .hbm S256 .i32 := (iV).slice (Rect.unit (s := S4096) (k2_off1 L) S256.size (k2_off1_inb L)) (fun _ => rfl)

set_option maxHeartbeats 4000000 in
/-- The task on vector subcore `(L 0, L 1)`: the index fetch and its wait, the two gathers, each gather's wait followed by the
    copy of its half to the result and that copy's wait. Every index is in range of the state (`hidx`). -/
theorem tile_body (hF : (K (F := F)).Facts) (fi : Buf (Elt F) (iLoc d)) (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskRes d fi (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_gather L xV (Memref.isWhole_whole _) iV (Memref.isWhole_whole _) oV (Memref.isWhole_whole _)
            sV (Memref.isWhole_whole _) rV (Memref.isWhole_whole _) cc2_scratch2 cc2_scratch3 cc2_scoped0 cc2_scoped1 cc2_scoped2)
          fun _ => iprop(taskRes d fi (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hi, ⟨%fx, Hx⟩, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc2_scratch0 ↦{fullShare} fs : sProp 𝕄) = ((sV).view.loc (V d (cV L) (jV L)) ↦{fullShare} fs) from rfl)) $$ Hs
  ihave Hr := (Entails.of_eq (show ((V d (cV L) (jV L)).loc cc2_scratch1 ↦{fullShare} fr : sProp 𝕄) = ((rV).view.loc (V d (cV L) (jV L)) ↦{fullShare} fr) from rfl)) $$ Hr
  have hin0 : ∀ (g : Buf (Elt F) ((V d (cV L) (jV L)).loc cc2_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc2_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  isplitl [Hi Hx HoA HoB]
  · isplitl [Hi]; · iexact Hi
    isplitl [Hx]; · iexists fx; iexact Hx
    isplitl [HoA]
    · iexists _; iapply (Entails.of_eq (pts_outAK (F := F) d L _)); iexact HoA
    · iexists _; iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and gathered back -/

/-- The call's operands, whole: the indices at their launch contents, the state and the result at whatever they hold. -/
def callRes (d : Dev nD) (fi : Buf (Elt F) (iLoc d)) : sProp 𝕄 :=
  iprop((iLoc d ↦{fullShare} fi) ∗ (∃ f, xLoc d ↦{fullShare} f) ∗ ∃ g, oLoc d ↦{fullShare} g)

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
/-- The result's 32 pieces of 128 are the tasks' pairs of pieces. -/
theorem out_pieces (d : Dev nD) :
    (bigSep Finset.univ fun w : Fin 32 => iprop(∃ g, oLoc d ↦[oSet d w.val]{fullShare} g) : sProp 𝕄)
      = bigSep Finset.univ fun i : Fin 16 =>
          iprop((∃ g, oLoc d ↦[oSet d (2 * i.val)]{fullShare} g) ∗ ∃ g, oLoc d ↦[oSet d (2 * i.val + 1)]{fullShare} g) := by
  refine (LibTiles.bigSep_tiles 16 2 (fun w => (iprop(∃ g, oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
/-- A read token at known contents is one at some contents. -/
theorem toks_some {ℓ : Loc nD τ sig} (f : Buf (Elt F) ℓ) :
    (bigSep Finset.univ fun i : Fin 16 => (ℓ ↦{tok i} f : sProp 𝕄)) ⊢ bigSep Finset.univ fun i : Fin 16 => iprop(∃ g, ℓ ↦{tok i} g) :=
  bigSep_mono fun i _ => by
    show (ℓ ↦{tok i} f : sProp 𝕄) ⊢ iprop(∃ g, ℓ ↦{tok i} g)
    iintro H; iexists f; iexact H

omit [FloatOps F] in
theorem deal [∀ e, Nonempty (Elt F e)] (d : Dev nD) (fi : Buf (Elt F) (iLoc d)) :
    callRes d fi ⊢ |={Set.univ}=> iprop((bigSep Finset.univ fun i : Fin 16 => taskRes d fi i)
      ∗ ((bigSep Finset.univ fun i : Fin 16 => taskRes d fi i) -∗ callRes d fi)) := by
  unfold callRes taskRes
  rw [bigSep_sep', bigSep_sep', ← out_pieces d]
  iintro ⟨Hi, ⟨%fx, Hx⟩, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iapply (toks_some (F := F) fx); iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iexists fx; iapply (LibReadShares.toks_rejoin (ℓ := xLoc d) fullShare 16 fx); isplitl [Hxd] <;> iassumption
  · iapply (LibTiles.pts_join (ℓ := oLoc d) (fun j : S4096.Idx => (j 0).val) 128 32 (by decide) (fun j => (j 0).isLt) fullShare g); iexact Ho

end Cert.Proof.KB.Call2

end
-- ==== Proof.KbCall4.lean ====
/-
  One vector subcore's task of a gather call. The sixteen tasks of the call each take 256 consecutive entries of the
  index vector, fetch them into their index scratch, gather the entries of the 16384-slot state those indices name into
  their value scratch — two streams of 128 entries, each on a semaphore of its own, the second started before the first is
  waited for — and copy the two halves out to their 256 consecutive entries of the result. A task only reads the index
  vector and the state, so it holds a share of each, whole; it holds its two 128-entry pieces of the result outright.
  The indices are in range of the state: an index out of range would leave a stream unanswered.
-/
import proofs.«208418_g89945205112833_cont_sun_c4_809_35_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208418_g89945205112833_cont_sun_c4_809_35_alg».proof.Proof.Gen.Kernel
import proofs.«208418_g89945205112833_cont_sun_c4_809_35_alg».proof.Proof.Gen.Kernel.Skeleton
import proofs.«208418_g89945205112833_cont_sun_c4_809_35_alg».proof.Proof.LibTiles
import proofs.«208418_g89945205112833_cont_sun_c4_809_35_alg».proof.Proof.LibReadShares

noncomputable section

namespace Cert.Proof.KB.Call4

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

abbrev ΛP : Labels := Pipeline.Sig Λ₀ (Fin 4) fun p => (pcfgs (F := F) p).Adm
abbrev K : SparseCore.Cfg τ sig (ΛP (F := F)) 4 := sc (F := F)
abbrev 𝒱₀ : Variants := Variants.none

/-- The certificate's ghost state: the launch handshakes' rounds, the pipelines' staging cells' rounds, the transfers' counters. -/
abbrev UH : Type := URounds (GSem nD τ sig) ℕ
abbrev UPp : Type := URounds (GSem nD τ sig) Unit
abbrev UU : Type := UH × (UPp × Counters)

local notation "𝕄" => MT nD τ sig (HIx 4) (Elt F) ℕ UU ℕ

local notation "xV" => (Memref.whole Cert.Kernel.main_v13_scv : Memref Cert.Kernel.sig Kind.scVector Space.hbm Cert.Kernel.S16384 EltTy.f32)
local notation "iV" => (Memref.whole Cert.Kernel.main_arg3_scv : Memref Cert.Kernel.sig Kind.scVector Space.hbm Cert.Kernel.S4096 EltTy.i32)
local notation "oV" => (Memref.whole Cert.Kernel.main_v14_scv : Memref Cert.Kernel.sig Kind.scVector Space.hbm Cert.Kernel.S4096 EltTy.f32)
local notation "sV" => (Memref.whole Cert.Kernel.cc4_scratch0 : Memref Cert.Kernel.sig Kind.scVector Space.vmem Cert.Kernel.S256 EltTy.i32)
local notation "rV" => (Memref.whole Cert.Kernel.cc4_scratch1 : Memref Cert.Kernel.sig Kind.scVector Space.vmem Cert.Kernel.S256 EltTy.f32)

/-- The call's three arrays, as the TensorCore names them. -/
abbrev iLoc (d : Dev nD) : Loc nD τ sig := (SparseCore.T d).loc main_arg3
abbrev xLoc (d : Dev nD) : Loc nD τ sig := (SparseCore.T d).loc main_v13
abbrev oLoc (d : Dev nD) : Loc nD τ sig := (SparseCore.T d).loc main_v14

/-- Read token `i` of sixteen of a whole array. -/
abbrev tok (i : Fin 16) : PosShare TreeShare := Transfers.shareTok fullShare 16 i

/-- The result's entries whose position falls in the `w`-th piece of 128. -/
abbrev oSet (d : Dev nD) (w : ℕ) : Finset (Idx (oLoc d)) := LibTiles.blk (ℓ := oLoc d) (fun j : S4096.Idx => (j 0).val) 128 w

variable [FloatOps F]

/-- What task `i` is handed and hands back: a read token of the indices at their launch contents, a read token of the state
    at whatever it holds, its two pieces of the result at whatever they hold. -/
def taskRes (d : Dev nD) (fi : Buf (Elt F) (iLoc d)) (i : Fin 16) : sProp 𝕄 :=
  iprop((iLoc d ↦{tok i} fi) ∗ (∃ f, xLoc d ↦{tok i} f)
    ∗ (∃ g, oLoc d ↦[oSet d (2 * i.val)]{fullShare} g) ∗ ∃ g, oLoc d ↦[oSet d (2 * i.val + 1)]{fullShare} g)

section Tile

variable (d : Dev nD) (L : grid4.Coords)

abbrev cV (L : grid4.Coords) : Fin τ.nSC := (L 0).castLE hcore4
abbrev jV (L : grid4.Coords) : Fin τ.nSub := (L 1).castLE hsub4
omit [FloatOps F] in
theorem bound_one : grid4.bound 1 = 16 := rfl
abbrev jL (L : grid4.Coords) : Fin 16 := Fin.cast bound_one (L 1)

/-- The task's two pieces of the result, as the task addresses them. -/
abbrev outAK (L : grid4.Coords) : Memref sig .scVector .hbm S128 .f32 := (oV).slice (Rect.unit (s := S4096) (k4_off2 L) S128.size (k4_off2_inb L)) (fun _ => rfl)
abbrev outBK (L : grid4.Coords) : Memref sig .scVector .hbm S128 .f32 := (oV).slice (Rect.unit (s := S4096) (k4_off3 L) S128.size (k4_off3_inb L)) (fun _ => rfl)

omit [FloatOps F] in
/-- A task's coordinate on the SparseCore axis is 0: the call runs on one SparseCore. -/
theorem L0_zero : (L 0).val = 0 := by have h : (L 0).val < 1 := (L 0).isLt; omega

omit [FloatOps F] in
theorem set_outAK : (outAK L).view.set = oSet d (2 * (jL L).val) := by
  show ((View.whole (main_v14_scv : Ref sig .scVector)).slice _).set = _
  rw [View.set_slice_whole]
  ext j
  rw [Rect.mem_set_unit]
  show _ ↔ j ∈ Finset.univ.filter (fun j : S4096.Idx => (j 0).val / 128 = 2 * (jL L).val)
  rw [Finset.mem_filter]
  simp only [Finset.mem_univ, true_and, k4_off2_eq]
  have h0 := L0_zero L
  constructor
  · intro h; have := h 0; simp only [Matrix.cons_val_zero, S128] at this
    show (j 0).val / 128 = 2 * (L 1).val; omega
  · intro h a
    have h' : (j 0).val / 128 = 2 * (L 1).val := h
    match a with
    | 0 => simp only [Matrix.cons_val_zero, S128]; omega

omit [FloatOps F] in
theorem set_outBK : (outBK L).view.set = oSet d (2 * (jL L).val + 1) := by
  show ((View.whole (main_v14_scv : Ref sig .scVector)).slice _).set = _
  rw [View.set_slice_whole]
  ext j
  rw [Rect.mem_set_unit]
  show _ ↔ j ∈ Finset.univ.filter (fun j : S4096.Idx => (j 0).val / 128 = 2 * (jL L).val + 1)
  rw [Finset.mem_filter]
  simp only [Finset.mem_univ, true_and, k4_off3_eq]
  have h0 := L0_zero L
  constructor
  · intro h; have := h 0; simp only [Matrix.cons_val_zero, S128] at this
    show (j 0).val / 128 = 2 * (L 1).val + 1; omega
  · intro h a
    have h' : (j 0).val / 128 = 2 * (L 1).val + 1 := h
    match a with
    | 0 => simp only [Matrix.cons_val_zero, S128]; omega

abbrev c2cell (d : Dev nD) (c : Fin τ.nSC) (i : Fin τ.nSub) : GSem nD τ sig := (V d c i, .dma cc4_scratch2.sem)
abbrev c3cell (d : Dev nD) (c : Fin τ.nSC) (i : Fin τ.nSub) : GSem nD τ sig := (V d c i, .dma cc4_scratch3.sem)
abbrev cAcell (d : Dev nD) (c : Fin τ.nSC) (i : Fin τ.nSub) : GSem nD τ sig := (V d c i, .dma cc4_scoped0.sem)
abbrev cBcell (d : Dev nD) (c : Fin τ.nSC) (i : Fin τ.nSub) : GSem nD τ sig := (V d c i, .dma cc4_scoped1.sem)
abbrev cCcell (d : Dev nD) (c : Fin τ.nSC) (i : Fin τ.nSub) : GSem nD τ sig := (V d c i, .dma cc4_scoped2.sem)

omit [FloatOps F] in
/-- The task's five semaphores are among the subcore's own: they, at zero, and the rest. -/
theorem ownSems0_V :
    (ownSems0 (V d (cV L) (jV L)) : sProp 𝕄)
      = iprop(semVal (c2cell d (cV L) (jV L)) 0 ∗ semVal (c3cell d (cV L) (jV L)) 0 ∗ semVal (cAcell d (cV L) (jV L)) 0
          ∗ semVal (cBcell d (cV L) (jV L)) 0 ∗ semVal (cCcell d (cV L) (jV L)) 0
          ∗ bigSep ((((((ownCells (V d (cV L) (jV L))).erase (c2cell d (cV L) (jV L))).erase (c3cell d (cV L) (jV L))).erase (cAcell d (cV L) (jV L))).erase
              (cBcell d (cV L) (jV L))).erase (cCcell d (cV L) (jV L))) fun g => semVal g 0) := by
  unfold SparseCore.Cfg.ownSems0
  have m2 : c2cell d (cV L) (jV L) ∈ ownCells (V d (cV L) (jV L)) := mem_ownCells.mpr ⟨rfl, by
    show (SemLoc.dma cc4_scratch2.sem : SemLoc sig).isScoped .scVector = true; decide⟩
  have m3 : c3cell d (cV L) (jV L) ∈ ownCells (V d (cV L) (jV L)) := mem_ownCells.mpr ⟨rfl, by
    show (SemLoc.dma cc4_scratch3.sem : SemLoc sig).isScoped .scVector = true; decide⟩
  have mA : cAcell d (cV L) (jV L) ∈ ownCells (V d (cV L) (jV L)) := mem_ownCells.mpr ⟨rfl, by
    show (SemLoc.dma cc4_scoped0.sem : SemLoc sig).isScoped .scVector = true; decide⟩
  have mB : cBcell d (cV L) (jV L) ∈ ownCells (V d (cV L) (jV L)) := mem_ownCells.mpr ⟨rfl, by
    show (SemLoc.dma cc4_scoped1.sem : SemLoc sig).isScoped .scVector = true; decide⟩
  have mC : cCcell d (cV L) (jV L) ∈ ownCells (V d (cV L) (jV L)) := mem_ownCells.mpr ⟨rfl, by
    show (SemLoc.dma cc4_scoped2.sem : SemLoc sig).isScoped .scVector = true; decide⟩
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  rw [SparseCore.bigSep_erase' m2,
    SparseCore.bigSep_erase' (Finset.mem_erase.mpr ⟨ne (by decide), m3⟩),
    SparseCore.bigSep_erase' (Finset.mem_erase.mpr ⟨ne (by decide), Finset.mem_erase.mpr ⟨ne (by decide), mA⟩⟩),
    SparseCore.bigSep_erase' (Finset.mem_erase.mpr ⟨ne (by decide), Finset.mem_erase.mpr ⟨ne (by decide), Finset.mem_erase.mpr ⟨ne (by decide), mB⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mC⟩⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc4_scratch0 ↦{fullShare} f) ∗ (∃ f, (V d (cV L) (jV L)).loc cc4_scratch1 ↦{fullShare} f)
          ∗ bigSep (((ownRefs (τ := τ) (.scVector (cV L) (jV L))).erase ((Proc.scVector (cV L) (jV L)).devRef cc4_scratch0)).erase
              ((Proc.scVector (cV L) (jV L)).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV L) (jV L)) (b := (Proc.scVector (cV L) (jV L)).devRef cc4_scratch1) rfl⟩)]

omit [FloatOps F] in
theorem pts_outAK (f : Buf (Elt F) (oLoc d)) :
    ((outAK L).view.loc (V d (cV L) (jV L)) ↦[(outAK L).view.set]{fullShare} f : sProp 𝕄) = oLoc d ↦[oSet d (2 * (jL L).val)]{fullShare} f := by
  rw [set_outAK d L]
omit [FloatOps F] in
theorem pts_outBK (f : Buf (Elt F) (oLoc d)) :
    ((outBK L).view.loc (V d (cV L) (jV L)) ↦[(outBK L).view.set]{fullShare} f : sProp 𝕄) = oLoc d ↦[oSet d (2 * (jL L).val + 1)]{fullShare} f := by
  rw [set_outBK d L]

/-- The task's 256 indices, as the task addresses them. -/
abbrev idxK (L : grid4.Coords) : Memref sig .scVector .hbm S256 .i32 := (iV).slice (Rect.unit (s := S4096) (k4_off1 L) S256.size (k4_off1_inb L)) (fun _ => rfl)

set_option maxHeartbeats 4000000 in
/-- The task on vector subcore `(L 0, L 1)`: the index fetch and its wait, the two gathers, each gather's wait followed by the
    copy of its half to the result and that copy's wait. Every index is in range of the state (`hidx`). -/
theorem tile_body (hF : (K (F := F)).Facts) (fi : Buf (Elt F) (iLoc d)) (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskRes d fi (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_sc_gather L xV (Memref.isWhole_whole _) iV (Memref.isWhole_whole _) oV (Memref.isWhole_whole _)
            sV (Memref.isWhole_whole _) rV (Memref.isWhole_whole _) cc4_scratch2 cc4_scratch3 cc4_scoped0 cc4_scoped1 cc4_scoped2)
          fun _ => iprop(taskRes d fi (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hi, ⟨%fx, Hx⟩, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc4_scratch0 ↦{fullShare} fs : sProp 𝕄) = ((sV).view.loc (V d (cV L) (jV L)) ↦{fullShare} fs) from rfl)) $$ Hs
  ihave Hr := (Entails.of_eq (show ((V d (cV L) (jV L)).loc cc4_scratch1 ↦{fullShare} fr : sProp 𝕄) = ((rV).view.loc (V d (cV L) (jV L)) ↦{fullShare} fr) from rfl)) $$ Hr
  have hin0 : ∀ (g : Buf (Elt F) ((V d (cV L) (jV L)).loc cc4_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc4_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  isplitl [Hi Hx HoA HoB]
  · isplitl [Hi]; · iexact Hi
    isplitl [Hx]; · iexists fx; iexact Hx
    isplitl [HoA]
    · iexists _; iapply (Entails.of_eq (pts_outAK (F := F) d L _)); iexact HoA
    · iexists _; iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and gathered back -/

/-- The call's operands, whole: the indices at their launch contents, the state and the result at whatever they hold. -/
def callRes (d : Dev nD) (fi : Buf (Elt F) (iLoc d)) : sProp 𝕄 :=
  iprop((iLoc d ↦{fullShare} fi) ∗ (∃ f, xLoc d ↦{fullShare} f) ∗ ∃ g, oLoc d ↦{fullShare} g)

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
/-- The result's 32 pieces of 128 are the tasks' pairs of pieces. -/
theorem out_pieces (d : Dev nD) :
    (bigSep Finset.univ fun w : Fin 32 => iprop(∃ g, oLoc d ↦[oSet d w.val]{fullShare} g) : sProp 𝕄)
      = bigSep Finset.univ fun i : Fin 16 =>
          iprop((∃ g, oLoc d ↦[oSet d (2 * i.val)]{fullShare} g) ∗ ∃ g, oLoc d ↦[oSet d (2 * i.val + 1)]{fullShare} g) := by
  refine (LibTiles.bigSep_tiles 16 2 (fun w => (iprop(∃ g, oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
/-- A read token at known contents is one at some contents. -/
theorem toks_some {ℓ : Loc nD τ sig} (f : Buf (Elt F) ℓ) :
    (bigSep Finset.univ fun i : Fin 16 => (ℓ ↦{tok i} f : sProp 𝕄)) ⊢ bigSep Finset.univ fun i : Fin 16 => iprop(∃ g, ℓ ↦{tok i} g) :=
  bigSep_mono fun i _ => by
    show (ℓ ↦{tok i} f : sProp 𝕄) ⊢ iprop(∃ g, ℓ ↦{tok i} g)
    iintro H; iexists f; iexact H

omit [FloatOps F] in
theorem deal [∀ e, Nonempty (Elt F e)] (d : Dev nD) (fi : Buf (Elt F) (iLoc d)) :
    callRes d fi ⊢ |={Set.univ}=> iprop((bigSep Finset.univ fun i : Fin 16 => taskRes d fi i)
      ∗ ((bigSep Finset.univ fun i : Fin 16 => taskRes d fi i) -∗ callRes d fi)) := by
  unfold callRes taskRes
  rw [bigSep_sep', bigSep_sep', ← out_pieces d]
  iintro ⟨Hi, ⟨%fx, Hx⟩, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iapply (toks_some (F := F) fx); iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iexists fx; iapply (LibReadShares.toks_rejoin (ℓ := xLoc d) fullShare 16 fx); isplitl [Hxd] <;> iassumption
  · iapply (LibTiles.pts_join (ℓ := oLoc d) (fun j : S4096.Idx => (j 0).val) 128 32 (by decide) (fun j => (j 0).isLt) fullShare g); iexact Ho

end Cert.Proof.KB.Call4

end
-- ==== Proof.KbCall6.lean ====
/-
  One vector subcore's task of a gather call. The sixteen tasks of the call each take 256 consecutive entries of the
  index vector, fetch them into their index scratch, gather the entries of the 16384-slot state those indices name into
  their value scratch — two streams of 128 entries, each on a semaphore of its own, the second started before the first is
  waited for — and copy the two halves out to their 256 consecutive entries of the result. A task only reads the index
  vector and the state, so it holds a share of each, whole; it holds its two 128-entry pieces of the result outright.
  The indices are in range of the state: an index out of range would leave a stream unanswered.
-/
import proofs.«208418_g89945205112833_cont_sun_c4_809_35_alg».proof.Kernel
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208418_g89945205112833_cont_sun_c4_809_35_alg».proof.Proof.Gen.Kernel
import proofs.«208418_g89945205112833_cont_sun_c4_809_35_alg».proof.Proof.Gen.Kernel.Skeleton
import proofs.«208418_g89945205112833_cont_sun_c4_809_35_alg».proof.Proof.LibTiles
import proofs.«208418_g89945205112833_cont_sun_c4_809_35_alg».proof.Proof.LibReadShares

noncomputable section

namespace Cert.Proof.KB.Call6

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof

variable {F : FTy → Type}

abbrev ΛP : Labels := Pipeline.Sig Λ₀ (Fin 4) fun p => (pcfgs (F := F) p).Adm
abbrev K : SparseCore.Cfg τ sig (ΛP (F := F)) 4 := sc (F := F)
abbrev 𝒱₀ : Variants := Variants.none

/-- The certificate's ghost state: the launch handshakes' rounds, the pipelines' staging cells' rounds, the transfers' counters. -/
abbrev UH : Type := URounds (GSem nD τ sig) ℕ
abbrev UPp : Type := URounds (GSem nD τ sig) Unit
abbrev UU : Type := UH × (UPp × Counters)

local notation "𝕄" => MT nD τ sig (HIx 4) (Elt F) ℕ UU ℕ

local notation "xV" => (Memref.whole Cert.Kernel.main_v18_scv : Memref Cert.Kernel.sig Kind.scVector Space.hbm Cert.Kernel.S16384 EltTy.f32)
local notation "iV" => (Memref.whole Cert.Kernel.main_arg4_scv : Memref Cert.Kernel.sig Kind.scVector Space.hbm Cert.Kernel.S4096 EltTy.i32)
local notation "oV" => (Memref.whole Cert.Kernel.main_v19_scv : Memref Cert.Kernel.sig Kind.scVector Space.hbm Cert.Kernel.S4096 EltTy.f32)
local notation "sV" => (Memref.whole Cert.Kernel.cc6_scratch0 : Memref Cert.Kernel.sig Kind.scVector Space.vmem Cert.Kernel.S256 EltTy.i32)
local notation "rV" => (Memref.whole Cert.Kernel.cc6_scratch1 : Memref Cert.Kernel.sig Kind.scVector Space.vmem Cert.Kernel.S256 EltTy.f32)

/-- The call's three arrays, as the TensorCore names them. -/
abbrev iLoc (d : Dev nD) : Loc nD τ sig := (SparseCore.T d).loc main_arg4
abbrev xLoc (d : Dev nD) : Loc nD τ sig := (SparseCore.T d).loc main_v18
abbrev oLoc (d : Dev nD) : Loc nD τ sig := (SparseCore.T d).loc main_v19

/-- Read token `i` of sixteen of a whole array. -/
abbrev tok (i : Fin 16) : PosShare TreeShare := Transfers.shareTok fullShare 16 i

/-- The result's entries whose position falls in the `w`-th piece of 128. -/
abbrev oSet (d : Dev nD) (w : ℕ) : Finset (Idx (oLoc d)) := LibTiles.blk (ℓ := oLoc d) (fun j : S4096.Idx => (j 0).val) 128 w

variable [FloatOps F]

/-- What task `i` is handed and hands back: a read token of the indices at their launch contents, a read token of the state
    at whatever it holds, its two pieces of the result at whatever they hold. -/
def taskRes (d : Dev nD) (fi : Buf (Elt F) (iLoc d)) (i : Fin 16) : sProp 𝕄 :=
  iprop((iLoc d ↦{tok i} fi) ∗ (∃ f, xLoc d ↦{tok i} f)
    ∗ (∃ g, oLoc d ↦[oSet d (2 * i.val)]{fullShare} g) ∗ ∃ g, oLoc d ↦[oSet d (2 * i.val + 1)]{fullShare} g)

section Tile

variable (d : Dev nD) (L : grid6.Coords)

abbrev cV (L : grid6.Coords) : Fin τ.nSC := (L 0).castLE hcore6
abbrev jV (L : grid6.Coords) : Fin τ.nSub := (L 1).castLE hsub6
omit [FloatOps F] in
theorem bound_one : grid6.bound 1 = 16 := rfl
abbrev jL (L : grid6.Coords) : Fin 16 := Fin.cast bound_one (L 1)

/-- The task's two pieces of the result, as the task addresses them. -/
abbrev outAK (L : grid6.Coords) : Memref sig .scVector .hbm S128 .f32 := (oV).slice (Rect.unit (s := S4096) (k6_off2 L) S128.size (k6_off2_inb L)) (fun _ => rfl)
abbrev outBK (L : grid6.Coords) : Memref sig .scVector .hbm S128 .f32 := (oV).slice (Rect.unit (s := S4096) (k6_off3 L) S128.size (k6_off3_inb L)) (fun _ => rfl)

omit [FloatOps F] in
/-- A task's coordinate on the SparseCore axis is 0: the call runs on one SparseCore. -/
theorem L0_zero : (L 0).val = 0 := by have h : (L 0).val < 1 := (L 0).isLt; omega

omit [FloatOps F] in
theorem set_outAK : (outAK L).view.set = oSet d (2 * (jL L).val) := by
  show ((View.whole (main_v19_scv : Ref sig .scVector)).slice _).set = _
  rw [View.set_slice_whole]
  ext j
  rw [Rect.mem_set_unit]
  show _ ↔ j ∈ Finset.univ.filter (fun j : S4096.Idx => (j 0).val / 128 = 2 * (jL L).val)
  rw [Finset.mem_filter]
  simp only [Finset.mem_univ, true_and, k6_off2_eq]
  have h0 := L0_zero L
  constructor
  · intro h; have := h 0; simp only [Matrix.cons_val_zero, S128] at this
    show (j 0).val / 128 = 2 * (L 1).val; omega
  · intro h a
    have h' : (j 0).val / 128 = 2 * (L 1).val := h
    match a with
    | 0 => simp only [Matrix.cons_val_zero, S128]; omega

omit [FloatOps F] in
theorem set_outBK : (outBK L).view.set = oSet d (2 * (jL L).val + 1) := by
  show ((View.whole (main_v19_scv : Ref sig .scVector)).slice _).set = _
  rw [View.set_slice_whole]
  ext j
  rw [Rect.mem_set_unit]
  show _ ↔ j ∈ Finset.univ.filter (fun j : S4096.Idx => (j 0).val / 128 = 2 * (jL L).val + 1)
  rw [Finset.mem_filter]
  simp only [Finset.mem_univ, true_and, k6_off3_eq]
  have h0 := L0_zero L
  constructor
  · intro h; have := h 0; simp only [Matrix.cons_val_zero, S128] at this
    show (j 0).val / 128 = 2 * (L 1).val + 1; omega
  · intro h a
    have h' : (j 0).val / 128 = 2 * (L 1).val + 1 := h
    match a with
    | 0 => simp only [Matrix.cons_val_zero, S128]; omega

abbrev c2cell (d : Dev nD) (c : Fin τ.nSC) (i : Fin τ.nSub) : GSem nD τ sig := (V d c i, .dma cc6_scratch2.sem)
abbrev c3cell (d : Dev nD) (c : Fin τ.nSC) (i : Fin τ.nSub) : GSem nD τ sig := (V d c i, .dma cc6_scratch3.sem)
abbrev cAcell (d : Dev nD) (c : Fin τ.nSC) (i : Fin τ.nSub) : GSem nD τ sig := (V d c i, .dma cc6_scoped0.sem)
abbrev cBcell (d : Dev nD) (c : Fin τ.nSC) (i : Fin τ.nSub) : GSem nD τ sig := (V d c i, .dma cc6_scoped1.sem)
abbrev cCcell (d : Dev nD) (c : Fin τ.nSC) (i : Fin τ.nSub) : GSem nD τ sig := (V d c i, .dma cc6_scoped2.sem)

omit [FloatOps F] in
/-- The task's five semaphores are among the subcore's own: they, at zero, and the rest. -/
theorem ownSems0_V :
    (ownSems0 (V d (cV L) (jV L)) : sProp 𝕄)
      = iprop(semVal (c2cell d (cV L) (jV L)) 0 ∗ semVal (c3cell d (cV L) (jV L)) 0 ∗ semVal (cAcell d (cV L) (jV L)) 0
          ∗ semVal (cBcell d (cV L) (jV L)) 0 ∗ semVal (cCcell d (cV L) (jV L)) 0
          ∗ bigSep ((((((ownCells (V d (cV L) (jV L))).erase (c2cell d (cV L) (jV L))).erase (c3cell d (cV L) (jV L))).erase (cAcell d (cV L) (jV L))).erase
              (cBcell d (cV L) (jV L))).erase (cCcell d (cV L) (jV L))) fun g => semVal g 0) := by
  unfold SparseCore.Cfg.ownSems0
  have m2 : c2cell d (cV L) (jV L) ∈ ownCells (V d (cV L) (jV L)) := mem_ownCells.mpr ⟨rfl, by
    show (SemLoc.dma cc6_scratch2.sem : SemLoc sig).isScoped .scVector = true; decide⟩
  have m3 : c3cell d (cV L) (jV L) ∈ ownCells (V d (cV L) (jV L)) := mem_ownCells.mpr ⟨rfl, by
    show (SemLoc.dma cc6_scratch3.sem : SemLoc sig).isScoped .scVector = true; decide⟩
  have mA : cAcell d (cV L) (jV L) ∈ ownCells (V d (cV L) (jV L)) := mem_ownCells.mpr ⟨rfl, by
    show (SemLoc.dma cc6_scoped0.sem : SemLoc sig).isScoped .scVector = true; decide⟩
  have mB : cBcell d (cV L) (jV L) ∈ ownCells (V d (cV L) (jV L)) := mem_ownCells.mpr ⟨rfl, by
    show (SemLoc.dma cc6_scoped1.sem : SemLoc sig).isScoped .scVector = true; decide⟩
  have mC : cCcell d (cV L) (jV L) ∈ ownCells (V d (cV L) (jV L)) := mem_ownCells.mpr ⟨rfl, by
    show (SemLoc.dma cc6_scoped2.sem : SemLoc sig).isScoped .scVector = true; decide⟩
  have ne : ∀ {a b : DmaSem sig}, a ≠ b → ((V d (cV L) (jV L), SemLoc.dma a) : GSem nD τ sig) ≠ (V d (cV L) (jV L), SemLoc.dma b) :=
    fun h e => h (SemLoc.dma.inj (Prod.mk.inj e).2)
  rw [SparseCore.bigSep_erase' m2,
    SparseCore.bigSep_erase' (Finset.mem_erase.mpr ⟨ne (by decide), m3⟩),
    SparseCore.bigSep_erase' (Finset.mem_erase.mpr ⟨ne (by decide), Finset.mem_erase.mpr ⟨ne (by decide), mA⟩⟩),
    SparseCore.bigSep_erase' (Finset.mem_erase.mpr ⟨ne (by decide), Finset.mem_erase.mpr ⟨ne (by decide), Finset.mem_erase.mpr ⟨ne (by decide), mB⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mC⟩⟩⟩⟩)]

omit [FloatOps F] in
/-- The two scratch buffers are among the subcore's own: they, at some contents, and the rest. -/
theorem ownBufs_V :
    (ownBufs (V d (cV L) (jV L)) : sProp 𝕄)
      = iprop((∃ f, (V d (cV L) (jV L)).loc cc6_scratch0 ↦{fullShare} f) ∗ (∃ f, (V d (cV L) (jV L)).loc cc6_scratch1 ↦{fullShare} f)
          ∗ bigSep (((ownRefs (τ := τ) (.scVector (cV L) (jV L))).erase ((Proc.scVector (cV L) (jV L)).devRef cc6_scratch0)).erase
              ((Proc.scVector (cV L) (jV L)).devRef cc6_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc6_scratch0) rfl)).trans ?_
  rw [SparseCore.bigSep_erase' (Finset.mem_erase.mpr ⟨fun e => absurd (Proc.devRef_injective _ e) (show (cc6_scratch1 : Ref sig .scVector) ≠ cc6_scratch0 by decide),
    SparseCore.Cfg.mem_ownRefs_of_owner (p := Proc.scVector (cV L) (jV L)) (b := (Proc.scVector (cV L) (jV L)).devRef cc6_scratch1) rfl⟩)]

omit [FloatOps F] in
theorem pts_outAK (f : Buf (Elt F) (oLoc d)) :
    ((outAK L).view.loc (V d (cV L) (jV L)) ↦[(outAK L).view.set]{fullShare} f : sProp 𝕄) = oLoc d ↦[oSet d (2 * (jL L).val)]{fullShare} f := by
  rw [set_outAK d L]
omit [FloatOps F] in
theorem pts_outBK (f : Buf (Elt F) (oLoc d)) :
    ((outBK L).view.loc (V d (cV L) (jV L)) ↦[(outBK L).view.set]{fullShare} f : sProp 𝕄) = oLoc d ↦[oSet d (2 * (jL L).val + 1)]{fullShare} f := by
  rw [set_outBK d L]

/-- The task's 256 indices, as the task addresses them. -/
abbrev idxK (L : grid6.Coords) : Memref sig .scVector .hbm S256 .i32 := (iV).slice (Rect.unit (s := S4096) (k6_off1 L) S256.size (k6_off1_inb L)) (fun _ => rfl)

set_option maxHeartbeats 4000000 in
/-- The task on vector subcore `(L 0, L 1)`: the index fetch and its wait, the two gathers, each gather's wait followed by the
    copy of its half to the result and that copy's wait. Every index is in range of the state (`hidx`). -/
theorem tile_body (hF : (K (F := F)).Facts) (fi : Buf (Elt F) (iLoc d)) (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskRes d fi (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6_sc_gather L xV (Memref.isWhole_whole _) iV (Memref.isWhole_whole _) oV (Memref.isWhole_whole _)
            sV (Memref.isWhole_whole _) rV (Memref.isWhole_whole _) cc6_scratch2 cc6_scratch3 cc6_scoped0 cc6_scoped1 cc6_scoped2)
          fun _ => iprop(taskRes d fi (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskRes
  iintro ⟨#Hlv, -, ⟨Hi, ⟨%fx, Hx⟩, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc6_scratch0 ↦{fullShare} fs : sProp 𝕄) = ((sV).view.loc (V d (cV L) (jV L)) ↦{fullShare} fs) from rfl)) $$ Hs
  ihave Hr := (Entails.of_eq (show ((V d (cV L) (jV L)).loc cc6_scratch1 ↦{fullShare} fr : sProp 𝕄) = ((rV).view.loc (V d (cV L) (jV L)) ↦{fullShare} fr) from rfl)) $$ Hr
  have hin0 : ∀ (g : Buf (Elt F) ((V d (cV L) (jV L)).loc cc6_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc6_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  isplitl [Hi Hx HoA HoB]
  · isplitl [Hi]; · iexact Hi
    isplitl [Hx]; · iexists fx; iexact Hx
    isplitl [HoA]
    · iexists _; iapply (Entails.of_eq (pts_outAK (F := F) d L _)); iexact HoA
    · iexists _; iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and gathered back -/

/-- The call's operands, whole: the indices at their launch contents, the state and the result at whatever they hold. -/
def callRes (d : Dev nD) (fi : Buf (Elt F) (iLoc d)) : sProp 𝕄 :=
  iprop((iLoc d ↦{fullShare} fi) ∗ (∃ f, xLoc d ↦{fullShare} f) ∗ ∃ g, oLoc d ↦{fullShare} g)

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
/-- The result's 32 pieces of 128 are the tasks' pairs of pieces. -/
theorem out_pieces (d : Dev nD) :
    (bigSep Finset.univ fun w : Fin 32 => iprop(∃ g, oLoc d ↦[oSet d w.val]{fullShare} g) : sProp 𝕄)
      = bigSep Finset.univ fun i : Fin 16 =>
          iprop((∃ g, oLoc d ↦[oSet d (2 * i.val)]{fullShare} g) ∗ ∃ g, oLoc d ↦[oSet d (2 * i.val + 1)]{fullShare} g) := by
  refine (LibTiles.bigSep_tiles 16 2 (fun w => (iprop(∃ g, oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
/-- A read token at known contents is one at some contents. -/
theorem toks_some {ℓ : Loc nD τ sig} (f : Buf (Elt F) ℓ) :
    (bigSep Finset.univ fun i : Fin 16 => (ℓ ↦{tok i} f : sProp 𝕄)) ⊢ bigSep Finset.univ fun i : Fin 16 => iprop(∃ g, ℓ ↦{tok i} g) :=
  bigSep_mono fun i _ => by
    show (ℓ ↦{tok i} f : sProp 𝕄) ⊢ iprop(∃ g, ℓ ↦{tok i} g)
    iintro H; iexists f; iexact H

omit [FloatOps F] in
theorem deal [∀ e, Nonempty (Elt F e)] (d : Dev nD) (fi : Buf (Elt F) (iLoc d)) :
    callRes d fi ⊢ |={Set.univ}=> iprop((bigSep Finset.univ fun i : Fin 16 => taskRes d fi i)
      ∗ ((bigSep Finset.univ fun i : Fin 16 => taskRes d fi i) -∗ callRes d fi)) := by
  unfold callRes taskRes
  rw [bigSep_sep', bigSep_sep', ← out_pieces d]
  iintro ⟨Hi, ⟨%fx, Hx⟩, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iapply (toks_some (F := F) fx); iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iexists fx; iapply (LibReadShares.toks_rejoin (ℓ := xLoc d) fullShare 16 fx); isplitl [Hxd] <;> iassumption
  · iapply (LibTiles.pts_join (ℓ := oLoc d) (fun j : S4096.Idx => (j 0).val) 128 32 (by decide) (fun j => (j 0).isLt) fullShare g); iexact Ho

end Cert.Proof.KB.Call6

end
-- ==== Proof.KbPay.lean ====
/-
  The four gather calls together: what the launch handshakes carry for each (the call's operands to the SparseCore, each
  task's share of them to its vector subcore, and the same back), each call's task as the launch theorem asks for it, and
  how a call's operands are dealt to its sixteen tasks and gathered again.
-/
import proofs.«208418_g89945205112833_cont_sun_c4_809_35_alg».proof.Proof.KbCall0
import proofs.«208418_g89945205112833_cont_sun_c4_809_35_alg».proof.Proof.KbCall2
import proofs.«208418_g89945205112833_cont_sun_c4_809_35_alg».proof.Proof.KbCall4
import proofs.«208418_g89945205112833_cont_sun_c4_809_35_alg».proof.Proof.KbCall6

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := Call0.UH
abbrev UPp : Type := Call0.UPp
abbrev UU : Type := Call0.UU

local notation "𝕄" => MT nD τ sig (HIx 4) (Elt F) ℕ UU ℕ

abbrev EH : Emb UH (MT nD τ sig (HIx 4) (Elt F) ℕ UU ℕ) := embL

/-- The pipelines' staging cells' rounds sit in the middle component of the ghost state. -/
abbrev EP : Emb UPp (MT nD τ sig (HIx 4) (Elt F) ℕ UU ℕ) :=
  (Emb.inl : Emb UPp (UPp × Counters)).trans (embR : Emb (UPp × Counters) (MT nD τ sig (HIx 4) (Elt F) ℕ UU ℕ))

instance EP_landsIn : (EP (F := F)).LandsIn (upEmb : UEmb _ (MT nD τ sig (HIx 4) (Elt F) ℕ UU ℕ)) := by
  unfold EP embR; infer_instance

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nSub0 : (K (F := F)).nSub 0 = 16 := rfl
theorem nSub1 : (K (F := F)).nSub 1 = 16 := rfl
theorem nSub2 : (K (F := F)).nSub 2 = 16 := rfl
theorem nSub3 : (K (F := F)).nSub 3 = 16 := rfl

variable (m : (ℓ : Loc nD τ sig) → Buf (Elt F) ℓ) (ρ : Dev nD → PrngReg)

variable [FloatOps F]

/-- What the handshakes carry: call `q` takes its operands whole and brings them back; each of its tasks its share. -/
def P : (K (F := F)).Pay (nD := nD) (Val := Elt F) (Name := ℕ) (U := UU) where
  st := fun q d _ => match q with
    | 0 => Call0.callRes d (m (Call0.iLoc d)) | 1 => Call2.callRes d (m (Call2.iLoc d))
    | 2 => Call4.callRes d (m (Call4.iLoc d)) | 3 => Call6.callRes d (m (Call6.iLoc d))
  dn := fun q d _ => match q with
    | 0 => Call0.callRes d (m (Call0.iLoc d)) | 1 => Call2.callRes d (m (Call2.iLoc d))
    | 2 => Call4.callRes d (m (Call4.iLoc d)) | 3 => Call6.callRes d (m (Call6.iLoc d))
  go := fun q d _ i => match q with
    | 0 => Call0.taskRes d (m (Call0.iLoc d)) (Fin.cast nSub0 i) | 1 => Call2.taskRes d (m (Call2.iLoc d)) (Fin.cast nSub1 i)
    | 2 => Call4.taskRes d (m (Call4.iLoc d)) (Fin.cast nSub2 i) | 3 => Call6.taskRes d (m (Call6.iLoc d)) (Fin.cast nSub3 i)
  td := fun q d _ i => match q with
    | 0 => Call0.taskRes d (m (Call0.iLoc d)) (Fin.cast nSub0 i) | 1 => Call2.taskRes d (m (Call2.iLoc d)) (Fin.cast nSub1 i)
    | 2 => Call4.taskRes d (m (Call4.iLoc d)) (Fin.cast nSub2 i) | 3 => Call6.taskRes d (m (Call6.iLoc d)) (Fin.cast nSub3 i)
  x := fun _ _ => iprop(emp)

set_option maxHeartbeats 4000000 in
instance P_storable : (P (F := F) m).IsStorable where
  st q d _ := match q with
    | 0 => (by unfold Call0.callRes; infer_instance : BI.Storable (upEmb : UEmb _ 𝕄) (Call0.callRes d (m (Call0.iLoc d))))
    | 1 => (by unfold Call2.callRes; infer_instance : BI.Storable (upEmb : UEmb _ 𝕄) (Call2.callRes d (m (Call2.iLoc d))))
    | 2 => (by unfold Call4.callRes; infer_instance : BI.Storable (upEmb : UEmb _ 𝕄) (Call4.callRes d (m (Call4.iLoc d))))
    | 3 => (by unfold Call6.callRes; infer_instance : BI.Storable (upEmb : UEmb _ 𝕄) (Call6.callRes d (m (Call6.iLoc d))))
  dn q d _ := match q with
    | 0 => (by unfold Call0.callRes; infer_instance : BI.Storable (upEmb : UEmb _ 𝕄) (Call0.callRes d (m (Call0.iLoc d))))
    | 1 => (by unfold Call2.callRes; infer_instance : BI.Storable (upEmb : UEmb _ 𝕄) (Call2.callRes d (m (Call2.iLoc d))))
    | 2 => (by unfold Call4.callRes; infer_instance : BI.Storable (upEmb : UEmb _ 𝕄) (Call4.callRes d (m (Call4.iLoc d))))
    | 3 => (by unfold Call6.callRes; infer_instance : BI.Storable (upEmb : UEmb _ 𝕄) (Call6.callRes d (m (Call6.iLoc d))))
  go q d _ i := match q with
    | 0 => (by unfold Call0.taskRes; infer_instance : BI.Storable (upEmb : UEmb _ 𝕄) (Call0.taskRes d (m (Call0.iLoc d)) (Fin.cast nSub0 i)))
    | 1 => (by unfold Call2.taskRes; infer_instance : BI.Storable (upEmb : UEmb _ 𝕄) (Call2.taskRes d (m (Call2.iLoc d)) (Fin.cast nSub1 i)))
    | 2 => (by unfold Call4.taskRes; infer_instance : BI.Storable (upEmb : UEmb _ 𝕄) (Call4.taskRes d (m (Call4.iLoc d)) (Fin.cast nSub2 i)))
    | 3 => (by unfold Call6.taskRes; infer_instance : BI.Storable (upEmb : UEmb _ 𝕄) (Call6.taskRes d (m (Call6.iLoc d)) (Fin.cast nSub3 i)))
  td q d _ i := match q with
    | 0 => (by unfold Call0.taskRes; infer_instance : BI.Storable (upEmb : UEmb _ 𝕄) (Call0.taskRes d (m (Call0.iLoc d)) (Fin.cast nSub0 i)))
    | 1 => (by unfold Call2.taskRes; infer_instance : BI.Storable (upEmb : UEmb _ 𝕄) (Call2.taskRes d (m (Call2.iLoc d)) (Fin.cast nSub1 i)))
    | 2 => (by unfold Call4.taskRes; infer_instance : BI.Storable (upEmb : UEmb _ 𝕄) (Call4.taskRes d (m (Call4.iLoc d)) (Fin.cast nSub2 i)))
    | 3 => (by unfold Call6.taskRes; infer_instance : BI.Storable (upEmb : UEmb _ 𝕄) (Call6.taskRes d (m (Call6.iLoc d)) (Fin.cast nSub3 i)))

/-- What the proof asks of the launch memory: every word of the four index vectors names a slot of the state. -/
def PreOK : Prop := ∀ d : Dev nD,
  (∀ j, (m (Call0.iLoc d) j).toNat < S16384.size gathers_S16384_S128.axis) ∧ (∀ j, (m (Call2.iLoc d) j).toNat < S16384.size gathers_S16384_S128.axis)
  ∧ (∀ j, (m (Call4.iLoc d) j).toNat < S16384.size gathers_S16384_S128.axis) ∧ (∀ j, (m (Call6.iLoc d) j).toNat < S16384.size gathers_S16384_S128.axis)

omit [FloatOps F] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ### Call 0 -/

def coordsV0 (c : Fin (grid0.bound 0)) (s : Fin (grid0.bound 1)) : grid0.Coords :=
  fun | 0 => c | 1 => s | ⟨_ + 2, h⟩ => absurd h (Nat.not_lt.2 (Nat.le_add_left _ _))

theorem defs₀_vector0 (c : Fin τ.nSC) (s : Fin τ.nSub) :
    defs₀ (F := F) (.scVector c s) 0 ()
      = SparseCore.onTile hcore0 hsub0 (fun c s => cc0_sc_gather (coordsV0 c s)
          (Memref.whole main_v3_scv) (Memref.isWhole_whole _) (Memref.whole main_arg1_scv) (Memref.isWhole_whole _)
          (Memref.whole main_v4_scv) (Memref.isWhole_whole _)
          (Memref.whole cc0_scratch0) (Memref.isWhole_whole _) (Memref.whole cc0_scratch1) (Memref.isWhole_whole _)
          cc0_scratch2 cc0_scratch3 cc0_scoped0 cc0_scoped1 cc0_scoped2) ⟨⟩ c s := rfl

set_option maxHeartbeats 4000000 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (Call0.tile_body d (coordsV0 ⟨_, hc.1⟩ ⟨_, hc.2⟩) hF (m (Call0.iLoc d)) (hpre d).1 O W hO).trans (wp_mono frame _ _ fun _ => obl_post)

set_option maxHeartbeats 4000000 in
omit [FloatOps F] in
theorem bigSep_tasks0 (Φ : Fin 16 → sProp 𝕄) :
    (bigSep Finset.univ fun i : Fin ((K (F := F)).nSub 0) => Φ (Fin.cast nSub0 i)) = bigSep Finset.univ Φ :=
  bigSep_congr fun _ _ => congrArg Φ (Fin.ext rfl)

set_option maxHeartbeats 4000000 in
theorem vecSplit0 [∀ e, Nonempty (Elt F e)] : (K (F := F)).VecSplit' (P m) 0 := by
  intro d c
  show Call0.callRes d (m (Call0.iLoc d)) ⊢ |={Set.univ}=> iprop(
      (bigSep Finset.univ fun i : Fin ((K (F := F)).nSub 0) => Call0.taskRes d (m (Call0.iLoc d)) (Fin.cast nSub0 i))
      ∗ ((bigSep Finset.univ fun i : Fin ((K (F := F)).nSub 0) => Call0.taskRes d (m (Call0.iLoc d)) (Fin.cast nSub0 i))
          -∗ Call0.callRes d (m (Call0.iLoc d))))
  rw [bigSep_tasks0 (F := F) (fun i => Call0.taskRes d (m (Call0.iLoc d)) i)]
  exact Call0.deal d _

/-! ### Call 1 -/

def coordsV2 (c : Fin (grid2.bound 0)) (s : Fin (grid2.bound 1)) : grid2.Coords :=
  fun | 0 => c | 1 => s | ⟨_ + 2, h⟩ => absurd h (Nat.not_lt.2 (Nat.le_add_left _ _))

theorem defs₀_vector2 (c : Fin τ.nSC) (s : Fin τ.nSub) :
    defs₀ (F := F) (.scVector c s) 2 ()
      = SparseCore.onTile hcore2 hsub2 (fun c s => cc2_sc_gather (coordsV2 c s)
          (Memref.whole main_v8_scv) (Memref.isWhole_whole _) (Memref.whole main_arg2_scv) (Memref.isWhole_whole _)
          (Memref.whole main_v9_scv) (Memref.isWhole_whole _)
          (Memref.whole cc2_scratch0) (Memref.isWhole_whole _) (Memref.whole cc2_scratch1) (Memref.isWhole_whole _)
          cc2_scratch2 cc2_scratch3 cc2_scoped0 cc2_scoped1 cc2_scoped2) ⟨⟩ c s := rfl

set_option maxHeartbeats 4000000 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (Call2.tile_body d (coordsV2 ⟨_, hc.1⟩ ⟨_, hc.2⟩) hF (m (Call2.iLoc d)) (hpre d).2.1 O W hO).trans (wp_mono frame _ _ fun _ => obl_post)

set_option maxHeartbeats 4000000 in
omit [FloatOps F] in
theorem bigSep_tasks1 (Φ : Fin 16 → sProp 𝕄) :
    (bigSep Finset.univ fun i : Fin ((K (F := F)).nSub 1) => Φ (Fin.cast nSub1 i)) = bigSep Finset.univ Φ :=
  bigSep_congr fun _ _ => congrArg Φ (Fin.ext rfl)

set_option maxHeartbeats 4000000 in
theorem vecSplit1 [∀ e, Nonempty (Elt F e)] : (K (F := F)).VecSplit' (P m) 1 := by
  intro d c
  show Call2.callRes d (m (Call2.iLoc d)) ⊢ |={Set.univ}=> iprop(
      (bigSep Finset.univ fun i : Fin ((K (F := F)).nSub 1) => Call2.taskRes d (m (Call2.iLoc d)) (Fin.cast nSub1 i))
      ∗ ((bigSep Finset.univ fun i : Fin ((K (F := F)).nSub 1) => Call2.taskRes d (m (Call2.iLoc d)) (Fin.cast nSub1 i))
          -∗ Call2.callRes d (m (Call2.iLoc d))))
  rw [bigSep_tasks1 (F := F) (fun i => Call2.taskRes d (m (Call2.iLoc d)) i)]
  exact Call2.deal d _

/-! ### Call 2 -/

def coordsV4 (c : Fin (grid4.bound 0)) (s : Fin (grid4.bound 1)) : grid4.Coords :=
  fun | 0 => c | 1 => s | ⟨_ + 2, h⟩ => absurd h (Nat.not_lt.2 (Nat.le_add_left _ _))

theorem defs₀_vector4 (c : Fin τ.nSC) (s : Fin τ.nSub) :
    defs₀ (F := F) (.scVector c s) 4 ()
      = SparseCore.onTile hcore4 hsub4 (fun c s => cc4_sc_gather (coordsV4 c s)
          (Memref.whole main_v13_scv) (Memref.isWhole_whole _) (Memref.whole main_arg3_scv) (Memref.isWhole_whole _)
          (Memref.whole main_v14_scv) (Memref.isWhole_whole _)
          (Memref.whole cc4_scratch0) (Memref.isWhole_whole _) (Memref.whole cc4_scratch1) (Memref.isWhole_whole _)
          cc4_scratch2 cc4_scratch3 cc4_scoped0 cc4_scoped1 cc4_scoped2) ⟨⟩ c s := rfl

set_option maxHeartbeats 4000000 in
theorem tileObl2 (hF : (K (F := F)).Facts) (hpre : PreOK m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector4]; simp only [SparseCore.onTile, hc, and_self, ↓reduceDIte]
  exact (Call4.tile_body d (coordsV4 ⟨_, hc.1⟩ ⟨_, hc.2⟩) hF (m (Call4.iLoc d)) (hpre d).2.2.1 O W hO).trans (wp_mono frame _ _ fun _ => obl_post)

set_option maxHeartbeats 4000000 in
omit [FloatOps F] in
theorem bigSep_tasks2 (Φ : Fin 16 → sProp 𝕄) :
    (bigSep Finset.univ fun i : Fin ((K (F := F)).nSub 2) => Φ (Fin.cast nSub2 i)) = bigSep Finset.univ Φ :=
  bigSep_congr fun _ _ => congrArg Φ (Fin.ext rfl)

set_option maxHeartbeats 4000000 in
theorem vecSplit2 [∀ e, Nonempty (Elt F e)] : (K (F := F)).VecSplit' (P m) 2 := by
  intro d c
  show Call4.callRes d (m (Call4.iLoc d)) ⊢ |={Set.univ}=> iprop(
      (bigSep Finset.univ fun i : Fin ((K (F := F)).nSub 2) => Call4.taskRes d (m (Call4.iLoc d)) (Fin.cast nSub2 i))
      ∗ ((bigSep Finset.univ fun i : Fin ((K (F := F)).nSub 2) => Call4.taskRes d (m (Call4.iLoc d)) (Fin.cast nSub2 i))
          -∗ Call4.callRes d (m (Call4.iLoc d))))
  rw [bigSep_tasks2 (F := F) (fun i => Call4.taskRes d (m (Call4.iLoc d)) i)]
  exact Call4.deal d _

/-! ### Call 3 -/

def coordsV6 (c : Fin (grid6.bound 0)) (s : Fin (grid6.bound 1)) : grid6.Coords :=
  fun | 0 => c | 1 => s | ⟨_ + 2, h⟩ => absurd h (Nat.not_lt.2 (Nat.le_add_left _ _))

theorem defs₀_vector6 (c : Fin τ.nSC) (s : Fin τ.nSub) :
    defs₀ (F := F) (.scVector c s) 6 ()
      = SparseCore.onTile hcore6 hsub6 (fun c s => cc6_sc_gather (coordsV6 c s)
          (Memref.whole main_v18_scv) (Memref.isWhole_whole _) (Memref.whole main_arg4_scv) (Memref.isWhole_whole _)
          (Memref.whole main_v19_scv) (Memref.isWhole_whole _)
          (Memref.whole cc6_scratch0) (Memref.isWhole_whole _) (Memref.whole cc6_scratch1) (Memref.isWhole_whole _)
          cc6_scratch2 cc6_scratch3 cc6_scoped0 cc6_scoped1 cc6_scoped2) ⟨⟩ c s := rfl

set_option maxHeartbeats 4000000 in
theorem tileObl3 (hF : (K (F := F)).Facts) (hpre : PreOK m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vector6]; simp only [SparseCore.onTile, hc, and_self, ↓reduceDIte]
  exact (Call6.tile_body d (coordsV6 ⟨_, hc.1⟩ ⟨_, hc.2⟩) hF (m (Call6.iLoc d)) (hpre d).2.2.2 O W hO).trans (wp_mono frame _ _ fun _ => obl_post)

set_option maxHeartbeats 4000000 in
omit [FloatOps F] in
theorem bigSep_tasks3 (Φ : Fin 16 → sProp 𝕄) :
    (bigSep Finset.univ fun i : Fin ((K (F := F)).nSub 3) => Φ (Fin.cast nSub3 i)) = bigSep Finset.univ Φ :=
  bigSep_congr fun _ _ => congrArg Φ (Fin.ext rfl)

set_option maxHeartbeats 4000000 in
theorem vecSplit3 [∀ e, Nonempty (Elt F e)] : (K (F := F)).VecSplit' (P m) 3 := by
  intro d c
  show Call6.callRes d (m (Call6.iLoc d)) ⊢ |={Set.univ}=> iprop(
      (bigSep Finset.univ fun i : Fin ((K (F := F)).nSub 3) => Call6.taskRes d (m (Call6.iLoc d)) (Fin.cast nSub3 i))
      ∗ ((bigSep Finset.univ fun i : Fin ((K (F := F)).nSub 3) => Call6.taskRes d (m (Call6.iLoc d)) (Fin.cast nSub3 i))
          -∗ Call6.callRes d (m (Call6.iLoc d))))
  rw [bigSep_tasks3 (F := F) (fun i => Call6.taskRes d (m (Call6.iLoc d)) i)]
  exact Call6.deal d _

end Cert.Proof.KB

end
-- ==== Proof.KbIface.lean ====
/-
  What @main's proof asks of a TensorCore region between two gather calls, as one statement per region: entered holding the
  region boundary, what the TensorCore still owes the SparseCores (with the bound on the waits it has recorded), and the four
  arrays the region touches — the gathered vector, the weight matrix, the bias, the output — whole, the region's custom call
  runs and hands all of it back, the first three arrays at the contents they were handed in at, the output at whatever
  the region left.
-/
import proofs.«208418_g89945205112833_cont_sun_c4_809_35_alg».proof.Proof.KbPay

noncomputable section

namespace Cert.Proof.KB

open Cert.Kernel Cert.Kernel.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

/-- No pipeline of the program has prefetched tables: the admissible tables are the empty ones. -/
abbrev adm : (p : Fin 4) → (pcfgs (F := F) p).Adm := fun p => (cfgs p).toPCfg_adm

variable [FloatOps F]

/-- A region's entry: the debt with its bound, and the four arrays whole at the contents `Vc` gives them. -/
def regPre (d : Dev nD) (n : ℕ) (g w b o : Ref sig .tc) (Vc : (r : Ref sig .tc) → Buf (Elt F) ((SparseCore.T d : Thread nD τ).loc r)) : sProp 𝕄 :=
  iprop((∃ W, ⌜(K (F := F)).WBelow (SparseCore.T d) W (8 * n)⌝ ∗ owes (SparseCore.T d) ((K (F := F)).Otc d n) W)
    ∗ ((SparseCore.T d).loc g ↦{fullShare} Vc g) ∗ ((SparseCore.T d).loc w ↦{fullShare} Vc w) ∗ ((SparseCore.T d).loc b ↦{fullShare} Vc b) ∗ ((SparseCore.T d).loc o ↦{fullShare} Vc o))

/-- A region's exit: the same, the output at whatever the region left. -/
def regPost (d : Dev nD) (n : ℕ) (g w b o : Ref sig .tc) (Vc : (r : Ref sig .tc) → Buf (Elt F) ((SparseCore.T d : Thread nD τ).loc r)) : sProp 𝕄 :=
  iprop((∃ W, ⌜(K (F := F)).WBelow (SparseCore.T d) W (8 * n)⌝ ∗ owes (SparseCore.T d) ((K (F := F)).Otc d n) W)
    ∗ ((SparseCore.T d).loc g ↦{fullShare} Vc g) ∗ ((SparseCore.T d).loc w ↦{fullShare} Vc w) ∗ ((SparseCore.T d).loc b ↦{fullShare} Vc b) ∗ ∃ f, (SparseCore.T d).loc o ↦{fullShare} f)

/-- Region `p` over the arrays `g w b o`, as @main's proof uses it. -/
def RegionStep (p : Fin 4) (g w b o : Ref sig .tc) : Prop :=
  ∀ (d : Dev nD) (n : ℕ) (Vc : (r : Ref sig .tc) → Buf (Elt F) ((SparseCore.T d : Thread nD τ).loc r)) (Φ : PUnit → sProp 𝕄),
    iprop((iprop(boundary (SparseCore.T d) ∗ regPost d n g w b o Vc) -∗ Φ ⟨⟩) ∗ boundary (SparseCore.T d) ∗ regPre d n g w b o Vc
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ

end Cert.Proof.KB

end
-- ==== Proof.KbMain.lean ====
import proofs.«208418_g89945205112833_cont_sun_c4_809_35_alg».proof.Proof.KbIface
import proofs.«208418_g89945205112833_cont_sun_c4_809_35_alg».proof.Proof.Gen.Kernel.Launch
import proofs.«208418_g89945205112833_cont_sun_c4_809_35_alg».proof.Proof.LibScRegion
import Idealize.ShloMosaic.Lib.Pipeline.Frame

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

/-! ## @main as stretches of host operations between the calls and the regions -/

abbrev ops0 : List (HloOp τ sig (Elt F)) :=
  [StableHlo.reshape main_arg0 main_v0 rfl shapeCasts_S4096_S1x4096,
   StableHlo.nullary main_cst (constant S_ .f32 0x00000000#32),
   StableHlo.unary main_cst main_v1 (broadcastInDim S1x12288 ![] bcast_S_S1x12288 : (⟨S_, .f32⟩ : BufTy).Contents (Elt F) → (⟨S1x12288, .f32⟩ : BufTy).Contents (Elt F)),
   StableHlo.binary main_v0 main_v1 main_v2 ((fun a b => concatenate S1x16384 1 [⟨S1x4096, a⟩, ⟨S1x12288, b⟩] concatenates_S1x4096_S1x12288_S1x16384_d1) : (⟨S1x4096, .f32⟩ : BufTy).Contents (Elt F) → (⟨S1x12288, .f32⟩ : BufTy).Contents (Elt F) → (⟨S1x16384, .f32⟩ : BufTy).Contents (Elt F)),
   StableHlo.reshape main_v2 main_v3 rfl shapeCasts_S1x16384_S16384]

abbrev ops1 : List (HloOp τ sig (Elt F)) :=
  [StableHlo.reshape main_v4 main_v5 rfl shapeCasts_S4096_S1x4096,
   StableHlo.reshape main_arg9 main_v6 rfl shapeCasts_S4096_S1x4096,
   StableHlo.unary main_v2 main_v7 id]

abbrev ops2 : List (HloOp τ sig (Elt F)) :=
  [StableHlo.reshape main_v7 main_v8 rfl shapeCasts_S1x16384_S16384]

abbrev ops3 : List (HloOp τ sig (Elt F)) :=
  [StableHlo.reshape main_v9 main_v10 rfl shapeCasts_S4096_S1x4096,
   StableHlo.reshape main_arg10 main_v11 rfl shapeCasts_S4096_S1x4096,
   StableHlo.unary main_v7 main_v12 id]

abbrev ops4 : List (HloOp τ sig (Elt F)) :=
  [StableHlo.reshape main_v12 main_v13 rfl shapeCasts_S1x16384_S16384]

abbrev ops5 : List (HloOp τ sig (Elt F)) :=
  [StableHlo.reshape main_v14 main_v15 rfl shapeCasts_S4096_S1x4096,
   StableHlo.reshape main_arg11 main_v16 rfl shapeCasts_S4096_S1x4096,
   StableHlo.unary main_v12 main_v17 id]

abbrev ops6 : List (HloOp τ sig (Elt F)) :=
  [StableHlo.reshape main_v17 main_v18 rfl shapeCasts_S1x16384_S16384]

abbrev ops7 : List (HloOp τ sig (Elt F)) :=
  [StableHlo.reshape main_v19 main_v20 rfl shapeCasts_S4096_S1x4096,
   StableHlo.reshape main_arg12 main_v21 rfl shapeCasts_S2048_S1x2048]

abbrev ops8 : List (HloOp τ sig (Elt F)) :=
  [StableHlo.reshape main_v22 main_v23 rfl shapeCasts_S1x2048_S2048]

theorem main_eq (d : Dev nD) :
    main (F := F) d =
      (StableHlo.seq (ops0 (F := F)) >>= fun _ =>
      (K (F := F)).run d 0 >>= fun _ =>
      StableHlo.seq (ops1 (F := F)) >>= fun _ =>
      Prog.lift (.customCall (SparseCore.inner (Pipeline.entry 0)) ()) >>= fun _ =>
      StableHlo.seq (ops2 (F := F)) >>= fun _ =>
      (K (F := F)).run d 1 >>= fun _ =>
      StableHlo.seq (ops3 (F := F)) >>= fun _ =>
      Prog.lift (.customCall (SparseCore.inner (Pipeline.entry 1)) ()) >>= fun _ =>
      StableHlo.seq (ops4 (F := F)) >>= fun _ =>
      (K (F := F)).run d 2 >>= fun _ =>
      StableHlo.seq (ops5 (F := F)) >>= fun _ =>
      Prog.lift (.customCall (SparseCore.inner (Pipeline.entry 2)) ()) >>= fun _ =>
      StableHlo.seq (ops6 (F := F)) >>= fun _ =>
      (K (F := F)).run d 3 >>= fun _ =>
      StableHlo.seq (ops7 (F := F)) >>= fun _ =>
      Prog.lift (.customCall (SparseCore.inner (Pipeline.entry 3)) ()) >>= fun _ =>
      StableHlo.seq (ops8 (F := F)) >>= fun _ =>
      pure ⟨⟩) := rfl

/-! ## What each stretch touches and writes -/

theorem ops0_sub : (ops0 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops0_fresh : (ops0 (F := F)).Forall fun op => op.fresh = ∅ := by
  simp only [List.Forall]; repeat' constructor
abbrev ops0_W : List (Ref sig .tc) := [main_v0, main_cst, main_v1, main_v2, main_v3]
theorem ops0_writes : (ops0 (F := F)).Forall fun op => op.writes ⊆ (ops0_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.reshape_writes, Finset.singleton_subset_iff, List.mem_toFinset]
     exact List.mem_map_of_mem (by decide))

theorem ops1_sub : (ops1 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops1_fresh : (ops1 (F := F)).Forall fun op => op.fresh = ∅ := by
  simp only [List.Forall]; repeat' constructor
abbrev ops1_W : List (Ref sig .tc) := [main_v5, main_v6, main_v7]
theorem ops1_writes : (ops1 (F := F)).Forall fun op => op.writes ⊆ (ops1_W.map (Proc.devRef (τ := τ) .tc)).toFinset := by
  simp only [List.Forall]
  refine ⟨?_, ?_, ?_⟩ <;>
    (simp only [StableHlo.nullary_writes, StableHlo.unary_writes, StableHlo.binary_writes, StableHlo.reshape_writes, Finset.singleton_subset_iff, List.mem_toFinset]
     exact List.mem_map_of_mem (by decide))

theorem ops2_sub : (ops2 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops2_fresh : (ops2 (F := F)).Forall fun op => op.fresh = ∅ := by
  simp only [List.Forall]; repeat' constructor
abbrev ops2_W : List (Ref sig .tc) := [main_v8]
theorem ops2_writes : (ops2 (F := F)).Forall fun op => op.writes ⊆ (ops2_W.map (Proc.devRef (τ := τ) .tc)).toFinset := by
  simp only [List.Forall]
  simp only [StableHlo.nullary_writes, StableHlo.unary_writes, StableHlo.binary_writes, StableHlo.reshape_writes, Finset.singleton_subset_iff, List.mem_toFinset]
  exact List.mem_map_of_mem (by decide)

theorem ops3_sub : (ops3 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops3_fresh : (ops3 (F := F)).Forall fun op => op.fresh = ∅ := by
  simp only [List.Forall]; repeat' constructor
abbrev ops3_W : List (Ref sig .tc) := [main_v10, main_v11, main_v12]
theorem ops3_writes : (ops3 (F := F)).Forall fun op => op.writes ⊆ (ops3_W.map (Proc.devRef (τ := τ) .tc)).toFinset := by
  simp only [List.Forall]
  refine ⟨?_, ?_, ?_⟩ <;>
    (simp only [StableHlo.nullary_writes, StableHlo.unary_writes, StableHlo.binary_writes, StableHlo.reshape_writes, Finset.singleton_subset_iff, List.mem_toFinset]
     exact List.mem_map_of_mem (by decide))

theorem ops4_sub : (ops4 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops4_fresh : (ops4 (F := F)).Forall fun op => op.fresh = ∅ := by
  simp only [List.Forall]; repeat' constructor
abbrev ops4_W : List (Ref sig .tc) := [main_v13]
theorem ops4_writes : (ops4 (F := F)).Forall fun op => op.writes ⊆ (ops4_W.map (Proc.devRef (τ := τ) .tc)).toFinset := by
  simp only [List.Forall]
  simp only [StableHlo.nullary_writes, StableHlo.unary_writes, StableHlo.binary_writes, StableHlo.reshape_writes, Finset.singleton_subset_iff, List.mem_toFinset]
  exact List.mem_map_of_mem (by decide)

theorem ops5_sub : (ops5 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops5_fresh : (ops5 (F := F)).Forall fun op => op.fresh = ∅ := by
  simp only [List.Forall]; repeat' constructor
abbrev ops5_W : List (Ref sig .tc) := [main_v15, main_v16, main_v17]
theorem ops5_writes : (ops5 (F := F)).Forall fun op => op.writes ⊆ (ops5_W.map (Proc.devRef (τ := τ) .tc)).toFinset := by
  simp only [List.Forall]
  refine ⟨?_, ?_, ?_⟩ <;>
    (simp only [StableHlo.nullary_writes, StableHlo.unary_writes, StableHlo.binary_writes, StableHlo.reshape_writes, Finset.singleton_subset_iff, List.mem_toFinset]
     exact List.mem_map_of_mem (by decide))

theorem ops6_sub : (ops6 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops6_fresh : (ops6 (F := F)).Forall fun op => op.fresh = ∅ := by
  simp only [List.Forall]; repeat' constructor
abbrev ops6_W : List (Ref sig .tc) := [main_v18]
theorem ops6_writes : (ops6 (F := F)).Forall fun op => op.writes ⊆ (ops6_W.map (Proc.devRef (τ := τ) .tc)).toFinset := by
  simp only [List.Forall]
  simp only [StableHlo.nullary_writes, StableHlo.unary_writes, StableHlo.binary_writes, StableHlo.reshape_writes, Finset.singleton_subset_iff, List.mem_toFinset]
  exact List.mem_map_of_mem (by decide)

theorem ops7_sub : (ops7 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops7_fresh : (ops7 (F := F)).Forall fun op => op.fresh = ∅ := by
  simp only [List.Forall]; repeat' constructor
abbrev ops7_W : List (Ref sig .tc) := [main_v20, main_v21]
theorem ops7_writes : (ops7 (F := F)).Forall fun op => op.writes ⊆ (ops7_W.map (Proc.devRef (τ := τ) .tc)).toFinset := by
  simp only [List.Forall]
  refine ⟨?_, ?_⟩ <;>
    (simp only [StableHlo.nullary_writes, StableHlo.unary_writes, StableHlo.binary_writes, StableHlo.reshape_writes, Finset.singleton_subset_iff, List.mem_toFinset]
     exact List.mem_map_of_mem (by decide))

theorem ops8_sub : (ops8 (F := F)).Forall fun op => op.bufs ⊆ StableHlo.tcRefs τ sig := by
  simp only [List.Forall, StableHlo.reshape_bufs_sub, StableHlo.unary_bufs_sub, StableHlo.nullary_bufs_sub, StableHlo.binary_bufs_sub, and_self]
theorem ops8_fresh : (ops8 (F := F)).Forall fun op => op.fresh = ∅ := by
  simp only [List.Forall]; repeat' constructor
abbrev ops8_W : List (Ref sig .tc) := [main_v23]
theorem ops8_writes : (ops8 (F := F)).Forall fun op => op.writes ⊆ (ops8_W.map (Proc.devRef (τ := τ) .tc)).toFinset := by
  simp only [List.Forall]
  simp only [StableHlo.nullary_writes, StableHlo.unary_writes, StableHlo.binary_writes, StableHlo.reshape_writes, Finset.singleton_subset_iff, List.mem_toFinset]
  exact List.mem_map_of_mem (by decide)

/-! ## The TensorCore's arrays as one held set -/

section Main

variable (m : (ℓ : Loc nD τ sig) → Buf (Elt F) ℓ) (ρ : Dev nD → PrngReg) (d : Dev nD)

abbrev dr (r : Ref sig .tc) : DevRef τ sig := Proc.devRef .tc r
/-- The device's arrays at launch. -/
abbrev V₀ : Valuation τ sig (Elt F) := fun b => m (d, b)
/-- @main's thirteen arguments. -/
abbrev argRefs : List (Ref sig .tc) := [main_arg0, main_arg1, main_arg2, main_arg3, main_arg4, main_arg5, main_arg6, main_arg7, main_arg8, main_arg9, main_arg10, main_arg11, main_arg12]

/-- The arguments hold what they held at launch. -/
def Keeps (Vc : Valuation τ sig (Elt F)) : Prop := ∀ r ∈ argRefs, Vc (dr r) = V₀ m d (dr r)

omit [FloatOps F] in
theorem keeps_after (ops : List (HloOp τ sig (Elt F))) (W : List (Ref sig .tc))
    (hW : ops.Forall fun op => op.writes ⊆ (W.map (Proc.devRef (τ := τ) .tc)).toFinset) (hd : ∀ r ∈ argRefs, r ∉ W)
    {Vc : Valuation τ sig (Elt F)} (h : Keeps m d Vc) : Keeps m d (StableHlo.after ops Vc) :=
  fun r hr => (StableHlo.after_of_writes_sub ops Vc hW (hd r hr)).trans (h r hr)

omit [FloatOps F] in
theorem keeps_update {Vc : Valuation τ sig (Elt F)} (h : Keeps m d Vc) (r' : Ref sig .tc) (hr' : ∀ r ∈ argRefs, r ≠ r')
    (f : (dr r').ty.Contents (Elt F)) : Keeps m d (Function.update Vc (dr r') f) :=
  fun r hr => (Function.update_of_ne (StableHlo.devRef_ne_of_ne (hr' r hr)) _ _).trans (h r hr)

omit [FloatOps F] in
theorem mem_uc (r : Ref sig .tc) (h : (dr r).isScoped = false) : dr r ∈ Pipeline.ucRefs τ sig :=
  Finset.mem_filter.mpr ⟨StableHlo.devRef_mem_tcRefs r, by rw [h]; exact Bool.false_ne_true⟩

omit [FloatOps F] in
/-- One array out of a held set. -/
theorem held_take {Sf : Finset (DevRef τ sig)} {b : DevRef τ sig} (hb : b ∈ Sf) (Vc : Valuation τ sig (Elt F)) :
    (StableHlo.held (SparseCore.T d) Sf Vc : sProp 𝕄) = iprop((((d, b) : Loc nD τ sig) ↦{fullShare} Vc b) ∗ StableHlo.held (SparseCore.T d) (Sf.erase b) Vc) := by
  unfold StableHlo.held; exact SparseCore.bigSep_erase' hb

omit [FloatOps F] in
/-- One array back into a held set, at new contents. -/
theorem held_put {Sf : Finset (DevRef τ sig)} {b : DevRef τ sig} (hb : b ∈ Sf) (Vc : Valuation τ sig (Elt F)) (f : b.ty.Contents (Elt F)) :
    iprop((((d, b) : Loc nD τ sig) ↦{fullShare} f) ∗ StableHlo.held (SparseCore.T d) (Sf.erase b) Vc) ⊢ (StableHlo.held (SparseCore.T d) Sf (Function.update Vc b f) : sProp 𝕄) := by
  rw [held_take d hb (Function.update Vc b f), Function.update_self]
  refine sep_mono .rfl (Entails.of_eq ?_)
  unfold StableHlo.held
  exact bigSep_congr fun b' hb' => by rw [Function.update_of_ne (Finset.ne_of_mem_erase hb')]

/-! ## The launch element, what @main starts from, and the final assertion -/

/-- The launch element: the handshakes' rounds, the pipelines' staging cells' rounds, the counters. -/
def u₀ : UU :=
  (initOf (K (F := F)).hsCells (K (F := F)).hsToks, (initOf (Pipeline.cells (cfgs) cellOf_inj) (Pipeline.launchToks (cfgs) cellOf_inj), (1 : Counters)))

/-- What @main's proof starts from beyond what the launch deals it: the four pipelines' cells' ghost state and duty tokens. -/
def G (d : Dev nD) : sProp 𝕄 :=
  iprop((bigSep Finset.univ fun p : Fin 4 => Pipeline.cellsGhost (Pipeline.pin (pcfgs (F := F)) (adm (F := F))) (EP (F := F)) p d)
    ∗ bigSep Finset.univ fun p : Fin 4 => Pipeline.toksInit (Pipeline.pin (pcfgs (F := F)) (adm (F := F))) (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_pair (initOf (K (F := F)).hsCells (K (F := F)).hsToks)
    ((initOf (Pipeline.cells (cfgs) cellOf_inj) (Pipeline.launchToks (cfgs) cellOf_inj), (1 : Counters)) : UPp × Counters)) $$ Hu
  icases H with ⟨HH, HR⟩
  ihave HR := (own_pair_emb (embR : Emb (UPp × Counters) 𝕄)
    (initOf (Pipeline.cells (cfgs) cellOf_inj) (Pipeline.launchToks (cfgs) cellOf_inj)) (1 : Counters)) $$ HR
  icases HR with ⟨HP, -⟩
  imod (Pipeline.fund_ghost (cfgs) (EP (F := F)) cellOf_inj) $$ HP with ⟨Hg, Ht⟩
  imodintro
  isplitl [HH]; · iexact HH
  isplitl [Hg Ht]
  · unfold G; rw [bigSep_sep']
    isplitl [Hg]; · iexact Hg
    iexact Ht
  rw [show (bigSep Finset.univ fun thr : Thread nD τ => bigSep Finset.univ fun q : Fin 4 => (P (F := F) m).x q thr) = bigSep Finset.univ fun _ => iprop(emp) from
    bigSep_congr fun _ _ => bigSep_emp' _, bigSep_emp']
  iempintro

/-- What @main ends with: its arrays held at contents that agree with the launch on the arguments. -/
def FIN (d : Dev nD) : sProp 𝕄 := iprop(∃ Vc : Valuation τ sig (Elt F), ⌜Keeps m d Vc⌝ ∗ StableHlo.held (SparseCore.T d) (Pipeline.ucRefs τ sig) Vc)

def fq (d : Dev nD) (s' : Phys nD τ sig (Elt F)) : Prop := ∀ r ∈ argRefs, s'.mem.mem (d, dr r) = m (d, dr r)

omit [FloatOps F] in
theorem hfin (s' : Phys nD τ sig (Elt F)) : iprop(FIN m d ∗ SI s') ⊢ (⌜fq m d s'⌝ : sProp 𝕄) := by
  unfold FIN StableHlo.held
  iintro ⟨⟨%Vc, %hK, Hh⟩, HSI⟩
  ihave Hr := (pointsTo_read_all (Pipeline.ucRefs τ sig) (fun b => ((d, b) : Loc nD τ sig)) Vc s') $$ [Hh HSI]
  · isplitl [Hh] <;> iassumption
  icases Hr with ⟨%h, -⟩
  ipureintro
  intro r hr
  have hm : dr r ∈ Pipeline.ucRefs τ sig := mem_uc r (by
    simp only [argRefs, List.mem_cons, List.mem_singleton, List.not_mem_nil, or_false] at hr
    rcases hr with rfl | rfl | rfl | rfl | rfl | rfl | rfl | rfl | rfl | rfl | rfl | rfl | rfl <;> decide)
  exact (h (dr r) hm).trans (hK r hr)

omit [FloatOps F] in
theorem keeps_update_at {Vc : Valuation τ sig (Elt F)} (h : Keeps m d Vc) (r' : Ref sig .tc) (f : (dr r').ty.Contents (Elt F))
    (hf : r' ∈ argRefs → f = V₀ m d (dr r')) : Keeps m d (Function.update Vc (dr r') f) := fun r hr => by
  by_cases e : r = r'
  · subst e; rw [Function.update_self]; exact hf hr
  · rw [Function.update_of_ne (StableHlo.devRef_ne_of_ne e)]; exact h r hr

omit [FloatOps F] in
theorem bigSep_fin4 {M : Type} [URA M] (Φ : Fin 4 → sProp M) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-! ## The steps of @main, each from the arrays held at any contents that keep the arguments -/

set_option backward.isDefEq.respectTransparency.types false in
/-- A stretch of host operations that writes no argument. -/
theorem step_ops {β : Type} (ops : List (HloOp τ sig (Elt F))) (W : List (Ref sig .tc))
    (hsub : ops.Forall fun op => op.bufs ⊆ StableHlo.tcRefs τ sig) (hfresh : ops.Forall fun op => op.fresh = ∅)
    (hW : ops.Forall fun op => op.writes ⊆ (W.map (Proc.devRef (τ := τ) .tc)).toFinset) (hd : ∀ r ∈ argRefs, r ∉ W)
    (k : PUnit → Prog (TpuEff nD τ sig (Elt F) (SparseCore.Sig (ΛP (F := F)) 4) .tc) β) (Φ : β → sProp 𝕄)
    (Vc : Valuation τ sig (Elt F)) (hK : Keeps m d Vc) :
    iprop(boundary (SparseCore.T d) ∗ StableHlo.held (SparseCore.T d) (Pipeline.ucRefs τ sig) Vc
        ∗ (∀ Vc' : Valuation τ sig (Elt F), ⌜Keeps m d Vc'⌝ -∗ iprop(boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  iintro ⟨Hb, Hh, Hk⟩
  iapply (StableHlo.wp_seq (defs := (K (F := F)).defs (D (F := F))) 𝒱 none Set.univ d (Pipeline.ucRefs τ sig) k ops
      (fun op h => Pipeline.sub_ucRefs op ((List.forall_iff_forall_mem.mp hsub) op h)) (List.forall_iff_forall_mem.mp hfresh) Vc) $$ [Hb Hh]
  · isplitl [Hb] <;> iassumption
  iintro H
  ispecialize Hk $$ %(StableHlo.after ops Vc)
  iapply Hk
  · ipureintro; exact keeps_after m d ops W hW hd hK
  · iexact H

omit [FloatOps F] in
theorem callRes0_eq (fi : Buf (Elt F) (Call0.iLoc d)) : Call0.callRes d fi
    = (iprop((Call0.iLoc d ↦{fullShare} fi) ∗ (∃ f, Call0.xLoc d ↦{fullShare} f) ∗ ∃ g, Call0.oLoc d ↦{fullShare} g) : sProp 𝕄) := rfl
theorem st0_eq : (bigSep Finset.univ fun c : Fin ((K (F := F)).nCore 0) => (P m).st 0 d c) = Call0.callRes d (m (Call0.iLoc d)) :=
  bigSep_univ_of_subsingleton (0 : Fin 1)
theorem dn0_eq : (bigSep Finset.univ fun c : Fin ((K (F := F)).nCore 0) => (P m).dn 0 d c) = Call0.callRes d (m (Call0.iLoc d)) :=
  bigSep_univ_of_subsingleton (0 : Fin 1)

set_option maxHeartbeats 2000000 in
/-- Gather call 0: its indices lent at their launch contents, its state and result at whatever they hold; all three come back. -/
theorem step_run0 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 0 ∗ boundary (SparseCore.T d) ∗ StableHlo.held (SparseCore.T d) (Pipeline.ucRefs τ sig) Vc
        ∗ (∀ Vc' : Valuation τ sig (Elt F), ⌜Keeps m d Vc'⌝ -∗ iprop((K (F := F)).tcSt EH d 1 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 0 >>= k) Φ := by
  rw [wp_bind]
  iintro ⟨#Hctx, Hst, Hb, Hh, Hk⟩
  ihave Hx := (Entails.of_eq (held_take (F := F) d (mem_uc main_arg1 (by decide)) Vc)) $$ Hh
  icases Hx with ⟨Hi, Hh⟩
  ihave Hx := (Entails.of_eq (held_take (F := F) d (Finset.mem_erase.mpr ⟨StableHlo.devRef_ne_of_ne (x := main_v3) (y := main_arg1) (by decide), mem_uc main_v3 (by decide)⟩) Vc)) $$ Hh
  icases Hx with ⟨Hs, Hh⟩
  ihave Hx := (Entails.of_eq (held_take (F := F) d (Finset.mem_erase.mpr ⟨StableHlo.devRef_ne_of_ne (x := main_v4) (y := main_v3) (by decide), Finset.mem_erase.mpr ⟨StableHlo.devRef_ne_of_ne (x := main_v4) (y := main_arg1) (by decide), mem_uc main_v4 (by decide)⟩⟩) Vc)) $$ Hh
  icases Hx with ⟨Ho, Hh⟩
  ihave Hi := (Entails.of_eq (show ((((d, dr main_arg1) : Loc nD τ sig) ↦{fullShare} Vc (dr main_arg1)) : sProp 𝕄)
      = (Call0.iLoc d ↦{fullShare} m (Call0.iLoc d)) from by rw [hK main_arg1 (by decide)])) $$ Hi
  iapply ((K (F := F)).wp_run (D (F := F)) 𝒱 (EH := EH) (P := P m) κ d 0) $$ [Hst Hi Hs Ho Hb Hh Hk]
  isplitr; · iexact Hctx
  isplitl [Hst]; · iexact Hst
  isplitl [Hi Hs Ho]
  · iapply (Entails.of_eq ((st0_eq m d).trans (callRes0_eq d _)).symm)
    isplitl [Hi]; · iexact Hi
    isplitl [Hs]; · iexists _; iexact Hs
    iexists _; iexact Ho
  iintro ⟨Hst, Hdn⟩
  ihave Hdn := (Entails.of_eq ((dn0_eq m d).trans (callRes0_eq d _))) $$ Hdn
  icases Hdn with ⟨Hi, ⟨%fs, Hs⟩, ⟨%fo, Ho⟩⟩
  ihave Hh := (held_put (F := F) d (Finset.mem_erase.mpr ⟨StableHlo.devRef_ne_of_ne (x := main_v4) (y := main_v3) (by decide), Finset.mem_erase.mpr ⟨StableHlo.devRef_ne_of_ne (x := main_v4) (y := main_arg1) (by decide), mem_uc main_v4 (by decide)⟩⟩) Vc fo) $$ [Ho Hh]
  · isplitl [Ho] <;> iassumption
  ihave Hh := (held_put (F := F) d (Finset.mem_erase.mpr ⟨StableHlo.devRef_ne_of_ne (x := main_v3) (y := main_arg1) (by decide), mem_uc main_v3 (by decide)⟩) (Function.update Vc (dr main_v4) fo) fs) $$ [Hs Hh]
  · isplitl [Hs] <;> iassumption
  ihave Hh := (held_put (F := F) d (mem_uc main_arg1 (by decide)) (Function.update (Function.update Vc (dr main_v4) fo) (dr main_v3) fs) (V₀ m d (dr main_arg1))) $$ [Hi Hh]
  · isplitl [Hi] <;> iassumption
  ispecialize Hk $$ %(Function.update (Function.update (Function.update Vc (dr main_v4) fo) (dr main_v3) fs) (dr main_arg1) (V₀ m d (dr main_arg1)))
  iapply Hk
  · ipureintro
    exact keeps_update_at m d (keeps_update_at m d (keeps_update_at m d hK main_v4 fo (fun h => absurd h (by decide))) main_v3 fs (fun h => absurd h (by decide))) main_arg1 _ (fun _ => rfl)
  · isplitl [Hst]; · iexact Hst
    isplitl [Hb]; · iexact Hb
    iexact Hh

omit [FloatOps F] in
theorem callRes1_eq (fi : Buf (Elt F) (Call2.iLoc d)) : Call2.callRes d fi
    = (iprop((Call2.iLoc d ↦{fullShare} fi) ∗ (∃ f, Call2.xLoc d ↦{fullShare} f) ∗ ∃ g, Call2.oLoc d ↦{fullShare} g) : sProp 𝕄) := rfl
theorem st1_eq : (bigSep Finset.univ fun c : Fin ((K (F := F)).nCore 1) => (P m).st 1 d c) = Call2.callRes d (m (Call2.iLoc d)) :=
  bigSep_univ_of_subsingleton (0 : Fin 1)
theorem dn1_eq : (bigSep Finset.univ fun c : Fin ((K (F := F)).nCore 1) => (P m).dn 1 d c) = Call2.callRes d (m (Call2.iLoc d)) :=
  bigSep_univ_of_subsingleton (0 : Fin 1)

set_option maxHeartbeats 2000000 in
/-- Gather call 1: its indices lent at their launch contents, its state and result at whatever they hold; all three come back. -/
theorem step_run1 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 1 ∗ boundary (SparseCore.T d) ∗ StableHlo.held (SparseCore.T d) (Pipeline.ucRefs τ sig) Vc
        ∗ (∀ Vc' : Valuation τ sig (Elt F), ⌜Keeps m d Vc'⌝ -∗ iprop((K (F := F)).tcSt EH d 2 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 1 >>= k) Φ := by
  rw [wp_bind]
  iintro ⟨#Hctx, Hst, Hb, Hh, Hk⟩
  ihave Hx := (Entails.of_eq (held_take (F := F) d (mem_uc main_arg2 (by decide)) Vc)) $$ Hh
  icases Hx with ⟨Hi, Hh⟩
  ihave Hx := (Entails.of_eq (held_take (F := F) d (Finset.mem_erase.mpr ⟨StableHlo.devRef_ne_of_ne (x := main_v8) (y := main_arg2) (by decide), mem_uc main_v8 (by decide)⟩) Vc)) $$ Hh
  icases Hx with ⟨Hs, Hh⟩
  ihave Hx := (Entails.of_eq (held_take (F := F) d (Finset.mem_erase.mpr ⟨StableHlo.devRef_ne_of_ne (x := main_v9) (y := main_v8) (by decide), Finset.mem_erase.mpr ⟨StableHlo.devRef_ne_of_ne (x := main_v9) (y := main_arg2) (by decide), mem_uc main_v9 (by decide)⟩⟩) Vc)) $$ Hh
  icases Hx with ⟨Ho, Hh⟩
  ihave Hi := (Entails.of_eq (show ((((d, dr main_arg2) : Loc nD τ sig) ↦{fullShare} Vc (dr main_arg2)) : sProp 𝕄)
      = (Call2.iLoc d ↦{fullShare} m (Call2.iLoc d)) from by rw [hK main_arg2 (by decide)])) $$ Hi
  iapply ((K (F := F)).wp_run (D (F := F)) 𝒱 (EH := EH) (P := P m) κ d 1) $$ [Hst Hi Hs Ho Hb Hh Hk]
  isplitr; · iexact Hctx
  isplitl [Hst]; · iexact Hst
  isplitl [Hi Hs Ho]
  · iapply (Entails.of_eq ((st1_eq m d).trans (callRes1_eq d _)).symm)
    isplitl [Hi]; · iexact Hi
    isplitl [Hs]; · iexists _; iexact Hs
    iexists _; iexact Ho
  iintro ⟨Hst, Hdn⟩
  ihave Hdn := (Entails.of_eq ((dn1_eq m d).trans (callRes1_eq d _))) $$ Hdn
  icases Hdn with ⟨Hi, ⟨%fs, Hs⟩, ⟨%fo, Ho⟩⟩
  ihave Hh := (held_put (F := F) d (Finset.mem_erase.mpr ⟨StableHlo.devRef_ne_of_ne (x := main_v9) (y := main_v8) (by decide), Finset.mem_erase.mpr ⟨StableHlo.devRef_ne_of_ne (x := main_v9) (y := main_arg2) (by decide), mem_uc main_v9 (by decide)⟩⟩) Vc fo) $$ [Ho Hh]
  · isplitl [Ho] <;> iassumption
  ihave Hh := (held_put (F := F) d (Finset.mem_erase.mpr ⟨StableHlo.devRef_ne_of_ne (x := main_v8) (y := main_arg2) (by decide), mem_uc main_v8 (by decide)⟩) (Function.update Vc (dr main_v9) fo) fs) $$ [Hs Hh]
  · isplitl [Hs] <;> iassumption
  ihave Hh := (held_put (F := F) d (mem_uc main_arg2 (by decide)) (Function.update (Function.update Vc (dr main_v9) fo) (dr main_v8) fs) (V₀ m d (dr main_arg2))) $$ [Hi Hh]
  · isplitl [Hi] <;> iassumption
  ispecialize Hk $$ %(Function.update (Function.update (Function.update Vc (dr main_v9) fo) (dr main_v8) fs) (dr main_arg2) (V₀ m d (dr main_arg2)))
  iapply Hk
  · ipureintro
    exact keeps_update_at m d (keeps_update_at m d (keeps_update_at m d hK main_v9 fo (fun h => absurd h (by decide))) main_v8 fs (fun h => absurd h (by decide))) main_arg2 _ (fun _ => rfl)
  · isplitl [Hst]; · iexact Hst
    isplitl [Hb]; · iexact Hb
    iexact Hh

omit [FloatOps F] in
theorem callRes2_eq (fi : Buf (Elt F) (Call4.iLoc d)) : Call4.callRes d fi
    = (iprop((Call4.iLoc d ↦{fullShare} fi) ∗ (∃ f, Call4.xLoc d ↦{fullShare} f) ∗ ∃ g, Call4.oLoc d ↦{fullShare} g) : sProp 𝕄) := rfl
theorem st2_eq : (bigSep Finset.univ fun c : Fin ((K (F := F)).nCore 2) => (P m).st 2 d c) = Call4.callRes d (m (Call4.iLoc d)) :=
  bigSep_univ_of_subsingleton (0 : Fin 1)
theorem dn2_eq : (bigSep Finset.univ fun c : Fin ((K (F := F)).nCore 2) => (P m).dn 2 d c) = Call4.callRes d (m (Call4.iLoc d)) :=
  bigSep_univ_of_subsingleton (0 : Fin 1)

set_option maxHeartbeats 2000000 in
/-- Gather call 2: its indices lent at their launch contents, its state and result at whatever they hold; all three come back. -/
theorem step_run2 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 2 ∗ boundary (SparseCore.T d) ∗ StableHlo.held (SparseCore.T d) (Pipeline.ucRefs τ sig) Vc
        ∗ (∀ Vc' : Valuation τ sig (Elt F), ⌜Keeps m d Vc'⌝ -∗ iprop((K (F := F)).tcSt EH d 3 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 2 >>= k) Φ := by
  rw [wp_bind]
  iintro ⟨#Hctx, Hst, Hb, Hh, Hk⟩
  ihave Hx := (Entails.of_eq (held_take (F := F) d (mem_uc main_arg3 (by decide)) Vc)) $$ Hh
  icases Hx with ⟨Hi, Hh⟩
  ihave Hx := (Entails.of_eq (held_take (F := F) d (Finset.mem_erase.mpr ⟨StableHlo.devRef_ne_of_ne (x := main_v13) (y := main_arg3) (by decide), mem_uc main_v13 (by decide)⟩) Vc)) $$ Hh
  icases Hx with ⟨Hs, Hh⟩
  ihave Hx := (Entails.of_eq (held_take (F := F) d (Finset.mem_erase.mpr ⟨StableHlo.devRef_ne_of_ne (x := main_v14) (y := main_v13) (by decide), Finset.mem_erase.mpr ⟨StableHlo.devRef_ne_of_ne (x := main_v14) (y := main_arg3) (by decide), mem_uc main_v14 (by decide)⟩⟩) Vc)) $$ Hh
  icases Hx with ⟨Ho, Hh⟩
  ihave Hi := (Entails.of_eq (show ((((d, dr main_arg3) : Loc nD τ sig) ↦{fullShare} Vc (dr main_arg3)) : sProp 𝕄)
      = (Call4.iLoc d ↦{fullShare} m (Call4.iLoc d)) from by rw [hK main_arg3 (by decide)])) $$ Hi
  iapply ((K (F := F)).wp_run (D (F := F)) 𝒱 (EH := EH) (P := P m) κ d 2) $$ [Hst Hi Hs Ho Hb Hh Hk]
  isplitr; · iexact Hctx
  isplitl [Hst]; · iexact Hst
  isplitl [Hi Hs Ho]
  · iapply (Entails.of_eq ((st2_eq m d).trans (callRes2_eq d _)).symm)
    isplitl [Hi]; · iexact Hi
    isplitl [Hs]; · iexists _; iexact Hs
    iexists _; iexact Ho
  iintro ⟨Hst, Hdn⟩
  ihave Hdn := (Entails.of_eq ((dn2_eq m d).trans (callRes2_eq d _))) $$ Hdn
  icases Hdn with ⟨Hi, ⟨%fs, Hs⟩, ⟨%fo, Ho⟩⟩
  ihave Hh := (held_put (F := F) d (Finset.mem_erase.mpr ⟨StableHlo.devRef_ne_of_ne (x := main_v14) (y := main_v13) (by decide), Finset.mem_erase.mpr ⟨StableHlo.devRef_ne_of_ne (x := main_v14) (y := main_arg3) (by decide), mem_uc main_v14 (by decide)⟩⟩) Vc fo) $$ [Ho Hh]
  · isplitl [Ho] <;> iassumption
  ihave Hh := (held_put (F := F) d (Finset.mem_erase.mpr ⟨StableHlo.devRef_ne_of_ne (x := main_v13) (y := main_arg3) (by decide), mem_uc main_v13 (by decide)⟩) (Function.update Vc (dr main_v14) fo) fs) $$ [Hs Hh]
  · isplitl [Hs] <;> iassumption
  ihave Hh := (held_put (F := F) d (mem_uc main_arg3 (by decide)) (Function.update (Function.update Vc (dr main_v14) fo) (dr main_v13) fs) (V₀ m d (dr main_arg3))) $$ [Hi Hh]
  · isplitl [Hi] <;> iassumption
  ispecialize Hk $$ %(Function.update (Function.update (Function.update Vc (dr main_v14) fo) (dr main_v13) fs) (dr main_arg3) (V₀ m d (dr main_arg3)))
  iapply Hk
  · ipureintro
    exact keeps_update_at m d (keeps_update_at m d (keeps_update_at m d hK main_v14 fo (fun h => absurd h (by decide))) main_v13 fs (fun h => absurd h (by decide))) main_arg3 _ (fun _ => rfl)
  · isplitl [Hst]; · iexact Hst
    isplitl [Hb]; · iexact Hb
    iexact Hh

omit [FloatOps F] in
theorem callRes3_eq (fi : Buf (Elt F) (Call6.iLoc d)) : Call6.callRes d fi
    = (iprop((Call6.iLoc d ↦{fullShare} fi) ∗ (∃ f, Call6.xLoc d ↦{fullShare} f) ∗ ∃ g, Call6.oLoc d ↦{fullShare} g) : sProp 𝕄) := rfl
theorem st3_eq : (bigSep Finset.univ fun c : Fin ((K (F := F)).nCore 3) => (P m).st 3 d c) = Call6.callRes d (m (Call6.iLoc d)) :=
  bigSep_univ_of_subsingleton (0 : Fin 1)
theorem dn3_eq : (bigSep Finset.univ fun c : Fin ((K (F := F)).nCore 3) => (P m).dn 3 d c) = Call6.callRes d (m (Call6.iLoc d)) :=
  bigSep_univ_of_subsingleton (0 : Fin 1)

set_option maxHeartbeats 2000000 in
/-- Gather call 3: its indices lent at their launch contents, its state and result at whatever they hold; all three come back. -/
theorem step_run3 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 3 ∗ boundary (SparseCore.T d) ∗ StableHlo.held (SparseCore.T d) (Pipeline.ucRefs τ sig) Vc
        ∗ (∀ Vc' : Valuation τ sig (Elt F), ⌜Keeps m d Vc'⌝ -∗ iprop((K (F := F)).tcSt EH d 4 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 3 >>= k) Φ := by
  rw [wp_bind]
  iintro ⟨#Hctx, Hst, Hb, Hh, Hk⟩
  ihave Hx := (Entails.of_eq (held_take (F := F) d (mem_uc main_arg4 (by decide)) Vc)) $$ Hh
  icases Hx with ⟨Hi, Hh⟩
  ihave Hx := (Entails.of_eq (held_take (F := F) d (Finset.mem_erase.mpr ⟨StableHlo.devRef_ne_of_ne (x := main_v18) (y := main_arg4) (by decide), mem_uc main_v18 (by decide)⟩) Vc)) $$ Hh
  icases Hx with ⟨Hs, Hh⟩
  ihave Hx := (Entails.of_eq (held_take (F := F) d (Finset.mem_erase.mpr ⟨StableHlo.devRef_ne_of_ne (x := main_v19) (y := main_v18) (by decide), Finset.mem_erase.mpr ⟨StableHlo.devRef_ne_of_ne (x := main_v19) (y := main_arg4) (by decide), mem_uc main_v19 (by decide)⟩⟩) Vc)) $$ Hh
  icases Hx with ⟨Ho, Hh⟩
  ihave Hi := (Entails.of_eq (show ((((d, dr main_arg4) : Loc nD τ sig) ↦{fullShare} Vc (dr main_arg4)) : sProp 𝕄)
      = (Call6.iLoc d ↦{fullShare} m (Call6.iLoc d)) from by rw [hK main_arg4 (by decide)])) $$ Hi
  iapply ((K (F := F)).wp_run (D (F := F)) 𝒱 (EH := EH) (P := P m) κ d 3) $$ [Hst Hi Hs Ho Hb Hh Hk]
  isplitr; · iexact Hctx
  isplitl [Hst]; · iexact Hst
  isplitl [Hi Hs Ho]
  · iapply (Entails.of_eq ((st3_eq m d).trans (callRes3_eq d _)).symm)
    isplitl [Hi]; · iexact Hi
    isplitl [Hs]; · iexists _; iexact Hs
    iexists _; iexact Ho
  iintro ⟨Hst, Hdn⟩
  ihave Hdn := (Entails.of_eq ((dn3_eq m d).trans (callRes3_eq d _))) $$ Hdn
  icases Hdn with ⟨Hi, ⟨%fs, Hs⟩, ⟨%fo, Ho⟩⟩
  ihave Hh := (held_put (F := F) d (Finset.mem_erase.mpr ⟨StableHlo.devRef_ne_of_ne (x := main_v19) (y := main_v18) (by decide), Finset.mem_erase.mpr ⟨StableHlo.devRef_ne_of_ne (x := main_v19) (y := main_arg4) (by decide), mem_uc main_v19 (by decide)⟩⟩) Vc fo) $$ [Ho Hh]
  · isplitl [Ho] <;> iassumption
  ihave Hh := (held_put (F := F) d (Finset.mem_erase.mpr ⟨StableHlo.devRef_ne_of_ne (x := main_v18) (y := main_arg4) (by decide), mem_uc main_v18 (by decide)⟩) (Function.update Vc (dr main_v19) fo) fs) $$ [Hs Hh]
  · isplitl [Hs] <;> iassumption
  ihave Hh := (held_put (F := F) d (mem_uc main_arg4 (by decide)) (Function.update (Function.update Vc (dr main_v19) fo) (dr main_v18) fs) (V₀ m d (dr main_arg4))) $$ [Hi Hh]
  · isplitl [Hi] <;> iassumption
  ispecialize Hk $$ %(Function.update (Function.update (Function.update Vc (dr main_v19) fo) (dr main_v18) fs) (dr main_arg4) (V₀ m d (dr main_arg4)))
  iapply Hk
  · ipureintro
    exact keeps_update_at m d (keeps_update_at m d (keeps_update_at m d hK main_v19 fo (fun h => absurd h (by decide))) main_v18 fs (fun h => absurd h (by decide))) main_arg4 _ (fun _ => rfl)
  · isplitl [Hst]; · iexact Hst
    isplitl [Hb]; · iexact Hb
    iexact Hh

omit [FloatOps F] in
theorem regPre_eq (n : ℕ) (g w b o : Ref sig .tc) (Vc : (r : Ref sig .tc) → Buf (Elt F) ((SparseCore.T d : Thread nD τ).loc r)) :
    regPre d n g w b o Vc = (iprop((∃ W, ⌜(K (F := F)).WBelow (SparseCore.T d) W (8 * n)⌝ ∗ owes (SparseCore.T d) ((K (F := F)).Otc d n) W)
      ∗ ((SparseCore.T d).loc g ↦{fullShare} Vc g) ∗ ((SparseCore.T d).loc w ↦{fullShare} Vc w) ∗ ((SparseCore.T d).loc b ↦{fullShare} Vc b)
      ∗ ((SparseCore.T d).loc o ↦{fullShare} Vc o)) : sProp 𝕄) := rfl
omit [FloatOps F] in
theorem regPost_eq (n : ℕ) (g w b o : Ref sig .tc) (Vc : (r : Ref sig .tc) → Buf (Elt F) ((SparseCore.T d : Thread nD τ).loc r)) :
    regPost d n g w b o Vc = (iprop((∃ W, ⌜(K (F := F)).WBelow (SparseCore.T d) W (8 * n)⌝ ∗ owes (SparseCore.T d) ((K (F := F)).Otc d n) W)
      ∗ ((SparseCore.T d).loc g ↦{fullShare} Vc g) ∗ ((SparseCore.T d).loc w ↦{fullShare} Vc w) ∗ ((SparseCore.T d).loc b ↦{fullShare} Vc b)
      ∗ ∃ f, (SparseCore.T d).loc o ↦{fullShare} f) : sProp 𝕄) := rfl

set_option maxHeartbeats 2000000 in
/-- Region 0, between gather calls: its four arrays lent, the first three back as they were, the output at whatever it holds. -/
theorem step_region0 (hr : RegionStep (F := F) 0 main_v5 main_arg5 main_v6 main_v7) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 1 ∗ boundary (SparseCore.T d) ∗ StableHlo.held (SparseCore.T d) (Pipeline.ucRefs τ sig) Vc
        ∗ Pipeline.cellsGhost (Pipeline.pin (pcfgs (F := F)) (adm (F := F))) (EP (F := F)) 0 d ∗ Pipeline.toksInit (Pipeline.pin (pcfgs (F := F)) (adm (F := F))) (EP (F := F)) 0 d
        ∗ (∀ Vc' : Valuation τ sig (Elt F), ⌜Keeps m d Vc'⌝ -∗ iprop((K (F := F)).tcSt EH d 1 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 0)) ()) >>= k) Φ := by
  rw [wp_bind]
  iintro ⟨#Hctx, Hst, Hb, Hh, Hgp, Htp, Hk⟩
  ihave Hst := (Entails.of_eq (LibScRegion.tcSt_open (K (F := F)) EH d 1)) $$ Hst
  icases Hst with ⟨Hdebt, Hrest⟩
  ihave Hx := (Entails.of_eq (held_take (F := F) d (mem_uc main_v5 (by decide)) Vc)) $$ Hh
  icases Hx with ⟨Hg, Hh⟩
  ihave Hx := (Entails.of_eq (held_take (F := F) d (Finset.mem_erase.mpr ⟨StableHlo.devRef_ne_of_ne (x := main_arg5) (y := main_v5) (by decide), mem_uc main_arg5 (by decide)⟩) Vc)) $$ Hh
  icases Hx with ⟨Hw, Hh⟩
  ihave Hx := (Entails.of_eq (held_take (F := F) d (Finset.mem_erase.mpr ⟨StableHlo.devRef_ne_of_ne (x := main_v6) (y := main_arg5) (by decide), Finset.mem_erase.mpr ⟨StableHlo.devRef_ne_of_ne (x := main_v6) (y := main_v5) (by decide), mem_uc main_v6 (by decide)⟩⟩) Vc)) $$ Hh
  icases Hx with ⟨Hbi, Hh⟩
  ihave Hx := (Entails.of_eq (held_take (F := F) d (Finset.mem_erase.mpr ⟨StableHlo.devRef_ne_of_ne (x := main_v7) (y := main_v6) (by decide), Finset.mem_erase.mpr ⟨StableHlo.devRef_ne_of_ne (x := main_v7) (y := main_arg5) (by decide), Finset.mem_erase.mpr ⟨StableHlo.devRef_ne_of_ne (x := main_v7) (y := main_v5) (by decide), mem_uc main_v7 (by decide)⟩⟩⟩) Vc)) $$ Hh
  icases Hx with ⟨Ho, Hh⟩
  ihave Hlev := ((K (F := F)).ctx_levAts (EH := EH) (P := P m) κ) $$ Hctx
  iapply (hr d 1 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPost_eq (F := F) d _ _ _ _ _ _)) $$ Hpost
  icases Hpost with ⟨Hdebt, Hg, Hw, Hbi, ⟨%fo, Ho⟩⟩
  ihave Hst := (Entails.of_eq (LibScRegion.tcSt_open (K (F := F)) EH d 1).symm) $$ [Hdebt Hrest]
  · isplitl [Hdebt] <;> iassumption
  ihave Hh := (held_put (F := F) d (Finset.mem_erase.mpr ⟨StableHlo.devRef_ne_of_ne (x := main_v7) (y := main_v6) (by decide), Finset.mem_erase.mpr ⟨StableHlo.devRef_ne_of_ne (x := main_v7) (y := main_arg5) (by decide), Finset.mem_erase.mpr ⟨StableHlo.devRef_ne_of_ne (x := main_v7) (y := main_v5) (by decide), mem_uc main_v7 (by decide)⟩⟩⟩) Vc fo) $$ [Ho Hh]
  · isplitl [Ho] <;> iassumption
  ihave Hh := (held_put (F := F) d (Finset.mem_erase.mpr ⟨StableHlo.devRef_ne_of_ne (x := main_v6) (y := main_arg5) (by decide), Finset.mem_erase.mpr ⟨StableHlo.devRef_ne_of_ne (x := main_v6) (y := main_v5) (by decide), mem_uc main_v6 (by decide)⟩⟩) (Function.update Vc (dr main_v7) fo) (Vc (dr main_v6))) $$ [Hbi Hh]
  · isplitl [Hbi] <;> iassumption
  ihave Hh := (held_put (F := F) d (Finset.mem_erase.mpr ⟨StableHlo.devRef_ne_of_ne (x := main_arg5) (y := main_v5) (by decide), mem_uc main_arg5 (by decide)⟩) (Function.update (Function.update Vc (dr main_v7) fo) (dr main_v6) (Vc (dr main_v6))) (Vc (dr main_arg5))) $$ [Hw Hh]
  · isplitl [Hw] <;> iassumption
  ihave Hh := (held_put (F := F) d (mem_uc main_v5 (by decide)) (Function.update (Function.update (Function.update Vc (dr main_v7) fo) (dr main_v6) (Vc (dr main_v6))) (dr main_arg5) (Vc (dr main_arg5))) (Vc (dr main_v5))) $$ [Hg Hh]
  · isplitl [Hg] <;> iassumption
  ispecialize Hk $$ %(Function.update (Function.update (Function.update (Function.update Vc (dr main_v7) fo) (dr main_v6) (Vc (dr main_v6))) (dr main_arg5) (Vc (dr main_arg5))) (dr main_v5) (Vc (dr main_v5)))
  iapply Hk
  · ipureintro
    exact keeps_update_at m d (keeps_update_at m d (keeps_update_at m d (keeps_update_at m d hK main_v7 fo (fun h => absurd h (by decide))) main_v6 _ (fun h => absurd h (by decide))) main_arg5 _ (fun _ => hK main_arg5 (by decide))) main_v5 _ (fun h => absurd h (by decide))
  · isplitl [Hst]; · iexact Hst
    isplitl [Hb]; · iexact Hb
    iexact Hh

set_option maxHeartbeats 2000000 in
/-- Region 1, between gather calls: its four arrays lent, the first three back as they were, the output at whatever it holds. -/
theorem step_region1 (hr : RegionStep (F := F) 1 main_v10 main_arg6 main_v11 main_v12) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 2 ∗ boundary (SparseCore.T d) ∗ StableHlo.held (SparseCore.T d) (Pipeline.ucRefs τ sig) Vc
        ∗ Pipeline.cellsGhost (Pipeline.pin (pcfgs (F := F)) (adm (F := F))) (EP (F := F)) 1 d ∗ Pipeline.toksInit (Pipeline.pin (pcfgs (F := F)) (adm (F := F))) (EP (F := F)) 1 d
        ∗ (∀ Vc' : Valuation τ sig (Elt F), ⌜Keeps m d Vc'⌝ -∗ iprop((K (F := F)).tcSt EH d 2 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 1)) ()) >>= k) Φ := by
  rw [wp_bind]
  iintro ⟨#Hctx, Hst, Hb, Hh, Hgp, Htp, Hk⟩
  ihave Hst := (Entails.of_eq (LibScRegion.tcSt_open (K (F := F)) EH d 2)) $$ Hst
  icases Hst with ⟨Hdebt, Hrest⟩
  ihave Hx := (Entails.of_eq (held_take (F := F) d (mem_uc main_v10 (by decide)) Vc)) $$ Hh
  icases Hx with ⟨Hg, Hh⟩
  ihave Hx := (Entails.of_eq (held_take (F := F) d (Finset.mem_erase.mpr ⟨StableHlo.devRef_ne_of_ne (x := main_arg6) (y := main_v10) (by decide), mem_uc main_arg6 (by decide)⟩) Vc)) $$ Hh
  icases Hx with ⟨Hw, Hh⟩
  ihave Hx := (Entails.of_eq (held_take (F := F) d (Finset.mem_erase.mpr ⟨StableHlo.devRef_ne_of_ne (x := main_v11) (y := main_arg6) (by decide), Finset.mem_erase.mpr ⟨StableHlo.devRef_ne_of_ne (x := main_v11) (y := main_v10) (by decide), mem_uc main_v11 (by decide)⟩⟩) Vc)) $$ Hh
  icases Hx with ⟨Hbi, Hh⟩
  ihave Hx := (Entails.of_eq (held_take (F := F) d (Finset.mem_erase.mpr ⟨StableHlo.devRef_ne_of_ne (x := main_v12) (y := main_v11) (by decide), Finset.mem_erase.mpr ⟨StableHlo.devRef_ne_of_ne (x := main_v12) (y := main_arg6) (by decide), Finset.mem_erase.mpr ⟨StableHlo.devRef_ne_of_ne (x := main_v12) (y := main_v10) (by decide), mem_uc main_v12 (by decide)⟩⟩⟩) Vc)) $$ Hh
  icases Hx with ⟨Ho, Hh⟩
  ihave Hlev := ((K (F := F)).ctx_levAts (EH := EH) (P := P m) κ) $$ Hctx
  iapply (hr d 2 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPost_eq (F := F) d _ _ _ _ _ _)) $$ Hpost
  icases Hpost with ⟨Hdebt, Hg, Hw, Hbi, ⟨%fo, Ho⟩⟩
  ihave Hst := (Entails.of_eq (LibScRegion.tcSt_open (K (F := F)) EH d 2).symm) $$ [Hdebt Hrest]
  · isplitl [Hdebt] <;> iassumption
  ihave Hh := (held_put (F := F) d (Finset.mem_erase.mpr ⟨StableHlo.devRef_ne_of_ne (x := main_v12) (y := main_v11) (by decide), Finset.mem_erase.mpr ⟨StableHlo.devRef_ne_of_ne (x := main_v12) (y := main_arg6) (by decide), Finset.mem_erase.mpr ⟨StableHlo.devRef_ne_of_ne (x := main_v12) (y := main_v10) (by decide), mem_uc main_v12 (by decide)⟩⟩⟩) Vc fo) $$ [Ho Hh]
  · isplitl [Ho] <;> iassumption
  ihave Hh := (held_put (F := F) d (Finset.mem_erase.mpr ⟨StableHlo.devRef_ne_of_ne (x := main_v11) (y := main_arg6) (by decide), Finset.mem_erase.mpr ⟨StableHlo.devRef_ne_of_ne (x := main_v11) (y := main_v10) (by decide), mem_uc main_v11 (by decide)⟩⟩) (Function.update Vc (dr main_v12) fo) (Vc (dr main_v11))) $$ [Hbi Hh]
  · isplitl [Hbi] <;> iassumption
  ihave Hh := (held_put (F := F) d (Finset.mem_erase.mpr ⟨StableHlo.devRef_ne_of_ne (x := main_arg6) (y := main_v10) (by decide), mem_uc main_arg6 (by decide)⟩) (Function.update (Function.update Vc (dr main_v12) fo) (dr main_v11) (Vc (dr main_v11))) (Vc (dr main_arg6))) $$ [Hw Hh]
  · isplitl [Hw] <;> iassumption
  ihave Hh := (held_put (F := F) d (mem_uc main_v10 (by decide)) (Function.update (Function.update (Function.update Vc (dr main_v12) fo) (dr main_v11) (Vc (dr main_v11))) (dr main_arg6) (Vc (dr main_arg6))) (Vc (dr main_v10))) $$ [Hg Hh]
  · isplitl [Hg] <;> iassumption
  ispecialize Hk $$ %(Function.update (Function.update (Function.update (Function.update Vc (dr main_v12) fo) (dr main_v11) (Vc (dr main_v11))) (dr main_arg6) (Vc (dr main_arg6))) (dr main_v10) (Vc (dr main_v10)))
  iapply Hk
  · ipureintro
    exact keeps_update_at m d (keeps_update_at m d (keeps_update_at m d (keeps_update_at m d hK main_v12 fo (fun h => absurd h (by decide))) main_v11 _ (fun h => absurd h (by decide))) main_arg6 _ (fun _ => hK main_arg6 (by decide))) main_v10 _ (fun h => absurd h (by decide))
  · isplitl [Hst]; · iexact Hst
    isplitl [Hb]; · iexact Hb
    iexact Hh

set_option maxHeartbeats 2000000 in
/-- Region 2, between gather calls: its four arrays lent, the first three back as they were, the output at whatever it holds. -/
theorem step_region2 (hr : RegionStep (F := F) 2 main_v15 main_arg7 main_v16 main_v17) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 3 ∗ boundary (SparseCore.T d) ∗ StableHlo.held (SparseCore.T d) (Pipeline.ucRefs τ sig) Vc
        ∗ Pipeline.cellsGhost (Pipeline.pin (pcfgs (F := F)) (adm (F := F))) (EP (F := F)) 2 d ∗ Pipeline.toksInit (Pipeline.pin (pcfgs (F := F)) (adm (F := F))) (EP (F := F)) 2 d
        ∗ (∀ Vc' : Valuation τ sig (Elt F), ⌜Keeps m d Vc'⌝ -∗ iprop((K (F := F)).tcSt EH d 3 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 2)) ()) >>= k) Φ := by
  rw [wp_bind]
  iintro ⟨#Hctx, Hst, Hb, Hh, Hgp, Htp, Hk⟩
  ihave Hst := (Entails.of_eq (LibScRegion.tcSt_open (K (F := F)) EH d 3)) $$ Hst
  icases Hst with ⟨Hdebt, Hrest⟩
  ihave Hx := (Entails.of_eq (held_take (F := F) d (mem_uc main_v15 (by decide)) Vc)) $$ Hh
  icases Hx with ⟨Hg, Hh⟩
  ihave Hx := (Entails.of_eq (held_take (F := F) d (Finset.mem_erase.mpr ⟨StableHlo.devRef_ne_of_ne (x := main_arg7) (y := main_v15) (by decide), mem_uc main_arg7 (by decide)⟩) Vc)) $$ Hh
  icases Hx with ⟨Hw, Hh⟩
  ihave Hx := (Entails.of_eq (held_take (F := F) d (Finset.mem_erase.mpr ⟨StableHlo.devRef_ne_of_ne (x := main_v16) (y := main_arg7) (by decide), Finset.mem_erase.mpr ⟨StableHlo.devRef_ne_of_ne (x := main_v16) (y := main_v15) (by decide), mem_uc main_v16 (by decide)⟩⟩) Vc)) $$ Hh
  icases Hx with ⟨Hbi, Hh⟩
  ihave Hx := (Entails.of_eq (held_take (F := F) d (Finset.mem_erase.mpr ⟨StableHlo.devRef_ne_of_ne (x := main_v17) (y := main_v16) (by decide), Finset.mem_erase.mpr ⟨StableHlo.devRef_ne_of_ne (x := main_v17) (y := main_arg7) (by decide), Finset.mem_erase.mpr ⟨StableHlo.devRef_ne_of_ne (x := main_v17) (y := main_v15) (by decide), mem_uc main_v17 (by decide)⟩⟩⟩) Vc)) $$ Hh
  icases Hx with ⟨Ho, Hh⟩
  ihave Hlev := ((K (F := F)).ctx_levAts (EH := EH) (P := P m) κ) $$ Hctx
  iapply (hr d 3 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPost_eq (F := F) d _ _ _ _ _ _)) $$ Hpost
  icases Hpost with ⟨Hdebt, Hg, Hw, Hbi, ⟨%fo, Ho⟩⟩
  ihave Hst := (Entails.of_eq (LibScRegion.tcSt_open (K (F := F)) EH d 3).symm) $$ [Hdebt Hrest]
  · isplitl [Hdebt] <;> iassumption
  ihave Hh := (held_put (F := F) d (Finset.mem_erase.mpr ⟨StableHlo.devRef_ne_of_ne (x := main_v17) (y := main_v16) (by decide), Finset.mem_erase.mpr ⟨StableHlo.devRef_ne_of_ne (x := main_v17) (y := main_arg7) (by decide), Finset.mem_erase.mpr ⟨StableHlo.devRef_ne_of_ne (x := main_v17) (y := main_v15) (by decide), mem_uc main_v17 (by decide)⟩⟩⟩) Vc fo) $$ [Ho Hh]
  · isplitl [Ho] <;> iassumption
  ihave Hh := (held_put (F := F) d (Finset.mem_erase.mpr ⟨StableHlo.devRef_ne_of_ne (x := main_v16) (y := main_arg7) (by decide), Finset.mem_erase.mpr ⟨StableHlo.devRef_ne_of_ne (x := main_v16) (y := main_v15) (by decide), mem_uc main_v16 (by decide)⟩⟩) (Function.update Vc (dr main_v17) fo) (Vc (dr main_v16))) $$ [Hbi Hh]
  · isplitl [Hbi] <;> iassumption
  ihave Hh := (held_put (F := F) d (Finset.mem_erase.mpr ⟨StableHlo.devRef_ne_of_ne (x := main_arg7) (y := main_v15) (by decide), mem_uc main_arg7 (by decide)⟩) (Function.update (Function.update Vc (dr main_v17) fo) (dr main_v16) (Vc (dr main_v16))) (Vc (dr main_arg7))) $$ [Hw Hh]
  · isplitl [Hw] <;> iassumption
  ihave Hh := (held_put (F := F) d (mem_uc main_v15 (by decide)) (Function.update (Function.update (Function.update Vc (dr main_v17) fo) (dr main_v16) (Vc (dr main_v16))) (dr main_arg7) (Vc (dr main_arg7))) (Vc (dr main_v15))) $$ [Hg Hh]
  · isplitl [Hg] <;> iassumption
  ispecialize Hk $$ %(Function.update (Function.update (Function.update (Function.update Vc (dr main_v17) fo) (dr main_v16) (Vc (dr main_v16))) (dr main_arg7) (Vc (dr main_arg7))) (dr main_v15) (Vc (dr main_v15)))
  iapply Hk
  · ipureintro
    exact keeps_update_at m d (keeps_update_at m d (keeps_update_at m d (keeps_update_at m d hK main_v17 fo (fun h => absurd h (by decide))) main_v16 _ (fun h => absurd h (by decide))) main_arg7 _ (fun _ => hK main_arg7 (by decide))) main_v15 _ (fun h => absurd h (by decide))
  · isplitl [Hst]; · iexact Hst
    isplitl [Hb]; · iexact Hb
    iexact Hh

set_option maxHeartbeats 2000000 in
/-- Region 3, between gather calls: its four arrays lent, the first three back as they were, the output at whatever it holds. -/
theorem step_region3 (hr : RegionStep (F := F) 3 main_v20 main_arg8 main_v21 main_v22) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hK : Keeps m d Vc) :
    iprop((K (F := F)).ctx EH (P m) κ ∗ (K (F := F)).tcSt EH d 4 ∗ boundary (SparseCore.T d) ∗ StableHlo.held (SparseCore.T d) (Pipeline.ucRefs τ sig) Vc
        ∗ Pipeline.cellsGhost (Pipeline.pin (pcfgs (F := F)) (adm (F := F))) (EP (F := F)) 3 d ∗ Pipeline.toksInit (Pipeline.pin (pcfgs (F := F)) (adm (F := F))) (EP (F := F)) 3 d
        ∗ (∀ Vc' : Valuation τ sig (Elt F), ⌜Keeps m d Vc'⌝ -∗ iprop((K (F := F)).tcSt EH d 4 ∗ boundary (SparseCore.T d) ∗ StableHlo.held (SparseCore.T d) (Pipeline.ucRefs τ sig) Vc') -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 3)) ()) >>= k) Φ := by
  rw [wp_bind]
  iintro ⟨#Hctx, Hst, Hb, Hh, Hgp, Htp, Hk⟩
  ihave Hst := (Entails.of_eq (LibScRegion.tcSt_open (K (F := F)) EH d 4)) $$ Hst
  icases Hst with ⟨Hdebt, Hrest⟩
  ihave Hx := (Entails.of_eq (held_take (F := F) d (mem_uc main_v20 (by decide)) Vc)) $$ Hh
  icases Hx with ⟨Hg, Hh⟩
  ihave Hx := (Entails.of_eq (held_take (F := F) d (Finset.mem_erase.mpr ⟨StableHlo.devRef_ne_of_ne (x := main_arg8) (y := main_v20) (by decide), mem_uc main_arg8 (by decide)⟩) Vc)) $$ Hh
  icases Hx with ⟨Hw, Hh⟩
  ihave Hx := (Entails.of_eq (held_take (F := F) d (Finset.mem_erase.mpr ⟨StableHlo.devRef_ne_of_ne (x := main_v21) (y := main_arg8) (by decide), Finset.mem_erase.mpr ⟨StableHlo.devRef_ne_of_ne (x := main_v21) (y := main_v20) (by decide), mem_uc main_v21 (by decide)⟩⟩) Vc)) $$ Hh
  icases Hx with ⟨Hbi, Hh⟩
  ihave Hx := (Entails.of_eq (held_take (F := F) d (Finset.mem_erase.mpr ⟨StableHlo.devRef_ne_of_ne (x := main_v22) (y := main_v21) (by decide), Finset.mem_erase.mpr ⟨StableHlo.devRef_ne_of_ne (x := main_v22) (y := main_arg8) (by decide), Finset.mem_erase.mpr ⟨StableHlo.devRef_ne_of_ne (x := main_v22) (y := main_v20) (by decide), mem_uc main_v22 (by decide)⟩⟩⟩) Vc)) $$ Hh
  icases Hx with ⟨Ho, Hh⟩
  ihave Hlev := ((K (F := F)).ctx_levAts (EH := EH) (P := P m) κ) $$ Hctx
  iapply (hr d 4 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPost_eq (F := F) d _ _ _ _ _ _)) $$ Hpost
  icases Hpost with ⟨Hdebt, Hg, Hw, Hbi, ⟨%fo, Ho⟩⟩
  ihave Hst := (Entails.of_eq (LibScRegion.tcSt_open (K (F := F)) EH d 4).symm) $$ [Hdebt Hrest]
  · isplitl [Hdebt] <;> iassumption
  ihave Hh := (held_put (F := F) d (Finset.mem_erase.mpr ⟨StableHlo.devRef_ne_of_ne (x := main_v22) (y := main_v21) (by decide), Finset.mem_erase.mpr ⟨StableHlo.devRef_ne_of_ne (x := main_v22) (y := main_arg8) (by decide), Finset.mem_erase.mpr ⟨StableHlo.devRef_ne_of_ne (x := main_v22) (y := main_v20) (by decide), mem_uc main_v22 (by decide)⟩⟩⟩) Vc fo) $$ [Ho Hh]
  · isplitl [Ho] <;> iassumption
  ihave Hh := (held_put (F := F) d (Finset.mem_erase.mpr ⟨StableHlo.devRef_ne_of_ne (x := main_v21) (y := main_arg8) (by decide), Finset.mem_erase.mpr ⟨StableHlo.devRef_ne_of_ne (x := main_v21) (y := main_v20) (by decide), mem_uc main_v21 (by decide)⟩⟩) (Function.update Vc (dr main_v22) fo) (Vc (dr main_v21))) $$ [Hbi Hh]
  · isplitl [Hbi] <;> iassumption
  ihave Hh := (held_put (F := F) d (Finset.mem_erase.mpr ⟨StableHlo.devRef_ne_of_ne (x := main_arg8) (y := main_v20) (by decide), mem_uc main_arg8 (by decide)⟩) (Function.update (Function.update Vc (dr main_v22) fo) (dr main_v21) (Vc (dr main_v21))) (Vc (dr main_arg8))) $$ [Hw Hh]
  · isplitl [Hw] <;> iassumption
  ihave Hh := (held_put (F := F) d (mem_uc main_v20 (by decide)) (Function.update (Function.update (Function.update Vc (dr main_v22) fo) (dr main_v21) (Vc (dr main_v21))) (dr main_arg8) (Vc (dr main_arg8))) (Vc (dr main_v20))) $$ [Hg Hh]
  · isplitl [Hg] <;> iassumption
  ispecialize Hk $$ %(Function.update (Function.update (Function.update (Function.update Vc (dr main_v22) fo) (dr main_v21) (Vc (dr main_v21))) (dr main_arg8) (Vc (dr main_arg8))) (dr main_v20) (Vc (dr main_v20)))
  iapply Hk
  · ipureintro
    exact keeps_update_at m d (keeps_update_at m d (keeps_update_at m d (keeps_update_at m d hK main_v22 fo (fun h => absurd h (by decide))) main_v21 _ (fun h => absurd h (by decide))) main_arg8 _ (fun _ => hK main_arg8 (by decide))) main_v20 _ (fun h => absurd h (by decide))
  · isplitl [Hst]; · iexact Hst
    isplitl [Hb]; · iexact Hb
    iexact Hh

end Main

end Cert.Proof.KB

end
-- ==== Proof.KbRun.lean ====
/-
  @main of the gather program on the TensorCore, from the launch to the return, and the program's run: every weakly fair
  execution of the TensorCore's @main beside the SparseCores' sequencers and vector subcores terminates, nothing faulting, and
  the thirteen arguments end as they were launched.
-/
import proofs.«208418_g89945205112833_cont_sun_c4_809_35_alg».proof.Proof.KbMain

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Main

variable (m : (ℓ : Loc nD τ sig) → Buf (Elt F) ℓ) (ρ : Dev nD → PrngReg) (d : Dev nD)

variable (hr0 : RegionStep (F := F) 0 main_v5 main_arg5 main_v6 main_v7) (hr1 : RegionStep (F := F) 1 main_v10 main_arg6 main_v11 main_v12)
  (hr2 : RegionStep (F := F) 2 main_v15 main_arg7 main_v16 main_v17) (hr3 : RegionStep (F := F) 3 main_v20 main_arg8 main_v21 main_v22)

omit [FloatOps F] in
theorem FIN_eq : FIN m d = (iprop(∃ Vc : Valuation τ sig (Elt F), ⌜Keeps m d Vc⌝ ∗ StableHlo.held (SparseCore.T d) (Pipeline.ucRefs τ sig) Vc) : sProp 𝕄) := rfl

include hr0 hr1 hr2 hr3 in
set_option maxHeartbeats 4000000 in
set_option backward.isDefEq.respectTransparency.types false in
/-- @main on the TensorCore: the nine stretches of host operations, the four gather calls and the four regions in order; the
    arguments are never written. -/
theorem hmain (κ : GSem nD τ sig → ℕ) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d) fun _ => iprop((K (F := F)).tcSt EH d 4 ∗ FIN m d) := by
  unfold SparseCore.Cfg.tcRes G
  rw [main_eq, show (unscopedBufs d (fun b => m ((SparseCore.T d).loc b)) : sProp 𝕄) = StableHlo.held (SparseCore.T d) (Pipeline.ucRefs τ sig) (V₀ m d) from
    Pipeline.unscopedBufs_held d (V₀ m d), bigSep_fin4, bigSep_fin4]
  iintro ⟨#Hctx, Hst, ⟨Hb, Hh, -, -⟩, ⟨⟨Hg0, Hg1, Hg2, Hg3⟩, ⟨Ht0, Ht1, Ht2, Ht3⟩⟩⟩
  have hK0 : Keeps m d (V₀ m d) := fun _ _ => rfl
  iapply (step_ops m d (ops0 (F := F)) ops0_W ops0_sub ops0_fresh ops0_writes (by decide) _ _ (V₀ m d) hK0)
  isplitl [Hb]; · iexact Hb
  isplitl [Hh]; · iexact Hh
  iintro %V1 %hK1 ⟨Hb, Hh⟩
  iapply (step_run0 m d κ _ _ V1 hK1)
  isplitr; · iexact Hctx
  isplitl [Hst]; · iexact Hst
  isplitl [Hb]; · iexact Hb
  isplitl [Hh]; · iexact Hh
  iintro %V2 %hK2 ⟨Hst, Hb, Hh⟩
  iapply (step_ops m d (ops1 (F := F)) ops1_W ops1_sub ops1_fresh ops1_writes (by decide) _ _ V2 hK2)
  isplitl [Hb]; · iexact Hb
  isplitl [Hh]; · iexact Hh
  iintro %V3 %hK3 ⟨Hb, Hh⟩
  iapply (step_region0 m d hr0 κ _ _ V3 hK3)
  isplitr; · iexact Hctx
  isplitl [Hst]; · iexact Hst
  isplitl [Hb]; · iexact Hb
  isplitl [Hh]; · iexact Hh
  isplitl [Hg0]; · iexact Hg0
  isplitl [Ht0]; · iexact Ht0
  iintro %V4 %hK4 ⟨Hst, Hb, Hh⟩
  iapply (step_ops m d (ops2 (F := F)) ops2_W ops2_sub ops2_fresh ops2_writes (by decide) _ _ V4 hK4)
  isplitl [Hb]; · iexact Hb
  isplitl [Hh]; · iexact Hh
  iintro %V5 %hK5 ⟨Hb, Hh⟩
  iapply (step_run1 m d κ _ _ V5 hK5)
  isplitr; · iexact Hctx
  isplitl [Hst]; · iexact Hst
  isplitl [Hb]; · iexact Hb
  isplitl [Hh]; · iexact Hh
  iintro %V6 %hK6 ⟨Hst, Hb, Hh⟩
  iapply (step_ops m d (ops3 (F := F)) ops3_W ops3_sub ops3_fresh ops3_writes (by decide) _ _ V6 hK6)
  isplitl [Hb]; · iexact Hb
  isplitl [Hh]; · iexact Hh
  iintro %V7 %hK7 ⟨Hb, Hh⟩
  iapply (step_region1 m d hr1 κ _ _ V7 hK7)
  isplitr; · iexact Hctx
  isplitl [Hst]; · iexact Hst
  isplitl [Hb]; · iexact Hb
  isplitl [Hh]; · iexact Hh
  isplitl [Hg1]; · iexact Hg1
  isplitl [Ht1]; · iexact Ht1
  iintro %V8 %hK8 ⟨Hst, Hb, Hh⟩
  iapply (step_ops m d (ops4 (F := F)) ops4_W ops4_sub ops4_fresh ops4_writes (by decide) _ _ V8 hK8)
  isplitl [Hb]; · iexact Hb
  isplitl [Hh]; · iexact Hh
  iintro %V9 %hK9 ⟨Hb, Hh⟩
  iapply (step_run2 m d κ _ _ V9 hK9)
  isplitr; · iexact Hctx
  isplitl [Hst]; · iexact Hst
  isplitl [Hb]; · iexact Hb
  isplitl [Hh]; · iexact Hh
  iintro %V10 %hK10 ⟨Hst, Hb, Hh⟩
  iapply (step_ops m d (ops5 (F := F)) ops5_W ops5_sub ops5_fresh ops5_writes (by decide) _ _ V10 hK10)
  isplitl [Hb]; · iexact Hb
  isplitl [Hh]; · iexact Hh
  iintro %V11 %hK11 ⟨Hb, Hh⟩
  iapply (step_region2 m d hr2 κ _ _ V11 hK11)
  isplitr; · iexact Hctx
  isplitl [Hst]; · iexact Hst
  isplitl [Hb]; · iexact Hb
  isplitl [Hh]; · iexact Hh
  isplitl [Hg2]; · iexact Hg2
  isplitl [Ht2]; · iexact Ht2
  iintro %V12 %hK12 ⟨Hst, Hb, Hh⟩
  iapply (step_ops m d (ops6 (F := F)) ops6_W ops6_sub ops6_fresh ops6_writes (by decide) _ _ V12 hK12)
  isplitl [Hb]; · iexact Hb
  isplitl [Hh]; · iexact Hh
  iintro %V13 %hK13 ⟨Hb, Hh⟩
  iapply (step_run3 m d κ _ _ V13 hK13)
  isplitr; · iexact Hctx
  isplitl [Hst]; · iexact Hst
  isplitl [Hb]; · iexact Hb
  isplitl [Hh]; · iexact Hh
  iintro %V14 %hK14 ⟨Hst, Hb, Hh⟩
  iapply (step_ops m d (ops7 (F := F)) ops7_W ops7_sub ops7_fresh ops7_writes (by decide) _ _ V14 hK14)
  isplitl [Hb]; · iexact Hb
  isplitl [Hh]; · iexact Hh
  iintro %V15 %hK15 ⟨Hb, Hh⟩
  iapply (step_region3 m d hr3 κ _ _ V15 hK15)
  isplitr; · iexact Hctx
  isplitl [Hst]; · iexact Hst
  isplitl [Hb]; · iexact Hb
  isplitl [Hh]; · iexact Hh
  isplitl [Hg3]; · iexact Hg3
  isplitl [Ht3]; · iexact Ht3
  iintro %V16 %hK16 ⟨Hst, Hb, Hh⟩
  iapply (step_ops m d (ops8 (F := F)) ops8_W ops8_sub ops8_fresh ops8_writes (by decide) _ _ V16 hK16)
  isplitl [Hb]; · iexact Hb
  isplitl [Hh]; · iexact Hh
  iintro %V17 %hK17 ⟨Hb, Hh⟩
  rw [wp_pure]; imodintro
  isplitl [Hst]; · iexact Hst
  iapply (Entails.of_eq (FIN_eq m d).symm)
  iexists V17; isplitr
  · ipureintro; exact hK17
  · iexact Hh

end Main

/-! ## The program's run -/

section Run

variable (m : (ℓ : Loc nD τ sig) → Buf (Elt F) ℓ) (ρ : Dev nD → PrngReg)
variable (hr0 : RegionStep (F := F) 0 main_v5 main_arg5 main_v6 main_v7) (hr1 : RegionStep (F := F) 1 main_v10 main_arg6 main_v11 main_v12)
  (hr2 : RegionStep (F := F) 2 main_v15 main_arg7 main_v16 main_v17) (hr3 : RegionStep (F := F) 3 main_v20 main_arg8 main_v21 main_v22)

/-- Every device's thirteen arguments end as they were launched. -/
def QC : PUnit × MemSt nD τ sig (Elt F) → Prop := fun r => ∀ c : Dev nD, ∀ r' ∈ argRefs, r.2.mem (c, dr r') = m (c, dr r')

include hr0 hr1 hr2 hr3 in
theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq | 2 => nomatch hq | 3 => nomatch hq)
    (fun q _ => match q with | 0 => tileObl0 m facts hpre | 1 => tileObl1 m facts hpre | 2 => tileObl2 m facts hpre | 3 => tileObl3 m facts hpre)
    (fun q _ => match q with
      | 0 => SparseCore.Cfg.VecSplit.of_plain (vecSplit0 m) | 1 => SparseCore.Cfg.VecSplit.of_plain (vecSplit1 m)
      | 2 => SparseCore.Cfg.VecSplit.of_plain (vecSplit2 m) | 3 => SparseCore.Cfg.VecSplit.of_plain (vecSplit3 m))
    m ρ main (fun d => G (F := F) d) (fun d => FIN m d) (u₀ (F := F)) (sep_elim_left.trans (hu₀ m))
    (fun κ d => hmain m ρ d hr0 hr1 hr2 hr3 κ) (fq m) (fun d s' => hfin m d s') (QC m) (fun _ h => h)

end Run

end Cert.Proof.KB

end
-- ==== Proof.GemvShares.lean ====
import Idealize.ShloMosaic.Lib.Transfers
import proofs.«208418_g89945205112833_cont_sun_c4_809_35_alg».proof.Proof.ScPay

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (UU)

local notation "𝕄" => MT nD τ sig (HIx 4) (Elt F) ℕ UU ℕ
local notation "Tc" => SparseCore.T (nD := nD) (τ := τ)

/-! ## One array read by eight windows: its full share as a remainder and eight read tokens -/

/-- A conjunction over eight indices, one by one. -/
theorem bigSep_Fin8 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

/-- A whole buffer at the full share is a remainder and eight read tokens of it, -/
theorem split8 (ℓ : Loc nD τ sig) (f : Buf (Elt F) ℓ) :
    (ℓ ↦{fullShare} f : sProp 𝕄) ⊢ iprop((ℓ ↦{Transfers.shareDrop fullShare 8} f)
      ∗ (ℓ ↦{Transfers.shareTok fullShare 8 0} f) ∗ (ℓ ↦{Transfers.shareTok fullShare 8 1} f) ∗ (ℓ ↦{Transfers.shareTok fullShare 8 2} f) ∗ (ℓ ↦{Transfers.shareTok fullShare 8 3} f)
      ∗ (ℓ ↦{Transfers.shareTok fullShare 8 4} f) ∗ (ℓ ↦{Transfers.shareTok fullShare 8 5} f) ∗ (ℓ ↦{Transfers.shareTok fullShare 8 6} f) ∗ (ℓ ↦{Transfers.shareTok fullShare 8 7} f)) := by
  have h := Transfers.pointsTo_toks_split (nD := nD) (τ := τ) (sig := sig) (Ix := HIx 4) (Val := Elt F) (Name := ℕ) (U := UU) (Lvl := ℕ) (ℓ := ℓ) (S := Finset.univ) (f := f) fullShare 8
  rw [bigSep_Fin8] at h; exact h

/-- and they join back into it. -/
theorem join8 (ℓ : Loc nD τ sig) (f : Buf (Elt F) ℓ) :
    iprop((ℓ ↦{Transfers.shareDrop fullShare 8} f)
      ∗ (ℓ ↦{Transfers.shareTok fullShare 8 0} f) ∗ (ℓ ↦{Transfers.shareTok fullShare 8 1} f) ∗ (ℓ ↦{Transfers.shareTok fullShare 8 2} f) ∗ (ℓ ↦{Transfers.shareTok fullShare 8 3} f)
      ∗ (ℓ ↦{Transfers.shareTok fullShare 8 4} f) ∗ (ℓ ↦{Transfers.shareTok fullShare 8 5} f) ∗ (ℓ ↦{Transfers.shareTok fullShare 8 6} f) ∗ (ℓ ↦{Transfers.shareTok fullShare 8 7} f)) ⊢ (ℓ ↦{fullShare} f : sProp 𝕄) := by
  have h := Transfers.pointsTo_toks_join (nD := nD) (τ := τ) (sig := sig) (Ix := HIx 4) (Val := Elt F) (Name := ℕ) (U := UU) (Lvl := ℕ) (ℓ := ℓ) (S := Finset.univ) (f := f) fullShare 8
  rw [bigSep_Fin8] at h; exact h

end Cert.Proof.KI.Gemv1

end
-- ==== Proof.Gemv1Conds.lean ====
import proofs.«208418_g89945205112833_cont_sun_c4_809_35_alg».proof.Proof.Gen.KernelIdeal.Launch
import proofs.«208418_g89945205112833_cont_sun_c4_809_35_alg».proof.Proof.Gen.KernelIdeal.Skeleton
import proofs.«208418_g89945205112833_cont_sun_c4_809_35_alg».proof.Proof.Gen.KernelIdeal.Points
import Idealize.ShloMosaic.Lib.Pipeline.FrameBody
import Idealize.ShloMosaic.Lib.Ring
import Idealize.ShloMosaic.Lib.Tactic
import Idealize.ShloMosaic.Lib.SparseCore.Launch

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The body's two conditionals, in closed form over the grid

The body stores the bias into the output block when the grid coordinate is 0 and applies tanh in place when
it is 3; both conditions are comparisons of the coordinate, decided over the four grid points. -/

/-- The first conditional's condition (the coordinate is 0), as the body computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional's condition (the coordinate is 3), as the body computes it. -/
abbrev cond1_1 (i : grid1.Coords) : Prop := (Scalar.cmpi .ne (Scalar.extui (Scalar.cmpi .eq (BitVec.ofNat 32 (i 0).val) 3#32)) 0#32) = 1#1
/-- It holds at the last point only. -/
theorem hcond1_1 : ∀ t : Fin cfg1.N, cond1_1 (grid1.coords t) ↔ t.val % 4 = 3 :=
  (by decide +kernel : ∀ t : Fin grid1.N, cond1_1 (grid1.coords t) ↔ t.val % 4 = 3)

end Cert.Proof.KI.Gemv1

end
-- ==== Proof.Gemv1RunA.lean ====
import proofs.«208418_g89945205112833_cont_sun_c4_809_35_alg».proof.Proof.Gemv1Conds

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the first grid point (the bias is stored first; no tanh), with the proof that on whole
    staging memrefs — the gathered row, the eight weight blocks and the bias at their contents, the output's at anything —
    the body runs to the continuation holding the inputs as they were and the output's buffer with those pieces written. -/
noncomputable def kernelRun1_A (𝒱₀ : Variants) (c : Dev nD) (i : grid1.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ d, owns (c : Thread nD τ) arg12 fullShare d)
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc1_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_body_eq_skeleton]; unfold cc1_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv1RunB.lean ====
import proofs.«208418_g89945205112833_cont_sun_c4_809_35_alg».proof.Proof.Gemv1RunA

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at a middle grid point (neither conditional taken), with the proof that on whole
    staging memrefs — the gathered row, the eight weight blocks and the bias at their contents, the output's at its running contents —
    the body runs to the continuation holding the inputs as they were and the output's buffer with those pieces written. -/
noncomputable def kernelRun1_B (𝒱₀ : Variants) (c : Dev nD) (i : grid1.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc1_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_body_eq_skeleton]; unfold cc1_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv1RunC.lean ====
import proofs.«208418_g89945205112833_cont_sun_c4_809_35_alg».proof.Proof.Gemv1RunB

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the last grid point (tanh applied at the end), with the proof that on whole
    staging memrefs — the gathered row, the eight weight blocks and the bias at their contents, the output's at its running contents —
    the body runs to the continuation holding the inputs as they were and the output's buffer with those pieces written. -/
noncomputable def kernelRun1_C (𝒱₀ : Variants) (c : Dev nD) (i : grid1.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond1_0 i) (hc1 : cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc1_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_body_eq_skeleton]; unfold cc1_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv1Outs.lean ====
import proofs.«208418_g89945205112833_cont_sun_c4_809_35_alg».proof.Proof.Gemv1RunC

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The staging memrefs at a point, and the output's view -/

/-- One staging buffer of the output window, through which its contents are stated. -/
abbrev VO1 : View sig .tc .vmem S1x4096 .f32 := (Memref.whole cc1_stg10_0 : Memref sig .tc .vmem S1x4096 .f32).view
abbrev ms1_0 (t : Fin cfg1.N) : Memref sig .tc .vmem S1x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x4096 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x4096 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x4096 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x4096 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x4096 .f32 := win1_10.stage (cfg1.slots t 10)
abbrev hs1_10 (t : Fin cfg1.N) : (ms1_10 t).IsWhole := hstage1_10 ((cfg1.slots t 10).cast nbuf1_10)

/-! ## What each control case leaves in the output's staging buffer -/

/-- Case A's pieces tile the output block, so they cover it. -/
theorem cover1_A (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (y : S1x4096.Idx) :
    ∃ pc ∈ (kernelRun1_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1, y ∈ pc.1.set :=
  View.cover_of_tiledL (kernelRun1_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1 S1x4096.size (by sl_kernel_rfl) y

/-- What case A leaves in the output's staging buffer: its pieces read back over junk. -/
def out1_A (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) : Vec F S1x4096 .f32 :=
  VO1.read (Elt F) (VO1.writes (Elt F) VO1.junk (kernelRun1_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1)

/-- Case B's pieces tile the output block, so they cover it. -/
theorem cover1_B (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun1_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun1_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case B leaves in the output's staging buffer: its pieces read back over junk. -/
def out1_B (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO1.read (Elt F) (VO1.writes (Elt F) VO1.junk (kernelRun1_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

/-- Case C's pieces tile the output block, so they cover it. -/
theorem cover1_C (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun1_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun1_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case C leaves in the output's staging buffer: its pieces read back over junk. -/
def out1_C (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO1.read (Elt F) (VO1.writes (Elt F) VO1.junk (kernelRun1_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

section Region
variable (𝒱₀ : Variants) (c : Dev nD) (V : (b : Ref sig .tc) → Buf (Elt F) ((c.tc : Thread nD τ).loc b))

/-! ## The windows' blocks, read off the arrays as the region finds them -/

/-- Window `w`'s block at point `t`, read off its array at the entry contents `V`. -/
def iblk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- Input window 0's current staging buffer holds its block at every point, fetched there or not. -/
theorem before1_0_of (dat : Dat τ (Elt F) (HIx 4) Name U ℕ cfg1 c) (hA : dat.A 0 = V (Pipeline.arrRef spec1 0))
    (hafter : ∀ t, dat.after 0 t = iblk1 c V 0 t) (t : Fin cfg1.N) (d) : dat.before 0 t d = iblk1 c V 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of (dat : Dat τ (Elt F) (HIx 4) Name U ℕ cfg1 c) (hA : dat.A 1 = V (Pipeline.arrRef spec1 1))
    (hafter : ∀ t, dat.after 1 t = iblk1 c V 1 t) (t : Fin cfg1.N) (d) : dat.before 1 t d = iblk1 c V 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of (dat : Dat τ (Elt F) (HIx 4) Name U ℕ cfg1 c) (hA : dat.A 2 = V (Pipeline.arrRef spec1 2))
    (hafter : ∀ t, dat.after 2 t = iblk1 c V 2 t) (t : Fin cfg1.N) (d) : dat.before 2 t d = iblk1 c V 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of (dat : Dat τ (Elt F) (HIx 4) Name U ℕ cfg1 c) (hA : dat.A 3 = V (Pipeline.arrRef spec1 3))
    (hafter : ∀ t, dat.after 3 t = iblk1 c V 3 t) (t : Fin cfg1.N) (d) : dat.before 3 t d = iblk1 c V 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of (dat : Dat τ (Elt F) (HIx 4) Name U ℕ cfg1 c) (hA : dat.A 4 = V (Pipeline.arrRef spec1 4))
    (hafter : ∀ t, dat.after 4 t = iblk1 c V 4 t) (t : Fin cfg1.N) (d) : dat.before 4 t d = iblk1 c V 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of (dat : Dat τ (Elt F) (HIx 4) Name U ℕ cfg1 c) (hA : dat.A 5 = V (Pipeline.arrRef spec1 5))
    (hafter : ∀ t, dat.after 5 t = iblk1 c V 5 t) (t : Fin cfg1.N) (d) : dat.before 5 t d = iblk1 c V 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of (dat : Dat τ (Elt F) (HIx 4) Name U ℕ cfg1 c) (hA : dat.A 6 = V (Pipeline.arrRef spec1 6))
    (hafter : ∀ t, dat.after 6 t = iblk1 c V 6 t) (t : Fin cfg1.N) (d) : dat.before 6 t d = iblk1 c V 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of (dat : Dat τ (Elt F) (HIx 4) Name U ℕ cfg1 c) (hA : dat.A 7 = V (Pipeline.arrRef spec1 7))
    (hafter : ∀ t, dat.after 7 t = iblk1 c V 7 t) (t : Fin cfg1.N) (d) : dat.before 7 t d = iblk1 c V 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of (dat : Dat τ (Elt F) (HIx 4) Name U ℕ cfg1 c) (hA : dat.A 8 = V (Pipeline.arrRef spec1 8))
    (hafter : ∀ t, dat.after 8 t = iblk1 c V 8 t) (t : Fin cfg1.N) (d) : dat.before 8 t d = iblk1 c V 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of (dat : Dat τ (Elt F) (HIx 4) Name U ℕ cfg1 c) (hA : dat.A 9 = V (Pipeline.arrRef spec1 9))
    (hafter : ∀ t, dat.after 9 t = iblk1 c V 9 t) (t : Fin cfg1.N) (d) : dat.before 9 t d = iblk1 c V 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## What the output's staging buffer holds after each point -/

/-- The accumulation: what the output's staging buffer holds after the body at position `n` — the case the closed
    forms select there, run at the point's memrefs and input blocks, over what the point before left (the buffer
    is not written back between). -/
def outsAt1 : (n : ℕ) → n < cfg1.N → Vec F S1x4096 .f32
  | 0, hn => out1_A (Name := Name) (U := U) 𝒱₀ c (grid1.coords ⟨0, hn⟩) (Memref.whole main_v2) (Memref.isWhole_whole _) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (Nat.zero_mod _)) (fun h => by have := (hcond1_1 ⟨0, hn⟩).mp h; dsimp only at this; omega) (iblk1 c V 0 ⟨0, hn⟩) (iblk1 c V 1 ⟨0, hn⟩) (iblk1 c V 2 ⟨0, hn⟩) (iblk1 c V 3 ⟨0, hn⟩) (iblk1 c V 4 ⟨0, hn⟩) (iblk1 c V 5 ⟨0, hn⟩) (iblk1 c V 6 ⟨0, hn⟩) (iblk1 c V 7 ⟨0, hn⟩) (iblk1 c V 8 ⟨0, hn⟩) (iblk1 c V 9 ⟨0, hn⟩)
  | n + 1, hn =>
    if h0 : (n + 1) % 4 = 0 then
      out1_A (Name := Name) (U := U) 𝒱₀ c (grid1.coords ⟨n + 1, hn⟩) (Memref.whole main_v2) (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => by have := (hcond1_1 ⟨n + 1, hn⟩).mp h; dsimp only at this; omega) (iblk1 c V 0 ⟨n + 1, hn⟩) (iblk1 c V 1 ⟨n + 1, hn⟩) (iblk1 c V 2 ⟨n + 1, hn⟩) (iblk1 c V 3 ⟨n + 1, hn⟩) (iblk1 c V 4 ⟨n + 1, hn⟩) (iblk1 c V 5 ⟨n + 1, hn⟩) (iblk1 c V 6 ⟨n + 1, hn⟩) (iblk1 c V 7 ⟨n + 1, hn⟩) (iblk1 c V 8 ⟨n + 1, hn⟩) (iblk1 c V 9 ⟨n + 1, hn⟩)
    else if h3 : (n + 1) % 4 = 3 then
      out1_C (Name := Name) (U := U) 𝒱₀ c (grid1.coords ⟨n + 1, hn⟩) (Memref.whole main_v2) (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h3) (iblk1 c V 0 ⟨n + 1, hn⟩) (iblk1 c V 1 ⟨n + 1, hn⟩) (iblk1 c V 2 ⟨n + 1, hn⟩) (iblk1 c V 3 ⟨n + 1, hn⟩) (iblk1 c V 4 ⟨n + 1, hn⟩) (iblk1 c V 5 ⟨n + 1, hn⟩) (iblk1 c V 6 ⟨n + 1, hn⟩) (iblk1 c V 7 ⟨n + 1, hn⟩) (iblk1 c V 8 ⟨n + 1, hn⟩) (iblk1 c V 9 ⟨n + 1, hn⟩) (outsAt1 n (Nat.lt_of_succ_lt hn))
    else
      out1_B (Name := Name) (U := U) 𝒱₀ c (grid1.coords ⟨n + 1, hn⟩) (Memref.whole main_v2) (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) (fun h => h3 ((hcond1_1 ⟨n + 1, hn⟩).mp h)) (iblk1 c V 0 ⟨n + 1, hn⟩) (iblk1 c V 1 ⟨n + 1, hn⟩) (iblk1 c V 2 ⟨n + 1, hn⟩) (iblk1 c V 3 ⟨n + 1, hn⟩) (iblk1 c V 4 ⟨n + 1, hn⟩) (iblk1 c V 5 ⟨n + 1, hn⟩) (iblk1 c V 6 ⟨n + 1, hn⟩) (iblk1 c V 7 ⟨n + 1, hn⟩) (iblk1 c V 8 ⟨n + 1, hn⟩) (iblk1 c V 9 ⟨n + 1, hn⟩) (outsAt1 n (Nat.lt_of_succ_lt hn))

/-- `outsAt1` at a point of case A. -/
theorem outsAt1_A (t : Fin cfg1.N) (h0 : t.val % 4 = 0) :
    outsAt1 (Name := Name) (U := U) 𝒱₀ c V t.val t.isLt = out1_A (Name := Name) (U := U) 𝒱₀ c (grid1.coords t) (Memref.whole main_v2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => by have := (hcond1_1 t).mp h; omega) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) := by
  obtain ⟨n, hn⟩ := t
  cases n with
  | zero => exact rfl
  | succ n => exact (dif_pos h0).trans rfl

/-- `outsAt1` at a point of case C: over what the point before left. -/
theorem outsAt1_C (t : Fin cfg1.N) (h0 : ¬t.val % 4 = 0) (h3 : t.val % 4 = 3) :
    outsAt1 (Name := Name) (U := U) 𝒱₀ c V t.val t.isLt = out1_C (Name := Name) (U := U) 𝒱₀ c (grid1.coords t) (Memref.whole main_v2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h3) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) (outsAt1 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- `outsAt1` at a point of case B: over what the point before left. -/
theorem outsAt1_B (t : Fin cfg1.N) (h0 : ¬t.val % 4 = 0) (h3 : ¬t.val % 4 = 3) :
    outsAt1 (Name := Name) (U := U) 𝒱₀ c V t.val t.isLt = out1_B (Name := Name) (U := U) 𝒱₀ c (grid1.coords t) (Memref.whole main_v2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (fun h => h3 ((hcond1_1 t).mp h)) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) (outsAt1 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

end Region

end Cert.Proof.KI.Gemv1

end
-- ==== Proof.Gemv1Frame.lean ====
import proofs.«208418_g89945205112833_cont_sun_c4_809_35_alg».proof.Proof.Gemv1Outs

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

section Region
variable (𝒱₀ : Variants) (c : Dev nD) (V : (b : Ref sig .tc) → Buf (Elt F) ((c.tc : Thread nD τ).loc b))

/-! ## The pipeline's proof data -/

/-- The proof data of this pipeline on core `c`: the arrays as the region finds them (`V`); after the body at point
    `t` each input's buffer at its block and the output's at `outsAt1`; a constant invariant `Φ₀` the body does
    not read; the input shares `q₀`; constant tallies `owed₀` and recorded bound `rec₀` (the body neither signals
    nor waits). -/
def dat1 (Φ₀ : sProp 𝕄) (q₀ : Fin cfg1.W → PosShare TreeShare) (owed₀ : CellTallies nD τ sig (HIx 4)) (rec₀ : Set (SemLoc sig × HIx 4)) : Dat τ (Elt F) (HIx 4) Name U ℕ cfg1 c where
  A w := V (Pipeline.arrRef spec1 w)
  after w t := match w with
    | ⟨0, _⟩ => iblk1 c V 0 t
    | ⟨1, _⟩ => iblk1 c V 1 t
    | ⟨2, _⟩ => iblk1 c V 2 t
    | ⟨3, _⟩ => iblk1 c V 3 t
    | ⟨4, _⟩ => iblk1 c V 4 t
    | ⟨5, _⟩ => iblk1 c V 5 t
    | ⟨6, _⟩ => iblk1 c V 6 t
    | ⟨7, _⟩ => iblk1 c V 7 t
    | ⟨8, _⟩ => iblk1 c V 8 t
    | ⟨9, _⟩ => iblk1 c V 9 t
    | ⟨10, _⟩ => outsAt1 (Name := Name) (U := U) 𝒱₀ c V t.val t.isLt
  Φ _ := Φ₀
  q := q₀
  owed _ := owed₀
  recorded _ := rec₀

/-- The proof data's arrays are the region-entry contents. -/
theorem A_eq1 (Φ₀ : sProp 𝕄) (q₀ : Fin cfg1.W → PosShare TreeShare) (owed₀ : CellTallies nD τ sig (HIx 4)) (rec₀ : Set (SemLoc sig × HIx 4)) (w : Fin cfg1.W) : (dat1 𝒱₀ c V Φ₀ q₀ owed₀ rec₀).A w = V (Pipeline.arrRef spec1 w) := by
  dsimp only [dat1]

theorem after1_0 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 0 t = iblk1 c V 0 t := by dsimp only [dat1]
theorem after1_1 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 1 t = iblk1 c V 1 t := by dsimp only [dat1]
theorem after1_2 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 2 t = iblk1 c V 2 t := by dsimp only [dat1]
theorem after1_3 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 3 t = iblk1 c V 3 t := by dsimp only [dat1]
theorem after1_4 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 4 t = iblk1 c V 4 t := by dsimp only [dat1]
theorem after1_5 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 5 t = iblk1 c V 5 t := by dsimp only [dat1]
theorem after1_6 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 6 t = iblk1 c V 6 t := by dsimp only [dat1]
theorem after1_7 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 7 t = iblk1 c V 7 t := by dsimp only [dat1]
theorem after1_8 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 8 t = iblk1 c V 8 t := by dsimp only [dat1]
theorem after1_9 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 9 t = iblk1 c V 9 t := by dsimp only [dat1]
theorem after1_10 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 10 t = outsAt1 (Name := Name) (U := U) 𝒱₀ c V t.val t.isLt := by dsimp only [dat1]

theorem before1_0 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 0 t d = iblk1 c V 0 t :=
  before1_0_of c V (dat1 𝒱₀ c V Φ₀ q₀ owed₀ rec₀) (A_eq1 𝒱₀ c V Φ₀ q₀ owed₀ rec₀ 0) (after1_0 𝒱₀ c V Φ₀ q₀ owed₀ rec₀) t d
theorem before1_1 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 1 t d = iblk1 c V 1 t :=
  before1_1_of c V (dat1 𝒱₀ c V Φ₀ q₀ owed₀ rec₀) (A_eq1 𝒱₀ c V Φ₀ q₀ owed₀ rec₀ 1) (after1_1 𝒱₀ c V Φ₀ q₀ owed₀ rec₀) t d
theorem before1_2 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 2 t d = iblk1 c V 2 t :=
  before1_2_of c V (dat1 𝒱₀ c V Φ₀ q₀ owed₀ rec₀) (A_eq1 𝒱₀ c V Φ₀ q₀ owed₀ rec₀ 2) (after1_2 𝒱₀ c V Φ₀ q₀ owed₀ rec₀) t d
theorem before1_3 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 3 t d = iblk1 c V 3 t :=
  before1_3_of c V (dat1 𝒱₀ c V Φ₀ q₀ owed₀ rec₀) (A_eq1 𝒱₀ c V Φ₀ q₀ owed₀ rec₀ 3) (after1_3 𝒱₀ c V Φ₀ q₀ owed₀ rec₀) t d
theorem before1_4 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 4 t d = iblk1 c V 4 t :=
  before1_4_of c V (dat1 𝒱₀ c V Φ₀ q₀ owed₀ rec₀) (A_eq1 𝒱₀ c V Φ₀ q₀ owed₀ rec₀ 4) (after1_4 𝒱₀ c V Φ₀ q₀ owed₀ rec₀) t d
theorem before1_5 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 5 t d = iblk1 c V 5 t :=
  before1_5_of c V (dat1 𝒱₀ c V Φ₀ q₀ owed₀ rec₀) (A_eq1 𝒱₀ c V Φ₀ q₀ owed₀ rec₀ 5) (after1_5 𝒱₀ c V Φ₀ q₀ owed₀ rec₀) t d
theorem before1_6 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 6 t d = iblk1 c V 6 t :=
  before1_6_of c V (dat1 𝒱₀ c V Φ₀ q₀ owed₀ rec₀) (A_eq1 𝒱₀ c V Φ₀ q₀ owed₀ rec₀ 6) (after1_6 𝒱₀ c V Φ₀ q₀ owed₀ rec₀) t d
theorem before1_7 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 7 t d = iblk1 c V 7 t :=
  before1_7_of c V (dat1 𝒱₀ c V Φ₀ q₀ owed₀ rec₀) (A_eq1 𝒱₀ c V Φ₀ q₀ owed₀ rec₀ 7) (after1_7 𝒱₀ c V Φ₀ q₀ owed₀ rec₀) t d
theorem before1_8 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 8 t d = iblk1 c V 8 t :=
  before1_8_of c V (dat1 𝒱₀ c V Φ₀ q₀ owed₀ rec₀) (A_eq1 𝒱₀ c V Φ₀ q₀ owed₀ rec₀ 8) (after1_8 𝒱₀ c V Φ₀ q₀ owed₀ rec₀) t d
theorem before1_9 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 9 t d = iblk1 c V 9 t :=
  before1_9_of c V (dat1 𝒱₀ c V Φ₀ q₀ owed₀ rec₀) (A_eq1 𝒱₀ c V Φ₀ q₀ owed₀ rec₀ 9) (after1_9 𝒱₀ c V Φ₀ q₀ owed₀ rec₀) t d

/-- After the first point the output's current staging buffer holds what the body left at the point before: the
    buffer is written back at the last point only. -/
theorem before1_10_kept (Φ₀ : sProp 𝕄) (q₀ : Fin cfg1.W → PosShare TreeShare) (owed₀ : CellTallies nD τ sig (HIx 4)) (rec₀ : Set (SemLoc sig × HIx 4)) (t : Fin cfg1.N) (h0 : ¬t.val % 4 = 0) (d) :
    (dat1 𝒱₀ c V Φ₀ q₀ owed₀ rec₀).before 10 t d = outsAt1 (Name := Name) (U := U) 𝒱₀ c V (t.val - 1) (Nat.lt_of_le_of_lt (Nat.sub_le _ _) t.isLt) := by
  have hN : t.val < 4 := lt_of_lt_of_eq t.isLt (show cfg1.N = 4 from N_1)
  rw [Dat.before_out_kept _ 10 rfl t (by omega) (Bool.eq_false_iff.mpr fun h => by have := (flush1_10 _).mp h; dsimp only at this; omega)
    (fun _ => rfl) (fun _ _ => rfl)]
  dsimp only [dat1]

/-! ## The body obligation, at a generic point -/

/-- What the body is called with at point `t`, the windows one by one, -/
def bodyPre1 (Φ₀ : sProp 𝕄) (q₀ : Fin cfg1.W → PosShare TreeShare) (owed₀ : CellTallies nD τ sig (HIx 4)) (rec₀ : Set (SemLoc sig × HIx 4)) (t : Fin cfg1.N) : sProp 𝕄 :=
  iprop((dat1 𝒱₀ c V Φ₀ q₀ owed₀ rec₀).Φ t.castSucc ∗ (dat1 𝒱₀ c V Φ₀ q₀ owed₀ rec₀).owesAt none t.castSucc
    ∗ (∃ d, owns (c : Thread nD τ) (ms1_0 t) fullShare ((dat1 𝒱₀ c V Φ₀ q₀ owed₀ rec₀).before 0 t d))
    ∗ (∃ d, owns (c : Thread nD τ) (ms1_1 t) fullShare ((dat1 𝒱₀ c V Φ₀ q₀ owed₀ rec₀).before 1 t d))
    ∗ (∃ d, owns (c : Thread nD τ) (ms1_2 t) fullShare ((dat1 𝒱₀ c V Φ₀ q₀ owed₀ rec₀).before 2 t d))
    ∗ (∃ d, owns (c : Thread nD τ) (ms1_3 t) fullShare ((dat1 𝒱₀ c V Φ₀ q₀ owed₀ rec₀).before 3 t d))
    ∗ (∃ d, owns (c : Thread nD τ) (ms1_4 t) fullShare ((dat1 𝒱₀ c V Φ₀ q₀ owed₀ rec₀).before 4 t d))
    ∗ (∃ d, owns (c : Thread nD τ) (ms1_5 t) fullShare ((dat1 𝒱₀ c V Φ₀ q₀ owed₀ rec₀).before 5 t d))
    ∗ (∃ d, owns (c : Thread nD τ) (ms1_6 t) fullShare ((dat1 𝒱₀ c V Φ₀ q₀ owed₀ rec₀).before 6 t d))
    ∗ (∃ d, owns (c : Thread nD τ) (ms1_7 t) fullShare ((dat1 𝒱₀ c V Φ₀ q₀ owed₀ rec₀).before 7 t d))
    ∗ (∃ d, owns (c : Thread nD τ) (ms1_8 t) fullShare ((dat1 𝒱₀ c V Φ₀ q₀ owed₀ rec₀).before 8 t d))
    ∗ (∃ d, owns (c : Thread nD τ) (ms1_9 t) fullShare ((dat1 𝒱₀ c V Φ₀ q₀ owed₀ rec₀).before 9 t d))
    ∗ (∃ d, owns (c : Thread nD τ) (ms1_10 t) fullShare ((dat1 𝒱₀ c V Φ₀ q₀ owed₀ rec₀).before 10 t d)))

/-- and what it returns. -/
def bodyPost1 (Φ₀ : sProp 𝕄) (q₀ : Fin cfg1.W → PosShare TreeShare) (owed₀ : CellTallies nD τ sig (HIx 4)) (rec₀ : Set (SemLoc sig × HIx 4)) (t : Fin cfg1.N) : sProp 𝕄 :=
  iprop((dat1 𝒱₀ c V Φ₀ q₀ owed₀ rec₀).Φ t.succ ∗ (dat1 𝒱₀ c V Φ₀ q₀ owed₀ rec₀).owesAt none t.succ
    ∗ owns (c : Thread nD τ) (ms1_0 t) fullShare ((dat1 𝒱₀ c V Φ₀ q₀ owed₀ rec₀).after 0 t)
    ∗ owns (c : Thread nD τ) (ms1_1 t) fullShare ((dat1 𝒱₀ c V Φ₀ q₀ owed₀ rec₀).after 1 t)
    ∗ owns (c : Thread nD τ) (ms1_2 t) fullShare ((dat1 𝒱₀ c V Φ₀ q₀ owed₀ rec₀).after 2 t)
    ∗ owns (c : Thread nD τ) (ms1_3 t) fullShare ((dat1 𝒱₀ c V Φ₀ q₀ owed₀ rec₀).after 3 t)
    ∗ owns (c : Thread nD τ) (ms1_4 t) fullShare ((dat1 𝒱₀ c V Φ₀ q₀ owed₀ rec₀).after 4 t)
    ∗ owns (c : Thread nD τ) (ms1_5 t) fullShare ((dat1 𝒱₀ c V Φ₀ q₀ owed₀ rec₀).after 5 t)
    ∗ owns (c : Thread nD τ) (ms1_6 t) fullShare ((dat1 𝒱₀ c V Φ₀ q₀ owed₀ rec₀).after 6 t)
    ∗ owns (c : Thread nD τ) (ms1_7 t) fullShare ((dat1 𝒱₀ c V Φ₀ q₀ owed₀ rec₀).after 7 t)
    ∗ owns (c : Thread nD τ) (ms1_8 t) fullShare ((dat1 𝒱₀ c V Φ₀ q₀ owed₀ rec₀).after 8 t)
    ∗ owns (c : Thread nD τ) (ms1_9 t) fullShare ((dat1 𝒱₀ c V Φ₀ q₀ owed₀ rec₀).after 9 t)
    ∗ owns (c : Thread nD τ) (ms1_10 t) fullShare ((dat1 𝒱₀ c V Φ₀ q₀ owed₀ rec₀).after 10 t))

set_option maxHeartbeats 1600000 in
/-- The body at any point: the inputs' memrefs hold their blocks; the closed forms say which case the point is in, and
    after the first point the output's buffer holds what the point before left; so the case's run applies; the
    invariant and what the core owes pass through unread. -/
theorem sound_body1 (Φ₀ : sProp 𝕄) (q₀ : Fin cfg1.W → PosShare TreeShare) (owed₀ : CellTallies nD τ sig (HIx 4)) (rec₀ : Set (SemLoc sig × HIx 4)) (t : Fin cfg1.N) :
    bodyPre1 (Name := Name) (U := U) 𝒱₀ c V Φ₀ q₀ owed₀ rec₀ t ⊢ wp frame (wpE (defs₀ (F := F)) 𝒱₀ c none) Set.univ (bodyAt1 t) (fun _ => bodyPost1 (Name := Name) (U := U) 𝒱₀ c V Φ₀ q₀ owed₀ rec₀ t) := by
  unfold bodyPre1 bodyPost1 bodyAt1
  simp only [before1_0, before1_1, before1_2, before1_3, before1_4, before1_5, before1_6, before1_7, before1_8, before1_9]
  rw [show (dat1 𝒱₀ c V Φ₀ q₀ owed₀ rec₀).Φ t.succ = (dat1 𝒱₀ c V Φ₀ q₀ owed₀ rec₀).Φ t.castSucc from rfl,
    show (dat1 𝒱₀ c V Φ₀ q₀ owed₀ rec₀).owesAt none t.succ = (dat1 𝒱₀ c V Φ₀ q₀ owed₀ rec₀).owesAt none t.castSucc from rfl,
    after1_0, after1_1, after1_2, after1_3, after1_4, after1_5, after1_6, after1_7, after1_8, after1_9, after1_10]
  have hN : t.val < 4 := lt_of_lt_of_eq t.isLt (show cfg1.N = 4 from N_1)
  by_cases h0 : t.val % 4 = 0
  ·
    rw [outsAt1_A 𝒱₀ c V t h0]
    unfold out1_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A (Name := Name) (U := U) 𝒱₀ c (grid1.coords t) _ _ _ _ _ _ _ _ _ _ _ _ _ _ _ _ _ _ _ _ _ _ _ _ ((hcond1_0 t).mpr h0) (fun h => by have := (hcond1_1 t).mp h; omega) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover1_A 𝒱₀ c _ _ _ _ _ _ _ _ _ _ _ _ _ _ _ _ _ _ _ _ _ _ _ _ _ _ _ _ _ _ _ _ _ _ _ _ _)
  · by_cases h3 : t.val % 4 = 3
    ·
      rw [outsAt1_C 𝒱₀ c V t h0 h3]
      simp only [before1_10_kept 𝒱₀ c V Φ₀ q₀ owed₀ rec₀ t h0]
      unfold out1_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C (Name := Name) (U := U) 𝒱₀ c (grid1.coords t) _ _ _ _ _ _ _ _ _ _ _ _ _ _ _ _ _ _ _ _ _ _ _ _ (fun h => h0 ((hcond1_0 t).mp h)) ((hcond1_1 t).mpr h3) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_C 𝒱₀ c _ _ _ _ _ _ _ _ _ _ _ _ _ _ _ _ _ _ _ _ _ _ _ _ _ _ _ _ _ _ _ _ _ _ _ _ _ _)
    ·
      rw [outsAt1_B 𝒱₀ c V t h0 h3]
      simp only [before1_10_kept 𝒱₀ c V Φ₀ q₀ owed₀ rec₀ t h0]
      unfold out1_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B (Name := Name) (U := U) 𝒱₀ c (grid1.coords t) _ _ _ _ _ _ _ _ _ _ _ _ _ _ _ _ _ _ _ _ _ _ _ _ (fun h => h0 ((hcond1_0 t).mp h)) (fun h => h3 ((hcond1_1 t).mp h)) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_B 𝒱₀ c _ _ _ _ _ _ _ _ _ _ _ _ _ _ _ _ _ _ _ _ _ _ _ _ _ _ _ _ _ _ _ _ _ _ _ _ _ _)

/-- The library's body obligation, at every point. -/
theorem body_obligation1_exact (Φ₀ : sProp 𝕄) (q₀ : Fin cfg1.W → PosShare TreeShare) (owed₀ : CellTallies nD τ sig (HIx 4)) (rec₀ : Set (SemLoc sig × HIx 4)) : BodyObligation (dat1 (F := F) (Name := Name) (U := U) 𝒱₀ c V Φ₀ q₀ owed₀ rec₀) (defs₀ (F := F)) 𝒱₀ none Set.univ := fun t => by
  rw [bigSep_W1, bigSep_W1]
  exact sound_body1 𝒱₀ c V Φ₀ q₀ owed₀ rec₀ t

/-- The body obligation as the pipeline's loop uses it. -/
theorem body_obligation1 (Φ₀ : sProp 𝕄) (q₀ : Fin cfg1.W → PosShare TreeShare) (owed₀ : CellTallies nD τ sig (HIx 4)) (rec₀ : Set (SemLoc sig × HIx 4)) : BodyObligationLoose (dat1 (F := F) (Name := Name) (U := U) 𝒱₀ c V Φ₀ q₀ owed₀ rec₀) (defs₀ (F := F)) 𝒱₀ none Set.univ :=
  (body_obligation1_exact 𝒱₀ c V Φ₀ q₀ owed₀ rec₀).loose

end Region

end Cert.Proof.KI.Gemv1

end
-- ==== Proof.Gemv1Entry.lean ====
import proofs.«208418_g89945205112833_cont_sun_c4_809_35_alg».proof.Proof.ScPay
import proofs.«208418_g89945205112833_cont_sun_c4_809_35_alg».proof.Proof.LibScRegion
import proofs.«208418_g89945205112833_cont_sun_c4_809_35_alg».proof.Proof.LibReadShares
import proofs.«208418_g89945205112833_cont_sun_c4_809_35_alg».proof.Proof.GemvShares
import proofs.«208418_g89945205112833_cont_sun_c4_809_35_alg».proof.Proof.Gemv1Frame

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU)
open Cert.Proof

local notation "𝕄" => MT nD τ sig (HIx 4) (Elt F) ℕ UU ℕ
local notation "Tc" => SparseCore.T (nD := nD) (τ := τ)

/-! ## The region's proof data at the call site, and its entry and exit -/

/-- The share each input window holds of its array: the gathered row and the bias whole; the eight weight windows, which
    stage one array, one read token each of its full share (the remainder bypasses the region). -/
def q1 : Fin cfg1.W → PosShare TreeShare
  | ⟨0, _⟩ => fullShare
  | ⟨1, _⟩ => Transfers.shareTok fullShare 8 0
  | ⟨2, _⟩ => Transfers.shareTok fullShare 8 1
  | ⟨3, _⟩ => Transfers.shareTok fullShare 8 2
  | ⟨4, _⟩ => Transfers.shareTok fullShare 8 3
  | ⟨5, _⟩ => Transfers.shareTok fullShare 8 4
  | ⟨6, _⟩ => Transfers.shareTok fullShare 8 5
  | ⟨7, _⟩ => Transfers.shareTok fullShare 8 6
  | ⟨8, _⟩ => Transfers.shareTok fullShare 8 7
  | ⟨9, _⟩ => fullShare
  | ⟨10, _⟩ => fullShare

/-- The invariant the body passes through unread: the core's scoped buffers that are no staging buffer. -/
def Φr1 (c : Dev nD) : sProp 𝕄 := Pipeline.scopedRest (Ix := HIx 4) (Name := ℕ) (U := UU) (Lvl := ℕ) (Val := Elt F) spec1 c

/-- The region's proof data on core `c` before call `n`, at entry contents `V`: the debt carried unchanged. -/
def rdat1 (c : Dev nD) (n : ℕ) (V : (b : Ref sig .tc) → Buf (Elt F) ((c.tc : Thread nD τ).loc b)) : Dat τ (Elt F) (HIx 4) ℕ UU ℕ cfg1 c :=
  dat1 (Name := ℕ) (U := UU) 𝒱₀ c V (Φr1 c) q1 ((K (F := F)).Otc c n) (LibScRegion.rcAt (K (F := F)) c n)

/-- What the region is entered from: the debt with its bound, and the four arrays whole. -/
def pre1 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v5) ↦{fullShare} V main_v5) ∗ (((Tc c).loc main_arg5) ↦{fullShare} V main_arg5) ∗ (((Tc c).loc main_v6) ↦{fullShare} V main_v6) ∗ (((Tc c).loc main_v7) ↦{fullShare} V main_v7))

/-- What it leaves: the same, the output array at whatever the region wrote. -/
def post1 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v5) ↦{fullShare} V main_v5) ∗ (((Tc c).loc main_arg5) ↦{fullShare} V main_arg5) ∗ (((Tc c).loc main_v6) ↦{fullShare} V main_v6) ∗ (∃ f, ((Tc c).loc main_v7) ↦{fullShare} f))

/-- The weights' share that bypasses the region. -/
def Z1 (c : Dev nD) (V : (b : Ref sig .tc) → Buf (Elt F) ((Tc c).loc b)) : sProp 𝕄 :=
  ((Tc c).loc main_arg5) ↦{Transfers.shareDrop fullShare 8} V main_arg5

/-! ### Each window's array, as the whole buffer behind it at the window's share -/

theorem arrPt1_0 (c : Dev nD) (n : ℕ) (V : (b : Ref sig .tc) → Buf (Elt F) ((Tc c).loc b)) (X : Buf (Elt F) ((cfg1.win 0).arr.view.loc (c.tc : Thread nD τ))) :
    ((cfg1.win 0).arr.view.loc (c.tc : Thread nD τ) ↦[(cfg1.win 0).arr.view.set]{(rdat1 c n V).share 0} X : sProp 𝕄)
      = (((Tc c).loc main_v5) ↦{fullShare} X) := by
  have h : (cfg1.win 0).arr.IsWhole := arr_whole1 0
  rw [h.set_eq_univ]; rfl

theorem arrPt1_1 (c : Dev nD) (n : ℕ) (V : (b : Ref sig .tc) → Buf (Elt F) ((Tc c).loc b)) (X : Buf (Elt F) ((cfg1.win 1).arr.view.loc (c.tc : Thread nD τ))) :
    ((cfg1.win 1).arr.view.loc (c.tc : Thread nD τ) ↦[(cfg1.win 1).arr.view.set]{(rdat1 c n V).share 1} X : sProp 𝕄)
      = (((Tc c).loc main_arg5) ↦{Transfers.shareTok fullShare 8 0} X) := by
  have h : (cfg1.win 1).arr.IsWhole := arr_whole1 1
  rw [h.set_eq_univ]; rfl

theorem arrPt1_2 (c : Dev nD) (n : ℕ) (V : (b : Ref sig .tc) → Buf (Elt F) ((Tc c).loc b)) (X : Buf (Elt F) ((cfg1.win 2).arr.view.loc (c.tc : Thread nD τ))) :
    ((cfg1.win 2).arr.view.loc (c.tc : Thread nD τ) ↦[(cfg1.win 2).arr.view.set]{(rdat1 c n V).share 2} X : sProp 𝕄)
      = (((Tc c).loc main_arg5) ↦{Transfers.shareTok fullShare 8 1} X) := by
  have h : (cfg1.win 2).arr.IsWhole := arr_whole1 2
  rw [h.set_eq_univ]; rfl

theorem arrPt1_3 (c : Dev nD) (n : ℕ) (V : (b : Ref sig .tc) → Buf (Elt F) ((Tc c).loc b)) (X : Buf (Elt F) ((cfg1.win 3).arr.view.loc (c.tc : Thread nD τ))) :
    ((cfg1.win 3).arr.view.loc (c.tc : Thread nD τ) ↦[(cfg1.win 3).arr.view.set]{(rdat1 c n V).share 3} X : sProp 𝕄)
      = (((Tc c).loc main_arg5) ↦{Transfers.shareTok fullShare 8 2} X) := by
  have h : (cfg1.win 3).arr.IsWhole := arr_whole1 3
  rw [h.set_eq_univ]; rfl

theorem arrPt1_4 (c : Dev nD) (n : ℕ) (V : (b : Ref sig .tc) → Buf (Elt F) ((Tc c).loc b)) (X : Buf (Elt F) ((cfg1.win 4).arr.view.loc (c.tc : Thread nD τ))) :
    ((cfg1.win 4).arr.view.loc (c.tc : Thread nD τ) ↦[(cfg1.win 4).arr.view.set]{(rdat1 c n V).share 4} X : sProp 𝕄)
      = (((Tc c).loc main_arg5) ↦{Transfers.shareTok fullShare 8 3} X) := by
  have h : (cfg1.win 4).arr.IsWhole := arr_whole1 4
  rw [h.set_eq_univ]; rfl

theorem arrPt1_5 (c : Dev nD) (n : ℕ) (V : (b : Ref sig .tc) → Buf (Elt F) ((Tc c).loc b)) (X : Buf (Elt F) ((cfg1.win 5).arr.view.loc (c.tc : Thread nD τ))) :
    ((cfg1.win 5).arr.view.loc (c.tc : Thread nD τ) ↦[(cfg1.win 5).arr.view.set]{(rdat1 c n V).share 5} X : sProp 𝕄)
      = (((Tc c).loc main_arg5) ↦{Transfers.shareTok fullShare 8 4} X) := by
  have h : (cfg1.win 5).arr.IsWhole := arr_whole1 5
  rw [h.set_eq_univ]; rfl

theorem arrPt1_6 (c : Dev nD) (n : ℕ) (V : (b : Ref sig .tc) → Buf (Elt F) ((Tc c).loc b)) (X : Buf (Elt F) ((cfg1.win 6).arr.view.loc (c.tc : Thread nD τ))) :
    ((cfg1.win 6).arr.view.loc (c.tc : Thread nD τ) ↦[(cfg1.win 6).arr.view.set]{(rdat1 c n V).share 6} X : sProp 𝕄)
      = (((Tc c).loc main_arg5) ↦{Transfers.shareTok fullShare 8 5} X) := by
  have h : (cfg1.win 6).arr.IsWhole := arr_whole1 6
  rw [h.set_eq_univ]; rfl

theorem arrPt1_7 (c : Dev nD) (n : ℕ) (V : (b : Ref sig .tc) → Buf (Elt F) ((Tc c).loc b)) (X : Buf (Elt F) ((cfg1.win 7).arr.view.loc (c.tc : Thread nD τ))) :
    ((cfg1.win 7).arr.view.loc (c.tc : Thread nD τ) ↦[(cfg1.win 7).arr.view.set]{(rdat1 c n V).share 7} X : sProp 𝕄)
      = (((Tc c).loc main_arg5) ↦{Transfers.shareTok fullShare 8 6} X) := by
  have h : (cfg1.win 7).arr.IsWhole := arr_whole1 7
  rw [h.set_eq_univ]; rfl

theorem arrPt1_8 (c : Dev nD) (n : ℕ) (V : (b : Ref sig .tc) → Buf (Elt F) ((Tc c).loc b)) (X : Buf (Elt F) ((cfg1.win 8).arr.view.loc (c.tc : Thread nD τ))) :
    ((cfg1.win 8).arr.view.loc (c.tc : Thread nD τ) ↦[(cfg1.win 8).arr.view.set]{(rdat1 c n V).share 8} X : sProp 𝕄)
      = (((Tc c).loc main_arg5) ↦{Transfers.shareTok fullShare 8 7} X) := by
  have h : (cfg1.win 8).arr.IsWhole := arr_whole1 8
  rw [h.set_eq_univ]; rfl

theorem arrPt1_9 (c : Dev nD) (n : ℕ) (V : (b : Ref sig .tc) → Buf (Elt F) ((Tc c).loc b)) (X : Buf (Elt F) ((cfg1.win 9).arr.view.loc (c.tc : Thread nD τ))) :
    ((cfg1.win 9).arr.view.loc (c.tc : Thread nD τ) ↦[(cfg1.win 9).arr.view.set]{(rdat1 c n V).share 9} X : sProp 𝕄)
      = (((Tc c).loc main_v6) ↦{fullShare} X) := by
  have h : (cfg1.win 9).arr.IsWhole := arr_whole1 9
  rw [h.set_eq_univ]; rfl

theorem arrPt1_10 (c : Dev nD) (n : ℕ) (V : (b : Ref sig .tc) → Buf (Elt F) ((Tc c).loc b)) (X : Buf (Elt F) ((cfg1.win 10).arr.view.loc (c.tc : Thread nD τ))) :
    ((cfg1.win 10).arr.view.loc (c.tc : Thread nD τ) ↦[(cfg1.win 10).arr.view.set]{(rdat1 c n V).share 10} X : sProp 𝕄)
      = (((Tc c).loc main_v7) ↦{fullShare} X) := by
  have h : (cfg1.win 10).arr.IsWhole := arr_whole1 10
  rw [h.set_eq_univ]; rfl

/-- The arrays at entry are the region-entry contents. -/
theorem arrAt0_1 (c : Dev nD) (n : ℕ) (V : (b : Ref sig .tc) → Buf (Elt F) ((Tc c).loc b)) (w : Fin cfg1.W) :
    (rdat1 c n V).arrAt w 0 = V (Pipeline.arrRef spec1 w) := rfl

/-- An input window's array is never written back. -/
theorem arrAtN_1 (c : Dev nD) (n : ℕ) (V : (b : Ref sig .tc) → Buf (Elt F) ((Tc c).loc b)) (w : Fin cfg1.W) (hw : (cfg1.win w).isOut = false) :
    (rdat1 c n V).arrAt w cfg1.N = V (Pipeline.arrRef spec1 w) := (Dat.arrAt_in _ w hw _).trans rfl

set_option maxHeartbeats 4000000 in
/-- ENTRY: the four arrays whole make the windows' arrays at their shares — the weights' full share split into the
    eight windows' read tokens and a remainder that bypasses the region —, and the debt with its bound is what the
    proof data's first point owes. -/
theorem entry1 (c : Dev nD) (n : ℕ) (V : (b : Ref sig .tc) → Buf (Elt F) ((Tc c).loc b)) :
    pre1 c n V ⊢ iprop((rdat1 c n V).arrays ((rdat1 c n V).arrAt · 0) ∗ (rdat1 c n V).owesAt none 0 ∗ Z1 c V) := by
  unfold Dat.arrays pre1 Z1
  rw [bigSep_W1]
  rw [arrPt1_0 c n V, arrPt1_1 c n V, arrPt1_2 c n V, arrPt1_3 c n V, arrPt1_4 c n V, arrPt1_5 c n V, arrPt1_6 c n V, arrPt1_7 c n V, arrPt1_8 c n V, arrPt1_9 c n V, arrPt1_10 c n V]
  show iprop((∃ W, ⌜(K (F := F)).WBelow (Tc c) W (8 * n)⌝ ∗ owes (Tc c) ((K (F := F)).Otc c n) W) ∗ (((Tc c).loc main_v5) ↦{fullShare} V main_v5) ∗ (((Tc c).loc main_arg5) ↦{fullShare} V main_arg5) ∗ (((Tc c).loc main_v6) ↦{fullShare} V main_v6) ∗ (((Tc c).loc main_v7) ↦{fullShare} V main_v7))
    ⊢ iprop(((((Tc c).loc main_v5) ↦{fullShare} V main_v5) ∗ (((Tc c).loc main_arg5) ↦{Transfers.shareTok fullShare 8 0} V main_arg5) ∗ (((Tc c).loc main_arg5) ↦{Transfers.shareTok fullShare 8 1} V main_arg5) ∗ (((Tc c).loc main_arg5) ↦{Transfers.shareTok fullShare 8 2} V main_arg5) ∗ (((Tc c).loc main_arg5) ↦{Transfers.shareTok fullShare 8 3} V main_arg5) ∗ (((Tc c).loc main_arg5) ↦{Transfers.shareTok fullShare 8 4} V main_arg5) ∗ (((Tc c).loc main_arg5) ↦{Transfers.shareTok fullShare 8 5} V main_arg5) ∗ (((Tc c).loc main_arg5) ↦{Transfers.shareTok fullShare 8 6} V main_arg5) ∗ (((Tc c).loc main_arg5) ↦{Transfers.shareTok fullShare 8 7} V main_arg5) ∗ (((Tc c).loc main_v6) ↦{fullShare} V main_v6) ∗ (((Tc c).loc main_v7) ↦{fullShare} V main_v7)) ∗ (rdat1 c n V).owesAt none 0 ∗ (((Tc c).loc main_arg5) ↦{Transfers.shareDrop fullShare 8} V main_arg5))
  iintro ⟨⟨%W, %hW, HO⟩, Hg, HW, Hb, Ho⟩
  ihave HW' := (split8 (F := F) _ _) $$ HW
  icases HW' with ⟨Hrem, H0, H1, H2, H3, H4, H5, H6, H7⟩
  isplitl [Hg H0 H1 H2 H3 H4 H5 H6 H7 Hb Ho]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hb]; · iexact Hb
    iexact Ho
  isplitl [HO]
  · iexists W; isplitr
    · ipureintro; exact fun pr hpr => Or.inl (hW pr hpr)
    iexact HO
  iexact Hrem

set_option maxHeartbeats 4000000 in
/-- EXIT: the inputs' arrays were never written, so the eight read tokens and the remainder join into the weights whole
    again; the output's array holds whatever the write-back left; the recorded waits stay within the debt's bound
    (the region's own sit at the kernels' index). -/
theorem exit1 (c : Dev nD) (n : ℕ) (V : (b : Ref sig .tc) → Buf (Elt F) ((Tc c).loc b)) :
    iprop((rdat1 c n V).arrays ((rdat1 c n V).arrAt · cfg1.N) ∗ (rdat1 c n V).owesAt none (Fin.last cfg1.N) ∗ Z1 c V) ⊢ post1 c n V := by
  unfold Dat.arrays post1 Z1
  rw [bigSep_W1]
  rw [arrPt1_0 c n V, arrPt1_1 c n V, arrPt1_2 c n V, arrPt1_3 c n V, arrPt1_4 c n V, arrPt1_5 c n V, arrPt1_6 c n V, arrPt1_7 c n V, arrPt1_8 c n V, arrPt1_9 c n V, arrPt1_10 c n V]
  beta_reduce
  rw [arrAtN_1 c n V 0 rfl, arrAtN_1 c n V 1 rfl, arrAtN_1 c n V 2 rfl, arrAtN_1 c n V 3 rfl, arrAtN_1 c n V 4 rfl, arrAtN_1 c n V 5 rfl, arrAtN_1 c n V 6 rfl, arrAtN_1 c n V 7 rfl, arrAtN_1 c n V 8 rfl, arrAtN_1 c n V 9 rfl]
  show iprop(((((Tc c).loc main_v5) ↦{fullShare} V main_v5) ∗ (((Tc c).loc main_arg5) ↦{Transfers.shareTok fullShare 8 0} V main_arg5) ∗ (((Tc c).loc main_arg5) ↦{Transfers.shareTok fullShare 8 1} V main_arg5) ∗ (((Tc c).loc main_arg5) ↦{Transfers.shareTok fullShare 8 2} V main_arg5) ∗ (((Tc c).loc main_arg5) ↦{Transfers.shareTok fullShare 8 3} V main_arg5) ∗ (((Tc c).loc main_arg5) ↦{Transfers.shareTok fullShare 8 4} V main_arg5) ∗ (((Tc c).loc main_arg5) ↦{Transfers.shareTok fullShare 8 5} V main_arg5) ∗ (((Tc c).loc main_arg5) ↦{Transfers.shareTok fullShare 8 6} V main_arg5) ∗ (((Tc c).loc main_arg5) ↦{Transfers.shareTok fullShare 8 7} V main_arg5) ∗ (((Tc c).loc main_v6) ↦{fullShare} V main_v6) ∗ (((Tc c).loc main_v7) ↦{fullShare} (rdat1 c n V).arrAt 10 cfg1.N)) ∗ (rdat1 c n V).owesAt none (Fin.last cfg1.N) ∗ (((Tc c).loc main_arg5) ↦{Transfers.shareDrop fullShare 8} V main_arg5))
    ⊢ iprop((∃ W, ⌜(K (F := F)).WBelow (Tc c) W (8 * n)⌝ ∗ owes (Tc c) ((K (F := F)).Otc c n) W) ∗ (((Tc c).loc main_v5) ↦{fullShare} V main_v5) ∗ (((Tc c).loc main_arg5) ↦{fullShare} V main_arg5) ∗ (((Tc c).loc main_v6) ↦{fullShare} V main_v6) ∗ (∃ f, ((Tc c).loc main_v7) ↦{fullShare} f))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg1.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexists _; iexact Ho

end Cert.Proof.KI.Gemv1

end
-- ==== Proof.Gemv3Conds.lean ====
import proofs.«208418_g89945205112833_cont_sun_c4_809_35_alg».proof.Proof.Gen.KernelIdeal.Launch
import proofs.«208418_g89945205112833_cont_sun_c4_809_35_alg».proof.Proof.Gen.KernelIdeal.Skeleton
import proofs.«208418_g89945205112833_cont_sun_c4_809_35_alg».proof.Proof.Gen.KernelIdeal.Points
import Idealize.ShloMosaic.Lib.Pipeline.FrameBody
import Idealize.ShloMosaic.Lib.Ring
import Idealize.ShloMosaic.Lib.Tactic
import Idealize.ShloMosaic.Lib.SparseCore.Launch

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The body's two conditionals, in closed form over the grid

The body stores the bias into the output block when the grid coordinate is 0 and applies tanh in place when
it is 3; both conditions are comparisons of the coordinate, decided over the four grid points. -/

/-- The first conditional's condition (the coordinate is 0), as the body computes it. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 4 = 0 :=
  (by decide +kernel : ∀ t : Fin grid3.N, cond3_0 (grid3.coords t) ↔ t.val % 4 = 0)
/-- The second conditional's condition (the coordinate is 3), as the body computes it. -/
abbrev cond3_1 (i : grid3.Coords) : Prop := (Scalar.cmpi .ne (Scalar.extui (Scalar.cmpi .eq (BitVec.ofNat 32 (i 0).val) 3#32)) 0#32) = 1#1
/-- It holds at the last point only. -/
theorem hcond3_1 : ∀ t : Fin cfg3.N, cond3_1 (grid3.coords t) ↔ t.val % 4 = 3 :=
  (by decide +kernel : ∀ t : Fin grid3.N, cond3_1 (grid3.coords t) ↔ t.val % 4 = 3)

end Cert.Proof.KI.Gemv1

end
-- ==== Proof.Gemv3RunA.lean ====
import proofs.«208418_g89945205112833_cont_sun_c4_809_35_alg».proof.Proof.Gemv3Conds

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the first grid point (the bias is stored first; no tanh), with the proof that on whole
    staging memrefs — the gathered row, the eight weight blocks and the bias at their contents, the output's at anything —
    the body runs to the continuation holding the inputs as they were and the output's buffer with those pieces written. -/
noncomputable def kernelRun3_A (𝒱₀ : Variants) (c : Dev nD) (i : grid3.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ d, owns (c : Thread nD τ) arg12 fullShare d)
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc3_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc3_body_eq_skeleton]; unfold cc3_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv3RunB.lean ====
import proofs.«208418_g89945205112833_cont_sun_c4_809_35_alg».proof.Proof.Gemv3RunA

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at a middle grid point (neither conditional taken), with the proof that on whole
    staging memrefs — the gathered row, the eight weight blocks and the bias at their contents, the output's at its running contents —
    the body runs to the continuation holding the inputs as they were and the output's buffer with those pieces written. -/
noncomputable def kernelRun3_B (𝒱₀ : Variants) (c : Dev nD) (i : grid3.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc3_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc3_body_eq_skeleton]; unfold cc3_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv3RunC.lean ====
import proofs.«208418_g89945205112833_cont_sun_c4_809_35_alg».proof.Proof.Gemv3RunB

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the last grid point (tanh applied at the end), with the proof that on whole
    staging memrefs — the gathered row, the eight weight blocks and the bias at their contents, the output's at its running contents —
    the body runs to the continuation holding the inputs as they were and the output's buffer with those pieces written. -/
noncomputable def kernelRun3_C (𝒱₀ : Variants) (c : Dev nD) (i : grid3.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond3_0 i) (hc1 : cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc3_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc3_body_eq_skeleton]; unfold cc3_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv3Outs.lean ====
import proofs.«208418_g89945205112833_cont_sun_c4_809_35_alg».proof.Proof.Gemv3RunC

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The staging memrefs at a point, and the output's view -/

/-- One staging buffer of the output window, through which its contents are stated. -/
abbrev VO3 : View sig .tc .vmem S1x4096 .f32 := (Memref.whole cc3_stg10_0 : Memref sig .tc .vmem S1x4096 .f32).view
abbrev ms3_0 (t : Fin cfg3.N) : Memref sig .tc .vmem S1x4096 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x4096 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x4096 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x4096 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x4096 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x4096 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S128x4096 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S128x4096 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x4096 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S1x4096 .f32 := win3_10.stage (cfg3.slots t 10)
abbrev hs3_10 (t : Fin cfg3.N) : (ms3_10 t).IsWhole := hstage3_10 ((cfg3.slots t 10).cast nbuf3_10)

/-! ## What each control case leaves in the output's staging buffer -/

/-- Case A's pieces tile the output block, so they cover it. -/
theorem cover3_A (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (y : S1x4096.Idx) :
    ∃ pc ∈ (kernelRun3_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1, y ∈ pc.1.set :=
  View.cover_of_tiledL (kernelRun3_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1 S1x4096.size (by sl_kernel_rfl) y

/-- What case A leaves in the output's staging buffer: its pieces read back over junk. -/
def out3_A (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) : Vec F S1x4096 .f32 :=
  VO3.read (Elt F) (VO3.writes (Elt F) VO3.junk (kernelRun3_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1)

/-- Case B's pieces tile the output block, so they cover it. -/
theorem cover3_B (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun3_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun3_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case B leaves in the output's staging buffer: its pieces read back over junk. -/
def out3_B (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO3.read (Elt F) (VO3.writes (Elt F) VO3.junk (kernelRun3_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

/-- Case C's pieces tile the output block, so they cover it. -/
theorem cover3_C (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun3_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun3_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case C leaves in the output's staging buffer: its pieces read back over junk. -/
def out3_C (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO3.read (Elt F) (VO3.writes (Elt F) VO3.junk (kernelRun3_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

section Region
variable (𝒱₀ : Variants) (c : Dev nD) (V : (b : Ref sig .tc) → Buf (Elt F) ((c.tc : Thread nD τ).loc b))

/-! ## The windows' blocks, read off the arrays as the region finds them -/

/-- Window `w`'s block at point `t`, read off its array at the entry contents `V`. -/
def iblk3 (w : Fin cfg3.W) (t : Fin cfg3.N) : ((cfg3.win w).xblock (cfg3.grid.coords t)).Idx → Elt F (cfg3.win w).elt :=
  ((cfg3.win w).blk t).view.read (Elt F) (V (Pipeline.arrRef spec3 w))

/-- Input window 0's current staging buffer holds its block at every point, fetched there or not. -/
theorem before3_0_of (dat : Dat τ (Elt F) (HIx 4) Name U ℕ cfg3 c) (hA : dat.A 0 = V (Pipeline.arrRef spec3 0))
    (hafter : ∀ t, dat.after 0 t = iblk3 c V 0 t) (t : Fin cfg3.N) (d) : dat.before 0 t d = iblk3 c V 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of (dat : Dat τ (Elt F) (HIx 4) Name U ℕ cfg3 c) (hA : dat.A 1 = V (Pipeline.arrRef spec3 1))
    (hafter : ∀ t, dat.after 1 t = iblk3 c V 1 t) (t : Fin cfg3.N) (d) : dat.before 1 t d = iblk3 c V 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of (dat : Dat τ (Elt F) (HIx 4) Name U ℕ cfg3 c) (hA : dat.A 2 = V (Pipeline.arrRef spec3 2))
    (hafter : ∀ t, dat.after 2 t = iblk3 c V 2 t) (t : Fin cfg3.N) (d) : dat.before 2 t d = iblk3 c V 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of (dat : Dat τ (Elt F) (HIx 4) Name U ℕ cfg3 c) (hA : dat.A 3 = V (Pipeline.arrRef spec3 3))
    (hafter : ∀ t, dat.after 3 t = iblk3 c V 3 t) (t : Fin cfg3.N) (d) : dat.before 3 t d = iblk3 c V 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of (dat : Dat τ (Elt F) (HIx 4) Name U ℕ cfg3 c) (hA : dat.A 4 = V (Pipeline.arrRef spec3 4))
    (hafter : ∀ t, dat.after 4 t = iblk3 c V 4 t) (t : Fin cfg3.N) (d) : dat.before 4 t d = iblk3 c V 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of (dat : Dat τ (Elt F) (HIx 4) Name U ℕ cfg3 c) (hA : dat.A 5 = V (Pipeline.arrRef spec3 5))
    (hafter : ∀ t, dat.after 5 t = iblk3 c V 5 t) (t : Fin cfg3.N) (d) : dat.before 5 t d = iblk3 c V 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of (dat : Dat τ (Elt F) (HIx 4) Name U ℕ cfg3 c) (hA : dat.A 6 = V (Pipeline.arrRef spec3 6))
    (hafter : ∀ t, dat.after 6 t = iblk3 c V 6 t) (t : Fin cfg3.N) (d) : dat.before 6 t d = iblk3 c V 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not. -/
theorem before3_7_of (dat : Dat τ (Elt F) (HIx 4) Name U ℕ cfg3 c) (hA : dat.A 7 = V (Pipeline.arrRef spec3 7))
    (hafter : ∀ t, dat.after 7 t = iblk3 c V 7 t) (t : Fin cfg3.N) (d) : dat.before 7 t d = iblk3 c V 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not. -/
theorem before3_8_of (dat : Dat τ (Elt F) (HIx 4) Name U ℕ cfg3 c) (hA : dat.A 8 = V (Pipeline.arrRef spec3 8))
    (hafter : ∀ t, dat.after 8 t = iblk3 c V 8 t) (t : Fin cfg3.N) (d) : dat.before 8 t d = iblk3 c V 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not. -/
theorem before3_9_of (dat : Dat τ (Elt F) (HIx 4) Name U ℕ cfg3 c) (hA : dat.A 9 = V (Pipeline.arrRef spec3 9))
    (hafter : ∀ t, dat.after 9 t = iblk3 c V 9 t) (t : Fin cfg3.N) (d) : dat.before 9 t d = iblk3 c V 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## What the output's staging buffer holds after each point -/

/-- The accumulation: what the output's staging buffer holds after the body at position `n` — the case the closed
    forms select there, run at the point's memrefs and input blocks, over what the point before left (the buffer
    is not written back between). -/
def outsAt3 : (n : ℕ) → n < cfg3.N → Vec F S1x4096 .f32
  | 0, hn => out3_A (Name := Name) (U := U) 𝒱₀ c (grid3.coords ⟨0, hn⟩) (Memref.whole main_v7) (Memref.isWhole_whole _) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) ((hcond3_0 ⟨0, hn⟩).mpr (Nat.zero_mod _)) (fun h => by have := (hcond3_1 ⟨0, hn⟩).mp h; dsimp only at this; omega) (iblk3 c V 0 ⟨0, hn⟩) (iblk3 c V 1 ⟨0, hn⟩) (iblk3 c V 2 ⟨0, hn⟩) (iblk3 c V 3 ⟨0, hn⟩) (iblk3 c V 4 ⟨0, hn⟩) (iblk3 c V 5 ⟨0, hn⟩) (iblk3 c V 6 ⟨0, hn⟩) (iblk3 c V 7 ⟨0, hn⟩) (iblk3 c V 8 ⟨0, hn⟩) (iblk3 c V 9 ⟨0, hn⟩)
  | n + 1, hn =>
    if h0 : (n + 1) % 4 = 0 then
      out3_A (Name := Name) (U := U) 𝒱₀ c (grid3.coords ⟨n + 1, hn⟩) (Memref.whole main_v7) (Memref.isWhole_whole _) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) ((hcond3_0 ⟨n + 1, hn⟩).mpr h0) (fun h => by have := (hcond3_1 ⟨n + 1, hn⟩).mp h; dsimp only at this; omega) (iblk3 c V 0 ⟨n + 1, hn⟩) (iblk3 c V 1 ⟨n + 1, hn⟩) (iblk3 c V 2 ⟨n + 1, hn⟩) (iblk3 c V 3 ⟨n + 1, hn⟩) (iblk3 c V 4 ⟨n + 1, hn⟩) (iblk3 c V 5 ⟨n + 1, hn⟩) (iblk3 c V 6 ⟨n + 1, hn⟩) (iblk3 c V 7 ⟨n + 1, hn⟩) (iblk3 c V 8 ⟨n + 1, hn⟩) (iblk3 c V 9 ⟨n + 1, hn⟩)
    else if h3 : (n + 1) % 4 = 3 then
      out3_C (Name := Name) (U := U) 𝒱₀ c (grid3.coords ⟨n + 1, hn⟩) (Memref.whole main_v7) (Memref.isWhole_whole _) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (fun h => h0 ((hcond3_0 ⟨n + 1, hn⟩).mp h)) ((hcond3_1 ⟨n + 1, hn⟩).mpr h3) (iblk3 c V 0 ⟨n + 1, hn⟩) (iblk3 c V 1 ⟨n + 1, hn⟩) (iblk3 c V 2 ⟨n + 1, hn⟩) (iblk3 c V 3 ⟨n + 1, hn⟩) (iblk3 c V 4 ⟨n + 1, hn⟩) (iblk3 c V 5 ⟨n + 1, hn⟩) (iblk3 c V 6 ⟨n + 1, hn⟩) (iblk3 c V 7 ⟨n + 1, hn⟩) (iblk3 c V 8 ⟨n + 1, hn⟩) (iblk3 c V 9 ⟨n + 1, hn⟩) (outsAt3 n (Nat.lt_of_succ_lt hn))
    else
      out3_B (Name := Name) (U := U) 𝒱₀ c (grid3.coords ⟨n + 1, hn⟩) (Memref.whole main_v7) (Memref.isWhole_whole _) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (fun h => h0 ((hcond3_0 ⟨n + 1, hn⟩).mp h)) (fun h => h3 ((hcond3_1 ⟨n + 1, hn⟩).mp h)) (iblk3 c V 0 ⟨n + 1, hn⟩) (iblk3 c V 1 ⟨n + 1, hn⟩) (iblk3 c V 2 ⟨n + 1, hn⟩) (iblk3 c V 3 ⟨n + 1, hn⟩) (iblk3 c V 4 ⟨n + 1, hn⟩) (iblk3 c V 5 ⟨n + 1, hn⟩) (iblk3 c V 6 ⟨n + 1, hn⟩) (iblk3 c V 7 ⟨n + 1, hn⟩) (iblk3 c V 8 ⟨n + 1, hn⟩) (iblk3 c V 9 ⟨n + 1, hn⟩) (outsAt3 n (Nat.lt_of_succ_lt hn))

/-- `outsAt3` at a point of case A. -/
theorem outsAt3_A (t : Fin cfg3.N) (h0 : t.val % 4 = 0) :
    outsAt3 (Name := Name) (U := U) 𝒱₀ c V t.val t.isLt = out3_A (Name := Name) (U := U) 𝒱₀ c (grid3.coords t) (Memref.whole main_v7) (Memref.isWhole_whole _) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) ((hcond3_0 t).mpr h0) (fun h => by have := (hcond3_1 t).mp h; omega) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) := by
  obtain ⟨n, hn⟩ := t
  cases n with
  | zero => exact rfl
  | succ n => exact (dif_pos h0).trans rfl

/-- `outsAt3` at a point of case C: over what the point before left. -/
theorem outsAt3_C (t : Fin cfg3.N) (h0 : ¬t.val % 4 = 0) (h3 : t.val % 4 = 3) :
    outsAt3 (Name := Name) (U := U) 𝒱₀ c V t.val t.isLt = out3_C (Name := Name) (U := U) 𝒱₀ c (grid3.coords t) (Memref.whole main_v7) (Memref.isWhole_whole _) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun h => h0 ((hcond3_0 t).mp h)) ((hcond3_1 t).mpr h3) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) (outsAt3 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- `outsAt3` at a point of case B: over what the point before left. -/
theorem outsAt3_B (t : Fin cfg3.N) (h0 : ¬t.val % 4 = 0) (h3 : ¬t.val % 4 = 3) :
    outsAt3 (Name := Name) (U := U) 𝒱₀ c V t.val t.isLt = out3_B (Name := Name) (U := U) 𝒱₀ c (grid3.coords t) (Memref.whole main_v7) (Memref.isWhole_whole _) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun h => h0 ((hcond3_0 t).mp h)) (fun h => h3 ((hcond3_1 t).mp h)) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) (outsAt3 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

end Region

end Cert.Proof.KI.Gemv1

end
-- ==== Proof.Gemv3Frame.lean ====
import proofs.«208418_g89945205112833_cont_sun_c4_809_35_alg».proof.Proof.Gemv3Outs

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

section Region
variable (𝒱₀ : Variants) (c : Dev nD) (V : (b : Ref sig .tc) → Buf (Elt F) ((c.tc : Thread nD τ).loc b))

/-! ## The pipeline's proof data -/

/-- The proof data of this pipeline on core `c`: the arrays as the region finds them (`V`); after the body at point
    `t` each input's buffer at its block and the output's at `outsAt3`; a constant invariant `Φ₀` the body does
    not read; the input shares `q₀`; constant tallies `owed₀` and recorded bound `rec₀` (the body neither signals
    nor waits). -/
def dat3 (Φ₀ : sProp 𝕄) (q₀ : Fin cfg3.W → PosShare TreeShare) (owed₀ : CellTallies nD τ sig (HIx 4)) (rec₀ : Set (SemLoc sig × HIx 4)) : Dat τ (Elt F) (HIx 4) Name U ℕ cfg3 c where
  A w := V (Pipeline.arrRef spec3 w)
  after w t := match w with
    | ⟨0, _⟩ => iblk3 c V 0 t
    | ⟨1, _⟩ => iblk3 c V 1 t
    | ⟨2, _⟩ => iblk3 c V 2 t
    | ⟨3, _⟩ => iblk3 c V 3 t
    | ⟨4, _⟩ => iblk3 c V 4 t
    | ⟨5, _⟩ => iblk3 c V 5 t
    | ⟨6, _⟩ => iblk3 c V 6 t
    | ⟨7, _⟩ => iblk3 c V 7 t
    | ⟨8, _⟩ => iblk3 c V 8 t
    | ⟨9, _⟩ => iblk3 c V 9 t
    | ⟨10, _⟩ => outsAt3 (Name := Name) (U := U) 𝒱₀ c V t.val t.isLt
  Φ _ := Φ₀
  q := q₀
  owed _ := owed₀
  recorded _ := rec₀

/-- The proof data's arrays are the region-entry contents. -/
theorem A_eq3 (Φ₀ : sProp 𝕄) (q₀ : Fin cfg3.W → PosShare TreeShare) (owed₀ : CellTallies nD τ sig (HIx 4)) (rec₀ : Set (SemLoc sig × HIx 4)) (w : Fin cfg3.W) : (dat3 𝒱₀ c V Φ₀ q₀ owed₀ rec₀).A w = V (Pipeline.arrRef spec3 w) := by
  dsimp only [dat3]

theorem after3_0 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 0 t = iblk3 c V 0 t := by dsimp only [dat3]
theorem after3_1 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 1 t = iblk3 c V 1 t := by dsimp only [dat3]
theorem after3_2 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 2 t = iblk3 c V 2 t := by dsimp only [dat3]
theorem after3_3 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 3 t = iblk3 c V 3 t := by dsimp only [dat3]
theorem after3_4 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 4 t = iblk3 c V 4 t := by dsimp only [dat3]
theorem after3_5 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 5 t = iblk3 c V 5 t := by dsimp only [dat3]
theorem after3_6 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 6 t = iblk3 c V 6 t := by dsimp only [dat3]
theorem after3_7 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 7 t = iblk3 c V 7 t := by dsimp only [dat3]
theorem after3_8 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 8 t = iblk3 c V 8 t := by dsimp only [dat3]
theorem after3_9 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 9 t = iblk3 c V 9 t := by dsimp only [dat3]
theorem after3_10 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 10 t = outsAt3 (Name := Name) (U := U) 𝒱₀ c V t.val t.isLt := by dsimp only [dat3]

theorem before3_0 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 0 t d = iblk3 c V 0 t :=
  before3_0_of c V (dat3 𝒱₀ c V Φ₀ q₀ owed₀ rec₀) (A_eq3 𝒱₀ c V Φ₀ q₀ owed₀ rec₀ 0) (after3_0 𝒱₀ c V Φ₀ q₀ owed₀ rec₀) t d
theorem before3_1 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 1 t d = iblk3 c V 1 t :=
  before3_1_of c V (dat3 𝒱₀ c V Φ₀ q₀ owed₀ rec₀) (A_eq3 𝒱₀ c V Φ₀ q₀ owed₀ rec₀ 1) (after3_1 𝒱₀ c V Φ₀ q₀ owed₀ rec₀) t d
theorem before3_2 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 2 t d = iblk3 c V 2 t :=
  before3_2_of c V (dat3 𝒱₀ c V Φ₀ q₀ owed₀ rec₀) (A_eq3 𝒱₀ c V Φ₀ q₀ owed₀ rec₀ 2) (after3_2 𝒱₀ c V Φ₀ q₀ owed₀ rec₀) t d
theorem before3_3 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 3 t d = iblk3 c V 3 t :=
  before3_3_of c V (dat3 𝒱₀ c V Φ₀ q₀ owed₀ rec₀) (A_eq3 𝒱₀ c V Φ₀ q₀ owed₀ rec₀ 3) (after3_3 𝒱₀ c V Φ₀ q₀ owed₀ rec₀) t d
theorem before3_4 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 4 t d = iblk3 c V 4 t :=
  before3_4_of c V (dat3 𝒱₀ c V Φ₀ q₀ owed₀ rec₀) (A_eq3 𝒱₀ c V Φ₀ q₀ owed₀ rec₀ 4) (after3_4 𝒱₀ c V Φ₀ q₀ owed₀ rec₀) t d
theorem before3_5 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 5 t d = iblk3 c V 5 t :=
  before3_5_of c V (dat3 𝒱₀ c V Φ₀ q₀ owed₀ rec₀) (A_eq3 𝒱₀ c V Φ₀ q₀ owed₀ rec₀ 5) (after3_5 𝒱₀ c V Φ₀ q₀ owed₀ rec₀) t d
theorem before3_6 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 6 t d = iblk3 c V 6 t :=
  before3_6_of c V (dat3 𝒱₀ c V Φ₀ q₀ owed₀ rec₀) (A_eq3 𝒱₀ c V Φ₀ q₀ owed₀ rec₀ 6) (after3_6 𝒱₀ c V Φ₀ q₀ owed₀ rec₀) t d
theorem before3_7 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 7 t d = iblk3 c V 7 t :=
  before3_7_of c V (dat3 𝒱₀ c V Φ₀ q₀ owed₀ rec₀) (A_eq3 𝒱₀ c V Φ₀ q₀ owed₀ rec₀ 7) (after3_7 𝒱₀ c V Φ₀ q₀ owed₀ rec₀) t d
theorem before3_8 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 8 t d = iblk3 c V 8 t :=
  before3_8_of c V (dat3 𝒱₀ c V Φ₀ q₀ owed₀ rec₀) (A_eq3 𝒱₀ c V Φ₀ q₀ owed₀ rec₀ 8) (after3_8 𝒱₀ c V Φ₀ q₀ owed₀ rec₀) t d
theorem before3_9 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 9 t d = iblk3 c V 9 t :=
  before3_9_of c V (dat3 𝒱₀ c V Φ₀ q₀ owed₀ rec₀) (A_eq3 𝒱₀ c V Φ₀ q₀ owed₀ rec₀ 9) (after3_9 𝒱₀ c V Φ₀ q₀ owed₀ rec₀) t d

/-- After the first point the output's current staging buffer holds what the body left at the point before: the
    buffer is written back at the last point only. -/
theorem before3_10_kept (Φ₀ : sProp 𝕄) (q₀ : Fin cfg3.W → PosShare TreeShare) (owed₀ : CellTallies nD τ sig (HIx 4)) (rec₀ : Set (SemLoc sig × HIx 4)) (t : Fin cfg3.N) (h0 : ¬t.val % 4 = 0) (d) :
    (dat3 𝒱₀ c V Φ₀ q₀ owed₀ rec₀).before 10 t d = outsAt3 (Name := Name) (U := U) 𝒱₀ c V (t.val - 1) (Nat.lt_of_le_of_lt (Nat.sub_le _ _) t.isLt) := by
  have hN : t.val < 4 := lt_of_lt_of_eq t.isLt (show cfg3.N = 4 from N_3)
  rw [Dat.before_out_kept _ 10 rfl t (by omega) (Bool.eq_false_iff.mpr fun h => by have := (flush3_10 _).mp h; dsimp only at this; omega)
    (fun _ => rfl) (fun _ _ => rfl)]
  dsimp only [dat3]

/-! ## The body obligation, at a generic point -/

/-- What the body is called with at point `t`, the windows one by one, -/
def bodyPre3 (Φ₀ : sProp 𝕄) (q₀ : Fin cfg3.W → PosShare TreeShare) (owed₀ : CellTallies nD τ sig (HIx 4)) (rec₀ : Set (SemLoc sig × HIx 4)) (t : Fin cfg3.N) : sProp 𝕄 :=
  iprop((dat3 𝒱₀ c V Φ₀ q₀ owed₀ rec₀).Φ t.castSucc ∗ (dat3 𝒱₀ c V Φ₀ q₀ owed₀ rec₀).owesAt none t.castSucc
    ∗ (∃ d, owns (c : Thread nD τ) (ms3_0 t) fullShare ((dat3 𝒱₀ c V Φ₀ q₀ owed₀ rec₀).before 0 t d))
    ∗ (∃ d, owns (c : Thread nD τ) (ms3_1 t) fullShare ((dat3 𝒱₀ c V Φ₀ q₀ owed₀ rec₀).before 1 t d))
    ∗ (∃ d, owns (c : Thread nD τ) (ms3_2 t) fullShare ((dat3 𝒱₀ c V Φ₀ q₀ owed₀ rec₀).before 2 t d))
    ∗ (∃ d, owns (c : Thread nD τ) (ms3_3 t) fullShare ((dat3 𝒱₀ c V Φ₀ q₀ owed₀ rec₀).before 3 t d))
    ∗ (∃ d, owns (c : Thread nD τ) (ms3_4 t) fullShare ((dat3 𝒱₀ c V Φ₀ q₀ owed₀ rec₀).before 4 t d))
    ∗ (∃ d, owns (c : Thread nD τ) (ms3_5 t) fullShare ((dat3 𝒱₀ c V Φ₀ q₀ owed₀ rec₀).before 5 t d))
    ∗ (∃ d, owns (c : Thread nD τ) (ms3_6 t) fullShare ((dat3 𝒱₀ c V Φ₀ q₀ owed₀ rec₀).before 6 t d))
    ∗ (∃ d, owns (c : Thread nD τ) (ms3_7 t) fullShare ((dat3 𝒱₀ c V Φ₀ q₀ owed₀ rec₀).before 7 t d))
    ∗ (∃ d, owns (c : Thread nD τ) (ms3_8 t) fullShare ((dat3 𝒱₀ c V Φ₀ q₀ owed₀ rec₀).before 8 t d))
    ∗ (∃ d, owns (c : Thread nD τ) (ms3_9 t) fullShare ((dat3 𝒱₀ c V Φ₀ q₀ owed₀ rec₀).before 9 t d))
    ∗ (∃ d, owns (c : Thread nD τ) (ms3_10 t) fullShare ((dat3 𝒱₀ c V Φ₀ q₀ owed₀ rec₀).before 10 t d)))

/-- and what it returns. -/
def bodyPost3 (Φ₀ : sProp 𝕄) (q₀ : Fin cfg3.W → PosShare TreeShare) (owed₀ : CellTallies nD τ sig (HIx 4)) (rec₀ : Set (SemLoc sig × HIx 4)) (t : Fin cfg3.N) : sProp 𝕄 :=
  iprop((dat3 𝒱₀ c V Φ₀ q₀ owed₀ rec₀).Φ t.succ ∗ (dat3 𝒱₀ c V Φ₀ q₀ owed₀ rec₀).owesAt none t.succ
    ∗ owns (c : Thread nD τ) (ms3_0 t) fullShare ((dat3 𝒱₀ c V Φ₀ q₀ owed₀ rec₀).after 0 t)
    ∗ owns (c : Thread nD τ) (ms3_1 t) fullShare ((dat3 𝒱₀ c V Φ₀ q₀ owed₀ rec₀).after 1 t)
    ∗ owns (c : Thread nD τ) (ms3_2 t) fullShare ((dat3 𝒱₀ c V Φ₀ q₀ owed₀ rec₀).after 2 t)
    ∗ owns (c : Thread nD τ) (ms3_3 t) fullShare ((dat3 𝒱₀ c V Φ₀ q₀ owed₀ rec₀).after 3 t)
    ∗ owns (c : Thread nD τ) (ms3_4 t) fullShare ((dat3 𝒱₀ c V Φ₀ q₀ owed₀ rec₀).after 4 t)
    ∗ owns (c : Thread nD τ) (ms3_5 t) fullShare ((dat3 𝒱₀ c V Φ₀ q₀ owed₀ rec₀).after 5 t)
    ∗ owns (c : Thread nD τ) (ms3_6 t) fullShare ((dat3 𝒱₀ c V Φ₀ q₀ owed₀ rec₀).after 6 t)
    ∗ owns (c : Thread nD τ) (ms3_7 t) fullShare ((dat3 𝒱₀ c V Φ₀ q₀ owed₀ rec₀).after 7 t)
    ∗ owns (c : Thread nD τ) (ms3_8 t) fullShare ((dat3 𝒱₀ c V Φ₀ q₀ owed₀ rec₀).after 8 t)
    ∗ owns (c : Thread nD τ) (ms3_9 t) fullShare ((dat3 𝒱₀ c V Φ₀ q₀ owed₀ rec₀).after 9 t)
    ∗ owns (c : Thread nD τ) (ms3_10 t) fullShare ((dat3 𝒱₀ c V Φ₀ q₀ owed₀ rec₀).after 10 t))

set_option maxHeartbeats 1600000 in
/-- The body at any point: the inputs' memrefs hold their blocks; the closed forms say which case the point is in, and
    after the first point the output's buffer holds what the point before left; so the case's run applies; the
    invariant and what the core owes pass through unread. -/
theorem sound_body3 (Φ₀ : sProp 𝕄) (q₀ : Fin cfg3.W → PosShare TreeShare) (owed₀ : CellTallies nD τ sig (HIx 4)) (rec₀ : Set (SemLoc sig × HIx 4)) (t : Fin cfg3.N) :
    bodyPre3 (Name := Name) (U := U) 𝒱₀ c V Φ₀ q₀ owed₀ rec₀ t ⊢ wp frame (wpE (defs₀ (F := F)) 𝒱₀ c none) Set.univ (bodyAt3 t) (fun _ => bodyPost3 (Name := Name) (U := U) 𝒱₀ c V Φ₀ q₀ owed₀ rec₀ t) := by
  unfold bodyPre3 bodyPost3 bodyAt3
  simp only [before3_0, before3_1, before3_2, before3_3, before3_4, before3_5, before3_6, before3_7, before3_8, before3_9]
  rw [show (dat3 𝒱₀ c V Φ₀ q₀ owed₀ rec₀).Φ t.succ = (dat3 𝒱₀ c V Φ₀ q₀ owed₀ rec₀).Φ t.castSucc from rfl,
    show (dat3 𝒱₀ c V Φ₀ q₀ owed₀ rec₀).owesAt none t.succ = (dat3 𝒱₀ c V Φ₀ q₀ owed₀ rec₀).owesAt none t.castSucc from rfl,
    after3_0, after3_1, after3_2, after3_3, after3_4, after3_5, after3_6, after3_7, after3_8, after3_9, after3_10]
  have hN : t.val < 4 := lt_of_lt_of_eq t.isLt (show cfg3.N = 4 from N_3)
  by_cases h0 : t.val % 4 = 0
  ·
    rw [outsAt3_A 𝒱₀ c V t h0]
    unfold out3_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_A (Name := Name) (U := U) 𝒱₀ c (grid3.coords t) _ _ _ _ _ _ _ _ _ _ _ _ _ _ _ _ _ _ _ _ _ _ _ _ ((hcond3_0 t).mpr h0) (fun h => by have := (hcond3_1 t).mp h; omega) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover3_A 𝒱₀ c _ _ _ _ _ _ _ _ _ _ _ _ _ _ _ _ _ _ _ _ _ _ _ _ _ _ _ _ _ _ _ _ _ _ _ _ _)
  · by_cases h3 : t.val % 4 = 3
    ·
      rw [outsAt3_C 𝒱₀ c V t h0 h3]
      simp only [before3_10_kept 𝒱₀ c V Φ₀ q₀ owed₀ rec₀ t h0]
      unfold out3_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_C (Name := Name) (U := U) 𝒱₀ c (grid3.coords t) _ _ _ _ _ _ _ _ _ _ _ _ _ _ _ _ _ _ _ _ _ _ _ _ (fun h => h0 ((hcond3_0 t).mp h)) ((hcond3_1 t).mpr h3) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover3_C 𝒱₀ c _ _ _ _ _ _ _ _ _ _ _ _ _ _ _ _ _ _ _ _ _ _ _ _ _ _ _ _ _ _ _ _ _ _ _ _ _ _)
    ·
      rw [outsAt3_B 𝒱₀ c V t h0 h3]
      simp only [before3_10_kept 𝒱₀ c V Φ₀ q₀ owed₀ rec₀ t h0]
      unfold out3_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B (Name := Name) (U := U) 𝒱₀ c (grid3.coords t) _ _ _ _ _ _ _ _ _ _ _ _ _ _ _ _ _ _ _ _ _ _ _ _ (fun h => h0 ((hcond3_0 t).mp h)) (fun h => h3 ((hcond3_1 t).mp h)) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover3_B 𝒱₀ c _ _ _ _ _ _ _ _ _ _ _ _ _ _ _ _ _ _ _ _ _ _ _ _ _ _ _ _ _ _ _ _ _ _ _ _ _ _)

/-- The library's body obligation, at every point. -/
theorem body_obligation3_exact (Φ₀ : sProp 𝕄) (q₀ : Fin cfg3.W → PosShare TreeShare) (owed₀ : CellTallies nD τ sig (HIx 4)) (rec₀ : Set (SemLoc sig × HIx 4)) : BodyObligation (dat3 (F := F) (Name := Name) (U := U) 𝒱₀ c V Φ₀ q₀ owed₀ rec₀) (defs₀ (F := F)) 𝒱₀ none Set.univ := fun t => by
  rw [bigSep_W3, bigSep_W3]
  exact sound_body3 𝒱₀ c V Φ₀ q₀ owed₀ rec₀ t

/-- The body obligation as the pipeline's loop uses it. -/
theorem body_obligation3 (Φ₀ : sProp 𝕄) (q₀ : Fin cfg3.W → PosShare TreeShare) (owed₀ : CellTallies nD τ sig (HIx 4)) (rec₀ : Set (SemLoc sig × HIx 4)) : BodyObligationLoose (dat3 (F := F) (Name := Name) (U := U) 𝒱₀ c V Φ₀ q₀ owed₀ rec₀) (defs₀ (F := F)) 𝒱₀ none Set.univ :=
  (body_obligation3_exact 𝒱₀ c V Φ₀ q₀ owed₀ rec₀).loose

end Region

end Cert.Proof.KI.Gemv1

end
-- ==== Proof.Gemv3Entry.lean ====
import proofs.«208418_g89945205112833_cont_sun_c4_809_35_alg».proof.Proof.ScPay
import proofs.«208418_g89945205112833_cont_sun_c4_809_35_alg».proof.Proof.LibScRegion
import proofs.«208418_g89945205112833_cont_sun_c4_809_35_alg».proof.Proof.LibReadShares
import proofs.«208418_g89945205112833_cont_sun_c4_809_35_alg».proof.Proof.GemvShares
import proofs.«208418_g89945205112833_cont_sun_c4_809_35_alg».proof.Proof.Gemv3Frame

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU)
open Cert.Proof

local notation "𝕄" => MT nD τ sig (HIx 4) (Elt F) ℕ UU ℕ
local notation "Tc" => SparseCore.T (nD := nD) (τ := τ)

/-! ## The region's proof data at the call site, and its entry and exit -/

/-- The share each input window holds of its array: the gathered row and the bias whole; the eight weight windows, which
    stage one array, one read token each of its full share (the remainder bypasses the region). -/
def q3 : Fin cfg3.W → PosShare TreeShare
  | ⟨0, _⟩ => fullShare
  | ⟨1, _⟩ => Transfers.shareTok fullShare 8 0
  | ⟨2, _⟩ => Transfers.shareTok fullShare 8 1
  | ⟨3, _⟩ => Transfers.shareTok fullShare 8 2
  | ⟨4, _⟩ => Transfers.shareTok fullShare 8 3
  | ⟨5, _⟩ => Transfers.shareTok fullShare 8 4
  | ⟨6, _⟩ => Transfers.shareTok fullShare 8 5
  | ⟨7, _⟩ => Transfers.shareTok fullShare 8 6
  | ⟨8, _⟩ => Transfers.shareTok fullShare 8 7
  | ⟨9, _⟩ => fullShare
  | ⟨10, _⟩ => fullShare

/-- The invariant the body passes through unread: the core's scoped buffers that are no staging buffer. -/
def Φr3 (c : Dev nD) : sProp 𝕄 := Pipeline.scopedRest (Ix := HIx 4) (Name := ℕ) (U := UU) (Lvl := ℕ) (Val := Elt F) spec3 c

/-- The region's proof data on core `c` before call `n`, at entry contents `V`: the debt carried unchanged. -/
def rdat3 (c : Dev nD) (n : ℕ) (V : (b : Ref sig .tc) → Buf (Elt F) ((c.tc : Thread nD τ).loc b)) : Dat τ (Elt F) (HIx 4) ℕ UU ℕ cfg3 c :=
  dat3 (Name := ℕ) (U := UU) 𝒱₀ c V (Φr3 c) q3 ((K (F := F)).Otc c n) (LibScRegion.rcAt (K (F := F)) c n)

/-- What the region is entered from: the debt with its bound, and the four arrays whole. -/
def pre3 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v10) ↦{fullShare} V main_v10) ∗ (((Tc c).loc main_arg6) ↦{fullShare} V main_arg6) ∗ (((Tc c).loc main_v11) ↦{fullShare} V main_v11) ∗ (((Tc c).loc main_v12) ↦{fullShare} V main_v12))

/-- What it leaves: the same, the output array at whatever the region wrote. -/
def post3 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v10) ↦{fullShare} V main_v10) ∗ (((Tc c).loc main_arg6) ↦{fullShare} V main_arg6) ∗ (((Tc c).loc main_v11) ↦{fullShare} V main_v11) ∗ (∃ f, ((Tc c).loc main_v12) ↦{fullShare} f))

/-- The weights' share that bypasses the region. -/
def Z3 (c : Dev nD) (V : (b : Ref sig .tc) → Buf (Elt F) ((Tc c).loc b)) : sProp 𝕄 :=
  ((Tc c).loc main_arg6) ↦{Transfers.shareDrop fullShare 8} V main_arg6

/-! ### Each window's array, as the whole buffer behind it at the window's share -/

theorem arrPt3_0 (c : Dev nD) (n : ℕ) (V : (b : Ref sig .tc) → Buf (Elt F) ((Tc c).loc b)) (X : Buf (Elt F) ((cfg3.win 0).arr.view.loc (c.tc : Thread nD τ))) :
    ((cfg3.win 0).arr.view.loc (c.tc : Thread nD τ) ↦[(cfg3.win 0).arr.view.set]{(rdat3 c n V).share 0} X : sProp 𝕄)
      = (((Tc c).loc main_v10) ↦{fullShare} X) := by
  have h : (cfg3.win 0).arr.IsWhole := arr_whole3 0
  rw [h.set_eq_univ]; rfl

theorem arrPt3_1 (c : Dev nD) (n : ℕ) (V : (b : Ref sig .tc) → Buf (Elt F) ((Tc c).loc b)) (X : Buf (Elt F) ((cfg3.win 1).arr.view.loc (c.tc : Thread nD τ))) :
    ((cfg3.win 1).arr.view.loc (c.tc : Thread nD τ) ↦[(cfg3.win 1).arr.view.set]{(rdat3 c n V).share 1} X : sProp 𝕄)
      = (((Tc c).loc main_arg6) ↦{Transfers.shareTok fullShare 8 0} X) := by
  have h : (cfg3.win 1).arr.IsWhole := arr_whole3 1
  rw [h.set_eq_univ]; rfl

theorem arrPt3_2 (c : Dev nD) (n : ℕ) (V : (b : Ref sig .tc) → Buf (Elt F) ((Tc c).loc b)) (X : Buf (Elt F) ((cfg3.win 2).arr.view.loc (c.tc : Thread nD τ))) :
    ((cfg3.win 2).arr.view.loc (c.tc : Thread nD τ) ↦[(cfg3.win 2).arr.view.set]{(rdat3 c n V).share 2} X : sProp 𝕄)
      = (((Tc c).loc main_arg6) ↦{Transfers.shareTok fullShare 8 1} X) := by
  have h : (cfg3.win 2).arr.IsWhole := arr_whole3 2
  rw [h.set_eq_univ]; rfl

theorem arrPt3_3 (c : Dev nD) (n : ℕ) (V : (b : Ref sig .tc) → Buf (Elt F) ((Tc c).loc b)) (X : Buf (Elt F) ((cfg3.win 3).arr.view.loc (c.tc : Thread nD τ))) :
    ((cfg3.win 3).arr.view.loc (c.tc : Thread nD τ) ↦[(cfg3.win 3).arr.view.set]{(rdat3 c n V).share 3} X : sProp 𝕄)
      = (((Tc c).loc main_arg6) ↦{Transfers.shareTok fullShare 8 2} X) := by
  have h : (cfg3.win 3).arr.IsWhole := arr_whole3 3
  rw [h.set_eq_univ]; rfl

theorem arrPt3_4 (c : Dev nD) (n : ℕ) (V : (b : Ref sig .tc) → Buf (Elt F) ((Tc c).loc b)) (X : Buf (Elt F) ((cfg3.win 4).arr.view.loc (c.tc : Thread nD τ))) :
    ((cfg3.win 4).arr.view.loc (c.tc : Thread nD τ) ↦[(cfg3.win 4).arr.view.set]{(rdat3 c n V).share 4} X : sProp 𝕄)
      = (((Tc c).loc main_arg6) ↦{Transfers.shareTok fullShare 8 3} X) := by
  have h : (cfg3.win 4).arr.IsWhole := arr_whole3 4
  rw [h.set_eq_univ]; rfl

theorem arrPt3_5 (c : Dev nD) (n : ℕ) (V : (b : Ref sig .tc) → Buf (Elt F) ((Tc c).loc b)) (X : Buf (Elt F) ((cfg3.win 5).arr.view.loc (c.tc : Thread nD τ))) :
    ((cfg3.win 5).arr.view.loc (c.tc : Thread nD τ) ↦[(cfg3.win 5).arr.view.set]{(rdat3 c n V).share 5} X : sProp 𝕄)
      = (((Tc c).loc main_arg6) ↦{Transfers.shareTok fullShare 8 4} X) := by
  have h : (cfg3.win 5).arr.IsWhole := arr_whole3 5
  rw [h.set_eq_univ]; rfl

theorem arrPt3_6 (c : Dev nD) (n : ℕ) (V : (b : Ref sig .tc) → Buf (Elt F) ((Tc c).loc b)) (X : Buf (Elt F) ((cfg3.win 6).arr.view.loc (c.tc : Thread nD τ))) :
    ((cfg3.win 6).arr.view.loc (c.tc : Thread nD τ) ↦[(cfg3.win 6).arr.view.set]{(rdat3 c n V).share 6} X : sProp 𝕄)
      = (((Tc c).loc main_arg6) ↦{Transfers.shareTok fullShare 8 5} X) := by
  have h : (cfg3.win 6).arr.IsWhole := arr_whole3 6
  rw [h.set_eq_univ]; rfl

theorem arrPt3_7 (c : Dev nD) (n : ℕ) (V : (b : Ref sig .tc) → Buf (Elt F) ((Tc c).loc b)) (X : Buf (Elt F) ((cfg3.win 7).arr.view.loc (c.tc : Thread nD τ))) :
    ((cfg3.win 7).arr.view.loc (c.tc : Thread nD τ) ↦[(cfg3.win 7).arr.view.set]{(rdat3 c n V).share 7} X : sProp 𝕄)
      = (((Tc c).loc main_arg6) ↦{Transfers.shareTok fullShare 8 6} X) := by
  have h : (cfg3.win 7).arr.IsWhole := arr_whole3 7
  rw [h.set_eq_univ]; rfl

theorem arrPt3_8 (c : Dev nD) (n : ℕ) (V : (b : Ref sig .tc) → Buf (Elt F) ((Tc c).loc b)) (X : Buf (Elt F) ((cfg3.win 8).arr.view.loc (c.tc : Thread nD τ))) :
    ((cfg3.win 8).arr.view.loc (c.tc : Thread nD τ) ↦[(cfg3.win 8).arr.view.set]{(rdat3 c n V).share 8} X : sProp 𝕄)
      = (((Tc c).loc main_arg6) ↦{Transfers.shareTok fullShare 8 7} X) := by
  have h : (cfg3.win 8).arr.IsWhole := arr_whole3 8
  rw [h.set_eq_univ]; rfl

theorem arrPt3_9 (c : Dev nD) (n : ℕ) (V : (b : Ref sig .tc) → Buf (Elt F) ((Tc c).loc b)) (X : Buf (Elt F) ((cfg3.win 9).arr.view.loc (c.tc : Thread nD τ))) :
    ((cfg3.win 9).arr.view.loc (c.tc : Thread nD τ) ↦[(cfg3.win 9).arr.view.set]{(rdat3 c n V).share 9} X : sProp 𝕄)
      = (((Tc c).loc main_v11) ↦{fullShare} X) := by
  have h : (cfg3.win 9).arr.IsWhole := arr_whole3 9
  rw [h.set_eq_univ]; rfl

theorem arrPt3_10 (c : Dev nD) (n : ℕ) (V : (b : Ref sig .tc) → Buf (Elt F) ((Tc c).loc b)) (X : Buf (Elt F) ((cfg3.win 10).arr.view.loc (c.tc : Thread nD τ))) :
    ((cfg3.win 10).arr.view.loc (c.tc : Thread nD τ) ↦[(cfg3.win 10).arr.view.set]{(rdat3 c n V).share 10} X : sProp 𝕄)
      = (((Tc c).loc main_v12) ↦{fullShare} X) := by
  have h : (cfg3.win 10).arr.IsWhole := arr_whole3 10
  rw [h.set_eq_univ]; rfl

/-- The arrays at entry are the region-entry contents. -/
theorem arrAt0_3 (c : Dev nD) (n : ℕ) (V : (b : Ref sig .tc) → Buf (Elt F) ((Tc c).loc b)) (w : Fin cfg3.W) :
    (rdat3 c n V).arrAt w 0 = V (Pipeline.arrRef spec3 w) := rfl

/-- An input window's array is never written back. -/
theorem arrAtN_3 (c : Dev nD) (n : ℕ) (V : (b : Ref sig .tc) → Buf (Elt F) ((Tc c).loc b)) (w : Fin cfg3.W) (hw : (cfg3.win w).isOut = false) :
    (rdat3 c n V).arrAt w cfg3.N = V (Pipeline.arrRef spec3 w) := (Dat.arrAt_in _ w hw _).trans rfl

set_option maxHeartbeats 4000000 in
/-- ENTRY: the four arrays whole make the windows' arrays at their shares — the weights' full share split into the
    eight windows' read tokens and a remainder that bypasses the region —, and the debt with its bound is what the
    proof data's first point owes. -/
theorem entry3 (c : Dev nD) (n : ℕ) (V : (b : Ref sig .tc) → Buf (Elt F) ((Tc c).loc b)) :
    pre3 c n V ⊢ iprop((rdat3 c n V).arrays ((rdat3 c n V).arrAt · 0) ∗ (rdat3 c n V).owesAt none 0 ∗ Z3 c V) := by
  unfold Dat.arrays pre3 Z3
  rw [bigSep_W3]
  rw [arrPt3_0 c n V, arrPt3_1 c n V, arrPt3_2 c n V, arrPt3_3 c n V, arrPt3_4 c n V, arrPt3_5 c n V, arrPt3_6 c n V, arrPt3_7 c n V, arrPt3_8 c n V, arrPt3_9 c n V, arrPt3_10 c n V]
  show iprop((∃ W, ⌜(K (F := F)).WBelow (Tc c) W (8 * n)⌝ ∗ owes (Tc c) ((K (F := F)).Otc c n) W) ∗ (((Tc c).loc main_v10) ↦{fullShare} V main_v10) ∗ (((Tc c).loc main_arg6) ↦{fullShare} V main_arg6) ∗ (((Tc c).loc main_v11) ↦{fullShare} V main_v11) ∗ (((Tc c).loc main_v12) ↦{fullShare} V main_v12))
    ⊢ iprop(((((Tc c).loc main_v10) ↦{fullShare} V main_v10) ∗ (((Tc c).loc main_arg6) ↦{Transfers.shareTok fullShare 8 0} V main_arg6) ∗ (((Tc c).loc main_arg6) ↦{Transfers.shareTok fullShare 8 1} V main_arg6) ∗ (((Tc c).loc main_arg6) ↦{Transfers.shareTok fullShare 8 2} V main_arg6) ∗ (((Tc c).loc main_arg6) ↦{Transfers.shareTok fullShare 8 3} V main_arg6) ∗ (((Tc c).loc main_arg6) ↦{Transfers.shareTok fullShare 8 4} V main_arg6) ∗ (((Tc c).loc main_arg6) ↦{Transfers.shareTok fullShare 8 5} V main_arg6) ∗ (((Tc c).loc main_arg6) ↦{Transfers.shareTok fullShare 8 6} V main_arg6) ∗ (((Tc c).loc main_arg6) ↦{Transfers.shareTok fullShare 8 7} V main_arg6) ∗ (((Tc c).loc main_v11) ↦{fullShare} V main_v11) ∗ (((Tc c).loc main_v12) ↦{fullShare} V main_v12)) ∗ (rdat3 c n V).owesAt none 0 ∗ (((Tc c).loc main_arg6) ↦{Transfers.shareDrop fullShare 8} V main_arg6))
  iintro ⟨⟨%W, %hW, HO⟩, Hg, HW, Hb, Ho⟩
  ihave HW' := (split8 (F := F) _ _) $$ HW
  icases HW' with ⟨Hrem, H0, H1, H2, H3, H4, H5, H6, H7⟩
  isplitl [Hg H0 H1 H2 H3 H4 H5 H6 H7 Hb Ho]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hb]; · iexact Hb
    iexact Ho
  isplitl [HO]
  · iexists W; isplitr
    · ipureintro; exact fun pr hpr => Or.inl (hW pr hpr)
    iexact HO
  iexact Hrem

set_option maxHeartbeats 4000000 in
/-- EXIT: the inputs' arrays were never written, so the eight read tokens and the remainder join into the weights whole
    again; the output's array holds whatever the write-back left; the recorded waits stay within the debt's bound
    (the region's own sit at the kernels' index). -/
theorem exit3 (c : Dev nD) (n : ℕ) (V : (b : Ref sig .tc) → Buf (Elt F) ((Tc c).loc b)) :
    iprop((rdat3 c n V).arrays ((rdat3 c n V).arrAt · cfg3.N) ∗ (rdat3 c n V).owesAt none (Fin.last cfg3.N) ∗ Z3 c V) ⊢ post3 c n V := by
  unfold Dat.arrays post3 Z3
  rw [bigSep_W3]
  rw [arrPt3_0 c n V, arrPt3_1 c n V, arrPt3_2 c n V, arrPt3_3 c n V, arrPt3_4 c n V, arrPt3_5 c n V, arrPt3_6 c n V, arrPt3_7 c n V, arrPt3_8 c n V, arrPt3_9 c n V, arrPt3_10 c n V]
  beta_reduce
  rw [arrAtN_3 c n V 0 rfl, arrAtN_3 c n V 1 rfl, arrAtN_3 c n V 2 rfl, arrAtN_3 c n V 3 rfl, arrAtN_3 c n V 4 rfl, arrAtN_3 c n V 5 rfl, arrAtN_3 c n V 6 rfl, arrAtN_3 c n V 7 rfl, arrAtN_3 c n V 8 rfl, arrAtN_3 c n V 9 rfl]
  show iprop(((((Tc c).loc main_v10) ↦{fullShare} V main_v10) ∗ (((Tc c).loc main_arg6) ↦{Transfers.shareTok fullShare 8 0} V main_arg6) ∗ (((Tc c).loc main_arg6) ↦{Transfers.shareTok fullShare 8 1} V main_arg6) ∗ (((Tc c).loc main_arg6) ↦{Transfers.shareTok fullShare 8 2} V main_arg6) ∗ (((Tc c).loc main_arg6) ↦{Transfers.shareTok fullShare 8 3} V main_arg6) ∗ (((Tc c).loc main_arg6) ↦{Transfers.shareTok fullShare 8 4} V main_arg6) ∗ (((Tc c).loc main_arg6) ↦{Transfers.shareTok fullShare 8 5} V main_arg6) ∗ (((Tc c).loc main_arg6) ↦{Transfers.shareTok fullShare 8 6} V main_arg6) ∗ (((Tc c).loc main_arg6) ↦{Transfers.shareTok fullShare 8 7} V main_arg6) ∗ (((Tc c).loc main_v11) ↦{fullShare} V main_v11) ∗ (((Tc c).loc main_v12) ↦{fullShare} (rdat3 c n V).arrAt 10 cfg3.N)) ∗ (rdat3 c n V).owesAt none (Fin.last cfg3.N) ∗ (((Tc c).loc main_arg6) ↦{Transfers.shareDrop fullShare 8} V main_arg6))
    ⊢ iprop((∃ W, ⌜(K (F := F)).WBelow (Tc c) W (8 * n)⌝ ∗ owes (Tc c) ((K (F := F)).Otc c n) W) ∗ (((Tc c).loc main_v10) ↦{fullShare} V main_v10) ∗ (((Tc c).loc main_arg6) ↦{fullShare} V main_arg6) ∗ (((Tc c).loc main_v11) ↦{fullShare} V main_v11) ∗ (∃ f, ((Tc c).loc main_v12) ↦{fullShare} f))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg3.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexists _; iexact Ho

end Cert.Proof.KI.Gemv1

end
-- ==== Proof.Gemv5Conds.lean ====
import proofs.«208418_g89945205112833_cont_sun_c4_809_35_alg».proof.Proof.Gen.KernelIdeal.Launch
import proofs.«208418_g89945205112833_cont_sun_c4_809_35_alg».proof.Proof.Gen.KernelIdeal.Skeleton
import proofs.«208418_g89945205112833_cont_sun_c4_809_35_alg».proof.Proof.Gen.KernelIdeal.Points
import Idealize.ShloMosaic.Lib.Pipeline.FrameBody
import Idealize.ShloMosaic.Lib.Ring
import Idealize.ShloMosaic.Lib.Tactic
import Idealize.ShloMosaic.Lib.SparseCore.Launch

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The body's two conditionals, in closed form over the grid

The body stores the bias into the output block when the grid coordinate is 0 and applies tanh in place when
it is 3; both conditions are comparisons of the coordinate, decided over the four grid points. -/

/-- The first conditional's condition (the coordinate is 0), as the body computes it. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val % 4 = 0 :=
  (by decide +kernel : ∀ t : Fin grid5.N, cond5_0 (grid5.coords t) ↔ t.val % 4 = 0)
/-- The second conditional's condition (the coordinate is 3), as the body computes it. -/
abbrev cond5_1 (i : grid5.Coords) : Prop := (Scalar.cmpi .ne (Scalar.extui (Scalar.cmpi .eq (BitVec.ofNat 32 (i 0).val) 3#32)) 0#32) = 1#1
/-- It holds at the last point only. -/
theorem hcond5_1 : ∀ t : Fin cfg5.N, cond5_1 (grid5.coords t) ↔ t.val % 4 = 3 :=
  (by decide +kernel : ∀ t : Fin grid5.N, cond5_1 (grid5.coords t) ↔ t.val % 4 = 3)

end Cert.Proof.KI.Gemv1

end
-- ==== Proof.Gemv5RunA.lean ====
import proofs.«208418_g89945205112833_cont_sun_c4_809_35_alg».proof.Proof.Gemv5Conds

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the first grid point (the bias is stored first; no tanh), with the proof that on whole
    staging memrefs — the gathered row, the eight weight blocks and the bias at their contents, the output's at anything —
    the body runs to the continuation holding the inputs as they were and the output's buffer with those pieces written. -/
noncomputable def kernelRun5_A (𝒱₀ : Variants) (c : Dev nD) (i : grid5.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ d, owns (c : Thread nD τ) arg12 fullShare d)
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc5_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc5_body_eq_skeleton]; unfold cc5_body_skel
    simp only [k5_part1_eq_skeleton, k5_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv5RunB.lean ====
import proofs.«208418_g89945205112833_cont_sun_c4_809_35_alg».proof.Proof.Gemv5RunA

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at a middle grid point (neither conditional taken), with the proof that on whole
    staging memrefs — the gathered row, the eight weight blocks and the bias at their contents, the output's at its running contents —
    the body runs to the continuation holding the inputs as they were and the output's buffer with those pieces written. -/
noncomputable def kernelRun5_B (𝒱₀ : Variants) (c : Dev nD) (i : grid5.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc5_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc5_body_eq_skeleton]; unfold cc5_body_skel
    simp only [k5_part1_eq_skeleton, k5_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv5RunC.lean ====
import proofs.«208418_g89945205112833_cont_sun_c4_809_35_alg».proof.Proof.Gemv5RunB

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the last grid point (tanh applied at the end), with the proof that on whole
    staging memrefs — the gathered row, the eight weight blocks and the bias at their contents, the output's at its running contents —
    the body runs to the continuation holding the inputs as they were and the output's buffer with those pieces written. -/
noncomputable def kernelRun5_C (𝒱₀ : Variants) (c : Dev nD) (i : grid5.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond5_0 i) (hc1 : cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc5_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc5_body_eq_skeleton]; unfold cc5_body_skel
    simp only [k5_part1_eq_skeleton, k5_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KI.Gemv1

end
-- ==== Proof.Gemv5Outs.lean ====
import proofs.«208418_g89945205112833_cont_sun_c4_809_35_alg».proof.Proof.Gemv5RunC

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The staging memrefs at a point, and the output's view -/

/-- One staging buffer of the output window, through which its contents are stated. -/
abbrev VO5 : View sig .tc .vmem S1x4096 .f32 := (Memref.whole cc5_stg10_0 : Memref sig .tc .vmem S1x4096 .f32).view
abbrev ms5_0 (t : Fin cfg5.N) : Memref sig .tc .vmem S1x4096 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x4096 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x4096 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x4096 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S128x4096 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x4096 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S128x4096 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S128x4096 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S128x4096 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x4096 .f32 := win5_9.stage (cfg5.slots t 9)
abbrev hs5_9 (t : Fin cfg5.N) : (ms5_9 t).IsWhole := hstage5_9 ((cfg5.slots t 9).cast nbuf5_9)
abbrev ms5_10 (t : Fin cfg5.N) : Memref sig .tc .vmem S1x4096 .f32 := win5_10.stage (cfg5.slots t 10)
abbrev hs5_10 (t : Fin cfg5.N) : (ms5_10 t).IsWhole := hstage5_10 ((cfg5.slots t 10).cast nbuf5_10)

/-! ## What each control case leaves in the output's staging buffer -/

/-- Case A's pieces tile the output block, so they cover it. -/
theorem cover5_A (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (y : S1x4096.Idx) :
    ∃ pc ∈ (kernelRun5_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1, y ∈ pc.1.set :=
  View.cover_of_tiledL (kernelRun5_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1 S1x4096.size (by sl_kernel_rfl) y

/-- What case A leaves in the output's staging buffer: its pieces read back over junk. -/
def out5_A (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) : Vec F S1x4096 .f32 :=
  VO5.read (Elt F) (VO5.writes (Elt F) VO5.junk (kernelRun5_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1)

/-- Case B's pieces tile the output block, so they cover it. -/
theorem cover5_B (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun5_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun5_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case B leaves in the output's staging buffer: its pieces read back over junk. -/
def out5_B (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO5.read (Elt F) (VO5.writes (Elt F) VO5.junk (kernelRun5_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

/-- Case C's pieces tile the output block, so they cover it. -/
theorem cover5_C (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun5_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun5_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case C leaves in the output's staging buffer: its pieces read back over junk. -/
def out5_C (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO5.read (Elt F) (VO5.writes (Elt F) VO5.junk (kernelRun5_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

section Region
variable (𝒱₀ : Variants) (c : Dev nD) (V : (b : Ref sig .tc) → Buf (Elt F) ((c.tc : Thread nD τ).loc b))

/-! ## The windows' blocks, read off the arrays as the region finds them -/

/-- Window `w`'s block at point `t`, read off its array at the entry contents `V`. -/
def iblk5 (w : Fin cfg5.W) (t : Fin cfg5.N) : ((cfg5.win w).xblock (cfg5.grid.coords t)).Idx → Elt F (cfg5.win w).elt :=
  ((cfg5.win w).blk t).view.read (Elt F) (V (Pipeline.arrRef spec5 w))

/-- Input window 0's current staging buffer holds its block at every point, fetched there or not. -/
theorem before5_0_of (dat : Dat τ (Elt F) (HIx 4) Name U ℕ cfg5 c) (hA : dat.A 0 = V (Pipeline.arrRef spec5 0))
    (hafter : ∀ t, dat.after 0 t = iblk5 c V 0 t) (t : Fin cfg5.N) (d) : dat.before 0 t d = iblk5 c V 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of (dat : Dat τ (Elt F) (HIx 4) Name U ℕ cfg5 c) (hA : dat.A 1 = V (Pipeline.arrRef spec5 1))
    (hafter : ∀ t, dat.after 1 t = iblk5 c V 1 t) (t : Fin cfg5.N) (d) : dat.before 1 t d = iblk5 c V 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of (dat : Dat τ (Elt F) (HIx 4) Name U ℕ cfg5 c) (hA : dat.A 2 = V (Pipeline.arrRef spec5 2))
    (hafter : ∀ t, dat.after 2 t = iblk5 c V 2 t) (t : Fin cfg5.N) (d) : dat.before 2 t d = iblk5 c V 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of (dat : Dat τ (Elt F) (HIx 4) Name U ℕ cfg5 c) (hA : dat.A 3 = V (Pipeline.arrRef spec5 3))
    (hafter : ∀ t, dat.after 3 t = iblk5 c V 3 t) (t : Fin cfg5.N) (d) : dat.before 3 t d = iblk5 c V 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of (dat : Dat τ (Elt F) (HIx 4) Name U ℕ cfg5 c) (hA : dat.A 4 = V (Pipeline.arrRef spec5 4))
    (hafter : ∀ t, dat.after 4 t = iblk5 c V 4 t) (t : Fin cfg5.N) (d) : dat.before 4 t d = iblk5 c V 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not. -/
theorem before5_5_of (dat : Dat τ (Elt F) (HIx 4) Name U ℕ cfg5 c) (hA : dat.A 5 = V (Pipeline.arrRef spec5 5))
    (hafter : ∀ t, dat.after 5 t = iblk5 c V 5 t) (t : Fin cfg5.N) (d) : dat.before 5 t d = iblk5 c V 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not. -/
theorem before5_6_of (dat : Dat τ (Elt F) (HIx 4) Name U ℕ cfg5 c) (hA : dat.A 6 = V (Pipeline.arrRef spec5 6))
    (hafter : ∀ t, dat.after 6 t = iblk5 c V 6 t) (t : Fin cfg5.N) (d) : dat.before 6 t d = iblk5 c V 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not. -/
theorem before5_7_of (dat : Dat τ (Elt F) (HIx 4) Name U ℕ cfg5 c) (hA : dat.A 7 = V (Pipeline.arrRef spec5 7))
    (hafter : ∀ t, dat.after 7 t = iblk5 c V 7 t) (t : Fin cfg5.N) (d) : dat.before 7 t d = iblk5 c V 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not. -/
theorem before5_8_of (dat : Dat τ (Elt F) (HIx 4) Name U ℕ cfg5 c) (hA : dat.A 8 = V (Pipeline.arrRef spec5 8))
    (hafter : ∀ t, dat.after 8 t = iblk5 c V 8 t) (t : Fin cfg5.N) (d) : dat.before 8 t d = iblk5 c V 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- Input window 9's current staging buffer holds its block at every point, fetched there or not. -/
theorem before5_9_of (dat : Dat τ (Elt F) (HIx 4) Name U ℕ cfg5 c) (hA : dat.A 9 = V (Pipeline.arrRef spec5 9))
    (hafter : ∀ t, dat.after 9 t = iblk5 c V 9 t) (t : Fin cfg5.N) (d) : dat.before 9 t d = iblk5 c V 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-! ## What the output's staging buffer holds after each point -/

/-- The accumulation: what the output's staging buffer holds after the body at position `n` — the case the closed
    forms select there, run at the point's memrefs and input blocks, over what the point before left (the buffer
    is not written back between). -/
def outsAt5 : (n : ℕ) → n < cfg5.N → Vec F S1x4096 .f32
  | 0, hn => out5_A (Name := Name) (U := U) 𝒱₀ c (grid5.coords ⟨0, hn⟩) (Memref.whole main_v12) (Memref.isWhole_whole _) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) (ms5_10 ⟨0, hn⟩) (hs5_10 ⟨0, hn⟩) ((hcond5_0 ⟨0, hn⟩).mpr (Nat.zero_mod _)) (fun h => by have := (hcond5_1 ⟨0, hn⟩).mp h; dsimp only at this; omega) (iblk5 c V 0 ⟨0, hn⟩) (iblk5 c V 1 ⟨0, hn⟩) (iblk5 c V 2 ⟨0, hn⟩) (iblk5 c V 3 ⟨0, hn⟩) (iblk5 c V 4 ⟨0, hn⟩) (iblk5 c V 5 ⟨0, hn⟩) (iblk5 c V 6 ⟨0, hn⟩) (iblk5 c V 7 ⟨0, hn⟩) (iblk5 c V 8 ⟨0, hn⟩) (iblk5 c V 9 ⟨0, hn⟩)
  | n + 1, hn =>
    if h0 : (n + 1) % 4 = 0 then
      out5_A (Name := Name) (U := U) 𝒱₀ c (grid5.coords ⟨n + 1, hn⟩) (Memref.whole main_v12) (Memref.isWhole_whole _) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) ((hcond5_0 ⟨n + 1, hn⟩).mpr h0) (fun h => by have := (hcond5_1 ⟨n + 1, hn⟩).mp h; dsimp only at this; omega) (iblk5 c V 0 ⟨n + 1, hn⟩) (iblk5 c V 1 ⟨n + 1, hn⟩) (iblk5 c V 2 ⟨n + 1, hn⟩) (iblk5 c V 3 ⟨n + 1, hn⟩) (iblk5 c V 4 ⟨n + 1, hn⟩) (iblk5 c V 5 ⟨n + 1, hn⟩) (iblk5 c V 6 ⟨n + 1, hn⟩) (iblk5 c V 7 ⟨n + 1, hn⟩) (iblk5 c V 8 ⟨n + 1, hn⟩) (iblk5 c V 9 ⟨n + 1, hn⟩)
    else if h3 : (n + 1) % 4 = 3 then
      out5_C (Name := Name) (U := U) 𝒱₀ c (grid5.coords ⟨n + 1, hn⟩) (Memref.whole main_v12) (Memref.isWhole_whole _) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (fun h => h0 ((hcond5_0 ⟨n + 1, hn⟩).mp h)) ((hcond5_1 ⟨n + 1, hn⟩).mpr h3) (iblk5 c V 0 ⟨n + 1, hn⟩) (iblk5 c V 1 ⟨n + 1, hn⟩) (iblk5 c V 2 ⟨n + 1, hn⟩) (iblk5 c V 3 ⟨n + 1, hn⟩) (iblk5 c V 4 ⟨n + 1, hn⟩) (iblk5 c V 5 ⟨n + 1, hn⟩) (iblk5 c V 6 ⟨n + 1, hn⟩) (iblk5 c V 7 ⟨n + 1, hn⟩) (iblk5 c V 8 ⟨n + 1, hn⟩) (iblk5 c V 9 ⟨n + 1, hn⟩) (outsAt5 n (Nat.lt_of_succ_lt hn))
    else
      out5_B (Name := Name) (U := U) 𝒱₀ c (grid5.coords ⟨n + 1, hn⟩) (Memref.whole main_v12) (Memref.isWhole_whole _) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (fun h => h0 ((hcond5_0 ⟨n + 1, hn⟩).mp h)) (fun h => h3 ((hcond5_1 ⟨n + 1, hn⟩).mp h)) (iblk5 c V 0 ⟨n + 1, hn⟩) (iblk5 c V 1 ⟨n + 1, hn⟩) (iblk5 c V 2 ⟨n + 1, hn⟩) (iblk5 c V 3 ⟨n + 1, hn⟩) (iblk5 c V 4 ⟨n + 1, hn⟩) (iblk5 c V 5 ⟨n + 1, hn⟩) (iblk5 c V 6 ⟨n + 1, hn⟩) (iblk5 c V 7 ⟨n + 1, hn⟩) (iblk5 c V 8 ⟨n + 1, hn⟩) (iblk5 c V 9 ⟨n + 1, hn⟩) (outsAt5 n (Nat.lt_of_succ_lt hn))

/-- `outsAt5` at a point of case A. -/
theorem outsAt5_A (t : Fin cfg5.N) (h0 : t.val % 4 = 0) :
    outsAt5 (Name := Name) (U := U) 𝒱₀ c V t.val t.isLt = out5_A (Name := Name) (U := U) 𝒱₀ c (grid5.coords t) (Memref.whole main_v12) (Memref.isWhole_whole _) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) ((hcond5_0 t).mpr h0) (fun h => by have := (hcond5_1 t).mp h; omega) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) := by
  obtain ⟨n, hn⟩ := t
  cases n with
  | zero => exact rfl
  | succ n => exact (dif_pos h0).trans rfl

/-- `outsAt5` at a point of case C: over what the point before left. -/
theorem outsAt5_C (t : Fin cfg5.N) (h0 : ¬t.val % 4 = 0) (h3 : t.val % 4 = 3) :
    outsAt5 (Name := Name) (U := U) 𝒱₀ c V t.val t.isLt = out5_C (Name := Name) (U := U) 𝒱₀ c (grid5.coords t) (Memref.whole main_v12) (Memref.isWhole_whole _) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (fun h => h0 ((hcond5_0 t).mp h)) ((hcond5_1 t).mpr h3) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) (outsAt5 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- `outsAt5` at a point of case B: over what the point before left. -/
theorem outsAt5_B (t : Fin cfg5.N) (h0 : ¬t.val % 4 = 0) (h3 : ¬t.val % 4 = 3) :
    outsAt5 (Name := Name) (U := U) 𝒱₀ c V t.val t.isLt = out5_B (Name := Name) (U := U) 𝒱₀ c (grid5.coords t) (Memref.whole main_v12) (Memref.isWhole_whole _) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (fun h => h0 ((hcond5_0 t).mp h)) (fun h => h3 ((hcond5_1 t).mp h)) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) (outsAt5 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

end Region

end Cert.Proof.KI.Gemv1

end
-- ==== Proof.Gemv5Frame.lean ====
import proofs.«208418_g89945205112833_cont_sun_c4_809_35_alg».proof.Proof.Gemv5Outs

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

section Region
variable (𝒱₀ : Variants) (c : Dev nD) (V : (b : Ref sig .tc) → Buf (Elt F) ((c.tc : Thread nD τ).loc b))

/-! ## The pipeline's proof data -/

/-- The proof data of this pipeline on core `c`: the arrays as the region finds them (`V`); after the body at point
    `t` each input's buffer at its block and the output's at `outsAt5`; a constant invariant `Φ₀` the body does
    not read; the input shares `q₀`; constant tallies `owed₀` and recorded bound `rec₀` (the body neither signals
    nor waits). -/
def dat5 (Φ₀ : sProp 𝕄) (q₀ : Fin cfg5.W → PosShare TreeShare) (owed₀ : CellTallies nD τ sig (HIx 4)) (rec₀ : Set (SemLoc sig × HIx 4)) : Dat τ (Elt F) (HIx 4) Name U ℕ cfg5 c where
  A w := V (Pipeline.arrRef spec5 w)
  after w t := match w with
    | ⟨0, _⟩ => iblk5 c V 0 t
    | ⟨1, _⟩ => iblk5 c V 1 t
    | ⟨2, _⟩ => iblk5 c V 2 t
    | ⟨3, _⟩ => iblk5 c V 3 t
    | ⟨4, _⟩ => iblk5 c V 4 t
    | ⟨5, _⟩ => iblk5 c V 5 t
    | ⟨6, _⟩ => iblk5 c V 6 t
    | ⟨7, _⟩ => iblk5 c V 7 t
    | ⟨8, _⟩ => iblk5 c V 8 t
    | ⟨9, _⟩ => iblk5 c V 9 t
    | ⟨10, _⟩ => outsAt5 (Name := Name) (U := U) 𝒱₀ c V t.val t.isLt
  Φ _ := Φ₀
  q := q₀
  owed _ := owed₀
  recorded _ := rec₀

/-- The proof data's arrays are the region-entry contents. -/
theorem A_eq5 (Φ₀ : sProp 𝕄) (q₀ : Fin cfg5.W → PosShare TreeShare) (owed₀ : CellTallies nD τ sig (HIx 4)) (rec₀ : Set (SemLoc sig × HIx 4)) (w : Fin cfg5.W) : (dat5 𝒱₀ c V Φ₀ q₀ owed₀ rec₀).A w = V (Pipeline.arrRef spec5 w) := by
  dsimp only [dat5]

theorem after5_0 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 0 t = iblk5 c V 0 t := by dsimp only [dat5]
theorem after5_1 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 1 t = iblk5 c V 1 t := by dsimp only [dat5]
theorem after5_2 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 2 t = iblk5 c V 2 t := by dsimp only [dat5]
theorem after5_3 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 3 t = iblk5 c V 3 t := by dsimp only [dat5]
theorem after5_4 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 4 t = iblk5 c V 4 t := by dsimp only [dat5]
theorem after5_5 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 5 t = iblk5 c V 5 t := by dsimp only [dat5]
theorem after5_6 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 6 t = iblk5 c V 6 t := by dsimp only [dat5]
theorem after5_7 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 7 t = iblk5 c V 7 t := by dsimp only [dat5]
theorem after5_8 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 8 t = iblk5 c V 8 t := by dsimp only [dat5]
theorem after5_9 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 9 t = iblk5 c V 9 t := by dsimp only [dat5]
theorem after5_10 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 10 t = outsAt5 (Name := Name) (U := U) 𝒱₀ c V t.val t.isLt := by dsimp only [dat5]

theorem before5_0 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 0 t d = iblk5 c V 0 t :=
  before5_0_of c V (dat5 𝒱₀ c V Φ₀ q₀ owed₀ rec₀) (A_eq5 𝒱₀ c V Φ₀ q₀ owed₀ rec₀ 0) (after5_0 𝒱₀ c V Φ₀ q₀ owed₀ rec₀) t d
theorem before5_1 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 1 t d = iblk5 c V 1 t :=
  before5_1_of c V (dat5 𝒱₀ c V Φ₀ q₀ owed₀ rec₀) (A_eq5 𝒱₀ c V Φ₀ q₀ owed₀ rec₀ 1) (after5_1 𝒱₀ c V Φ₀ q₀ owed₀ rec₀) t d
theorem before5_2 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 2 t d = iblk5 c V 2 t :=
  before5_2_of c V (dat5 𝒱₀ c V Φ₀ q₀ owed₀ rec₀) (A_eq5 𝒱₀ c V Φ₀ q₀ owed₀ rec₀ 2) (after5_2 𝒱₀ c V Φ₀ q₀ owed₀ rec₀) t d
theorem before5_3 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 3 t d = iblk5 c V 3 t :=
  before5_3_of c V (dat5 𝒱₀ c V Φ₀ q₀ owed₀ rec₀) (A_eq5 𝒱₀ c V Φ₀ q₀ owed₀ rec₀ 3) (after5_3 𝒱₀ c V Φ₀ q₀ owed₀ rec₀) t d
theorem before5_4 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 4 t d = iblk5 c V 4 t :=
  before5_4_of c V (dat5 𝒱₀ c V Φ₀ q₀ owed₀ rec₀) (A_eq5 𝒱₀ c V Φ₀ q₀ owed₀ rec₀ 4) (after5_4 𝒱₀ c V Φ₀ q₀ owed₀ rec₀) t d
theorem before5_5 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 5 t d = iblk5 c V 5 t :=
  before5_5_of c V (dat5 𝒱₀ c V Φ₀ q₀ owed₀ rec₀) (A_eq5 𝒱₀ c V Φ₀ q₀ owed₀ rec₀ 5) (after5_5 𝒱₀ c V Φ₀ q₀ owed₀ rec₀) t d
theorem before5_6 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 6 t d = iblk5 c V 6 t :=
  before5_6_of c V (dat5 𝒱₀ c V Φ₀ q₀ owed₀ rec₀) (A_eq5 𝒱₀ c V Φ₀ q₀ owed₀ rec₀ 6) (after5_6 𝒱₀ c V Φ₀ q₀ owed₀ rec₀) t d
theorem before5_7 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 7 t d = iblk5 c V 7 t :=
  before5_7_of c V (dat5 𝒱₀ c V Φ₀ q₀ owed₀ rec₀) (A_eq5 𝒱₀ c V Φ₀ q₀ owed₀ rec₀ 7) (after5_7 𝒱₀ c V Φ₀ q₀ owed₀ rec₀) t d
theorem before5_8 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 8 t d = iblk5 c V 8 t :=
  before5_8_of c V (dat5 𝒱₀ c V Φ₀ q₀ owed₀ rec₀) (A_eq5 𝒱₀ c V Φ₀ q₀ owed₀ rec₀ 8) (after5_8 𝒱₀ c V Φ₀ q₀ owed₀ rec₀) t d
theorem before5_9 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 9 t d = iblk5 c V 9 t :=
  before5_9_of c V (dat5 𝒱₀ c V Φ₀ q₀ owed₀ rec₀) (A_eq5 𝒱₀ c V Φ₀ q₀ owed₀ rec₀ 9) (after5_9 𝒱₀ c V Φ₀ q₀ owed₀ rec₀) t d

/-- After the first point the output's current staging buffer holds what the body left at the point before: the
    buffer is written back at the last point only. -/
theorem before5_10_kept (Φ₀ : sProp 𝕄) (q₀ : Fin cfg5.W → PosShare TreeShare) (owed₀ : CellTallies nD τ sig (HIx 4)) (rec₀ : Set (SemLoc sig × HIx 4)) (t : Fin cfg5.N) (h0 : ¬t.val % 4 = 0) (d) :
    (dat5 𝒱₀ c V Φ₀ q₀ owed₀ rec₀).before 10 t d = outsAt5 (Name := Name) (U := U) 𝒱₀ c V (t.val - 1) (Nat.lt_of_le_of_lt (Nat.sub_le _ _) t.isLt) := by
  have hN : t.val < 4 := lt_of_lt_of_eq t.isLt (show cfg5.N = 4 from N_5)
  rw [Dat.before_out_kept _ 10 rfl t (by omega) (Bool.eq_false_iff.mpr fun h => by have := (flush5_10 _).mp h; dsimp only at this; omega)
    (fun _ => rfl) (fun _ _ => rfl)]
  dsimp only [dat5]

/-! ## The body obligation, at a generic point -/

/-- What the body is called with at point `t`, the windows one by one, -/
def bodyPre5 (Φ₀ : sProp 𝕄) (q₀ : Fin cfg5.W → PosShare TreeShare) (owed₀ : CellTallies nD τ sig (HIx 4)) (rec₀ : Set (SemLoc sig × HIx 4)) (t : Fin cfg5.N) : sProp 𝕄 :=
  iprop((dat5 𝒱₀ c V Φ₀ q₀ owed₀ rec₀).Φ t.castSucc ∗ (dat5 𝒱₀ c V Φ₀ q₀ owed₀ rec₀).owesAt none t.castSucc
    ∗ (∃ d, owns (c : Thread nD τ) (ms5_0 t) fullShare ((dat5 𝒱₀ c V Φ₀ q₀ owed₀ rec₀).before 0 t d))
    ∗ (∃ d, owns (c : Thread nD τ) (ms5_1 t) fullShare ((dat5 𝒱₀ c V Φ₀ q₀ owed₀ rec₀).before 1 t d))
    ∗ (∃ d, owns (c : Thread nD τ) (ms5_2 t) fullShare ((dat5 𝒱₀ c V Φ₀ q₀ owed₀ rec₀).before 2 t d))
    ∗ (∃ d, owns (c : Thread nD τ) (ms5_3 t) fullShare ((dat5 𝒱₀ c V Φ₀ q₀ owed₀ rec₀).before 3 t d))
    ∗ (∃ d, owns (c : Thread nD τ) (ms5_4 t) fullShare ((dat5 𝒱₀ c V Φ₀ q₀ owed₀ rec₀).before 4 t d))
    ∗ (∃ d, owns (c : Thread nD τ) (ms5_5 t) fullShare ((dat5 𝒱₀ c V Φ₀ q₀ owed₀ rec₀).before 5 t d))
    ∗ (∃ d, owns (c : Thread nD τ) (ms5_6 t) fullShare ((dat5 𝒱₀ c V Φ₀ q₀ owed₀ rec₀).before 6 t d))
    ∗ (∃ d, owns (c : Thread nD τ) (ms5_7 t) fullShare ((dat5 𝒱₀ c V Φ₀ q₀ owed₀ rec₀).before 7 t d))
    ∗ (∃ d, owns (c : Thread nD τ) (ms5_8 t) fullShare ((dat5 𝒱₀ c V Φ₀ q₀ owed₀ rec₀).before 8 t d))
    ∗ (∃ d, owns (c : Thread nD τ) (ms5_9 t) fullShare ((dat5 𝒱₀ c V Φ₀ q₀ owed₀ rec₀).before 9 t d))
    ∗ (∃ d, owns (c : Thread nD τ) (ms5_10 t) fullShare ((dat5 𝒱₀ c V Φ₀ q₀ owed₀ rec₀).before 10 t d)))

/-- and what it returns. -/
def bodyPost5 (Φ₀ : sProp 𝕄) (q₀ : Fin cfg5.W → PosShare TreeShare) (owed₀ : CellTallies nD τ sig (HIx 4)) (rec₀ : Set (SemLoc sig × HIx 4)) (t : Fin cfg5.N) : sProp 𝕄 :=
  iprop((dat5 𝒱₀ c V Φ₀ q₀ owed₀ rec₀).Φ t.succ ∗ (dat5 𝒱₀ c V Φ₀ q₀ owed₀ rec₀).owesAt none t.succ
    ∗ owns (c : Thread nD τ) (ms5_0 t) fullShare ((dat5 𝒱₀ c V Φ₀ q₀ owed₀ rec₀).after 0 t)
    ∗ owns (c : Thread nD τ) (ms5_1 t) fullShare ((dat5 𝒱₀ c V Φ₀ q₀ owed₀ rec₀).after 1 t)
    ∗ owns (c : Thread nD τ) (ms5_2 t) fullShare ((dat5 𝒱₀ c V Φ₀ q₀ owed₀ rec₀).after 2 t)
    ∗ owns (c : Thread nD τ) (ms5_3 t) fullShare ((dat5 𝒱₀ c V Φ₀ q₀ owed₀ rec₀).after 3 t)
    ∗ owns (c : Thread nD τ) (ms5_4 t) fullShare ((dat5 𝒱₀ c V Φ₀ q₀ owed₀ rec₀).after 4 t)
    ∗ owns (c : Thread nD τ) (ms5_5 t) fullShare ((dat5 𝒱₀ c V Φ₀ q₀ owed₀ rec₀).after 5 t)
    ∗ owns (c : Thread nD τ) (ms5_6 t) fullShare ((dat5 𝒱₀ c V Φ₀ q₀ owed₀ rec₀).after 6 t)
    ∗ owns (c : Thread nD τ) (ms5_7 t) fullShare ((dat5 𝒱₀ c V Φ₀ q₀ owed₀ rec₀).after 7 t)
    ∗ owns (c : Thread nD τ) (ms5_8 t) fullShare ((dat5 𝒱₀ c V Φ₀ q₀ owed₀ rec₀).after 8 t)
    ∗ owns (c : Thread nD τ) (ms5_9 t) fullShare ((dat5 𝒱₀ c V Φ₀ q₀ owed₀ rec₀).after 9 t)
    ∗ owns (c : Thread nD τ) (ms5_10 t) fullShare ((dat5 𝒱₀ c V Φ₀ q₀ owed₀ rec₀).after 10 t))

set_option maxHeartbeats 1600000 in
/-- The body at any point: the inputs' memrefs hold their blocks; the closed forms say which case the point is in, and
    after the first point the output's buffer holds what the point before left; so the case's run applies; the
    invariant and what the core owes pass through unread. -/
theorem sound_body5 (Φ₀ : sProp 𝕄) (q₀ : Fin cfg5.W → PosShare TreeShare) (owed₀ : CellTallies nD τ sig (HIx 4)) (rec₀ : Set (SemLoc sig × HIx 4)) (t : Fin cfg5.N) :
    bodyPre5 (Name := Name) (U := U) 𝒱₀ c V Φ₀ q₀ owed₀ rec₀ t ⊢ wp frame (wpE (defs₀ (F := F)) 𝒱₀ c none) Set.univ (bodyAt5 t) (fun _ => bodyPost5 (Name := Name) (U := U) 𝒱₀ c V Φ₀ q₀ owed₀ rec₀ t) := by
  unfold bodyPre5 bodyPost5 bodyAt5
  simp only [before5_0, before5_1, before5_2, before5_3, before5_4, before5_5, before5_6, before5_7, before5_8, before5_9]
  rw [show (dat5 𝒱₀ c V Φ₀ q₀ owed₀ rec₀).Φ t.succ = (dat5 𝒱₀ c V Φ₀ q₀ owed₀ rec₀).Φ t.castSucc from rfl,
    show (dat5 𝒱₀ c V Φ₀ q₀ owed₀ rec₀).owesAt none t.succ = (dat5 𝒱₀ c V Φ₀ q₀ owed₀ rec₀).owesAt none t.castSucc from rfl,
    after5_0, after5_1, after5_2, after5_3, after5_4, after5_5, after5_6, after5_7, after5_8, after5_9, after5_10]
  have hN : t.val < 4 := lt_of_lt_of_eq t.isLt (show cfg5.N = 4 from N_5)
  by_cases h0 : t.val % 4 = 0
  ·
    rw [outsAt5_A 𝒱₀ c V t h0]
    unfold out5_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun5_A (Name := Name) (U := U) 𝒱₀ c (grid5.coords t) _ _ _ _ _ _ _ _ _ _ _ _ _ _ _ _ _ _ _ _ _ _ _ _ ((hcond5_0 t).mpr h0) (fun h => by have := (hcond5_1 t).mp h; omega) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover5_A 𝒱₀ c _ _ _ _ _ _ _ _ _ _ _ _ _ _ _ _ _ _ _ _ _ _ _ _ _ _ _ _ _ _ _ _ _ _ _ _ _)
  · by_cases h3 : t.val % 4 = 3
    ·
      rw [outsAt5_C 𝒱₀ c V t h0 h3]
      simp only [before5_10_kept 𝒱₀ c V Φ₀ q₀ owed₀ rec₀ t h0]
      unfold out5_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun5_C (Name := Name) (U := U) 𝒱₀ c (grid5.coords t) _ _ _ _ _ _ _ _ _ _ _ _ _ _ _ _ _ _ _ _ _ _ _ _ (fun h => h0 ((hcond5_0 t).mp h)) ((hcond5_1 t).mpr h3) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover5_C 𝒱₀ c _ _ _ _ _ _ _ _ _ _ _ _ _ _ _ _ _ _ _ _ _ _ _ _ _ _ _ _ _ _ _ _ _ _ _ _ _ _)
    ·
      rw [outsAt5_B 𝒱₀ c V t h0 h3]
      simp only [before5_10_kept 𝒱₀ c V Φ₀ q₀ owed₀ rec₀ t h0]
      unfold out5_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun5_B (Name := Name) (U := U) 𝒱₀ c (grid5.coords t) _ _ _ _ _ _ _ _ _ _ _ _ _ _ _ _ _ _ _ _ _ _ _ _ (fun h => h0 ((hcond5_0 t).mp h)) (fun h => h3 ((hcond5_1 t).mp h)) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover5_B 𝒱₀ c _ _ _ _ _ _ _ _ _ _ _ _ _ _ _ _ _ _ _ _ _ _ _ _ _ _ _ _ _ _ _ _ _ _ _ _ _ _)

/-- The library's body obligation, at every point. -/
theorem body_obligation5_exact (Φ₀ : sProp 𝕄) (q₀ : Fin cfg5.W → PosShare TreeShare) (owed₀ : CellTallies nD τ sig (HIx 4)) (rec₀ : Set (SemLoc sig × HIx 4)) : BodyObligation (dat5 (F := F) (Name := Name) (U := U) 𝒱₀ c V Φ₀ q₀ owed₀ rec₀) (defs₀ (F := F)) 𝒱₀ none Set.univ := fun t => by
  rw [bigSep_W5, bigSep_W5]
  exact sound_body5 𝒱₀ c V Φ₀ q₀ owed₀ rec₀ t

/-- The body obligation as the pipeline's loop uses it. -/
theorem body_obligation5 (Φ₀ : sProp 𝕄) (q₀ : Fin cfg5.W → PosShare TreeShare) (owed₀ : CellTallies nD τ sig (HIx 4)) (rec₀ : Set (SemLoc sig × HIx 4)) : BodyObligationLoose (dat5 (F := F) (Name := Name) (U := U) 𝒱₀ c V Φ₀ q₀ owed₀ rec₀) (defs₀ (F := F)) 𝒱₀ none Set.univ :=
  (body_obligation5_exact 𝒱₀ c V Φ₀ q₀ owed₀ rec₀).loose

end Region

end Cert.Proof.KI.Gemv1

end
-- ==== Proof.Gemv5Entry.lean ====
import proofs.«208418_g89945205112833_cont_sun_c4_809_35_alg».proof.Proof.ScPay
import proofs.«208418_g89945205112833_cont_sun_c4_809_35_alg».proof.Proof.LibScRegion
import proofs.«208418_g89945205112833_cont_sun_c4_809_35_alg».proof.Proof.LibReadShares
import proofs.«208418_g89945205112833_cont_sun_c4_809_35_alg».proof.Proof.GemvShares
import proofs.«208418_g89945205112833_cont_sun_c4_809_35_alg».proof.Proof.Gemv5Frame

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU)
open Cert.Proof

local notation "𝕄" => MT nD τ sig (HIx 4) (Elt F) ℕ UU ℕ
local notation "Tc" => SparseCore.T (nD := nD) (τ := τ)

/-! ## The region's proof data at the call site, and its entry and exit -/

/-- The share each input window holds of its array: the gathered row and the bias whole; the eight weight windows, which
    stage one array, one read token each of its full share (the remainder bypasses the region). -/
def q5 : Fin cfg5.W → PosShare TreeShare
  | ⟨0, _⟩ => fullShare
  | ⟨1, _⟩ => Transfers.shareTok fullShare 8 0
  | ⟨2, _⟩ => Transfers.shareTok fullShare 8 1
  | ⟨3, _⟩ => Transfers.shareTok fullShare 8 2
  | ⟨4, _⟩ => Transfers.shareTok fullShare 8 3
  | ⟨5, _⟩ => Transfers.shareTok fullShare 8 4
  | ⟨6, _⟩ => Transfers.shareTok fullShare 8 5
  | ⟨7, _⟩ => Transfers.shareTok fullShare 8 6
  | ⟨8, _⟩ => Transfers.shareTok fullShare 8 7
  | ⟨9, _⟩ => fullShare
  | ⟨10, _⟩ => fullShare

/-- The invariant the body passes through unread: the core's scoped buffers that are no staging buffer. -/
def Φr5 (c : Dev nD) : sProp 𝕄 := Pipeline.scopedRest (Ix := HIx 4) (Name := ℕ) (U := UU) (Lvl := ℕ) (Val := Elt F) spec5 c

/-- The region's proof data on core `c` before call `n`, at entry contents `V`: the debt carried unchanged. -/
def rdat5 (c : Dev nD) (n : ℕ) (V : (b : Ref sig .tc) → Buf (Elt F) ((c.tc : Thread nD τ).loc b)) : Dat τ (Elt F) (HIx 4) ℕ UU ℕ cfg5 c :=
  dat5 (Name := ℕ) (U := UU) 𝒱₀ c V (Φr5 c) q5 ((K (F := F)).Otc c n) (LibScRegion.rcAt (K (F := F)) c n)

/-- What the region is entered from: the debt with its bound, and the four arrays whole. -/
def pre5 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v15) ↦{fullShare} V main_v15) ∗ (((Tc c).loc main_arg7) ↦{fullShare} V main_arg7) ∗ (((Tc c).loc main_v16) ↦{fullShare} V main_v16) ∗ (((Tc c).loc main_v17) ↦{fullShare} V main_v17))

/-- What it leaves: the same, the output array at whatever the region wrote. -/
def post5 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v15) ↦{fullShare} V main_v15) ∗ (((Tc c).loc main_arg7) ↦{fullShare} V main_arg7) ∗ (((Tc c).loc main_v16) ↦{fullShare} V main_v16) ∗ (∃ f, ((Tc c).loc main_v17) ↦{fullShare} f))

/-- The weights' share that bypasses the region. -/
def Z5 (c : Dev nD) (V : (b : Ref sig .tc) → Buf (Elt F) ((Tc c).loc b)) : sProp 𝕄 :=
  ((Tc c).loc main_arg7) ↦{Transfers.shareDrop fullShare 8} V main_arg7

/-! ### Each window's array, as the whole buffer behind it at the window's share -/

theorem arrPt5_0 (c : Dev nD) (n : ℕ) (V : (b : Ref sig .tc) → Buf (Elt F) ((Tc c).loc b)) (X : Buf (Elt F) ((cfg5.win 0).arr.view.loc (c.tc : Thread nD τ))) :
    ((cfg5.win 0).arr.view.loc (c.tc : Thread nD τ) ↦[(cfg5.win 0).arr.view.set]{(rdat5 c n V).share 0} X : sProp 𝕄)
      = (((Tc c).loc main_v15) ↦{fullShare} X) := by
  have h : (cfg5.win 0).arr.IsWhole := arr_whole5 0
  rw [h.set_eq_univ]; rfl

theorem arrPt5_1 (c : Dev nD) (n : ℕ) (V : (b : Ref sig .tc) → Buf (Elt F) ((Tc c).loc b)) (X : Buf (Elt F) ((cfg5.win 1).arr.view.loc (c.tc : Thread nD τ))) :
    ((cfg5.win 1).arr.view.loc (c.tc : Thread nD τ) ↦[(cfg5.win 1).arr.view.set]{(rdat5 c n V).share 1} X : sProp 𝕄)
      = (((Tc c).loc main_arg7) ↦{Transfers.shareTok fullShare 8 0} X) := by
  have h : (cfg5.win 1).arr.IsWhole := arr_whole5 1
  rw [h.set_eq_univ]; rfl

theorem arrPt5_2 (c : Dev nD) (n : ℕ) (V : (b : Ref sig .tc) → Buf (Elt F) ((Tc c).loc b)) (X : Buf (Elt F) ((cfg5.win 2).arr.view.loc (c.tc : Thread nD τ))) :
    ((cfg5.win 2).arr.view.loc (c.tc : Thread nD τ) ↦[(cfg5.win 2).arr.view.set]{(rdat5 c n V).share 2} X : sProp 𝕄)
      = (((Tc c).loc main_arg7) ↦{Transfers.shareTok fullShare 8 1} X) := by
  have h : (cfg5.win 2).arr.IsWhole := arr_whole5 2
  rw [h.set_eq_univ]; rfl

theorem arrPt5_3 (c : Dev nD) (n : ℕ) (V : (b : Ref sig .tc) → Buf (Elt F) ((Tc c).loc b)) (X : Buf (Elt F) ((cfg5.win 3).arr.view.loc (c.tc : Thread nD τ))) :
    ((cfg5.win 3).arr.view.loc (c.tc : Thread nD τ) ↦[(cfg5.win 3).arr.view.set]{(rdat5 c n V).share 3} X : sProp 𝕄)
      = (((Tc c).loc main_arg7) ↦{Transfers.shareTok fullShare 8 2} X) := by
  have h : (cfg5.win 3).arr.IsWhole := arr_whole5 3
  rw [h.set_eq_univ]; rfl

theorem arrPt5_4 (c : Dev nD) (n : ℕ) (V : (b : Ref sig .tc) → Buf (Elt F) ((Tc c).loc b)) (X : Buf (Elt F) ((cfg5.win 4).arr.view.loc (c.tc : Thread nD τ))) :
    ((cfg5.win 4).arr.view.loc (c.tc : Thread nD τ) ↦[(cfg5.win 4).arr.view.set]{(rdat5 c n V).share 4} X : sProp 𝕄)
      = (((Tc c).loc main_arg7) ↦{Transfers.shareTok fullShare 8 3} X) := by
  have h : (cfg5.win 4).arr.IsWhole := arr_whole5 4
  rw [h.set_eq_univ]; rfl

theorem arrPt5_5 (c : Dev nD) (n : ℕ) (V : (b : Ref sig .tc) → Buf (Elt F) ((Tc c).loc b)) (X : Buf (Elt F) ((cfg5.win 5).arr.view.loc (c.tc : Thread nD τ))) :
    ((cfg5.win 5).arr.view.loc (c.tc : Thread nD τ) ↦[(cfg5.win 5).arr.view.set]{(rdat5 c n V).share 5} X : sProp 𝕄)
      = (((Tc c).loc main_arg7) ↦{Transfers.shareTok fullShare 8 4} X) := by
  have h : (cfg5.win 5).arr.IsWhole := arr_whole5 5
  rw [h.set_eq_univ]; rfl

theorem arrPt5_6 (c : Dev nD) (n : ℕ) (V : (b : Ref sig .tc) → Buf (Elt F) ((Tc c).loc b)) (X : Buf (Elt F) ((cfg5.win 6).arr.view.loc (c.tc : Thread nD τ))) :
    ((cfg5.win 6).arr.view.loc (c.tc : Thread nD τ) ↦[(cfg5.win 6).arr.view.set]{(rdat5 c n V).share 6} X : sProp 𝕄)
      = (((Tc c).loc main_arg7) ↦{Transfers.shareTok fullShare 8 5} X) := by
  have h : (cfg5.win 6).arr.IsWhole := arr_whole5 6
  rw [h.set_eq_univ]; rfl

theorem arrPt5_7 (c : Dev nD) (n : ℕ) (V : (b : Ref sig .tc) → Buf (Elt F) ((Tc c).loc b)) (X : Buf (Elt F) ((cfg5.win 7).arr.view.loc (c.tc : Thread nD τ))) :
    ((cfg5.win 7).arr.view.loc (c.tc : Thread nD τ) ↦[(cfg5.win 7).arr.view.set]{(rdat5 c n V).share 7} X : sProp 𝕄)
      = (((Tc c).loc main_arg7) ↦{Transfers.shareTok fullShare 8 6} X) := by
  have h : (cfg5.win 7).arr.IsWhole := arr_whole5 7
  rw [h.set_eq_univ]; rfl

theorem arrPt5_8 (c : Dev nD) (n : ℕ) (V : (b : Ref sig .tc) → Buf (Elt F) ((Tc c).loc b)) (X : Buf (Elt F) ((cfg5.win 8).arr.view.loc (c.tc : Thread nD τ))) :
    ((cfg5.win 8).arr.view.loc (c.tc : Thread nD τ) ↦[(cfg5.win 8).arr.view.set]{(rdat5 c n V).share 8} X : sProp 𝕄)
      = (((Tc c).loc main_arg7) ↦{Transfers.shareTok fullShare 8 7} X) := by
  have h : (cfg5.win 8).arr.IsWhole := arr_whole5 8
  rw [h.set_eq_univ]; rfl

theorem arrPt5_9 (c : Dev nD) (n : ℕ) (V : (b : Ref sig .tc) → Buf (Elt F) ((Tc c).loc b)) (X : Buf (Elt F) ((cfg5.win 9).arr.view.loc (c.tc : Thread nD τ))) :
    ((cfg5.win 9).arr.view.loc (c.tc : Thread nD τ) ↦[(cfg5.win 9).arr.view.set]{(rdat5 c n V).share 9} X : sProp 𝕄)
      = (((Tc c).loc main_v16) ↦{fullShare} X) := by
  have h : (cfg5.win 9).arr.IsWhole := arr_whole5 9
  rw [h.set_eq_univ]; rfl

theorem arrPt5_10 (c : Dev nD) (n : ℕ) (V : (b : Ref sig .tc) → Buf (Elt F) ((Tc c).loc b)) (X : Buf (Elt F) ((cfg5.win 10).arr.view.loc (c.tc : Thread nD τ))) :
    ((cfg5.win 10).arr.view.loc (c.tc : Thread nD τ) ↦[(cfg5.win 10).arr.view.set]{(rdat5 c n V).share 10} X : sProp 𝕄)
      = (((Tc c).loc main_v17) ↦{fullShare} X) := by
  have h : (cfg5.win 10).arr.IsWhole := arr_whole5 10
  rw [h.set_eq_univ]; rfl

/-- The arrays at entry are the region-entry contents. -/
theorem arrAt0_5 (c : Dev nD) (n : ℕ) (V : (b : Ref sig .tc) → Buf (Elt F) ((Tc c).loc b)) (w : Fin cfg5.W) :
    (rdat5 c n V).arrAt w 0 = V (Pipeline.arrRef spec5 w) := rfl

/-- An input window's array is never written back. -/
theorem arrAtN_5 (c : Dev nD) (n : ℕ) (V : (b : Ref sig .tc) → Buf (Elt F) ((Tc c).loc b)) (w : Fin cfg5.W) (hw : (cfg5.win w).isOut = false) :
    (rdat5 c n V).arrAt w cfg5.N = V (Pipeline.arrRef spec5 w) := (Dat.arrAt_in _ w hw _).trans rfl

set_option maxHeartbeats 4000000 in
/-- ENTRY: the four arrays whole make the windows' arrays at their shares — the weights' full share split into the
    eight windows' read tokens and a remainder that bypasses the region —, and the debt with its bound is what the
    proof data's first point owes. -/
theorem entry5 (c : Dev nD) (n : ℕ) (V : (b : Ref sig .tc) → Buf (Elt F) ((Tc c).loc b)) :
    pre5 c n V ⊢ iprop((rdat5 c n V).arrays ((rdat5 c n V).arrAt · 0) ∗ (rdat5 c n V).owesAt none 0 ∗ Z5 c V) := by
  unfold Dat.arrays pre5 Z5
  rw [bigSep_W5]
  rw [arrPt5_0 c n V, arrPt5_1 c n V, arrPt5_2 c n V, arrPt5_3 c n V, arrPt5_4 c n V, arrPt5_5 c n V, arrPt5_6 c n V, arrPt5_7 c n V, arrPt5_8 c n V, arrPt5_9 c n V, arrPt5_10 c n V]
  show iprop((∃ W, ⌜(K (F := F)).WBelow (Tc c) W (8 * n)⌝ ∗ owes (Tc c) ((K (F := F)).Otc c n) W) ∗ (((Tc c).loc main_v15) ↦{fullShare} V main_v15) ∗ (((Tc c).loc main_arg7) ↦{fullShare} V main_arg7) ∗ (((Tc c).loc main_v16) ↦{fullShare} V main_v16) ∗ (((Tc c).loc main_v17) ↦{fullShare} V main_v17))
    ⊢ iprop(((((Tc c).loc main_v15) ↦{fullShare} V main_v15) ∗ (((Tc c).loc main_arg7) ↦{Transfers.shareTok fullShare 8 0} V main_arg7) ∗ (((Tc c).loc main_arg7) ↦{Transfers.shareTok fullShare 8 1} V main_arg7) ∗ (((Tc c).loc main_arg7) ↦{Transfers.shareTok fullShare 8 2} V main_arg7) ∗ (((Tc c).loc main_arg7) ↦{Transfers.shareTok fullShare 8 3} V main_arg7) ∗ (((Tc c).loc main_arg7) ↦{Transfers.shareTok fullShare 8 4} V main_arg7) ∗ (((Tc c).loc main_arg7) ↦{Transfers.shareTok fullShare 8 5} V main_arg7) ∗ (((Tc c).loc main_arg7) ↦{Transfers.shareTok fullShare 8 6} V main_arg7) ∗ (((Tc c).loc main_arg7) ↦{Transfers.shareTok fullShare 8 7} V main_arg7) ∗ (((Tc c).loc main_v16) ↦{fullShare} V main_v16) ∗ (((Tc c).loc main_v17) ↦{fullShare} V main_v17)) ∗ (rdat5 c n V).owesAt none 0 ∗ (((Tc c).loc main_arg7) ↦{Transfers.shareDrop fullShare 8} V main_arg7))
  iintro ⟨⟨%W, %hW, HO⟩, Hg, HW, Hb, Ho⟩
  ihave HW' := (split8 (F := F) _ _) $$ HW
  icases HW' with ⟨Hrem, H0, H1, H2, H3, H4, H5, H6, H7⟩
  isplitl [Hg H0 H1 H2 H3 H4 H5 H6 H7 Hb Ho]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hb]; · iexact Hb
    iexact Ho
  isplitl [HO]
  · iexists W; isplitr
    · ipureintro; exact fun pr hpr => Or.inl (hW pr hpr)
    iexact HO
  iexact Hrem

set_option maxHeartbeats 4000000 in
/-- EXIT: the inputs' arrays were never written, so the eight read tokens and the remainder join into the weights whole
    again; the output's array holds whatever the write-back left; the recorded waits stay within the debt's bound
    (the region's own sit at the kernels' index). -/
theorem exit5 (c : Dev nD) (n : ℕ) (V : (b : Ref sig .tc) → Buf (Elt F) ((Tc c).loc b)) :
    iprop((rdat5 c n V).arrays ((rdat5 c n V).arrAt · cfg5.N) ∗ (rdat5 c n V).owesAt none (Fin.last cfg5.N) ∗ Z5 c V) ⊢ post5 c n V := by
  unfold Dat.arrays post5 Z5
  rw [bigSep_W5]
  rw [arrPt5_0 c n V, arrPt5_1 c n V, arrPt5_2 c n V, arrPt5_3 c n V, arrPt5_4 c n V, arrPt5_5 c n V, arrPt5_6 c n V, arrPt5_7 c n V, arrPt5_8 c n V, arrPt5_9 c n V, arrPt5_10 c n V]
  beta_reduce
  rw [arrAtN_5 c n V 0 rfl, arrAtN_5 c n V 1 rfl, arrAtN_5 c n V 2 rfl, arrAtN_5 c n V 3 rfl, arrAtN_5 c n V 4 rfl, arrAtN_5 c n V 5 rfl, arrAtN_5 c n V 6 rfl, arrAtN_5 c n V 7 rfl, arrAtN_5 c n V 8 rfl, arrAtN_5 c n V 9 rfl]
  show iprop(((((Tc c).loc main_v15) ↦{fullShare} V main_v15) ∗ (((Tc c).loc main_arg7) ↦{Transfers.shareTok fullShare 8 0} V main_arg7) ∗ (((Tc c).loc main_arg7) ↦{Transfers.shareTok fullShare 8 1} V main_arg7) ∗ (((Tc c).loc main_arg7) ↦{Transfers.shareTok fullShare 8 2} V main_arg7) ∗ (((Tc c).loc main_arg7) ↦{Transfers.shareTok fullShare 8 3} V main_arg7) ∗ (((Tc c).loc main_arg7) ↦{Transfers.shareTok fullShare 8 4} V main_arg7) ∗ (((Tc c).loc main_arg7) ↦{Transfers.shareTok fullShare 8 5} V main_arg7) ∗ (((Tc c).loc main_arg7) ↦{Transfers.shareTok fullShare 8 6} V main_arg7) ∗ (((Tc c).loc main_arg7) ↦{Transfers.shareTok fullShare 8 7} V main_arg7) ∗ (((Tc c).loc main_v16) ↦{fullShare} V main_v16) ∗ (((Tc c).loc main_v17) ↦{fullShare} (rdat5 c n V).arrAt 10 cfg5.N)) ∗ (rdat5 c n V).owesAt none (Fin.last cfg5.N) ∗ (((Tc c).loc main_arg7) ↦{Transfers.shareDrop fullShare 8} V main_arg7))
    ⊢ iprop((∃ W, ⌜(K (F := F)).WBelow (Tc c) W (8 * n)⌝ ∗ owes (Tc c) ((K (F := F)).Otc c n) W) ∗ (((Tc c).loc main_v15) ↦{fullShare} V main_v15) ∗ (((Tc c).loc main_arg7) ↦{fullShare} V main_arg7) ∗ (((Tc c).loc main_v16) ↦{fullShare} V main_v16) ∗ (∃ f, ((Tc c).loc main_v17) ↦{fullShare} f))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg5.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexists _; iexact Ho

end Cert.Proof.KI.Gemv1

end
-- ==== Proof.Gemv7Conds.lean ====
import proofs.«208418_g89945205112833_cont_sun_c4_809_35_alg».proof.Proof.Gen.KernelIdeal.Launch
import proofs.«208418_g89945205112833_cont_sun_c4_809_35_alg».proof.Proof.Gen.KernelIdeal.Skeleton
import proofs.«208418_g89945205112833_cont_sun_c4_809_35_alg».proof.Proof.Gen.KernelIdeal.Points
import Idealize.ShloMosaic.Lib.Pipeline.FrameBody
import Idealize.ShloMosaic.Lib.Ring
import Idealize.ShloMosaic.Lib.Tactic
import Idealize.ShloMosaic.Lib.SparseCore.Launch

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The body's two conditionals, in closed form over the grid

The body stores the bias into the output block when the grid coordinate is 0 and applies tanh in place when
it is 3; both conditions are comparisons of the coordinate, decided over the four grid points. -/

/-- The first conditional's condition (the coordinate is 0), as the body computes it. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 4 = 0 :=
  (by decide +kernel : ∀ t : Fin grid7.N, cond7_0 (grid7.coords t) ↔ t.val % 4 = 0)
/-- The second conditional's condition (the coordinate is 3), as the body computes it. -/
abbrev cond7_1 (i : grid7.Coords) : Prop := (Scalar.cmpi .ne (Scalar.extui (Scalar.cmpi .eq (BitVec.ofNat 32 (i 0).val) 3#32)) 0#32) = 1#1
/-- It holds at the last point only. -/
theorem hcond7_1 : ∀ t : Fin cfg7.N, cond7_1 (grid7.coords t) ↔ t.val % 4 = 3 :=
  (by decide +kernel : ∀ t : Fin grid7.N, cond7_1 (grid7.coords t) ↔ t.val % 4 = 3)

end Cert.Proof.KI.Gemv1

end
-- ==== Proof.Gemv7RunA.lean ====
import proofs.«208418_g89945205112833_cont_sun_c4_809_35_alg».proof.Proof.Gemv7Conds

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the first grid point (the bias is stored first; no tanh), with the proof that on whole
    staging memrefs — the gathered row, the eight weight blocks and the bias at their contents, the output's at anything —
    the body runs to the continuation holding the inputs as they were and the output's buffer with those pieces written. -/
noncomputable def kernelRun7_A (𝒱₀ : Variants) (c : Dev nD) (i : grid7.Coords) (arg1 : Memref sig .tc .vmem S1x4096 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) :
    { L : List (View.Piece (Elt F) S1x2048 .f32) //
      ∀ (E : Set Name) (K : PUnit → sProp 𝕄),
        iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ (∃ d, owns (c : Thread nD τ) arg11 fullShare d)
            ∗ (iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ (∃ f, arg11.view.loc (c : Thread nD τ) ↦[arg11.view.set]{fullShare} arg11.view.writes (Elt F) f L)) -∗ K ⟨⟩))
          ⊢ wp frame (wpE (defs₀ (F := F)) 𝒱₀ c none) E (cc7_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc7_body_eq_skeleton]; unfold cc7_body_skel
    simp only [k7_part1_eq_skeleton, k7_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HO

end Cert.Proof.KI.Gemv1

end
-- ==== Proof.Gemv7RunB.lean ====
import proofs.«208418_g89945205112833_cont_sun_c4_809_35_alg».proof.Proof.Gemv7RunA

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at a middle grid point (neither conditional taken), with the proof that on whole
    staging memrefs — the gathered row, the eight weight blocks and the bias at their contents, the output's at its running contents —
    the body runs to the continuation holding the inputs as they were and the output's buffer with those pieces written. -/
noncomputable def kernelRun7_B (𝒱₀ : Variants) (c : Dev nD) (i : grid7.Coords) (arg1 : Memref sig .tc .vmem S1x4096 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : ¬cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) :
    { L : List (View.Piece (Elt F) S1x2048 .f32) //
      ∀ (E : Set Name) (K : PUnit → sProp 𝕄),
        iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ owns (c : Thread nD τ) arg11 fullShare xo
            ∗ (iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ (∃ f, arg11.view.loc (c : Thread nD τ) ↦[arg11.view.set]{fullShare} arg11.view.writes (Elt F) f L)) -∗ K ⟨⟩))
          ⊢ wp frame (wpE (defs₀ (F := F)) 𝒱₀ c none) E (cc7_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc7_body_eq_skeleton]; unfold cc7_body_skel
    simp only [k7_part1_eq_skeleton, k7_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfO
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HO

end Cert.Proof.KI.Gemv1

end
-- ==== Proof.Gemv7RunC.lean ====
import proofs.«208418_g89945205112833_cont_sun_c4_809_35_alg».proof.Proof.Gemv7RunB

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the last grid point (tanh applied at the end), with the proof that on whole
    staging memrefs — the gathered row, the eight weight blocks and the bias at their contents, the output's at its running contents —
    the body runs to the continuation holding the inputs as they were and the output's buffer with those pieces written. -/
noncomputable def kernelRun7_C (𝒱₀ : Variants) (c : Dev nD) (i : grid7.Coords) (arg1 : Memref sig .tc .vmem S1x4096 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : ¬cond7_0 i) (hc1 : cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) :
    { L : List (View.Piece (Elt F) S1x2048 .f32) //
      ∀ (E : Set Name) (K : PUnit → sProp 𝕄),
        iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ owns (c : Thread nD τ) arg11 fullShare xo
            ∗ (iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ (∃ f, arg11.view.loc (c : Thread nD τ) ↦[arg11.view.set]{fullShare} arg11.view.writes (Elt F) f L)) -∗ K ⟨⟩))
          ⊢ wp frame (wpE (defs₀ (F := F)) 𝒱₀ c none) E (cc7_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc7_body_eq_skeleton]; unfold cc7_body_skel
    simp only [k7_part1_eq_skeleton, k7_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfO
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HO

end Cert.Proof.KI.Gemv1

end
-- ==== Proof.Gemv7Outs.lean ====
import proofs.«208418_g89945205112833_cont_sun_c4_809_35_alg».proof.Proof.Gemv7RunC

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The staging memrefs at a point, and the output's view -/

/-- One staging buffer of the output window, through which its contents are stated. -/
abbrev VO7 : View sig .tc .vmem S1x2048 .f32 := (Memref.whole cc7_stg10_0 : Memref sig .tc .vmem S1x2048 .f32).view
abbrev ms7_0 (t : Fin cfg7.N) : Memref sig .tc .vmem S1x4096 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S128x2048 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x2048 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S128x2048 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S128x2048 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S128x2048 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S128x2048 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S128x2048 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S128x2048 .f32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S1x2048 .f32 := win7_9.stage (cfg7.slots t 9)
abbrev hs7_9 (t : Fin cfg7.N) : (ms7_9 t).IsWhole := hstage7_9 ((cfg7.slots t 9).cast nbuf7_9)
abbrev ms7_10 (t : Fin cfg7.N) : Memref sig .tc .vmem S1x2048 .f32 := win7_10.stage (cfg7.slots t 10)
abbrev hs7_10 (t : Fin cfg7.N) : (ms7_10 t).IsWhole := hstage7_10 ((cfg7.slots t 10).cast nbuf7_10)

/-! ## What each control case leaves in the output's staging buffer -/

/-- Case A's pieces tile the output block, so they cover it. -/
theorem cover7_A (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (y : S1x2048.Idx) :
    ∃ pc ∈ (kernelRun7_A (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb).1, y ∈ pc.1.set :=
  View.cover_of_tiledL (kernelRun7_A (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb).1 S1x2048.size (by sl_kernel_rfl) y

/-- What case A leaves in the output's staging buffer: its pieces read back over junk. -/
def out7_A (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) : Vec F S1x2048 .f32 :=
  VO7.read (Elt F) (VO7.writes (Elt F) VO7.junk (kernelRun7_A (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb).1)

/-- Case B's pieces tile the output block, so they cover it. -/
theorem cover7_B (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) (y : S1x2048.Idx) :
    ∃ pc ∈ (kernelRun7_B (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun7_B (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x2048.size (by sl_kernel_rfl) y

/-- What case B leaves in the output's staging buffer: its pieces read back over junk. -/
def out7_B (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) : Vec F S1x2048 .f32 :=
  VO7.read (Elt F) (VO7.writes (Elt F) VO7.junk (kernelRun7_B (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

/-- Case C's pieces tile the output block, so they cover it. -/
theorem cover7_C (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) (y : S1x2048.Idx) :
    ∃ pc ∈ (kernelRun7_C (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun7_C (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x2048.size (by sl_kernel_rfl) y

/-- What case C leaves in the output's staging buffer: its pieces read back over junk. -/
def out7_C (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) : Vec F S1x2048 .f32 :=
  VO7.read (Elt F) (VO7.writes (Elt F) VO7.junk (kernelRun7_C (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

section Region
variable (𝒱₀ : Variants) (c : Dev nD) (V : (b : Ref sig .tc) → Buf (Elt F) ((c.tc : Thread nD τ).loc b))

/-! ## The windows' blocks, read off the arrays as the region finds them -/

/-- Window `w`'s block at point `t`, read off its array at the entry contents `V`. -/
def iblk7 (w : Fin cfg7.W) (t : Fin cfg7.N) : ((cfg7.win w).xblock (cfg7.grid.coords t)).Idx → Elt F (cfg7.win w).elt :=
  ((cfg7.win w).blk t).view.read (Elt F) (V (Pipeline.arrRef spec7 w))

/-- Input window 0's current staging buffer holds its block at every point, fetched there or not. -/
theorem before7_0_of (dat : Dat τ (Elt F) (HIx 4) Name U ℕ cfg7 c) (hA : dat.A 0 = V (Pipeline.arrRef spec7 0))
    (hafter : ∀ t, dat.after 0 t = iblk7 c V 0 t) (t : Fin cfg7.N) (d) : dat.before 0 t d = iblk7 c V 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of (dat : Dat τ (Elt F) (HIx 4) Name U ℕ cfg7 c) (hA : dat.A 1 = V (Pipeline.arrRef spec7 1))
    (hafter : ∀ t, dat.after 1 t = iblk7 c V 1 t) (t : Fin cfg7.N) (d) : dat.before 1 t d = iblk7 c V 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of (dat : Dat τ (Elt F) (HIx 4) Name U ℕ cfg7 c) (hA : dat.A 2 = V (Pipeline.arrRef spec7 2))
    (hafter : ∀ t, dat.after 2 t = iblk7 c V 2 t) (t : Fin cfg7.N) (d) : dat.before 2 t d = iblk7 c V 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of (dat : Dat τ (Elt F) (HIx 4) Name U ℕ cfg7 c) (hA : dat.A 3 = V (Pipeline.arrRef spec7 3))
    (hafter : ∀ t, dat.after 3 t = iblk7 c V 3 t) (t : Fin cfg7.N) (d) : dat.before 3 t d = iblk7 c V 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of (dat : Dat τ (Elt F) (HIx 4) Name U ℕ cfg7 c) (hA : dat.A 4 = V (Pipeline.arrRef spec7 4))
    (hafter : ∀ t, dat.after 4 t = iblk7 c V 4 t) (t : Fin cfg7.N) (d) : dat.before 4 t d = iblk7 c V 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not. -/
theorem before7_5_of (dat : Dat τ (Elt F) (HIx 4) Name U ℕ cfg7 c) (hA : dat.A 5 = V (Pipeline.arrRef spec7 5))
    (hafter : ∀ t, dat.after 5 t = iblk7 c V 5 t) (t : Fin cfg7.N) (d) : dat.before 5 t d = iblk7 c V 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not. -/
theorem before7_6_of (dat : Dat τ (Elt F) (HIx 4) Name U ℕ cfg7 c) (hA : dat.A 6 = V (Pipeline.arrRef spec7 6))
    (hafter : ∀ t, dat.after 6 t = iblk7 c V 6 t) (t : Fin cfg7.N) (d) : dat.before 6 t d = iblk7 c V 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not. -/
theorem before7_7_of (dat : Dat τ (Elt F) (HIx 4) Name U ℕ cfg7 c) (hA : dat.A 7 = V (Pipeline.arrRef spec7 7))
    (hafter : ∀ t, dat.after 7 t = iblk7 c V 7 t) (t : Fin cfg7.N) (d) : dat.before 7 t d = iblk7 c V 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not. -/
theorem before7_8_of (dat : Dat τ (Elt F) (HIx 4) Name U ℕ cfg7 c) (hA : dat.A 8 = V (Pipeline.arrRef spec7 8))
    (hafter : ∀ t, dat.after 8 t = iblk7 c V 8 t) (t : Fin cfg7.N) (d) : dat.before 8 t d = iblk7 c V 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- Input window 9's current staging buffer holds its block at every point, fetched there or not. -/
theorem before7_9_of (dat : Dat τ (Elt F) (HIx 4) Name U ℕ cfg7 c) (hA : dat.A 9 = V (Pipeline.arrRef spec7 9))
    (hafter : ∀ t, dat.after 9 t = iblk7 c V 9 t) (t : Fin cfg7.N) (d) : dat.before 9 t d = iblk7 c V 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-! ## What the output's staging buffer holds after each point -/

/-- The accumulation: what the output's staging buffer holds after the body at position `n` — the case the closed
    forms select there, run at the point's memrefs and input blocks, over what the point before left (the buffer
    is not written back between). -/
def outsAt7 : (n : ℕ) → n < cfg7.N → Vec F S1x2048 .f32
  | 0, hn => out7_A (Name := Name) (U := U) 𝒱₀ c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) (ms7_8 ⟨0, hn⟩) (hs7_8 ⟨0, hn⟩) (ms7_9 ⟨0, hn⟩) (hs7_9 ⟨0, hn⟩) (ms7_10 ⟨0, hn⟩) (hs7_10 ⟨0, hn⟩) ((hcond7_0 ⟨0, hn⟩).mpr (Nat.zero_mod _)) (fun h => by have := (hcond7_1 ⟨0, hn⟩).mp h; dsimp only at this; omega) (iblk7 c V 0 ⟨0, hn⟩) (iblk7 c V 1 ⟨0, hn⟩) (iblk7 c V 2 ⟨0, hn⟩) (iblk7 c V 3 ⟨0, hn⟩) (iblk7 c V 4 ⟨0, hn⟩) (iblk7 c V 5 ⟨0, hn⟩) (iblk7 c V 6 ⟨0, hn⟩) (iblk7 c V 7 ⟨0, hn⟩) (iblk7 c V 8 ⟨0, hn⟩) (iblk7 c V 9 ⟨0, hn⟩)
  | n + 1, hn =>
    if h0 : (n + 1) % 4 = 0 then
      out7_A (Name := Name) (U := U) 𝒱₀ c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (ms7_10 ⟨n + 1, hn⟩) (hs7_10 ⟨n + 1, hn⟩) ((hcond7_0 ⟨n + 1, hn⟩).mpr h0) (fun h => by have := (hcond7_1 ⟨n + 1, hn⟩).mp h; dsimp only at this; omega) (iblk7 c V 0 ⟨n + 1, hn⟩) (iblk7 c V 1 ⟨n + 1, hn⟩) (iblk7 c V 2 ⟨n + 1, hn⟩) (iblk7 c V 3 ⟨n + 1, hn⟩) (iblk7 c V 4 ⟨n + 1, hn⟩) (iblk7 c V 5 ⟨n + 1, hn⟩) (iblk7 c V 6 ⟨n + 1, hn⟩) (iblk7 c V 7 ⟨n + 1, hn⟩) (iblk7 c V 8 ⟨n + 1, hn⟩) (iblk7 c V 9 ⟨n + 1, hn⟩)
    else if h3 : (n + 1) % 4 = 3 then
      out7_C (Name := Name) (U := U) 𝒱₀ c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (ms7_10 ⟨n + 1, hn⟩) (hs7_10 ⟨n + 1, hn⟩) (fun h => h0 ((hcond7_0 ⟨n + 1, hn⟩).mp h)) ((hcond7_1 ⟨n + 1, hn⟩).mpr h3) (iblk7 c V 0 ⟨n + 1, hn⟩) (iblk7 c V 1 ⟨n + 1, hn⟩) (iblk7 c V 2 ⟨n + 1, hn⟩) (iblk7 c V 3 ⟨n + 1, hn⟩) (iblk7 c V 4 ⟨n + 1, hn⟩) (iblk7 c V 5 ⟨n + 1, hn⟩) (iblk7 c V 6 ⟨n + 1, hn⟩) (iblk7 c V 7 ⟨n + 1, hn⟩) (iblk7 c V 8 ⟨n + 1, hn⟩) (iblk7 c V 9 ⟨n + 1, hn⟩) (outsAt7 n (Nat.lt_of_succ_lt hn))
    else
      out7_B (Name := Name) (U := U) 𝒱₀ c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (ms7_10 ⟨n + 1, hn⟩) (hs7_10 ⟨n + 1, hn⟩) (fun h => h0 ((hcond7_0 ⟨n + 1, hn⟩).mp h)) (fun h => h3 ((hcond7_1 ⟨n + 1, hn⟩).mp h)) (iblk7 c V 0 ⟨n + 1, hn⟩) (iblk7 c V 1 ⟨n + 1, hn⟩) (iblk7 c V 2 ⟨n + 1, hn⟩) (iblk7 c V 3 ⟨n + 1, hn⟩) (iblk7 c V 4 ⟨n + 1, hn⟩) (iblk7 c V 5 ⟨n + 1, hn⟩) (iblk7 c V 6 ⟨n + 1, hn⟩) (iblk7 c V 7 ⟨n + 1, hn⟩) (iblk7 c V 8 ⟨n + 1, hn⟩) (iblk7 c V 9 ⟨n + 1, hn⟩) (outsAt7 n (Nat.lt_of_succ_lt hn))

/-- `outsAt7` at a point of case A. -/
theorem outsAt7_A (t : Fin cfg7.N) (h0 : t.val % 4 = 0) :
    outsAt7 (Name := Name) (U := U) 𝒱₀ c V t.val t.isLt = out7_A (Name := Name) (U := U) 𝒱₀ c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) ((hcond7_0 t).mpr h0) (fun h => by have := (hcond7_1 t).mp h; omega) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) := by
  obtain ⟨n, hn⟩ := t
  cases n with
  | zero => exact rfl
  | succ n => exact (dif_pos h0).trans rfl

/-- `outsAt7` at a point of case C: over what the point before left. -/
theorem outsAt7_C (t : Fin cfg7.N) (h0 : ¬t.val % 4 = 0) (h3 : t.val % 4 = 3) :
    outsAt7 (Name := Name) (U := U) 𝒱₀ c V t.val t.isLt = out7_C (Name := Name) (U := U) 𝒱₀ c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (fun h => h0 ((hcond7_0 t).mp h)) ((hcond7_1 t).mpr h3) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) (outsAt7 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- `outsAt7` at a point of case B: over what the point before left. -/
theorem outsAt7_B (t : Fin cfg7.N) (h0 : ¬t.val % 4 = 0) (h3 : ¬t.val % 4 = 3) :
    outsAt7 (Name := Name) (U := U) 𝒱₀ c V t.val t.isLt = out7_B (Name := Name) (U := U) 𝒱₀ c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (fun h => h0 ((hcond7_0 t).mp h)) (fun h => h3 ((hcond7_1 t).mp h)) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) (outsAt7 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

end Region

end Cert.Proof.KI.Gemv1

end
-- ==== Proof.Gemv7Frame.lean ====
import proofs.«208418_g89945205112833_cont_sun_c4_809_35_alg».proof.Proof.Gemv7Outs

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

section Region
variable (𝒱₀ : Variants) (c : Dev nD) (V : (b : Ref sig .tc) → Buf (Elt F) ((c.tc : Thread nD τ).loc b))

/-! ## The pipeline's proof data -/

/-- The proof data of this pipeline on core `c`: the arrays as the region finds them (`V`); after the body at point
    `t` each input's buffer at its block and the output's at `outsAt7`; a constant invariant `Φ₀` the body does
    not read; the input shares `q₀`; constant tallies `owed₀` and recorded bound `rec₀` (the body neither signals
    nor waits). -/
def dat7 (Φ₀ : sProp 𝕄) (q₀ : Fin cfg7.W → PosShare TreeShare) (owed₀ : CellTallies nD τ sig (HIx 4)) (rec₀ : Set (SemLoc sig × HIx 4)) : Dat τ (Elt F) (HIx 4) Name U ℕ cfg7 c where
  A w := V (Pipeline.arrRef spec7 w)
  after w t := match w with
    | ⟨0, _⟩ => iblk7 c V 0 t
    | ⟨1, _⟩ => iblk7 c V 1 t
    | ⟨2, _⟩ => iblk7 c V 2 t
    | ⟨3, _⟩ => iblk7 c V 3 t
    | ⟨4, _⟩ => iblk7 c V 4 t
    | ⟨5, _⟩ => iblk7 c V 5 t
    | ⟨6, _⟩ => iblk7 c V 6 t
    | ⟨7, _⟩ => iblk7 c V 7 t
    | ⟨8, _⟩ => iblk7 c V 8 t
    | ⟨9, _⟩ => iblk7 c V 9 t
    | ⟨10, _⟩ => outsAt7 (Name := Name) (U := U) 𝒱₀ c V t.val t.isLt
  Φ _ := Φ₀
  q := q₀
  owed _ := owed₀
  recorded _ := rec₀

/-- The proof data's arrays are the region-entry contents. -/
theorem A_eq7 (Φ₀ : sProp 𝕄) (q₀ : Fin cfg7.W → PosShare TreeShare) (owed₀ : CellTallies nD τ sig (HIx 4)) (rec₀ : Set (SemLoc sig × HIx 4)) (w : Fin cfg7.W) : (dat7 𝒱₀ c V Φ₀ q₀ owed₀ rec₀).A w = V (Pipeline.arrRef spec7 w) := by
  dsimp only [dat7]

theorem after7_0 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 0 t = iblk7 c V 0 t := by dsimp only [dat7]
theorem after7_1 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 1 t = iblk7 c V 1 t := by dsimp only [dat7]
theorem after7_2 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 2 t = iblk7 c V 2 t := by dsimp only [dat7]
theorem after7_3 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 3 t = iblk7 c V 3 t := by dsimp only [dat7]
theorem after7_4 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 4 t = iblk7 c V 4 t := by dsimp only [dat7]
theorem after7_5 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 5 t = iblk7 c V 5 t := by dsimp only [dat7]
theorem after7_6 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 6 t = iblk7 c V 6 t := by dsimp only [dat7]
theorem after7_7 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 7 t = iblk7 c V 7 t := by dsimp only [dat7]
theorem after7_8 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 8 t = iblk7 c V 8 t := by dsimp only [dat7]
theorem after7_9 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 9 t = iblk7 c V 9 t := by dsimp only [dat7]
theorem after7_10 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 10 t = outsAt7 (Name := Name) (U := U) 𝒱₀ c V t.val t.isLt := by dsimp only [dat7]

theorem before7_0 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 0 t d = iblk7 c V 0 t :=
  before7_0_of c V (dat7 𝒱₀ c V Φ₀ q₀ owed₀ rec₀) (A_eq7 𝒱₀ c V Φ₀ q₀ owed₀ rec₀ 0) (after7_0 𝒱₀ c V Φ₀ q₀ owed₀ rec₀) t d
theorem before7_1 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 1 t d = iblk7 c V 1 t :=
  before7_1_of c V (dat7 𝒱₀ c V Φ₀ q₀ owed₀ rec₀) (A_eq7 𝒱₀ c V Φ₀ q₀ owed₀ rec₀ 1) (after7_1 𝒱₀ c V Φ₀ q₀ owed₀ rec₀) t d
theorem before7_2 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 2 t d = iblk7 c V 2 t :=
  before7_2_of c V (dat7 𝒱₀ c V Φ₀ q₀ owed₀ rec₀) (A_eq7 𝒱₀ c V Φ₀ q₀ owed₀ rec₀ 2) (after7_2 𝒱₀ c V Φ₀ q₀ owed₀ rec₀) t d
theorem before7_3 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 3 t d = iblk7 c V 3 t :=
  before7_3_of c V (dat7 𝒱₀ c V Φ₀ q₀ owed₀ rec₀) (A_eq7 𝒱₀ c V Φ₀ q₀ owed₀ rec₀ 3) (after7_3 𝒱₀ c V Φ₀ q₀ owed₀ rec₀) t d
theorem before7_4 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 4 t d = iblk7 c V 4 t :=
  before7_4_of c V (dat7 𝒱₀ c V Φ₀ q₀ owed₀ rec₀) (A_eq7 𝒱₀ c V Φ₀ q₀ owed₀ rec₀ 4) (after7_4 𝒱₀ c V Φ₀ q₀ owed₀ rec₀) t d
theorem before7_5 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 5 t d = iblk7 c V 5 t :=
  before7_5_of c V (dat7 𝒱₀ c V Φ₀ q₀ owed₀ rec₀) (A_eq7 𝒱₀ c V Φ₀ q₀ owed₀ rec₀ 5) (after7_5 𝒱₀ c V Φ₀ q₀ owed₀ rec₀) t d
theorem before7_6 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 6 t d = iblk7 c V 6 t :=
  before7_6_of c V (dat7 𝒱₀ c V Φ₀ q₀ owed₀ rec₀) (A_eq7 𝒱₀ c V Φ₀ q₀ owed₀ rec₀ 6) (after7_6 𝒱₀ c V Φ₀ q₀ owed₀ rec₀) t d
theorem before7_7 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 7 t d = iblk7 c V 7 t :=
  before7_7_of c V (dat7 𝒱₀ c V Φ₀ q₀ owed₀ rec₀) (A_eq7 𝒱₀ c V Φ₀ q₀ owed₀ rec₀ 7) (after7_7 𝒱₀ c V Φ₀ q₀ owed₀ rec₀) t d
theorem before7_8 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 8 t d = iblk7 c V 8 t :=
  before7_8_of c V (dat7 𝒱₀ c V Φ₀ q₀ owed₀ rec₀) (A_eq7 𝒱₀ c V Φ₀ q₀ owed₀ rec₀ 8) (after7_8 𝒱₀ c V Φ₀ q₀ owed₀ rec₀) t d
theorem before7_9 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 9 t d = iblk7 c V 9 t :=
  before7_9_of c V (dat7 𝒱₀ c V Φ₀ q₀ owed₀ rec₀) (A_eq7 𝒱₀ c V Φ₀ q₀ owed₀ rec₀ 9) (after7_9 𝒱₀ c V Φ₀ q₀ owed₀ rec₀) t d

/-- After the first point the output's current staging buffer holds what the body left at the point before: the
    buffer is written back at the last point only. -/
theorem before7_10_kept (Φ₀ : sProp 𝕄) (q₀ : Fin cfg7.W → PosShare TreeShare) (owed₀ : CellTallies nD τ sig (HIx 4)) (rec₀ : Set (SemLoc sig × HIx 4)) (t : Fin cfg7.N) (h0 : ¬t.val % 4 = 0) (d) :
    (dat7 𝒱₀ c V Φ₀ q₀ owed₀ rec₀).before 10 t d = outsAt7 (Name := Name) (U := U) 𝒱₀ c V (t.val - 1) (Nat.lt_of_le_of_lt (Nat.sub_le _ _) t.isLt) := by
  have hN : t.val < 4 := lt_of_lt_of_eq t.isLt (show cfg7.N = 4 from N_7)
  rw [Dat.before_out_kept _ 10 rfl t (by omega) (Bool.eq_false_iff.mpr fun h => by have := (flush7_10 _).mp h; dsimp only at this; omega)
    (fun _ => rfl) (fun _ _ => rfl)]
  dsimp only [dat7]

/-! ## The body obligation, at a generic point -/

/-- What the body is called with at point `t`, the windows one by one, -/
def bodyPre7 (Φ₀ : sProp 𝕄) (q₀ : Fin cfg7.W → PosShare TreeShare) (owed₀ : CellTallies nD τ sig (HIx 4)) (rec₀ : Set (SemLoc sig × HIx 4)) (t : Fin cfg7.N) : sProp 𝕄 :=
  iprop((dat7 𝒱₀ c V Φ₀ q₀ owed₀ rec₀).Φ t.castSucc ∗ (dat7 𝒱₀ c V Φ₀ q₀ owed₀ rec₀).owesAt none t.castSucc
    ∗ (∃ d, owns (c : Thread nD τ) (ms7_0 t) fullShare ((dat7 𝒱₀ c V Φ₀ q₀ owed₀ rec₀).before 0 t d))
    ∗ (∃ d, owns (c : Thread nD τ) (ms7_1 t) fullShare ((dat7 𝒱₀ c V Φ₀ q₀ owed₀ rec₀).before 1 t d))
    ∗ (∃ d, owns (c : Thread nD τ) (ms7_2 t) fullShare ((dat7 𝒱₀ c V Φ₀ q₀ owed₀ rec₀).before 2 t d))
    ∗ (∃ d, owns (c : Thread nD τ) (ms7_3 t) fullShare ((dat7 𝒱₀ c V Φ₀ q₀ owed₀ rec₀).before 3 t d))
    ∗ (∃ d, owns (c : Thread nD τ) (ms7_4 t) fullShare ((dat7 𝒱₀ c V Φ₀ q₀ owed₀ rec₀).before 4 t d))
    ∗ (∃ d, owns (c : Thread nD τ) (ms7_5 t) fullShare ((dat7 𝒱₀ c V Φ₀ q₀ owed₀ rec₀).before 5 t d))
    ∗ (∃ d, owns (c : Thread nD τ) (ms7_6 t) fullShare ((dat7 𝒱₀ c V Φ₀ q₀ owed₀ rec₀).before 6 t d))
    ∗ (∃ d, owns (c : Thread nD τ) (ms7_7 t) fullShare ((dat7 𝒱₀ c V Φ₀ q₀ owed₀ rec₀).before 7 t d))
    ∗ (∃ d, owns (c : Thread nD τ) (ms7_8 t) fullShare ((dat7 𝒱₀ c V Φ₀ q₀ owed₀ rec₀).before 8 t d))
    ∗ (∃ d, owns (c : Thread nD τ) (ms7_9 t) fullShare ((dat7 𝒱₀ c V Φ₀ q₀ owed₀ rec₀).before 9 t d))
    ∗ (∃ d, owns (c : Thread nD τ) (ms7_10 t) fullShare ((dat7 𝒱₀ c V Φ₀ q₀ owed₀ rec₀).before 10 t d)))

/-- and what it returns. -/
def bodyPost7 (Φ₀ : sProp 𝕄) (q₀ : Fin cfg7.W → PosShare TreeShare) (owed₀ : CellTallies nD τ sig (HIx 4)) (rec₀ : Set (SemLoc sig × HIx 4)) (t : Fin cfg7.N) : sProp 𝕄 :=
  iprop((dat7 𝒱₀ c V Φ₀ q₀ owed₀ rec₀).Φ t.succ ∗ (dat7 𝒱₀ c V Φ₀ q₀ owed₀ rec₀).owesAt none t.succ
    ∗ owns (c : Thread nD τ) (ms7_0 t) fullShare ((dat7 𝒱₀ c V Φ₀ q₀ owed₀ rec₀).after 0 t)
    ∗ owns (c : Thread nD τ) (ms7_1 t) fullShare ((dat7 𝒱₀ c V Φ₀ q₀ owed₀ rec₀).after 1 t)
    ∗ owns (c : Thread nD τ) (ms7_2 t) fullShare ((dat7 𝒱₀ c V Φ₀ q₀ owed₀ rec₀).after 2 t)
    ∗ owns (c : Thread nD τ) (ms7_3 t) fullShare ((dat7 𝒱₀ c V Φ₀ q₀ owed₀ rec₀).after 3 t)
    ∗ owns (c : Thread nD τ) (ms7_4 t) fullShare ((dat7 𝒱₀ c V Φ₀ q₀ owed₀ rec₀).after 4 t)
    ∗ owns (c : Thread nD τ) (ms7_5 t) fullShare ((dat7 𝒱₀ c V Φ₀ q₀ owed₀ rec₀).after 5 t)
    ∗ owns (c : Thread nD τ) (ms7_6 t) fullShare ((dat7 𝒱₀ c V Φ₀ q₀ owed₀ rec₀).after 6 t)
    ∗ owns (c : Thread nD τ) (ms7_7 t) fullShare ((dat7 𝒱₀ c V Φ₀ q₀ owed₀ rec₀).after 7 t)
    ∗ owns (c : Thread nD τ) (ms7_8 t) fullShare ((dat7 𝒱₀ c V Φ₀ q₀ owed₀ rec₀).after 8 t)
    ∗ owns (c : Thread nD τ) (ms7_9 t) fullShare ((dat7 𝒱₀ c V Φ₀ q₀ owed₀ rec₀).after 9 t)
    ∗ owns (c : Thread nD τ) (ms7_10 t) fullShare ((dat7 𝒱₀ c V Φ₀ q₀ owed₀ rec₀).after 10 t))

set_option maxHeartbeats 1600000 in
/-- The body at any point: the inputs' memrefs hold their blocks; the closed forms say which case the point is in, and
    after the first point the output's buffer holds what the point before left; so the case's run applies; the
    invariant and what the core owes pass through unread. -/
theorem sound_body7 (Φ₀ : sProp 𝕄) (q₀ : Fin cfg7.W → PosShare TreeShare) (owed₀ : CellTallies nD τ sig (HIx 4)) (rec₀ : Set (SemLoc sig × HIx 4)) (t : Fin cfg7.N) :
    bodyPre7 (Name := Name) (U := U) 𝒱₀ c V Φ₀ q₀ owed₀ rec₀ t ⊢ wp frame (wpE (defs₀ (F := F)) 𝒱₀ c none) Set.univ (bodyAt7 t) (fun _ => bodyPost7 (Name := Name) (U := U) 𝒱₀ c V Φ₀ q₀ owed₀ rec₀ t) := by
  unfold bodyPre7 bodyPost7 bodyAt7
  simp only [before7_0, before7_1, before7_2, before7_3, before7_4, before7_5, before7_6, before7_7, before7_8, before7_9]
  rw [show (dat7 𝒱₀ c V Φ₀ q₀ owed₀ rec₀).Φ t.succ = (dat7 𝒱₀ c V Φ₀ q₀ owed₀ rec₀).Φ t.castSucc from rfl,
    show (dat7 𝒱₀ c V Φ₀ q₀ owed₀ rec₀).owesAt none t.succ = (dat7 𝒱₀ c V Φ₀ q₀ owed₀ rec₀).owesAt none t.castSucc from rfl,
    after7_0, after7_1, after7_2, after7_3, after7_4, after7_5, after7_6, after7_7, after7_8, after7_9, after7_10]
  have hN : t.val < 4 := lt_of_lt_of_eq t.isLt (show cfg7.N = 4 from N_7)
  by_cases h0 : t.val % 4 = 0
  ·
    rw [outsAt7_A 𝒱₀ c V t h0]
    unfold out7_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun7_A (Name := Name) (U := U) 𝒱₀ c (grid7.coords t) _ _ _ _ _ _ _ _ _ _ _ _ _ _ _ _ _ _ _ _ _ _ ((hcond7_0 t).mpr h0) (fun h => by have := (hcond7_1 t).mp h; omega) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover7_A 𝒱₀ c _ _ _ _ _ _ _ _ _ _ _ _ _ _ _ _ _ _ _ _ _ _ _ _ _ _ _ _ _ _ _ _ _ _ _)
  · by_cases h3 : t.val % 4 = 3
    ·
      rw [outsAt7_C 𝒱₀ c V t h0 h3]
      simp only [before7_10_kept 𝒱₀ c V Φ₀ q₀ owed₀ rec₀ t h0]
      unfold out7_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun7_C (Name := Name) (U := U) 𝒱₀ c (grid7.coords t) _ _ _ _ _ _ _ _ _ _ _ _ _ _ _ _ _ _ _ _ _ _ (fun h => h0 ((hcond7_0 t).mp h)) ((hcond7_1 t).mpr h3) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover7_C 𝒱₀ c _ _ _ _ _ _ _ _ _ _ _ _ _ _ _ _ _ _ _ _ _ _ _ _ _ _ _ _ _ _ _ _ _ _ _ _)
    ·
      rw [outsAt7_B 𝒱₀ c V t h0 h3]
      simp only [before7_10_kept 𝒱₀ c V Φ₀ q₀ owed₀ rec₀ t h0]
      unfold out7_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun7_B (Name := Name) (U := U) 𝒱₀ c (grid7.coords t) _ _ _ _ _ _ _ _ _ _ _ _ _ _ _ _ _ _ _ _ _ _ (fun h => h0 ((hcond7_0 t).mp h)) (fun h => h3 ((hcond7_1 t).mp h)) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover7_B 𝒱₀ c _ _ _ _ _ _ _ _ _ _ _ _ _ _ _ _ _ _ _ _ _ _ _ _ _ _ _ _ _ _ _ _ _ _ _ _)

/-- The library's body obligation, at every point. -/
theorem body_obligation7_exact (Φ₀ : sProp 𝕄) (q₀ : Fin cfg7.W → PosShare TreeShare) (owed₀ : CellTallies nD τ sig (HIx 4)) (rec₀ : Set (SemLoc sig × HIx 4)) : BodyObligation (dat7 (F := F) (Name := Name) (U := U) 𝒱₀ c V Φ₀ q₀ owed₀ rec₀) (defs₀ (F := F)) 𝒱₀ none Set.univ := fun t => by
  rw [bigSep_W7, bigSep_W7]
  exact sound_body7 𝒱₀ c V Φ₀ q₀ owed₀ rec₀ t

/-- The body obligation as the pipeline's loop uses it. -/
theorem body_obligation7 (Φ₀ : sProp 𝕄) (q₀ : Fin cfg7.W → PosShare TreeShare) (owed₀ : CellTallies nD τ sig (HIx 4)) (rec₀ : Set (SemLoc sig × HIx 4)) : BodyObligationLoose (dat7 (F := F) (Name := Name) (U := U) 𝒱₀ c V Φ₀ q₀ owed₀ rec₀) (defs₀ (F := F)) 𝒱₀ none Set.univ :=
  (body_obligation7_exact 𝒱₀ c V Φ₀ q₀ owed₀ rec₀).loose

end Region

end Cert.Proof.KI.Gemv1

end
-- ==== Proof.Gemv7Entry.lean ====
import proofs.«208418_g89945205112833_cont_sun_c4_809_35_alg».proof.Proof.ScPay
import proofs.«208418_g89945205112833_cont_sun_c4_809_35_alg».proof.Proof.LibScRegion
import proofs.«208418_g89945205112833_cont_sun_c4_809_35_alg».proof.Proof.LibReadShares
import proofs.«208418_g89945205112833_cont_sun_c4_809_35_alg».proof.Proof.GemvShares
import proofs.«208418_g89945205112833_cont_sun_c4_809_35_alg».proof.Proof.Gemv7Frame

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU)
open Cert.Proof

local notation "𝕄" => MT nD τ sig (HIx 4) (Elt F) ℕ UU ℕ
local notation "Tc" => SparseCore.T (nD := nD) (τ := τ)

/-! ## The region's proof data at the call site, and its entry and exit -/

/-- The share each input window holds of its array: the gathered row and the bias whole; the eight weight windows, which
    stage one array, one read token each of its full share (the remainder bypasses the region). -/
def q7 : Fin cfg7.W → PosShare TreeShare
  | ⟨0, _⟩ => fullShare
  | ⟨1, _⟩ => Transfers.shareTok fullShare 8 0
  | ⟨2, _⟩ => Transfers.shareTok fullShare 8 1
  | ⟨3, _⟩ => Transfers.shareTok fullShare 8 2
  | ⟨4, _⟩ => Transfers.shareTok fullShare 8 3
  | ⟨5, _⟩ => Transfers.shareTok fullShare 8 4
  | ⟨6, _⟩ => Transfers.shareTok fullShare 8 5
  | ⟨7, _⟩ => Transfers.shareTok fullShare 8 6
  | ⟨8, _⟩ => Transfers.shareTok fullShare 8 7
  | ⟨9, _⟩ => fullShare
  | ⟨10, _⟩ => fullShare

/-- The invariant the body passes through unread: the core's scoped buffers that are no staging buffer. -/
def Φr7 (c : Dev nD) : sProp 𝕄 := Pipeline.scopedRest (Ix := HIx 4) (Name := ℕ) (U := UU) (Lvl := ℕ) (Val := Elt F) spec7 c

/-- The region's proof data on core `c` before call `n`, at entry contents `V`: the debt carried unchanged. -/
def rdat7 (c : Dev nD) (n : ℕ) (V : (b : Ref sig .tc) → Buf (Elt F) ((c.tc : Thread nD τ).loc b)) : Dat τ (Elt F) (HIx 4) ℕ UU ℕ cfg7 c :=
  dat7 (Name := ℕ) (U := UU) 𝒱₀ c V (Φr7 c) q7 ((K (F := F)).Otc c n) (LibScRegion.rcAt (K (F := F)) c n)

/-- What the region is entered from: the debt with its bound, and the four arrays whole. -/
def pre7 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v20) ↦{fullShare} V main_v20) ∗ (((Tc c).loc main_arg8) ↦{fullShare} V main_arg8) ∗ (((Tc c).loc main_v21) ↦{fullShare} V main_v21) ∗ (((Tc c).loc main_v22) ↦{fullShare} V main_v22))

/-- What it leaves: the same, the output array at whatever the region wrote. -/
def post7 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v20) ↦{fullShare} V main_v20) ∗ (((Tc c).loc main_arg8) ↦{fullShare} V main_arg8) ∗ (((Tc c).loc main_v21) ↦{fullShare} V main_v21) ∗ (∃ f, ((Tc c).loc main_v22) ↦{fullShare} f))

/-- The weights' share that bypasses the region. -/
def Z7 (c : Dev nD) (V : (b : Ref sig .tc) → Buf (Elt F) ((Tc c).loc b)) : sProp 𝕄 :=
  ((Tc c).loc main_arg8) ↦{Transfers.shareDrop fullShare 8} V main_arg8

/-! ### Each window's array, as the whole buffer behind it at the window's share -/

theorem arrPt7_0 (c : Dev nD) (n : ℕ) (V : (b : Ref sig .tc) → Buf (Elt F) ((Tc c).loc b)) (X : Buf (Elt F) ((cfg7.win 0).arr.view.loc (c.tc : Thread nD τ))) :
    ((cfg7.win 0).arr.view.loc (c.tc : Thread nD τ) ↦[(cfg7.win 0).arr.view.set]{(rdat7 c n V).share 0} X : sProp 𝕄)
      = (((Tc c).loc main_v20) ↦{fullShare} X) := by
  have h : (cfg7.win 0).arr.IsWhole := arr_whole7 0
  rw [h.set_eq_univ]; rfl

theorem arrPt7_1 (c : Dev nD) (n : ℕ) (V : (b : Ref sig .tc) → Buf (Elt F) ((Tc c).loc b)) (X : Buf (Elt F) ((cfg7.win 1).arr.view.loc (c.tc : Thread nD τ))) :
    ((cfg7.win 1).arr.view.loc (c.tc : Thread nD τ) ↦[(cfg7.win 1).arr.view.set]{(rdat7 c n V).share 1} X : sProp 𝕄)
      = (((Tc c).loc main_arg8) ↦{Transfers.shareTok fullShare 8 0} X) := by
  have h : (cfg7.win 1).arr.IsWhole := arr_whole7 1
  rw [h.set_eq_univ]; rfl

theorem arrPt7_2 (c : Dev nD) (n : ℕ) (V : (b : Ref sig .tc) → Buf (Elt F) ((Tc c).loc b)) (X : Buf (Elt F) ((cfg7.win 2).arr.view.loc (c.tc : Thread nD τ))) :
    ((cfg7.win 2).arr.view.loc (c.tc : Thread nD τ) ↦[(cfg7.win 2).arr.view.set]{(rdat7 c n V).share 2} X : sProp 𝕄)
      = (((Tc c).loc main_arg8) ↦{Transfers.shareTok fullShare 8 1} X) := by
  have h : (cfg7.win 2).arr.IsWhole := arr_whole7 2
  rw [h.set_eq_univ]; rfl

theorem arrPt7_3 (c : Dev nD) (n : ℕ) (V : (b : Ref sig .tc) → Buf (Elt F) ((Tc c).loc b)) (X : Buf (Elt F) ((cfg7.win 3).arr.view.loc (c.tc : Thread nD τ))) :
    ((cfg7.win 3).arr.view.loc (c.tc : Thread nD τ) ↦[(cfg7.win 3).arr.view.set]{(rdat7 c n V).share 3} X : sProp 𝕄)
      = (((Tc c).loc main_arg8) ↦{Transfers.shareTok fullShare 8 2} X) := by
  have h : (cfg7.win 3).arr.IsWhole := arr_whole7 3
  rw [h.set_eq_univ]; rfl

theorem arrPt7_4 (c : Dev nD) (n : ℕ) (V : (b : Ref sig .tc) → Buf (Elt F) ((Tc c).loc b)) (X : Buf (Elt F) ((cfg7.win 4).arr.view.loc (c.tc : Thread nD τ))) :
    ((cfg7.win 4).arr.view.loc (c.tc : Thread nD τ) ↦[(cfg7.win 4).arr.view.set]{(rdat7 c n V).share 4} X : sProp 𝕄)
      = (((Tc c).loc main_arg8) ↦{Transfers.shareTok fullShare 8 3} X) := by
  have h : (cfg7.win 4).arr.IsWhole := arr_whole7 4
  rw [h.set_eq_univ]; rfl

theorem arrPt7_5 (c : Dev nD) (n : ℕ) (V : (b : Ref sig .tc) → Buf (Elt F) ((Tc c).loc b)) (X : Buf (Elt F) ((cfg7.win 5).arr.view.loc (c.tc : Thread nD τ))) :
    ((cfg7.win 5).arr.view.loc (c.tc : Thread nD τ) ↦[(cfg7.win 5).arr.view.set]{(rdat7 c n V).share 5} X : sProp 𝕄)
      = (((Tc c).loc main_arg8) ↦{Transfers.shareTok fullShare 8 4} X) := by
  have h : (cfg7.win 5).arr.IsWhole := arr_whole7 5
  rw [h.set_eq_univ]; rfl

theorem arrPt7_6 (c : Dev nD) (n : ℕ) (V : (b : Ref sig .tc) → Buf (Elt F) ((Tc c).loc b)) (X : Buf (Elt F) ((cfg7.win 6).arr.view.loc (c.tc : Thread nD τ))) :
    ((cfg7.win 6).arr.view.loc (c.tc : Thread nD τ) ↦[(cfg7.win 6).arr.view.set]{(rdat7 c n V).share 6} X : sProp 𝕄)
      = (((Tc c).loc main_arg8) ↦{Transfers.shareTok fullShare 8 5} X) := by
  have h : (cfg7.win 6).arr.IsWhole := arr_whole7 6
  rw [h.set_eq_univ]; rfl

theorem arrPt7_7 (c : Dev nD) (n : ℕ) (V : (b : Ref sig .tc) → Buf (Elt F) ((Tc c).loc b)) (X : Buf (Elt F) ((cfg7.win 7).arr.view.loc (c.tc : Thread nD τ))) :
    ((cfg7.win 7).arr.view.loc (c.tc : Thread nD τ) ↦[(cfg7.win 7).arr.view.set]{(rdat7 c n V).share 7} X : sProp 𝕄)
      = (((Tc c).loc main_arg8) ↦{Transfers.shareTok fullShare 8 6} X) := by
  have h : (cfg7.win 7).arr.IsWhole := arr_whole7 7
  rw [h.set_eq_univ]; rfl

theorem arrPt7_8 (c : Dev nD) (n : ℕ) (V : (b : Ref sig .tc) → Buf (Elt F) ((Tc c).loc b)) (X : Buf (Elt F) ((cfg7.win 8).arr.view.loc (c.tc : Thread nD τ))) :
    ((cfg7.win 8).arr.view.loc (c.tc : Thread nD τ) ↦[(cfg7.win 8).arr.view.set]{(rdat7 c n V).share 8} X : sProp 𝕄)
      = (((Tc c).loc main_arg8) ↦{Transfers.shareTok fullShare 8 7} X) := by
  have h : (cfg7.win 8).arr.IsWhole := arr_whole7 8
  rw [h.set_eq_univ]; rfl

theorem arrPt7_9 (c : Dev nD) (n : ℕ) (V : (b : Ref sig .tc) → Buf (Elt F) ((Tc c).loc b)) (X : Buf (Elt F) ((cfg7.win 9).arr.view.loc (c.tc : Thread nD τ))) :
    ((cfg7.win 9).arr.view.loc (c.tc : Thread nD τ) ↦[(cfg7.win 9).arr.view.set]{(rdat7 c n V).share 9} X : sProp 𝕄)
      = (((Tc c).loc main_v21) ↦{fullShare} X) := by
  have h : (cfg7.win 9).arr.IsWhole := arr_whole7 9
  rw [h.set_eq_univ]; rfl

theorem arrPt7_10 (c : Dev nD) (n : ℕ) (V : (b : Ref sig .tc) → Buf (Elt F) ((Tc c).loc b)) (X : Buf (Elt F) ((cfg7.win 10).arr.view.loc (c.tc : Thread nD τ))) :
    ((cfg7.win 10).arr.view.loc (c.tc : Thread nD τ) ↦[(cfg7.win 10).arr.view.set]{(rdat7 c n V).share 10} X : sProp 𝕄)
      = (((Tc c).loc main_v22) ↦{fullShare} X) := by
  have h : (cfg7.win 10).arr.IsWhole := arr_whole7 10
  rw [h.set_eq_univ]; rfl

/-- The arrays at entry are the region-entry contents. -/
theorem arrAt0_7 (c : Dev nD) (n : ℕ) (V : (b : Ref sig .tc) → Buf (Elt F) ((Tc c).loc b)) (w : Fin cfg7.W) :
    (rdat7 c n V).arrAt w 0 = V (Pipeline.arrRef spec7 w) := rfl

/-- An input window's array is never written back. -/
theorem arrAtN_7 (c : Dev nD) (n : ℕ) (V : (b : Ref sig .tc) → Buf (Elt F) ((Tc c).loc b)) (w : Fin cfg7.W) (hw : (cfg7.win w).isOut = false) :
    (rdat7 c n V).arrAt w cfg7.N = V (Pipeline.arrRef spec7 w) := (Dat.arrAt_in _ w hw _).trans rfl

set_option maxHeartbeats 4000000 in
/-- ENTRY: the four arrays whole make the windows' arrays at their shares — the weights' full share split into the
    eight windows' read tokens and a remainder that bypasses the region —, and the debt with its bound is what the
    proof data's first point owes. -/
theorem entry7 (c : Dev nD) (n : ℕ) (V : (b : Ref sig .tc) → Buf (Elt F) ((Tc c).loc b)) :
    pre7 c n V ⊢ iprop((rdat7 c n V).arrays ((rdat7 c n V).arrAt · 0) ∗ (rdat7 c n V).owesAt none 0 ∗ Z7 c V) := by
  unfold Dat.arrays pre7 Z7
  rw [bigSep_W7]
  rw [arrPt7_0 c n V, arrPt7_1 c n V, arrPt7_2 c n V, arrPt7_3 c n V, arrPt7_4 c n V, arrPt7_5 c n V, arrPt7_6 c n V, arrPt7_7 c n V, arrPt7_8 c n V, arrPt7_9 c n V, arrPt7_10 c n V]
  show iprop((∃ W, ⌜(K (F := F)).WBelow (Tc c) W (8 * n)⌝ ∗ owes (Tc c) ((K (F := F)).Otc c n) W) ∗ (((Tc c).loc main_v20) ↦{fullShare} V main_v20) ∗ (((Tc c).loc main_arg8) ↦{fullShare} V main_arg8) ∗ (((Tc c).loc main_v21) ↦{fullShare} V main_v21) ∗ (((Tc c).loc main_v22) ↦{fullShare} V main_v22))
    ⊢ iprop(((((Tc c).loc main_v20) ↦{fullShare} V main_v20) ∗ (((Tc c).loc main_arg8) ↦{Transfers.shareTok fullShare 8 0} V main_arg8) ∗ (((Tc c).loc main_arg8) ↦{Transfers.shareTok fullShare 8 1} V main_arg8) ∗ (((Tc c).loc main_arg8) ↦{Transfers.shareTok fullShare 8 2} V main_arg8) ∗ (((Tc c).loc main_arg8) ↦{Transfers.shareTok fullShare 8 3} V main_arg8) ∗ (((Tc c).loc main_arg8) ↦{Transfers.shareTok fullShare 8 4} V main_arg8) ∗ (((Tc c).loc main_arg8) ↦{Transfers.shareTok fullShare 8 5} V main_arg8) ∗ (((Tc c).loc main_arg8) ↦{Transfers.shareTok fullShare 8 6} V main_arg8) ∗ (((Tc c).loc main_arg8) ↦{Transfers.shareTok fullShare 8 7} V main_arg8) ∗ (((Tc c).loc main_v21) ↦{fullShare} V main_v21) ∗ (((Tc c).loc main_v22) ↦{fullShare} V main_v22)) ∗ (rdat7 c n V).owesAt none 0 ∗ (((Tc c).loc main_arg8) ↦{Transfers.shareDrop fullShare 8} V main_arg8))
  iintro ⟨⟨%W, %hW, HO⟩, Hg, HW, Hb, Ho⟩
  ihave HW' := (split8 (F := F) _ _) $$ HW
  icases HW' with ⟨Hrem, H0, H1, H2, H3, H4, H5, H6, H7⟩
  isplitl [Hg H0 H1 H2 H3 H4 H5 H6 H7 Hb Ho]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hb]; · iexact Hb
    iexact Ho
  isplitl [HO]
  · iexists W; isplitr
    · ipureintro; exact fun pr hpr => Or.inl (hW pr hpr)
    iexact HO
  iexact Hrem

set_option maxHeartbeats 4000000 in
/-- EXIT: the inputs' arrays were never written, so the eight read tokens and the remainder join into the weights whole
    again; the output's array holds whatever the write-back left; the recorded waits stay within the debt's bound
    (the region's own sit at the kernels' index). -/
theorem exit7 (c : Dev nD) (n : ℕ) (V : (b : Ref sig .tc) → Buf (Elt F) ((Tc c).loc b)) :
    iprop((rdat7 c n V).arrays ((rdat7 c n V).arrAt · cfg7.N) ∗ (rdat7 c n V).owesAt none (Fin.last cfg7.N) ∗ Z7 c V) ⊢ post7 c n V := by
  unfold Dat.arrays post7 Z7
  rw [bigSep_W7]
  rw [arrPt7_0 c n V, arrPt7_1 c n V, arrPt7_2 c n V, arrPt7_3 c n V, arrPt7_4 c n V, arrPt7_5 c n V, arrPt7_6 c n V, arrPt7_7 c n V, arrPt7_8 c n V, arrPt7_9 c n V, arrPt7_10 c n V]
  beta_reduce
  rw [arrAtN_7 c n V 0 rfl, arrAtN_7 c n V 1 rfl, arrAtN_7 c n V 2 rfl, arrAtN_7 c n V 3 rfl, arrAtN_7 c n V 4 rfl, arrAtN_7 c n V 5 rfl, arrAtN_7 c n V 6 rfl, arrAtN_7 c n V 7 rfl, arrAtN_7 c n V 8 rfl, arrAtN_7 c n V 9 rfl]
  show iprop(((((Tc c).loc main_v20) ↦{fullShare} V main_v20) ∗ (((Tc c).loc main_arg8) ↦{Transfers.shareTok fullShare 8 0} V main_arg8) ∗ (((Tc c).loc main_arg8) ↦{Transfers.shareTok fullShare 8 1} V main_arg8) ∗ (((Tc c).loc main_arg8) ↦{Transfers.shareTok fullShare 8 2} V main_arg8) ∗ (((Tc c).loc main_arg8) ↦{Transfers.shareTok fullShare 8 3} V main_arg8) ∗ (((Tc c).loc main_arg8) ↦{Transfers.shareTok fullShare 8 4} V main_arg8) ∗ (((Tc c).loc main_arg8) ↦{Transfers.shareTok fullShare 8 5} V main_arg8) ∗ (((Tc c).loc main_arg8) ↦{Transfers.shareTok fullShare 8 6} V main_arg8) ∗ (((Tc c).loc main_arg8) ↦{Transfers.shareTok fullShare 8 7} V main_arg8) ∗ (((Tc c).loc main_v21) ↦{fullShare} V main_v21) ∗ (((Tc c).loc main_v22) ↦{fullShare} (rdat7 c n V).arrAt 10 cfg7.N)) ∗ (rdat7 c n V).owesAt none (Fin.last cfg7.N) ∗ (((Tc c).loc main_arg8) ↦{Transfers.shareDrop fullShare 8} V main_arg8))
    ⊢ iprop((∃ W, ⌜(K (F := F)).WBelow (Tc c) W (8 * n)⌝ ∗ owes (Tc c) ((K (F := F)).Otc c n) W) ∗ (((Tc c).loc main_v20) ↦{fullShare} V main_v20) ∗ (((Tc c).loc main_arg8) ↦{fullShare} V main_arg8) ∗ (((Tc c).loc main_v21) ↦{fullShare} V main_v21) ∗ (∃ f, ((Tc c).loc main_v22) ↦{fullShare} f))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg7.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexists _; iexact Ho

end Cert.Proof.KI.Gemv1

end
-- ==== Proof.GemvRegions.lean ====
import proofs.«208418_g89945205112833_cont_sun_c4_809_35_alg».proof.Proof.ScIface
import proofs.«208418_g89945205112833_cont_sun_c4_809_35_alg».proof.Proof.Gemv1Entry
import proofs.«208418_g89945205112833_cont_sun_c4_809_35_alg».proof.Proof.Gemv3Entry
import proofs.«208418_g89945205112833_cont_sun_c4_809_35_alg».proof.Proof.Gemv5Entry
import proofs.«208418_g89945205112833_cont_sun_c4_809_35_alg».proof.Proof.Gemv7Entry

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU adm regPre regPost RegionStep)
open Cert.Proof

local notation "𝕄" => MT nD τ sig (HIx 4) (Elt F) ℕ UU ℕ
local notation "Tc" => SparseCore.T (nD := nD) (τ := τ)

/-! ## The four TensorCore regions as steps of @main's proof -/

/-- The entry contents on every core, from those on core `d`: the mesh has one device. -/
def Vfam (d : Dev nD) (V : (b : Ref sig .tc) → Buf (Elt F) ((Tc d).loc b)) (c : Dev nD) : (b : Ref sig .tc) → Buf (Elt F) ((Tc c).loc b) :=
  (Subsingleton.elim d c) ▸ V

theorem Vfam_self (d : Dev nD) (V : (b : Ref sig .tc) → Buf (Elt F) ((Tc d).loc b)) : Vfam d V d = V := rfl

/-- Every pipeline's proof data before call `n`, at the entry contents `V` — a literal match, so that the pinned
    configuration at a numeral reduces to the printed one. -/
def pdats (d : Dev nD) (n : ℕ) (V : (b : Ref sig .tc) → Buf (Elt F) ((Tc d).loc b)) :
    (p : Fin 4) → (c : Dev nD) → Dat τ (Elt F) (HIx 4) ℕ UU ℕ (Pipeline.pin (pcfgs (F := F)) adm p) c
  | ⟨0, _⟩ => fun c => rdat1 c n (Vfam d V c)
  | ⟨1, _⟩ => fun c => rdat3 c n (Vfam d V c)
  | ⟨2, _⟩ => fun c => rdat5 c n (Vfam d V c)
  | ⟨3, _⟩ => fun c => rdat7 c n (Vfam d V c)

set_option backward.isDefEq.respectTransparency.types false in
set_option maxHeartbeats 4000000 in
/-- Region 0 (the pallas_call of layer 0) over the thread state: entered from the debt and its four arrays whole, left
    with the output array at what the write-back left. No semaphore of the kernel's own; nothing rides through the
    invariant but the scoped buffers the body does not touch. -/
def reg0 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 0 where
  win := winFacts₀1
  block_pos := block_pos1
  stage_whole := stage_whole1
  K := PEmpty
  osem k := k.elim
  ho := Pipeline.OwnSemFacts.none _
  hbody c := body_obligation1 𝒱₀ c (Vfam d V c) (Φr1 c) q1 ((K (F := F)).Otc c n) (LibScRegion.rcAt (K (F := F)) c n)
  hwaits c := Pipeline.cellsWaits_intro (Pipeline.pin (pcfgs (F := F)) adm) (pdats d n V) none 0 c
    (fun w s t => (K (F := F)).mayWait_none (.dma _) (LibScRegion.Otc_none (K (F := F)) c n))
  pre c := pre1 c n (Vfam d V c)
  post c := post1 c n (Vfam d V c)
  X _ := iprop(emp)
  Y _ := iprop(emp)
  Z c := Z1 c (Vfam d V c)
  hentry c := by
    rw [Pipeline.ownSems0_none]
    iintro ⟨Hpre, -, -⟩
    ihave H := (entry1 c n (Vfam d V c)) $$ Hpre
    icases H with ⟨Ha, Ho, Hz⟩
    imodintro
    isplitl [Ha]; · iexact Ha
    isplitr; · unfold Pipeline.prefHeld; rw [show (Finset.univ : Finset (Fin 0)) = ∅ from rfl, BI.bigSep_empty]; iempintro
    isplitl [Ho]; · iexact Ho
    isplitr; · iempintro
    iexact Hz
  hin c := by
    show iprop(_ ∗ _ ∗ Φr1 c) ⊢ Φr1 c
    iintro ⟨-, -, Hr⟩
    iexact Hr
  hout c := by
    rw [Pipeline.ownSems0_none]
    show Φr1 c ⊢ iprop(_ ∗ _ ∗ Φr1 c)
    iintro Hr
    isplitr; · iempintro
    isplitr; · iempintro
    iexact Hr
  hexit c := by
    iintro ⟨Ha, HO, -, Hz⟩
    imodintro
    iapply (exit1 c n (Vfam d V c))
    isplitl [Ha]; · iexact Ha
    isplitl [HO]; · iexact HO
    iexact Hz

set_option maxHeartbeats 4000000 in
/-- The region's custom call in @main runs from the debt and the four arrays to the continuation, which finds the output
    array at whatever the region left and everything else as it was. -/
theorem region_step0 [∀ e, Nonempty (Elt F e)] : RegionStep (F := F) 0 main_v5 main_arg5 main_v6 main_v7 := fun d n V Φ => by
  have h := LibScRegion.wp_region_step (pcfgs (F := F)) adm (K (F := F)) (pdats d n V) cellOf_inj (EP (F := F)) defs₀ 𝒱₀ (reg0 d n V) d Φ
  exact h

set_option backward.isDefEq.respectTransparency.types false in
set_option maxHeartbeats 4000000 in
/-- Region 1 (the pallas_call of layer 1) over the thread state: entered from the debt and its four arrays whole, left
    with the output array at what the write-back left. No semaphore of the kernel's own; nothing rides through the
    invariant but the scoped buffers the body does not touch. -/
def reg1 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 1 where
  win := winFacts₀3
  block_pos := block_pos3
  stage_whole := stage_whole3
  K := PEmpty
  osem k := k.elim
  ho := Pipeline.OwnSemFacts.none _
  hbody c := body_obligation3 𝒱₀ c (Vfam d V c) (Φr3 c) q3 ((K (F := F)).Otc c n) (LibScRegion.rcAt (K (F := F)) c n)
  hwaits c := Pipeline.cellsWaits_intro (Pipeline.pin (pcfgs (F := F)) adm) (pdats d n V) none 1 c
    (fun w s t => (K (F := F)).mayWait_none (.dma _) (LibScRegion.Otc_none (K (F := F)) c n))
  pre c := pre3 c n (Vfam d V c)
  post c := post3 c n (Vfam d V c)
  X _ := iprop(emp)
  Y _ := iprop(emp)
  Z c := Z3 c (Vfam d V c)
  hentry c := by
    rw [Pipeline.ownSems0_none]
    iintro ⟨Hpre, -, -⟩
    ihave H := (entry3 c n (Vfam d V c)) $$ Hpre
    icases H with ⟨Ha, Ho, Hz⟩
    imodintro
    isplitl [Ha]; · iexact Ha
    isplitr; · unfold Pipeline.prefHeld; rw [show (Finset.univ : Finset (Fin 0)) = ∅ from rfl, BI.bigSep_empty]; iempintro
    isplitl [Ho]; · iexact Ho
    isplitr; · iempintro
    iexact Hz
  hin c := by
    show iprop(_ ∗ _ ∗ Φr3 c) ⊢ Φr3 c
    iintro ⟨-, -, Hr⟩
    iexact Hr
  hout c := by
    rw [Pipeline.ownSems0_none]
    show Φr3 c ⊢ iprop(_ ∗ _ ∗ Φr3 c)
    iintro Hr
    isplitr; · iempintro
    isplitr; · iempintro
    iexact Hr
  hexit c := by
    iintro ⟨Ha, HO, -, Hz⟩
    imodintro
    iapply (exit3 c n (Vfam d V c))
    isplitl [Ha]; · iexact Ha
    isplitl [HO]; · iexact HO
    iexact Hz

set_option maxHeartbeats 4000000 in
/-- The region's custom call in @main runs from the debt and the four arrays to the continuation, which finds the output
    array at whatever the region left and everything else as it was. -/
theorem region_step1 [∀ e, Nonempty (Elt F e)] : RegionStep (F := F) 1 main_v10 main_arg6 main_v11 main_v12 := fun d n V Φ => by
  have h := LibScRegion.wp_region_step (pcfgs (F := F)) adm (K (F := F)) (pdats d n V) cellOf_inj (EP (F := F)) defs₀ 𝒱₀ (reg1 d n V) d Φ
  exact h

set_option backward.isDefEq.respectTransparency.types false in
set_option maxHeartbeats 4000000 in
/-- Region 2 (the pallas_call of layer 2) over the thread state: entered from the debt and its four arrays whole, left
    with the output array at what the write-back left. No semaphore of the kernel's own; nothing rides through the
    invariant but the scoped buffers the body does not touch. -/
def reg2 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 2 where
  win := winFacts₀5
  block_pos := block_pos5
  stage_whole := stage_whole5
  K := PEmpty
  osem k := k.elim
  ho := Pipeline.OwnSemFacts.none _
  hbody c := body_obligation5 𝒱₀ c (Vfam d V c) (Φr5 c) q5 ((K (F := F)).Otc c n) (LibScRegion.rcAt (K (F := F)) c n)
  hwaits c := Pipeline.cellsWaits_intro (Pipeline.pin (pcfgs (F := F)) adm) (pdats d n V) none 2 c
    (fun w s t => (K (F := F)).mayWait_none (.dma _) (LibScRegion.Otc_none (K (F := F)) c n))
  pre c := pre5 c n (Vfam d V c)
  post c := post5 c n (Vfam d V c)
  X _ := iprop(emp)
  Y _ := iprop(emp)
  Z c := Z5 c (Vfam d V c)
  hentry c := by
    rw [Pipeline.ownSems0_none]
    iintro ⟨Hpre, -, -⟩
    ihave H := (entry5 c n (Vfam d V c)) $$ Hpre
    icases H with ⟨Ha, Ho, Hz⟩
    imodintro
    isplitl [Ha]; · iexact Ha
    isplitr; · unfold Pipeline.prefHeld; rw [show (Finset.univ : Finset (Fin 0)) = ∅ from rfl, BI.bigSep_empty]; iempintro
    isplitl [Ho]; · iexact Ho
    isplitr; · iempintro
    iexact Hz
  hin c := by
    show iprop(_ ∗ _ ∗ Φr5 c) ⊢ Φr5 c
    iintro ⟨-, -, Hr⟩
    iexact Hr
  hout c := by
    rw [Pipeline.ownSems0_none]
    show Φr5 c ⊢ iprop(_ ∗ _ ∗ Φr5 c)
    iintro Hr
    isplitr; · iempintro
    isplitr; · iempintro
    iexact Hr
  hexit c := by
    iintro ⟨Ha, HO, -, Hz⟩
    imodintro
    iapply (exit5 c n (Vfam d V c))
    isplitl [Ha]; · iexact Ha
    isplitl [HO]; · iexact HO
    iexact Hz

set_option maxHeartbeats 4000000 in
/-- The region's custom call in @main runs from the debt and the four arrays to the continuation, which finds the output
    array at whatever the region left and everything else as it was. -/
theorem region_step2 [∀ e, Nonempty (Elt F e)] : RegionStep (F := F) 2 main_v15 main_arg7 main_v16 main_v17 := fun d n V Φ => by
  have h := LibScRegion.wp_region_step (pcfgs (F := F)) adm (K (F := F)) (pdats d n V) cellOf_inj (EP (F := F)) defs₀ 𝒱₀ (reg2 d n V) d Φ
  exact h

set_option backward.isDefEq.respectTransparency.types false in
set_option maxHeartbeats 4000000 in
/-- Region 3 (the pallas_call of layer 3) over the thread state: entered from the debt and its four arrays whole, left
    with the output array at what the write-back left. No semaphore of the kernel's own; nothing rides through the
    invariant but the scoped buffers the body does not touch. -/
def reg3 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 3 where
  win := winFacts₀7
  block_pos := block_pos7
  stage_whole := stage_whole7
  K := PEmpty
  osem k := k.elim
  ho := Pipeline.OwnSemFacts.none _
  hbody c := body_obligation7 𝒱₀ c (Vfam d V c) (Φr7 c) q7 ((K (F := F)).Otc c n) (LibScRegion.rcAt (K (F := F)) c n)
  hwaits c := Pipeline.cellsWaits_intro (Pipeline.pin (pcfgs (F := F)) adm) (pdats d n V) none 3 c
    (fun w s t => (K (F := F)).mayWait_none (.dma _) (LibScRegion.Otc_none (K (F := F)) c n))
  pre c := pre7 c n (Vfam d V c)
  post c := post7 c n (Vfam d V c)
  X _ := iprop(emp)
  Y _ := iprop(emp)
  Z c := Z7 c (Vfam d V c)
  hentry c := by
    rw [Pipeline.ownSems0_none]
    iintro ⟨Hpre, -, -⟩
    ihave H := (entry7 c n (Vfam d V c)) $$ Hpre
    icases H with ⟨Ha, Ho, Hz⟩
    imodintro
    isplitl [Ha]; · iexact Ha
    isplitr; · unfold Pipeline.prefHeld; rw [show (Finset.univ : Finset (Fin 0)) = ∅ from rfl, BI.bigSep_empty]; iempintro
    isplitl [Ho]; · iexact Ho
    isplitr; · iempintro
    iexact Hz
  hin c := by
    show iprop(_ ∗ _ ∗ Φr7 c) ⊢ Φr7 c
    iintro ⟨-, -, Hr⟩
    iexact Hr
  hout c := by
    rw [Pipeline.ownSems0_none]
    show Φr7 c ⊢ iprop(_ ∗ _ ∗ Φr7 c)
    iintro Hr
    isplitr; · iempintro
    isplitr; · iempintro
    iexact Hr
  hexit c := by
    iintro ⟨Ha, HO, -, Hz⟩
    imodintro
    iapply (exit7 c n (Vfam d V c))
    isplitl [Ha]; · iexact Ha
    isplitl [HO]; · iexact HO
    iexact Hz

set_option maxHeartbeats 4000000 in
/-- The region's custom call in @main runs from the debt and the four arrays to the continuation, which finds the output
    array at whatever the region left and everything else as it was. -/
theorem region_step3 [∀ e, Nonempty (Elt F e)] : RegionStep (F := F) 3 main_v20 main_arg8 main_v21 main_v22 := fun d n V Φ => by
  have h := LibScRegion.wp_region_step (pcfgs (F := F)) adm (K (F := F)) (pdats d n V) cellOf_inj (EP (F := F)) defs₀ 𝒱₀ (reg3 d n V) d Φ
  exact h

end Cert.Proof.KI.Gemv1

end
-- ==== Proof.KbGemvShares.lean ====
import Idealize.ShloMosaic.Lib.Transfers
import proofs.«208418_g89945205112833_cont_sun_c4_809_35_alg».proof.Proof.KbPay

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
open Cert.Proof.KB (UU)

local notation "𝕄" => MT nD τ sig (HIx 4) (Elt F) ℕ UU ℕ
local notation "Tc" => SparseCore.T (nD := nD) (τ := τ)

/-! ## One array read by eight windows: its full share as a remainder and eight read tokens -/

/-- A conjunction over eight indices, one by one. -/
theorem bigSep_Fin8 {M : Type} [URA M] (Φ : Fin 8 → sProp M) : bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_univ_eq_bigSepL [(0 : Fin 8), (1 : Fin 8), (2 : Fin 8), (3 : Fin 8), (4 : Fin 8), (5 : Fin 8), (6 : Fin 8), (7 : Fin 8)] (by decide) (by decide) Φ

/-- A whole buffer at the full share is a remainder and eight read tokens of it, -/
theorem split8 (ℓ : Loc nD τ sig) (f : Buf (Elt F) ℓ) :
    (ℓ ↦{fullShare} f : sProp 𝕄) ⊢ iprop((ℓ ↦{Transfers.shareDrop fullShare 8} f)
      ∗ (ℓ ↦{Transfers.shareTok fullShare 8 0} f) ∗ (ℓ ↦{Transfers.shareTok fullShare 8 1} f) ∗ (ℓ ↦{Transfers.shareTok fullShare 8 2} f) ∗ (ℓ ↦{Transfers.shareTok fullShare 8 3} f)
      ∗ (ℓ ↦{Transfers.shareTok fullShare 8 4} f) ∗ (ℓ ↦{Transfers.shareTok fullShare 8 5} f) ∗ (ℓ ↦{Transfers.shareTok fullShare 8 6} f) ∗ (ℓ ↦{Transfers.shareTok fullShare 8 7} f)) := by
  have h := Transfers.pointsTo_toks_split (nD := nD) (τ := τ) (sig := sig) (Ix := HIx 4) (Val := Elt F) (Name := ℕ) (U := UU) (Lvl := ℕ) (ℓ := ℓ) (S := Finset.univ) (f := f) fullShare 8
  rw [bigSep_Fin8] at h; exact h

/-- and they join back into it. -/
theorem join8 (ℓ : Loc nD τ sig) (f : Buf (Elt F) ℓ) :
    iprop((ℓ ↦{Transfers.shareDrop fullShare 8} f)
      ∗ (ℓ ↦{Transfers.shareTok fullShare 8 0} f) ∗ (ℓ ↦{Transfers.shareTok fullShare 8 1} f) ∗ (ℓ ↦{Transfers.shareTok fullShare 8 2} f) ∗ (ℓ ↦{Transfers.shareTok fullShare 8 3} f)
      ∗ (ℓ ↦{Transfers.shareTok fullShare 8 4} f) ∗ (ℓ ↦{Transfers.shareTok fullShare 8 5} f) ∗ (ℓ ↦{Transfers.shareTok fullShare 8 6} f) ∗ (ℓ ↦{Transfers.shareTok fullShare 8 7} f)) ⊢ (ℓ ↦{fullShare} f : sProp 𝕄) := by
  have h := Transfers.pointsTo_toks_join (nD := nD) (τ := τ) (sig := sig) (Ix := HIx 4) (Val := Elt F) (Name := ℕ) (U := UU) (Lvl := ℕ) (ℓ := ℓ) (S := Finset.univ) (f := f) fullShare 8
  rw [bigSep_Fin8] at h; exact h

end Cert.Proof.KB.Gemv1

end
-- ==== Proof.KbGemv1Conds.lean ====
import proofs.«208418_g89945205112833_cont_sun_c4_809_35_alg».proof.Proof.Gen.Kernel.Launch
import proofs.«208418_g89945205112833_cont_sun_c4_809_35_alg».proof.Proof.Gen.Kernel.Skeleton
import proofs.«208418_g89945205112833_cont_sun_c4_809_35_alg».proof.Proof.Gen.Kernel.Points
import Idealize.ShloMosaic.Lib.Pipeline.FrameBody
import Idealize.ShloMosaic.Lib.Ring
import Idealize.ShloMosaic.Lib.Tactic
import Idealize.ShloMosaic.Lib.SparseCore.Launch

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

/-! ## The body's two conditionals, in closed form over the grid

The body stores the bias into the output block when the grid coordinate is 0 and applies tanh in place when
it is 3; both conditions are comparisons of the coordinate, decided over the four grid points. -/

/-- The first conditional's condition (the coordinate is 0), as the body computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional's condition (the coordinate is 3), as the body computes it. -/
abbrev cond1_1 (i : grid1.Coords) : Prop := (Scalar.cmpi .ne (Scalar.extui (Scalar.cmpi .eq (BitVec.ofNat 32 (i 0).val) 3#32)) 0#32) = 1#1
/-- It holds at the last point only. -/
theorem hcond1_1 : ∀ t : Fin cfg1.N, cond1_1 (grid1.coords t) ↔ t.val % 4 = 3 :=
  (by decide +kernel : ∀ t : Fin grid1.N, cond1_1 (grid1.coords t) ↔ t.val % 4 = 3)

end Cert.Proof.KB.Gemv1

end
-- ==== Proof.KbGemv1RunA.lean ====
import proofs.«208418_g89945205112833_cont_sun_c4_809_35_alg».proof.Proof.KbGemv1Conds

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the first grid point (the bias is stored first; no tanh), with the proof that on whole
    staging memrefs — the gathered row, the eight weight blocks and the bias at their contents, the output's at anything —
    the body runs to the continuation holding the inputs as they were and the output's buffer with those pieces written. -/
noncomputable def kernelRun1_A (𝒱₀ : Variants) (c : Dev nD) (i : grid1.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ d, owns (c : Thread nD τ) arg12 fullShare d)
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc1_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_body_eq_skeleton]; unfold cc1_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv1RunB.lean ====
import proofs.«208418_g89945205112833_cont_sun_c4_809_35_alg».proof.Proof.KbGemv1RunA

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at a middle grid point (neither conditional taken), with the proof that on whole
    staging memrefs — the gathered row, the eight weight blocks and the bias at their contents, the output's at its running contents —
    the body runs to the continuation holding the inputs as they were and the output's buffer with those pieces written. -/
noncomputable def kernelRun1_B (𝒱₀ : Variants) (c : Dev nD) (i : grid1.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc1_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_body_eq_skeleton]; unfold cc1_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv1RunC.lean ====
import proofs.«208418_g89945205112833_cont_sun_c4_809_35_alg».proof.Proof.KbGemv1RunB

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the last grid point (tanh applied at the end), with the proof that on whole
    staging memrefs — the gathered row, the eight weight blocks and the bias at their contents, the output's at its running contents —
    the body runs to the continuation holding the inputs as they were and the output's buffer with those pieces written. -/
noncomputable def kernelRun1_C (𝒱₀ : Variants) (c : Dev nD) (i : grid1.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond1_0 i) (hc1 : cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc1_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc1_body_eq_skeleton]; unfold cc1_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv1Outs.lean ====
import proofs.«208418_g89945205112833_cont_sun_c4_809_35_alg».proof.Proof.KbGemv1RunC

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

/-! ## The staging memrefs at a point, and the output's view -/

/-- One staging buffer of the output window, through which its contents are stated. -/
abbrev VO1 : View sig .tc .vmem S1x4096 .f32 := (Memref.whole cc1_stg10_0 : Memref sig .tc .vmem S1x4096 .f32).view
abbrev ms1_0 (t : Fin cfg1.N) : Memref sig .tc .vmem S1x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x4096 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x4096 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x4096 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S128x4096 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x4096 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S1x4096 .f32 := win1_10.stage (cfg1.slots t 10)
abbrev hs1_10 (t : Fin cfg1.N) : (ms1_10 t).IsWhole := hstage1_10 ((cfg1.slots t 10).cast nbuf1_10)

/-! ## What each control case leaves in the output's staging buffer -/

/-- Case A's pieces tile the output block, so they cover it. -/
theorem cover1_A (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (y : S1x4096.Idx) :
    ∃ pc ∈ (kernelRun1_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1, y ∈ pc.1.set :=
  View.cover_of_tiledL (kernelRun1_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1 S1x4096.size (by sl_kernel_rfl) y

/-- What case A leaves in the output's staging buffer: its pieces read back over junk. -/
def out1_A (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) : Vec F S1x4096 .f32 :=
  VO1.read (Elt F) (VO1.writes (Elt F) VO1.junk (kernelRun1_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1)

/-- Case B's pieces tile the output block, so they cover it. -/
theorem cover1_B (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun1_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun1_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case B leaves in the output's staging buffer: its pieces read back over junk. -/
def out1_B (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO1.read (Elt F) (VO1.writes (Elt F) VO1.junk (kernelRun1_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

/-- Case C's pieces tile the output block, so they cover it. -/
theorem cover1_C (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun1_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun1_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case C leaves in the output's staging buffer: its pieces read back over junk. -/
def out1_C (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO1.read (Elt F) (VO1.writes (Elt F) VO1.junk (kernelRun1_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

section Region
variable (𝒱₀ : Variants) (c : Dev nD) (V : (b : Ref sig .tc) → Buf (Elt F) ((c.tc : Thread nD τ).loc b))

/-! ## The windows' blocks, read off the arrays as the region finds them -/

/-- Window `w`'s block at point `t`, read off its array at the entry contents `V`. -/
def iblk1 (w : Fin cfg1.W) (t : Fin cfg1.N) : ((cfg1.win w).xblock (cfg1.grid.coords t)).Idx → Elt F (cfg1.win w).elt :=
  ((cfg1.win w).blk t).view.read (Elt F) (V (Pipeline.arrRef spec1 w))

/-- Input window 0's current staging buffer holds its block at every point, fetched there or not. -/
theorem before1_0_of (dat : Dat τ (Elt F) (HIx 4) Name U ℕ cfg1 c) (hA : dat.A 0 = V (Pipeline.arrRef spec1 0))
    (hafter : ∀ t, dat.after 0 t = iblk1 c V 0 t) (t : Fin cfg1.N) (d) : dat.before 0 t d = iblk1 c V 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of (dat : Dat τ (Elt F) (HIx 4) Name U ℕ cfg1 c) (hA : dat.A 1 = V (Pipeline.arrRef spec1 1))
    (hafter : ∀ t, dat.after 1 t = iblk1 c V 1 t) (t : Fin cfg1.N) (d) : dat.before 1 t d = iblk1 c V 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of (dat : Dat τ (Elt F) (HIx 4) Name U ℕ cfg1 c) (hA : dat.A 2 = V (Pipeline.arrRef spec1 2))
    (hafter : ∀ t, dat.after 2 t = iblk1 c V 2 t) (t : Fin cfg1.N) (d) : dat.before 2 t d = iblk1 c V 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of (dat : Dat τ (Elt F) (HIx 4) Name U ℕ cfg1 c) (hA : dat.A 3 = V (Pipeline.arrRef spec1 3))
    (hafter : ∀ t, dat.after 3 t = iblk1 c V 3 t) (t : Fin cfg1.N) (d) : dat.before 3 t d = iblk1 c V 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of (dat : Dat τ (Elt F) (HIx 4) Name U ℕ cfg1 c) (hA : dat.A 4 = V (Pipeline.arrRef spec1 4))
    (hafter : ∀ t, dat.after 4 t = iblk1 c V 4 t) (t : Fin cfg1.N) (d) : dat.before 4 t d = iblk1 c V 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of (dat : Dat τ (Elt F) (HIx 4) Name U ℕ cfg1 c) (hA : dat.A 5 = V (Pipeline.arrRef spec1 5))
    (hafter : ∀ t, dat.after 5 t = iblk1 c V 5 t) (t : Fin cfg1.N) (d) : dat.before 5 t d = iblk1 c V 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of (dat : Dat τ (Elt F) (HIx 4) Name U ℕ cfg1 c) (hA : dat.A 6 = V (Pipeline.arrRef spec1 6))
    (hafter : ∀ t, dat.after 6 t = iblk1 c V 6 t) (t : Fin cfg1.N) (d) : dat.before 6 t d = iblk1 c V 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not. -/
theorem before1_7_of (dat : Dat τ (Elt F) (HIx 4) Name U ℕ cfg1 c) (hA : dat.A 7 = V (Pipeline.arrRef spec1 7))
    (hafter : ∀ t, dat.after 7 t = iblk1 c V 7 t) (t : Fin cfg1.N) (d) : dat.before 7 t d = iblk1 c V 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's current staging buffer holds its block at every point, fetched there or not. -/
theorem before1_8_of (dat : Dat τ (Elt F) (HIx 4) Name U ℕ cfg1 c) (hA : dat.A 8 = V (Pipeline.arrRef spec1 8))
    (hafter : ∀ t, dat.after 8 t = iblk1 c V 8 t) (t : Fin cfg1.N) (d) : dat.before 8 t d = iblk1 c V 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's current staging buffer holds its block at every point, fetched there or not. -/
theorem before1_9_of (dat : Dat τ (Elt F) (HIx 4) Name U ℕ cfg1 c) (hA : dat.A 9 = V (Pipeline.arrRef spec1 9))
    (hafter : ∀ t, dat.after 9 t = iblk1 c V 9 t) (t : Fin cfg1.N) (d) : dat.before 9 t d = iblk1 c V 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## What the output's staging buffer holds after each point -/

/-- The accumulation: what the output's staging buffer holds after the body at position `n` — the case the closed
    forms select there, run at the point's memrefs and input blocks, over what the point before left (the buffer
    is not written back between). -/
def outsAt1 : (n : ℕ) → n < cfg1.N → Vec F S1x4096 .f32
  | 0, hn => out1_A (Name := Name) (U := U) 𝒱₀ c (grid1.coords ⟨0, hn⟩) (Memref.whole main_v2) (Memref.isWhole_whole _) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) ((hcond1_0 ⟨0, hn⟩).mpr (Nat.zero_mod _)) (fun h => by have := (hcond1_1 ⟨0, hn⟩).mp h; dsimp only at this; omega) (iblk1 c V 0 ⟨0, hn⟩) (iblk1 c V 1 ⟨0, hn⟩) (iblk1 c V 2 ⟨0, hn⟩) (iblk1 c V 3 ⟨0, hn⟩) (iblk1 c V 4 ⟨0, hn⟩) (iblk1 c V 5 ⟨0, hn⟩) (iblk1 c V 6 ⟨0, hn⟩) (iblk1 c V 7 ⟨0, hn⟩) (iblk1 c V 8 ⟨0, hn⟩) (iblk1 c V 9 ⟨0, hn⟩)
  | n + 1, hn =>
    if h0 : (n + 1) % 4 = 0 then
      out1_A (Name := Name) (U := U) 𝒱₀ c (grid1.coords ⟨n + 1, hn⟩) (Memref.whole main_v2) (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) ((hcond1_0 ⟨n + 1, hn⟩).mpr h0) (fun h => by have := (hcond1_1 ⟨n + 1, hn⟩).mp h; dsimp only at this; omega) (iblk1 c V 0 ⟨n + 1, hn⟩) (iblk1 c V 1 ⟨n + 1, hn⟩) (iblk1 c V 2 ⟨n + 1, hn⟩) (iblk1 c V 3 ⟨n + 1, hn⟩) (iblk1 c V 4 ⟨n + 1, hn⟩) (iblk1 c V 5 ⟨n + 1, hn⟩) (iblk1 c V 6 ⟨n + 1, hn⟩) (iblk1 c V 7 ⟨n + 1, hn⟩) (iblk1 c V 8 ⟨n + 1, hn⟩) (iblk1 c V 9 ⟨n + 1, hn⟩)
    else if h3 : (n + 1) % 4 = 3 then
      out1_C (Name := Name) (U := U) 𝒱₀ c (grid1.coords ⟨n + 1, hn⟩) (Memref.whole main_v2) (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) ((hcond1_1 ⟨n + 1, hn⟩).mpr h3) (iblk1 c V 0 ⟨n + 1, hn⟩) (iblk1 c V 1 ⟨n + 1, hn⟩) (iblk1 c V 2 ⟨n + 1, hn⟩) (iblk1 c V 3 ⟨n + 1, hn⟩) (iblk1 c V 4 ⟨n + 1, hn⟩) (iblk1 c V 5 ⟨n + 1, hn⟩) (iblk1 c V 6 ⟨n + 1, hn⟩) (iblk1 c V 7 ⟨n + 1, hn⟩) (iblk1 c V 8 ⟨n + 1, hn⟩) (iblk1 c V 9 ⟨n + 1, hn⟩) (outsAt1 n (Nat.lt_of_succ_lt hn))
    else
      out1_B (Name := Name) (U := U) 𝒱₀ c (grid1.coords ⟨n + 1, hn⟩) (Memref.whole main_v2) (Memref.isWhole_whole _) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (fun h => h0 ((hcond1_0 ⟨n + 1, hn⟩).mp h)) (fun h => h3 ((hcond1_1 ⟨n + 1, hn⟩).mp h)) (iblk1 c V 0 ⟨n + 1, hn⟩) (iblk1 c V 1 ⟨n + 1, hn⟩) (iblk1 c V 2 ⟨n + 1, hn⟩) (iblk1 c V 3 ⟨n + 1, hn⟩) (iblk1 c V 4 ⟨n + 1, hn⟩) (iblk1 c V 5 ⟨n + 1, hn⟩) (iblk1 c V 6 ⟨n + 1, hn⟩) (iblk1 c V 7 ⟨n + 1, hn⟩) (iblk1 c V 8 ⟨n + 1, hn⟩) (iblk1 c V 9 ⟨n + 1, hn⟩) (outsAt1 n (Nat.lt_of_succ_lt hn))

/-- `outsAt1` at a point of case A. -/
theorem outsAt1_A (t : Fin cfg1.N) (h0 : t.val % 4 = 0) :
    outsAt1 (Name := Name) (U := U) 𝒱₀ c V t.val t.isLt = out1_A (Name := Name) (U := U) 𝒱₀ c (grid1.coords t) (Memref.whole main_v2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (fun h => by have := (hcond1_1 t).mp h; omega) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) := by
  obtain ⟨n, hn⟩ := t
  cases n with
  | zero => exact rfl
  | succ n => exact (dif_pos h0).trans rfl

/-- `outsAt1` at a point of case C: over what the point before left. -/
theorem outsAt1_C (t : Fin cfg1.N) (h0 : ¬t.val % 4 = 0) (h3 : t.val % 4 = 3) :
    outsAt1 (Name := Name) (U := U) 𝒱₀ c V t.val t.isLt = out1_C (Name := Name) (U := U) 𝒱₀ c (grid1.coords t) (Memref.whole main_v2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) ((hcond1_1 t).mpr h3) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) (outsAt1 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- `outsAt1` at a point of case B: over what the point before left. -/
theorem outsAt1_B (t : Fin cfg1.N) (h0 : ¬t.val % 4 = 0) (h3 : ¬t.val % 4 = 3) :
    outsAt1 (Name := Name) (U := U) 𝒱₀ c V t.val t.isLt = out1_B (Name := Name) (U := U) 𝒱₀ c (grid1.coords t) (Memref.whole main_v2) (Memref.isWhole_whole _) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (fun h => h3 ((hcond1_1 t).mp h)) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) (outsAt1 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

end Region

end Cert.Proof.KB.Gemv1

end
-- ==== Proof.KbGemv1Frame.lean ====
import proofs.«208418_g89945205112833_cont_sun_c4_809_35_alg».proof.Proof.KbGemv1Outs

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

section Region
variable (𝒱₀ : Variants) (c : Dev nD) (V : (b : Ref sig .tc) → Buf (Elt F) ((c.tc : Thread nD τ).loc b))

/-! ## The pipeline's proof data -/

/-- The proof data of this pipeline on core `c`: the arrays as the region finds them (`V`); after the body at point
    `t` each input's buffer at its block and the output's at `outsAt1`; a constant invariant `Φ₀` the body does
    not read; the input shares `q₀`; constant tallies `owed₀` and recorded bound `rec₀` (the body neither signals
    nor waits). -/
def dat1 (Φ₀ : sProp 𝕄) (q₀ : Fin cfg1.W → PosShare TreeShare) (owed₀ : CellTallies nD τ sig (HIx 4)) (rec₀ : Set (SemLoc sig × HIx 4)) : Dat τ (Elt F) (HIx 4) Name U ℕ cfg1 c where
  A w := V (Pipeline.arrRef spec1 w)
  after w t := match w with
    | ⟨0, _⟩ => iblk1 c V 0 t
    | ⟨1, _⟩ => iblk1 c V 1 t
    | ⟨2, _⟩ => iblk1 c V 2 t
    | ⟨3, _⟩ => iblk1 c V 3 t
    | ⟨4, _⟩ => iblk1 c V 4 t
    | ⟨5, _⟩ => iblk1 c V 5 t
    | ⟨6, _⟩ => iblk1 c V 6 t
    | ⟨7, _⟩ => iblk1 c V 7 t
    | ⟨8, _⟩ => iblk1 c V 8 t
    | ⟨9, _⟩ => iblk1 c V 9 t
    | ⟨10, _⟩ => outsAt1 (Name := Name) (U := U) 𝒱₀ c V t.val t.isLt
  Φ _ := Φ₀
  q := q₀
  owed _ := owed₀
  recorded _ := rec₀

/-- The proof data's arrays are the region-entry contents. -/
theorem A_eq1 (Φ₀ : sProp 𝕄) (q₀ : Fin cfg1.W → PosShare TreeShare) (owed₀ : CellTallies nD τ sig (HIx 4)) (rec₀ : Set (SemLoc sig × HIx 4)) (w : Fin cfg1.W) : (dat1 𝒱₀ c V Φ₀ q₀ owed₀ rec₀).A w = V (Pipeline.arrRef spec1 w) := by
  dsimp only [dat1]

theorem after1_0 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 0 t = iblk1 c V 0 t := by dsimp only [dat1]
theorem after1_1 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 1 t = iblk1 c V 1 t := by dsimp only [dat1]
theorem after1_2 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 2 t = iblk1 c V 2 t := by dsimp only [dat1]
theorem after1_3 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 3 t = iblk1 c V 3 t := by dsimp only [dat1]
theorem after1_4 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 4 t = iblk1 c V 4 t := by dsimp only [dat1]
theorem after1_5 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 5 t = iblk1 c V 5 t := by dsimp only [dat1]
theorem after1_6 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 6 t = iblk1 c V 6 t := by dsimp only [dat1]
theorem after1_7 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 7 t = iblk1 c V 7 t := by dsimp only [dat1]
theorem after1_8 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 8 t = iblk1 c V 8 t := by dsimp only [dat1]
theorem after1_9 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 9 t = iblk1 c V 9 t := by dsimp only [dat1]
theorem after1_10 (Φ₀ : sProp 𝕄) (q₀ : Fin cfg1.W → PosShare TreeShare) (owed₀ : CellTallies nD τ sig (HIx 4)) (rec₀ : Set (SemLoc sig × HIx 4)) (t : Fin cfg1.N) : (dat1 𝒱₀ c V Φ₀ q₀ owed₀ rec₀).after 10 t = outsAt1 (Name := Name) (U := U) 𝒱₀ c V t.val t.isLt := by dsimp only [dat1]

theorem before1_0 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 0 t d = iblk1 c V 0 t :=
  before1_0_of c V (dat1 𝒱₀ c V Φ₀ q₀ owed₀ rec₀) (A_eq1 𝒱₀ c V Φ₀ q₀ owed₀ rec₀ 0) (after1_0 𝒱₀ c V Φ₀ q₀ owed₀ rec₀) t d
theorem before1_1 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 1 t d = iblk1 c V 1 t :=
  before1_1_of c V (dat1 𝒱₀ c V Φ₀ q₀ owed₀ rec₀) (A_eq1 𝒱₀ c V Φ₀ q₀ owed₀ rec₀ 1) (after1_1 𝒱₀ c V Φ₀ q₀ owed₀ rec₀) t d
theorem before1_2 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 2 t d = iblk1 c V 2 t :=
  before1_2_of c V (dat1 𝒱₀ c V Φ₀ q₀ owed₀ rec₀) (A_eq1 𝒱₀ c V Φ₀ q₀ owed₀ rec₀ 2) (after1_2 𝒱₀ c V Φ₀ q₀ owed₀ rec₀) t d
theorem before1_3 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 3 t d = iblk1 c V 3 t :=
  before1_3_of c V (dat1 𝒱₀ c V Φ₀ q₀ owed₀ rec₀) (A_eq1 𝒱₀ c V Φ₀ q₀ owed₀ rec₀ 3) (after1_3 𝒱₀ c V Φ₀ q₀ owed₀ rec₀) t d
theorem before1_4 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 4 t d = iblk1 c V 4 t :=
  before1_4_of c V (dat1 𝒱₀ c V Φ₀ q₀ owed₀ rec₀) (A_eq1 𝒱₀ c V Φ₀ q₀ owed₀ rec₀ 4) (after1_4 𝒱₀ c V Φ₀ q₀ owed₀ rec₀) t d
theorem before1_5 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 5 t d = iblk1 c V 5 t :=
  before1_5_of c V (dat1 𝒱₀ c V Φ₀ q₀ owed₀ rec₀) (A_eq1 𝒱₀ c V Φ₀ q₀ owed₀ rec₀ 5) (after1_5 𝒱₀ c V Φ₀ q₀ owed₀ rec₀) t d
theorem before1_6 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 6 t d = iblk1 c V 6 t :=
  before1_6_of c V (dat1 𝒱₀ c V Φ₀ q₀ owed₀ rec₀) (A_eq1 𝒱₀ c V Φ₀ q₀ owed₀ rec₀ 6) (after1_6 𝒱₀ c V Φ₀ q₀ owed₀ rec₀) t d
theorem before1_7 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 7 t d = iblk1 c V 7 t :=
  before1_7_of c V (dat1 𝒱₀ c V Φ₀ q₀ owed₀ rec₀) (A_eq1 𝒱₀ c V Φ₀ q₀ owed₀ rec₀ 7) (after1_7 𝒱₀ c V Φ₀ q₀ owed₀ rec₀) t d
theorem before1_8 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 8 t d = iblk1 c V 8 t :=
  before1_8_of c V (dat1 𝒱₀ c V Φ₀ q₀ owed₀ rec₀) (A_eq1 𝒱₀ c V Φ₀ q₀ owed₀ rec₀ 8) (after1_8 𝒱₀ c V Φ₀ q₀ owed₀ rec₀) t d
theorem before1_9 (Φ₀ : sProp 𝕄) (q₀ : Fin cfg1.W → PosShare TreeShare) (owed₀ : CellTallies nD τ sig (HIx 4)) (rec₀ : Set (SemLoc sig × HIx 4)) (t : Fin cfg1.N) (d) : (dat1 𝒱₀ c V Φ₀ q₀ owed₀ rec₀).before 9 t d = iblk1 c V 9 t :=
  before1_9_of c V (dat1 𝒱₀ c V Φ₀ q₀ owed₀ rec₀) (A_eq1 𝒱₀ c V Φ₀ q₀ owed₀ rec₀ 9) (after1_9 𝒱₀ c V Φ₀ q₀ owed₀ rec₀) t d

/-- After the first point the output's current staging buffer holds what the body left at the point before: the
    buffer is written back at the last point only. -/
theorem before1_10_kept (Φ₀ : sProp 𝕄) (q₀ : Fin cfg1.W → PosShare TreeShare) (owed₀ : CellTallies nD τ sig (HIx 4)) (rec₀ : Set (SemLoc sig × HIx 4)) (t : Fin cfg1.N) (h0 : ¬t.val % 4 = 0) (d) :
    (dat1 𝒱₀ c V Φ₀ q₀ owed₀ rec₀).before 10 t d = outsAt1 (Name := Name) (U := U) 𝒱₀ c V (t.val - 1) (Nat.lt_of_le_of_lt (Nat.sub_le _ _) t.isLt) := by
  have hN : t.val < 4 := lt_of_lt_of_eq t.isLt (show cfg1.N = 4 from N_1)
  rw [Dat.before_out_kept _ 10 rfl t (by omega) (Bool.eq_false_iff.mpr fun h => by have := (flush1_10 _).mp h; dsimp only at this; omega)
    (fun _ => rfl) (fun _ _ => rfl)]
  dsimp only [dat1]

/-! ## The body obligation, at a generic point -/

/-- What the body is called with at point `t`, the windows one by one, -/
def bodyPre1 (Φ₀ : sProp 𝕄) (q₀ : Fin cfg1.W → PosShare TreeShare) (owed₀ : CellTallies nD τ sig (HIx 4)) (rec₀ : Set (SemLoc sig × HIx 4)) (t : Fin cfg1.N) : sProp 𝕄 :=
  iprop((dat1 𝒱₀ c V Φ₀ q₀ owed₀ rec₀).Φ t.castSucc ∗ (dat1 𝒱₀ c V Φ₀ q₀ owed₀ rec₀).owesAt none t.castSucc
    ∗ (∃ d, owns (c : Thread nD τ) (ms1_0 t) fullShare ((dat1 𝒱₀ c V Φ₀ q₀ owed₀ rec₀).before 0 t d))
    ∗ (∃ d, owns (c : Thread nD τ) (ms1_1 t) fullShare ((dat1 𝒱₀ c V Φ₀ q₀ owed₀ rec₀).before 1 t d))
    ∗ (∃ d, owns (c : Thread nD τ) (ms1_2 t) fullShare ((dat1 𝒱₀ c V Φ₀ q₀ owed₀ rec₀).before 2 t d))
    ∗ (∃ d, owns (c : Thread nD τ) (ms1_3 t) fullShare ((dat1 𝒱₀ c V Φ₀ q₀ owed₀ rec₀).before 3 t d))
    ∗ (∃ d, owns (c : Thread nD τ) (ms1_4 t) fullShare ((dat1 𝒱₀ c V Φ₀ q₀ owed₀ rec₀).before 4 t d))
    ∗ (∃ d, owns (c : Thread nD τ) (ms1_5 t) fullShare ((dat1 𝒱₀ c V Φ₀ q₀ owed₀ rec₀).before 5 t d))
    ∗ (∃ d, owns (c : Thread nD τ) (ms1_6 t) fullShare ((dat1 𝒱₀ c V Φ₀ q₀ owed₀ rec₀).before 6 t d))
    ∗ (∃ d, owns (c : Thread nD τ) (ms1_7 t) fullShare ((dat1 𝒱₀ c V Φ₀ q₀ owed₀ rec₀).before 7 t d))
    ∗ (∃ d, owns (c : Thread nD τ) (ms1_8 t) fullShare ((dat1 𝒱₀ c V Φ₀ q₀ owed₀ rec₀).before 8 t d))
    ∗ (∃ d, owns (c : Thread nD τ) (ms1_9 t) fullShare ((dat1 𝒱₀ c V Φ₀ q₀ owed₀ rec₀).before 9 t d))
    ∗ (∃ d, owns (c : Thread nD τ) (ms1_10 t) fullShare ((dat1 𝒱₀ c V Φ₀ q₀ owed₀ rec₀).before 10 t d)))

/-- and what it returns. -/
def bodyPost1 (Φ₀ : sProp 𝕄) (q₀ : Fin cfg1.W → PosShare TreeShare) (owed₀ : CellTallies nD τ sig (HIx 4)) (rec₀ : Set (SemLoc sig × HIx 4)) (t : Fin cfg1.N) : sProp 𝕄 :=
  iprop((dat1 𝒱₀ c V Φ₀ q₀ owed₀ rec₀).Φ t.succ ∗ (dat1 𝒱₀ c V Φ₀ q₀ owed₀ rec₀).owesAt none t.succ
    ∗ owns (c : Thread nD τ) (ms1_0 t) fullShare ((dat1 𝒱₀ c V Φ₀ q₀ owed₀ rec₀).after 0 t)
    ∗ owns (c : Thread nD τ) (ms1_1 t) fullShare ((dat1 𝒱₀ c V Φ₀ q₀ owed₀ rec₀).after 1 t)
    ∗ owns (c : Thread nD τ) (ms1_2 t) fullShare ((dat1 𝒱₀ c V Φ₀ q₀ owed₀ rec₀).after 2 t)
    ∗ owns (c : Thread nD τ) (ms1_3 t) fullShare ((dat1 𝒱₀ c V Φ₀ q₀ owed₀ rec₀).after 3 t)
    ∗ owns (c : Thread nD τ) (ms1_4 t) fullShare ((dat1 𝒱₀ c V Φ₀ q₀ owed₀ rec₀).after 4 t)
    ∗ owns (c : Thread nD τ) (ms1_5 t) fullShare ((dat1 𝒱₀ c V Φ₀ q₀ owed₀ rec₀).after 5 t)
    ∗ owns (c : Thread nD τ) (ms1_6 t) fullShare ((dat1 𝒱₀ c V Φ₀ q₀ owed₀ rec₀).after 6 t)
    ∗ owns (c : Thread nD τ) (ms1_7 t) fullShare ((dat1 𝒱₀ c V Φ₀ q₀ owed₀ rec₀).after 7 t)
    ∗ owns (c : Thread nD τ) (ms1_8 t) fullShare ((dat1 𝒱₀ c V Φ₀ q₀ owed₀ rec₀).after 8 t)
    ∗ owns (c : Thread nD τ) (ms1_9 t) fullShare ((dat1 𝒱₀ c V Φ₀ q₀ owed₀ rec₀).after 9 t)
    ∗ owns (c : Thread nD τ) (ms1_10 t) fullShare ((dat1 𝒱₀ c V Φ₀ q₀ owed₀ rec₀).after 10 t))

set_option maxHeartbeats 1600000 in
/-- The body at any point: the inputs' memrefs hold their blocks; the closed forms say which case the point is in, and
    after the first point the output's buffer holds what the point before left; so the case's run applies; the
    invariant and what the core owes pass through unread. -/
theorem sound_body1 (Φ₀ : sProp 𝕄) (q₀ : Fin cfg1.W → PosShare TreeShare) (owed₀ : CellTallies nD τ sig (HIx 4)) (rec₀ : Set (SemLoc sig × HIx 4)) (t : Fin cfg1.N) :
    bodyPre1 (Name := Name) (U := U) 𝒱₀ c V Φ₀ q₀ owed₀ rec₀ t ⊢ wp frame (wpE (defs₀ (F := F)) 𝒱₀ c none) Set.univ (bodyAt1 t) (fun _ => bodyPost1 (Name := Name) (U := U) 𝒱₀ c V Φ₀ q₀ owed₀ rec₀ t) := by
  unfold bodyPre1 bodyPost1 bodyAt1
  simp only [before1_0, before1_1, before1_2, before1_3, before1_4, before1_5, before1_6, before1_7, before1_8, before1_9]
  rw [show (dat1 𝒱₀ c V Φ₀ q₀ owed₀ rec₀).Φ t.succ = (dat1 𝒱₀ c V Φ₀ q₀ owed₀ rec₀).Φ t.castSucc from rfl,
    show (dat1 𝒱₀ c V Φ₀ q₀ owed₀ rec₀).owesAt none t.succ = (dat1 𝒱₀ c V Φ₀ q₀ owed₀ rec₀).owesAt none t.castSucc from rfl,
    after1_0, after1_1, after1_2, after1_3, after1_4, after1_5, after1_6, after1_7, after1_8, after1_9, after1_10]
  have hN : t.val < 4 := lt_of_lt_of_eq t.isLt (show cfg1.N = 4 from N_1)
  by_cases h0 : t.val % 4 = 0
  ·
    rw [outsAt1_A 𝒱₀ c V t h0]
    unfold out1_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun1_A (Name := Name) (U := U) 𝒱₀ c (grid1.coords t) _ _ _ _ _ _ _ _ _ _ _ _ _ _ _ _ _ _ _ _ _ _ _ _ ((hcond1_0 t).mpr h0) (fun h => by have := (hcond1_1 t).mp h; omega) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover1_A 𝒱₀ c _ _ _ _ _ _ _ _ _ _ _ _ _ _ _ _ _ _ _ _ _ _ _ _ _ _ _ _ _ _ _ _ _ _ _ _ _)
  · by_cases h3 : t.val % 4 = 3
    ·
      rw [outsAt1_C 𝒱₀ c V t h0 h3]
      simp only [before1_10_kept 𝒱₀ c V Φ₀ q₀ owed₀ rec₀ t h0]
      unfold out1_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_C (Name := Name) (U := U) 𝒱₀ c (grid1.coords t) _ _ _ _ _ _ _ _ _ _ _ _ _ _ _ _ _ _ _ _ _ _ _ _ (fun h => h0 ((hcond1_0 t).mp h)) ((hcond1_1 t).mpr h3) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_C 𝒱₀ c _ _ _ _ _ _ _ _ _ _ _ _ _ _ _ _ _ _ _ _ _ _ _ _ _ _ _ _ _ _ _ _ _ _ _ _ _ _)
    ·
      rw [outsAt1_B 𝒱₀ c V t h0 h3]
      simp only [before1_10_kept 𝒱₀ c V Φ₀ q₀ owed₀ rec₀ t h0]
      unfold out1_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B (Name := Name) (U := U) 𝒱₀ c (grid1.coords t) _ _ _ _ _ _ _ _ _ _ _ _ _ _ _ _ _ _ _ _ _ _ _ _ (fun h => h0 ((hcond1_0 t).mp h)) (fun h => h3 ((hcond1_1 t).mp h)) (iblk1 c V 0 t) (iblk1 c V 1 t) (iblk1 c V 2 t) (iblk1 c V 3 t) (iblk1 c V 4 t) (iblk1 c V 5 t) (iblk1 c V 6 t) (iblk1 c V 7 t) (iblk1 c V 8 t) (iblk1 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_B 𝒱₀ c _ _ _ _ _ _ _ _ _ _ _ _ _ _ _ _ _ _ _ _ _ _ _ _ _ _ _ _ _ _ _ _ _ _ _ _ _ _)

/-- The library's body obligation, at every point. -/
theorem body_obligation1_exact (Φ₀ : sProp 𝕄) (q₀ : Fin cfg1.W → PosShare TreeShare) (owed₀ : CellTallies nD τ sig (HIx 4)) (rec₀ : Set (SemLoc sig × HIx 4)) : BodyObligation (dat1 (F := F) (Name := Name) (U := U) 𝒱₀ c V Φ₀ q₀ owed₀ rec₀) (defs₀ (F := F)) 𝒱₀ none Set.univ := fun t => by
  rw [bigSep_W1, bigSep_W1]
  exact sound_body1 𝒱₀ c V Φ₀ q₀ owed₀ rec₀ t

/-- The body obligation as the pipeline's loop uses it. -/
theorem body_obligation1 (Φ₀ : sProp 𝕄) (q₀ : Fin cfg1.W → PosShare TreeShare) (owed₀ : CellTallies nD τ sig (HIx 4)) (rec₀ : Set (SemLoc sig × HIx 4)) : BodyObligationLoose (dat1 (F := F) (Name := Name) (U := U) 𝒱₀ c V Φ₀ q₀ owed₀ rec₀) (defs₀ (F := F)) 𝒱₀ none Set.univ :=
  (body_obligation1_exact 𝒱₀ c V Φ₀ q₀ owed₀ rec₀).loose

end Region

end Cert.Proof.KB.Gemv1

end
-- ==== Proof.KbGemv1Entry.lean ====
import proofs.«208418_g89945205112833_cont_sun_c4_809_35_alg».proof.Proof.KbPay
import proofs.«208418_g89945205112833_cont_sun_c4_809_35_alg».proof.Proof.LibScRegion
import proofs.«208418_g89945205112833_cont_sun_c4_809_35_alg».proof.Proof.LibReadShares
import proofs.«208418_g89945205112833_cont_sun_c4_809_35_alg».proof.Proof.KbGemvShares
import proofs.«208418_g89945205112833_cont_sun_c4_809_35_alg».proof.Proof.KbGemv1Frame

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
open Cert.Proof.KB (K 𝒱₀ 𝒱 D EP UU)
open Cert.Proof

local notation "𝕄" => MT nD τ sig (HIx 4) (Elt F) ℕ UU ℕ
local notation "Tc" => SparseCore.T (nD := nD) (τ := τ)

/-! ## The region's proof data at the call site, and its entry and exit -/

/-- The share each input window holds of its array: the gathered row and the bias whole; the eight weight windows, which
    stage one array, one read token each of its full share (the remainder bypasses the region). -/
def q1 : Fin cfg1.W → PosShare TreeShare
  | ⟨0, _⟩ => fullShare
  | ⟨1, _⟩ => Transfers.shareTok fullShare 8 0
  | ⟨2, _⟩ => Transfers.shareTok fullShare 8 1
  | ⟨3, _⟩ => Transfers.shareTok fullShare 8 2
  | ⟨4, _⟩ => Transfers.shareTok fullShare 8 3
  | ⟨5, _⟩ => Transfers.shareTok fullShare 8 4
  | ⟨6, _⟩ => Transfers.shareTok fullShare 8 5
  | ⟨7, _⟩ => Transfers.shareTok fullShare 8 6
  | ⟨8, _⟩ => Transfers.shareTok fullShare 8 7
  | ⟨9, _⟩ => fullShare
  | ⟨10, _⟩ => fullShare

/-- The invariant the body passes through unread: the core's scoped buffers that are no staging buffer. -/
def Φr1 (c : Dev nD) : sProp 𝕄 := Pipeline.scopedRest (Ix := HIx 4) (Name := ℕ) (U := UU) (Lvl := ℕ) (Val := Elt F) spec1 c

/-- The region's proof data on core `c` before call `n`, at entry contents `V`: the debt carried unchanged. -/
def rdat1 (c : Dev nD) (n : ℕ) (V : (b : Ref sig .tc) → Buf (Elt F) ((c.tc : Thread nD τ).loc b)) : Dat τ (Elt F) (HIx 4) ℕ UU ℕ cfg1 c :=
  dat1 (Name := ℕ) (U := UU) 𝒱₀ c V (Φr1 c) q1 ((K (F := F)).Otc c n) (LibScRegion.rcAt (K (F := F)) c n)

/-- What the region is entered from: the debt with its bound, and the four arrays whole. -/
def pre1 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v5) ↦{fullShare} V main_v5) ∗ (((Tc c).loc main_arg5) ↦{fullShare} V main_arg5) ∗ (((Tc c).loc main_v6) ↦{fullShare} V main_v6) ∗ (((Tc c).loc main_v7) ↦{fullShare} V main_v7))

/-- What it leaves: the same, the output array at whatever the region wrote. -/
def post1 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v5) ↦{fullShare} V main_v5) ∗ (((Tc c).loc main_arg5) ↦{fullShare} V main_arg5) ∗ (((Tc c).loc main_v6) ↦{fullShare} V main_v6) ∗ (∃ f, ((Tc c).loc main_v7) ↦{fullShare} f))

/-- The weights' share that bypasses the region. -/
def Z1 (c : Dev nD) (V : (b : Ref sig .tc) → Buf (Elt F) ((Tc c).loc b)) : sProp 𝕄 :=
  ((Tc c).loc main_arg5) ↦{Transfers.shareDrop fullShare 8} V main_arg5

/-! ### Each window's array, as the whole buffer behind it at the window's share -/

theorem arrPt1_0 (c : Dev nD) (n : ℕ) (V : (b : Ref sig .tc) → Buf (Elt F) ((Tc c).loc b)) (X : Buf (Elt F) ((cfg1.win 0).arr.view.loc (c.tc : Thread nD τ))) :
    ((cfg1.win 0).arr.view.loc (c.tc : Thread nD τ) ↦[(cfg1.win 0).arr.view.set]{(rdat1 c n V).share 0} X : sProp 𝕄)
      = (((Tc c).loc main_v5) ↦{fullShare} X) := by
  have h : (cfg1.win 0).arr.IsWhole := arr_whole1 0
  rw [h.set_eq_univ]; rfl

theorem arrPt1_1 (c : Dev nD) (n : ℕ) (V : (b : Ref sig .tc) → Buf (Elt F) ((Tc c).loc b)) (X : Buf (Elt F) ((cfg1.win 1).arr.view.loc (c.tc : Thread nD τ))) :
    ((cfg1.win 1).arr.view.loc (c.tc : Thread nD τ) ↦[(cfg1.win 1).arr.view.set]{(rdat1 c n V).share 1} X : sProp 𝕄)
      = (((Tc c).loc main_arg5) ↦{Transfers.shareTok fullShare 8 0} X) := by
  have h : (cfg1.win 1).arr.IsWhole := arr_whole1 1
  rw [h.set_eq_univ]; rfl

theorem arrPt1_2 (c : Dev nD) (n : ℕ) (V : (b : Ref sig .tc) → Buf (Elt F) ((Tc c).loc b)) (X : Buf (Elt F) ((cfg1.win 2).arr.view.loc (c.tc : Thread nD τ))) :
    ((cfg1.win 2).arr.view.loc (c.tc : Thread nD τ) ↦[(cfg1.win 2).arr.view.set]{(rdat1 c n V).share 2} X : sProp 𝕄)
      = (((Tc c).loc main_arg5) ↦{Transfers.shareTok fullShare 8 1} X) := by
  have h : (cfg1.win 2).arr.IsWhole := arr_whole1 2
  rw [h.set_eq_univ]; rfl

theorem arrPt1_3 (c : Dev nD) (n : ℕ) (V : (b : Ref sig .tc) → Buf (Elt F) ((Tc c).loc b)) (X : Buf (Elt F) ((cfg1.win 3).arr.view.loc (c.tc : Thread nD τ))) :
    ((cfg1.win 3).arr.view.loc (c.tc : Thread nD τ) ↦[(cfg1.win 3).arr.view.set]{(rdat1 c n V).share 3} X : sProp 𝕄)
      = (((Tc c).loc main_arg5) ↦{Transfers.shareTok fullShare 8 2} X) := by
  have h : (cfg1.win 3).arr.IsWhole := arr_whole1 3
  rw [h.set_eq_univ]; rfl

theorem arrPt1_4 (c : Dev nD) (n : ℕ) (V : (b : Ref sig .tc) → Buf (Elt F) ((Tc c).loc b)) (X : Buf (Elt F) ((cfg1.win 4).arr.view.loc (c.tc : Thread nD τ))) :
    ((cfg1.win 4).arr.view.loc (c.tc : Thread nD τ) ↦[(cfg1.win 4).arr.view.set]{(rdat1 c n V).share 4} X : sProp 𝕄)
      = (((Tc c).loc main_arg5) ↦{Transfers.shareTok fullShare 8 3} X) := by
  have h : (cfg1.win 4).arr.IsWhole := arr_whole1 4
  rw [h.set_eq_univ]; rfl

theorem arrPt1_5 (c : Dev nD) (n : ℕ) (V : (b : Ref sig .tc) → Buf (Elt F) ((Tc c).loc b)) (X : Buf (Elt F) ((cfg1.win 5).arr.view.loc (c.tc : Thread nD τ))) :
    ((cfg1.win 5).arr.view.loc (c.tc : Thread nD τ) ↦[(cfg1.win 5).arr.view.set]{(rdat1 c n V).share 5} X : sProp 𝕄)
      = (((Tc c).loc main_arg5) ↦{Transfers.shareTok fullShare 8 4} X) := by
  have h : (cfg1.win 5).arr.IsWhole := arr_whole1 5
  rw [h.set_eq_univ]; rfl

theorem arrPt1_6 (c : Dev nD) (n : ℕ) (V : (b : Ref sig .tc) → Buf (Elt F) ((Tc c).loc b)) (X : Buf (Elt F) ((cfg1.win 6).arr.view.loc (c.tc : Thread nD τ))) :
    ((cfg1.win 6).arr.view.loc (c.tc : Thread nD τ) ↦[(cfg1.win 6).arr.view.set]{(rdat1 c n V).share 6} X : sProp 𝕄)
      = (((Tc c).loc main_arg5) ↦{Transfers.shareTok fullShare 8 5} X) := by
  have h : (cfg1.win 6).arr.IsWhole := arr_whole1 6
  rw [h.set_eq_univ]; rfl

theorem arrPt1_7 (c : Dev nD) (n : ℕ) (V : (b : Ref sig .tc) → Buf (Elt F) ((Tc c).loc b)) (X : Buf (Elt F) ((cfg1.win 7).arr.view.loc (c.tc : Thread nD τ))) :
    ((cfg1.win 7).arr.view.loc (c.tc : Thread nD τ) ↦[(cfg1.win 7).arr.view.set]{(rdat1 c n V).share 7} X : sProp 𝕄)
      = (((Tc c).loc main_arg5) ↦{Transfers.shareTok fullShare 8 6} X) := by
  have h : (cfg1.win 7).arr.IsWhole := arr_whole1 7
  rw [h.set_eq_univ]; rfl

theorem arrPt1_8 (c : Dev nD) (n : ℕ) (V : (b : Ref sig .tc) → Buf (Elt F) ((Tc c).loc b)) (X : Buf (Elt F) ((cfg1.win 8).arr.view.loc (c.tc : Thread nD τ))) :
    ((cfg1.win 8).arr.view.loc (c.tc : Thread nD τ) ↦[(cfg1.win 8).arr.view.set]{(rdat1 c n V).share 8} X : sProp 𝕄)
      = (((Tc c).loc main_arg5) ↦{Transfers.shareTok fullShare 8 7} X) := by
  have h : (cfg1.win 8).arr.IsWhole := arr_whole1 8
  rw [h.set_eq_univ]; rfl

theorem arrPt1_9 (c : Dev nD) (n : ℕ) (V : (b : Ref sig .tc) → Buf (Elt F) ((Tc c).loc b)) (X : Buf (Elt F) ((cfg1.win 9).arr.view.loc (c.tc : Thread nD τ))) :
    ((cfg1.win 9).arr.view.loc (c.tc : Thread nD τ) ↦[(cfg1.win 9).arr.view.set]{(rdat1 c n V).share 9} X : sProp 𝕄)
      = (((Tc c).loc main_v6) ↦{fullShare} X) := by
  have h : (cfg1.win 9).arr.IsWhole := arr_whole1 9
  rw [h.set_eq_univ]; rfl

theorem arrPt1_10 (c : Dev nD) (n : ℕ) (V : (b : Ref sig .tc) → Buf (Elt F) ((Tc c).loc b)) (X : Buf (Elt F) ((cfg1.win 10).arr.view.loc (c.tc : Thread nD τ))) :
    ((cfg1.win 10).arr.view.loc (c.tc : Thread nD τ) ↦[(cfg1.win 10).arr.view.set]{(rdat1 c n V).share 10} X : sProp 𝕄)
      = (((Tc c).loc main_v7) ↦{fullShare} X) := by
  have h : (cfg1.win 10).arr.IsWhole := arr_whole1 10
  rw [h.set_eq_univ]; rfl

/-- The arrays at entry are the region-entry contents. -/
theorem arrAt0_1 (c : Dev nD) (n : ℕ) (V : (b : Ref sig .tc) → Buf (Elt F) ((Tc c).loc b)) (w : Fin cfg1.W) :
    (rdat1 c n V).arrAt w 0 = V (Pipeline.arrRef spec1 w) := rfl

/-- An input window's array is never written back. -/
theorem arrAtN_1 (c : Dev nD) (n : ℕ) (V : (b : Ref sig .tc) → Buf (Elt F) ((Tc c).loc b)) (w : Fin cfg1.W) (hw : (cfg1.win w).isOut = false) :
    (rdat1 c n V).arrAt w cfg1.N = V (Pipeline.arrRef spec1 w) := (Dat.arrAt_in _ w hw _).trans rfl

set_option maxHeartbeats 4000000 in
/-- ENTRY: the four arrays whole make the windows' arrays at their shares — the weights' full share split into the
    eight windows' read tokens and a remainder that bypasses the region —, and the debt with its bound is what the
    proof data's first point owes. -/
theorem entry1 (c : Dev nD) (n : ℕ) (V : (b : Ref sig .tc) → Buf (Elt F) ((Tc c).loc b)) :
    pre1 c n V ⊢ iprop((rdat1 c n V).arrays ((rdat1 c n V).arrAt · 0) ∗ (rdat1 c n V).owesAt none 0 ∗ Z1 c V) := by
  unfold Dat.arrays pre1 Z1
  rw [bigSep_W1]
  rw [arrPt1_0 c n V, arrPt1_1 c n V, arrPt1_2 c n V, arrPt1_3 c n V, arrPt1_4 c n V, arrPt1_5 c n V, arrPt1_6 c n V, arrPt1_7 c n V, arrPt1_8 c n V, arrPt1_9 c n V, arrPt1_10 c n V]
  show iprop((∃ W, ⌜(K (F := F)).WBelow (Tc c) W (8 * n)⌝ ∗ owes (Tc c) ((K (F := F)).Otc c n) W) ∗ (((Tc c).loc main_v5) ↦{fullShare} V main_v5) ∗ (((Tc c).loc main_arg5) ↦{fullShare} V main_arg5) ∗ (((Tc c).loc main_v6) ↦{fullShare} V main_v6) ∗ (((Tc c).loc main_v7) ↦{fullShare} V main_v7))
    ⊢ iprop(((((Tc c).loc main_v5) ↦{fullShare} V main_v5) ∗ (((Tc c).loc main_arg5) ↦{Transfers.shareTok fullShare 8 0} V main_arg5) ∗ (((Tc c).loc main_arg5) ↦{Transfers.shareTok fullShare 8 1} V main_arg5) ∗ (((Tc c).loc main_arg5) ↦{Transfers.shareTok fullShare 8 2} V main_arg5) ∗ (((Tc c).loc main_arg5) ↦{Transfers.shareTok fullShare 8 3} V main_arg5) ∗ (((Tc c).loc main_arg5) ↦{Transfers.shareTok fullShare 8 4} V main_arg5) ∗ (((Tc c).loc main_arg5) ↦{Transfers.shareTok fullShare 8 5} V main_arg5) ∗ (((Tc c).loc main_arg5) ↦{Transfers.shareTok fullShare 8 6} V main_arg5) ∗ (((Tc c).loc main_arg5) ↦{Transfers.shareTok fullShare 8 7} V main_arg5) ∗ (((Tc c).loc main_v6) ↦{fullShare} V main_v6) ∗ (((Tc c).loc main_v7) ↦{fullShare} V main_v7)) ∗ (rdat1 c n V).owesAt none 0 ∗ (((Tc c).loc main_arg5) ↦{Transfers.shareDrop fullShare 8} V main_arg5))
  iintro ⟨⟨%W, %hW, HO⟩, Hg, HW, Hb, Ho⟩
  ihave HW' := (split8 (F := F) _ _) $$ HW
  icases HW' with ⟨Hrem, H0, H1, H2, H3, H4, H5, H6, H7⟩
  isplitl [Hg H0 H1 H2 H3 H4 H5 H6 H7 Hb Ho]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hb]; · iexact Hb
    iexact Ho
  isplitl [HO]
  · iexists W; isplitr
    · ipureintro; exact fun pr hpr => Or.inl (hW pr hpr)
    iexact HO
  iexact Hrem

set_option maxHeartbeats 4000000 in
/-- EXIT: the inputs' arrays were never written, so the eight read tokens and the remainder join into the weights whole
    again; the output's array holds whatever the write-back left; the recorded waits stay within the debt's bound
    (the region's own sit at the kernels' index). -/
theorem exit1 (c : Dev nD) (n : ℕ) (V : (b : Ref sig .tc) → Buf (Elt F) ((Tc c).loc b)) :
    iprop((rdat1 c n V).arrays ((rdat1 c n V).arrAt · cfg1.N) ∗ (rdat1 c n V).owesAt none (Fin.last cfg1.N) ∗ Z1 c V) ⊢ post1 c n V := by
  unfold Dat.arrays post1 Z1
  rw [bigSep_W1]
  rw [arrPt1_0 c n V, arrPt1_1 c n V, arrPt1_2 c n V, arrPt1_3 c n V, arrPt1_4 c n V, arrPt1_5 c n V, arrPt1_6 c n V, arrPt1_7 c n V, arrPt1_8 c n V, arrPt1_9 c n V, arrPt1_10 c n V]
  beta_reduce
  rw [arrAtN_1 c n V 0 rfl, arrAtN_1 c n V 1 rfl, arrAtN_1 c n V 2 rfl, arrAtN_1 c n V 3 rfl, arrAtN_1 c n V 4 rfl, arrAtN_1 c n V 5 rfl, arrAtN_1 c n V 6 rfl, arrAtN_1 c n V 7 rfl, arrAtN_1 c n V 8 rfl, arrAtN_1 c n V 9 rfl]
  show iprop(((((Tc c).loc main_v5) ↦{fullShare} V main_v5) ∗ (((Tc c).loc main_arg5) ↦{Transfers.shareTok fullShare 8 0} V main_arg5) ∗ (((Tc c).loc main_arg5) ↦{Transfers.shareTok fullShare 8 1} V main_arg5) ∗ (((Tc c).loc main_arg5) ↦{Transfers.shareTok fullShare 8 2} V main_arg5) ∗ (((Tc c).loc main_arg5) ↦{Transfers.shareTok fullShare 8 3} V main_arg5) ∗ (((Tc c).loc main_arg5) ↦{Transfers.shareTok fullShare 8 4} V main_arg5) ∗ (((Tc c).loc main_arg5) ↦{Transfers.shareTok fullShare 8 5} V main_arg5) ∗ (((Tc c).loc main_arg5) ↦{Transfers.shareTok fullShare 8 6} V main_arg5) ∗ (((Tc c).loc main_arg5) ↦{Transfers.shareTok fullShare 8 7} V main_arg5) ∗ (((Tc c).loc main_v6) ↦{fullShare} V main_v6) ∗ (((Tc c).loc main_v7) ↦{fullShare} (rdat1 c n V).arrAt 10 cfg1.N)) ∗ (rdat1 c n V).owesAt none (Fin.last cfg1.N) ∗ (((Tc c).loc main_arg5) ↦{Transfers.shareDrop fullShare 8} V main_arg5))
    ⊢ iprop((∃ W, ⌜(K (F := F)).WBelow (Tc c) W (8 * n)⌝ ∗ owes (Tc c) ((K (F := F)).Otc c n) W) ∗ (((Tc c).loc main_v5) ↦{fullShare} V main_v5) ∗ (((Tc c).loc main_arg5) ↦{fullShare} V main_arg5) ∗ (((Tc c).loc main_v6) ↦{fullShare} V main_v6) ∗ (∃ f, ((Tc c).loc main_v7) ↦{fullShare} f))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg1.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexists _; iexact Ho

end Cert.Proof.KB.Gemv1

end
-- ==== Proof.KbGemv3Conds.lean ====
import proofs.«208418_g89945205112833_cont_sun_c4_809_35_alg».proof.Proof.Gen.Kernel.Launch
import proofs.«208418_g89945205112833_cont_sun_c4_809_35_alg».proof.Proof.Gen.Kernel.Skeleton
import proofs.«208418_g89945205112833_cont_sun_c4_809_35_alg».proof.Proof.Gen.Kernel.Points
import Idealize.ShloMosaic.Lib.Pipeline.FrameBody
import Idealize.ShloMosaic.Lib.Ring
import Idealize.ShloMosaic.Lib.Tactic
import Idealize.ShloMosaic.Lib.SparseCore.Launch

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

/-! ## The body's two conditionals, in closed form over the grid

The body stores the bias into the output block when the grid coordinate is 0 and applies tanh in place when
it is 3; both conditions are comparisons of the coordinate, decided over the four grid points. -/

/-- The first conditional's condition (the coordinate is 0), as the body computes it. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 4 = 0 :=
  (by decide +kernel : ∀ t : Fin grid3.N, cond3_0 (grid3.coords t) ↔ t.val % 4 = 0)
/-- The second conditional's condition (the coordinate is 3), as the body computes it. -/
abbrev cond3_1 (i : grid3.Coords) : Prop := (Scalar.cmpi .ne (Scalar.extui (Scalar.cmpi .eq (BitVec.ofNat 32 (i 0).val) 3#32)) 0#32) = 1#1
/-- It holds at the last point only. -/
theorem hcond3_1 : ∀ t : Fin cfg3.N, cond3_1 (grid3.coords t) ↔ t.val % 4 = 3 :=
  (by decide +kernel : ∀ t : Fin grid3.N, cond3_1 (grid3.coords t) ↔ t.val % 4 = 3)

end Cert.Proof.KB.Gemv1

end
-- ==== Proof.KbGemv3RunA.lean ====
import proofs.«208418_g89945205112833_cont_sun_c4_809_35_alg».proof.Proof.KbGemv3Conds

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the first grid point (the bias is stored first; no tanh), with the proof that on whole
    staging memrefs — the gathered row, the eight weight blocks and the bias at their contents, the output's at anything —
    the body runs to the continuation holding the inputs as they were and the output's buffer with those pieces written. -/
noncomputable def kernelRun3_A (𝒱₀ : Variants) (c : Dev nD) (i : grid3.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ d, owns (c : Thread nD τ) arg12 fullShare d)
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc3_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc3_body_eq_skeleton]; unfold cc3_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv3RunB.lean ====
import proofs.«208418_g89945205112833_cont_sun_c4_809_35_alg».proof.Proof.KbGemv3RunA

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at a middle grid point (neither conditional taken), with the proof that on whole
    staging memrefs — the gathered row, the eight weight blocks and the bias at their contents, the output's at its running contents —
    the body runs to the continuation holding the inputs as they were and the output's buffer with those pieces written. -/
noncomputable def kernelRun3_B (𝒱₀ : Variants) (c : Dev nD) (i : grid3.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc3_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc3_body_eq_skeleton]; unfold cc3_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv3RunC.lean ====
import proofs.«208418_g89945205112833_cont_sun_c4_809_35_alg».proof.Proof.KbGemv3RunB

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the last grid point (tanh applied at the end), with the proof that on whole
    staging memrefs — the gathered row, the eight weight blocks and the bias at their contents, the output's at its running contents —
    the body runs to the continuation holding the inputs as they were and the output's buffer with those pieces written. -/
noncomputable def kernelRun3_C (𝒱₀ : Variants) (c : Dev nD) (i : grid3.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond3_0 i) (hc1 : cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc3_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc3_body_eq_skeleton]; unfold cc3_body_skel
    simp only [k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv3Outs.lean ====
import proofs.«208418_g89945205112833_cont_sun_c4_809_35_alg».proof.Proof.KbGemv3RunC

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

/-! ## The staging memrefs at a point, and the output's view -/

/-- One staging buffer of the output window, through which its contents are stated. -/
abbrev VO3 : View sig .tc .vmem S1x4096 .f32 := (Memref.whole cc3_stg10_0 : Memref sig .tc .vmem S1x4096 .f32).view
abbrev ms3_0 (t : Fin cfg3.N) : Memref sig .tc .vmem S1x4096 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S128x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S128x4096 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x4096 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S128x4096 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S128x4096 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S128x4096 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S128x4096 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S128x4096 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x4096 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S1x4096 .f32 := win3_10.stage (cfg3.slots t 10)
abbrev hs3_10 (t : Fin cfg3.N) : (ms3_10 t).IsWhole := hstage3_10 ((cfg3.slots t 10).cast nbuf3_10)

/-! ## What each control case leaves in the output's staging buffer -/

/-- Case A's pieces tile the output block, so they cover it. -/
theorem cover3_A (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (y : S1x4096.Idx) :
    ∃ pc ∈ (kernelRun3_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1, y ∈ pc.1.set :=
  View.cover_of_tiledL (kernelRun3_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1 S1x4096.size (by sl_kernel_rfl) y

/-- What case A leaves in the output's staging buffer: its pieces read back over junk. -/
def out3_A (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) : Vec F S1x4096 .f32 :=
  VO3.read (Elt F) (VO3.writes (Elt F) VO3.junk (kernelRun3_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1)

/-- Case B's pieces tile the output block, so they cover it. -/
theorem cover3_B (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun3_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun3_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case B leaves in the output's staging buffer: its pieces read back over junk. -/
def out3_B (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO3.read (Elt F) (VO3.writes (Elt F) VO3.junk (kernelRun3_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

/-- Case C's pieces tile the output block, so they cover it. -/
theorem cover3_C (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun3_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun3_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case C leaves in the output's staging buffer: its pieces read back over junk. -/
def out3_C (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO3.read (Elt F) (VO3.writes (Elt F) VO3.junk (kernelRun3_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

section Region
variable (𝒱₀ : Variants) (c : Dev nD) (V : (b : Ref sig .tc) → Buf (Elt F) ((c.tc : Thread nD τ).loc b))

/-! ## The windows' blocks, read off the arrays as the region finds them -/

/-- Window `w`'s block at point `t`, read off its array at the entry contents `V`. -/
def iblk3 (w : Fin cfg3.W) (t : Fin cfg3.N) : ((cfg3.win w).xblock (cfg3.grid.coords t)).Idx → Elt F (cfg3.win w).elt :=
  ((cfg3.win w).blk t).view.read (Elt F) (V (Pipeline.arrRef spec3 w))

/-- Input window 0's current staging buffer holds its block at every point, fetched there or not. -/
theorem before3_0_of (dat : Dat τ (Elt F) (HIx 4) Name U ℕ cfg3 c) (hA : dat.A 0 = V (Pipeline.arrRef spec3 0))
    (hafter : ∀ t, dat.after 0 t = iblk3 c V 0 t) (t : Fin cfg3.N) (d) : dat.before 0 t d = iblk3 c V 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of (dat : Dat τ (Elt F) (HIx 4) Name U ℕ cfg3 c) (hA : dat.A 1 = V (Pipeline.arrRef spec3 1))
    (hafter : ∀ t, dat.after 1 t = iblk3 c V 1 t) (t : Fin cfg3.N) (d) : dat.before 1 t d = iblk3 c V 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of (dat : Dat τ (Elt F) (HIx 4) Name U ℕ cfg3 c) (hA : dat.A 2 = V (Pipeline.arrRef spec3 2))
    (hafter : ∀ t, dat.after 2 t = iblk3 c V 2 t) (t : Fin cfg3.N) (d) : dat.before 2 t d = iblk3 c V 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not. -/
theorem before3_3_of (dat : Dat τ (Elt F) (HIx 4) Name U ℕ cfg3 c) (hA : dat.A 3 = V (Pipeline.arrRef spec3 3))
    (hafter : ∀ t, dat.after 3 t = iblk3 c V 3 t) (t : Fin cfg3.N) (d) : dat.before 3 t d = iblk3 c V 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not. -/
theorem before3_4_of (dat : Dat τ (Elt F) (HIx 4) Name U ℕ cfg3 c) (hA : dat.A 4 = V (Pipeline.arrRef spec3 4))
    (hafter : ∀ t, dat.after 4 t = iblk3 c V 4 t) (t : Fin cfg3.N) (d) : dat.before 4 t d = iblk3 c V 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not. -/
theorem before3_5_of (dat : Dat τ (Elt F) (HIx 4) Name U ℕ cfg3 c) (hA : dat.A 5 = V (Pipeline.arrRef spec3 5))
    (hafter : ∀ t, dat.after 5 t = iblk3 c V 5 t) (t : Fin cfg3.N) (d) : dat.before 5 t d = iblk3 c V 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not. -/
theorem before3_6_of (dat : Dat τ (Elt F) (HIx 4) Name U ℕ cfg3 c) (hA : dat.A 6 = V (Pipeline.arrRef spec3 6))
    (hafter : ∀ t, dat.after 6 t = iblk3 c V 6 t) (t : Fin cfg3.N) (d) : dat.before 6 t d = iblk3 c V 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not. -/
theorem before3_7_of (dat : Dat τ (Elt F) (HIx 4) Name U ℕ cfg3 c) (hA : dat.A 7 = V (Pipeline.arrRef spec3 7))
    (hafter : ∀ t, dat.after 7 t = iblk3 c V 7 t) (t : Fin cfg3.N) (d) : dat.before 7 t d = iblk3 c V 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not. -/
theorem before3_8_of (dat : Dat τ (Elt F) (HIx 4) Name U ℕ cfg3 c) (hA : dat.A 8 = V (Pipeline.arrRef spec3 8))
    (hafter : ∀ t, dat.after 8 t = iblk3 c V 8 t) (t : Fin cfg3.N) (d) : dat.before 8 t d = iblk3 c V 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not. -/
theorem before3_9_of (dat : Dat τ (Elt F) (HIx 4) Name U ℕ cfg3 c) (hA : dat.A 9 = V (Pipeline.arrRef spec3 9))
    (hafter : ∀ t, dat.after 9 t = iblk3 c V 9 t) (t : Fin cfg3.N) (d) : dat.before 9 t d = iblk3 c V 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-! ## What the output's staging buffer holds after each point -/

/-- The accumulation: what the output's staging buffer holds after the body at position `n` — the case the closed
    forms select there, run at the point's memrefs and input blocks, over what the point before left (the buffer
    is not written back between). -/
def outsAt3 : (n : ℕ) → n < cfg3.N → Vec F S1x4096 .f32
  | 0, hn => out3_A (Name := Name) (U := U) 𝒱₀ c (grid3.coords ⟨0, hn⟩) (Memref.whole main_v7) (Memref.isWhole_whole _) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) ((hcond3_0 ⟨0, hn⟩).mpr (Nat.zero_mod _)) (fun h => by have := (hcond3_1 ⟨0, hn⟩).mp h; dsimp only at this; omega) (iblk3 c V 0 ⟨0, hn⟩) (iblk3 c V 1 ⟨0, hn⟩) (iblk3 c V 2 ⟨0, hn⟩) (iblk3 c V 3 ⟨0, hn⟩) (iblk3 c V 4 ⟨0, hn⟩) (iblk3 c V 5 ⟨0, hn⟩) (iblk3 c V 6 ⟨0, hn⟩) (iblk3 c V 7 ⟨0, hn⟩) (iblk3 c V 8 ⟨0, hn⟩) (iblk3 c V 9 ⟨0, hn⟩)
  | n + 1, hn =>
    if h0 : (n + 1) % 4 = 0 then
      out3_A (Name := Name) (U := U) 𝒱₀ c (grid3.coords ⟨n + 1, hn⟩) (Memref.whole main_v7) (Memref.isWhole_whole _) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) ((hcond3_0 ⟨n + 1, hn⟩).mpr h0) (fun h => by have := (hcond3_1 ⟨n + 1, hn⟩).mp h; dsimp only at this; omega) (iblk3 c V 0 ⟨n + 1, hn⟩) (iblk3 c V 1 ⟨n + 1, hn⟩) (iblk3 c V 2 ⟨n + 1, hn⟩) (iblk3 c V 3 ⟨n + 1, hn⟩) (iblk3 c V 4 ⟨n + 1, hn⟩) (iblk3 c V 5 ⟨n + 1, hn⟩) (iblk3 c V 6 ⟨n + 1, hn⟩) (iblk3 c V 7 ⟨n + 1, hn⟩) (iblk3 c V 8 ⟨n + 1, hn⟩) (iblk3 c V 9 ⟨n + 1, hn⟩)
    else if h3 : (n + 1) % 4 = 3 then
      out3_C (Name := Name) (U := U) 𝒱₀ c (grid3.coords ⟨n + 1, hn⟩) (Memref.whole main_v7) (Memref.isWhole_whole _) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (fun h => h0 ((hcond3_0 ⟨n + 1, hn⟩).mp h)) ((hcond3_1 ⟨n + 1, hn⟩).mpr h3) (iblk3 c V 0 ⟨n + 1, hn⟩) (iblk3 c V 1 ⟨n + 1, hn⟩) (iblk3 c V 2 ⟨n + 1, hn⟩) (iblk3 c V 3 ⟨n + 1, hn⟩) (iblk3 c V 4 ⟨n + 1, hn⟩) (iblk3 c V 5 ⟨n + 1, hn⟩) (iblk3 c V 6 ⟨n + 1, hn⟩) (iblk3 c V 7 ⟨n + 1, hn⟩) (iblk3 c V 8 ⟨n + 1, hn⟩) (iblk3 c V 9 ⟨n + 1, hn⟩) (outsAt3 n (Nat.lt_of_succ_lt hn))
    else
      out3_B (Name := Name) (U := U) 𝒱₀ c (grid3.coords ⟨n + 1, hn⟩) (Memref.whole main_v7) (Memref.isWhole_whole _) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (fun h => h0 ((hcond3_0 ⟨n + 1, hn⟩).mp h)) (fun h => h3 ((hcond3_1 ⟨n + 1, hn⟩).mp h)) (iblk3 c V 0 ⟨n + 1, hn⟩) (iblk3 c V 1 ⟨n + 1, hn⟩) (iblk3 c V 2 ⟨n + 1, hn⟩) (iblk3 c V 3 ⟨n + 1, hn⟩) (iblk3 c V 4 ⟨n + 1, hn⟩) (iblk3 c V 5 ⟨n + 1, hn⟩) (iblk3 c V 6 ⟨n + 1, hn⟩) (iblk3 c V 7 ⟨n + 1, hn⟩) (iblk3 c V 8 ⟨n + 1, hn⟩) (iblk3 c V 9 ⟨n + 1, hn⟩) (outsAt3 n (Nat.lt_of_succ_lt hn))

/-- `outsAt3` at a point of case A. -/
theorem outsAt3_A (t : Fin cfg3.N) (h0 : t.val % 4 = 0) :
    outsAt3 (Name := Name) (U := U) 𝒱₀ c V t.val t.isLt = out3_A (Name := Name) (U := U) 𝒱₀ c (grid3.coords t) (Memref.whole main_v7) (Memref.isWhole_whole _) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) ((hcond3_0 t).mpr h0) (fun h => by have := (hcond3_1 t).mp h; omega) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) := by
  obtain ⟨n, hn⟩ := t
  cases n with
  | zero => exact rfl
  | succ n => exact (dif_pos h0).trans rfl

/-- `outsAt3` at a point of case C: over what the point before left. -/
theorem outsAt3_C (t : Fin cfg3.N) (h0 : ¬t.val % 4 = 0) (h3 : t.val % 4 = 3) :
    outsAt3 (Name := Name) (U := U) 𝒱₀ c V t.val t.isLt = out3_C (Name := Name) (U := U) 𝒱₀ c (grid3.coords t) (Memref.whole main_v7) (Memref.isWhole_whole _) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun h => h0 ((hcond3_0 t).mp h)) ((hcond3_1 t).mpr h3) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) (outsAt3 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- `outsAt3` at a point of case B: over what the point before left. -/
theorem outsAt3_B (t : Fin cfg3.N) (h0 : ¬t.val % 4 = 0) (h3 : ¬t.val % 4 = 3) :
    outsAt3 (Name := Name) (U := U) 𝒱₀ c V t.val t.isLt = out3_B (Name := Name) (U := U) 𝒱₀ c (grid3.coords t) (Memref.whole main_v7) (Memref.isWhole_whole _) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (fun h => h0 ((hcond3_0 t).mp h)) (fun h => h3 ((hcond3_1 t).mp h)) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) (outsAt3 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

end Region

end Cert.Proof.KB.Gemv1

end
-- ==== Proof.KbGemv3Frame.lean ====
import proofs.«208418_g89945205112833_cont_sun_c4_809_35_alg».proof.Proof.KbGemv3Outs

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

section Region
variable (𝒱₀ : Variants) (c : Dev nD) (V : (b : Ref sig .tc) → Buf (Elt F) ((c.tc : Thread nD τ).loc b))

/-! ## The pipeline's proof data -/

/-- The proof data of this pipeline on core `c`: the arrays as the region finds them (`V`); after the body at point
    `t` each input's buffer at its block and the output's at `outsAt3`; a constant invariant `Φ₀` the body does
    not read; the input shares `q₀`; constant tallies `owed₀` and recorded bound `rec₀` (the body neither signals
    nor waits). -/
def dat3 (Φ₀ : sProp 𝕄) (q₀ : Fin cfg3.W → PosShare TreeShare) (owed₀ : CellTallies nD τ sig (HIx 4)) (rec₀ : Set (SemLoc sig × HIx 4)) : Dat τ (Elt F) (HIx 4) Name U ℕ cfg3 c where
  A w := V (Pipeline.arrRef spec3 w)
  after w t := match w with
    | ⟨0, _⟩ => iblk3 c V 0 t
    | ⟨1, _⟩ => iblk3 c V 1 t
    | ⟨2, _⟩ => iblk3 c V 2 t
    | ⟨3, _⟩ => iblk3 c V 3 t
    | ⟨4, _⟩ => iblk3 c V 4 t
    | ⟨5, _⟩ => iblk3 c V 5 t
    | ⟨6, _⟩ => iblk3 c V 6 t
    | ⟨7, _⟩ => iblk3 c V 7 t
    | ⟨8, _⟩ => iblk3 c V 8 t
    | ⟨9, _⟩ => iblk3 c V 9 t
    | ⟨10, _⟩ => outsAt3 (Name := Name) (U := U) 𝒱₀ c V t.val t.isLt
  Φ _ := Φ₀
  q := q₀
  owed _ := owed₀
  recorded _ := rec₀

/-- The proof data's arrays are the region-entry contents. -/
theorem A_eq3 (Φ₀ : sProp 𝕄) (q₀ : Fin cfg3.W → PosShare TreeShare) (owed₀ : CellTallies nD τ sig (HIx 4)) (rec₀ : Set (SemLoc sig × HIx 4)) (w : Fin cfg3.W) : (dat3 𝒱₀ c V Φ₀ q₀ owed₀ rec₀).A w = V (Pipeline.arrRef spec3 w) := by
  dsimp only [dat3]

theorem after3_0 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 0 t = iblk3 c V 0 t := by dsimp only [dat3]
theorem after3_1 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 1 t = iblk3 c V 1 t := by dsimp only [dat3]
theorem after3_2 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 2 t = iblk3 c V 2 t := by dsimp only [dat3]
theorem after3_3 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 3 t = iblk3 c V 3 t := by dsimp only [dat3]
theorem after3_4 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 4 t = iblk3 c V 4 t := by dsimp only [dat3]
theorem after3_5 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 5 t = iblk3 c V 5 t := by dsimp only [dat3]
theorem after3_6 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 6 t = iblk3 c V 6 t := by dsimp only [dat3]
theorem after3_7 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 7 t = iblk3 c V 7 t := by dsimp only [dat3]
theorem after3_8 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 8 t = iblk3 c V 8 t := by dsimp only [dat3]
theorem after3_9 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 9 t = iblk3 c V 9 t := by dsimp only [dat3]
theorem after3_10 (Φ₀ : sProp 𝕄) (q₀ : Fin cfg3.W → PosShare TreeShare) (owed₀ : CellTallies nD τ sig (HIx 4)) (rec₀ : Set (SemLoc sig × HIx 4)) (t : Fin cfg3.N) : (dat3 𝒱₀ c V Φ₀ q₀ owed₀ rec₀).after 10 t = outsAt3 (Name := Name) (U := U) 𝒱₀ c V t.val t.isLt := by dsimp only [dat3]

theorem before3_0 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 0 t d = iblk3 c V 0 t :=
  before3_0_of c V (dat3 𝒱₀ c V Φ₀ q₀ owed₀ rec₀) (A_eq3 𝒱₀ c V Φ₀ q₀ owed₀ rec₀ 0) (after3_0 𝒱₀ c V Φ₀ q₀ owed₀ rec₀) t d
theorem before3_1 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 1 t d = iblk3 c V 1 t :=
  before3_1_of c V (dat3 𝒱₀ c V Φ₀ q₀ owed₀ rec₀) (A_eq3 𝒱₀ c V Φ₀ q₀ owed₀ rec₀ 1) (after3_1 𝒱₀ c V Φ₀ q₀ owed₀ rec₀) t d
theorem before3_2 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 2 t d = iblk3 c V 2 t :=
  before3_2_of c V (dat3 𝒱₀ c V Φ₀ q₀ owed₀ rec₀) (A_eq3 𝒱₀ c V Φ₀ q₀ owed₀ rec₀ 2) (after3_2 𝒱₀ c V Φ₀ q₀ owed₀ rec₀) t d
theorem before3_3 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 3 t d = iblk3 c V 3 t :=
  before3_3_of c V (dat3 𝒱₀ c V Φ₀ q₀ owed₀ rec₀) (A_eq3 𝒱₀ c V Φ₀ q₀ owed₀ rec₀ 3) (after3_3 𝒱₀ c V Φ₀ q₀ owed₀ rec₀) t d
theorem before3_4 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 4 t d = iblk3 c V 4 t :=
  before3_4_of c V (dat3 𝒱₀ c V Φ₀ q₀ owed₀ rec₀) (A_eq3 𝒱₀ c V Φ₀ q₀ owed₀ rec₀ 4) (after3_4 𝒱₀ c V Φ₀ q₀ owed₀ rec₀) t d
theorem before3_5 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 5 t d = iblk3 c V 5 t :=
  before3_5_of c V (dat3 𝒱₀ c V Φ₀ q₀ owed₀ rec₀) (A_eq3 𝒱₀ c V Φ₀ q₀ owed₀ rec₀ 5) (after3_5 𝒱₀ c V Φ₀ q₀ owed₀ rec₀) t d
theorem before3_6 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 6 t d = iblk3 c V 6 t :=
  before3_6_of c V (dat3 𝒱₀ c V Φ₀ q₀ owed₀ rec₀) (A_eq3 𝒱₀ c V Φ₀ q₀ owed₀ rec₀ 6) (after3_6 𝒱₀ c V Φ₀ q₀ owed₀ rec₀) t d
theorem before3_7 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 7 t d = iblk3 c V 7 t :=
  before3_7_of c V (dat3 𝒱₀ c V Φ₀ q₀ owed₀ rec₀) (A_eq3 𝒱₀ c V Φ₀ q₀ owed₀ rec₀ 7) (after3_7 𝒱₀ c V Φ₀ q₀ owed₀ rec₀) t d
theorem before3_8 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 8 t d = iblk3 c V 8 t :=
  before3_8_of c V (dat3 𝒱₀ c V Φ₀ q₀ owed₀ rec₀) (A_eq3 𝒱₀ c V Φ₀ q₀ owed₀ rec₀ 8) (after3_8 𝒱₀ c V Φ₀ q₀ owed₀ rec₀) t d
theorem before3_9 (Φ₀ : sProp 𝕄) (q₀ : Fin cfg3.W → PosShare TreeShare) (owed₀ : CellTallies nD τ sig (HIx 4)) (rec₀ : Set (SemLoc sig × HIx 4)) (t : Fin cfg3.N) (d) : (dat3 𝒱₀ c V Φ₀ q₀ owed₀ rec₀).before 9 t d = iblk3 c V 9 t :=
  before3_9_of c V (dat3 𝒱₀ c V Φ₀ q₀ owed₀ rec₀) (A_eq3 𝒱₀ c V Φ₀ q₀ owed₀ rec₀ 9) (after3_9 𝒱₀ c V Φ₀ q₀ owed₀ rec₀) t d

/-- After the first point the output's current staging buffer holds what the body left at the point before: the
    buffer is written back at the last point only. -/
theorem before3_10_kept (Φ₀ : sProp 𝕄) (q₀ : Fin cfg3.W → PosShare TreeShare) (owed₀ : CellTallies nD τ sig (HIx 4)) (rec₀ : Set (SemLoc sig × HIx 4)) (t : Fin cfg3.N) (h0 : ¬t.val % 4 = 0) (d) :
    (dat3 𝒱₀ c V Φ₀ q₀ owed₀ rec₀).before 10 t d = outsAt3 (Name := Name) (U := U) 𝒱₀ c V (t.val - 1) (Nat.lt_of_le_of_lt (Nat.sub_le _ _) t.isLt) := by
  have hN : t.val < 4 := lt_of_lt_of_eq t.isLt (show cfg3.N = 4 from N_3)
  rw [Dat.before_out_kept _ 10 rfl t (by omega) (Bool.eq_false_iff.mpr fun h => by have := (flush3_10 _).mp h; dsimp only at this; omega)
    (fun _ => rfl) (fun _ _ => rfl)]
  dsimp only [dat3]

/-! ## The body obligation, at a generic point -/

/-- What the body is called with at point `t`, the windows one by one, -/
def bodyPre3 (Φ₀ : sProp 𝕄) (q₀ : Fin cfg3.W → PosShare TreeShare) (owed₀ : CellTallies nD τ sig (HIx 4)) (rec₀ : Set (SemLoc sig × HIx 4)) (t : Fin cfg3.N) : sProp 𝕄 :=
  iprop((dat3 𝒱₀ c V Φ₀ q₀ owed₀ rec₀).Φ t.castSucc ∗ (dat3 𝒱₀ c V Φ₀ q₀ owed₀ rec₀).owesAt none t.castSucc
    ∗ (∃ d, owns (c : Thread nD τ) (ms3_0 t) fullShare ((dat3 𝒱₀ c V Φ₀ q₀ owed₀ rec₀).before 0 t d))
    ∗ (∃ d, owns (c : Thread nD τ) (ms3_1 t) fullShare ((dat3 𝒱₀ c V Φ₀ q₀ owed₀ rec₀).before 1 t d))
    ∗ (∃ d, owns (c : Thread nD τ) (ms3_2 t) fullShare ((dat3 𝒱₀ c V Φ₀ q₀ owed₀ rec₀).before 2 t d))
    ∗ (∃ d, owns (c : Thread nD τ) (ms3_3 t) fullShare ((dat3 𝒱₀ c V Φ₀ q₀ owed₀ rec₀).before 3 t d))
    ∗ (∃ d, owns (c : Thread nD τ) (ms3_4 t) fullShare ((dat3 𝒱₀ c V Φ₀ q₀ owed₀ rec₀).before 4 t d))
    ∗ (∃ d, owns (c : Thread nD τ) (ms3_5 t) fullShare ((dat3 𝒱₀ c V Φ₀ q₀ owed₀ rec₀).before 5 t d))
    ∗ (∃ d, owns (c : Thread nD τ) (ms3_6 t) fullShare ((dat3 𝒱₀ c V Φ₀ q₀ owed₀ rec₀).before 6 t d))
    ∗ (∃ d, owns (c : Thread nD τ) (ms3_7 t) fullShare ((dat3 𝒱₀ c V Φ₀ q₀ owed₀ rec₀).before 7 t d))
    ∗ (∃ d, owns (c : Thread nD τ) (ms3_8 t) fullShare ((dat3 𝒱₀ c V Φ₀ q₀ owed₀ rec₀).before 8 t d))
    ∗ (∃ d, owns (c : Thread nD τ) (ms3_9 t) fullShare ((dat3 𝒱₀ c V Φ₀ q₀ owed₀ rec₀).before 9 t d))
    ∗ (∃ d, owns (c : Thread nD τ) (ms3_10 t) fullShare ((dat3 𝒱₀ c V Φ₀ q₀ owed₀ rec₀).before 10 t d)))

/-- and what it returns. -/
def bodyPost3 (Φ₀ : sProp 𝕄) (q₀ : Fin cfg3.W → PosShare TreeShare) (owed₀ : CellTallies nD τ sig (HIx 4)) (rec₀ : Set (SemLoc sig × HIx 4)) (t : Fin cfg3.N) : sProp 𝕄 :=
  iprop((dat3 𝒱₀ c V Φ₀ q₀ owed₀ rec₀).Φ t.succ ∗ (dat3 𝒱₀ c V Φ₀ q₀ owed₀ rec₀).owesAt none t.succ
    ∗ owns (c : Thread nD τ) (ms3_0 t) fullShare ((dat3 𝒱₀ c V Φ₀ q₀ owed₀ rec₀).after 0 t)
    ∗ owns (c : Thread nD τ) (ms3_1 t) fullShare ((dat3 𝒱₀ c V Φ₀ q₀ owed₀ rec₀).after 1 t)
    ∗ owns (c : Thread nD τ) (ms3_2 t) fullShare ((dat3 𝒱₀ c V Φ₀ q₀ owed₀ rec₀).after 2 t)
    ∗ owns (c : Thread nD τ) (ms3_3 t) fullShare ((dat3 𝒱₀ c V Φ₀ q₀ owed₀ rec₀).after 3 t)
    ∗ owns (c : Thread nD τ) (ms3_4 t) fullShare ((dat3 𝒱₀ c V Φ₀ q₀ owed₀ rec₀).after 4 t)
    ∗ owns (c : Thread nD τ) (ms3_5 t) fullShare ((dat3 𝒱₀ c V Φ₀ q₀ owed₀ rec₀).after 5 t)
    ∗ owns (c : Thread nD τ) (ms3_6 t) fullShare ((dat3 𝒱₀ c V Φ₀ q₀ owed₀ rec₀).after 6 t)
    ∗ owns (c : Thread nD τ) (ms3_7 t) fullShare ((dat3 𝒱₀ c V Φ₀ q₀ owed₀ rec₀).after 7 t)
    ∗ owns (c : Thread nD τ) (ms3_8 t) fullShare ((dat3 𝒱₀ c V Φ₀ q₀ owed₀ rec₀).after 8 t)
    ∗ owns (c : Thread nD τ) (ms3_9 t) fullShare ((dat3 𝒱₀ c V Φ₀ q₀ owed₀ rec₀).after 9 t)
    ∗ owns (c : Thread nD τ) (ms3_10 t) fullShare ((dat3 𝒱₀ c V Φ₀ q₀ owed₀ rec₀).after 10 t))

set_option maxHeartbeats 1600000 in
/-- The body at any point: the inputs' memrefs hold their blocks; the closed forms say which case the point is in, and
    after the first point the output's buffer holds what the point before left; so the case's run applies; the
    invariant and what the core owes pass through unread. -/
theorem sound_body3 (Φ₀ : sProp 𝕄) (q₀ : Fin cfg3.W → PosShare TreeShare) (owed₀ : CellTallies nD τ sig (HIx 4)) (rec₀ : Set (SemLoc sig × HIx 4)) (t : Fin cfg3.N) :
    bodyPre3 (Name := Name) (U := U) 𝒱₀ c V Φ₀ q₀ owed₀ rec₀ t ⊢ wp frame (wpE (defs₀ (F := F)) 𝒱₀ c none) Set.univ (bodyAt3 t) (fun _ => bodyPost3 (Name := Name) (U := U) 𝒱₀ c V Φ₀ q₀ owed₀ rec₀ t) := by
  unfold bodyPre3 bodyPost3 bodyAt3
  simp only [before3_0, before3_1, before3_2, before3_3, before3_4, before3_5, before3_6, before3_7, before3_8, before3_9]
  rw [show (dat3 𝒱₀ c V Φ₀ q₀ owed₀ rec₀).Φ t.succ = (dat3 𝒱₀ c V Φ₀ q₀ owed₀ rec₀).Φ t.castSucc from rfl,
    show (dat3 𝒱₀ c V Φ₀ q₀ owed₀ rec₀).owesAt none t.succ = (dat3 𝒱₀ c V Φ₀ q₀ owed₀ rec₀).owesAt none t.castSucc from rfl,
    after3_0, after3_1, after3_2, after3_3, after3_4, after3_5, after3_6, after3_7, after3_8, after3_9, after3_10]
  have hN : t.val < 4 := lt_of_lt_of_eq t.isLt (show cfg3.N = 4 from N_3)
  by_cases h0 : t.val % 4 = 0
  ·
    rw [outsAt3_A 𝒱₀ c V t h0]
    unfold out3_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun3_A (Name := Name) (U := U) 𝒱₀ c (grid3.coords t) _ _ _ _ _ _ _ _ _ _ _ _ _ _ _ _ _ _ _ _ _ _ _ _ ((hcond3_0 t).mpr h0) (fun h => by have := (hcond3_1 t).mp h; omega) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover3_A 𝒱₀ c _ _ _ _ _ _ _ _ _ _ _ _ _ _ _ _ _ _ _ _ _ _ _ _ _ _ _ _ _ _ _ _ _ _ _ _ _)
  · by_cases h3 : t.val % 4 = 3
    ·
      rw [outsAt3_C 𝒱₀ c V t h0 h3]
      simp only [before3_10_kept 𝒱₀ c V Φ₀ q₀ owed₀ rec₀ t h0]
      unfold out3_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_C (Name := Name) (U := U) 𝒱₀ c (grid3.coords t) _ _ _ _ _ _ _ _ _ _ _ _ _ _ _ _ _ _ _ _ _ _ _ _ (fun h => h0 ((hcond3_0 t).mp h)) ((hcond3_1 t).mpr h3) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover3_C 𝒱₀ c _ _ _ _ _ _ _ _ _ _ _ _ _ _ _ _ _ _ _ _ _ _ _ _ _ _ _ _ _ _ _ _ _ _ _ _ _ _)
    ·
      rw [outsAt3_B 𝒱₀ c V t h0 h3]
      simp only [before3_10_kept 𝒱₀ c V Φ₀ q₀ owed₀ rec₀ t h0]
      unfold out3_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun3_B (Name := Name) (U := U) 𝒱₀ c (grid3.coords t) _ _ _ _ _ _ _ _ _ _ _ _ _ _ _ _ _ _ _ _ _ _ _ _ (fun h => h0 ((hcond3_0 t).mp h)) (fun h => h3 ((hcond3_1 t).mp h)) (iblk3 c V 0 t) (iblk3 c V 1 t) (iblk3 c V 2 t) (iblk3 c V 3 t) (iblk3 c V 4 t) (iblk3 c V 5 t) (iblk3 c V 6 t) (iblk3 c V 7 t) (iblk3 c V 8 t) (iblk3 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover3_B 𝒱₀ c _ _ _ _ _ _ _ _ _ _ _ _ _ _ _ _ _ _ _ _ _ _ _ _ _ _ _ _ _ _ _ _ _ _ _ _ _ _)

/-- The library's body obligation, at every point. -/
theorem body_obligation3_exact (Φ₀ : sProp 𝕄) (q₀ : Fin cfg3.W → PosShare TreeShare) (owed₀ : CellTallies nD τ sig (HIx 4)) (rec₀ : Set (SemLoc sig × HIx 4)) : BodyObligation (dat3 (F := F) (Name := Name) (U := U) 𝒱₀ c V Φ₀ q₀ owed₀ rec₀) (defs₀ (F := F)) 𝒱₀ none Set.univ := fun t => by
  rw [bigSep_W3, bigSep_W3]
  exact sound_body3 𝒱₀ c V Φ₀ q₀ owed₀ rec₀ t

/-- The body obligation as the pipeline's loop uses it. -/
theorem body_obligation3 (Φ₀ : sProp 𝕄) (q₀ : Fin cfg3.W → PosShare TreeShare) (owed₀ : CellTallies nD τ sig (HIx 4)) (rec₀ : Set (SemLoc sig × HIx 4)) : BodyObligationLoose (dat3 (F := F) (Name := Name) (U := U) 𝒱₀ c V Φ₀ q₀ owed₀ rec₀) (defs₀ (F := F)) 𝒱₀ none Set.univ :=
  (body_obligation3_exact 𝒱₀ c V Φ₀ q₀ owed₀ rec₀).loose

end Region

end Cert.Proof.KB.Gemv1

end
-- ==== Proof.KbGemv3Entry.lean ====
import proofs.«208418_g89945205112833_cont_sun_c4_809_35_alg».proof.Proof.KbPay
import proofs.«208418_g89945205112833_cont_sun_c4_809_35_alg».proof.Proof.LibScRegion
import proofs.«208418_g89945205112833_cont_sun_c4_809_35_alg».proof.Proof.LibReadShares
import proofs.«208418_g89945205112833_cont_sun_c4_809_35_alg».proof.Proof.KbGemvShares
import proofs.«208418_g89945205112833_cont_sun_c4_809_35_alg».proof.Proof.KbGemv3Frame

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
open Cert.Proof.KB (K 𝒱₀ 𝒱 D EP UU)
open Cert.Proof

local notation "𝕄" => MT nD τ sig (HIx 4) (Elt F) ℕ UU ℕ
local notation "Tc" => SparseCore.T (nD := nD) (τ := τ)

/-! ## The region's proof data at the call site, and its entry and exit -/

/-- The share each input window holds of its array: the gathered row and the bias whole; the eight weight windows, which
    stage one array, one read token each of its full share (the remainder bypasses the region). -/
def q3 : Fin cfg3.W → PosShare TreeShare
  | ⟨0, _⟩ => fullShare
  | ⟨1, _⟩ => Transfers.shareTok fullShare 8 0
  | ⟨2, _⟩ => Transfers.shareTok fullShare 8 1
  | ⟨3, _⟩ => Transfers.shareTok fullShare 8 2
  | ⟨4, _⟩ => Transfers.shareTok fullShare 8 3
  | ⟨5, _⟩ => Transfers.shareTok fullShare 8 4
  | ⟨6, _⟩ => Transfers.shareTok fullShare 8 5
  | ⟨7, _⟩ => Transfers.shareTok fullShare 8 6
  | ⟨8, _⟩ => Transfers.shareTok fullShare 8 7
  | ⟨9, _⟩ => fullShare
  | ⟨10, _⟩ => fullShare

/-- The invariant the body passes through unread: the core's scoped buffers that are no staging buffer. -/
def Φr3 (c : Dev nD) : sProp 𝕄 := Pipeline.scopedRest (Ix := HIx 4) (Name := ℕ) (U := UU) (Lvl := ℕ) (Val := Elt F) spec3 c

/-- The region's proof data on core `c` before call `n`, at entry contents `V`: the debt carried unchanged. -/
def rdat3 (c : Dev nD) (n : ℕ) (V : (b : Ref sig .tc) → Buf (Elt F) ((c.tc : Thread nD τ).loc b)) : Dat τ (Elt F) (HIx 4) ℕ UU ℕ cfg3 c :=
  dat3 (Name := ℕ) (U := UU) 𝒱₀ c V (Φr3 c) q3 ((K (F := F)).Otc c n) (LibScRegion.rcAt (K (F := F)) c n)

/-- What the region is entered from: the debt with its bound, and the four arrays whole. -/
def pre3 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v10) ↦{fullShare} V main_v10) ∗ (((Tc c).loc main_arg6) ↦{fullShare} V main_arg6) ∗ (((Tc c).loc main_v11) ↦{fullShare} V main_v11) ∗ (((Tc c).loc main_v12) ↦{fullShare} V main_v12))

/-- What it leaves: the same, the output array at whatever the region wrote. -/
def post3 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v10) ↦{fullShare} V main_v10) ∗ (((Tc c).loc main_arg6) ↦{fullShare} V main_arg6) ∗ (((Tc c).loc main_v11) ↦{fullShare} V main_v11) ∗ (∃ f, ((Tc c).loc main_v12) ↦{fullShare} f))

/-- The weights' share that bypasses the region. -/
def Z3 (c : Dev nD) (V : (b : Ref sig .tc) → Buf (Elt F) ((Tc c).loc b)) : sProp 𝕄 :=
  ((Tc c).loc main_arg6) ↦{Transfers.shareDrop fullShare 8} V main_arg6

/-! ### Each window's array, as the whole buffer behind it at the window's share -/

theorem arrPt3_0 (c : Dev nD) (n : ℕ) (V : (b : Ref sig .tc) → Buf (Elt F) ((Tc c).loc b)) (X : Buf (Elt F) ((cfg3.win 0).arr.view.loc (c.tc : Thread nD τ))) :
    ((cfg3.win 0).arr.view.loc (c.tc : Thread nD τ) ↦[(cfg3.win 0).arr.view.set]{(rdat3 c n V).share 0} X : sProp 𝕄)
      = (((Tc c).loc main_v10) ↦{fullShare} X) := by
  have h : (cfg3.win 0).arr.IsWhole := arr_whole3 0
  rw [h.set_eq_univ]; rfl

theorem arrPt3_1 (c : Dev nD) (n : ℕ) (V : (b : Ref sig .tc) → Buf (Elt F) ((Tc c).loc b)) (X : Buf (Elt F) ((cfg3.win 1).arr.view.loc (c.tc : Thread nD τ))) :
    ((cfg3.win 1).arr.view.loc (c.tc : Thread nD τ) ↦[(cfg3.win 1).arr.view.set]{(rdat3 c n V).share 1} X : sProp 𝕄)
      = (((Tc c).loc main_arg6) ↦{Transfers.shareTok fullShare 8 0} X) := by
  have h : (cfg3.win 1).arr.IsWhole := arr_whole3 1
  rw [h.set_eq_univ]; rfl

theorem arrPt3_2 (c : Dev nD) (n : ℕ) (V : (b : Ref sig .tc) → Buf (Elt F) ((Tc c).loc b)) (X : Buf (Elt F) ((cfg3.win 2).arr.view.loc (c.tc : Thread nD τ))) :
    ((cfg3.win 2).arr.view.loc (c.tc : Thread nD τ) ↦[(cfg3.win 2).arr.view.set]{(rdat3 c n V).share 2} X : sProp 𝕄)
      = (((Tc c).loc main_arg6) ↦{Transfers.shareTok fullShare 8 1} X) := by
  have h : (cfg3.win 2).arr.IsWhole := arr_whole3 2
  rw [h.set_eq_univ]; rfl

theorem arrPt3_3 (c : Dev nD) (n : ℕ) (V : (b : Ref sig .tc) → Buf (Elt F) ((Tc c).loc b)) (X : Buf (Elt F) ((cfg3.win 3).arr.view.loc (c.tc : Thread nD τ))) :
    ((cfg3.win 3).arr.view.loc (c.tc : Thread nD τ) ↦[(cfg3.win 3).arr.view.set]{(rdat3 c n V).share 3} X : sProp 𝕄)
      = (((Tc c).loc main_arg6) ↦{Transfers.shareTok fullShare 8 2} X) := by
  have h : (cfg3.win 3).arr.IsWhole := arr_whole3 3
  rw [h.set_eq_univ]; rfl

theorem arrPt3_4 (c : Dev nD) (n : ℕ) (V : (b : Ref sig .tc) → Buf (Elt F) ((Tc c).loc b)) (X : Buf (Elt F) ((cfg3.win 4).arr.view.loc (c.tc : Thread nD τ))) :
    ((cfg3.win 4).arr.view.loc (c.tc : Thread nD τ) ↦[(cfg3.win 4).arr.view.set]{(rdat3 c n V).share 4} X : sProp 𝕄)
      = (((Tc c).loc main_arg6) ↦{Transfers.shareTok fullShare 8 3} X) := by
  have h : (cfg3.win 4).arr.IsWhole := arr_whole3 4
  rw [h.set_eq_univ]; rfl

theorem arrPt3_5 (c : Dev nD) (n : ℕ) (V : (b : Ref sig .tc) → Buf (Elt F) ((Tc c).loc b)) (X : Buf (Elt F) ((cfg3.win 5).arr.view.loc (c.tc : Thread nD τ))) :
    ((cfg3.win 5).arr.view.loc (c.tc : Thread nD τ) ↦[(cfg3.win 5).arr.view.set]{(rdat3 c n V).share 5} X : sProp 𝕄)
      = (((Tc c).loc main_arg6) ↦{Transfers.shareTok fullShare 8 4} X) := by
  have h : (cfg3.win 5).arr.IsWhole := arr_whole3 5
  rw [h.set_eq_univ]; rfl

theorem arrPt3_6 (c : Dev nD) (n : ℕ) (V : (b : Ref sig .tc) → Buf (Elt F) ((Tc c).loc b)) (X : Buf (Elt F) ((cfg3.win 6).arr.view.loc (c.tc : Thread nD τ))) :
    ((cfg3.win 6).arr.view.loc (c.tc : Thread nD τ) ↦[(cfg3.win 6).arr.view.set]{(rdat3 c n V).share 6} X : sProp 𝕄)
      = (((Tc c).loc main_arg6) ↦{Transfers.shareTok fullShare 8 5} X) := by
  have h : (cfg3.win 6).arr.IsWhole := arr_whole3 6
  rw [h.set_eq_univ]; rfl

theorem arrPt3_7 (c : Dev nD) (n : ℕ) (V : (b : Ref sig .tc) → Buf (Elt F) ((Tc c).loc b)) (X : Buf (Elt F) ((cfg3.win 7).arr.view.loc (c.tc : Thread nD τ))) :
    ((cfg3.win 7).arr.view.loc (c.tc : Thread nD τ) ↦[(cfg3.win 7).arr.view.set]{(rdat3 c n V).share 7} X : sProp 𝕄)
      = (((Tc c).loc main_arg6) ↦{Transfers.shareTok fullShare 8 6} X) := by
  have h : (cfg3.win 7).arr.IsWhole := arr_whole3 7
  rw [h.set_eq_univ]; rfl

theorem arrPt3_8 (c : Dev nD) (n : ℕ) (V : (b : Ref sig .tc) → Buf (Elt F) ((Tc c).loc b)) (X : Buf (Elt F) ((cfg3.win 8).arr.view.loc (c.tc : Thread nD τ))) :
    ((cfg3.win 8).arr.view.loc (c.tc : Thread nD τ) ↦[(cfg3.win 8).arr.view.set]{(rdat3 c n V).share 8} X : sProp 𝕄)
      = (((Tc c).loc main_arg6) ↦{Transfers.shareTok fullShare 8 7} X) := by
  have h : (cfg3.win 8).arr.IsWhole := arr_whole3 8
  rw [h.set_eq_univ]; rfl

theorem arrPt3_9 (c : Dev nD) (n : ℕ) (V : (b : Ref sig .tc) → Buf (Elt F) ((Tc c).loc b)) (X : Buf (Elt F) ((cfg3.win 9).arr.view.loc (c.tc : Thread nD τ))) :
    ((cfg3.win 9).arr.view.loc (c.tc : Thread nD τ) ↦[(cfg3.win 9).arr.view.set]{(rdat3 c n V).share 9} X : sProp 𝕄)
      = (((Tc c).loc main_v11) ↦{fullShare} X) := by
  have h : (cfg3.win 9).arr.IsWhole := arr_whole3 9
  rw [h.set_eq_univ]; rfl

theorem arrPt3_10 (c : Dev nD) (n : ℕ) (V : (b : Ref sig .tc) → Buf (Elt F) ((Tc c).loc b)) (X : Buf (Elt F) ((cfg3.win 10).arr.view.loc (c.tc : Thread nD τ))) :
    ((cfg3.win 10).arr.view.loc (c.tc : Thread nD τ) ↦[(cfg3.win 10).arr.view.set]{(rdat3 c n V).share 10} X : sProp 𝕄)
      = (((Tc c).loc main_v12) ↦{fullShare} X) := by
  have h : (cfg3.win 10).arr.IsWhole := arr_whole3 10
  rw [h.set_eq_univ]; rfl

/-- The arrays at entry are the region-entry contents. -/
theorem arrAt0_3 (c : Dev nD) (n : ℕ) (V : (b : Ref sig .tc) → Buf (Elt F) ((Tc c).loc b)) (w : Fin cfg3.W) :
    (rdat3 c n V).arrAt w 0 = V (Pipeline.arrRef spec3 w) := rfl

/-- An input window's array is never written back. -/
theorem arrAtN_3 (c : Dev nD) (n : ℕ) (V : (b : Ref sig .tc) → Buf (Elt F) ((Tc c).loc b)) (w : Fin cfg3.W) (hw : (cfg3.win w).isOut = false) :
    (rdat3 c n V).arrAt w cfg3.N = V (Pipeline.arrRef spec3 w) := (Dat.arrAt_in _ w hw _).trans rfl

set_option maxHeartbeats 4000000 in
/-- ENTRY: the four arrays whole make the windows' arrays at their shares — the weights' full share split into the
    eight windows' read tokens and a remainder that bypasses the region —, and the debt with its bound is what the
    proof data's first point owes. -/
theorem entry3 (c : Dev nD) (n : ℕ) (V : (b : Ref sig .tc) → Buf (Elt F) ((Tc c).loc b)) :
    pre3 c n V ⊢ iprop((rdat3 c n V).arrays ((rdat3 c n V).arrAt · 0) ∗ (rdat3 c n V).owesAt none 0 ∗ Z3 c V) := by
  unfold Dat.arrays pre3 Z3
  rw [bigSep_W3]
  rw [arrPt3_0 c n V, arrPt3_1 c n V, arrPt3_2 c n V, arrPt3_3 c n V, arrPt3_4 c n V, arrPt3_5 c n V, arrPt3_6 c n V, arrPt3_7 c n V, arrPt3_8 c n V, arrPt3_9 c n V, arrPt3_10 c n V]
  show iprop((∃ W, ⌜(K (F := F)).WBelow (Tc c) W (8 * n)⌝ ∗ owes (Tc c) ((K (F := F)).Otc c n) W) ∗ (((Tc c).loc main_v10) ↦{fullShare} V main_v10) ∗ (((Tc c).loc main_arg6) ↦{fullShare} V main_arg6) ∗ (((Tc c).loc main_v11) ↦{fullShare} V main_v11) ∗ (((Tc c).loc main_v12) ↦{fullShare} V main_v12))
    ⊢ iprop(((((Tc c).loc main_v10) ↦{fullShare} V main_v10) ∗ (((Tc c).loc main_arg6) ↦{Transfers.shareTok fullShare 8 0} V main_arg6) ∗ (((Tc c).loc main_arg6) ↦{Transfers.shareTok fullShare 8 1} V main_arg6) ∗ (((Tc c).loc main_arg6) ↦{Transfers.shareTok fullShare 8 2} V main_arg6) ∗ (((Tc c).loc main_arg6) ↦{Transfers.shareTok fullShare 8 3} V main_arg6) ∗ (((Tc c).loc main_arg6) ↦{Transfers.shareTok fullShare 8 4} V main_arg6) ∗ (((Tc c).loc main_arg6) ↦{Transfers.shareTok fullShare 8 5} V main_arg6) ∗ (((Tc c).loc main_arg6) ↦{Transfers.shareTok fullShare 8 6} V main_arg6) ∗ (((Tc c).loc main_arg6) ↦{Transfers.shareTok fullShare 8 7} V main_arg6) ∗ (((Tc c).loc main_v11) ↦{fullShare} V main_v11) ∗ (((Tc c).loc main_v12) ↦{fullShare} V main_v12)) ∗ (rdat3 c n V).owesAt none 0 ∗ (((Tc c).loc main_arg6) ↦{Transfers.shareDrop fullShare 8} V main_arg6))
  iintro ⟨⟨%W, %hW, HO⟩, Hg, HW, Hb, Ho⟩
  ihave HW' := (split8 (F := F) _ _) $$ HW
  icases HW' with ⟨Hrem, H0, H1, H2, H3, H4, H5, H6, H7⟩
  isplitl [Hg H0 H1 H2 H3 H4 H5 H6 H7 Hb Ho]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hb]; · iexact Hb
    iexact Ho
  isplitl [HO]
  · iexists W; isplitr
    · ipureintro; exact fun pr hpr => Or.inl (hW pr hpr)
    iexact HO
  iexact Hrem

set_option maxHeartbeats 4000000 in
/-- EXIT: the inputs' arrays were never written, so the eight read tokens and the remainder join into the weights whole
    again; the output's array holds whatever the write-back left; the recorded waits stay within the debt's bound
    (the region's own sit at the kernels' index). -/
theorem exit3 (c : Dev nD) (n : ℕ) (V : (b : Ref sig .tc) → Buf (Elt F) ((Tc c).loc b)) :
    iprop((rdat3 c n V).arrays ((rdat3 c n V).arrAt · cfg3.N) ∗ (rdat3 c n V).owesAt none (Fin.last cfg3.N) ∗ Z3 c V) ⊢ post3 c n V := by
  unfold Dat.arrays post3 Z3
  rw [bigSep_W3]
  rw [arrPt3_0 c n V, arrPt3_1 c n V, arrPt3_2 c n V, arrPt3_3 c n V, arrPt3_4 c n V, arrPt3_5 c n V, arrPt3_6 c n V, arrPt3_7 c n V, arrPt3_8 c n V, arrPt3_9 c n V, arrPt3_10 c n V]
  beta_reduce
  rw [arrAtN_3 c n V 0 rfl, arrAtN_3 c n V 1 rfl, arrAtN_3 c n V 2 rfl, arrAtN_3 c n V 3 rfl, arrAtN_3 c n V 4 rfl, arrAtN_3 c n V 5 rfl, arrAtN_3 c n V 6 rfl, arrAtN_3 c n V 7 rfl, arrAtN_3 c n V 8 rfl, arrAtN_3 c n V 9 rfl]
  show iprop(((((Tc c).loc main_v10) ↦{fullShare} V main_v10) ∗ (((Tc c).loc main_arg6) ↦{Transfers.shareTok fullShare 8 0} V main_arg6) ∗ (((Tc c).loc main_arg6) ↦{Transfers.shareTok fullShare 8 1} V main_arg6) ∗ (((Tc c).loc main_arg6) ↦{Transfers.shareTok fullShare 8 2} V main_arg6) ∗ (((Tc c).loc main_arg6) ↦{Transfers.shareTok fullShare 8 3} V main_arg6) ∗ (((Tc c).loc main_arg6) ↦{Transfers.shareTok fullShare 8 4} V main_arg6) ∗ (((Tc c).loc main_arg6) ↦{Transfers.shareTok fullShare 8 5} V main_arg6) ∗ (((Tc c).loc main_arg6) ↦{Transfers.shareTok fullShare 8 6} V main_arg6) ∗ (((Tc c).loc main_arg6) ↦{Transfers.shareTok fullShare 8 7} V main_arg6) ∗ (((Tc c).loc main_v11) ↦{fullShare} V main_v11) ∗ (((Tc c).loc main_v12) ↦{fullShare} (rdat3 c n V).arrAt 10 cfg3.N)) ∗ (rdat3 c n V).owesAt none (Fin.last cfg3.N) ∗ (((Tc c).loc main_arg6) ↦{Transfers.shareDrop fullShare 8} V main_arg6))
    ⊢ iprop((∃ W, ⌜(K (F := F)).WBelow (Tc c) W (8 * n)⌝ ∗ owes (Tc c) ((K (F := F)).Otc c n) W) ∗ (((Tc c).loc main_v10) ↦{fullShare} V main_v10) ∗ (((Tc c).loc main_arg6) ↦{fullShare} V main_arg6) ∗ (((Tc c).loc main_v11) ↦{fullShare} V main_v11) ∗ (∃ f, ((Tc c).loc main_v12) ↦{fullShare} f))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg3.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexists _; iexact Ho

end Cert.Proof.KB.Gemv1

end
-- ==== Proof.KbGemv5Conds.lean ====
import proofs.«208418_g89945205112833_cont_sun_c4_809_35_alg».proof.Proof.Gen.Kernel.Launch
import proofs.«208418_g89945205112833_cont_sun_c4_809_35_alg».proof.Proof.Gen.Kernel.Skeleton
import proofs.«208418_g89945205112833_cont_sun_c4_809_35_alg».proof.Proof.Gen.Kernel.Points
import Idealize.ShloMosaic.Lib.Pipeline.FrameBody
import Idealize.ShloMosaic.Lib.Ring
import Idealize.ShloMosaic.Lib.Tactic
import Idealize.ShloMosaic.Lib.SparseCore.Launch

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

/-! ## The body's two conditionals, in closed form over the grid

The body stores the bias into the output block when the grid coordinate is 0 and applies tanh in place when
it is 3; both conditions are comparisons of the coordinate, decided over the four grid points. -/

/-- The first conditional's condition (the coordinate is 0), as the body computes it. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val % 4 = 0 :=
  (by decide +kernel : ∀ t : Fin grid5.N, cond5_0 (grid5.coords t) ↔ t.val % 4 = 0)
/-- The second conditional's condition (the coordinate is 3), as the body computes it. -/
abbrev cond5_1 (i : grid5.Coords) : Prop := (Scalar.cmpi .ne (Scalar.extui (Scalar.cmpi .eq (BitVec.ofNat 32 (i 0).val) 3#32)) 0#32) = 1#1
/-- It holds at the last point only. -/
theorem hcond5_1 : ∀ t : Fin cfg5.N, cond5_1 (grid5.coords t) ↔ t.val % 4 = 3 :=
  (by decide +kernel : ∀ t : Fin grid5.N, cond5_1 (grid5.coords t) ↔ t.val % 4 = 3)

end Cert.Proof.KB.Gemv1

end
-- ==== Proof.KbGemv5RunA.lean ====
import proofs.«208418_g89945205112833_cont_sun_c4_809_35_alg».proof.Proof.KbGemv5Conds

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the first grid point (the bias is stored first; no tanh), with the proof that on whole
    staging memrefs — the gathered row, the eight weight blocks and the bias at their contents, the output's at anything —
    the body runs to the continuation holding the inputs as they were and the output's buffer with those pieces written. -/
noncomputable def kernelRun5_A (𝒱₀ : Variants) (c : Dev nD) (i : grid5.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ d, owns (c : Thread nD τ) arg12 fullShare d)
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc5_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc5_body_eq_skeleton]; unfold cc5_body_skel
    simp only [k5_part1_eq_skeleton, k5_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv5RunB.lean ====
import proofs.«208418_g89945205112833_cont_sun_c4_809_35_alg».proof.Proof.KbGemv5RunA

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at a middle grid point (neither conditional taken), with the proof that on whole
    staging memrefs — the gathered row, the eight weight blocks and the bias at their contents, the output's at its running contents —
    the body runs to the continuation holding the inputs as they were and the output's buffer with those pieces written. -/
noncomputable def kernelRun5_B (𝒱₀ : Variants) (c : Dev nD) (i : grid5.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc5_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc5_body_eq_skeleton]; unfold cc5_body_skel
    simp only [k5_part1_eq_skeleton, k5_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv5RunC.lean ====
import proofs.«208418_g89945205112833_cont_sun_c4_809_35_alg».proof.Proof.KbGemv5RunB

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the last grid point (tanh applied at the end), with the proof that on whole
    staging memrefs — the gathered row, the eight weight blocks and the bias at their contents, the output's at its running contents —
    the body runs to the continuation holding the inputs as they were and the output's buffer with those pieces written. -/
noncomputable def kernelRun5_C (𝒱₀ : Variants) (c : Dev nD) (i : grid5.Coords) (arg1 : Memref sig .tc .hbm S1x16384 .f32) (harg1 : arg1.IsWhole) (arg2 : Memref sig .tc .vmem S1x4096 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S128x4096 .f32) (harg9 : arg9.IsWhole) (arg10 : Memref sig .tc .vmem S128x4096 .f32) (harg10 : arg10.IsWhole) (arg11 : Memref sig .tc .vmem S1x4096 .f32) (harg11 : arg11.IsWhole) (arg12 : Memref sig .tc .vmem S1x4096 .f32) (harg12 : arg12.IsWhole) (hc0 : ¬cond5_0 i) (hc1 : cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    { L : List (View.Piece (Elt F) S1x4096 .f32) //
      ∀ (E : Set Name) (K : PUnit → sProp 𝕄),
        iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ owns (c : Thread nD τ) arg12 fullShare xo
            ∗ (iprop(owns (c : Thread nD τ) arg2 fullShare xg ∗ owns (c : Thread nD τ) arg3 fullShare xw0 ∗ owns (c : Thread nD τ) arg4 fullShare xw1 ∗ owns (c : Thread nD τ) arg5 fullShare xw2 ∗ owns (c : Thread nD τ) arg6 fullShare xw3 ∗ owns (c : Thread nD τ) arg7 fullShare xw4 ∗ owns (c : Thread nD τ) arg8 fullShare xw5 ∗ owns (c : Thread nD τ) arg9 fullShare xw6 ∗ owns (c : Thread nD τ) arg10 fullShare xw7 ∗ owns (c : Thread nD τ) arg11 fullShare xb ∗ (∃ f, arg12.view.loc (c : Thread nD τ) ↦[arg12.view.set]{fullShare} arg12.view.writes (Elt F) f L)) -∗ K ⟨⟩))
          ⊢ wp frame (wpE (defs₀ (F := F)) 𝒱₀ c none) E (cc5_body i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc5_body_eq_skeleton]; unfold cc5_body_skel
    simp only [k5_part1_eq_skeleton, k5_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfO
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexists _; iexact HO

end Cert.Proof.KB.Gemv1

end
-- ==== Proof.KbGemv5Outs.lean ====
import proofs.«208418_g89945205112833_cont_sun_c4_809_35_alg».proof.Proof.KbGemv5RunC

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

/-! ## The staging memrefs at a point, and the output's view -/

/-- One staging buffer of the output window, through which its contents are stated. -/
abbrev VO5 : View sig .tc .vmem S1x4096 .f32 := (Memref.whole cc5_stg10_0 : Memref sig .tc .vmem S1x4096 .f32).view
abbrev ms5_0 (t : Fin cfg5.N) : Memref sig .tc .vmem S1x4096 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S128x4096 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S128x4096 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x4096 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S128x4096 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x4096 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S128x4096 .f32 := win5_6.stage (cfg5.slots t 6)
abbrev hs5_6 (t : Fin cfg5.N) : (ms5_6 t).IsWhole := hstage5_6 ((cfg5.slots t 6).cast nbuf5_6)
abbrev ms5_7 (t : Fin cfg5.N) : Memref sig .tc .vmem S128x4096 .f32 := win5_7.stage (cfg5.slots t 7)
abbrev hs5_7 (t : Fin cfg5.N) : (ms5_7 t).IsWhole := hstage5_7 ((cfg5.slots t 7).cast nbuf5_7)
abbrev ms5_8 (t : Fin cfg5.N) : Memref sig .tc .vmem S128x4096 .f32 := win5_8.stage (cfg5.slots t 8)
abbrev hs5_8 (t : Fin cfg5.N) : (ms5_8 t).IsWhole := hstage5_8 ((cfg5.slots t 8).cast nbuf5_8)
abbrev ms5_9 (t : Fin cfg5.N) : Memref sig .tc .vmem S1x4096 .f32 := win5_9.stage (cfg5.slots t 9)
abbrev hs5_9 (t : Fin cfg5.N) : (ms5_9 t).IsWhole := hstage5_9 ((cfg5.slots t 9).cast nbuf5_9)
abbrev ms5_10 (t : Fin cfg5.N) : Memref sig .tc .vmem S1x4096 .f32 := win5_10.stage (cfg5.slots t 10)
abbrev hs5_10 (t : Fin cfg5.N) : (ms5_10 t).IsWhole := hstage5_10 ((cfg5.slots t 10).cast nbuf5_10)

/-! ## What each control case leaves in the output's staging buffer -/

/-- Case A's pieces tile the output block, so they cover it. -/
theorem cover5_A (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (y : S1x4096.Idx) :
    ∃ pc ∈ (kernelRun5_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1, y ∈ pc.1.set :=
  View.cover_of_tiledL (kernelRun5_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1 S1x4096.size (by sl_kernel_rfl) y

/-- What case A leaves in the output's staging buffer: its pieces read back over junk. -/
def out5_A (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) : Vec F S1x4096 .f32 :=
  VO5.read (Elt F) (VO5.writes (Elt F) VO5.junk (kernelRun5_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb).1)

/-- Case B's pieces tile the output block, so they cover it. -/
theorem cover5_B (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun5_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun5_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case B leaves in the output's staging buffer: its pieces read back over junk. -/
def out5_B (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO5.read (Elt F) (VO5.writes (Elt F) VO5.junk (kernelRun5_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

/-- Case C's pieces tile the output block, so they cover it. -/
theorem cover5_C (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) (y : S1x4096.Idx) :
    ∃ pc ∈ (kernelRun5_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun5_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x4096.size (by sl_kernel_rfl) y

/-- What case C leaves in the output's staging buffer: its pieces read back over junk. -/
def out5_C (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) : Vec F S1x4096 .f32 :=
  VO5.read (Elt F) (VO5.writes (Elt F) VO5.junk (kernelRun5_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

section Region
variable (𝒱₀ : Variants) (c : Dev nD) (V : (b : Ref sig .tc) → Buf (Elt F) ((c.tc : Thread nD τ).loc b))

/-! ## The windows' blocks, read off the arrays as the region finds them -/

/-- Window `w`'s block at point `t`, read off its array at the entry contents `V`. -/
def iblk5 (w : Fin cfg5.W) (t : Fin cfg5.N) : ((cfg5.win w).xblock (cfg5.grid.coords t)).Idx → Elt F (cfg5.win w).elt :=
  ((cfg5.win w).blk t).view.read (Elt F) (V (Pipeline.arrRef spec5 w))

/-- Input window 0's current staging buffer holds its block at every point, fetched there or not. -/
theorem before5_0_of (dat : Dat τ (Elt F) (HIx 4) Name U ℕ cfg5 c) (hA : dat.A 0 = V (Pipeline.arrRef spec5 0))
    (hafter : ∀ t, dat.after 0 t = iblk5 c V 0 t) (t : Fin cfg5.N) (d) : dat.before 0 t d = iblk5 c V 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not. -/
theorem before5_1_of (dat : Dat τ (Elt F) (HIx 4) Name U ℕ cfg5 c) (hA : dat.A 1 = V (Pipeline.arrRef spec5 1))
    (hafter : ∀ t, dat.after 1 t = iblk5 c V 1 t) (t : Fin cfg5.N) (d) : dat.before 1 t d = iblk5 c V 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not. -/
theorem before5_2_of (dat : Dat τ (Elt F) (HIx 4) Name U ℕ cfg5 c) (hA : dat.A 2 = V (Pipeline.arrRef spec5 2))
    (hafter : ∀ t, dat.after 2 t = iblk5 c V 2 t) (t : Fin cfg5.N) (d) : dat.before 2 t d = iblk5 c V 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not. -/
theorem before5_3_of (dat : Dat τ (Elt F) (HIx 4) Name U ℕ cfg5 c) (hA : dat.A 3 = V (Pipeline.arrRef spec5 3))
    (hafter : ∀ t, dat.after 3 t = iblk5 c V 3 t) (t : Fin cfg5.N) (d) : dat.before 3 t d = iblk5 c V 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not. -/
theorem before5_4_of (dat : Dat τ (Elt F) (HIx 4) Name U ℕ cfg5 c) (hA : dat.A 4 = V (Pipeline.arrRef spec5 4))
    (hafter : ∀ t, dat.after 4 t = iblk5 c V 4 t) (t : Fin cfg5.N) (d) : dat.before 4 t d = iblk5 c V 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not. -/
theorem before5_5_of (dat : Dat τ (Elt F) (HIx 4) Name U ℕ cfg5 c) (hA : dat.A 5 = V (Pipeline.arrRef spec5 5))
    (hafter : ∀ t, dat.after 5 t = iblk5 c V 5 t) (t : Fin cfg5.N) (d) : dat.before 5 t d = iblk5 c V 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not. -/
theorem before5_6_of (dat : Dat τ (Elt F) (HIx 4) Name U ℕ cfg5 c) (hA : dat.A 6 = V (Pipeline.arrRef spec5 6))
    (hafter : ∀ t, dat.after 6 t = iblk5 c V 6 t) (t : Fin cfg5.N) (d) : dat.before 6 t d = iblk5 c V 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not. -/
theorem before5_7_of (dat : Dat τ (Elt F) (HIx 4) Name U ℕ cfg5 c) (hA : dat.A 7 = V (Pipeline.arrRef spec5 7))
    (hafter : ∀ t, dat.after 7 t = iblk5 c V 7 t) (t : Fin cfg5.N) (d) : dat.before 7 t d = iblk5 c V 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not. -/
theorem before5_8_of (dat : Dat τ (Elt F) (HIx 4) Name U ℕ cfg5 c) (hA : dat.A 8 = V (Pipeline.arrRef spec5 8))
    (hafter : ∀ t, dat.after 8 t = iblk5 c V 8 t) (t : Fin cfg5.N) (d) : dat.before 8 t d = iblk5 c V 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-- Input window 9's current staging buffer holds its block at every point, fetched there or not. -/
theorem before5_9_of (dat : Dat τ (Elt F) (HIx 4) Name U ℕ cfg5 c) (hA : dat.A 9 = V (Pipeline.arrRef spec5 9))
    (hafter : ∀ t, dat.after 9 t = iblk5 c V 9 t) (t : Fin cfg5.N) (d) : dat.before 9 t d = iblk5 c V 9 t :=
  (dat.before_in_eq_fetched 9 rfl (fun _ => rfl) (fun _ _ _ => rfl) (fun t => by rw [hafter]; unfold Dat.blockOf iblk5; rw [hA]; try rfl) t d).trans
    (by unfold Dat.fetched Dat.blockOf iblk5; rw [hA]; try rfl)

/-! ## What the output's staging buffer holds after each point -/

/-- The accumulation: what the output's staging buffer holds after the body at position `n` — the case the closed
    forms select there, run at the point's memrefs and input blocks, over what the point before left (the buffer
    is not written back between). -/
def outsAt5 : (n : ℕ) → n < cfg5.N → Vec F S1x4096 .f32
  | 0, hn => out5_A (Name := Name) (U := U) 𝒱₀ c (grid5.coords ⟨0, hn⟩) (Memref.whole main_v12) (Memref.isWhole_whole _) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) (ms5_7 ⟨0, hn⟩) (hs5_7 ⟨0, hn⟩) (ms5_8 ⟨0, hn⟩) (hs5_8 ⟨0, hn⟩) (ms5_9 ⟨0, hn⟩) (hs5_9 ⟨0, hn⟩) (ms5_10 ⟨0, hn⟩) (hs5_10 ⟨0, hn⟩) ((hcond5_0 ⟨0, hn⟩).mpr (Nat.zero_mod _)) (fun h => by have := (hcond5_1 ⟨0, hn⟩).mp h; dsimp only at this; omega) (iblk5 c V 0 ⟨0, hn⟩) (iblk5 c V 1 ⟨0, hn⟩) (iblk5 c V 2 ⟨0, hn⟩) (iblk5 c V 3 ⟨0, hn⟩) (iblk5 c V 4 ⟨0, hn⟩) (iblk5 c V 5 ⟨0, hn⟩) (iblk5 c V 6 ⟨0, hn⟩) (iblk5 c V 7 ⟨0, hn⟩) (iblk5 c V 8 ⟨0, hn⟩) (iblk5 c V 9 ⟨0, hn⟩)
  | n + 1, hn =>
    if h0 : (n + 1) % 4 = 0 then
      out5_A (Name := Name) (U := U) 𝒱₀ c (grid5.coords ⟨n + 1, hn⟩) (Memref.whole main_v12) (Memref.isWhole_whole _) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) ((hcond5_0 ⟨n + 1, hn⟩).mpr h0) (fun h => by have := (hcond5_1 ⟨n + 1, hn⟩).mp h; dsimp only at this; omega) (iblk5 c V 0 ⟨n + 1, hn⟩) (iblk5 c V 1 ⟨n + 1, hn⟩) (iblk5 c V 2 ⟨n + 1, hn⟩) (iblk5 c V 3 ⟨n + 1, hn⟩) (iblk5 c V 4 ⟨n + 1, hn⟩) (iblk5 c V 5 ⟨n + 1, hn⟩) (iblk5 c V 6 ⟨n + 1, hn⟩) (iblk5 c V 7 ⟨n + 1, hn⟩) (iblk5 c V 8 ⟨n + 1, hn⟩) (iblk5 c V 9 ⟨n + 1, hn⟩)
    else if h3 : (n + 1) % 4 = 3 then
      out5_C (Name := Name) (U := U) 𝒱₀ c (grid5.coords ⟨n + 1, hn⟩) (Memref.whole main_v12) (Memref.isWhole_whole _) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (fun h => h0 ((hcond5_0 ⟨n + 1, hn⟩).mp h)) ((hcond5_1 ⟨n + 1, hn⟩).mpr h3) (iblk5 c V 0 ⟨n + 1, hn⟩) (iblk5 c V 1 ⟨n + 1, hn⟩) (iblk5 c V 2 ⟨n + 1, hn⟩) (iblk5 c V 3 ⟨n + 1, hn⟩) (iblk5 c V 4 ⟨n + 1, hn⟩) (iblk5 c V 5 ⟨n + 1, hn⟩) (iblk5 c V 6 ⟨n + 1, hn⟩) (iblk5 c V 7 ⟨n + 1, hn⟩) (iblk5 c V 8 ⟨n + 1, hn⟩) (iblk5 c V 9 ⟨n + 1, hn⟩) (outsAt5 n (Nat.lt_of_succ_lt hn))
    else
      out5_B (Name := Name) (U := U) 𝒱₀ c (grid5.coords ⟨n + 1, hn⟩) (Memref.whole main_v12) (Memref.isWhole_whole _) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) (ms5_7 ⟨n + 1, hn⟩) (hs5_7 ⟨n + 1, hn⟩) (ms5_8 ⟨n + 1, hn⟩) (hs5_8 ⟨n + 1, hn⟩) (ms5_9 ⟨n + 1, hn⟩) (hs5_9 ⟨n + 1, hn⟩) (ms5_10 ⟨n + 1, hn⟩) (hs5_10 ⟨n + 1, hn⟩) (fun h => h0 ((hcond5_0 ⟨n + 1, hn⟩).mp h)) (fun h => h3 ((hcond5_1 ⟨n + 1, hn⟩).mp h)) (iblk5 c V 0 ⟨n + 1, hn⟩) (iblk5 c V 1 ⟨n + 1, hn⟩) (iblk5 c V 2 ⟨n + 1, hn⟩) (iblk5 c V 3 ⟨n + 1, hn⟩) (iblk5 c V 4 ⟨n + 1, hn⟩) (iblk5 c V 5 ⟨n + 1, hn⟩) (iblk5 c V 6 ⟨n + 1, hn⟩) (iblk5 c V 7 ⟨n + 1, hn⟩) (iblk5 c V 8 ⟨n + 1, hn⟩) (iblk5 c V 9 ⟨n + 1, hn⟩) (outsAt5 n (Nat.lt_of_succ_lt hn))

/-- `outsAt5` at a point of case A. -/
theorem outsAt5_A (t : Fin cfg5.N) (h0 : t.val % 4 = 0) :
    outsAt5 (Name := Name) (U := U) 𝒱₀ c V t.val t.isLt = out5_A (Name := Name) (U := U) 𝒱₀ c (grid5.coords t) (Memref.whole main_v12) (Memref.isWhole_whole _) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) ((hcond5_0 t).mpr h0) (fun h => by have := (hcond5_1 t).mp h; omega) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) := by
  obtain ⟨n, hn⟩ := t
  cases n with
  | zero => exact rfl
  | succ n => exact (dif_pos h0).trans rfl

/-- `outsAt5` at a point of case C: over what the point before left. -/
theorem outsAt5_C (t : Fin cfg5.N) (h0 : ¬t.val % 4 = 0) (h3 : t.val % 4 = 3) :
    outsAt5 (Name := Name) (U := U) 𝒱₀ c V t.val t.isLt = out5_C (Name := Name) (U := U) 𝒱₀ c (grid5.coords t) (Memref.whole main_v12) (Memref.isWhole_whole _) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (fun h => h0 ((hcond5_0 t).mp h)) ((hcond5_1 t).mpr h3) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) (outsAt5 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- `outsAt5` at a point of case B: over what the point before left. -/
theorem outsAt5_B (t : Fin cfg5.N) (h0 : ¬t.val % 4 = 0) (h3 : ¬t.val % 4 = 3) :
    outsAt5 (Name := Name) (U := U) 𝒱₀ c V t.val t.isLt = out5_B (Name := Name) (U := U) 𝒱₀ c (grid5.coords t) (Memref.whole main_v12) (Memref.isWhole_whole _) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (ms5_8 t) (hs5_8 t) (ms5_9 t) (hs5_9 t) (ms5_10 t) (hs5_10 t) (fun h => h0 ((hcond5_0 t).mp h)) (fun h => h3 ((hcond5_1 t).mp h)) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) (outsAt5 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

end Region

end Cert.Proof.KB.Gemv1

end
-- ==== Proof.KbGemv5Frame.lean ====
import proofs.«208418_g89945205112833_cont_sun_c4_809_35_alg».proof.Proof.KbGemv5Outs

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

section Region
variable (𝒱₀ : Variants) (c : Dev nD) (V : (b : Ref sig .tc) → Buf (Elt F) ((c.tc : Thread nD τ).loc b))

/-! ## The pipeline's proof data -/

/-- The proof data of this pipeline on core `c`: the arrays as the region finds them (`V`); after the body at point
    `t` each input's buffer at its block and the output's at `outsAt5`; a constant invariant `Φ₀` the body does
    not read; the input shares `q₀`; constant tallies `owed₀` and recorded bound `rec₀` (the body neither signals
    nor waits). -/
def dat5 (Φ₀ : sProp 𝕄) (q₀ : Fin cfg5.W → PosShare TreeShare) (owed₀ : CellTallies nD τ sig (HIx 4)) (rec₀ : Set (SemLoc sig × HIx 4)) : Dat τ (Elt F) (HIx 4) Name U ℕ cfg5 c where
  A w := V (Pipeline.arrRef spec5 w)
  after w t := match w with
    | ⟨0, _⟩ => iblk5 c V 0 t
    | ⟨1, _⟩ => iblk5 c V 1 t
    | ⟨2, _⟩ => iblk5 c V 2 t
    | ⟨3, _⟩ => iblk5 c V 3 t
    | ⟨4, _⟩ => iblk5 c V 4 t
    | ⟨5, _⟩ => iblk5 c V 5 t
    | ⟨6, _⟩ => iblk5 c V 6 t
    | ⟨7, _⟩ => iblk5 c V 7 t
    | ⟨8, _⟩ => iblk5 c V 8 t
    | ⟨9, _⟩ => iblk5 c V 9 t
    | ⟨10, _⟩ => outsAt5 (Name := Name) (U := U) 𝒱₀ c V t.val t.isLt
  Φ _ := Φ₀
  q := q₀
  owed _ := owed₀
  recorded _ := rec₀

/-- The proof data's arrays are the region-entry contents. -/
theorem A_eq5 (Φ₀ : sProp 𝕄) (q₀ : Fin cfg5.W → PosShare TreeShare) (owed₀ : CellTallies nD τ sig (HIx 4)) (rec₀ : Set (SemLoc sig × HIx 4)) (w : Fin cfg5.W) : (dat5 𝒱₀ c V Φ₀ q₀ owed₀ rec₀).A w = V (Pipeline.arrRef spec5 w) := by
  dsimp only [dat5]

theorem after5_0 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 0 t = iblk5 c V 0 t := by dsimp only [dat5]
theorem after5_1 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 1 t = iblk5 c V 1 t := by dsimp only [dat5]
theorem after5_2 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 2 t = iblk5 c V 2 t := by dsimp only [dat5]
theorem after5_3 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 3 t = iblk5 c V 3 t := by dsimp only [dat5]
theorem after5_4 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 4 t = iblk5 c V 4 t := by dsimp only [dat5]
theorem after5_5 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 5 t = iblk5 c V 5 t := by dsimp only [dat5]
theorem after5_6 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 6 t = iblk5 c V 6 t := by dsimp only [dat5]
theorem after5_7 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 7 t = iblk5 c V 7 t := by dsimp only [dat5]
theorem after5_8 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 8 t = iblk5 c V 8 t := by dsimp only [dat5]
theorem after5_9 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 9 t = iblk5 c V 9 t := by dsimp only [dat5]
theorem after5_10 (Φ₀ : sProp 𝕄) (q₀ : Fin cfg5.W → PosShare TreeShare) (owed₀ : CellTallies nD τ sig (HIx 4)) (rec₀ : Set (SemLoc sig × HIx 4)) (t : Fin cfg5.N) : (dat5 𝒱₀ c V Φ₀ q₀ owed₀ rec₀).after 10 t = outsAt5 (Name := Name) (U := U) 𝒱₀ c V t.val t.isLt := by dsimp only [dat5]

theorem before5_0 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 0 t d = iblk5 c V 0 t :=
  before5_0_of c V (dat5 𝒱₀ c V Φ₀ q₀ owed₀ rec₀) (A_eq5 𝒱₀ c V Φ₀ q₀ owed₀ rec₀ 0) (after5_0 𝒱₀ c V Φ₀ q₀ owed₀ rec₀) t d
theorem before5_1 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 1 t d = iblk5 c V 1 t :=
  before5_1_of c V (dat5 𝒱₀ c V Φ₀ q₀ owed₀ rec₀) (A_eq5 𝒱₀ c V Φ₀ q₀ owed₀ rec₀ 1) (after5_1 𝒱₀ c V Φ₀ q₀ owed₀ rec₀) t d
theorem before5_2 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 2 t d = iblk5 c V 2 t :=
  before5_2_of c V (dat5 𝒱₀ c V Φ₀ q₀ owed₀ rec₀) (A_eq5 𝒱₀ c V Φ₀ q₀ owed₀ rec₀ 2) (after5_2 𝒱₀ c V Φ₀ q₀ owed₀ rec₀) t d
theorem before5_3 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 3 t d = iblk5 c V 3 t :=
  before5_3_of c V (dat5 𝒱₀ c V Φ₀ q₀ owed₀ rec₀) (A_eq5 𝒱₀ c V Φ₀ q₀ owed₀ rec₀ 3) (after5_3 𝒱₀ c V Φ₀ q₀ owed₀ rec₀) t d
theorem before5_4 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 4 t d = iblk5 c V 4 t :=
  before5_4_of c V (dat5 𝒱₀ c V Φ₀ q₀ owed₀ rec₀) (A_eq5 𝒱₀ c V Φ₀ q₀ owed₀ rec₀ 4) (after5_4 𝒱₀ c V Φ₀ q₀ owed₀ rec₀) t d
theorem before5_5 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 5 t d = iblk5 c V 5 t :=
  before5_5_of c V (dat5 𝒱₀ c V Φ₀ q₀ owed₀ rec₀) (A_eq5 𝒱₀ c V Φ₀ q₀ owed₀ rec₀ 5) (after5_5 𝒱₀ c V Φ₀ q₀ owed₀ rec₀) t d
theorem before5_6 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 6 t d = iblk5 c V 6 t :=
  before5_6_of c V (dat5 𝒱₀ c V Φ₀ q₀ owed₀ rec₀) (A_eq5 𝒱₀ c V Φ₀ q₀ owed₀ rec₀ 6) (after5_6 𝒱₀ c V Φ₀ q₀ owed₀ rec₀) t d
theorem before5_7 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 7 t d = iblk5 c V 7 t :=
  before5_7_of c V (dat5 𝒱₀ c V Φ₀ q₀ owed₀ rec₀) (A_eq5 𝒱₀ c V Φ₀ q₀ owed₀ rec₀ 7) (after5_7 𝒱₀ c V Φ₀ q₀ owed₀ rec₀) t d
theorem before5_8 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 8 t d = iblk5 c V 8 t :=
  before5_8_of c V (dat5 𝒱₀ c V Φ₀ q₀ owed₀ rec₀) (A_eq5 𝒱₀ c V Φ₀ q₀ owed₀ rec₀ 8) (after5_8 𝒱₀ c V Φ₀ q₀ owed₀ rec₀) t d
theorem before5_9 (Φ₀ : sProp 𝕄) (q₀ : Fin cfg5.W → PosShare TreeShare) (owed₀ : CellTallies nD τ sig (HIx 4)) (rec₀ : Set (SemLoc sig × HIx 4)) (t : Fin cfg5.N) (d) : (dat5 𝒱₀ c V Φ₀ q₀ owed₀ rec₀).before 9 t d = iblk5 c V 9 t :=
  before5_9_of c V (dat5 𝒱₀ c V Φ₀ q₀ owed₀ rec₀) (A_eq5 𝒱₀ c V Φ₀ q₀ owed₀ rec₀ 9) (after5_9 𝒱₀ c V Φ₀ q₀ owed₀ rec₀) t d

/-- After the first point the output's current staging buffer holds what the body left at the point before: the
    buffer is written back at the last point only. -/
theorem before5_10_kept (Φ₀ : sProp 𝕄) (q₀ : Fin cfg5.W → PosShare TreeShare) (owed₀ : CellTallies nD τ sig (HIx 4)) (rec₀ : Set (SemLoc sig × HIx 4)) (t : Fin cfg5.N) (h0 : ¬t.val % 4 = 0) (d) :
    (dat5 𝒱₀ c V Φ₀ q₀ owed₀ rec₀).before 10 t d = outsAt5 (Name := Name) (U := U) 𝒱₀ c V (t.val - 1) (Nat.lt_of_le_of_lt (Nat.sub_le _ _) t.isLt) := by
  have hN : t.val < 4 := lt_of_lt_of_eq t.isLt (show cfg5.N = 4 from N_5)
  rw [Dat.before_out_kept _ 10 rfl t (by omega) (Bool.eq_false_iff.mpr fun h => by have := (flush5_10 _).mp h; dsimp only at this; omega)
    (fun _ => rfl) (fun _ _ => rfl)]
  dsimp only [dat5]

/-! ## The body obligation, at a generic point -/

/-- What the body is called with at point `t`, the windows one by one, -/
def bodyPre5 (Φ₀ : sProp 𝕄) (q₀ : Fin cfg5.W → PosShare TreeShare) (owed₀ : CellTallies nD τ sig (HIx 4)) (rec₀ : Set (SemLoc sig × HIx 4)) (t : Fin cfg5.N) : sProp 𝕄 :=
  iprop((dat5 𝒱₀ c V Φ₀ q₀ owed₀ rec₀).Φ t.castSucc ∗ (dat5 𝒱₀ c V Φ₀ q₀ owed₀ rec₀).owesAt none t.castSucc
    ∗ (∃ d, owns (c : Thread nD τ) (ms5_0 t) fullShare ((dat5 𝒱₀ c V Φ₀ q₀ owed₀ rec₀).before 0 t d))
    ∗ (∃ d, owns (c : Thread nD τ) (ms5_1 t) fullShare ((dat5 𝒱₀ c V Φ₀ q₀ owed₀ rec₀).before 1 t d))
    ∗ (∃ d, owns (c : Thread nD τ) (ms5_2 t) fullShare ((dat5 𝒱₀ c V Φ₀ q₀ owed₀ rec₀).before 2 t d))
    ∗ (∃ d, owns (c : Thread nD τ) (ms5_3 t) fullShare ((dat5 𝒱₀ c V Φ₀ q₀ owed₀ rec₀).before 3 t d))
    ∗ (∃ d, owns (c : Thread nD τ) (ms5_4 t) fullShare ((dat5 𝒱₀ c V Φ₀ q₀ owed₀ rec₀).before 4 t d))
    ∗ (∃ d, owns (c : Thread nD τ) (ms5_5 t) fullShare ((dat5 𝒱₀ c V Φ₀ q₀ owed₀ rec₀).before 5 t d))
    ∗ (∃ d, owns (c : Thread nD τ) (ms5_6 t) fullShare ((dat5 𝒱₀ c V Φ₀ q₀ owed₀ rec₀).before 6 t d))
    ∗ (∃ d, owns (c : Thread nD τ) (ms5_7 t) fullShare ((dat5 𝒱₀ c V Φ₀ q₀ owed₀ rec₀).before 7 t d))
    ∗ (∃ d, owns (c : Thread nD τ) (ms5_8 t) fullShare ((dat5 𝒱₀ c V Φ₀ q₀ owed₀ rec₀).before 8 t d))
    ∗ (∃ d, owns (c : Thread nD τ) (ms5_9 t) fullShare ((dat5 𝒱₀ c V Φ₀ q₀ owed₀ rec₀).before 9 t d))
    ∗ (∃ d, owns (c : Thread nD τ) (ms5_10 t) fullShare ((dat5 𝒱₀ c V Φ₀ q₀ owed₀ rec₀).before 10 t d)))

/-- and what it returns. -/
def bodyPost5 (Φ₀ : sProp 𝕄) (q₀ : Fin cfg5.W → PosShare TreeShare) (owed₀ : CellTallies nD τ sig (HIx 4)) (rec₀ : Set (SemLoc sig × HIx 4)) (t : Fin cfg5.N) : sProp 𝕄 :=
  iprop((dat5 𝒱₀ c V Φ₀ q₀ owed₀ rec₀).Φ t.succ ∗ (dat5 𝒱₀ c V Φ₀ q₀ owed₀ rec₀).owesAt none t.succ
    ∗ owns (c : Thread nD τ) (ms5_0 t) fullShare ((dat5 𝒱₀ c V Φ₀ q₀ owed₀ rec₀).after 0 t)
    ∗ owns (c : Thread nD τ) (ms5_1 t) fullShare ((dat5 𝒱₀ c V Φ₀ q₀ owed₀ rec₀).after 1 t)
    ∗ owns (c : Thread nD τ) (ms5_2 t) fullShare ((dat5 𝒱₀ c V Φ₀ q₀ owed₀ rec₀).after 2 t)
    ∗ owns (c : Thread nD τ) (ms5_3 t) fullShare ((dat5 𝒱₀ c V Φ₀ q₀ owed₀ rec₀).after 3 t)
    ∗ owns (c : Thread nD τ) (ms5_4 t) fullShare ((dat5 𝒱₀ c V Φ₀ q₀ owed₀ rec₀).after 4 t)
    ∗ owns (c : Thread nD τ) (ms5_5 t) fullShare ((dat5 𝒱₀ c V Φ₀ q₀ owed₀ rec₀).after 5 t)
    ∗ owns (c : Thread nD τ) (ms5_6 t) fullShare ((dat5 𝒱₀ c V Φ₀ q₀ owed₀ rec₀).after 6 t)
    ∗ owns (c : Thread nD τ) (ms5_7 t) fullShare ((dat5 𝒱₀ c V Φ₀ q₀ owed₀ rec₀).after 7 t)
    ∗ owns (c : Thread nD τ) (ms5_8 t) fullShare ((dat5 𝒱₀ c V Φ₀ q₀ owed₀ rec₀).after 8 t)
    ∗ owns (c : Thread nD τ) (ms5_9 t) fullShare ((dat5 𝒱₀ c V Φ₀ q₀ owed₀ rec₀).after 9 t)
    ∗ owns (c : Thread nD τ) (ms5_10 t) fullShare ((dat5 𝒱₀ c V Φ₀ q₀ owed₀ rec₀).after 10 t))

set_option maxHeartbeats 1600000 in
/-- The body at any point: the inputs' memrefs hold their blocks; the closed forms say which case the point is in, and
    after the first point the output's buffer holds what the point before left; so the case's run applies; the
    invariant and what the core owes pass through unread. -/
theorem sound_body5 (Φ₀ : sProp 𝕄) (q₀ : Fin cfg5.W → PosShare TreeShare) (owed₀ : CellTallies nD τ sig (HIx 4)) (rec₀ : Set (SemLoc sig × HIx 4)) (t : Fin cfg5.N) :
    bodyPre5 (Name := Name) (U := U) 𝒱₀ c V Φ₀ q₀ owed₀ rec₀ t ⊢ wp frame (wpE (defs₀ (F := F)) 𝒱₀ c none) Set.univ (bodyAt5 t) (fun _ => bodyPost5 (Name := Name) (U := U) 𝒱₀ c V Φ₀ q₀ owed₀ rec₀ t) := by
  unfold bodyPre5 bodyPost5 bodyAt5
  simp only [before5_0, before5_1, before5_2, before5_3, before5_4, before5_5, before5_6, before5_7, before5_8, before5_9]
  rw [show (dat5 𝒱₀ c V Φ₀ q₀ owed₀ rec₀).Φ t.succ = (dat5 𝒱₀ c V Φ₀ q₀ owed₀ rec₀).Φ t.castSucc from rfl,
    show (dat5 𝒱₀ c V Φ₀ q₀ owed₀ rec₀).owesAt none t.succ = (dat5 𝒱₀ c V Φ₀ q₀ owed₀ rec₀).owesAt none t.castSucc from rfl,
    after5_0, after5_1, after5_2, after5_3, after5_4, after5_5, after5_6, after5_7, after5_8, after5_9, after5_10]
  have hN : t.val < 4 := lt_of_lt_of_eq t.isLt (show cfg5.N = 4 from N_5)
  by_cases h0 : t.val % 4 = 0
  ·
    rw [outsAt5_A 𝒱₀ c V t h0]
    unfold out5_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun5_A (Name := Name) (U := U) 𝒱₀ c (grid5.coords t) _ _ _ _ _ _ _ _ _ _ _ _ _ _ _ _ _ _ _ _ _ _ _ _ ((hcond5_0 t).mpr h0) (fun h => by have := (hcond5_1 t).mp h; omega) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover5_A 𝒱₀ c _ _ _ _ _ _ _ _ _ _ _ _ _ _ _ _ _ _ _ _ _ _ _ _ _ _ _ _ _ _ _ _ _ _ _ _ _)
  · by_cases h3 : t.val % 4 = 3
    ·
      rw [outsAt5_C 𝒱₀ c V t h0 h3]
      simp only [before5_10_kept 𝒱₀ c V Φ₀ q₀ owed₀ rec₀ t h0]
      unfold out5_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun5_C (Name := Name) (U := U) 𝒱₀ c (grid5.coords t) _ _ _ _ _ _ _ _ _ _ _ _ _ _ _ _ _ _ _ _ _ _ _ _ (fun h => h0 ((hcond5_0 t).mp h)) ((hcond5_1 t).mpr h3) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover5_C 𝒱₀ c _ _ _ _ _ _ _ _ _ _ _ _ _ _ _ _ _ _ _ _ _ _ _ _ _ _ _ _ _ _ _ _ _ _ _ _ _ _)
    ·
      rw [outsAt5_B 𝒱₀ c V t h0 h3]
      simp only [before5_10_kept 𝒱₀ c V Φ₀ q₀ owed₀ rec₀ t h0]
      unfold out5_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun5_B (Name := Name) (U := U) 𝒱₀ c (grid5.coords t) _ _ _ _ _ _ _ _ _ _ _ _ _ _ _ _ _ _ _ _ _ _ _ _ (fun h => h0 ((hcond5_0 t).mp h)) (fun h => h3 ((hcond5_1 t).mp h)) (iblk5 c V 0 t) (iblk5 c V 1 t) (iblk5 c V 2 t) (iblk5 c V 3 t) (iblk5 c V 4 t) (iblk5 c V 5 t) (iblk5 c V 6 t) (iblk5 c V 7 t) (iblk5 c V 8 t) (iblk5 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover5_B 𝒱₀ c _ _ _ _ _ _ _ _ _ _ _ _ _ _ _ _ _ _ _ _ _ _ _ _ _ _ _ _ _ _ _ _ _ _ _ _ _ _)

/-- The library's body obligation, at every point. -/
theorem body_obligation5_exact (Φ₀ : sProp 𝕄) (q₀ : Fin cfg5.W → PosShare TreeShare) (owed₀ : CellTallies nD τ sig (HIx 4)) (rec₀ : Set (SemLoc sig × HIx 4)) : BodyObligation (dat5 (F := F) (Name := Name) (U := U) 𝒱₀ c V Φ₀ q₀ owed₀ rec₀) (defs₀ (F := F)) 𝒱₀ none Set.univ := fun t => by
  rw [bigSep_W5, bigSep_W5]
  exact sound_body5 𝒱₀ c V Φ₀ q₀ owed₀ rec₀ t

/-- The body obligation as the pipeline's loop uses it. -/
theorem body_obligation5 (Φ₀ : sProp 𝕄) (q₀ : Fin cfg5.W → PosShare TreeShare) (owed₀ : CellTallies nD τ sig (HIx 4)) (rec₀ : Set (SemLoc sig × HIx 4)) : BodyObligationLoose (dat5 (F := F) (Name := Name) (U := U) 𝒱₀ c V Φ₀ q₀ owed₀ rec₀) (defs₀ (F := F)) 𝒱₀ none Set.univ :=
  (body_obligation5_exact 𝒱₀ c V Φ₀ q₀ owed₀ rec₀).loose

end Region

end Cert.Proof.KB.Gemv1

end
-- ==== Proof.KbGemv5Entry.lean ====
import proofs.«208418_g89945205112833_cont_sun_c4_809_35_alg».proof.Proof.KbPay
import proofs.«208418_g89945205112833_cont_sun_c4_809_35_alg».proof.Proof.LibScRegion
import proofs.«208418_g89945205112833_cont_sun_c4_809_35_alg».proof.Proof.LibReadShares
import proofs.«208418_g89945205112833_cont_sun_c4_809_35_alg».proof.Proof.KbGemvShares
import proofs.«208418_g89945205112833_cont_sun_c4_809_35_alg».proof.Proof.KbGemv5Frame

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
open Cert.Proof.KB (K 𝒱₀ 𝒱 D EP UU)
open Cert.Proof

local notation "𝕄" => MT nD τ sig (HIx 4) (Elt F) ℕ UU ℕ
local notation "Tc" => SparseCore.T (nD := nD) (τ := τ)

/-! ## The region's proof data at the call site, and its entry and exit -/

/-- The share each input window holds of its array: the gathered row and the bias whole; the eight weight windows, which
    stage one array, one read token each of its full share (the remainder bypasses the region). -/
def q5 : Fin cfg5.W → PosShare TreeShare
  | ⟨0, _⟩ => fullShare
  | ⟨1, _⟩ => Transfers.shareTok fullShare 8 0
  | ⟨2, _⟩ => Transfers.shareTok fullShare 8 1
  | ⟨3, _⟩ => Transfers.shareTok fullShare 8 2
  | ⟨4, _⟩ => Transfers.shareTok fullShare 8 3
  | ⟨5, _⟩ => Transfers.shareTok fullShare 8 4
  | ⟨6, _⟩ => Transfers.shareTok fullShare 8 5
  | ⟨7, _⟩ => Transfers.shareTok fullShare 8 6
  | ⟨8, _⟩ => Transfers.shareTok fullShare 8 7
  | ⟨9, _⟩ => fullShare
  | ⟨10, _⟩ => fullShare

/-- The invariant the body passes through unread: the core's scoped buffers that are no staging buffer. -/
def Φr5 (c : Dev nD) : sProp 𝕄 := Pipeline.scopedRest (Ix := HIx 4) (Name := ℕ) (U := UU) (Lvl := ℕ) (Val := Elt F) spec5 c

/-- The region's proof data on core `c` before call `n`, at entry contents `V`: the debt carried unchanged. -/
def rdat5 (c : Dev nD) (n : ℕ) (V : (b : Ref sig .tc) → Buf (Elt F) ((c.tc : Thread nD τ).loc b)) : Dat τ (Elt F) (HIx 4) ℕ UU ℕ cfg5 c :=
  dat5 (Name := ℕ) (U := UU) 𝒱₀ c V (Φr5 c) q5 ((K (F := F)).Otc c n) (LibScRegion.rcAt (K (F := F)) c n)

/-- What the region is entered from: the debt with its bound, and the four arrays whole. -/
def pre5 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v15) ↦{fullShare} V main_v15) ∗ (((Tc c).loc main_arg7) ↦{fullShare} V main_arg7) ∗ (((Tc c).loc main_v16) ↦{fullShare} V main_v16) ∗ (((Tc c).loc main_v17) ↦{fullShare} V main_v17))

/-- What it leaves: the same, the output array at whatever the region wrote. -/
def post5 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v15) ↦{fullShare} V main_v15) ∗ (((Tc c).loc main_arg7) ↦{fullShare} V main_arg7) ∗ (((Tc c).loc main_v16) ↦{fullShare} V main_v16) ∗ (∃ f, ((Tc c).loc main_v17) ↦{fullShare} f))

/-- The weights' share that bypasses the region. -/
def Z5 (c : Dev nD) (V : (b : Ref sig .tc) → Buf (Elt F) ((Tc c).loc b)) : sProp 𝕄 :=
  ((Tc c).loc main_arg7) ↦{Transfers.shareDrop fullShare 8} V main_arg7

/-! ### Each window's array, as the whole buffer behind it at the window's share -/

theorem arrPt5_0 (c : Dev nD) (n : ℕ) (V : (b : Ref sig .tc) → Buf (Elt F) ((Tc c).loc b)) (X : Buf (Elt F) ((cfg5.win 0).arr.view.loc (c.tc : Thread nD τ))) :
    ((cfg5.win 0).arr.view.loc (c.tc : Thread nD τ) ↦[(cfg5.win 0).arr.view.set]{(rdat5 c n V).share 0} X : sProp 𝕄)
      = (((Tc c).loc main_v15) ↦{fullShare} X) := by
  have h : (cfg5.win 0).arr.IsWhole := arr_whole5 0
  rw [h.set_eq_univ]; rfl

theorem arrPt5_1 (c : Dev nD) (n : ℕ) (V : (b : Ref sig .tc) → Buf (Elt F) ((Tc c).loc b)) (X : Buf (Elt F) ((cfg5.win 1).arr.view.loc (c.tc : Thread nD τ))) :
    ((cfg5.win 1).arr.view.loc (c.tc : Thread nD τ) ↦[(cfg5.win 1).arr.view.set]{(rdat5 c n V).share 1} X : sProp 𝕄)
      = (((Tc c).loc main_arg7) ↦{Transfers.shareTok fullShare 8 0} X) := by
  have h : (cfg5.win 1).arr.IsWhole := arr_whole5 1
  rw [h.set_eq_univ]; rfl

theorem arrPt5_2 (c : Dev nD) (n : ℕ) (V : (b : Ref sig .tc) → Buf (Elt F) ((Tc c).loc b)) (X : Buf (Elt F) ((cfg5.win 2).arr.view.loc (c.tc : Thread nD τ))) :
    ((cfg5.win 2).arr.view.loc (c.tc : Thread nD τ) ↦[(cfg5.win 2).arr.view.set]{(rdat5 c n V).share 2} X : sProp 𝕄)
      = (((Tc c).loc main_arg7) ↦{Transfers.shareTok fullShare 8 1} X) := by
  have h : (cfg5.win 2).arr.IsWhole := arr_whole5 2
  rw [h.set_eq_univ]; rfl

theorem arrPt5_3 (c : Dev nD) (n : ℕ) (V : (b : Ref sig .tc) → Buf (Elt F) ((Tc c).loc b)) (X : Buf (Elt F) ((cfg5.win 3).arr.view.loc (c.tc : Thread nD τ))) :
    ((cfg5.win 3).arr.view.loc (c.tc : Thread nD τ) ↦[(cfg5.win 3).arr.view.set]{(rdat5 c n V).share 3} X : sProp 𝕄)
      = (((Tc c).loc main_arg7) ↦{Transfers.shareTok fullShare 8 2} X) := by
  have h : (cfg5.win 3).arr.IsWhole := arr_whole5 3
  rw [h.set_eq_univ]; rfl

theorem arrPt5_4 (c : Dev nD) (n : ℕ) (V : (b : Ref sig .tc) → Buf (Elt F) ((Tc c).loc b)) (X : Buf (Elt F) ((cfg5.win 4).arr.view.loc (c.tc : Thread nD τ))) :
    ((cfg5.win 4).arr.view.loc (c.tc : Thread nD τ) ↦[(cfg5.win 4).arr.view.set]{(rdat5 c n V).share 4} X : sProp 𝕄)
      = (((Tc c).loc main_arg7) ↦{Transfers.shareTok fullShare 8 3} X) := by
  have h : (cfg5.win 4).arr.IsWhole := arr_whole5 4
  rw [h.set_eq_univ]; rfl

theorem arrPt5_5 (c : Dev nD) (n : ℕ) (V : (b : Ref sig .tc) → Buf (Elt F) ((Tc c).loc b)) (X : Buf (Elt F) ((cfg5.win 5).arr.view.loc (c.tc : Thread nD τ))) :
    ((cfg5.win 5).arr.view.loc (c.tc : Thread nD τ) ↦[(cfg5.win 5).arr.view.set]{(rdat5 c n V).share 5} X : sProp 𝕄)
      = (((Tc c).loc main_arg7) ↦{Transfers.shareTok fullShare 8 4} X) := by
  have h : (cfg5.win 5).arr.IsWhole := arr_whole5 5
  rw [h.set_eq_univ]; rfl

theorem arrPt5_6 (c : Dev nD) (n : ℕ) (V : (b : Ref sig .tc) → Buf (Elt F) ((Tc c).loc b)) (X : Buf (Elt F) ((cfg5.win 6).arr.view.loc (c.tc : Thread nD τ))) :
    ((cfg5.win 6).arr.view.loc (c.tc : Thread nD τ) ↦[(cfg5.win 6).arr.view.set]{(rdat5 c n V).share 6} X : sProp 𝕄)
      = (((Tc c).loc main_arg7) ↦{Transfers.shareTok fullShare 8 5} X) := by
  have h : (cfg5.win 6).arr.IsWhole := arr_whole5 6
  rw [h.set_eq_univ]; rfl

theorem arrPt5_7 (c : Dev nD) (n : ℕ) (V : (b : Ref sig .tc) → Buf (Elt F) ((Tc c).loc b)) (X : Buf (Elt F) ((cfg5.win 7).arr.view.loc (c.tc : Thread nD τ))) :
    ((cfg5.win 7).arr.view.loc (c.tc : Thread nD τ) ↦[(cfg5.win 7).arr.view.set]{(rdat5 c n V).share 7} X : sProp 𝕄)
      = (((Tc c).loc main_arg7) ↦{Transfers.shareTok fullShare 8 6} X) := by
  have h : (cfg5.win 7).arr.IsWhole := arr_whole5 7
  rw [h.set_eq_univ]; rfl

theorem arrPt5_8 (c : Dev nD) (n : ℕ) (V : (b : Ref sig .tc) → Buf (Elt F) ((Tc c).loc b)) (X : Buf (Elt F) ((cfg5.win 8).arr.view.loc (c.tc : Thread nD τ))) :
    ((cfg5.win 8).arr.view.loc (c.tc : Thread nD τ) ↦[(cfg5.win 8).arr.view.set]{(rdat5 c n V).share 8} X : sProp 𝕄)
      = (((Tc c).loc main_arg7) ↦{Transfers.shareTok fullShare 8 7} X) := by
  have h : (cfg5.win 8).arr.IsWhole := arr_whole5 8
  rw [h.set_eq_univ]; rfl

theorem arrPt5_9 (c : Dev nD) (n : ℕ) (V : (b : Ref sig .tc) → Buf (Elt F) ((Tc c).loc b)) (X : Buf (Elt F) ((cfg5.win 9).arr.view.loc (c.tc : Thread nD τ))) :
    ((cfg5.win 9).arr.view.loc (c.tc : Thread nD τ) ↦[(cfg5.win 9).arr.view.set]{(rdat5 c n V).share 9} X : sProp 𝕄)
      = (((Tc c).loc main_v16) ↦{fullShare} X) := by
  have h : (cfg5.win 9).arr.IsWhole := arr_whole5 9
  rw [h.set_eq_univ]; rfl

theorem arrPt5_10 (c : Dev nD) (n : ℕ) (V : (b : Ref sig .tc) → Buf (Elt F) ((Tc c).loc b)) (X : Buf (Elt F) ((cfg5.win 10).arr.view.loc (c.tc : Thread nD τ))) :
    ((cfg5.win 10).arr.view.loc (c.tc : Thread nD τ) ↦[(cfg5.win 10).arr.view.set]{(rdat5 c n V).share 10} X : sProp 𝕄)
      = (((Tc c).loc main_v17) ↦{fullShare} X) := by
  have h : (cfg5.win 10).arr.IsWhole := arr_whole5 10
  rw [h.set_eq_univ]; rfl

/-- The arrays at entry are the region-entry contents. -/
theorem arrAt0_5 (c : Dev nD) (n : ℕ) (V : (b : Ref sig .tc) → Buf (Elt F) ((Tc c).loc b)) (w : Fin cfg5.W) :
    (rdat5 c n V).arrAt w 0 = V (Pipeline.arrRef spec5 w) := rfl

/-- An input window's array is never written back. -/
theorem arrAtN_5 (c : Dev nD) (n : ℕ) (V : (b : Ref sig .tc) → Buf (Elt F) ((Tc c).loc b)) (w : Fin cfg5.W) (hw : (cfg5.win w).isOut = false) :
    (rdat5 c n V).arrAt w cfg5.N = V (Pipeline.arrRef spec5 w) := (Dat.arrAt_in _ w hw _).trans rfl

set_option maxHeartbeats 4000000 in
/-- ENTRY: the four arrays whole make the windows' arrays at their shares — the weights' full share split into the
    eight windows' read tokens and a remainder that bypasses the region —, and the debt with its bound is what the
    proof data's first point owes. -/
theorem entry5 (c : Dev nD) (n : ℕ) (V : (b : Ref sig .tc) → Buf (Elt F) ((Tc c).loc b)) :
    pre5 c n V ⊢ iprop((rdat5 c n V).arrays ((rdat5 c n V).arrAt · 0) ∗ (rdat5 c n V).owesAt none 0 ∗ Z5 c V) := by
  unfold Dat.arrays pre5 Z5
  rw [bigSep_W5]
  rw [arrPt5_0 c n V, arrPt5_1 c n V, arrPt5_2 c n V, arrPt5_3 c n V, arrPt5_4 c n V, arrPt5_5 c n V, arrPt5_6 c n V, arrPt5_7 c n V, arrPt5_8 c n V, arrPt5_9 c n V, arrPt5_10 c n V]
  show iprop((∃ W, ⌜(K (F := F)).WBelow (Tc c) W (8 * n)⌝ ∗ owes (Tc c) ((K (F := F)).Otc c n) W) ∗ (((Tc c).loc main_v15) ↦{fullShare} V main_v15) ∗ (((Tc c).loc main_arg7) ↦{fullShare} V main_arg7) ∗ (((Tc c).loc main_v16) ↦{fullShare} V main_v16) ∗ (((Tc c).loc main_v17) ↦{fullShare} V main_v17))
    ⊢ iprop(((((Tc c).loc main_v15) ↦{fullShare} V main_v15) ∗ (((Tc c).loc main_arg7) ↦{Transfers.shareTok fullShare 8 0} V main_arg7) ∗ (((Tc c).loc main_arg7) ↦{Transfers.shareTok fullShare 8 1} V main_arg7) ∗ (((Tc c).loc main_arg7) ↦{Transfers.shareTok fullShare 8 2} V main_arg7) ∗ (((Tc c).loc main_arg7) ↦{Transfers.shareTok fullShare 8 3} V main_arg7) ∗ (((Tc c).loc main_arg7) ↦{Transfers.shareTok fullShare 8 4} V main_arg7) ∗ (((Tc c).loc main_arg7) ↦{Transfers.shareTok fullShare 8 5} V main_arg7) ∗ (((Tc c).loc main_arg7) ↦{Transfers.shareTok fullShare 8 6} V main_arg7) ∗ (((Tc c).loc main_arg7) ↦{Transfers.shareTok fullShare 8 7} V main_arg7) ∗ (((Tc c).loc main_v16) ↦{fullShare} V main_v16) ∗ (((Tc c).loc main_v17) ↦{fullShare} V main_v17)) ∗ (rdat5 c n V).owesAt none 0 ∗ (((Tc c).loc main_arg7) ↦{Transfers.shareDrop fullShare 8} V main_arg7))
  iintro ⟨⟨%W, %hW, HO⟩, Hg, HW, Hb, Ho⟩
  ihave HW' := (split8 (F := F) _ _) $$ HW
  icases HW' with ⟨Hrem, H0, H1, H2, H3, H4, H5, H6, H7⟩
  isplitl [Hg H0 H1 H2 H3 H4 H5 H6 H7 Hb Ho]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hb]; · iexact Hb
    iexact Ho
  isplitl [HO]
  · iexists W; isplitr
    · ipureintro; exact fun pr hpr => Or.inl (hW pr hpr)
    iexact HO
  iexact Hrem

set_option maxHeartbeats 4000000 in
/-- EXIT: the inputs' arrays were never written, so the eight read tokens and the remainder join into the weights whole
    again; the output's array holds whatever the write-back left; the recorded waits stay within the debt's bound
    (the region's own sit at the kernels' index). -/
theorem exit5 (c : Dev nD) (n : ℕ) (V : (b : Ref sig .tc) → Buf (Elt F) ((Tc c).loc b)) :
    iprop((rdat5 c n V).arrays ((rdat5 c n V).arrAt · cfg5.N) ∗ (rdat5 c n V).owesAt none (Fin.last cfg5.N) ∗ Z5 c V) ⊢ post5 c n V := by
  unfold Dat.arrays post5 Z5
  rw [bigSep_W5]
  rw [arrPt5_0 c n V, arrPt5_1 c n V, arrPt5_2 c n V, arrPt5_3 c n V, arrPt5_4 c n V, arrPt5_5 c n V, arrPt5_6 c n V, arrPt5_7 c n V, arrPt5_8 c n V, arrPt5_9 c n V, arrPt5_10 c n V]
  beta_reduce
  rw [arrAtN_5 c n V 0 rfl, arrAtN_5 c n V 1 rfl, arrAtN_5 c n V 2 rfl, arrAtN_5 c n V 3 rfl, arrAtN_5 c n V 4 rfl, arrAtN_5 c n V 5 rfl, arrAtN_5 c n V 6 rfl, arrAtN_5 c n V 7 rfl, arrAtN_5 c n V 8 rfl, arrAtN_5 c n V 9 rfl]
  show iprop(((((Tc c).loc main_v15) ↦{fullShare} V main_v15) ∗ (((Tc c).loc main_arg7) ↦{Transfers.shareTok fullShare 8 0} V main_arg7) ∗ (((Tc c).loc main_arg7) ↦{Transfers.shareTok fullShare 8 1} V main_arg7) ∗ (((Tc c).loc main_arg7) ↦{Transfers.shareTok fullShare 8 2} V main_arg7) ∗ (((Tc c).loc main_arg7) ↦{Transfers.shareTok fullShare 8 3} V main_arg7) ∗ (((Tc c).loc main_arg7) ↦{Transfers.shareTok fullShare 8 4} V main_arg7) ∗ (((Tc c).loc main_arg7) ↦{Transfers.shareTok fullShare 8 5} V main_arg7) ∗ (((Tc c).loc main_arg7) ↦{Transfers.shareTok fullShare 8 6} V main_arg7) ∗ (((Tc c).loc main_arg7) ↦{Transfers.shareTok fullShare 8 7} V main_arg7) ∗ (((Tc c).loc main_v16) ↦{fullShare} V main_v16) ∗ (((Tc c).loc main_v17) ↦{fullShare} (rdat5 c n V).arrAt 10 cfg5.N)) ∗ (rdat5 c n V).owesAt none (Fin.last cfg5.N) ∗ (((Tc c).loc main_arg7) ↦{Transfers.shareDrop fullShare 8} V main_arg7))
    ⊢ iprop((∃ W, ⌜(K (F := F)).WBelow (Tc c) W (8 * n)⌝ ∗ owes (Tc c) ((K (F := F)).Otc c n) W) ∗ (((Tc c).loc main_v15) ↦{fullShare} V main_v15) ∗ (((Tc c).loc main_arg7) ↦{fullShare} V main_arg7) ∗ (((Tc c).loc main_v16) ↦{fullShare} V main_v16) ∗ (∃ f, ((Tc c).loc main_v17) ↦{fullShare} f))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg5.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexists _; iexact Ho

end Cert.Proof.KB.Gemv1

end
-- ==== Proof.KbGemv7Conds.lean ====
import proofs.«208418_g89945205112833_cont_sun_c4_809_35_alg».proof.Proof.Gen.Kernel.Launch
import proofs.«208418_g89945205112833_cont_sun_c4_809_35_alg».proof.Proof.Gen.Kernel.Skeleton
import proofs.«208418_g89945205112833_cont_sun_c4_809_35_alg».proof.Proof.Gen.Kernel.Points
import Idealize.ShloMosaic.Lib.Pipeline.FrameBody
import Idealize.ShloMosaic.Lib.Ring
import Idealize.ShloMosaic.Lib.Tactic
import Idealize.ShloMosaic.Lib.SparseCore.Launch

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

/-! ## The body's two conditionals, in closed form over the grid

The body stores the bias into the output block when the grid coordinate is 0 and applies tanh in place when
it is 3; both conditions are comparisons of the coordinate, decided over the four grid points. -/

/-- The first conditional's condition (the coordinate is 0), as the body computes it. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 4 = 0 :=
  (by decide +kernel : ∀ t : Fin grid7.N, cond7_0 (grid7.coords t) ↔ t.val % 4 = 0)
/-- The second conditional's condition (the coordinate is 3), as the body computes it. -/
abbrev cond7_1 (i : grid7.Coords) : Prop := (Scalar.cmpi .ne (Scalar.extui (Scalar.cmpi .eq (BitVec.ofNat 32 (i 0).val) 3#32)) 0#32) = 1#1
/-- It holds at the last point only. -/
theorem hcond7_1 : ∀ t : Fin cfg7.N, cond7_1 (grid7.coords t) ↔ t.val % 4 = 3 :=
  (by decide +kernel : ∀ t : Fin grid7.N, cond7_1 (grid7.coords t) ↔ t.val % 4 = 3)

end Cert.Proof.KB.Gemv1

end
-- ==== Proof.KbGemv7RunA.lean ====
import proofs.«208418_g89945205112833_cont_sun_c4_809_35_alg».proof.Proof.KbGemv7Conds

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the first grid point (the bias is stored first; no tanh), with the proof that on whole
    staging memrefs — the gathered row, the eight weight blocks and the bias at their contents, the output's at anything —
    the body runs to the continuation holding the inputs as they were and the output's buffer with those pieces written. -/
noncomputable def kernelRun7_A (𝒱₀ : Variants) (c : Dev nD) (i : grid7.Coords) (arg1 : Memref sig .tc .vmem S1x4096 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) :
    { L : List (View.Piece (Elt F) S1x2048 .f32) //
      ∀ (E : Set Name) (K : PUnit → sProp 𝕄),
        iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ (∃ d, owns (c : Thread nD τ) arg11 fullShare d)
            ∗ (iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ (∃ f, arg11.view.loc (c : Thread nD τ) ↦[arg11.view.set]{fullShare} arg11.view.writes (Elt F) f L)) -∗ K ⟨⟩))
          ⊢ wp frame (wpE (defs₀ (F := F)) 𝒱₀ c none) E (cc7_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc7_body_eq_skeleton]; unfold cc7_body_skel
    simp only [k7_part1_eq_skeleton, k7_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%dO, %fO, -, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HO

end Cert.Proof.KB.Gemv1

end
-- ==== Proof.KbGemv7RunB.lean ====
import proofs.«208418_g89945205112833_cont_sun_c4_809_35_alg».proof.Proof.KbGemv7RunA

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at a middle grid point (neither conditional taken), with the proof that on whole
    staging memrefs — the gathered row, the eight weight blocks and the bias at their contents, the output's at its running contents —
    the body runs to the continuation holding the inputs as they were and the output's buffer with those pieces written. -/
noncomputable def kernelRun7_B (𝒱₀ : Variants) (c : Dev nD) (i : grid7.Coords) (arg1 : Memref sig .tc .vmem S1x4096 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : ¬cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) :
    { L : List (View.Piece (Elt F) S1x2048 .f32) //
      ∀ (E : Set Name) (K : PUnit → sProp 𝕄),
        iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ owns (c : Thread nD τ) arg11 fullShare xo
            ∗ (iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ (∃ f, arg11.view.loc (c : Thread nD τ) ↦[arg11.view.set]{fullShare} arg11.view.writes (Elt F) f L)) -∗ K ⟨⟩))
          ⊢ wp frame (wpE (defs₀ (F := F)) 𝒱₀ c none) E (cc7_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc7_body_eq_skeleton]; unfold cc7_body_skel
    simp only [k7_part1_eq_skeleton, k7_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfO
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HO

end Cert.Proof.KB.Gemv1

end
-- ==== Proof.KbGemv7RunC.lean ====
import proofs.«208418_g89945205112833_cont_sun_c4_809_35_alg».proof.Proof.KbGemv7RunB

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

set_option maxHeartbeats 4000000 in
/-- The pieces the body's stores leave in the output's staging memref (last first) at the last grid point (tanh applied at the end), with the proof that on whole
    staging memrefs — the gathered row, the eight weight blocks and the bias at their contents, the output's at its running contents —
    the body runs to the continuation holding the inputs as they were and the output's buffer with those pieces written. -/
noncomputable def kernelRun7_C (𝒱₀ : Variants) (c : Dev nD) (i : grid7.Coords) (arg1 : Memref sig .tc .vmem S1x4096 .f32) (harg1 : arg1.IsWhole) (arg2 : Memref sig .tc .vmem S128x2048 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S1x2048 .f32) (harg10 : arg10.IsWhole) (arg11 : Memref sig .tc .vmem S1x2048 .f32) (harg11 : arg11.IsWhole) (hc0 : ¬cond7_0 i) (hc1 : cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) :
    { L : List (View.Piece (Elt F) S1x2048 .f32) //
      ∀ (E : Set Name) (K : PUnit → sProp 𝕄),
        iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ owns (c : Thread nD τ) arg11 fullShare xo
            ∗ (iprop(owns (c : Thread nD τ) arg1 fullShare xg ∗ owns (c : Thread nD τ) arg2 fullShare xw0 ∗ owns (c : Thread nD τ) arg3 fullShare xw1 ∗ owns (c : Thread nD τ) arg4 fullShare xw2 ∗ owns (c : Thread nD τ) arg5 fullShare xw3 ∗ owns (c : Thread nD τ) arg6 fullShare xw4 ∗ owns (c : Thread nD τ) arg7 fullShare xw5 ∗ owns (c : Thread nD τ) arg8 fullShare xw6 ∗ owns (c : Thread nD τ) arg9 fullShare xw7 ∗ owns (c : Thread nD τ) arg10 fullShare xb ∗ (∃ f, arg11.view.loc (c : Thread nD τ) ↦[arg11.view.set]{fullShare} arg11.view.writes (Elt F) f L)) -∗ K ⟨⟩))
          ⊢ wp frame (wpE (defs₀ (F := F)) 𝒱₀ c none) E (cc7_body i arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc7_body_eq_skeleton]; unfold cc7_body_skel
    simp only [k7_part1_eq_skeleton, k7_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fO, %hfO, HO⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hfO
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    iexists _; iexact HO

end Cert.Proof.KB.Gemv1

end
-- ==== Proof.KbGemv7Outs.lean ====
import proofs.«208418_g89945205112833_cont_sun_c4_809_35_alg».proof.Proof.KbGemv7RunC

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

/-! ## The staging memrefs at a point, and the output's view -/

/-- One staging buffer of the output window, through which its contents are stated. -/
abbrev VO7 : View sig .tc .vmem S1x2048 .f32 := (Memref.whole cc7_stg10_0 : Memref sig .tc .vmem S1x2048 .f32).view
abbrev ms7_0 (t : Fin cfg7.N) : Memref sig .tc .vmem S1x4096 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S128x2048 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S128x2048 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S128x2048 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S128x2048 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S128x2048 .f32 := win7_5.stage (cfg7.slots t 5)
abbrev hs7_5 (t : Fin cfg7.N) : (ms7_5 t).IsWhole := hstage7_5 ((cfg7.slots t 5).cast nbuf7_5)
abbrev ms7_6 (t : Fin cfg7.N) : Memref sig .tc .vmem S128x2048 .f32 := win7_6.stage (cfg7.slots t 6)
abbrev hs7_6 (t : Fin cfg7.N) : (ms7_6 t).IsWhole := hstage7_6 ((cfg7.slots t 6).cast nbuf7_6)
abbrev ms7_7 (t : Fin cfg7.N) : Memref sig .tc .vmem S128x2048 .f32 := win7_7.stage (cfg7.slots t 7)
abbrev hs7_7 (t : Fin cfg7.N) : (ms7_7 t).IsWhole := hstage7_7 ((cfg7.slots t 7).cast nbuf7_7)
abbrev ms7_8 (t : Fin cfg7.N) : Memref sig .tc .vmem S128x2048 .f32 := win7_8.stage (cfg7.slots t 8)
abbrev hs7_8 (t : Fin cfg7.N) : (ms7_8 t).IsWhole := hstage7_8 ((cfg7.slots t 8).cast nbuf7_8)
abbrev ms7_9 (t : Fin cfg7.N) : Memref sig .tc .vmem S1x2048 .f32 := win7_9.stage (cfg7.slots t 9)
abbrev hs7_9 (t : Fin cfg7.N) : (ms7_9 t).IsWhole := hstage7_9 ((cfg7.slots t 9).cast nbuf7_9)
abbrev ms7_10 (t : Fin cfg7.N) : Memref sig .tc .vmem S1x2048 .f32 := win7_10.stage (cfg7.slots t 10)
abbrev hs7_10 (t : Fin cfg7.N) : (ms7_10 t).IsWhole := hstage7_10 ((cfg7.slots t 10).cast nbuf7_10)

/-! ## What each control case leaves in the output's staging buffer -/

/-- Case A's pieces tile the output block, so they cover it. -/
theorem cover7_A (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (y : S1x2048.Idx) :
    ∃ pc ∈ (kernelRun7_A (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb).1, y ∈ pc.1.set :=
  View.cover_of_tiledL (kernelRun7_A (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb).1 S1x2048.size (by sl_kernel_rfl) y

/-- What case A leaves in the output's staging buffer: its pieces read back over junk. -/
def out7_A (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) : Vec F S1x2048 .f32 :=
  VO7.read (Elt F) (VO7.writes (Elt F) VO7.junk (kernelRun7_A (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb).1)

/-- Case B's pieces tile the output block, so they cover it. -/
theorem cover7_B (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) (y : S1x2048.Idx) :
    ∃ pc ∈ (kernelRun7_B (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun7_B (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x2048.size (by sl_kernel_rfl) y

/-- What case B leaves in the output's staging buffer: its pieces read back over junk. -/
def out7_B (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) : Vec F S1x2048 .f32 :=
  VO7.read (Elt F) (VO7.writes (Elt F) VO7.junk (kernelRun7_B (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

/-- Case C's pieces tile the output block, so they cover it. -/
theorem cover7_C (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) (y : S1x2048.Idx) :
    ∃ pc ∈ (kernelRun7_C (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1, y ∈ pc.1.set :=
  View.cover_of_tiledL (kernelRun7_C (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1 S1x2048.size (by sl_kernel_rfl) y

/-- What case C leaves in the output's staging buffer: its pieces read back over junk. -/
def out7_C (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) : Vec F S1x2048 .f32 :=
  VO7.read (Elt F) (VO7.writes (Elt F) VO7.junk (kernelRun7_C (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo).1)

section Region
variable (𝒱₀ : Variants) (c : Dev nD) (V : (b : Ref sig .tc) → Buf (Elt F) ((c.tc : Thread nD τ).loc b))

/-! ## The windows' blocks, read off the arrays as the region finds them -/

/-- Window `w`'s block at point `t`, read off its array at the entry contents `V`. -/
def iblk7 (w : Fin cfg7.W) (t : Fin cfg7.N) : ((cfg7.win w).xblock (cfg7.grid.coords t)).Idx → Elt F (cfg7.win w).elt :=
  ((cfg7.win w).blk t).view.read (Elt F) (V (Pipeline.arrRef spec7 w))

/-- Input window 0's current staging buffer holds its block at every point, fetched there or not. -/
theorem before7_0_of (dat : Dat τ (Elt F) (HIx 4) Name U ℕ cfg7 c) (hA : dat.A 0 = V (Pipeline.arrRef spec7 0))
    (hafter : ∀ t, dat.after 0 t = iblk7 c V 0 t) (t : Fin cfg7.N) (d) : dat.before 0 t d = iblk7 c V 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not. -/
theorem before7_1_of (dat : Dat τ (Elt F) (HIx 4) Name U ℕ cfg7 c) (hA : dat.A 1 = V (Pipeline.arrRef spec7 1))
    (hafter : ∀ t, dat.after 1 t = iblk7 c V 1 t) (t : Fin cfg7.N) (d) : dat.before 1 t d = iblk7 c V 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not. -/
theorem before7_2_of (dat : Dat τ (Elt F) (HIx 4) Name U ℕ cfg7 c) (hA : dat.A 2 = V (Pipeline.arrRef spec7 2))
    (hafter : ∀ t, dat.after 2 t = iblk7 c V 2 t) (t : Fin cfg7.N) (d) : dat.before 2 t d = iblk7 c V 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not. -/
theorem before7_3_of (dat : Dat τ (Elt F) (HIx 4) Name U ℕ cfg7 c) (hA : dat.A 3 = V (Pipeline.arrRef spec7 3))
    (hafter : ∀ t, dat.after 3 t = iblk7 c V 3 t) (t : Fin cfg7.N) (d) : dat.before 3 t d = iblk7 c V 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not. -/
theorem before7_4_of (dat : Dat τ (Elt F) (HIx 4) Name U ℕ cfg7 c) (hA : dat.A 4 = V (Pipeline.arrRef spec7 4))
    (hafter : ∀ t, dat.after 4 t = iblk7 c V 4 t) (t : Fin cfg7.N) (d) : dat.before 4 t d = iblk7 c V 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, fetched there or not. -/
theorem before7_5_of (dat : Dat τ (Elt F) (HIx 4) Name U ℕ cfg7 c) (hA : dat.A 5 = V (Pipeline.arrRef spec7 5))
    (hafter : ∀ t, dat.after 5 t = iblk7 c V 5 t) (t : Fin cfg7.N) (d) : dat.before 5 t d = iblk7 c V 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, fetched there or not. -/
theorem before7_6_of (dat : Dat τ (Elt F) (HIx 4) Name U ℕ cfg7 c) (hA : dat.A 6 = V (Pipeline.arrRef spec7 6))
    (hafter : ∀ t, dat.after 6 t = iblk7 c V 6 t) (t : Fin cfg7.N) (d) : dat.before 6 t d = iblk7 c V 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, fetched there or not. -/
theorem before7_7_of (dat : Dat τ (Elt F) (HIx 4) Name U ℕ cfg7 c) (hA : dat.A 7 = V (Pipeline.arrRef spec7 7))
    (hafter : ∀ t, dat.after 7 t = iblk7 c V 7 t) (t : Fin cfg7.N) (d) : dat.before 7 t d = iblk7 c V 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- Input window 8's current staging buffer holds its block at every point, fetched there or not. -/
theorem before7_8_of (dat : Dat τ (Elt F) (HIx 4) Name U ℕ cfg7 c) (hA : dat.A 8 = V (Pipeline.arrRef spec7 8))
    (hafter : ∀ t, dat.after 8 t = iblk7 c V 8 t) (t : Fin cfg7.N) (d) : dat.before 8 t d = iblk7 c V 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-- Input window 9's current staging buffer holds its block at every point, fetched there or not. -/
theorem before7_9_of (dat : Dat τ (Elt F) (HIx 4) Name U ℕ cfg7 c) (hA : dat.A 9 = V (Pipeline.arrRef spec7 9))
    (hafter : ∀ t, dat.after 9 t = iblk7 c V 9 t) (t : Fin cfg7.N) (d) : dat.before 9 t d = iblk7 c V 9 t :=
  (dat.before_in_eq_fetched 9 rfl (fun _ => rfl) (fun _ _ _ => rfl) (fun t => by rw [hafter]; unfold Dat.blockOf iblk7; rw [hA]; try rfl) t d).trans
    (by unfold Dat.fetched Dat.blockOf iblk7; rw [hA]; try rfl)

/-! ## What the output's staging buffer holds after each point -/

/-- The accumulation: what the output's staging buffer holds after the body at position `n` — the case the closed
    forms select there, run at the point's memrefs and input blocks, over what the point before left (the buffer
    is not written back between). -/
def outsAt7 : (n : ℕ) → n < cfg7.N → Vec F S1x2048 .f32
  | 0, hn => out7_A (Name := Name) (U := U) 𝒱₀ c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) (ms7_7 ⟨0, hn⟩) (hs7_7 ⟨0, hn⟩) (ms7_8 ⟨0, hn⟩) (hs7_8 ⟨0, hn⟩) (ms7_9 ⟨0, hn⟩) (hs7_9 ⟨0, hn⟩) (ms7_10 ⟨0, hn⟩) (hs7_10 ⟨0, hn⟩) ((hcond7_0 ⟨0, hn⟩).mpr (Nat.zero_mod _)) (fun h => by have := (hcond7_1 ⟨0, hn⟩).mp h; dsimp only at this; omega) (iblk7 c V 0 ⟨0, hn⟩) (iblk7 c V 1 ⟨0, hn⟩) (iblk7 c V 2 ⟨0, hn⟩) (iblk7 c V 3 ⟨0, hn⟩) (iblk7 c V 4 ⟨0, hn⟩) (iblk7 c V 5 ⟨0, hn⟩) (iblk7 c V 6 ⟨0, hn⟩) (iblk7 c V 7 ⟨0, hn⟩) (iblk7 c V 8 ⟨0, hn⟩) (iblk7 c V 9 ⟨0, hn⟩)
  | n + 1, hn =>
    if h0 : (n + 1) % 4 = 0 then
      out7_A (Name := Name) (U := U) 𝒱₀ c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (ms7_10 ⟨n + 1, hn⟩) (hs7_10 ⟨n + 1, hn⟩) ((hcond7_0 ⟨n + 1, hn⟩).mpr h0) (fun h => by have := (hcond7_1 ⟨n + 1, hn⟩).mp h; dsimp only at this; omega) (iblk7 c V 0 ⟨n + 1, hn⟩) (iblk7 c V 1 ⟨n + 1, hn⟩) (iblk7 c V 2 ⟨n + 1, hn⟩) (iblk7 c V 3 ⟨n + 1, hn⟩) (iblk7 c V 4 ⟨n + 1, hn⟩) (iblk7 c V 5 ⟨n + 1, hn⟩) (iblk7 c V 6 ⟨n + 1, hn⟩) (iblk7 c V 7 ⟨n + 1, hn⟩) (iblk7 c V 8 ⟨n + 1, hn⟩) (iblk7 c V 9 ⟨n + 1, hn⟩)
    else if h3 : (n + 1) % 4 = 3 then
      out7_C (Name := Name) (U := U) 𝒱₀ c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (ms7_10 ⟨n + 1, hn⟩) (hs7_10 ⟨n + 1, hn⟩) (fun h => h0 ((hcond7_0 ⟨n + 1, hn⟩).mp h)) ((hcond7_1 ⟨n + 1, hn⟩).mpr h3) (iblk7 c V 0 ⟨n + 1, hn⟩) (iblk7 c V 1 ⟨n + 1, hn⟩) (iblk7 c V 2 ⟨n + 1, hn⟩) (iblk7 c V 3 ⟨n + 1, hn⟩) (iblk7 c V 4 ⟨n + 1, hn⟩) (iblk7 c V 5 ⟨n + 1, hn⟩) (iblk7 c V 6 ⟨n + 1, hn⟩) (iblk7 c V 7 ⟨n + 1, hn⟩) (iblk7 c V 8 ⟨n + 1, hn⟩) (iblk7 c V 9 ⟨n + 1, hn⟩) (outsAt7 n (Nat.lt_of_succ_lt hn))
    else
      out7_B (Name := Name) (U := U) 𝒱₀ c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) (ms7_7 ⟨n + 1, hn⟩) (hs7_7 ⟨n + 1, hn⟩) (ms7_8 ⟨n + 1, hn⟩) (hs7_8 ⟨n + 1, hn⟩) (ms7_9 ⟨n + 1, hn⟩) (hs7_9 ⟨n + 1, hn⟩) (ms7_10 ⟨n + 1, hn⟩) (hs7_10 ⟨n + 1, hn⟩) (fun h => h0 ((hcond7_0 ⟨n + 1, hn⟩).mp h)) (fun h => h3 ((hcond7_1 ⟨n + 1, hn⟩).mp h)) (iblk7 c V 0 ⟨n + 1, hn⟩) (iblk7 c V 1 ⟨n + 1, hn⟩) (iblk7 c V 2 ⟨n + 1, hn⟩) (iblk7 c V 3 ⟨n + 1, hn⟩) (iblk7 c V 4 ⟨n + 1, hn⟩) (iblk7 c V 5 ⟨n + 1, hn⟩) (iblk7 c V 6 ⟨n + 1, hn⟩) (iblk7 c V 7 ⟨n + 1, hn⟩) (iblk7 c V 8 ⟨n + 1, hn⟩) (iblk7 c V 9 ⟨n + 1, hn⟩) (outsAt7 n (Nat.lt_of_succ_lt hn))

/-- `outsAt7` at a point of case A. -/
theorem outsAt7_A (t : Fin cfg7.N) (h0 : t.val % 4 = 0) :
    outsAt7 (Name := Name) (U := U) 𝒱₀ c V t.val t.isLt = out7_A (Name := Name) (U := U) 𝒱₀ c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) ((hcond7_0 t).mpr h0) (fun h => by have := (hcond7_1 t).mp h; omega) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) := by
  obtain ⟨n, hn⟩ := t
  cases n with
  | zero => exact rfl
  | succ n => exact (dif_pos h0).trans rfl

/-- `outsAt7` at a point of case C: over what the point before left. -/
theorem outsAt7_C (t : Fin cfg7.N) (h0 : ¬t.val % 4 = 0) (h3 : t.val % 4 = 3) :
    outsAt7 (Name := Name) (U := U) 𝒱₀ c V t.val t.isLt = out7_C (Name := Name) (U := U) 𝒱₀ c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (fun h => h0 ((hcond7_0 t).mp h)) ((hcond7_1 t).mpr h3) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) (outsAt7 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h3).trans rfl)

/-- `outsAt7` at a point of case B: over what the point before left. -/
theorem outsAt7_B (t : Fin cfg7.N) (h0 : ¬t.val % 4 = 0) (h3 : ¬t.val % 4 = 3) :
    outsAt7 (Name := Name) (U := U) 𝒱₀ c V t.val t.isLt = out7_B (Name := Name) (U := U) 𝒱₀ c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) (ms7_7 t) (hs7_7 t) (ms7_8 t) (hs7_8 t) (ms7_9 t) (hs7_9 t) (ms7_10 t) (hs7_10 t) (fun h => h0 ((hcond7_0 t).mp h)) (fun h => h3 ((hcond7_1 t).mp h)) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) (outsAt7 (Name := Name) (U := U) 𝒱₀ c V (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h3).trans rfl)

end Region

end Cert.Proof.KB.Gemv1

end
-- ==== Proof.KbGemv7Frame.lean ====
import proofs.«208418_g89945205112833_cont_sun_c4_809_35_alg».proof.Proof.KbGemv7Outs

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
variable {Name : Type} [DecidableEq Name] {U : Type} [URA U]

local notation "𝕄" => MT nD τ sig (HIx 4) (Elt F) Name U ℕ

section Region
variable (𝒱₀ : Variants) (c : Dev nD) (V : (b : Ref sig .tc) → Buf (Elt F) ((c.tc : Thread nD τ).loc b))

/-! ## The pipeline's proof data -/

/-- The proof data of this pipeline on core `c`: the arrays as the region finds them (`V`); after the body at point
    `t` each input's buffer at its block and the output's at `outsAt7`; a constant invariant `Φ₀` the body does
    not read; the input shares `q₀`; constant tallies `owed₀` and recorded bound `rec₀` (the body neither signals
    nor waits). -/
def dat7 (Φ₀ : sProp 𝕄) (q₀ : Fin cfg7.W → PosShare TreeShare) (owed₀ : CellTallies nD τ sig (HIx 4)) (rec₀ : Set (SemLoc sig × HIx 4)) : Dat τ (Elt F) (HIx 4) Name U ℕ cfg7 c where
  A w := V (Pipeline.arrRef spec7 w)
  after w t := match w with
    | ⟨0, _⟩ => iblk7 c V 0 t
    | ⟨1, _⟩ => iblk7 c V 1 t
    | ⟨2, _⟩ => iblk7 c V 2 t
    | ⟨3, _⟩ => iblk7 c V 3 t
    | ⟨4, _⟩ => iblk7 c V 4 t
    | ⟨5, _⟩ => iblk7 c V 5 t
    | ⟨6, _⟩ => iblk7 c V 6 t
    | ⟨7, _⟩ => iblk7 c V 7 t
    | ⟨8, _⟩ => iblk7 c V 8 t
    | ⟨9, _⟩ => iblk7 c V 9 t
    | ⟨10, _⟩ => outsAt7 (Name := Name) (U := U) 𝒱₀ c V t.val t.isLt
  Φ _ := Φ₀
  q := q₀
  owed _ := owed₀
  recorded _ := rec₀

/-- The proof data's arrays are the region-entry contents. -/
theorem A_eq7 (Φ₀ : sProp 𝕄) (q₀ : Fin cfg7.W → PosShare TreeShare) (owed₀ : CellTallies nD τ sig (HIx 4)) (rec₀ : Set (SemLoc sig × HIx 4)) (w : Fin cfg7.W) : (dat7 𝒱₀ c V Φ₀ q₀ owed₀ rec₀).A w = V (Pipeline.arrRef spec7 w) := by
  dsimp only [dat7]

theorem after7_0 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 0 t = iblk7 c V 0 t := by dsimp only [dat7]
theorem after7_1 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 1 t = iblk7 c V 1 t := by dsimp only [dat7]
theorem after7_2 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 2 t = iblk7 c V 2 t := by dsimp only [dat7]
theorem after7_3 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 3 t = iblk7 c V 3 t := by dsimp only [dat7]
theorem after7_4 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 4 t = iblk7 c V 4 t := by dsimp only [dat7]
theorem after7_5 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 5 t = iblk7 c V 5 t := by dsimp only [dat7]
theorem after7_6 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 6 t = iblk7 c V 6 t := by dsimp only [dat7]
theorem after7_7 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 7 t = iblk7 c V 7 t := by dsimp only [dat7]
theorem after7_8 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 8 t = iblk7 c V 8 t := by dsimp only [dat7]
theorem after7_9 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 9 t = iblk7 c V 9 t := by dsimp only [dat7]
theorem after7_10 (Φ₀ : sProp 𝕄) (q₀ : Fin cfg7.W → PosShare TreeShare) (owed₀ : CellTallies nD τ sig (HIx 4)) (rec₀ : Set (SemLoc sig × HIx 4)) (t : Fin cfg7.N) : (dat7 𝒱₀ c V Φ₀ q₀ owed₀ rec₀).after 10 t = outsAt7 (Name := Name) (U := U) 𝒱₀ c V t.val t.isLt := by dsimp only [dat7]

theorem before7_0 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 0 t d = iblk7 c V 0 t :=
  before7_0_of c V (dat7 𝒱₀ c V Φ₀ q₀ owed₀ rec₀) (A_eq7 𝒱₀ c V Φ₀ q₀ owed₀ rec₀ 0) (after7_0 𝒱₀ c V Φ₀ q₀ owed₀ rec₀) t d
theorem before7_1 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 1 t d = iblk7 c V 1 t :=
  before7_1_of c V (dat7 𝒱₀ c V Φ₀ q₀ owed₀ rec₀) (A_eq7 𝒱₀ c V Φ₀ q₀ owed₀ rec₀ 1) (after7_1 𝒱₀ c V Φ₀ q₀ owed₀ rec₀) t d
theorem before7_2 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 2 t d = iblk7 c V 2 t :=
  before7_2_of c V (dat7 𝒱₀ c V Φ₀ q₀ owed₀ rec₀) (A_eq7 𝒱₀ c V Φ₀ q₀ owed₀ rec₀ 2) (after7_2 𝒱₀ c V Φ₀ q₀ owed₀ rec₀) t d
theorem before7_3 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 3 t d = iblk7 c V 3 t :=
  before7_3_of c V (dat7 𝒱₀ c V Φ₀ q₀ owed₀ rec₀) (A_eq7 𝒱₀ c V Φ₀ q₀ owed₀ rec₀ 3) (after7_3 𝒱₀ c V Φ₀ q₀ owed₀ rec₀) t d
theorem before7_4 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 4 t d = iblk7 c V 4 t :=
  before7_4_of c V (dat7 𝒱₀ c V Φ₀ q₀ owed₀ rec₀) (A_eq7 𝒱₀ c V Φ₀ q₀ owed₀ rec₀ 4) (after7_4 𝒱₀ c V Φ₀ q₀ owed₀ rec₀) t d
theorem before7_5 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 5 t d = iblk7 c V 5 t :=
  before7_5_of c V (dat7 𝒱₀ c V Φ₀ q₀ owed₀ rec₀) (A_eq7 𝒱₀ c V Φ₀ q₀ owed₀ rec₀ 5) (after7_5 𝒱₀ c V Φ₀ q₀ owed₀ rec₀) t d
theorem before7_6 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 6 t d = iblk7 c V 6 t :=
  before7_6_of c V (dat7 𝒱₀ c V Φ₀ q₀ owed₀ rec₀) (A_eq7 𝒱₀ c V Φ₀ q₀ owed₀ rec₀ 6) (after7_6 𝒱₀ c V Φ₀ q₀ owed₀ rec₀) t d
theorem before7_7 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 7 t d = iblk7 c V 7 t :=
  before7_7_of c V (dat7 𝒱₀ c V Φ₀ q₀ owed₀ rec₀) (A_eq7 𝒱₀ c V Φ₀ q₀ owed₀ rec₀ 7) (after7_7 𝒱₀ c V Φ₀ q₀ owed₀ rec₀) t d
theorem before7_8 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 8 t d = iblk7 c V 8 t :=
  before7_8_of c V (dat7 𝒱₀ c V Φ₀ q₀ owed₀ rec₀) (A_eq7 𝒱₀ c V Φ₀ q₀ owed₀ rec₀ 8) (after7_8 𝒱₀ c V Φ₀ q₀ owed₀ rec₀) t d
theorem before7_9 (Φ₀ : sProp 𝕄) (q₀ : Fin cfg7.W → PosShare TreeShare) (owed₀ : CellTallies nD τ sig (HIx 4)) (rec₀ : Set (SemLoc sig × HIx 4)) (t : Fin cfg7.N) (d) : (dat7 𝒱₀ c V Φ₀ q₀ owed₀ rec₀).before 9 t d = iblk7 c V 9 t :=
  before7_9_of c V (dat7 𝒱₀ c V Φ₀ q₀ owed₀ rec₀) (A_eq7 𝒱₀ c V Φ₀ q₀ owed₀ rec₀ 9) (after7_9 𝒱₀ c V Φ₀ q₀ owed₀ rec₀) t d

/-- After the first point the output's current staging buffer holds what the body left at the point before: the
    buffer is written back at the last point only. -/
theorem before7_10_kept (Φ₀ : sProp 𝕄) (q₀ : Fin cfg7.W → PosShare TreeShare) (owed₀ : CellTallies nD τ sig (HIx 4)) (rec₀ : Set (SemLoc sig × HIx 4)) (t : Fin cfg7.N) (h0 : ¬t.val % 4 = 0) (d) :
    (dat7 𝒱₀ c V Φ₀ q₀ owed₀ rec₀).before 10 t d = outsAt7 (Name := Name) (U := U) 𝒱₀ c V (t.val - 1) (Nat.lt_of_le_of_lt (Nat.sub_le _ _) t.isLt) := by
  have hN : t.val < 4 := lt_of_lt_of_eq t.isLt (show cfg7.N = 4 from N_7)
  rw [Dat.before_out_kept _ 10 rfl t (by omega) (Bool.eq_false_iff.mpr fun h => by have := (flush7_10 _).mp h; dsimp only at this; omega)
    (fun _ => rfl) (fun _ _ => rfl)]
  dsimp only [dat7]

/-! ## The body obligation, at a generic point -/

/-- What the body is called with at point `t`, the windows one by one, -/
def bodyPre7 (Φ₀ : sProp 𝕄) (q₀ : Fin cfg7.W → PosShare TreeShare) (owed₀ : CellTallies nD τ sig (HIx 4)) (rec₀ : Set (SemLoc sig × HIx 4)) (t : Fin cfg7.N) : sProp 𝕄 :=
  iprop((dat7 𝒱₀ c V Φ₀ q₀ owed₀ rec₀).Φ t.castSucc ∗ (dat7 𝒱₀ c V Φ₀ q₀ owed₀ rec₀).owesAt none t.castSucc
    ∗ (∃ d, owns (c : Thread nD τ) (ms7_0 t) fullShare ((dat7 𝒱₀ c V Φ₀ q₀ owed₀ rec₀).before 0 t d))
    ∗ (∃ d, owns (c : Thread nD τ) (ms7_1 t) fullShare ((dat7 𝒱₀ c V Φ₀ q₀ owed₀ rec₀).before 1 t d))
    ∗ (∃ d, owns (c : Thread nD τ) (ms7_2 t) fullShare ((dat7 𝒱₀ c V Φ₀ q₀ owed₀ rec₀).before 2 t d))
    ∗ (∃ d, owns (c : Thread nD τ) (ms7_3 t) fullShare ((dat7 𝒱₀ c V Φ₀ q₀ owed₀ rec₀).before 3 t d))
    ∗ (∃ d, owns (c : Thread nD τ) (ms7_4 t) fullShare ((dat7 𝒱₀ c V Φ₀ q₀ owed₀ rec₀).before 4 t d))
    ∗ (∃ d, owns (c : Thread nD τ) (ms7_5 t) fullShare ((dat7 𝒱₀ c V Φ₀ q₀ owed₀ rec₀).before 5 t d))
    ∗ (∃ d, owns (c : Thread nD τ) (ms7_6 t) fullShare ((dat7 𝒱₀ c V Φ₀ q₀ owed₀ rec₀).before 6 t d))
    ∗ (∃ d, owns (c : Thread nD τ) (ms7_7 t) fullShare ((dat7 𝒱₀ c V Φ₀ q₀ owed₀ rec₀).before 7 t d))
    ∗ (∃ d, owns (c : Thread nD τ) (ms7_8 t) fullShare ((dat7 𝒱₀ c V Φ₀ q₀ owed₀ rec₀).before 8 t d))
    ∗ (∃ d, owns (c : Thread nD τ) (ms7_9 t) fullShare ((dat7 𝒱₀ c V Φ₀ q₀ owed₀ rec₀).before 9 t d))
    ∗ (∃ d, owns (c : Thread nD τ) (ms7_10 t) fullShare ((dat7 𝒱₀ c V Φ₀ q₀ owed₀ rec₀).before 10 t d)))

/-- and what it returns. -/
def bodyPost7 (Φ₀ : sProp 𝕄) (q₀ : Fin cfg7.W → PosShare TreeShare) (owed₀ : CellTallies nD τ sig (HIx 4)) (rec₀ : Set (SemLoc sig × HIx 4)) (t : Fin cfg7.N) : sProp 𝕄 :=
  iprop((dat7 𝒱₀ c V Φ₀ q₀ owed₀ rec₀).Φ t.succ ∗ (dat7 𝒱₀ c V Φ₀ q₀ owed₀ rec₀).owesAt none t.succ
    ∗ owns (c : Thread nD τ) (ms7_0 t) fullShare ((dat7 𝒱₀ c V Φ₀ q₀ owed₀ rec₀).after 0 t)
    ∗ owns (c : Thread nD τ) (ms7_1 t) fullShare ((dat7 𝒱₀ c V Φ₀ q₀ owed₀ rec₀).after 1 t)
    ∗ owns (c : Thread nD τ) (ms7_2 t) fullShare ((dat7 𝒱₀ c V Φ₀ q₀ owed₀ rec₀).after 2 t)
    ∗ owns (c : Thread nD τ) (ms7_3 t) fullShare ((dat7 𝒱₀ c V Φ₀ q₀ owed₀ rec₀).after 3 t)
    ∗ owns (c : Thread nD τ) (ms7_4 t) fullShare ((dat7 𝒱₀ c V Φ₀ q₀ owed₀ rec₀).after 4 t)
    ∗ owns (c : Thread nD τ) (ms7_5 t) fullShare ((dat7 𝒱₀ c V Φ₀ q₀ owed₀ rec₀).after 5 t)
    ∗ owns (c : Thread nD τ) (ms7_6 t) fullShare ((dat7 𝒱₀ c V Φ₀ q₀ owed₀ rec₀).after 6 t)
    ∗ owns (c : Thread nD τ) (ms7_7 t) fullShare ((dat7 𝒱₀ c V Φ₀ q₀ owed₀ rec₀).after 7 t)
    ∗ owns (c : Thread nD τ) (ms7_8 t) fullShare ((dat7 𝒱₀ c V Φ₀ q₀ owed₀ rec₀).after 8 t)
    ∗ owns (c : Thread nD τ) (ms7_9 t) fullShare ((dat7 𝒱₀ c V Φ₀ q₀ owed₀ rec₀).after 9 t)
    ∗ owns (c : Thread nD τ) (ms7_10 t) fullShare ((dat7 𝒱₀ c V Φ₀ q₀ owed₀ rec₀).after 10 t))

set_option maxHeartbeats 1600000 in
/-- The body at any point: the inputs' memrefs hold their blocks; the closed forms say which case the point is in, and
    after the first point the output's buffer holds what the point before left; so the case's run applies; the
    invariant and what the core owes pass through unread. -/
theorem sound_body7 (Φ₀ : sProp 𝕄) (q₀ : Fin cfg7.W → PosShare TreeShare) (owed₀ : CellTallies nD τ sig (HIx 4)) (rec₀ : Set (SemLoc sig × HIx 4)) (t : Fin cfg7.N) :
    bodyPre7 (Name := Name) (U := U) 𝒱₀ c V Φ₀ q₀ owed₀ rec₀ t ⊢ wp frame (wpE (defs₀ (F := F)) 𝒱₀ c none) Set.univ (bodyAt7 t) (fun _ => bodyPost7 (Name := Name) (U := U) 𝒱₀ c V Φ₀ q₀ owed₀ rec₀ t) := by
  unfold bodyPre7 bodyPost7 bodyAt7
  simp only [before7_0, before7_1, before7_2, before7_3, before7_4, before7_5, before7_6, before7_7, before7_8, before7_9]
  rw [show (dat7 𝒱₀ c V Φ₀ q₀ owed₀ rec₀).Φ t.succ = (dat7 𝒱₀ c V Φ₀ q₀ owed₀ rec₀).Φ t.castSucc from rfl,
    show (dat7 𝒱₀ c V Φ₀ q₀ owed₀ rec₀).owesAt none t.succ = (dat7 𝒱₀ c V Φ₀ q₀ owed₀ rec₀).owesAt none t.castSucc from rfl,
    after7_0, after7_1, after7_2, after7_3, after7_4, after7_5, after7_6, after7_7, after7_8, after7_9, after7_10]
  have hN : t.val < 4 := lt_of_lt_of_eq t.isLt (show cfg7.N = 4 from N_7)
  by_cases h0 : t.val % 4 = 0
  ·
    rw [outsAt7_A 𝒱₀ c V t h0]
    unfold out7_A
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun7_A (Name := Name) (U := U) 𝒱₀ c (grid7.coords t) _ _ _ _ _ _ _ _ _ _ _ _ _ _ _ _ _ _ _ _ _ _ ((hcond7_0 t).mpr h0) (fun h => by have := (hcond7_1 t).mp h; omega) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    iintro ⟨H0, H1, H2, H3, H4, H5, H6, H7, H8, H9, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (cover7_A 𝒱₀ c _ _ _ _ _ _ _ _ _ _ _ _ _ _ _ _ _ _ _ _ _ _ _ _ _ _ _ _ _ _ _ _ _ _ _)
  · by_cases h3 : t.val % 4 = 3
    ·
      rw [outsAt7_C 𝒱₀ c V t h0 h3]
      simp only [before7_10_kept 𝒱₀ c V Φ₀ q₀ owed₀ rec₀ t h0]
      unfold out7_C
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun7_C (Name := Name) (U := U) 𝒱₀ c (grid7.coords t) _ _ _ _ _ _ _ _ _ _ _ _ _ _ _ _ _ _ _ _ _ _ (fun h => h0 ((hcond7_0 t).mp h)) ((hcond7_1 t).mpr h3) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover7_C 𝒱₀ c _ _ _ _ _ _ _ _ _ _ _ _ _ _ _ _ _ _ _ _ _ _ _ _ _ _ _ _ _ _ _ _ _ _ _ _)
    ·
      rw [outsAt7_B 𝒱₀ c V t h0 h3]
      simp only [before7_10_kept 𝒱₀ c V Φ₀ q₀ owed₀ rec₀ t h0]
      unfold out7_B
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun7_B (Name := Name) (U := U) 𝒱₀ c (grid7.coords t) _ _ _ _ _ _ _ _ _ _ _ _ _ _ _ _ _ _ _ _ _ _ (fun h => h0 ((hcond7_0 t).mp h)) (fun h => h3 ((hcond7_1 t).mp h)) (iblk7 c V 0 t) (iblk7 c V 1 t) (iblk7 c V 2 t) (iblk7 c V 3 t) (iblk7 c V 4 t) (iblk7 c V 5 t) (iblk7 c V 6 t) (iblk7 c V 7 t) (iblk7 c V 8 t) (iblk7 c V 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, ⟨%e10, H10⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover7_B 𝒱₀ c _ _ _ _ _ _ _ _ _ _ _ _ _ _ _ _ _ _ _ _ _ _ _ _ _ _ _ _ _ _ _ _ _ _ _ _)

/-- The library's body obligation, at every point. -/
theorem body_obligation7_exact (Φ₀ : sProp 𝕄) (q₀ : Fin cfg7.W → PosShare TreeShare) (owed₀ : CellTallies nD τ sig (HIx 4)) (rec₀ : Set (SemLoc sig × HIx 4)) : BodyObligation (dat7 (F := F) (Name := Name) (U := U) 𝒱₀ c V Φ₀ q₀ owed₀ rec₀) (defs₀ (F := F)) 𝒱₀ none Set.univ := fun t => by
  rw [bigSep_W7, bigSep_W7]
  exact sound_body7 𝒱₀ c V Φ₀ q₀ owed₀ rec₀ t

/-- The body obligation as the pipeline's loop uses it. -/
theorem body_obligation7 (Φ₀ : sProp 𝕄) (q₀ : Fin cfg7.W → PosShare TreeShare) (owed₀ : CellTallies nD τ sig (HIx 4)) (rec₀ : Set (SemLoc sig × HIx 4)) : BodyObligationLoose (dat7 (F := F) (Name := Name) (U := U) 𝒱₀ c V Φ₀ q₀ owed₀ rec₀) (defs₀ (F := F)) 𝒱₀ none Set.univ :=
  (body_obligation7_exact 𝒱₀ c V Φ₀ q₀ owed₀ rec₀).loose

end Region

end Cert.Proof.KB.Gemv1

end
-- ==== Proof.KbGemv7Entry.lean ====
import proofs.«208418_g89945205112833_cont_sun_c4_809_35_alg».proof.Proof.KbPay
import proofs.«208418_g89945205112833_cont_sun_c4_809_35_alg».proof.Proof.LibScRegion
import proofs.«208418_g89945205112833_cont_sun_c4_809_35_alg».proof.Proof.LibReadShares
import proofs.«208418_g89945205112833_cont_sun_c4_809_35_alg».proof.Proof.KbGemvShares
import proofs.«208418_g89945205112833_cont_sun_c4_809_35_alg».proof.Proof.KbGemv7Frame

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
open Cert.Proof.KB (K 𝒱₀ 𝒱 D EP UU)
open Cert.Proof

local notation "𝕄" => MT nD τ sig (HIx 4) (Elt F) ℕ UU ℕ
local notation "Tc" => SparseCore.T (nD := nD) (τ := τ)

/-! ## The region's proof data at the call site, and its entry and exit -/

/-- The share each input window holds of its array: the gathered row and the bias whole; the eight weight windows, which
    stage one array, one read token each of its full share (the remainder bypasses the region). -/
def q7 : Fin cfg7.W → PosShare TreeShare
  | ⟨0, _⟩ => fullShare
  | ⟨1, _⟩ => Transfers.shareTok fullShare 8 0
  | ⟨2, _⟩ => Transfers.shareTok fullShare 8 1
  | ⟨3, _⟩ => Transfers.shareTok fullShare 8 2
  | ⟨4, _⟩ => Transfers.shareTok fullShare 8 3
  | ⟨5, _⟩ => Transfers.shareTok fullShare 8 4
  | ⟨6, _⟩ => Transfers.shareTok fullShare 8 5
  | ⟨7, _⟩ => Transfers.shareTok fullShare 8 6
  | ⟨8, _⟩ => Transfers.shareTok fullShare 8 7
  | ⟨9, _⟩ => fullShare
  | ⟨10, _⟩ => fullShare

/-- The invariant the body passes through unread: the core's scoped buffers that are no staging buffer. -/
def Φr7 (c : Dev nD) : sProp 𝕄 := Pipeline.scopedRest (Ix := HIx 4) (Name := ℕ) (U := UU) (Lvl := ℕ) (Val := Elt F) spec7 c

/-- The region's proof data on core `c` before call `n`, at entry contents `V`: the debt carried unchanged. -/
def rdat7 (c : Dev nD) (n : ℕ) (V : (b : Ref sig .tc) → Buf (Elt F) ((c.tc : Thread nD τ).loc b)) : Dat τ (Elt F) (HIx 4) ℕ UU ℕ cfg7 c :=
  dat7 (Name := ℕ) (U := UU) 𝒱₀ c V (Φr7 c) q7 ((K (F := F)).Otc c n) (LibScRegion.rcAt (K (F := F)) c n)

/-- What the region is entered from: the debt with its bound, and the four arrays whole. -/
def pre7 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v20) ↦{fullShare} V main_v20) ∗ (((Tc c).loc main_arg8) ↦{fullShare} V main_arg8) ∗ (((Tc c).loc main_v21) ↦{fullShare} V main_v21) ∗ (((Tc c).loc main_v22) ↦{fullShare} V main_v22))

/-- What it leaves: the same, the output array at whatever the region wrote. -/
def post7 (c : Dev nD) (n : ℕ) (V : (b : Ref sig .tc) → Buf (Elt F) ((Tc c).loc b)) : sProp 𝕄 :=
  iprop((∃ W, ⌜(K (F := F)).WBelow (Tc c) W (8 * n)⌝ ∗ owes (Tc c) ((K (F := F)).Otc c n) W)
    ∗ (((Tc c).loc main_v20) ↦{fullShare} V main_v20) ∗ (((Tc c).loc main_arg8) ↦{fullShare} V main_arg8) ∗ (((Tc c).loc main_v21) ↦{fullShare} V main_v21) ∗ (∃ f, ((Tc c).loc main_v22) ↦{fullShare} f))

/-- The weights' share that bypasses the region. -/
def Z7 (c : Dev nD) (V : (b : Ref sig .tc) → Buf (Elt F) ((Tc c).loc b)) : sProp 𝕄 :=
  ((Tc c).loc main_arg8) ↦{Transfers.shareDrop fullShare 8} V main_arg8

/-! ### Each window's array, as the whole buffer behind it at the window's share -/

theorem arrPt7_0 (c : Dev nD) (n : ℕ) (V : (b : Ref sig .tc) → Buf (Elt F) ((Tc c).loc b)) (X : Buf (Elt F) ((cfg7.win 0).arr.view.loc (c.tc : Thread nD τ))) :
    ((cfg7.win 0).arr.view.loc (c.tc : Thread nD τ) ↦[(cfg7.win 0).arr.view.set]{(rdat7 c n V).share 0} X : sProp 𝕄)
      = (((Tc c).loc main_v20) ↦{fullShare} X) := by
  have h : (cfg7.win 0).arr.IsWhole := arr_whole7 0
  rw [h.set_eq_univ]; rfl

theorem arrPt7_1 (c : Dev nD) (n : ℕ) (V : (b : Ref sig .tc) → Buf (Elt F) ((Tc c).loc b)) (X : Buf (Elt F) ((cfg7.win 1).arr.view.loc (c.tc : Thread nD τ))) :
    ((cfg7.win 1).arr.view.loc (c.tc : Thread nD τ) ↦[(cfg7.win 1).arr.view.set]{(rdat7 c n V).share 1} X : sProp 𝕄)
      = (((Tc c).loc main_arg8) ↦{Transfers.shareTok fullShare 8 0} X) := by
  have h : (cfg7.win 1).arr.IsWhole := arr_whole7 1
  rw [h.set_eq_univ]; rfl

theorem arrPt7_2 (c : Dev nD) (n : ℕ) (V : (b : Ref sig .tc) → Buf (Elt F) ((Tc c).loc b)) (X : Buf (Elt F) ((cfg7.win 2).arr.view.loc (c.tc : Thread nD τ))) :
    ((cfg7.win 2).arr.view.loc (c.tc : Thread nD τ) ↦[(cfg7.win 2).arr.view.set]{(rdat7 c n V).share 2} X : sProp 𝕄)
      = (((Tc c).loc main_arg8) ↦{Transfers.shareTok fullShare 8 1} X) := by
  have h : (cfg7.win 2).arr.IsWhole := arr_whole7 2
  rw [h.set_eq_univ]; rfl

theorem arrPt7_3 (c : Dev nD) (n : ℕ) (V : (b : Ref sig .tc) → Buf (Elt F) ((Tc c).loc b)) (X : Buf (Elt F) ((cfg7.win 3).arr.view.loc (c.tc : Thread nD τ))) :
    ((cfg7.win 3).arr.view.loc (c.tc : Thread nD τ) ↦[(cfg7.win 3).arr.view.set]{(rdat7 c n V).share 3} X : sProp 𝕄)
      = (((Tc c).loc main_arg8) ↦{Transfers.shareTok fullShare 8 2} X) := by
  have h : (cfg7.win 3).arr.IsWhole := arr_whole7 3
  rw [h.set_eq_univ]; rfl

theorem arrPt7_4 (c : Dev nD) (n : ℕ) (V : (b : Ref sig .tc) → Buf (Elt F) ((Tc c).loc b)) (X : Buf (Elt F) ((cfg7.win 4).arr.view.loc (c.tc : Thread nD τ))) :
    ((cfg7.win 4).arr.view.loc (c.tc : Thread nD τ) ↦[(cfg7.win 4).arr.view.set]{(rdat7 c n V).share 4} X : sProp 𝕄)
      = (((Tc c).loc main_arg8) ↦{Transfers.shareTok fullShare 8 3} X) := by
  have h : (cfg7.win 4).arr.IsWhole := arr_whole7 4
  rw [h.set_eq_univ]; rfl

theorem arrPt7_5 (c : Dev nD) (n : ℕ) (V : (b : Ref sig .tc) → Buf (Elt F) ((Tc c).loc b)) (X : Buf (Elt F) ((cfg7.win 5).arr.view.loc (c.tc : Thread nD τ))) :
    ((cfg7.win 5).arr.view.loc (c.tc : Thread nD τ) ↦[(cfg7.win 5).arr.view.set]{(rdat7 c n V).share 5} X : sProp 𝕄)
      = (((Tc c).loc main_arg8) ↦{Transfers.shareTok fullShare 8 4} X) := by
  have h : (cfg7.win 5).arr.IsWhole := arr_whole7 5
  rw [h.set_eq_univ]; rfl

theorem arrPt7_6 (c : Dev nD) (n : ℕ) (V : (b : Ref sig .tc) → Buf (Elt F) ((Tc c).loc b)) (X : Buf (Elt F) ((cfg7.win 6).arr.view.loc (c.tc : Thread nD τ))) :
    ((cfg7.win 6).arr.view.loc (c.tc : Thread nD τ) ↦[(cfg7.win 6).arr.view.set]{(rdat7 c n V).share 6} X : sProp 𝕄)
      = (((Tc c).loc main_arg8) ↦{Transfers.shareTok fullShare 8 5} X) := by
  have h : (cfg7.win 6).arr.IsWhole := arr_whole7 6
  rw [h.set_eq_univ]; rfl

theorem arrPt7_7 (c : Dev nD) (n : ℕ) (V : (b : Ref sig .tc) → Buf (Elt F) ((Tc c).loc b)) (X : Buf (Elt F) ((cfg7.win 7).arr.view.loc (c.tc : Thread nD τ))) :
    ((cfg7.win 7).arr.view.loc (c.tc : Thread nD τ) ↦[(cfg7.win 7).arr.view.set]{(rdat7 c n V).share 7} X : sProp 𝕄)
      = (((Tc c).loc main_arg8) ↦{Transfers.shareTok fullShare 8 6} X) := by
  have h : (cfg7.win 7).arr.IsWhole := arr_whole7 7
  rw [h.set_eq_univ]; rfl

theorem arrPt7_8 (c : Dev nD) (n : ℕ) (V : (b : Ref sig .tc) → Buf (Elt F) ((Tc c).loc b)) (X : Buf (Elt F) ((cfg7.win 8).arr.view.loc (c.tc : Thread nD τ))) :
    ((cfg7.win 8).arr.view.loc (c.tc : Thread nD τ) ↦[(cfg7.win 8).arr.view.set]{(rdat7 c n V).share 8} X : sProp 𝕄)
      = (((Tc c).loc main_arg8) ↦{Transfers.shareTok fullShare 8 7} X) := by
  have h : (cfg7.win 8).arr.IsWhole := arr_whole7 8
  rw [h.set_eq_univ]; rfl

theorem arrPt7_9 (c : Dev nD) (n : ℕ) (V : (b : Ref sig .tc) → Buf (Elt F) ((Tc c).loc b)) (X : Buf (Elt F) ((cfg7.win 9).arr.view.loc (c.tc : Thread nD τ))) :
    ((cfg7.win 9).arr.view.loc (c.tc : Thread nD τ) ↦[(cfg7.win 9).arr.view.set]{(rdat7 c n V).share 9} X : sProp 𝕄)
      = (((Tc c).loc main_v21) ↦{fullShare} X) := by
  have h : (cfg7.win 9).arr.IsWhole := arr_whole7 9
  rw [h.set_eq_univ]; rfl

theorem arrPt7_10 (c : Dev nD) (n : ℕ) (V : (b : Ref sig .tc) → Buf (Elt F) ((Tc c).loc b)) (X : Buf (Elt F) ((cfg7.win 10).arr.view.loc (c.tc : Thread nD τ))) :
    ((cfg7.win 10).arr.view.loc (c.tc : Thread nD τ) ↦[(cfg7.win 10).arr.view.set]{(rdat7 c n V).share 10} X : sProp 𝕄)
      = (((Tc c).loc main_v22) ↦{fullShare} X) := by
  have h : (cfg7.win 10).arr.IsWhole := arr_whole7 10
  rw [h.set_eq_univ]; rfl

/-- The arrays at entry are the region-entry contents. -/
theorem arrAt0_7 (c : Dev nD) (n : ℕ) (V : (b : Ref sig .tc) → Buf (Elt F) ((Tc c).loc b)) (w : Fin cfg7.W) :
    (rdat7 c n V).arrAt w 0 = V (Pipeline.arrRef spec7 w) := rfl

/-- An input window's array is never written back. -/
theorem arrAtN_7 (c : Dev nD) (n : ℕ) (V : (b : Ref sig .tc) → Buf (Elt F) ((Tc c).loc b)) (w : Fin cfg7.W) (hw : (cfg7.win w).isOut = false) :
    (rdat7 c n V).arrAt w cfg7.N = V (Pipeline.arrRef spec7 w) := (Dat.arrAt_in _ w hw _).trans rfl

set_option maxHeartbeats 4000000 in
/-- ENTRY: the four arrays whole make the windows' arrays at their shares — the weights' full share split into the
    eight windows' read tokens and a remainder that bypasses the region —, and the debt with its bound is what the
    proof data's first point owes. -/
theorem entry7 (c : Dev nD) (n : ℕ) (V : (b : Ref sig .tc) → Buf (Elt F) ((Tc c).loc b)) :
    pre7 c n V ⊢ iprop((rdat7 c n V).arrays ((rdat7 c n V).arrAt · 0) ∗ (rdat7 c n V).owesAt none 0 ∗ Z7 c V) := by
  unfold Dat.arrays pre7 Z7
  rw [bigSep_W7]
  rw [arrPt7_0 c n V, arrPt7_1 c n V, arrPt7_2 c n V, arrPt7_3 c n V, arrPt7_4 c n V, arrPt7_5 c n V, arrPt7_6 c n V, arrPt7_7 c n V, arrPt7_8 c n V, arrPt7_9 c n V, arrPt7_10 c n V]
  show iprop((∃ W, ⌜(K (F := F)).WBelow (Tc c) W (8 * n)⌝ ∗ owes (Tc c) ((K (F := F)).Otc c n) W) ∗ (((Tc c).loc main_v20) ↦{fullShare} V main_v20) ∗ (((Tc c).loc main_arg8) ↦{fullShare} V main_arg8) ∗ (((Tc c).loc main_v21) ↦{fullShare} V main_v21) ∗ (((Tc c).loc main_v22) ↦{fullShare} V main_v22))
    ⊢ iprop(((((Tc c).loc main_v20) ↦{fullShare} V main_v20) ∗ (((Tc c).loc main_arg8) ↦{Transfers.shareTok fullShare 8 0} V main_arg8) ∗ (((Tc c).loc main_arg8) ↦{Transfers.shareTok fullShare 8 1} V main_arg8) ∗ (((Tc c).loc main_arg8) ↦{Transfers.shareTok fullShare 8 2} V main_arg8) ∗ (((Tc c).loc main_arg8) ↦{Transfers.shareTok fullShare 8 3} V main_arg8) ∗ (((Tc c).loc main_arg8) ↦{Transfers.shareTok fullShare 8 4} V main_arg8) ∗ (((Tc c).loc main_arg8) ↦{Transfers.shareTok fullShare 8 5} V main_arg8) ∗ (((Tc c).loc main_arg8) ↦{Transfers.shareTok fullShare 8 6} V main_arg8) ∗ (((Tc c).loc main_arg8) ↦{Transfers.shareTok fullShare 8 7} V main_arg8) ∗ (((Tc c).loc main_v21) ↦{fullShare} V main_v21) ∗ (((Tc c).loc main_v22) ↦{fullShare} V main_v22)) ∗ (rdat7 c n V).owesAt none 0 ∗ (((Tc c).loc main_arg8) ↦{Transfers.shareDrop fullShare 8} V main_arg8))
  iintro ⟨⟨%W, %hW, HO⟩, Hg, HW, Hb, Ho⟩
  ihave HW' := (split8 (F := F) _ _) $$ HW
  icases HW' with ⟨Hrem, H0, H1, H2, H3, H4, H5, H6, H7⟩
  isplitl [Hg H0 H1 H2 H3 H4 H5 H6 H7 Hb Ho]
  · isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hb]; · iexact Hb
    iexact Ho
  isplitl [HO]
  · iexists W; isplitr
    · ipureintro; exact fun pr hpr => Or.inl (hW pr hpr)
    iexact HO
  iexact Hrem

set_option maxHeartbeats 4000000 in
/-- EXIT: the inputs' arrays were never written, so the eight read tokens and the remainder join into the weights whole
    again; the output's array holds whatever the write-back left; the recorded waits stay within the debt's bound
    (the region's own sit at the kernels' index). -/
theorem exit7 (c : Dev nD) (n : ℕ) (V : (b : Ref sig .tc) → Buf (Elt F) ((Tc c).loc b)) :
    iprop((rdat7 c n V).arrays ((rdat7 c n V).arrAt · cfg7.N) ∗ (rdat7 c n V).owesAt none (Fin.last cfg7.N) ∗ Z7 c V) ⊢ post7 c n V := by
  unfold Dat.arrays post7 Z7
  rw [bigSep_W7]
  rw [arrPt7_0 c n V, arrPt7_1 c n V, arrPt7_2 c n V, arrPt7_3 c n V, arrPt7_4 c n V, arrPt7_5 c n V, arrPt7_6 c n V, arrPt7_7 c n V, arrPt7_8 c n V, arrPt7_9 c n V, arrPt7_10 c n V]
  beta_reduce
  rw [arrAtN_7 c n V 0 rfl, arrAtN_7 c n V 1 rfl, arrAtN_7 c n V 2 rfl, arrAtN_7 c n V 3 rfl, arrAtN_7 c n V 4 rfl, arrAtN_7 c n V 5 rfl, arrAtN_7 c n V 6 rfl, arrAtN_7 c n V 7 rfl, arrAtN_7 c n V 8 rfl, arrAtN_7 c n V 9 rfl]
  show iprop(((((Tc c).loc main_v20) ↦{fullShare} V main_v20) ∗ (((Tc c).loc main_arg8) ↦{Transfers.shareTok fullShare 8 0} V main_arg8) ∗ (((Tc c).loc main_arg8) ↦{Transfers.shareTok fullShare 8 1} V main_arg8) ∗ (((Tc c).loc main_arg8) ↦{Transfers.shareTok fullShare 8 2} V main_arg8) ∗ (((Tc c).loc main_arg8) ↦{Transfers.shareTok fullShare 8 3} V main_arg8) ∗ (((Tc c).loc main_arg8) ↦{Transfers.shareTok fullShare 8 4} V main_arg8) ∗ (((Tc c).loc main_arg8) ↦{Transfers.shareTok fullShare 8 5} V main_arg8) ∗ (((Tc c).loc main_arg8) ↦{Transfers.shareTok fullShare 8 6} V main_arg8) ∗ (((Tc c).loc main_arg8) ↦{Transfers.shareTok fullShare 8 7} V main_arg8) ∗ (((Tc c).loc main_v21) ↦{fullShare} V main_v21) ∗ (((Tc c).loc main_v22) ↦{fullShare} (rdat7 c n V).arrAt 10 cfg7.N)) ∗ (rdat7 c n V).owesAt none (Fin.last cfg7.N) ∗ (((Tc c).loc main_arg8) ↦{Transfers.shareDrop fullShare 8} V main_arg8))
    ⊢ iprop((∃ W, ⌜(K (F := F)).WBelow (Tc c) W (8 * n)⌝ ∗ owes (Tc c) ((K (F := F)).Otc c n) W) ∗ (((Tc c).loc main_v20) ↦{fullShare} V main_v20) ∗ (((Tc c).loc main_arg8) ↦{fullShare} V main_arg8) ∗ (((Tc c).loc main_v21) ↦{fullShare} V main_v21) ∗ (∃ f, ((Tc c).loc main_v22) ↦{fullShare} f))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg7.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexists _; iexact Ho

end Cert.Proof.KB.Gemv1

end
-- ==== Proof.KbGemvRegions.lean ====
import proofs.«208418_g89945205112833_cont_sun_c4_809_35_alg».proof.Proof.KbIface
import proofs.«208418_g89945205112833_cont_sun_c4_809_35_alg».proof.Proof.KbGemv1Entry
import proofs.«208418_g89945205112833_cont_sun_c4_809_35_alg».proof.Proof.KbGemv3Entry
import proofs.«208418_g89945205112833_cont_sun_c4_809_35_alg».proof.Proof.KbGemv5Entry
import proofs.«208418_g89945205112833_cont_sun_c4_809_35_alg».proof.Proof.KbGemv7Entry

set_option maxRecDepth 16384

noncomputable section

namespace Cert.Proof.KB.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen

variable {F : FTy → Type} [FloatOps F]
open Cert.Proof.KB (K 𝒱₀ 𝒱 D EP UU adm regPre regPost RegionStep)
open Cert.Proof

local notation "𝕄" => MT nD τ sig (HIx 4) (Elt F) ℕ UU ℕ
local notation "Tc" => SparseCore.T (nD := nD) (τ := τ)

/-! ## The four TensorCore regions as steps of @main's proof -/

/-- The entry contents on every core, from those on core `d`: the mesh has one device. -/
def Vfam (d : Dev nD) (V : (b : Ref sig .tc) → Buf (Elt F) ((Tc d).loc b)) (c : Dev nD) : (b : Ref sig .tc) → Buf (Elt F) ((Tc c).loc b) :=
  (Subsingleton.elim d c) ▸ V

theorem Vfam_self (d : Dev nD) (V : (b : Ref sig .tc) → Buf (Elt F) ((Tc d).loc b)) : Vfam d V d = V := rfl

/-- Every pipeline's proof data before call `n`, at the entry contents `V` — a literal match, so that the pinned
    configuration at a numeral reduces to the printed one. -/
def pdats (d : Dev nD) (n : ℕ) (V : (b : Ref sig .tc) → Buf (Elt F) ((Tc d).loc b)) :
    (p : Fin 4) → (c : Dev nD) → Dat τ (Elt F) (HIx 4) ℕ UU ℕ (Pipeline.pin (pcfgs (F := F)) adm p) c
  | ⟨0, _⟩ => fun c => rdat1 c n (Vfam d V c)
  | ⟨1, _⟩ => fun c => rdat3 c n (Vfam d V c)
  | ⟨2, _⟩ => fun c => rdat5 c n (Vfam d V c)
  | ⟨3, _⟩ => fun c => rdat7 c n (Vfam d V c)

set_option backward.isDefEq.respectTransparency.types false in
set_option maxHeartbeats 4000000 in
/-- Region 0 (the pallas_call of layer 0) over the thread state: entered from the debt and its four arrays whole, left
    with the output array at what the write-back left. No semaphore of the kernel's own; nothing rides through the
    invariant but the scoped buffers the body does not touch. -/
def reg0 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 0 where
  win := winFacts₀1
  block_pos := block_pos1
  stage_whole := stage_whole1
  K := PEmpty
  osem k := k.elim
  ho := Pipeline.OwnSemFacts.none _
  hbody c := body_obligation1 𝒱₀ c (Vfam d V c) (Φr1 c) q1 ((K (F := F)).Otc c n) (LibScRegion.rcAt (K (F := F)) c n)
  hwaits c := Pipeline.cellsWaits_intro (Pipeline.pin (pcfgs (F := F)) adm) (pdats d n V) none 0 c
    (fun w s t => (K (F := F)).mayWait_none (.dma _) (LibScRegion.Otc_none (K (F := F)) c n))
  pre c := pre1 c n (Vfam d V c)
  post c := post1 c n (Vfam d V c)
  X _ := iprop(emp)
  Y _ := iprop(emp)
  Z c := Z1 c (Vfam d V c)
  hentry c := by
    rw [Pipeline.ownSems0_none]
    iintro ⟨Hpre, -, -⟩
    ihave H := (entry1 c n (Vfam d V c)) $$ Hpre
    icases H with ⟨Ha, Ho, Hz⟩
    imodintro
    isplitl [Ha]; · iexact Ha
    isplitr; · unfold Pipeline.prefHeld; rw [show (Finset.univ : Finset (Fin 0)) = ∅ from rfl, BI.bigSep_empty]; iempintro
    isplitl [Ho]; · iexact Ho
    isplitr; · iempintro
    iexact Hz
  hin c := by
    show iprop(_ ∗ _ ∗ Φr1 c) ⊢ Φr1 c
    iintro ⟨-, -, Hr⟩
    iexact Hr
  hout c := by
    rw [Pipeline.ownSems0_none]
    show Φr1 c ⊢ iprop(_ ∗ _ ∗ Φr1 c)
    iintro Hr
    isplitr; · iempintro
    isplitr; · iempintro
    iexact Hr
  hexit c := by
    iintro ⟨Ha, HO, -, Hz⟩
    imodintro
    iapply (exit1 c n (Vfam d V c))
    isplitl [Ha]; · iexact Ha
    isplitl [HO]; · iexact HO
    iexact Hz

set_option maxHeartbeats 4000000 in
/-- The region's custom call in @main runs from the debt and the four arrays to the continuation, which finds the output
    array at whatever the region left and everything else as it was. -/
theorem region_step0 [∀ e, Nonempty (Elt F e)] : RegionStep (F := F) 0 main_v5 main_arg5 main_v6 main_v7 := fun d n V Φ => by
  have h := LibScRegion.wp_region_step (pcfgs (F := F)) adm (K (F := F)) (pdats d n V) cellOf_inj (EP (F := F)) defs₀ 𝒱₀ (reg0 d n V) d Φ
  exact h

set_option backward.isDefEq.respectTransparency.types false in
set_option maxHeartbeats 4000000 in
/-- Region 1 (the pallas_call of layer 1) over the thread state: entered from the debt and its four arrays whole, left
    with the output array at what the write-back left. No semaphore of the kernel's own; nothing rides through the
    invariant but the scoped buffers the body does not touch. -/
def reg1 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 1 where
  win := winFacts₀3
  block_pos := block_pos3
  stage_whole := stage_whole3
  K := PEmpty
  osem k := k.elim
  ho := Pipeline.OwnSemFacts.none _
  hbody c := body_obligation3 𝒱₀ c (Vfam d V c) (Φr3 c) q3 ((K (F := F)).Otc c n) (LibScRegion.rcAt (K (F := F)) c n)
  hwaits c := Pipeline.cellsWaits_intro (Pipeline.pin (pcfgs (F := F)) adm) (pdats d n V) none 1 c
    (fun w s t => (K (F := F)).mayWait_none (.dma _) (LibScRegion.Otc_none (K (F := F)) c n))
  pre c := pre3 c n (Vfam d V c)
  post c := post3 c n (Vfam d V c)
  X _ := iprop(emp)
  Y _ := iprop(emp)
  Z c := Z3 c (Vfam d V c)
  hentry c := by
    rw [Pipeline.ownSems0_none]
    iintro ⟨Hpre, -, -⟩
    ihave H := (entry3 c n (Vfam d V c)) $$ Hpre
    icases H with ⟨Ha, Ho, Hz⟩
    imodintro
    isplitl [Ha]; · iexact Ha
    isplitr; · unfold Pipeline.prefHeld; rw [show (Finset.univ : Finset (Fin 0)) = ∅ from rfl, BI.bigSep_empty]; iempintro
    isplitl [Ho]; · iexact Ho
    isplitr; · iempintro
    iexact Hz
  hin c := by
    show iprop(_ ∗ _ ∗ Φr3 c) ⊢ Φr3 c
    iintro ⟨-, -, Hr⟩
    iexact Hr
  hout c := by
    rw [Pipeline.ownSems0_none]
    show Φr3 c ⊢ iprop(_ ∗ _ ∗ Φr3 c)
    iintro Hr
    isplitr; · iempintro
    isplitr; · iempintro
    iexact Hr
  hexit c := by
    iintro ⟨Ha, HO, -, Hz⟩
    imodintro
    iapply (exit3 c n (Vfam d V c))
    isplitl [Ha]; · iexact Ha
    isplitl [HO]; · iexact HO
    iexact Hz

set_option maxHeartbeats 4000000 in
/-- The region's custom call in @main runs from the debt and the four arrays to the continuation, which finds the output
    array at whatever the region left and everything else as it was. -/
theorem region_step1 [∀ e, Nonempty (Elt F e)] : RegionStep (F := F) 1 main_v10 main_arg6 main_v11 main_v12 := fun d n V Φ => by
  have h := LibScRegion.wp_region_step (pcfgs (F := F)) adm (K (F := F)) (pdats d n V) cellOf_inj (EP (F := F)) defs₀ 𝒱₀ (reg1 d n V) d Φ
  exact h

set_option backward.isDefEq.respectTransparency.types false in
set_option maxHeartbeats 4000000 in
/-- Region 2 (the pallas_call of layer 2) over the thread state: entered from the debt and its four arrays whole, left
    with the output array at what the write-back left. No semaphore of the kernel's own; nothing rides through the
    invariant but the scoped buffers the body does not touch. -/
def reg2 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 2 where
  win := winFacts₀5
  block_pos := block_pos5
  stage_whole := stage_whole5
  K := PEmpty
  osem k := k.elim
  ho := Pipeline.OwnSemFacts.none _
  hbody c := body_obligation5 𝒱₀ c (Vfam d V c) (Φr5 c) q5 ((K (F := F)).Otc c n) (LibScRegion.rcAt (K (F := F)) c n)
  hwaits c := Pipeline.cellsWaits_intro (Pipeline.pin (pcfgs (F := F)) adm) (pdats d n V) none 2 c
    (fun w s t => (K (F := F)).mayWait_none (.dma _) (LibScRegion.Otc_none (K (F := F)) c n))
  pre c := pre5 c n (Vfam d V c)
  post c := post5 c n (Vfam d V c)
  X _ := iprop(emp)
  Y _ := iprop(emp)
  Z c := Z5 c (Vfam d V c)
  hentry c := by
    rw [Pipeline.ownSems0_none]
    iintro ⟨Hpre, -, -⟩
    ihave H := (entry5 c n (Vfam d V c)) $$ Hpre
    icases H with ⟨Ha, Ho, Hz⟩
    imodintro
    isplitl [Ha]; · iexact Ha
    isplitr; · unfold Pipeline.prefHeld; rw [show (Finset.univ : Finset (Fin 0)) = ∅ from rfl, BI.bigSep_empty]; iempintro
    isplitl [Ho]; · iexact Ho
    isplitr; · iempintro
    iexact Hz
  hin c := by
    show iprop(_ ∗ _ ∗ Φr5 c) ⊢ Φr5 c
    iintro ⟨-, -, Hr⟩
    iexact Hr
  hout c := by
    rw [Pipeline.ownSems0_none]
    show Φr5 c ⊢ iprop(_ ∗ _ ∗ Φr5 c)
    iintro Hr
    isplitr; · iempintro
    isplitr; · iempintro
    iexact Hr
  hexit c := by
    iintro ⟨Ha, HO, -, Hz⟩
    imodintro
    iapply (exit5 c n (Vfam d V c))
    isplitl [Ha]; · iexact Ha
    isplitl [HO]; · iexact HO
    iexact Hz

set_option maxHeartbeats 4000000 in
/-- The region's custom call in @main runs from the debt and the four arrays to the continuation, which finds the output
    array at whatever the region left and everything else as it was. -/
theorem region_step2 [∀ e, Nonempty (Elt F e)] : RegionStep (F := F) 2 main_v15 main_arg7 main_v16 main_v17 := fun d n V Φ => by
  have h := LibScRegion.wp_region_step (pcfgs (F := F)) adm (K (F := F)) (pdats d n V) cellOf_inj (EP (F := F)) defs₀ 𝒱₀ (reg2 d n V) d Φ
  exact h

set_option backward.isDefEq.respectTransparency.types false in
set_option maxHeartbeats 4000000 in
/-- Region 3 (the pallas_call of layer 3) over the thread state: entered from the debt and its four arrays whole, left
    with the output array at what the write-back left. No semaphore of the kernel's own; nothing rides through the
    invariant but the scoped buffers the body does not touch. -/
def reg3 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 3 where
  win := winFacts₀7
  block_pos := block_pos7
  stage_whole := stage_whole7
  K := PEmpty
  osem k := k.elim
  ho := Pipeline.OwnSemFacts.none _
  hbody c := body_obligation7 𝒱₀ c (Vfam d V c) (Φr7 c) q7 ((K (F := F)).Otc c n) (LibScRegion.rcAt (K (F := F)) c n)
  hwaits c := Pipeline.cellsWaits_intro (Pipeline.pin (pcfgs (F := F)) adm) (pdats d n V) none 3 c
    (fun w s t => (K (F := F)).mayWait_none (.dma _) (LibScRegion.Otc_none (K (F := F)) c n))
  pre c := pre7 c n (Vfam d V c)
  post c := post7 c n (Vfam d V c)
  X _ := iprop(emp)
  Y _ := iprop(emp)
  Z c := Z7 c (Vfam d V c)
  hentry c := by
    rw [Pipeline.ownSems0_none]
    iintro ⟨Hpre, -, -⟩
    ihave H := (entry7 c n (Vfam d V c)) $$ Hpre
    icases H with ⟨Ha, Ho, Hz⟩
    imodintro
    isplitl [Ha]; · iexact Ha
    isplitr; · unfold Pipeline.prefHeld; rw [show (Finset.univ : Finset (Fin 0)) = ∅ from rfl, BI.bigSep_empty]; iempintro
    isplitl [Ho]; · iexact Ho
    isplitr; · iempintro
    iexact Hz
  hin c := by
    show iprop(_ ∗ _ ∗ Φr7 c) ⊢ Φr7 c
    iintro ⟨-, -, Hr⟩
    iexact Hr
  hout c := by
    rw [Pipeline.ownSems0_none]
    show Φr7 c ⊢ iprop(_ ∗ _ ∗ Φr7 c)
    iintro Hr
    isplitr; · iempintro
    isplitr; · iempintro
    iexact Hr
  hexit c := by
    iintro ⟨Ha, HO, -, Hz⟩
    imodintro
    iapply (exit7 c n (Vfam d V c))
    isplitl [Ha]; · iexact Ha
    isplitl [HO]; · iexact HO
    iexact Hz

set_option maxHeartbeats 4000000 in
/-- The region's custom call in @main runs from the debt and the four arrays to the continuation, which finds the output
    array at whatever the region left and everything else as it was. -/
theorem region_step3 [∀ e, Nonempty (Elt F e)] : RegionStep (F := F) 3 main_v20 main_arg8 main_v21 main_v22 := fun d n V Φ => by
  have h := LibScRegion.wp_region_step (pcfgs (F := F)) adm (K (F := F)) (pdats d n V) cellOf_inj (EP (F := F)) defs₀ 𝒱₀ (reg3 d n V) d Φ
  exact h

end Cert.Proof.KB.Gemv1

end
-- ==== Proof.PreRanges.lean ====
/-
  The precondition's integer conjuncts decoded, for any float instance: the precondition is one bit, the `and` of
  twenty-one `all`s; the last four say that each index table's entries, read as signed words, lie in
  [0, 4096·(i+1) − 1]. A word in such a range is its own unsigned value, below 16384.
-/
import proofs.«208418_g89945205112833_cont_sun_c4_809_35_alg».proof.Pre_input_domain
import proofs.«208418_g89945205112833_cont_sun_c4_809_35_alg».proof.Proof.Gen.Pre_input_domain
import Idealize.ShloMosaic.Lib.ReduceAll
import Idealize.ShloMosaic.Lib.ValueIdx

namespace Cert.Proof.PreRanges

open Idealize.ShloMosaic Idealize.ShloMosaic.ValueIdx Cert.Pre_input_domain

variable {F : FTy → Type} [FloatOps F] [Cert.Pre_input_domain.Facts]

open Cert.Pre_input_domain.Facts

instance : Subsingleton S_.Idx := ⟨fun a b => funext fun d => d.elim0⟩

/-- A vector `and` that is 1 at an index has both operands 1 there. -/
theorem vandi_eq_one {s : Shape} (a b : IVec s 1) (i : s.Idx) (h : andi a b i = 1#1) : a i = 1#1 ∧ b i = 1#1 :=
  IntOp.andi_eq_one.1 h

/-- One `all(0 ≤ t ∧ t ≤ c)` of the precondition, read back at an entry. -/
theorem range_of_all (t : IVec S4096 32) (c : BitVec 32) (j : S_.Idx)
    (h : Host.reduce IntOp.andi
        (andi (cmpi .sge t (broadcastInDim S4096 ![] bcast_S_S4096 (constantI S_ 32 0#32)))
          (cmpi .sle t (broadcastInDim S4096 ![] bcast_S_S4096 (constantI S_ 32 c))))
        (constantI S_ 1 1#1) reducesTo_S4096_S_d0 h_S_ j = 1#1)
    (e : S4096.Idx) : 0 ≤ (t e).toInt ∧ (t e).toInt ≤ c.toInt := by
  have h1 := Host.reduce_andi_all _ _ _ _ _ h e
  have h2 : IntOp.andi (IntOp.cmpi .sge (t e) 0#32) (IntOp.cmpi .sle (t e) c) = 1#1 := h1
  obtain ⟨ha, hb⟩ := IntOp.andi_eq_one.1 h2
  have ha' := IntOp.cmpi_sge.1 ha
  have hb' := IntOp.cmpi_sle.1 hb
  have z : (0#32 : BitVec 32).toInt = 0 := by decide
  exact ⟨by omega, hb'⟩

/-- THE INTEGER CONJUNCTS, signed: table `i`'s entries lie in [0, 4096·(i+1) − 1]. -/
theorem ranges_int (a0 : FVec F S4096 .f32) (n0 n1 n2 n3 : IVec S4096 32) (W0 W1 W2 : FVec F S4096x4096 .f32)
    (W3 : FVec F S4096x2048 .f32) (b0 b1 b2 : FVec F S4096 .f32) (b3 : FVec F S2048 .f32)
    (h : Cert.Pre_input_domain.fn (F := F) a0 n0 n1 n2 n3 W0 W1 W2 W3 b0 b1 b2 b3 = fun _ => 1#1) :
    (∀ j, 0 ≤ (n0 j).toInt ∧ (n0 j).toInt ≤ 4095) ∧ (∀ j, 0 ≤ (n1 j).toInt ∧ (n1 j).toInt ≤ 8191)
    ∧ (∀ j, 0 ≤ (n2 j).toInt ∧ (n2 j).toInt ≤ 12287) ∧ (∀ j, 0 ≤ (n3 j).toInt ∧ (n3 j).toInt ≤ 16383) := by
  have e := congrFun h ix0
  simp only [Cert.Pre_input_domain.fn, Cert.Pre_input_domain.fn_part1, Cert.Pre_input_domain.fn_part2,
    Cert.Pre_input_domain.fn_part3, Cert.Pre_input_domain.fn_part4] at e
  obtain ⟨e, h4⟩ := vandi_eq_one _ _ _ e
  obtain ⟨e, h3⟩ := vandi_eq_one _ _ _ e
  obtain ⟨e, h2⟩ := vandi_eq_one _ _ _ e
  obtain ⟨-, h1⟩ := vandi_eq_one _ _ _ e
  have c1 : (4095#32 : BitVec 32).toInt = 4095 := by decide
  have c2 : (8191#32 : BitVec 32).toInt = 8191 := by decide
  have c3 : (12287#32 : BitVec 32).toInt = 12287 := by decide
  have c4 : (16383#32 : BitVec 32).toInt = 16383 := by decide
  refine ⟨fun j => ?_, fun j => ?_, fun j => ?_, fun j => ?_⟩
  · have := range_of_all _ _ _ h1 j
    omega
  · have := range_of_all _ _ _ h2 j
    omega
  · have := range_of_all _ _ _ h3 j
    omega
  · have := range_of_all _ _ _ h4 j
    omega

/-- A signed word in [0, c] with c below 2³¹ is its unsigned value, at most c. -/
theorem toNat_le_of_toInt (w : BitVec 32) (c : Nat) (hc : c < 2 ^ 31) (h0 : 0 ≤ w.toInt) (h1 : w.toInt ≤ (c : Int)) :
    w.toNat ≤ c := by
  have e := BitVec.toInt_eq_toNat_cond w
  have := w.isLt
  split at e <;> omega

/-- THE INTEGER CONJUNCTS, unsigned and per table: table `i`'s entries are below 4096·(i+1). -/
theorem ranges_nat (a0 : FVec F S4096 .f32) (n0 n1 n2 n3 : IVec S4096 32) (W0 W1 W2 : FVec F S4096x4096 .f32)
    (W3 : FVec F S4096x2048 .f32) (b0 b1 b2 : FVec F S4096 .f32) (b3 : FVec F S2048 .f32)
    (h : Cert.Pre_input_domain.fn (F := F) a0 n0 n1 n2 n3 W0 W1 W2 W3 b0 b1 b2 b3 = fun _ => 1#1) :
    (∀ j, (n0 j).toNat < 4096) ∧ (∀ j, (n1 j).toNat < 8192) ∧ (∀ j, (n2 j).toNat < 12288) ∧ (∀ j, (n3 j).toNat < 16384) := by
  obtain ⟨r0, r1, r2, r3⟩ := ranges_int a0 n0 n1 n2 n3 W0 W1 W2 W3 b0 b1 b2 b3 h
  refine ⟨fun j => ?_, fun j => ?_, fun j => ?_, fun j => ?_⟩
  · have := toNat_le_of_toInt (n0 j) 4095 (by omega) (r0 j).1 (by have := (r0 j).2; omega)
    omega
  · have := toNat_le_of_toInt (n1 j) 8191 (by omega) (r1 j).1 (by have := (r1 j).2; omega)
    omega
  · have := toNat_le_of_toInt (n2 j) 12287 (by omega) (r2 j).1 (by have := (r2 j).2; omega)
    omega
  · have := toNat_le_of_toInt (n3 j) 16383 (by omega) (r3 j).1 (by have := (r3 j).2; omega)
    omega

/-- THE INTEGER CONJUNCTS as the gathers need them: every entry of every table is below 16384, unsigned. -/
theorem ranges (a0 : FVec F S4096 .f32) (n0 n1 n2 n3 : IVec S4096 32) (W0 W1 W2 : FVec F S4096x4096 .f32)
    (W3 : FVec F S4096x2048 .f32) (b0 b1 b2 : FVec F S4096 .f32) (b3 : FVec F S2048 .f32)
    (h : Cert.Pre_input_domain.fn (F := F) a0 n0 n1 n2 n3 W0 W1 W2 W3 b0 b1 b2 b3 = fun _ => 1#1) :
    (∀ j, (n0 j).toNat < 16384) ∧ (∀ j, (n1 j).toNat < 16384) ∧ (∀ j, (n2 j).toNat < 16384) ∧ (∀ j, (n3 j).toNat < 16384) := by
  obtain ⟨r0, r1, r2, r3⟩ := ranges_nat a0 n0 n1 n2 n3 W0 W1 W2 W3 b0 b1 b2 b3 h
  exact ⟨fun j => by have := r0 j; omega, fun j => by have := r1 j; omega, fun j => by have := r2 j; omega, r3⟩

end Cert.Proof.PreRanges
-- ==== Proof.PreKernel.lean ====
/-
  The precondition gives what the gather calls ask of the launch memory: every word of the four index vectors names
  a slot of the state, for the idealized kernel and for the word-level kernel alike.
-/
import proofs.«208418_g89945205112833_cont_sun_c4_809_35_alg».proof.Defs
import proofs.«208418_g89945205112833_cont_sun_c4_809_35_alg».proof.Proof.PreRanges
import proofs.«208418_g89945205112833_cont_sun_c4_809_35_alg».proof.Proof.ScPay
import proofs.«208418_g89945205112833_cont_sun_c4_809_35_alg».proof.Proof.KbPay

namespace Cert.Proof

open Idealize.ShloMosaic Idealize.SL.Sem

theorem ok_of_pre_ideal
    (m : (ℓ : Loc Cert.KernelIdeal.nD Cert.KernelIdeal.τ Cert.KernelIdeal.sig) → Buf (Elt Ideal) ℓ)
    (h : @Cert.Pre_KernelIdeal Cert.Pre_input_domain.Gen.facts m) : Cert.Proof.KI.PreOK (F := Ideal) m := by
  intro d
  obtain ⟨r0, r1, r2, r3⟩ :=
    @Cert.Proof.PreRanges.ranges Ideal _ Cert.Pre_input_domain.Gen.facts _ _ _ _ _ _ _ _ _ _ _ _ _ (h d)
  exact ⟨fun j => r0 j, fun j => r1 j, fun j => r2 j, fun j => r3 j⟩

theorem ok_of_pre_bits
    (m : (ℓ : Loc Cert.Kernel.nD Cert.Kernel.τ Cert.Kernel.sig) → Buf (Elt Bits) ℓ)
    (h : @Cert.Pre_Kernel Cert.Pre_input_domain.Gen.facts m) : Cert.Proof.KB.PreOK (F := Bits) m := by
  intro d
  obtain ⟨r0, r1, r2, r3⟩ :=
    @Cert.Proof.PreRanges.ranges Bits _ Cert.Pre_input_domain.Gen.facts _ _ _ _ _ _ _ _ _ _ _ _ _ (h d)
  exact ⟨fun j => r0 j, fun j => r1 j, fun j => r2 j, fun j => r3 j⟩

end Cert.Proof
-- ==== Proof.RefOps.lean ====
/-
  The reference program's @main as a list of its host operations, the calls of its two module-local functions
  unfolded at their call sites, and its run: every weakly fair execution terminates with each buffer at the
  operations' fold over the launch contents. The list is cut into twelve consecutive stretches — the state's
  construction, then per layer the gather (one call), the dense layer (three operations) and the next write of
  the state (nine operations) — so that each stretch can be evaluated on its own.
-/
import proofs.«208418_g89945205112833_cont_sun_c4_809_35_alg».proof.Proof.Gen.ReferenceIdeal
import Idealize.ShloMosaic.Lib.StableHlo.Run
import Idealize.ShloMosaic.Lib.Pipeline.Frame

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The gather function's twenty-two operations over its two operands and one call's buffers (the select of the
    function it calls in its place, seventh). -/
abbrev takeOps (arg0 : TRef sig ⟨S18432, .f32⟩) (arg1 : TRef sig ⟨S4096, .i32⟩) (φ : fn_take.Bufs) :
    List (HloOp τ sig (Elt F)) :=
  [ StableHlo.TRef.nullary φ.c (constantI S_ 32 0#32),
    StableHlo.TRef.unary φ.c φ.v0 (broadcastInDim S4096 ![] bcast_S_S4096),
    StableHlo.TRef.binary arg1 φ.v0 φ.v1 (cmpi .slt),
    StableHlo.TRef.nullary φ.c_0 (constantI S_ 32 18432#32),
    StableHlo.TRef.unary φ.c_0 φ.v2 (broadcastInDim S4096 ![] bcast_S_S4096),
    StableHlo.TRef.binary arg1 φ.v2 φ.v3 addi,
    StableHlo.TRef.ternary φ.v1 φ.v3 arg1 φ.call0.v0 select,
    StableHlo.TRef.unary φ.call0.v0 φ.v5 (broadcastInDim S4096x1 ![0] bcast_S4096_S4096x1_0),
    StableHlo.TRef.nullary φ.c_1 (constantI S1 32 18431#32),
    StableHlo.TRef.nullary φ.c_2 (constantI S_ 32 0#32),
    StableHlo.TRef.unary φ.c_2 φ.v6 (broadcastInDim S4096x1 ![] bcast_S_S4096x1),
    StableHlo.TRef.binary φ.v5 φ.v6 φ.v7 (cmpi .sge),
    StableHlo.TRef.unary φ.c_1 φ.v8 (broadcastInDim S1x1 ![1] bcast_S1_S1x1_1),
    StableHlo.TRef.unary φ.v8 φ.v9 (broadcastInDim S4096x1 ![0, 1] bcast_S1x1_S4096x1_0_1),
    StableHlo.TRef.binary φ.v5 φ.v9 φ.v10 (cmpi .sle),
    StableHlo.TRef.binary φ.v7 φ.v10 φ.v11 andi,
    StableHlo.TRef.nullary φ.c_3 (constantI S_ 1 1#1),
    StableHlo.TRef.binary φ.v11 φ.c_3 φ.v12 (fun x v => Host.reduce IntOp.andi x v reducesTo_S4096x1_S4096_d1 h_S_),
    StableHlo.TRef.binary arg0 φ.v5 φ.v13 (fun x i => Host.gather gather_S18432_S4096x1_S4096_n_0_n_n_0_1_1 x i),
    StableHlo.TRef.nullary φ.cst (constant S_ .f32 0x7FC00000#32),
    StableHlo.TRef.unary φ.cst φ.v14 (broadcastInDim S4096 ![] bcast_S_S4096),
    StableHlo.TRef.ternary φ.v12 φ.v13 φ.v14 φ.v15 select ]

/-- The function's body is that line. -/
theorem take_eq (arg0 : TRef sig ⟨S18432, .f32⟩) (arg1 : TRef sig ⟨S4096, .i32⟩) (φ : fn_take.Bufs) :
    fn_take.body (F := F) arg0 arg1 φ = seq (takeOps arg0 arg1 φ) := rfl

/-- Stretch `opsA0`: 24 operations of @main. -/
abbrev opsA0 : List (HloOp τ sig (Elt F)) :=
  [ StableHlo.nullary main_v0 (iotaInDim S4096 32 0),
    StableHlo.nullary main_v1 (iotaInDim S4096 32 0),
    StableHlo.nullary main_c (constantI S_ 32 4096#32),
    StableHlo.unary main_c main_v2 (broadcastInDim S4096 ![] bcast_S_S4096 : (⟨S_, .i32⟩ : BufTy).Contents (Elt F) → (⟨S4096, .i32⟩ : BufTy).Contents (Elt F)),
    StableHlo.binary main_v2 main_v1 main_v3 (addi : (⟨S4096, .i32⟩ : BufTy).Contents (Elt F) → (⟨S4096, .i32⟩ : BufTy).Contents (Elt F) → (⟨S4096, .i32⟩ : BufTy).Contents (Elt F)),
    StableHlo.nullary main_v4 (iotaInDim S4096 32 0),
    StableHlo.nullary main_c_0 (constantI S_ 32 8192#32),
    StableHlo.unary main_c_0 main_v5 (broadcastInDim S4096 ![] bcast_S_S4096 : (⟨S_, .i32⟩ : BufTy).Contents (Elt F) → (⟨S4096, .i32⟩ : BufTy).Contents (Elt F)),
    StableHlo.binary main_v5 main_v4 main_v6 (addi : (⟨S4096, .i32⟩ : BufTy).Contents (Elt F) → (⟨S4096, .i32⟩ : BufTy).Contents (Elt F) → (⟨S4096, .i32⟩ : BufTy).Contents (Elt F)),
    StableHlo.nullary main_v7 (iotaInDim S4096 32 0),
    StableHlo.nullary main_c_1 (constantI S_ 32 12288#32),
    StableHlo.unary main_c_1 main_v8 (broadcastInDim S4096 ![] bcast_S_S4096 : (⟨S_, .i32⟩ : BufTy).Contents (Elt F) → (⟨S4096, .i32⟩ : BufTy).Contents (Elt F)),
    StableHlo.binary main_v8 main_v7 main_v9 (addi : (⟨S4096, .i32⟩ : BufTy).Contents (Elt F) → (⟨S4096, .i32⟩ : BufTy).Contents (Elt F) → (⟨S4096, .i32⟩ : BufTy).Contents (Elt F)),
    StableHlo.nullary main_cst (constant S_ .f32 0x00000000#32),
    StableHlo.unary main_cst main_v10 (broadcastInDim S18432 ![] bcast_S_S18432 : (⟨S_, .f32⟩ : BufTy).Contents (Elt F) → (⟨S18432, .f32⟩ : BufTy).Contents (Elt F)),
    StableHlo.nullary main_c_2 (constantI S_ 32 0#32),
    StableHlo.unary main_c_2 main_v11 (broadcastInDim S4096 ![] bcast_S_S4096 : (⟨S_, .i32⟩ : BufTy).Contents (Elt F) → (⟨S4096, .i32⟩ : BufTy).Contents (Elt F)),
    StableHlo.binary main_v0 main_v11 main_v12 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 18432#32),
    StableHlo.unary main_c_3 main_v13 (broadcastInDim S4096 ![] bcast_S_S4096 : (⟨S_, .i32⟩ : BufTy).Contents (Elt F) → (⟨S4096, .i32⟩ : BufTy).Contents (Elt F)),
    StableHlo.binary main_v0 main_v13 main_v14 (addi : (⟨S4096, .i32⟩ : BufTy).Contents (Elt F) → (⟨S4096, .i32⟩ : BufTy).Contents (Elt F) → (⟨S4096, .i32⟩ : BufTy).Contents (Elt F)),
    StableHlo.ternary main_v12 main_v14 main_v0 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v15 main_v16 (broadcastInDim S4096x1 ![0] bcast_S4096_S4096x1_0 : (⟨S4096, .i32⟩ : BufTy).Contents (Elt F) → (⟨S4096x1, .i32⟩ : BufTy).Contents (Elt F)),
    StableHlo.ternary main_v10 main_v16 main_arg0 main_v17 ((fun x i u => Host.scatter scatter_S18432_S4096x1_S4096_n_0_0_1 (fun _ b => b) x i u) : (⟨S18432, .f32⟩ : BufTy).Contents (Elt F) → (⟨S4096x1, .i32⟩ : BufTy).Contents (Elt F) → (⟨S4096, .f32⟩ : BufTy).Contents (Elt F) → (⟨S18432, .f32⟩ : BufTy).Contents (Elt F)) ]

/-- Stretch `opsT0`: the gather call over record `main_call0`. -/
abbrev opsT0 : List (HloOp τ sig (Elt F)) :=
  takeOps (.of main_v17) (.of main_arg1) main_call0

/-- Stretch `opsB0`: 3 operations of @main. -/
abbrev opsB0 : List (HloOp τ sig (Elt F)) :=
  [ StableHlo.binary main_v18 main_arg5 main_v19 ((fun l r => Host.dotGeneral dot_S4096_S4096x4096_S4096_0_0_n_1_n_n none l r) : (⟨S4096, .f32⟩ : BufTy).Contents (Elt F) → (⟨S4096x4096, .f32⟩ : BufTy).Contents (Elt F) → (⟨S4096, .f32⟩ : BufTy).Contents (Elt F)),
    StableHlo.binary main_v19 main_arg9 main_v20 (addf : (⟨S4096, .f32⟩ : BufTy).Contents (Elt F) → (⟨S4096, .f32⟩ : BufTy).Contents (Elt F) → (⟨S4096, .f32⟩ : BufTy).Contents (Elt F)),
    StableHlo.unary main_v20 main_v21 (Host.tanh : (⟨S4096, .f32⟩ : BufTy).Contents (Elt F) → (⟨S4096, .f32⟩ : BufTy).Contents (Elt F)) ]

/-- Stretch `opsA1`: 9 operations of @main. -/
abbrev opsA1 : List (HloOp τ sig (Elt F)) :=
  [ StableHlo.nullary main_c_4 (constantI S_ 32 0#32),
    StableHlo.unary main_c_4 main_v22 (broadcastInDim S4096 ![] bcast_S_S4096 : (⟨S_, .i32⟩ : BufTy).Contents (Elt F) → (⟨S4096, .i32⟩ : BufTy).Contents (Elt F)),
    StableHlo.binary main_v3 main_v22 main_v23 (cmpi .slt : (⟨S4096, .i32⟩ : BufTy).Contents (Elt F) → (⟨S4096, .i32⟩ : BufTy).Contents (Elt F) → (⟨S4096, .i1⟩ : BufTy).Contents (Elt F)),
    StableHlo.nullary main_c_5 (constantI S_ 32 18432#32),
    StableHlo.unary main_c_5 main_v24 (broadcastInDim S4096 ![] bcast_S_S4096 : (⟨S_, .i32⟩ : BufTy).Contents (Elt F) → (⟨S4096, .i32⟩ : BufTy).Contents (Elt F)),
    StableHlo.binary main_v3 main_v24 main_v25 (addi : (⟨S4096, .i32⟩ : BufTy).Contents (Elt F) → (⟨S4096, .i32⟩ : BufTy).Contents (Elt F) → (⟨S4096, .i32⟩ : BufTy).Contents (Elt F)),
    StableHlo.ternary main_v23 main_v25 main_v3 main_v26 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v26 main_v27 (broadcastInDim S4096x1 ![0] bcast_S4096_S4096x1_0 : (⟨S4096, .i32⟩ : BufTy).Contents (Elt F) → (⟨S4096x1, .i32⟩ : BufTy).Contents (Elt F)),
    StableHlo.ternary main_v17 main_v27 main_v21 main_v28 ((fun x i u => Host.scatter scatter_S18432_S4096x1_S4096_n_0_0_1 (fun _ b => b) x i u) : (⟨S18432, .f32⟩ : BufTy).Contents (Elt F) → (⟨S4096x1, .i32⟩ : BufTy).Contents (Elt F) → (⟨S4096, .f32⟩ : BufTy).Contents (Elt F) → (⟨S18432, .f32⟩ : BufTy).Contents (Elt F)) ]

/-- Stretch `opsT1`: the gather call over record `main_call1`. -/
abbrev opsT1 : List (HloOp τ sig (Elt F)) :=
  takeOps (.of main_v28) (.of main_arg2) main_call1

/-- Stretch `opsB1`: 3 operations of @main. -/
abbrev opsB1 : List (HloOp τ sig (Elt F)) :=
  [ StableHlo.binary main_v29 main_arg6 main_v30 ((fun l r => Host.dotGeneral dot_S4096_S4096x4096_S4096_0_0_n_1_n_n none l r) : (⟨S4096, .f32⟩ : BufTy).Contents (Elt F) → (⟨S4096x4096, .f32⟩ : BufTy).Contents (Elt F) → (⟨S4096, .f32⟩ : BufTy).Contents (Elt F)),
    StableHlo.binary main_v30 main_arg10 main_v31 (addf : (⟨S4096, .f32⟩ : BufTy).Contents (Elt F) → (⟨S4096, .f32⟩ : BufTy).Contents (Elt F) → (⟨S4096, .f32⟩ : BufTy).Contents (Elt F)),
    StableHlo.unary main_v31 main_v32 (Host.tanh : (⟨S4096, .f32⟩ : BufTy).Contents (Elt F) → (⟨S4096, .f32⟩ : BufTy).Contents (Elt F)) ]

/-- Stretch `opsA2`: 9 operations of @main. -/
abbrev opsA2 : List (HloOp τ sig (Elt F)) :=
  [ StableHlo.nullary main_c_6 (constantI S_ 32 0#32),
    StableHlo.unary main_c_6 main_v33 (broadcastInDim S4096 ![] bcast_S_S4096 : (⟨S_, .i32⟩ : BufTy).Contents (Elt F) → (⟨S4096, .i32⟩ : BufTy).Contents (Elt F)),
    StableHlo.binary main_v6 main_v33 main_v34 (cmpi .slt : (⟨S4096, .i32⟩ : BufTy).Contents (Elt F) → (⟨S4096, .i32⟩ : BufTy).Contents (Elt F) → (⟨S4096, .i1⟩ : BufTy).Contents (Elt F)),
    StableHlo.nullary main_c_7 (constantI S_ 32 18432#32),
    StableHlo.unary main_c_7 main_v35 (broadcastInDim S4096 ![] bcast_S_S4096 : (⟨S_, .i32⟩ : BufTy).Contents (Elt F) → (⟨S4096, .i32⟩ : BufTy).Contents (Elt F)),
    StableHlo.binary main_v6 main_v35 main_v36 (addi : (⟨S4096, .i32⟩ : BufTy).Contents (Elt F) → (⟨S4096, .i32⟩ : BufTy).Contents (Elt F) → (⟨S4096, .i32⟩ : BufTy).Contents (Elt F)),
    StableHlo.ternary main_v34 main_v36 main_v6 main_v37 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v37 main_v38 (broadcastInDim S4096x1 ![0] bcast_S4096_S4096x1_0 : (⟨S4096, .i32⟩ : BufTy).Contents (Elt F) → (⟨S4096x1, .i32⟩ : BufTy).Contents (Elt F)),
    StableHlo.ternary main_v28 main_v38 main_v32 main_v39 ((fun x i u => Host.scatter scatter_S18432_S4096x1_S4096_n_0_0_1 (fun _ b => b) x i u) : (⟨S18432, .f32⟩ : BufTy).Contents (Elt F) → (⟨S4096x1, .i32⟩ : BufTy).Contents (Elt F) → (⟨S4096, .f32⟩ : BufTy).Contents (Elt F) → (⟨S18432, .f32⟩ : BufTy).Contents (Elt F)) ]

/-- Stretch `opsT2`: the gather call over record `main_call2`. -/
abbrev opsT2 : List (HloOp τ sig (Elt F)) :=
  takeOps (.of main_v39) (.of main_arg3) main_call2

/-- Stretch `opsB2`: 3 operations of @main. -/
abbrev opsB2 : List (HloOp τ sig (Elt F)) :=
  [ StableHlo.binary main_v40 main_arg7 main_v41 ((fun l r => Host.dotGeneral dot_S4096_S4096x4096_S4096_0_0_n_1_n_n none l r) : (⟨S4096, .f32⟩ : BufTy).Contents (Elt F) → (⟨S4096x4096, .f32⟩ : BufTy).Contents (Elt F) → (⟨S4096, .f32⟩ : BufTy).Contents (Elt F)),
    StableHlo.binary main_v41 main_arg11 main_v42 (addf : (⟨S4096, .f32⟩ : BufTy).Contents (Elt F) → (⟨S4096, .f32⟩ : BufTy).Contents (Elt F) → (⟨S4096, .f32⟩ : BufTy).Contents (Elt F)),
    StableHlo.unary main_v42 main_v43 (Host.tanh : (⟨S4096, .f32⟩ : BufTy).Contents (Elt F) → (⟨S4096, .f32⟩ : BufTy).Contents (Elt F)) ]

/-- Stretch `opsA3`: 9 operations of @main. -/
abbrev opsA3 : List (HloOp τ sig (Elt F)) :=
  [ StableHlo.nullary main_c_8 (constantI S_ 32 0#32),
    StableHlo.unary main_c_8 main_v44 (broadcastInDim S4096 ![] bcast_S_S4096 : (⟨S_, .i32⟩ : BufTy).Contents (Elt F) → (⟨S4096, .i32⟩ : BufTy).Contents (Elt F)),
    StableHlo.binary main_v9 main_v44 main_v45 (cmpi .slt : (⟨S4096, .i32⟩ : BufTy).Contents (Elt F) → (⟨S4096, .i32⟩ : BufTy).Contents (Elt F) → (⟨S4096, .i1⟩ : BufTy).Contents (Elt F)),
    StableHlo.nullary main_c_9 (constantI S_ 32 18432#32),
    StableHlo.unary main_c_9 main_v46 (broadcastInDim S4096 ![] bcast_S_S4096 : (⟨S_, .i32⟩ : BufTy).Contents (Elt F) → (⟨S4096, .i32⟩ : BufTy).Contents (Elt F)),
    StableHlo.binary main_v9 main_v46 main_v47 (addi : (⟨S4096, .i32⟩ : BufTy).Contents (Elt F) → (⟨S4096, .i32⟩ : BufTy).Contents (Elt F) → (⟨S4096, .i32⟩ : BufTy).Contents (Elt F)),
    StableHlo.ternary main_v45 main_v47 main_v9 main_v48 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v48 main_v49 (broadcastInDim S4096x1 ![0] bcast_S4096_S4096x1_0 : (⟨S4096, .i32⟩ : BufTy).Contents (Elt F) → (⟨S4096x1, .i32⟩ : BufTy).Contents (Elt F)),
    StableHlo.ternary main_v39 main_v49 main_v43 main_v50 ((fun x i u => Host.scatter scatter_S18432_S4096x1_S4096_n_0_0_1 (fun _ b => b) x i u) : (⟨S18432, .f32⟩ : BufTy).Contents (Elt F) → (⟨S4096x1, .i32⟩ : BufTy).Contents (Elt F) → (⟨S4096, .f32⟩ : BufTy).Contents (Elt F) → (⟨S18432, .f32⟩ : BufTy).Contents (Elt F)) ]

/-- Stretch `opsT3`: the gather call over record `main_call3`. -/
abbrev opsT3 : List (HloOp τ sig (Elt F)) :=
  takeOps (.of main_v50) (.of main_arg4) main_call3

/-- Stretch `opsB3`: 3 operations of @main. -/
abbrev opsB3 : List (HloOp τ sig (Elt F)) :=
  [ StableHlo.binary main_v51 main_arg8 main_v52 ((fun l r => Host.dotGeneral dot_S4096_S4096x2048_S2048_0_0_n_1_n_n none l r) : (⟨S4096, .f32⟩ : BufTy).Contents (Elt F) → (⟨S4096x2048, .f32⟩ : BufTy).Contents (Elt F) → (⟨S2048, .f32⟩ : BufTy).Contents (Elt F)),
    StableHlo.binary main_v52 main_arg12 main_v53 (addf : (⟨S2048, .f32⟩ : BufTy).Contents (Elt F) → (⟨S2048, .f32⟩ : BufTy).Contents (Elt F) → (⟨S2048, .f32⟩ : BufTy).Contents (Elt F)),
    StableHlo.unary main_v53 main_v54 (Host.tanh : (⟨S2048, .f32⟩ : BufTy).Contents (Elt F) → (⟨S2048, .f32⟩ : BufTy).Contents (Elt F)) ]

/-- @main's 151 operations, in order. -/
abbrev ops : List (HloOp τ sig (Elt F)) :=
  opsA0 ++ opsT0 ++ opsB0 ++ opsA1 ++ opsT1 ++ opsB1 ++ opsA2 ++ opsT2 ++ opsB2 ++ opsA3 ++ opsT3 ++ opsB3

/-! ## The list's side conditions, stretch by stretch -/

theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem fresh_append {l₁ l₂ : List (HloOp τ sig (Elt F))} (h₁ : ∀ op ∈ l₁, op.fresh = ∅) (h₂ : ∀ op ∈ l₂, op.fresh = ∅) :
    ∀ op ∈ l₁ ++ l₂, op.fresh = ∅ :=
  fun op h => (List.mem_append.1 h).elim (h₁ op) (h₂ op)

theorem takeOps_sub (arg0 : TRef sig ⟨S18432, .f32⟩) (arg1 : TRef sig ⟨S4096, .i32⟩) (φ : fn_take.Bufs) :
    (takeOps (F := F) arg0 arg1 φ).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem takeOps_fresh (arg0 : TRef sig ⟨S18432, .f32⟩) (arg1 : TRef sig ⟨S4096, .i32⟩) (φ : fn_take.Bufs) :
    ∀ op ∈ takeOps (F := F) arg0 arg1 φ, op.fresh = ∅ := by intro _ h; (repeat (cases h with | head => rfl | tail _ h => ?_)); exact nomatch h

/-- The buffers one call of the gather function writes. -/
abbrev takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref, φ.v7.ref, φ.v8.ref, φ.v9.ref, φ.v10.ref, φ.v11.ref, φ.c_3.ref, φ.v12.ref, φ.v13.ref, φ.cst.ref, φ.v14.ref, φ.v15.ref]

theorem takeOps_writes (arg0 : TRef sig ⟨S18432, .f32⟩) (arg1 : TRef sig ⟨S4096, .i32⟩) (φ : fn_take.Bufs) :
    (takeOps (F := F) arg0 arg1 φ).Forall fun op => op.writes ⊆ ((takeW φ).map (Proc.devRef (τ := τ) .tc)).toFinset := by
  simp only [List.Forall]
  exact ⟨by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true]),
    by simp only [nullary_writes, unary_writes, binary_writes, ternary_writes, Finset.singleton_subset_iff, List.mem_toFinset]; exact List.mem_map_of_mem (by simp only [takeW, List.mem_cons, true_or, or_true])⟩

theorem opsA0_sub : (opsA0 (F := F)).Forall fun op => op.bufs ⊆ tcRefs τ sig :=
  ⟨nullary_bufs_sub .., nullary_bufs_sub .., nullary_bufs_sub .., unary_bufs_sub .., binary_bufs_sub .., nullary_bufs_sub .., nullary_bufs_sub .., unary_bufs_sub .., binary_bufs_sub .., nullary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩
theorem opsA0_fresh : ∀ op ∈ opsA0 (F := F), op.fresh = ∅ := by intro _ h; (repeat (cases h with | head => rfl | tail _ h => ?_)); exact nomatch h
/-- The buffers stretch `opsA0` writes. -/
abbrev opsA0_W : List (Ref sig .tc) := [main_v0, main_v1, main_c, main_v2, main_v3, main_v4, main_c_0, main_v5, main_v6, main_v7, main_c_1, main_v8, main_v9, main_cst, main_v10, main_c_2, main_v11, main_v12, main_c_3, main_v13, main_v14, main_v15, main_v16, main_v17]
theorem opsA0_writes : (opsA0 (F := F)).Forall fun op => op.writes ⊆ (opsA0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch `opsA0` does not write keeps its contents through it. -/
theorem opsA0_keep (V : Valuation τ sig (Elt F)) (r : Ref sig .tc) (h : r ∉ opsA0_W) :
    after opsA0 V (Proc.devRef .tc r) = V (Proc.devRef .tc r) :=
  after_of_writes_sub opsA0 V opsA0_writes h

theorem opsT0_sub : (opsT0 (F := F)).Forall fun op => op.bufs ⊆ tcRefs τ sig := takeOps_sub _ _ _
theorem opsT0_fresh : ∀ op ∈ opsT0 (F := F), op.fresh = ∅ := takeOps_fresh _ _ _
/-- The buffers stretch `opsT0` writes. -/
abbrev opsT0_W : List (Ref sig .tc) := takeW main_call0
theorem opsT0_writes : (opsT0 (F := F)).Forall fun op => op.writes ⊆ (opsT0_W.map (Proc.devRef (τ := τ) .tc)).toFinset :=
  takeOps_writes _ _ _
/-- A buffer stretch `opsT0` does not write keeps its contents through it. -/
theorem opsT0_keep (V : Valuation τ sig (Elt F)) (r : Ref sig .tc) (h : r ∉ opsT0_W) :
    after opsT0 V (Proc.devRef .tc r) = V (Proc.devRef .tc r) :=
  after_of_writes_sub opsT0 V opsT0_writes h

theorem opsB0_sub : (opsB0 (F := F)).Forall fun op => op.bufs ⊆ tcRefs τ sig :=
  ⟨binary_bufs_sub .., binary_bufs_sub .., unary_bufs_sub ..⟩
theorem opsB0_fresh : ∀ op ∈ opsB0 (F := F), op.fresh = ∅ := by intro _ h; (repeat (cases h with | head => rfl | tail _ h => ?_)); exact nomatch h
/-- The buffers stretch `opsB0` writes. -/
abbrev opsB0_W : List (Ref sig .tc) := [main_v19, main_v20, main_v21]
theorem opsB0_writes : (opsB0 (F := F)).Forall fun op => op.writes ⊆ (opsB0_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch `opsB0` does not write keeps its contents through it. -/
theorem opsB0_keep (V : Valuation τ sig (Elt F)) (r : Ref sig .tc) (h : r ∉ opsB0_W) :
    after opsB0 V (Proc.devRef .tc r) = V (Proc.devRef .tc r) :=
  after_of_writes_sub opsB0 V opsB0_writes h

theorem opsA1_sub : (opsA1 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub ..⟩
theorem opsA1_fresh : ∀ op ∈ opsA1 (F := F), op.fresh = ∅ := by intro _ h; (repeat (cases h with | head => rfl | tail _ h => ?_)); exact nomatch h
/-- The buffers stretch `opsA1` writes. -/
abbrev opsA1_W : List (Ref sig .tc) := [main_c_4, main_v22, main_v23, main_c_5, main_v24, main_v25, main_v26, main_v27, main_v28]
theorem opsA1_writes : (opsA1 (F := F)).Forall fun op => op.writes ⊆ (opsA1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch `opsA1` does not write keeps its contents through it. -/
theorem opsA1_keep (V : Valuation τ sig (Elt F)) (r : Ref sig .tc) (h : r ∉ opsA1_W) :
    after opsA1 V (Proc.devRef .tc r) = V (Proc.devRef .tc r) :=
  after_of_writes_sub opsA1 V opsA1_writes h

theorem opsT1_sub : (opsT1 (F := F)).Forall fun op => op.bufs ⊆ tcRefs τ sig := takeOps_sub _ _ _
theorem opsT1_fresh : ∀ op ∈ opsT1 (F := F), op.fresh = ∅ := takeOps_fresh _ _ _
/-- The buffers stretch `opsT1` writes. -/
abbrev opsT1_W : List (Ref sig .tc) := takeW main_call1
theorem opsT1_writes : (opsT1 (F := F)).Forall fun op => op.writes ⊆ (opsT1_W.map (Proc.devRef (τ := τ) .tc)).toFinset :=
  takeOps_writes _ _ _
/-- A buffer stretch `opsT1` does not write keeps its contents through it. -/
theorem opsT1_keep (V : Valuation τ sig (Elt F)) (r : Ref sig .tc) (h : r ∉ opsT1_W) :
    after opsT1 V (Proc.devRef .tc r) = V (Proc.devRef .tc r) :=
  after_of_writes_sub opsT1 V opsT1_writes h

theorem opsB1_sub : (opsB1 (F := F)).Forall fun op => op.bufs ⊆ tcRefs τ sig :=
  ⟨binary_bufs_sub .., binary_bufs_sub .., unary_bufs_sub ..⟩
theorem opsB1_fresh : ∀ op ∈ opsB1 (F := F), op.fresh = ∅ := by intro _ h; (repeat (cases h with | head => rfl | tail _ h => ?_)); exact nomatch h
/-- The buffers stretch `opsB1` writes. -/
abbrev opsB1_W : List (Ref sig .tc) := [main_v30, main_v31, main_v32]
theorem opsB1_writes : (opsB1 (F := F)).Forall fun op => op.writes ⊆ (opsB1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch `opsB1` does not write keeps its contents through it. -/
theorem opsB1_keep (V : Valuation τ sig (Elt F)) (r : Ref sig .tc) (h : r ∉ opsB1_W) :
    after opsB1 V (Proc.devRef .tc r) = V (Proc.devRef .tc r) :=
  after_of_writes_sub opsB1 V opsB1_writes h

theorem opsA2_sub : (opsA2 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub ..⟩
theorem opsA2_fresh : ∀ op ∈ opsA2 (F := F), op.fresh = ∅ := by intro _ h; (repeat (cases h with | head => rfl | tail _ h => ?_)); exact nomatch h
/-- The buffers stretch `opsA2` writes. -/
abbrev opsA2_W : List (Ref sig .tc) := [main_c_6, main_v33, main_v34, main_c_7, main_v35, main_v36, main_v37, main_v38, main_v39]
theorem opsA2_writes : (opsA2 (F := F)).Forall fun op => op.writes ⊆ (opsA2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch `opsA2` does not write keeps its contents through it. -/
theorem opsA2_keep (V : Valuation τ sig (Elt F)) (r : Ref sig .tc) (h : r ∉ opsA2_W) :
    after opsA2 V (Proc.devRef .tc r) = V (Proc.devRef .tc r) :=
  after_of_writes_sub opsA2 V opsA2_writes h

theorem opsT2_sub : (opsT2 (F := F)).Forall fun op => op.bufs ⊆ tcRefs τ sig := takeOps_sub _ _ _
theorem opsT2_fresh : ∀ op ∈ opsT2 (F := F), op.fresh = ∅ := takeOps_fresh _ _ _
/-- The buffers stretch `opsT2` writes. -/
abbrev opsT2_W : List (Ref sig .tc) := takeW main_call2
theorem opsT2_writes : (opsT2 (F := F)).Forall fun op => op.writes ⊆ (opsT2_W.map (Proc.devRef (τ := τ) .tc)).toFinset :=
  takeOps_writes _ _ _
/-- A buffer stretch `opsT2` does not write keeps its contents through it. -/
theorem opsT2_keep (V : Valuation τ sig (Elt F)) (r : Ref sig .tc) (h : r ∉ opsT2_W) :
    after opsT2 V (Proc.devRef .tc r) = V (Proc.devRef .tc r) :=
  after_of_writes_sub opsT2 V opsT2_writes h

theorem opsB2_sub : (opsB2 (F := F)).Forall fun op => op.bufs ⊆ tcRefs τ sig :=
  ⟨binary_bufs_sub .., binary_bufs_sub .., unary_bufs_sub ..⟩
theorem opsB2_fresh : ∀ op ∈ opsB2 (F := F), op.fresh = ∅ := by intro _ h; (repeat (cases h with | head => rfl | tail _ h => ?_)); exact nomatch h
/-- The buffers stretch `opsB2` writes. -/
abbrev opsB2_W : List (Ref sig .tc) := [main_v41, main_v42, main_v43]
theorem opsB2_writes : (opsB2 (F := F)).Forall fun op => op.writes ⊆ (opsB2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch `opsB2` does not write keeps its contents through it. -/
theorem opsB2_keep (V : Valuation τ sig (Elt F)) (r : Ref sig .tc) (h : r ∉ opsB2_W) :
    after opsB2 V (Proc.devRef .tc r) = V (Proc.devRef .tc r) :=
  after_of_writes_sub opsB2 V opsB2_writes h

theorem opsA3_sub : (opsA3 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., ternary_bufs_sub ..⟩
theorem opsA3_fresh : ∀ op ∈ opsA3 (F := F), op.fresh = ∅ := by intro _ h; (repeat (cases h with | head => rfl | tail _ h => ?_)); exact nomatch h
/-- The buffers stretch `opsA3` writes. -/
abbrev opsA3_W : List (Ref sig .tc) := [main_c_8, main_v44, main_v45, main_c_9, main_v46, main_v47, main_v48, main_v49, main_v50]
theorem opsA3_writes : (opsA3 (F := F)).Forall fun op => op.writes ⊆ (opsA3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch `opsA3` does not write keeps its contents through it. -/
theorem opsA3_keep (V : Valuation τ sig (Elt F)) (r : Ref sig .tc) (h : r ∉ opsA3_W) :
    after opsA3 V (Proc.devRef .tc r) = V (Proc.devRef .tc r) :=
  after_of_writes_sub opsA3 V opsA3_writes h

theorem opsT3_sub : (opsT3 (F := F)).Forall fun op => op.bufs ⊆ tcRefs τ sig := takeOps_sub _ _ _
theorem opsT3_fresh : ∀ op ∈ opsT3 (F := F), op.fresh = ∅ := takeOps_fresh _ _ _
/-- The buffers stretch `opsT3` writes. -/
abbrev opsT3_W : List (Ref sig .tc) := takeW main_call3
theorem opsT3_writes : (opsT3 (F := F)).Forall fun op => op.writes ⊆ (opsT3_W.map (Proc.devRef (τ := τ) .tc)).toFinset :=
  takeOps_writes _ _ _
/-- A buffer stretch `opsT3` does not write keeps its contents through it. -/
theorem opsT3_keep (V : Valuation τ sig (Elt F)) (r : Ref sig .tc) (h : r ∉ opsT3_W) :
    after opsT3 V (Proc.devRef .tc r) = V (Proc.devRef .tc r) :=
  after_of_writes_sub opsT3 V opsT3_writes h

theorem opsB3_sub : (opsB3 (F := F)).Forall fun op => op.bufs ⊆ tcRefs τ sig :=
  ⟨binary_bufs_sub .., binary_bufs_sub .., unary_bufs_sub ..⟩
theorem opsB3_fresh : ∀ op ∈ opsB3 (F := F), op.fresh = ∅ := by intro _ h; (repeat (cases h with | head => rfl | tail _ h => ?_)); exact nomatch h
/-- The buffers stretch `opsB3` writes. -/
abbrev opsB3_W : List (Ref sig .tc) := [main_v52, main_v53, main_v54]
theorem opsB3_writes : (opsB3 (F := F)).Forall fun op => op.writes ⊆ (opsB3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch `opsB3` does not write keeps its contents through it. -/
theorem opsB3_keep (V : Valuation τ sig (Elt F)) (r : Ref sig .tc) (h : r ∉ opsB3_W) :
    after opsB3 V (Proc.devRef .tc r) = V (Proc.devRef .tc r) :=
  after_of_writes_sub opsB3 V opsB3_writes h

theorem ops_sub : (ops (F := F)).Forall fun op => op.bufs ⊆ tcRefs τ sig :=
  forall_append (forall_append (forall_append (forall_append (forall_append (forall_append (forall_append (forall_append (forall_append (forall_append (forall_append (opsA0_sub) opsT0_sub) opsB0_sub) opsA1_sub) opsT1_sub) opsB1_sub) opsA2_sub) opsT2_sub) opsB2_sub) opsA3_sub) opsT3_sub) opsB3_sub

theorem ops_fresh : ∀ op ∈ ops (F := F), op.fresh = ∅ :=
  fresh_append (fresh_append (fresh_append (fresh_append (fresh_append (fresh_append (fresh_append (fresh_append (fresh_append (fresh_append (fresh_append (opsA0_fresh) opsT0_fresh) opsB0_fresh) opsA1_fresh) opsT1_fresh) opsB1_fresh) opsA2_fresh) opsT2_fresh) opsB2_fresh) opsA3_fresh) opsT3_fresh) opsB3_fresh

/-- @main is that straight line: the functions' bodies unfold at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates, and every final state has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- A buffer no stretch writes keeps its contents through the whole line. -/
theorem ops_keep (V : Valuation τ sig (Elt F)) (r : Ref sig .tc)
    (h0 : r ∉ opsA0_W) (h1 : r ∉ opsT0_W) (h2 : r ∉ opsB0_W) (h3 : r ∉ opsA1_W) (h4 : r ∉ opsT1_W) (h5 : r ∉ opsB1_W) (h6 : r ∉ opsA2_W) (h7 : r ∉ opsT2_W) (h8 : r ∉ opsB2_W) (h9 : r ∉ opsA3_W) (h10 : r ∉ opsT3_W) (h11 : r ∉ opsB3_W) :
    after ops V (Proc.devRef .tc r) = V (Proc.devRef .tc r) := by
  simp only [ops, after_append]
  rw [opsB3_keep _ r h11, opsT3_keep _ r h10, opsA3_keep _ r h9, opsB2_keep _ r h8, opsT2_keep _ r h7, opsA2_keep _ r h6, opsB1_keep _ r h5, opsT1_keep _ r h4, opsA1_keep _ r h3, opsB0_keep _ r h2, opsT0_keep _ r h1, opsA0_keep _ r h0]

/-- The frame: every weakly fair execution of the reference terminates with its thirteen argument arrays unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_arg0).trans (ops_keep _ main_arg0 (by decide) (by decide) (by decide) (by decide) (by decide) (by decide) (by decide) (by decide) (by decide) (by decide) (by decide) (by decide)),
      (h c main_arg1).trans (ops_keep _ main_arg1 (by decide) (by decide) (by decide) (by decide) (by decide) (by decide) (by decide) (by decide) (by decide) (by decide) (by decide) (by decide)),
      (h c main_arg2).trans (ops_keep _ main_arg2 (by decide) (by decide) (by decide) (by decide) (by decide) (by decide) (by decide) (by decide) (by decide) (by decide) (by decide) (by decide)),
      (h c main_arg3).trans (ops_keep _ main_arg3 (by decide) (by decide) (by decide) (by decide) (by decide) (by decide) (by decide) (by decide) (by decide) (by decide) (by decide) (by decide)),
      (h c main_arg4).trans (ops_keep _ main_arg4 (by decide) (by decide) (by decide) (by decide) (by decide) (by decide) (by decide) (by decide) (by decide) (by decide) (by decide) (by decide)),
      (h c main_arg5).trans (ops_keep _ main_arg5 (by decide) (by decide) (by decide) (by decide) (by decide) (by decide) (by decide) (by decide) (by decide) (by decide) (by decide) (by decide)),
      (h c main_arg6).trans (ops_keep _ main_arg6 (by decide) (by decide) (by decide) (by decide) (by decide) (by decide) (by decide) (by decide) (by decide) (by decide) (by decide) (by decide)),
      (h c main_arg7).trans (ops_keep _ main_arg7 (by decide) (by decide) (by decide) (by decide) (by decide) (by decide) (by decide) (by decide) (by decide) (by decide) (by decide) (by decide)),
      (h c main_arg8).trans (ops_keep _ main_arg8 (by decide) (by decide) (by decide) (by decide) (by decide) (by decide) (by decide) (by decide) (by decide) (by decide) (by decide) (by decide)),
      (h c main_arg9).trans (ops_keep _ main_arg9 (by decide) (by decide) (by decide) (by decide) (by decide) (by decide) (by decide) (by decide) (by decide) (by decide) (by decide) (by decide)),
      (h c main_arg10).trans (ops_keep _ main_arg10 (by decide) (by decide) (by decide) (by decide) (by decide) (by decide) (by decide) (by decide) (by decide) (by decide) (by decide) (by decide)),
      (h c main_arg11).trans (ops_keep _ main_arg11 (by decide) (by decide) (by decide) (by decide) (by decide) (by decide) (by decide) (by decide) (by decide) (by decide) (by decide) (by decide)),
      (h c main_arg12).trans (ops_keep _ main_arg12 (by decide) (by decide) (by decide) (by decide) (by decide) (by decide) (by decide) (by decide) (by decide) (by decide) (by decide) (by decide))⟩)
    (run_all m ρ)

end Cert.Proof.RefRun

end
-- ==== Proof.RefVal.lean ====
/-
  The reference's run, evaluated: each of the twelve stretches of its operation list is read once, from an abstract
  valuation of the buffers, as a named term of the buffers it reads; the stretches are then composed, and the
  result buffer after the whole line is `refTerm` of the thirteen argument arrays.
-/
import proofs.«208418_g89945205112833_cont_sun_c4_809_35_alg».proof.Proof.RefOps

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations' composed terms, named -/

/-- An index vector as the column of start indices a gather or scatter reads: a negative index first shifted by the
    state's length 18432. -/
def wrapIdx (i : IVec S4096 32) : IVec S4096x1 32 :=
  broadcastInDim S4096x1 ![0] bcast_S4096_S4096x1_0
    (select (cmpi .slt i (broadcastInDim S4096 ![] bcast_S_S4096 (constantI S_ 32 0#32)))
      (addi i (broadcastInDim S4096 ![] bcast_S_S4096 (constantI S_ 32 18432#32))) i)

/-- The indices `c, c + 1, …, c + 4095`. -/
def offs (c : BitVec 32) : IVec S4096 32 :=
  addi (broadcastInDim S4096 ![] bcast_S_S4096 (constantI S_ 32 c)) (iotaInDim S4096 32 0)

/-- The indices `0, 1, …, 4095`. -/
def iota0 : IVec S4096 32 := iotaInDim S4096 32 0

/-- The all-zero state. -/
def zeros : FVec F S18432 .f32 :=
  broadcastInDim S18432 ![] bcast_S_S18432 (constant S_ .f32 0x00000000#32)

/-- The state with `u` written at the indices `i`. -/
def scat (st : FVec F S18432 .f32) (i : IVec S4096 32) (u : FVec F S4096 .f32) : FVec F S18432 .f32 :=
  Host.scatter scatter_S18432_S4096x1_S4096_n_0_0_1 (fun _ b => b) st (wrapIdx i) u

/-- The gather function: the state at the wrapped indices where they are inside the state, a NaN elsewhere. -/
def takeT (st : FVec F S18432 .f32) (ni : IVec S4096 32) : FVec F S4096 .f32 :=
  select
    (Host.reduce IntOp.andi
      (andi (cmpi .sge (wrapIdx ni) (broadcastInDim S4096x1 ![] bcast_S_S4096x1 (constantI S_ 32 0#32)))
        (cmpi .sle (wrapIdx ni)
          (broadcastInDim S4096x1 ![0, 1] bcast_S1x1_S4096x1_0_1
            (broadcastInDim S1x1 ![1] bcast_S1_S1x1_1 (constantI S1 32 18431#32)))))
      (constantI S_ 1 1#1) reducesTo_S4096x1_S4096_d1 h_S_)
    (Host.gather gather_S18432_S4096x1_S4096_n_0_n_n_0_1_1 st (wrapIdx ni))
    (broadcastInDim S4096 ![] bcast_S_S4096 (constant S_ .f32 0x7FC00000#32))

/-- A dense layer of 4096 outputs: the row times the matrix, plus the bias, then tanh. -/
def dense4096T (g : FVec F S4096 .f32) (W : FVec F S4096x4096 .f32) (b : FVec F S4096 .f32) : FVec F S4096 .f32 :=
  Host.tanh (addf (Host.dotGeneral dot_S4096_S4096x4096_S4096_0_0_n_1_n_n none g W) b)

/-- A dense layer of 2048 outputs. -/
def dense2048T (g : FVec F S4096 .f32) (W : FVec F S4096x2048 .f32) (b : FVec F S2048 .f32) : FVec F S2048 .f32 :=
  Host.tanh (addf (Host.dotGeneral dot_S4096_S4096x2048_S2048_0_0_n_1_n_n none g W) b)

/-- One layer on the state: gather, dense layer, its outputs written at the indices `off`. -/
def stepT (st : FVec F S18432 .f32) (off : IVec S4096 32) (ni : IVec S4096 32) (W : FVec F S4096x4096 .f32)
    (b : FVec F S4096 .f32) : FVec F S18432 .f32 :=
  scat st off (dense4096T (takeT st ni) W b)

/-- The reference's result as one term of its thirteen arguments. -/
def refTerm (x : FVec F S4096 .f32) (n0 n1 n2 n3 : IVec S4096 32) (W0 W1 W2 : FVec F S4096x4096 .f32)
    (W3 : FVec F S4096x2048 .f32) (b0 b1 b2 : FVec F S4096 .f32) (b3 : FVec F S2048 .f32) : FVec F S2048 .f32 :=
  dense2048T
    (takeT (stepT (stepT (stepT (scat zeros iota0 x) (offs 4096#32) n0 W0 b0) (offs 8192#32) n1 W1 b1) (offs 12288#32) n2 W2 b2) n3)
    W3 b3

/-! ## Typed references at literal buffers

A called function's operations read and write their buffers through the typed references' transports along the
equation between the buffer's type and the tensor value's. A write followed by a read through the same typed reference
is the identity whatever the equation; at a literal buffer the equation holds by computation and each transport alone
is the identity. -/

theorem ofBuf_toBuf {T : BufTy} (x : TRef sig T) (v : T.Contents (Elt F)) : x.ofBuf (x.toBuf v) = v := by
  obtain ⟨r, h, a, b⟩ := x
  subst h
  rfl

theorem ofBuf_main_v17 (h1 : main_v17.ty = ⟨S18432, .f32⟩) (h2 : main_v17.space ≠ .host) (h3 : main_v17.isScoped = false) (x : main_v17.ty.Contents (Elt F)) :
    (TRef.of (T := ⟨S18432, .f32⟩) main_v17 h1 h2 h3).ofBuf x = x := rfl
theorem ofBuf_main_arg1 (h1 : main_arg1.ty = ⟨S4096, .i32⟩) (h2 : main_arg1.space ≠ .host) (h3 : main_arg1.isScoped = false) (x : main_arg1.ty.Contents (Elt F)) :
    (TRef.of (T := ⟨S4096, .i32⟩) main_arg1 h1 h2 h3).ofBuf x = x := rfl
theorem toBuf_main_v18 (h1 : main_v18.ty = ⟨S4096, .f32⟩) (h2 : main_v18.space ≠ .host) (h3 : main_v18.isScoped = false) (x : (⟨S4096, .f32⟩ : BufTy).Contents (Elt F)) :
    (TRef.of (T := ⟨S4096, .f32⟩) main_v18 h1 h2 h3).toBuf x = x := rfl
theorem ofBuf_main_v28 (h1 : main_v28.ty = ⟨S18432, .f32⟩) (h2 : main_v28.space ≠ .host) (h3 : main_v28.isScoped = false) (x : main_v28.ty.Contents (Elt F)) :
    (TRef.of (T := ⟨S18432, .f32⟩) main_v28 h1 h2 h3).ofBuf x = x := rfl
theorem ofBuf_main_arg2 (h1 : main_arg2.ty = ⟨S4096, .i32⟩) (h2 : main_arg2.space ≠ .host) (h3 : main_arg2.isScoped = false) (x : main_arg2.ty.Contents (Elt F)) :
    (TRef.of (T := ⟨S4096, .i32⟩) main_arg2 h1 h2 h3).ofBuf x = x := rfl
theorem toBuf_main_v29 (h1 : main_v29.ty = ⟨S4096, .f32⟩) (h2 : main_v29.space ≠ .host) (h3 : main_v29.isScoped = false) (x : (⟨S4096, .f32⟩ : BufTy).Contents (Elt F)) :
    (TRef.of (T := ⟨S4096, .f32⟩) main_v29 h1 h2 h3).toBuf x = x := rfl
theorem ofBuf_main_v39 (h1 : main_v39.ty = ⟨S18432, .f32⟩) (h2 : main_v39.space ≠ .host) (h3 : main_v39.isScoped = false) (x : main_v39.ty.Contents (Elt F)) :
    (TRef.of (T := ⟨S18432, .f32⟩) main_v39 h1 h2 h3).ofBuf x = x := rfl
theorem ofBuf_main_arg3 (h1 : main_arg3.ty = ⟨S4096, .i32⟩) (h2 : main_arg3.space ≠ .host) (h3 : main_arg3.isScoped = false) (x : main_arg3.ty.Contents (Elt F)) :
    (TRef.of (T := ⟨S4096, .i32⟩) main_arg3 h1 h2 h3).ofBuf x = x := rfl
theorem toBuf_main_v40 (h1 : main_v40.ty = ⟨S4096, .f32⟩) (h2 : main_v40.space ≠ .host) (h3 : main_v40.isScoped = false) (x : (⟨S4096, .f32⟩ : BufTy).Contents (Elt F)) :
    (TRef.of (T := ⟨S4096, .f32⟩) main_v40 h1 h2 h3).toBuf x = x := rfl
theorem ofBuf_main_v50 (h1 : main_v50.ty = ⟨S18432, .f32⟩) (h2 : main_v50.space ≠ .host) (h3 : main_v50.isScoped = false) (x : main_v50.ty.Contents (Elt F)) :
    (TRef.of (T := ⟨S18432, .f32⟩) main_v50 h1 h2 h3).ofBuf x = x := rfl
theorem ofBuf_main_arg4 (h1 : main_arg4.ty = ⟨S4096, .i32⟩) (h2 : main_arg4.space ≠ .host) (h3 : main_arg4.isScoped = false) (x : main_arg4.ty.Contents (Elt F)) :
    (TRef.of (T := ⟨S4096, .i32⟩) main_arg4 h1 h2 h3).ofBuf x = x := rfl
theorem toBuf_main_v51 (h1 : main_v51.ty = ⟨S4096, .f32⟩) (h2 : main_v51.space ≠ .host) (h3 : main_v51.isScoped = false) (x : (⟨S4096, .f32⟩ : BufTy).Contents (Elt F)) :
    (TRef.of (T := ⟨S4096, .f32⟩) main_v51 h1 h2 h3).toBuf x = x := rfl

/-! ## Each stretch, read once from an abstract valuation -/

set_option maxHeartbeats 2000000 in
theorem A0_main_v17 (V : Valuation τ sig (Elt F)) :
    after opsA0 V (Proc.devRef .tc main_v17) = scat zeros iota0 (V (Proc.devRef .tc main_arg0)) := by
  after_results_simp
  rfl

set_option maxHeartbeats 2000000 in
theorem A0_main_v3 (V : Valuation τ sig (Elt F)) :
    after opsA0 V (Proc.devRef .tc main_v3) = offs 4096#32 := by
  after_results_simp
  rfl

set_option maxHeartbeats 2000000 in
theorem A0_main_v6 (V : Valuation τ sig (Elt F)) :
    after opsA0 V (Proc.devRef .tc main_v6) = offs 8192#32 := by
  after_results_simp
  rfl

set_option maxHeartbeats 2000000 in
theorem A0_main_v9 (V : Valuation τ sig (Elt F)) :
    after opsA0 V (Proc.devRef .tc main_v9) = offs 12288#32 := by
  after_results_simp
  rfl

set_option maxHeartbeats 2000000 in
theorem T0_main_v18 (V : Valuation τ sig (Elt F)) :
    after opsT0 V (Proc.devRef .tc main_v18) = takeT (V (Proc.devRef .tc main_v17)) (V (Proc.devRef .tc main_arg1)) := by
  after_results_simp
  simp only [ofBuf_toBuf, ofBuf_main_v17, ofBuf_main_arg1, toBuf_main_v18]
  rfl

set_option maxHeartbeats 2000000 in
theorem B0_main_v21 (V : Valuation τ sig (Elt F)) :
    after opsB0 V (Proc.devRef .tc main_v21) = dense4096T (V (Proc.devRef .tc main_v18)) (V (Proc.devRef .tc main_arg5)) (V (Proc.devRef .tc main_arg9)) := by
  after_results_simp
  rfl

set_option maxHeartbeats 2000000 in
theorem A1_main_v28 (V : Valuation τ sig (Elt F)) :
    after opsA1 V (Proc.devRef .tc main_v28) = scat (V (Proc.devRef .tc main_v17)) (V (Proc.devRef .tc main_v3)) (V (Proc.devRef .tc main_v21)) := by
  after_results_simp
  rfl

set_option maxHeartbeats 2000000 in
theorem T1_main_v29 (V : Valuation τ sig (Elt F)) :
    after opsT1 V (Proc.devRef .tc main_v29) = takeT (V (Proc.devRef .tc main_v28)) (V (Proc.devRef .tc main_arg2)) := by
  after_results_simp
  simp only [ofBuf_toBuf, ofBuf_main_v28, ofBuf_main_arg2, toBuf_main_v29]
  rfl

set_option maxHeartbeats 2000000 in
theorem B1_main_v32 (V : Valuation τ sig (Elt F)) :
    after opsB1 V (Proc.devRef .tc main_v32) = dense4096T (V (Proc.devRef .tc main_v29)) (V (Proc.devRef .tc main_arg6)) (V (Proc.devRef .tc main_arg10)) := by
  after_results_simp
  rfl

set_option maxHeartbeats 2000000 in
theorem A2_main_v39 (V : Valuation τ sig (Elt F)) :
    after opsA2 V (Proc.devRef .tc main_v39) = scat (V (Proc.devRef .tc main_v28)) (V (Proc.devRef .tc main_v6)) (V (Proc.devRef .tc main_v32)) := by
  after_results_simp
  rfl

set_option maxHeartbeats 2000000 in
theorem T2_main_v40 (V : Valuation τ sig (Elt F)) :
    after opsT2 V (Proc.devRef .tc main_v40) = takeT (V (Proc.devRef .tc main_v39)) (V (Proc.devRef .tc main_arg3)) := by
  after_results_simp
  simp only [ofBuf_toBuf, ofBuf_main_v39, ofBuf_main_arg3, toBuf_main_v40]
  rfl

set_option maxHeartbeats 2000000 in
theorem B2_main_v43 (V : Valuation τ sig (Elt F)) :
    after opsB2 V (Proc.devRef .tc main_v43) = dense4096T (V (Proc.devRef .tc main_v40)) (V (Proc.devRef .tc main_arg7)) (V (Proc.devRef .tc main_arg11)) := by
  after_results_simp
  rfl

set_option maxHeartbeats 2000000 in
theorem A3_main_v50 (V : Valuation τ sig (Elt F)) :
    after opsA3 V (Proc.devRef .tc main_v50) = scat (V (Proc.devRef .tc main_v39)) (V (Proc.devRef .tc main_v9)) (V (Proc.devRef .tc main_v43)) := by
  after_results_simp
  rfl

set_option maxHeartbeats 2000000 in
theorem T3_main_v51 (V : Valuation τ sig (Elt F)) :
    after opsT3 V (Proc.devRef .tc main_v51) = takeT (V (Proc.devRef .tc main_v50)) (V (Proc.devRef .tc main_arg4)) := by
  after_results_simp
  simp only [ofBuf_toBuf, ofBuf_main_v50, ofBuf_main_arg4, toBuf_main_v51]
  rfl

set_option maxHeartbeats 2000000 in
theorem B3_main_v54 (V : Valuation τ sig (Elt F)) :
    after opsB3 V (Proc.devRef .tc main_v54) = dense2048T (V (Proc.devRef .tc main_v51)) (V (Proc.devRef .tc main_arg8)) (V (Proc.devRef .tc main_arg12)) := by
  after_results_simp
  rfl

/-! ## The stretches composed -/

/-- The buffers' contents after the first `k` stretches. -/
def val0 (V : Valuation τ sig (Elt F)) : Valuation τ sig (Elt F) := V
def val1 (V : Valuation τ sig (Elt F)) : Valuation τ sig (Elt F) := after opsA0 (val0 V)
def val2 (V : Valuation τ sig (Elt F)) : Valuation τ sig (Elt F) := after opsT0 (val1 V)
def val3 (V : Valuation τ sig (Elt F)) : Valuation τ sig (Elt F) := after opsB0 (val2 V)
def val4 (V : Valuation τ sig (Elt F)) : Valuation τ sig (Elt F) := after opsA1 (val3 V)
def val5 (V : Valuation τ sig (Elt F)) : Valuation τ sig (Elt F) := after opsT1 (val4 V)
def val6 (V : Valuation τ sig (Elt F)) : Valuation τ sig (Elt F) := after opsB1 (val5 V)
def val7 (V : Valuation τ sig (Elt F)) : Valuation τ sig (Elt F) := after opsA2 (val6 V)
def val8 (V : Valuation τ sig (Elt F)) : Valuation τ sig (Elt F) := after opsT2 (val7 V)
def val9 (V : Valuation τ sig (Elt F)) : Valuation τ sig (Elt F) := after opsB2 (val8 V)
def val10 (V : Valuation τ sig (Elt F)) : Valuation τ sig (Elt F) := after opsA3 (val9 V)
def val11 (V : Valuation τ sig (Elt F)) : Valuation τ sig (Elt F) := after opsT3 (val10 V)
def val12 (V : Valuation τ sig (Elt F)) : Valuation τ sig (Elt F) := after opsB3 (val11 V)

theorem after_ops (V : Valuation τ sig (Elt F)) : after ops V = val12 V := by
  simp only [ops, after_append]
  rfl

theorem val1_main_arg1 (V : Valuation τ sig (Elt F)) :
    val1 V (Proc.devRef .tc main_arg1) = (V (Proc.devRef .tc main_arg1)) :=
  (opsA0_keep _ main_arg1 (by decide)).trans (rfl)

theorem val1_main_arg2 (V : Valuation τ sig (Elt F)) :
    val1 V (Proc.devRef .tc main_arg2) = (V (Proc.devRef .tc main_arg2)) :=
  (opsA0_keep _ main_arg2 (by decide)).trans (rfl)

theorem val1_main_arg3 (V : Valuation τ sig (Elt F)) :
    val1 V (Proc.devRef .tc main_arg3) = (V (Proc.devRef .tc main_arg3)) :=
  (opsA0_keep _ main_arg3 (by decide)).trans (rfl)

theorem val1_main_arg4 (V : Valuation τ sig (Elt F)) :
    val1 V (Proc.devRef .tc main_arg4) = (V (Proc.devRef .tc main_arg4)) :=
  (opsA0_keep _ main_arg4 (by decide)).trans (rfl)

theorem val1_main_arg5 (V : Valuation τ sig (Elt F)) :
    val1 V (Proc.devRef .tc main_arg5) = (V (Proc.devRef .tc main_arg5)) :=
  (opsA0_keep _ main_arg5 (by decide)).trans (rfl)

theorem val1_main_arg6 (V : Valuation τ sig (Elt F)) :
    val1 V (Proc.devRef .tc main_arg6) = (V (Proc.devRef .tc main_arg6)) :=
  (opsA0_keep _ main_arg6 (by decide)).trans (rfl)

theorem val1_main_arg7 (V : Valuation τ sig (Elt F)) :
    val1 V (Proc.devRef .tc main_arg7) = (V (Proc.devRef .tc main_arg7)) :=
  (opsA0_keep _ main_arg7 (by decide)).trans (rfl)

theorem val1_main_arg8 (V : Valuation τ sig (Elt F)) :
    val1 V (Proc.devRef .tc main_arg8) = (V (Proc.devRef .tc main_arg8)) :=
  (opsA0_keep _ main_arg8 (by decide)).trans (rfl)

theorem val1_main_arg9 (V : Valuation τ sig (Elt F)) :
    val1 V (Proc.devRef .tc main_arg9) = (V (Proc.devRef .tc main_arg9)) :=
  (opsA0_keep _ main_arg9 (by decide)).trans (rfl)

theorem val1_main_arg10 (V : Valuation τ sig (Elt F)) :
    val1 V (Proc.devRef .tc main_arg10) = (V (Proc.devRef .tc main_arg10)) :=
  (opsA0_keep _ main_arg10 (by decide)).trans (rfl)

theorem val1_main_arg11 (V : Valuation τ sig (Elt F)) :
    val1 V (Proc.devRef .tc main_arg11) = (V (Proc.devRef .tc main_arg11)) :=
  (opsA0_keep _ main_arg11 (by decide)).trans (rfl)

theorem val1_main_arg12 (V : Valuation τ sig (Elt F)) :
    val1 V (Proc.devRef .tc main_arg12) = (V (Proc.devRef .tc main_arg12)) :=
  (opsA0_keep _ main_arg12 (by decide)).trans (rfl)

theorem val1_main_v17 (V : Valuation τ sig (Elt F)) :
    val1 V (Proc.devRef .tc main_v17) = (scat zeros iota0 (V (Proc.devRef .tc main_arg0))) := by
  unfold val1
  rw [A0_main_v17]
  try rfl

theorem val1_main_v3 (V : Valuation τ sig (Elt F)) :
    val1 V (Proc.devRef .tc main_v3) = (offs 4096#32) := by
  unfold val1
  rw [A0_main_v3]
  try rfl

theorem val1_main_v6 (V : Valuation τ sig (Elt F)) :
    val1 V (Proc.devRef .tc main_v6) = (offs 8192#32) := by
  unfold val1
  rw [A0_main_v6]
  try rfl

theorem val1_main_v9 (V : Valuation τ sig (Elt F)) :
    val1 V (Proc.devRef .tc main_v9) = (offs 12288#32) := by
  unfold val1
  rw [A0_main_v9]
  try rfl

theorem val2_main_arg2 (V : Valuation τ sig (Elt F)) :
    val2 V (Proc.devRef .tc main_arg2) = (V (Proc.devRef .tc main_arg2)) :=
  (opsT0_keep _ main_arg2 (by decide)).trans (val1_main_arg2 V)

theorem val2_main_arg3 (V : Valuation τ sig (Elt F)) :
    val2 V (Proc.devRef .tc main_arg3) = (V (Proc.devRef .tc main_arg3)) :=
  (opsT0_keep _ main_arg3 (by decide)).trans (val1_main_arg3 V)

theorem val2_main_arg4 (V : Valuation τ sig (Elt F)) :
    val2 V (Proc.devRef .tc main_arg4) = (V (Proc.devRef .tc main_arg4)) :=
  (opsT0_keep _ main_arg4 (by decide)).trans (val1_main_arg4 V)

theorem val2_main_arg5 (V : Valuation τ sig (Elt F)) :
    val2 V (Proc.devRef .tc main_arg5) = (V (Proc.devRef .tc main_arg5)) :=
  (opsT0_keep _ main_arg5 (by decide)).trans (val1_main_arg5 V)

theorem val2_main_arg6 (V : Valuation τ sig (Elt F)) :
    val2 V (Proc.devRef .tc main_arg6) = (V (Proc.devRef .tc main_arg6)) :=
  (opsT0_keep _ main_arg6 (by decide)).trans (val1_main_arg6 V)

theorem val2_main_arg7 (V : Valuation τ sig (Elt F)) :
    val2 V (Proc.devRef .tc main_arg7) = (V (Proc.devRef .tc main_arg7)) :=
  (opsT0_keep _ main_arg7 (by decide)).trans (val1_main_arg7 V)

theorem val2_main_arg8 (V : Valuation τ sig (Elt F)) :
    val2 V (Proc.devRef .tc main_arg8) = (V (Proc.devRef .tc main_arg8)) :=
  (opsT0_keep _ main_arg8 (by decide)).trans (val1_main_arg8 V)

theorem val2_main_arg9 (V : Valuation τ sig (Elt F)) :
    val2 V (Proc.devRef .tc main_arg9) = (V (Proc.devRef .tc main_arg9)) :=
  (opsT0_keep _ main_arg9 (by decide)).trans (val1_main_arg9 V)

theorem val2_main_arg10 (V : Valuation τ sig (Elt F)) :
    val2 V (Proc.devRef .tc main_arg10) = (V (Proc.devRef .tc main_arg10)) :=
  (opsT0_keep _ main_arg10 (by decide)).trans (val1_main_arg10 V)

theorem val2_main_arg11 (V : Valuation τ sig (Elt F)) :
    val2 V (Proc.devRef .tc main_arg11) = (V (Proc.devRef .tc main_arg11)) :=
  (opsT0_keep _ main_arg11 (by decide)).trans (val1_main_arg11 V)

theorem val2_main_arg12 (V : Valuation τ sig (Elt F)) :
    val2 V (Proc.devRef .tc main_arg12) = (V (Proc.devRef .tc main_arg12)) :=
  (opsT0_keep _ main_arg12 (by decide)).trans (val1_main_arg12 V)

theorem val2_main_v17 (V : Valuation τ sig (Elt F)) :
    val2 V (Proc.devRef .tc main_v17) = (scat zeros iota0 (V (Proc.devRef .tc main_arg0))) :=
  (opsT0_keep _ main_v17 (by decide)).trans (val1_main_v17 V)

theorem val2_main_v3 (V : Valuation τ sig (Elt F)) :
    val2 V (Proc.devRef .tc main_v3) = (offs 4096#32) :=
  (opsT0_keep _ main_v3 (by decide)).trans (val1_main_v3 V)

theorem val2_main_v6 (V : Valuation τ sig (Elt F)) :
    val2 V (Proc.devRef .tc main_v6) = (offs 8192#32) :=
  (opsT0_keep _ main_v6 (by decide)).trans (val1_main_v6 V)

theorem val2_main_v9 (V : Valuation τ sig (Elt F)) :
    val2 V (Proc.devRef .tc main_v9) = (offs 12288#32) :=
  (opsT0_keep _ main_v9 (by decide)).trans (val1_main_v9 V)

theorem val2_main_v18 (V : Valuation τ sig (Elt F)) :
    val2 V (Proc.devRef .tc main_v18) = (takeT (scat zeros iota0 (V (Proc.devRef .tc main_arg0))) (V (Proc.devRef .tc main_arg1))) := by
  unfold val2
  rw [T0_main_v18, val1_main_v17, val1_main_arg1]
  try rfl

theorem val3_main_arg2 (V : Valuation τ sig (Elt F)) :
    val3 V (Proc.devRef .tc main_arg2) = (V (Proc.devRef .tc main_arg2)) :=
  (opsB0_keep _ main_arg2 (by decide)).trans (val2_main_arg2 V)

theorem val3_main_arg3 (V : Valuation τ sig (Elt F)) :
    val3 V (Proc.devRef .tc main_arg3) = (V (Proc.devRef .tc main_arg3)) :=
  (opsB0_keep _ main_arg3 (by decide)).trans (val2_main_arg3 V)

theorem val3_main_arg4 (V : Valuation τ sig (Elt F)) :
    val3 V (Proc.devRef .tc main_arg4) = (V (Proc.devRef .tc main_arg4)) :=
  (opsB0_keep _ main_arg4 (by decide)).trans (val2_main_arg4 V)

theorem val3_main_arg6 (V : Valuation τ sig (Elt F)) :
    val3 V (Proc.devRef .tc main_arg6) = (V (Proc.devRef .tc main_arg6)) :=
  (opsB0_keep _ main_arg6 (by decide)).trans (val2_main_arg6 V)

theorem val3_main_arg7 (V : Valuation τ sig (Elt F)) :
    val3 V (Proc.devRef .tc main_arg7) = (V (Proc.devRef .tc main_arg7)) :=
  (opsB0_keep _ main_arg7 (by decide)).trans (val2_main_arg7 V)

theorem val3_main_arg8 (V : Valuation τ sig (Elt F)) :
    val3 V (Proc.devRef .tc main_arg8) = (V (Proc.devRef .tc main_arg8)) :=
  (opsB0_keep _ main_arg8 (by decide)).trans (val2_main_arg8 V)

theorem val3_main_arg10 (V : Valuation τ sig (Elt F)) :
    val3 V (Proc.devRef .tc main_arg10) = (V (Proc.devRef .tc main_arg10)) :=
  (opsB0_keep _ main_arg10 (by decide)).trans (val2_main_arg10 V)

theorem val3_main_arg11 (V : Valuation τ sig (Elt F)) :
    val3 V (Proc.devRef .tc main_arg11) = (V (Proc.devRef .tc main_arg11)) :=
  (opsB0_keep _ main_arg11 (by decide)).trans (val2_main_arg11 V)

theorem val3_main_arg12 (V : Valuation τ sig (Elt F)) :
    val3 V (Proc.devRef .tc main_arg12) = (V (Proc.devRef .tc main_arg12)) :=
  (opsB0_keep _ main_arg12 (by decide)).trans (val2_main_arg12 V)

theorem val3_main_v17 (V : Valuation τ sig (Elt F)) :
    val3 V (Proc.devRef .tc main_v17) = (scat zeros iota0 (V (Proc.devRef .tc main_arg0))) :=
  (opsB0_keep _ main_v17 (by decide)).trans (val2_main_v17 V)

theorem val3_main_v3 (V : Valuation τ sig (Elt F)) :
    val3 V (Proc.devRef .tc main_v3) = (offs 4096#32) :=
  (opsB0_keep _ main_v3 (by decide)).trans (val2_main_v3 V)

theorem val3_main_v6 (V : Valuation τ sig (Elt F)) :
    val3 V (Proc.devRef .tc main_v6) = (offs 8192#32) :=
  (opsB0_keep _ main_v6 (by decide)).trans (val2_main_v6 V)

theorem val3_main_v9 (V : Valuation τ sig (Elt F)) :
    val3 V (Proc.devRef .tc main_v9) = (offs 12288#32) :=
  (opsB0_keep _ main_v9 (by decide)).trans (val2_main_v9 V)

theorem val3_main_v21 (V : Valuation τ sig (Elt F)) :
    val3 V (Proc.devRef .tc main_v21) = (dense4096T (takeT (scat zeros iota0 (V (Proc.devRef .tc main_arg0))) (V (Proc.devRef .tc main_arg1))) (V (Proc.devRef .tc main_arg5)) (V (Proc.devRef .tc main_arg9))) := by
  unfold val3
  rw [B0_main_v21, val2_main_v18, val2_main_arg5, val2_main_arg9]
  try rfl

theorem val4_main_arg2 (V : Valuation τ sig (Elt F)) :
    val4 V (Proc.devRef .tc main_arg2) = (V (Proc.devRef .tc main_arg2)) :=
  (opsA1_keep _ main_arg2 (by decide)).trans (val3_main_arg2 V)

theorem val4_main_arg3 (V : Valuation τ sig (Elt F)) :
    val4 V (Proc.devRef .tc main_arg3) = (V (Proc.devRef .tc main_arg3)) :=
  (opsA1_keep _ main_arg3 (by decide)).trans (val3_main_arg3 V)

theorem val4_main_arg4 (V : Valuation τ sig (Elt F)) :
    val4 V (Proc.devRef .tc main_arg4) = (V (Proc.devRef .tc main_arg4)) :=
  (opsA1_keep _ main_arg4 (by decide)).trans (val3_main_arg4 V)

theorem val4_main_arg6 (V : Valuation τ sig (Elt F)) :
    val4 V (Proc.devRef .tc main_arg6) = (V (Proc.devRef .tc main_arg6)) :=
  (opsA1_keep _ main_arg6 (by decide)).trans (val3_main_arg6 V)

theorem val4_main_arg7 (V : Valuation τ sig (Elt F)) :
    val4 V (Proc.devRef .tc main_arg7) = (V (Proc.devRef .tc main_arg7)) :=
  (opsA1_keep _ main_arg7 (by decide)).trans (val3_main_arg7 V)

theorem val4_main_arg8 (V : Valuation τ sig (Elt F)) :
    val4 V (Proc.devRef .tc main_arg8) = (V (Proc.devRef .tc main_arg8)) :=
  (opsA1_keep _ main_arg8 (by decide)).trans (val3_main_arg8 V)

theorem val4_main_arg10 (V : Valuation τ sig (Elt F)) :
    val4 V (Proc.devRef .tc main_arg10) = (V (Proc.devRef .tc main_arg10)) :=
  (opsA1_keep _ main_arg10 (by decide)).trans (val3_main_arg10 V)

theorem val4_main_arg11 (V : Valuation τ sig (Elt F)) :
    val4 V (Proc.devRef .tc main_arg11) = (V (Proc.devRef .tc main_arg11)) :=
  (opsA1_keep _ main_arg11 (by decide)).trans (val3_main_arg11 V)

theorem val4_main_arg12 (V : Valuation τ sig (Elt F)) :
    val4 V (Proc.devRef .tc main_arg12) = (V (Proc.devRef .tc main_arg12)) :=
  (opsA1_keep _ main_arg12 (by decide)).trans (val3_main_arg12 V)

theorem val4_main_v6 (V : Valuation τ sig (Elt F)) :
    val4 V (Proc.devRef .tc main_v6) = (offs 8192#32) :=
  (opsA1_keep _ main_v6 (by decide)).trans (val3_main_v6 V)

theorem val4_main_v9 (V : Valuation τ sig (Elt F)) :
    val4 V (Proc.devRef .tc main_v9) = (offs 12288#32) :=
  (opsA1_keep _ main_v9 (by decide)).trans (val3_main_v9 V)

theorem val4_main_v28 (V : Valuation τ sig (Elt F)) :
    val4 V (Proc.devRef .tc main_v28) = (stepT (scat zeros iota0 (V (Proc.devRef .tc main_arg0))) (offs 4096#32) (V (Proc.devRef .tc main_arg1)) (V (Proc.devRef .tc main_arg5)) (V (Proc.devRef .tc main_arg9))) := by
  unfold val4
  rw [A1_main_v28, val3_main_v17, val3_main_v3, val3_main_v21]
  try rfl

theorem val5_main_arg3 (V : Valuation τ sig (Elt F)) :
    val5 V (Proc.devRef .tc main_arg3) = (V (Proc.devRef .tc main_arg3)) :=
  (opsT1_keep _ main_arg3 (by decide)).trans (val4_main_arg3 V)

theorem val5_main_arg4 (V : Valuation τ sig (Elt F)) :
    val5 V (Proc.devRef .tc main_arg4) = (V (Proc.devRef .tc main_arg4)) :=
  (opsT1_keep _ main_arg4 (by decide)).trans (val4_main_arg4 V)

theorem val5_main_arg6 (V : Valuation τ sig (Elt F)) :
    val5 V (Proc.devRef .tc main_arg6) = (V (Proc.devRef .tc main_arg6)) :=
  (opsT1_keep _ main_arg6 (by decide)).trans (val4_main_arg6 V)

theorem val5_main_arg7 (V : Valuation τ sig (Elt F)) :
    val5 V (Proc.devRef .tc main_arg7) = (V (Proc.devRef .tc main_arg7)) :=
  (opsT1_keep _ main_arg7 (by decide)).trans (val4_main_arg7 V)

theorem val5_main_arg8 (V : Valuation τ sig (Elt F)) :
    val5 V (Proc.devRef .tc main_arg8) = (V (Proc.devRef .tc main_arg8)) :=
  (opsT1_keep _ main_arg8 (by decide)).trans (val4_main_arg8 V)

theorem val5_main_arg10 (V : Valuation τ sig (Elt F)) :
    val5 V (Proc.devRef .tc main_arg10) = (V (Proc.devRef .tc main_arg10)) :=
  (opsT1_keep _ main_arg10 (by decide)).trans (val4_main_arg10 V)

theorem val5_main_arg11 (V : Valuation τ sig (Elt F)) :
    val5 V (Proc.devRef .tc main_arg11) = (V (Proc.devRef .tc main_arg11)) :=
  (opsT1_keep _ main_arg11 (by decide)).trans (val4_main_arg11 V)

theorem val5_main_arg12 (V : Valuation τ sig (Elt F)) :
    val5 V (Proc.devRef .tc main_arg12) = (V (Proc.devRef .tc main_arg12)) :=
  (opsT1_keep _ main_arg12 (by decide)).trans (val4_main_arg12 V)

theorem val5_main_v6 (V : Valuation τ sig (Elt F)) :
    val5 V (Proc.devRef .tc main_v6) = (offs 8192#32) :=
  (opsT1_keep _ main_v6 (by decide)).trans (val4_main_v6 V)

theorem val5_main_v9 (V : Valuation τ sig (Elt F)) :
    val5 V (Proc.devRef .tc main_v9) = (offs 12288#32) :=
  (opsT1_keep _ main_v9 (by decide)).trans (val4_main_v9 V)

theorem val5_main_v28 (V : Valuation τ sig (Elt F)) :
    val5 V (Proc.devRef .tc main_v28) = (stepT (scat zeros iota0 (V (Proc.devRef .tc main_arg0))) (offs 4096#32) (V (Proc.devRef .tc main_arg1)) (V (Proc.devRef .tc main_arg5)) (V (Proc.devRef .tc main_arg9))) :=
  (opsT1_keep _ main_v28 (by decide)).trans (val4_main_v28 V)

theorem val5_main_v29 (V : Valuation τ sig (Elt F)) :
    val5 V (Proc.devRef .tc main_v29) = (takeT (stepT (scat zeros iota0 (V (Proc.devRef .tc main_arg0))) (offs 4096#32) (V (Proc.devRef .tc main_arg1)) (V (Proc.devRef .tc main_arg5)) (V (Proc.devRef .tc main_arg9))) (V (Proc.devRef .tc main_arg2))) := by
  unfold val5
  rw [T1_main_v29, val4_main_v28, val4_main_arg2]
  try rfl

theorem val6_main_arg3 (V : Valuation τ sig (Elt F)) :
    val6 V (Proc.devRef .tc main_arg3) = (V (Proc.devRef .tc main_arg3)) :=
  (opsB1_keep _ main_arg3 (by decide)).trans (val5_main_arg3 V)

theorem val6_main_arg4 (V : Valuation τ sig (Elt F)) :
    val6 V (Proc.devRef .tc main_arg4) = (V (Proc.devRef .tc main_arg4)) :=
  (opsB1_keep _ main_arg4 (by decide)).trans (val5_main_arg4 V)

theorem val6_main_arg7 (V : Valuation τ sig (Elt F)) :
    val6 V (Proc.devRef .tc main_arg7) = (V (Proc.devRef .tc main_arg7)) :=
  (opsB1_keep _ main_arg7 (by decide)).trans (val5_main_arg7 V)

theorem val6_main_arg8 (V : Valuation τ sig (Elt F)) :
    val6 V (Proc.devRef .tc main_arg8) = (V (Proc.devRef .tc main_arg8)) :=
  (opsB1_keep _ main_arg8 (by decide)).trans (val5_main_arg8 V)

theorem val6_main_arg11 (V : Valuation τ sig (Elt F)) :
    val6 V (Proc.devRef .tc main_arg11) = (V (Proc.devRef .tc main_arg11)) :=
  (opsB1_keep _ main_arg11 (by decide)).trans (val5_main_arg11 V)

theorem val6_main_arg12 (V : Valuation τ sig (Elt F)) :
    val6 V (Proc.devRef .tc main_arg12) = (V (Proc.devRef .tc main_arg12)) :=
  (opsB1_keep _ main_arg12 (by decide)).trans (val5_main_arg12 V)

theorem val6_main_v6 (V : Valuation τ sig (Elt F)) :
    val6 V (Proc.devRef .tc main_v6) = (offs 8192#32) :=
  (opsB1_keep _ main_v6 (by decide)).trans (val5_main_v6 V)

theorem val6_main_v9 (V : Valuation τ sig (Elt F)) :
    val6 V (Proc.devRef .tc main_v9) = (offs 12288#32) :=
  (opsB1_keep _ main_v9 (by decide)).trans (val5_main_v9 V)

theorem val6_main_v28 (V : Valuation τ sig (Elt F)) :
    val6 V (Proc.devRef .tc main_v28) = (stepT (scat zeros iota0 (V (Proc.devRef .tc main_arg0))) (offs 4096#32) (V (Proc.devRef .tc main_arg1)) (V (Proc.devRef .tc main_arg5)) (V (Proc.devRef .tc main_arg9))) :=
  (opsB1_keep _ main_v28 (by decide)).trans (val5_main_v28 V)

theorem val6_main_v32 (V : Valuation τ sig (Elt F)) :
    val6 V (Proc.devRef .tc main_v32) = (dense4096T (takeT (stepT (scat zeros iota0 (V (Proc.devRef .tc main_arg0))) (offs 4096#32) (V (Proc.devRef .tc main_arg1)) (V (Proc.devRef .tc main_arg5)) (V (Proc.devRef .tc main_arg9))) (V (Proc.devRef .tc main_arg2))) (V (Proc.devRef .tc main_arg6)) (V (Proc.devRef .tc main_arg10))) := by
  unfold val6
  rw [B1_main_v32, val5_main_v29, val5_main_arg6, val5_main_arg10]
  try rfl

theorem val7_main_arg3 (V : Valuation τ sig (Elt F)) :
    val7 V (Proc.devRef .tc main_arg3) = (V (Proc.devRef .tc main_arg3)) :=
  (opsA2_keep _ main_arg3 (by decide)).trans (val6_main_arg3 V)

theorem val7_main_arg4 (V : Valuation τ sig (Elt F)) :
    val7 V (Proc.devRef .tc main_arg4) = (V (Proc.devRef .tc main_arg4)) :=
  (opsA2_keep _ main_arg4 (by decide)).trans (val6_main_arg4 V)

theorem val7_main_arg7 (V : Valuation τ sig (Elt F)) :
    val7 V (Proc.devRef .tc main_arg7) = (V (Proc.devRef .tc main_arg7)) :=
  (opsA2_keep _ main_arg7 (by decide)).trans (val6_main_arg7 V)

theorem val7_main_arg8 (V : Valuation τ sig (Elt F)) :
    val7 V (Proc.devRef .tc main_arg8) = (V (Proc.devRef .tc main_arg8)) :=
  (opsA2_keep _ main_arg8 (by decide)).trans (val6_main_arg8 V)

theorem val7_main_arg11 (V : Valuation τ sig (Elt F)) :
    val7 V (Proc.devRef .tc main_arg11) = (V (Proc.devRef .tc main_arg11)) :=
  (opsA2_keep _ main_arg11 (by decide)).trans (val6_main_arg11 V)

theorem val7_main_arg12 (V : Valuation τ sig (Elt F)) :
    val7 V (Proc.devRef .tc main_arg12) = (V (Proc.devRef .tc main_arg12)) :=
  (opsA2_keep _ main_arg12 (by decide)).trans (val6_main_arg12 V)

theorem val7_main_v9 (V : Valuation τ sig (Elt F)) :
    val7 V (Proc.devRef .tc main_v9) = (offs 12288#32) :=
  (opsA2_keep _ main_v9 (by decide)).trans (val6_main_v9 V)

theorem val7_main_v39 (V : Valuation τ sig (Elt F)) :
    val7 V (Proc.devRef .tc main_v39) = (stepT (stepT (scat zeros iota0 (V (Proc.devRef .tc main_arg0))) (offs 4096#32) (V (Proc.devRef .tc main_arg1)) (V (Proc.devRef .tc main_arg5)) (V (Proc.devRef .tc main_arg9))) (offs 8192#32) (V (Proc.devRef .tc main_arg2)) (V (Proc.devRef .tc main_arg6)) (V (Proc.devRef .tc main_arg10))) := by
  unfold val7
  rw [A2_main_v39, val6_main_v28, val6_main_v6, val6_main_v32]
  try rfl

theorem val8_main_arg4 (V : Valuation τ sig (Elt F)) :
    val8 V (Proc.devRef .tc main_arg4) = (V (Proc.devRef .tc main_arg4)) :=
  (opsT2_keep _ main_arg4 (by decide)).trans (val7_main_arg4 V)

theorem val8_main_arg7 (V : Valuation τ sig (Elt F)) :
    val8 V (Proc.devRef .tc main_arg7) = (V (Proc.devRef .tc main_arg7)) :=
  (opsT2_keep _ main_arg7 (by decide)).trans (val7_main_arg7 V)

theorem val8_main_arg8 (V : Valuation τ sig (Elt F)) :
    val8 V (Proc.devRef .tc main_arg8) = (V (Proc.devRef .tc main_arg8)) :=
  (opsT2_keep _ main_arg8 (by decide)).trans (val7_main_arg8 V)

theorem val8_main_arg11 (V : Valuation τ sig (Elt F)) :
    val8 V (Proc.devRef .tc main_arg11) = (V (Proc.devRef .tc main_arg11)) :=
  (opsT2_keep _ main_arg11 (by decide)).trans (val7_main_arg11 V)

theorem val8_main_arg12 (V : Valuation τ sig (Elt F)) :
    val8 V (Proc.devRef .tc main_arg12) = (V (Proc.devRef .tc main_arg12)) :=
  (opsT2_keep _ main_arg12 (by decide)).trans (val7_main_arg12 V)

theorem val8_main_v9 (V : Valuation τ sig (Elt F)) :
    val8 V (Proc.devRef .tc main_v9) = (offs 12288#32) :=
  (opsT2_keep _ main_v9 (by decide)).trans (val7_main_v9 V)

theorem val8_main_v39 (V : Valuation τ sig (Elt F)) :
    val8 V (Proc.devRef .tc main_v39) = (stepT (stepT (scat zeros iota0 (V (Proc.devRef .tc main_arg0))) (offs 4096#32) (V (Proc.devRef .tc main_arg1)) (V (Proc.devRef .tc main_arg5)) (V (Proc.devRef .tc main_arg9))) (offs 8192#32) (V (Proc.devRef .tc main_arg2)) (V (Proc.devRef .tc main_arg6)) (V (Proc.devRef .tc main_arg10))) :=
  (opsT2_keep _ main_v39 (by decide)).trans (val7_main_v39 V)

theorem val8_main_v40 (V : Valuation τ sig (Elt F)) :
    val8 V (Proc.devRef .tc main_v40) = (takeT (stepT (stepT (scat zeros iota0 (V (Proc.devRef .tc main_arg0))) (offs 4096#32) (V (Proc.devRef .tc main_arg1)) (V (Proc.devRef .tc main_arg5)) (V (Proc.devRef .tc main_arg9))) (offs 8192#32) (V (Proc.devRef .tc main_arg2)) (V (Proc.devRef .tc main_arg6)) (V (Proc.devRef .tc main_arg10))) (V (Proc.devRef .tc main_arg3))) := by
  unfold val8
  rw [T2_main_v40, val7_main_v39, val7_main_arg3]
  try rfl

theorem val9_main_arg4 (V : Valuation τ sig (Elt F)) :
    val9 V (Proc.devRef .tc main_arg4) = (V (Proc.devRef .tc main_arg4)) :=
  (opsB2_keep _ main_arg4 (by decide)).trans (val8_main_arg4 V)

theorem val9_main_arg8 (V : Valuation τ sig (Elt F)) :
    val9 V (Proc.devRef .tc main_arg8) = (V (Proc.devRef .tc main_arg8)) :=
  (opsB2_keep _ main_arg8 (by decide)).trans (val8_main_arg8 V)

theorem val9_main_arg12 (V : Valuation τ sig (Elt F)) :
    val9 V (Proc.devRef .tc main_arg12) = (V (Proc.devRef .tc main_arg12)) :=
  (opsB2_keep _ main_arg12 (by decide)).trans (val8_main_arg12 V)

theorem val9_main_v9 (V : Valuation τ sig (Elt F)) :
    val9 V (Proc.devRef .tc main_v9) = (offs 12288#32) :=
  (opsB2_keep _ main_v9 (by decide)).trans (val8_main_v9 V)

theorem val9_main_v39 (V : Valuation τ sig (Elt F)) :
    val9 V (Proc.devRef .tc main_v39) = (stepT (stepT (scat zeros iota0 (V (Proc.devRef .tc main_arg0))) (offs 4096#32) (V (Proc.devRef .tc main_arg1)) (V (Proc.devRef .tc main_arg5)) (V (Proc.devRef .tc main_arg9))) (offs 8192#32) (V (Proc.devRef .tc main_arg2)) (V (Proc.devRef .tc main_arg6)) (V (Proc.devRef .tc main_arg10))) :=
  (opsB2_keep _ main_v39 (by decide)).trans (val8_main_v39 V)

theorem val9_main_v43 (V : Valuation τ sig (Elt F)) :
    val9 V (Proc.devRef .tc main_v43) = (dense4096T (takeT (stepT (stepT (scat zeros iota0 (V (Proc.devRef .tc main_arg0))) (offs 4096#32) (V (Proc.devRef .tc main_arg1)) (V (Proc.devRef .tc main_arg5)) (V (Proc.devRef .tc main_arg9))) (offs 8192#32) (V (Proc.devRef .tc main_arg2)) (V (Proc.devRef .tc main_arg6)) (V (Proc.devRef .tc main_arg10))) (V (Proc.devRef .tc main_arg3))) (V (Proc.devRef .tc main_arg7)) (V (Proc.devRef .tc main_arg11))) := by
  unfold val9
  rw [B2_main_v43, val8_main_v40, val8_main_arg7, val8_main_arg11]
  try rfl

theorem val10_main_arg4 (V : Valuation τ sig (Elt F)) :
    val10 V (Proc.devRef .tc main_arg4) = (V (Proc.devRef .tc main_arg4)) :=
  (opsA3_keep _ main_arg4 (by decide)).trans (val9_main_arg4 V)

theorem val10_main_arg8 (V : Valuation τ sig (Elt F)) :
    val10 V (Proc.devRef .tc main_arg8) = (V (Proc.devRef .tc main_arg8)) :=
  (opsA3_keep _ main_arg8 (by decide)).trans (val9_main_arg8 V)

theorem val10_main_arg12 (V : Valuation τ sig (Elt F)) :
    val10 V (Proc.devRef .tc main_arg12) = (V (Proc.devRef .tc main_arg12)) :=
  (opsA3_keep _ main_arg12 (by decide)).trans (val9_main_arg12 V)

theorem val10_main_v50 (V : Valuation τ sig (Elt F)) :
    val10 V (Proc.devRef .tc main_v50) = (stepT (stepT (stepT (scat zeros iota0 (V (Proc.devRef .tc main_arg0))) (offs 4096#32) (V (Proc.devRef .tc main_arg1)) (V (Proc.devRef .tc main_arg5)) (V (Proc.devRef .tc main_arg9))) (offs 8192#32) (V (Proc.devRef .tc main_arg2)) (V (Proc.devRef .tc main_arg6)) (V (Proc.devRef .tc main_arg10))) (offs 12288#32) (V (Proc.devRef .tc main_arg3)) (V (Proc.devRef .tc main_arg7)) (V (Proc.devRef .tc main_arg11))) := by
  unfold val10
  rw [A3_main_v50, val9_main_v39, val9_main_v9, val9_main_v43]
  try rfl

theorem val11_main_arg8 (V : Valuation τ sig (Elt F)) :
    val11 V (Proc.devRef .tc main_arg8) = (V (Proc.devRef .tc main_arg8)) :=
  (opsT3_keep _ main_arg8 (by decide)).trans (val10_main_arg8 V)

theorem val11_main_arg12 (V : Valuation τ sig (Elt F)) :
    val11 V (Proc.devRef .tc main_arg12) = (V (Proc.devRef .tc main_arg12)) :=
  (opsT3_keep _ main_arg12 (by decide)).trans (val10_main_arg12 V)

theorem val11_main_v51 (V : Valuation τ sig (Elt F)) :
    val11 V (Proc.devRef .tc main_v51) = (takeT (stepT (stepT (stepT (scat zeros iota0 (V (Proc.devRef .tc main_arg0))) (offs 4096#32) (V (Proc.devRef .tc main_arg1)) (V (Proc.devRef .tc main_arg5)) (V (Proc.devRef .tc main_arg9))) (offs 8192#32) (V (Proc.devRef .tc main_arg2)) (V (Proc.devRef .tc main_arg6)) (V (Proc.devRef .tc main_arg10))) (offs 12288#32) (V (Proc.devRef .tc main_arg3)) (V (Proc.devRef .tc main_arg7)) (V (Proc.devRef .tc main_arg11))) (V (Proc.devRef .tc main_arg4))) := by
  unfold val11
  rw [T3_main_v51, val10_main_v50, val10_main_arg4]
  try rfl

theorem val12_main_v54 (V : Valuation τ sig (Elt F)) :
    val12 V (Proc.devRef .tc main_v54) = (dense2048T (takeT (stepT (stepT (stepT (scat zeros iota0 (V (Proc.devRef .tc main_arg0))) (offs 4096#32) (V (Proc.devRef .tc main_arg1)) (V (Proc.devRef .tc main_arg5)) (V (Proc.devRef .tc main_arg9))) (offs 8192#32) (V (Proc.devRef .tc main_arg2)) (V (Proc.devRef .tc main_arg6)) (V (Proc.devRef .tc main_arg10))) (offs 12288#32) (V (Proc.devRef .tc main_arg3)) (V (Proc.devRef .tc main_arg7)) (V (Proc.devRef .tc main_arg11))) (V (Proc.devRef .tc main_arg4))) (V (Proc.devRef .tc main_arg8)) (V (Proc.devRef .tc main_arg12))) := by
  unfold val12
  rw [B3_main_v54, val11_main_v51, val11_main_arg8, val11_main_arg12]
  try rfl

/-- The result buffer after the whole line is `refTerm` of the argument arrays' contents. -/
theorem ops_main_v54 (V : Valuation τ sig (Elt F)) :
    after ops V (Proc.devRef .tc main_v54)
      = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops, val12_main_v54]
  try rfl

/-- On every device, for any float values, from any memory with zero counters: every weakly fair execution of @main
    terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
          = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v54).trans (ops_main_v54 (launchContents m c)),
      (h c main_arg0).trans (ops_keep _ main_arg0 (by decide) (by decide) (by decide) (by decide) (by decide) (by decide) (by decide) (by decide) (by decide) (by decide) (by decide) (by decide)),
      (h c main_arg1).trans (ops_keep _ main_arg1 (by decide) (by decide) (by decide) (by decide) (by decide) (by decide) (by decide) (by decide) (by decide) (by decide) (by decide) (by decide)),
      (h c main_arg2).trans (ops_keep _ main_arg2 (by decide) (by decide) (by decide) (by decide) (by decide) (by decide) (by decide) (by decide) (by decide) (by decide) (by decide) (by decide)),
      (h c main_arg3).trans (ops_keep _ main_arg3 (by decide) (by decide) (by decide) (by decide) (by decide) (by decide) (by decide) (by decide) (by decide) (by decide) (by decide) (by decide)),
      (h c main_arg4).trans (ops_keep _ main_arg4 (by decide) (by decide) (by decide) (by decide) (by decide) (by decide) (by decide) (by decide) (by decide) (by decide) (by decide) (by decide)),
      (h c main_arg5).trans (ops_keep _ main_arg5 (by decide) (by decide) (by decide) (by decide) (by decide) (by decide) (by decide) (by decide) (by decide) (by decide) (by decide) (by decide)),
      (h c main_arg6).trans (ops_keep _ main_arg6 (by decide) (by decide) (by decide) (by decide) (by decide) (by decide) (by decide) (by decide) (by decide) (by decide) (by decide) (by decide)),
      (h c main_arg7).trans (ops_keep _ main_arg7 (by decide) (by decide) (by decide) (by decide) (by decide) (by decide) (by decide) (by decide) (by decide) (by decide) (by decide) (by decide)),
      (h c main_arg8).trans (ops_keep _ main_arg8 (by decide) (by decide) (by decide) (by decide) (by decide) (by decide) (by decide) (by decide) (by decide) (by decide) (by decide) (by decide)),
      (h c main_arg9).trans (ops_keep _ main_arg9 (by decide) (by decide) (by decide) (by decide) (by decide) (by decide) (by decide) (by decide) (by decide) (by decide) (by decide) (by decide)),
      (h c main_arg10).trans (ops_keep _ main_arg10 (by decide) (by decide) (by decide) (by decide) (by decide) (by decide) (by decide) (by decide) (by decide) (by decide) (by decide) (by decide)),
      (h c main_arg11).trans (ops_keep _ main_arg11 (by decide) (by decide) (by decide) (by decide) (by decide) (by decide) (by decide) (by decide) (by decide) (by decide) (by decide) (by decide)),
      (h c main_arg12).trans (ops_keep _ main_arg12 (by decide) (by decide) (by decide) (by decide) (by decide) (by decide) (by decide) (by decide) (by decide) (by decide) (by decide) (by decide))⟩)
    (run_all m ρ)

end Cert.Proof.RefRun

end
-- ==== Proof.Spec.lean ====
/-
  The function both programs compute, stated once over the argument arrays at the ideal values (a float an
  extended real), with no program in sight: a four-layer sparse perceptron over a flat state vector.

  The state has 16384 slots: slots [0, 4096) hold the inputs, slots [4096·i, 4096·i + 4096) the output of layer
  i − 1 (i = 1, 2, 3), zero until written. Layer i gathers 4096 state slots through its index table, multiplies the
  gathered row by its weight matrix, adds its bias and applies tanh; layers 0, 1, 2 write their 4096 outputs into the
  state's next block, layer 3 returns its 2048 outputs.

  Every piece is a small named function, so that each side can be met layer by layer:
  `st0` (the initial state), `gath` (the gather through an index table), `dense4096` / `dense2048` (bias plus the
  row-times-matrix sum, then tanh), `put` (one block of the state replaced), `step` (one whole layer on the state),
  and `G` (the composition).
-/
import Idealize.ShloMosaic.PureOps.Ideal
import Idealize.ShloMosaic.Lib.ValueIdx

noncomputable section

namespace Cert.Proof.Spec

open Idealize.ShloMosaic Idealize.ShloMosaic.ValueIdx
open scoped BigOperators

/-- A vector of `n` ideal f32 values. -/
abbrev FV (n : Nat) : Type := FVec Ideal (⟨1, ![n]⟩ : Shape) .f32
/-- A vector of `n` 32-bit integer words. -/
abbrev IV (n : Nat) : Type := IVec (⟨1, ![n]⟩ : Shape) 32
/-- A `k × n` matrix of ideal f32 values. -/
abbrev FM (k n : Nat) : Type := FVec Ideal (⟨2, ![k, n]⟩ : Shape) .f32

/-- The initial state: the inputs in slots [0, 4096), the f32 zero word's value everywhere else. -/
def st0 (x : FV 4096) : FV 16384 :=
  fun s => if h : (s 0).val < 4096 then x (ix1 ⟨(s 0).val, h⟩) else Ideal.ofBits .f32 0x00000000#32

/-- The gather: element `e` is the state at the slot the table names, the word read as a natural number
    (clamped into the state, which matters only for a table entry outside [0, 16384)). -/
def gath (st : FV 16384) (ni : IV 4096) : FV 4096 :=
  fun e => st (ix1 ⟨min (ni e).toNat 16383, by omega⟩)

/-- A dense layer of 4096 outputs: output `n` is tanh of the bias plus the sum over `k` of `g k · W (k, n)`. -/
def dense4096 (g : FV 4096) (W : FM 4096 4096) (b : FV 4096) : FV 4096 :=
  fun j => Ideal.tanh (b j + ∑ k : Fin 4096, g (ix1 k) * W (ix2 k (j 0)))

/-- A dense layer of 2048 outputs, likewise. -/
def dense2048 (g : FV 4096) (W : FM 4096 2048) (b : FV 2048) : FV 2048 :=
  fun j => Ideal.tanh (b j + ∑ k : Fin 4096, g (ix1 k) * W (ix2 k (j 0)))

/-- The state with block `i` — slots [4096·i, 4096·i + 4096) — replaced by `y`. -/
def put (st : FV 16384) (i : Nat) (y : FV 4096) : FV 16384 :=
  fun s => if h : 4096 * i ≤ (s 0).val ∧ (s 0).val < 4096 * i + 4096
    then y (ix1 ⟨(s 0).val - 4096 * i, by omega⟩) else st s

/-- One layer on the state: gather through `ni`, the dense layer, its outputs written into block `i`. -/
def step (st : FV 16384) (i : Nat) (ni : IV 4096) (W : FM 4096 4096) (b : FV 4096) : FV 16384 :=
  put st i (dense4096 (gath st ni) W b)

/-- The whole function: three layers on the state, the fourth layer's outputs returned. -/
def G (x : FV 4096) (n0 n1 n2 n3 : IV 4096) (W0 W1 W2 : FM 4096 4096) (W3 : FM 4096 2048)
    (b0 b1 b2 : FV 4096) (b3 : FV 2048) : FV 2048 :=
  dense2048 (gath (step (step (step (st0 x) 1 n0 W0 b0) 2 n1 W1 b1) 3 n2 W2 b2) n3) W3 b3

/-! ## The pieces read at coordinates (all by unfolding) -/

theorem st0_lo (x : FV 4096) (a : Fin 16384) (h : a.val < 4096) : st0 x (ix1 a) = x (ix1 ⟨a.val, h⟩) :=
  dif_pos h
theorem st0_hi (x : FV 4096) (a : Fin 16384) (h : ¬ a.val < 4096) :
    st0 x (ix1 a) = Ideal.ofBits .f32 0x00000000#32 :=
  dif_neg h

theorem gath_apply (st : FV 16384) (ni : IV 4096) (e : (⟨1, ![4096]⟩ : Shape).Idx) :
    gath st ni e = st (ix1 ⟨min (ni e).toNat 16383, by omega⟩) := rfl
/-- For a table entry inside the state the gather reads that slot. -/
theorem gath_of_lt (st : FV 16384) (ni : IV 4096) (e : (⟨1, ![4096]⟩ : Shape).Idx) (h : (ni e).toNat < 16384) :
    gath st ni e = st (ix1 ⟨(ni e).toNat, h⟩) := by
  rw [gath_apply]; congr 2; exact Fin.ext (Nat.min_eq_left (by omega))

theorem dense4096_apply (g : FV 4096) (W : FM 4096 4096) (b : FV 4096) (n : Fin 4096) :
    dense4096 g W b (ix1 n) = Ideal.tanh (b (ix1 n) + ∑ k : Fin 4096, g (ix1 k) * W (ix2 k n)) := rfl
theorem dense2048_apply (g : FV 4096) (W : FM 4096 2048) (b : FV 2048) (n : Fin 2048) :
    dense2048 g W b (ix1 n) = Ideal.tanh (b (ix1 n) + ∑ k : Fin 4096, g (ix1 k) * W (ix2 k n)) := rfl

theorem put_in (st : FV 16384) (i : Nat) (y : FV 4096) (a : Fin 16384)
    (h : 4096 * i ≤ a.val ∧ a.val < 4096 * i + 4096) :
    put st i y (ix1 a) = y (ix1 ⟨a.val - 4096 * i, by omega⟩) :=
  dif_pos h
theorem put_out (st : FV 16384) (i : Nat) (y : FV 4096) (a : Fin 16384)
    (h : ¬ (4096 * i ≤ a.val ∧ a.val < 4096 * i + 4096)) :
    put st i y (ix1 a) = st (ix1 a) :=
  dif_neg h

end Cert.Proof.Spec

end
-- ==== Proof.RefSpec.lean ====
/-
  The reference's composed term is the specification: under the index tables' ranges, `refTerm` at the ideal
  values is `Spec.G` of the same arrays. The reference keeps an 18432-slot state of which it only ever reads and
  writes the first 16384 slots; the two states agree there, layer by layer.
-/
import proofs.«208418_g89945205112833_cont_sun_c4_809_35_alg».proof.Proof.RefVal
import proofs.«208418_g89945205112833_cont_sun_c4_809_35_alg».proof.Proof.Spec
import Idealize.ShloMosaic.Lib.ValueIdx
import Idealize.ShloMosaic.PureOps.Ideal.Laws
import Idealize.ShloMosaic.PureOps.Reduce

noncomputable section

namespace Cert.Proof.RefSpec

open Cert.ReferenceIdeal Cert.ReferenceIdeal.Gen Idealize.ShloMosaic Idealize.ShloMosaic.ValueIdx Cert.Proof.RefRun
open scoped BigOperators

/-! ## An overwriting fold read at one index -/

section Fold
variable {ι κ α : Type} [DecidableEq ι]

/-- One step of an overwriting scatter: update `n` lands at its target, if it has one. -/
def stepSet (tgt : κ → Option ι) (upd : κ → α) (r : ι → α) (n : κ) : ι → α :=
  match tgt n with
  | some i => fun i' => if i' = i then upd n else r i'
  | none => r

theorem stepSet_of_ne (tgt : κ → Option ι) (upd : κ → α) (r : ι → α) (n : κ) (p : ι) (h : tgt n ≠ some p) :
    stepSet tgt upd r n p = r p := by
  unfold stepSet
  cases hta : tgt n with
  | none => rfl
  | some i =>
    have hne : p ≠ i := fun e => h (by rw [hta, e])
    exact if_neg hne

theorem stepSet_of_eq (tgt : κ → Option ι) (upd : κ → α) (r : ι → α) (n : κ) (p : ι) (h : tgt n = some p) :
    stepSet tgt upd r n p = upd n := by
  unfold stepSet
  rw [h]
  exact if_pos rfl

/-- No update of the list lands at `p`: the fold leaves `p` alone. -/
theorem foldl_stepSet_miss (tgt : κ → Option ι) (upd : κ → α) (p : ι) :
    ∀ (l : List κ) (r : ι → α), (∀ n ∈ l, tgt n ≠ some p) → (l.foldl (stepSet tgt upd) r) p = r p
  | [], _, _ => rfl
  | a :: t, r, h => by
    rw [List.foldl_cons, foldl_stepSet_miss tgt upd p t _ (fun n hn => h n (List.mem_cons_of_mem _ hn))]
    exact stepSet_of_ne tgt upd r a p (h a List.mem_cons_self)

/-- Exactly one update of a duplicate-free list lands at `p`: the fold holds it there. -/
theorem foldl_stepSet_hit (tgt : κ → Option ι) (upd : κ → α) (p : ι) (n0 : κ) (h0 : tgt n0 = some p) :
    ∀ (l : List κ) (r : ι → α), l.Nodup → n0 ∈ l → (∀ n ∈ l, tgt n = some p → n = n0) →
      (l.foldl (stepSet tgt upd) r) p = upd n0
  | [], _, _, hm, _ => absurd hm List.not_mem_nil
  | a :: t, r, hnd, hm, hu => by
    rw [List.foldl_cons]
    rcases List.mem_cons.1 hm with rfl | hmt
    · have hnt : n0 ∉ t := (List.nodup_cons.1 hnd).1
      rw [foldl_stepSet_miss tgt upd p t _ (fun n hn e => hnt ((hu n (List.mem_cons_of_mem _ hn) e) ▸ hn))]
      exact stepSet_of_eq tgt upd r n0 p h0
    · exact foldl_stepSet_hit tgt upd p n0 h0 t _ (List.nodup_cons.1 hnd).2 hmt
        (fun n hn => hu n (List.mem_cons_of_mem _ hn))

end Fold

/-! ## The scatter's and the gather's dimension numbers read -/

/-- The scatter's dimension numbers. -/
abbrev SD : ScatterDims S18432 S4096x1 S4096 := scatter_S18432_S4096x1_S4096_n_0_0_1
/-- The gather's dimension numbers. -/
abbrev GD : GatherDims S18432 S4096x1 S4096 := gather_S18432_S4096x1_S4096_n_0_n_n_0_1_1

theorem SD_start (c : Fin 4096) (idx : IVec S4096x1 32) (a : Fin S18432.rank) :
    SD.start (ix1 c) idx a = (idx (ix2 c 0)).toInt := by
  obtain rfl : a = 0 := Subsingleton.elim _ _
  unfold ScatterDims.start
  rw [dif_pos (show (0 : Fin 1) ∈ SD.scatterDimsToOperandDims from List.mem_singleton.mpr rfl)]
  congr 2
  funext b
  refine Fin.ext ?_
  match b with
  | ⟨0, _⟩ => rfl
  | ⟨1, _⟩ => rfl

theorem SD_window (j : S4096.Idx) (a : Fin S18432.rank) : SD.window j a = 0 := by
  obtain rfl : a = 0 := Subsingleton.elim _ _
  unfold ScatterDims.window
  rw [dif_neg]
  intro h
  exact absurd h (by decide)

/-- An update whose index word is inside the state lands at that slot. -/
theorem SD_resultIdx (c : Fin 4096) (idx : IVec S4096x1 32) (h0 : 0 ≤ (idx (ix2 c 0)).toInt)
    (h1 : (idx (ix2 c 0)).toInt < 18432) :
    SD.resultIdx? (ix1 c) idx = some (ix1 ⟨(idx (ix2 c 0)).toInt.toNat, by omega⟩) := by
  unfold ScatterDims.resultIdx?
  have hc : ∀ a, 0 ≤ SD.start (ix1 c) idx a + SD.window (ix1 c) a ∧ SD.start (ix1 c) idx a + SD.window (ix1 c) a < S18432.size a := by
    intro a
    rw [SD_start, SD_window]
    obtain rfl : a = 0 := Subsingleton.elim _ _
    show 0 ≤ _ + ((0 : ℕ) : ℤ) ∧ _ + ((0 : ℕ) : ℤ) < ((18432 : ℕ) : ℤ)
    omega
  rw [dif_pos hc]
  congr 1
  funext a
  obtain rfl : a = 0 := Subsingleton.elim _ _
  refine Fin.ext ?_
  show (SD.start (ix1 c) idx 0 + SD.window (ix1 c) 0).toNat = _
  rw [SD_start, SD_window]
  simp

theorem gather_apply {α : Type} (x : S18432.Idx → α) (idx : IVec S4096x1 32) (c : Fin 4096) :
    Host.gather GD x idx (ix1 c) = x (ix1 ⟨min (idx (ix2 c 0)).toInt.toNat 18431, by omega⟩) := by
  unfold Host.gather
  congr 1
  funext a
  obtain rfl : a = 0 := Subsingleton.elim _ _
  refine Fin.ext ?_
  show GD.start (ix1 c) idx 0 + GD.batchCoord (ix1 c) 0 + GD.offCoord (ix1 c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ GD.startIndexMap from List.mem_singleton.mpr rfl)]
  have hsi : GD.siIdx (ix1 c) ⟨List.idxOf (0 : Fin 1) GD.startIndexMap,
      List.idxOf_lt_length_iff.2 (List.mem_singleton.mpr rfl)⟩ = ix2 c 0 := by
    funext b
    refine Fin.ext ?_
    match b with
    | ⟨0, _⟩ => rfl
    | ⟨1, _⟩ => rfl
  rw [hsi]
  rfl

/-! ## Words and index vectors -/

theorem andi_one_one : IntOp.andi (1#1) (1#1) = 1#1 := by decide

theorem cmpi_slt_zero (x : BitVec 32) (h : 0 ≤ x.toInt) : IntOp.cmpi .slt x 0#32 = 0#1 := by
  have hs : x.slt 0#32 = false := by
    rw [BitVec.slt_eq_decide]
    simp
    omega
  show BitVec.ofBool (x.slt 0#32) = 0#1
  rw [hs]
  rfl

theorem cmpi_sge_zero (x : BitVec 32) (h : 0 ≤ x.toInt) : IntOp.cmpi .sge x 0#32 = 1#1 := by
  have hs : (0#32 : BitVec 32).sle x = true := by
    rw [BitVec.sle_eq_decide]
    simp
    omega
  show BitVec.ofBool ((0#32 : BitVec 32).sle x) = 1#1
  rw [hs]
  rfl

theorem cmpi_sle_of_le (x c : BitVec 32) (h : x.toInt ≤ c.toInt) : IntOp.cmpi .sle x c = 1#1 := by
  have hs : x.sle c = true := by
    rw [BitVec.sle_eq_decide]
    exact decide_eq_true h
  show BitVec.ofBool (x.sle c) = 1#1
  rw [hs]
  rfl

theorem foldl_andi_one {ι : Type} (x : ι → BitVec 1) (hx : ∀ i, x i = 1#1) :
    ∀ l : List ι, l.foldl (fun r i => IntOp.andi r (x i)) (1#1) = 1#1
  | [] => rfl
  | a :: t => by
    rw [List.foldl_cons, hx a, andi_one_one]
    exact foldl_andi_one x hx t

/-- A vector broadcast to a column reads the vector at the row. -/
theorem bcast_col_apply {α : Type} (x : S4096.Idx → α) (c : Fin 4096) (b : Fin 1) :
    broadcastInDim S4096x1 ![0] bcast_S4096_S4096x1_0 x (ix2 c b) = x (ix1 c) := by
  unfold broadcastInDim
  congr 1
  funext a
  obtain rfl : a = 0 := Subsingleton.elim _ _
  rfl

/-- On a non-negative index the wrap is the identity. -/
theorem wrapIdx_apply (i : IVec S4096 32) (c : Fin 4096) (b : Fin 1) (h : 0 ≤ (i (ix1 c)).toInt) :
    wrapIdx i (ix2 c b) = i (ix1 c) := by
  unfold wrapIdx
  rw [bcast_col_apply]
  show Scalar.select (IntOp.cmpi .slt (i (ix1 c)) 0#32) (IntOp.addi (i (ix1 c)) 18432#32) (i (ix1 c)) = _
  rw [cmpi_slt_zero _ h, select_zero]

/-- The gather function's in-bounds mask is all ones on indices inside the state. -/
theorem take_mask (ni : IVec S4096 32) (hn : ∀ e, 0 ≤ (ni e).toInt ∧ (ni e).toInt ≤ 18431) (j : S4096.Idx) :
    Host.reduce IntOp.andi
      (andi (cmpi .sge (wrapIdx ni) (broadcastInDim S4096x1 ![] bcast_S_S4096x1 (constantI S_ 32 0#32)))
        (cmpi .sle (wrapIdx ni)
          (broadcastInDim S4096x1 ![0, 1] bcast_S1x1_S4096x1_0_1
            (broadcastInDim S1x1 ![1] bcast_S1_S1x1_1 (constantI S1 32 18431#32)))))
      (constantI S_ 1 1#1) reducesTo_S4096x1_S4096_d1 h_S_ j = 1#1 := by
  rw [Host.reduce_eq_foldl]
  refine foldl_andi_one _ (fun y => ?_) _
  obtain ⟨c, b, rfl⟩ : ∃ (c : Fin 4096) (b : Fin 1), y = ix2 c b := ⟨y 0, y 1, eq_ix2 y⟩
  show IntOp.andi (IntOp.cmpi .sge (wrapIdx ni (ix2 c b)) 0#32) (IntOp.cmpi .sle (wrapIdx ni (ix2 c b)) 18431#32) = 1#1
  have e : (18431#32 : BitVec 32).toInt = 18431 := by decide
  rw [wrapIdx_apply ni c b (hn _).1, cmpi_sge_zero _ (hn _).1,
    cmpi_sle_of_le _ _ (by have := (hn (ix1 c)).2; omega), andi_one_one]

/-- The gather function on indices inside the state: the state at the index. -/
theorem takeT_apply (st : FVec Ideal S18432 .f32) (ni : IVec S4096 32)
    (hn : ∀ e, 0 ≤ (ni e).toInt ∧ (ni e).toInt ≤ 18431) (a : Fin 4096) :
    takeT (F := Ideal) st ni (ix1 a)
      = st (ix1 ⟨(ni (ix1 a)).toInt.toNat, by have := hn (ix1 a); omega⟩) := by
  unfold takeT
  rw [select_apply, take_mask ni hn, select_one, gather_apply]
  congr 2
  refine Fin.ext ?_
  show min (wrapIdx ni (ix2 a 0)).toInt.toNat 18431 = (ni (ix1 a)).toInt.toNat
  rw [wrapIdx_apply ni a 0 (hn _).1]
  have := hn (ix1 a)
  omega

/-! ## The scatter read at one slot -/

theorem scat_eq_fold (st : FVec Ideal S18432 .f32) (i : IVec S4096 32) (u : FVec Ideal S4096 .f32) :
    scat (F := Ideal) st i u
      = (List.finRange S4096.numel).foldl
          (stepSet (fun n => SD.resultIdx? (S4096.rowMajor.symm n) (wrapIdx i)) (fun n => u (S4096.rowMajor.symm n))) st := by
  unfold scat Host.scatter
  congr 1
  funext r n
  unfold stepSet
  dsimp only
  cases SD.resultIdx? (S4096.rowMajor.symm n) (wrapIdx i) <;> rfl

/-- Where an update lands, for indices inside the state. -/
theorem SD_tgt (i : IVec S4096 32) (hi : ∀ e, 0 ≤ (i e).toInt ∧ (i e).toInt < 18432) (j : S4096.Idx) :
    SD.resultIdx? j (wrapIdx i) = some (ix1 ⟨(i j).toInt.toNat, by have := hi j; omega⟩) := by
  obtain ⟨c, rfl⟩ : ∃ c : Fin 4096, j = ix1 c := ⟨j 0, eq_ix1 j⟩
  have hw : wrapIdx i (ix2 c 0) = i (ix1 c) := wrapIdx_apply i c 0 (hi _).1
  rw [SD_resultIdx c _ (by rw [hw]; exact (hi _).1) (by rw [hw]; exact (hi _).2)]
  simp only [hw]

theorem scat_hit (st : FVec Ideal S18432 .f32) (i : IVec S4096 32) (u : FVec Ideal S4096 .f32)
    (hi : ∀ e, 0 ≤ (i e).toInt ∧ (i e).toInt < 18432) (hinj : ∀ e e', (i e).toInt = (i e').toInt → e = e')
    (e : S4096.Idx) :
    scat (F := Ideal) st i u (ix1 ⟨(i e).toInt.toNat, by have := hi e; omega⟩) = u e := by
  rw [scat_eq_fold]
  refine (foldl_stepSet_hit _ _ _ (S4096.rowMajor e) ?_ _ _ (List.nodup_finRange _) (List.mem_finRange _) ?_).trans ?_
  · simp only [Equiv.symm_apply_apply]
    exact SD_tgt i hi e
  · intro n _ hn
    rw [SD_tgt i hi] at hn
    have h1 := congrFun (Option.some.inj hn) 0
    have h2 : (i (S4096.rowMajor.symm n)).toInt.toNat = (i e).toInt.toNat := congrArg Fin.val h1
    have h3 : S4096.rowMajor.symm n = e :=
      hinj _ _ (by have := hi (S4096.rowMajor.symm n); have := hi e; omega)
    rw [← h3, Equiv.apply_symm_apply]
  · simp only [Equiv.symm_apply_apply]

theorem scat_miss (st : FVec Ideal S18432 .f32) (i : IVec S4096 32) (u : FVec Ideal S4096 .f32)
    (hi : ∀ e, 0 ≤ (i e).toInt ∧ (i e).toInt < 18432) (p : S18432.Idx)
    (hp : ∀ e, (i e).toInt.toNat ≠ (p 0).val) :
    scat (F := Ideal) st i u p = st p := by
  rw [scat_eq_fold]
  refine foldl_stepSet_miss _ _ p _ _ (fun n _ h => ?_)
  rw [SD_tgt i hi] at h
  have h1 := congrFun (Option.some.inj h) 0
  exact hp _ (congrArg Fin.val h1)

/-- The scatter at the 4096 consecutive indices from `base`: inside the block the update, elsewhere the state. -/
theorem scat_read (st : FVec Ideal S18432 .f32) (i : IVec S4096 32) (u : FVec Ideal S4096 .f32) (base : Nat)
    (hb : base + 4096 ≤ 18432) (hi : ∀ a : Fin 4096, (i (ix1 a)).toInt = ((base + a.val : Nat) : Int)) (p : Fin 18432) :
    scat (F := Ideal) st i u (ix1 p)
      = if h : base ≤ p.val ∧ p.val < base + 4096 then u (ix1 ⟨p.val - base, by omega⟩) else st (ix1 p) := by
  have hi' : ∀ e, 0 ≤ (i e).toInt ∧ (i e).toInt < 18432 := fun e => by
    obtain ⟨c, rfl⟩ : ∃ c : Fin 4096, e = ix1 c := ⟨e 0, eq_ix1 e⟩
    rw [hi]
    have := c.isLt
    constructor <;> omega
  have hinj : ∀ e e', (i e).toInt = (i e').toInt → e = e' := fun e e' h => by
    obtain ⟨c, rfl⟩ : ∃ c : Fin 4096, e = ix1 c := ⟨e 0, eq_ix1 e⟩
    obtain ⟨c', rfl⟩ : ∃ c' : Fin 4096, e' = ix1 c' := ⟨e' 0, eq_ix1 e'⟩
    rw [hi, hi] at h
    congr 1
    exact Fin.ext (by omega)
  by_cases h : base ≤ p.val ∧ p.val < base + 4096
  · rw [dif_pos h]
    have := scat_hit st i u hi' hinj (ix1 ⟨p.val - base, by omega⟩)
    rw [← this]
    congr 2
    refine Fin.ext ?_
    show p.val = (i (ix1 ⟨p.val - base, _⟩)).toInt.toNat
    rw [hi]
    simp only [Int.toNat_natCast]
    omega
  · rw [dif_neg h]
    refine scat_miss st i u hi' _ (fun e => ?_)
    obtain ⟨c, rfl⟩ : ∃ c : Fin 4096, e = ix1 c := ⟨e 0, eq_ix1 e⟩
    rw [hi]
    show ((base + c.val : Nat) : Int).toNat ≠ p.val
    rw [Int.toNat_natCast]
    have := c.isLt
    omega

/-! ## The index vectors of the four writes -/

theorem toInt_ofNat_small (a : Nat) (h : a < 2 ^ 31) : (BitVec.ofNat 32 a).toInt = (a : Int) := by
  have h1 : (BitVec.ofNat 32 a).toNat = a := by
    rw [BitVec.toNat_ofNat]
    omega
  rw [BitVec.toInt_eq_toNat_cond, h1]
  split <;> omega

theorem toInt_add_ofNat (c : BitVec 32) (a : Nat) (h : c.toNat + a < 2 ^ 31) :
    (c + BitVec.ofNat 32 a).toInt = ((c.toNat + a : Nat) : Int) := by
  have h1 : (c + BitVec.ofNat 32 a).toNat = c.toNat + a := by
    rw [BitVec.toNat_add, BitVec.toNat_ofNat]
    omega
  rw [BitVec.toInt_eq_toNat_cond, h1]
  split <;> omega

theorem iota0_toInt (a : Fin 4096) : (iota0 (ix1 a)).toInt = ((0 + a.val : Nat) : Int) := by
  show (BitVec.ofNat 32 a.val).toInt = _
  rw [toInt_ofNat_small _ (by have := a.isLt; omega)]
  simp

theorem offs_toInt (c : BitVec 32) (hc : c.toNat + 4096 ≤ 2 ^ 31) (a : Fin 4096) :
    (offs c (ix1 a)).toInt = ((c.toNat + a.val : Nat) : Int) := by
  show (c + BitVec.ofNat 32 a.val).toInt = _
  exact toInt_add_ofNat c a.val (by have := a.isLt; omega)

/-! ## The dense layers -/

/-- The 4096-output layer's dimension numbers. -/
abbrev DD4096 : DotDims S4096 S4096x4096 S4096 := dot_S4096_S4096x4096_S4096_0_0_n_1_n_n
/-- The 2048-output layer's dimension numbers. -/
abbrev DD2048 : DotDims S4096 S4096x2048 S2048 := dot_S4096_S4096x2048_S2048_0_0_n_1_n_n

theorem dot4096_apply (g : FVec Ideal S4096 .f32) (W : FVec Ideal S4096x4096 .f32) (n : Fin 4096) :
    Host.dotGeneral DD4096 none g W (ix1 n) = ∑ k : Fin 4096, g (ix1 k) * W (ix2 k n) := by
  show FloatOps.dotGeneral DD4096 none .single g W (ix1 n) = _
  rw [Ideal.dotGeneral_apply, ← Equiv.sum_comp (contrEquiv1 DD4096 4096 rfl rfl).symm]
  refine Finset.sum_congr rfl fun k _ => ?_
  have hk := contrEquiv1_symm_val DD4096 4096 rfl rfl k
  congr 2
  · funext a
    obtain rfl : a = 0 := Subsingleton.elim _ _
    exact Fin.ext hk
  · funext a
    refine Fin.ext ?_
    match a with
    | ⟨0, _⟩ => exact hk
    | ⟨1, _⟩ => rfl

theorem dot2048_apply (g : FVec Ideal S4096 .f32) (W : FVec Ideal S4096x2048 .f32) (n : Fin 2048) :
    Host.dotGeneral DD2048 none g W (ix1 n) = ∑ k : Fin 4096, g (ix1 k) * W (ix2 k n) := by
  show FloatOps.dotGeneral DD2048 none .single g W (ix1 n) = _
  rw [Ideal.dotGeneral_apply, ← Equiv.sum_comp (contrEquiv1 DD2048 4096 rfl rfl).symm]
  refine Finset.sum_congr rfl fun k _ => ?_
  have hk := contrEquiv1_symm_val DD2048 4096 rfl rfl k
  congr 2
  · funext a
    obtain rfl : a = 0 := Subsingleton.elim _ _
    exact Fin.ext hk
  · funext a
    refine Fin.ext ?_
    match a with
    | ⟨0, _⟩ => exact hk
    | ⟨1, _⟩ => rfl

theorem dense4096T_eq (g : FVec Ideal S4096 .f32) (W : FVec Ideal S4096x4096 .f32) (b : FVec Ideal S4096 .f32) :
    dense4096T (F := Ideal) g W b = Spec.dense4096 g W b := by
  funext j
  obtain ⟨n, rfl⟩ : ∃ n, j = ix1 n := ⟨j 0, eq_ix1 j⟩
  rw [Spec.dense4096_apply, ← dot4096_apply, add_comm]
  rfl

theorem dense2048T_eq (g : FVec Ideal S4096 .f32) (W : FVec Ideal S4096x2048 .f32) (b : FVec Ideal S2048 .f32) :
    dense2048T (F := Ideal) g W b = Spec.dense2048 g W b := by
  funext j
  obtain ⟨n, rfl⟩ : ∃ n, j = ix1 n := ⟨j 0, eq_ix1 j⟩
  rw [Spec.dense2048_apply, ← dot2048_apply, add_comm]
  rfl

/-! ## The two states agree, layer by layer -/

/-- The reference's 18432-slot state and the specification's 16384-slot state agree on the first 16384 slots. -/
def Agree (R : FVec Ideal S18432 .f32) (s : Spec.FV 16384) : Prop :=
  ∀ a : Fin 16384, R (ix1 ⟨a.val, by omega⟩) = s (ix1 a)

theorem agree_init (x : FVec Ideal S4096 .f32) : Agree (scat zeros iota0 x) (Spec.st0 x) := by
  intro a
  rw [scat_read zeros iota0 x 0 (by omega) iota0_toInt]
  by_cases h : a.val < 4096
  · rw [dif_pos ⟨Nat.zero_le _, by omega⟩, Spec.st0_lo x a h]
    rfl
  · rw [dif_neg (show ¬ (0 ≤ a.val ∧ a.val < 0 + 4096) by omega), Spec.st0_hi x a h]
    rfl

theorem takeT_eq_gath (R : FVec Ideal S18432 .f32) (s : Spec.FV 16384) (hA : Agree R s) (ni : IVec S4096 32)
    (hn : ∀ e, 0 ≤ (ni e).toInt ∧ (ni e).toInt ≤ 16383) : takeT (F := Ideal) R ni = Spec.gath s ni := by
  funext e
  obtain ⟨a, rfl⟩ : ∃ a, e = ix1 a := ⟨e 0, eq_ix1 e⟩
  rw [takeT_apply R ni (fun e => ⟨(hn e).1, by have := (hn e).2; omega⟩) a]
  have hc := BitVec.toInt_eq_toNat_cond (ni (ix1 a))
  have hr := hn (ix1 a)
  have hlt : (ni (ix1 a)).toNat < 16384 := by
    have := (ni (ix1 a)).isLt
    split at hc <;> omega
  rw [Spec.gath_of_lt s ni (ix1 a) hlt, ← hA ⟨(ni (ix1 a)).toNat, hlt⟩]
  congr 2
  refine Fin.ext ?_
  show (ni (ix1 a)).toInt.toNat = (ni (ix1 a)).toNat
  split at hc <;> omega

theorem agree_scat (R : FVec Ideal S18432 .f32) (s : Spec.FV 16384) (hA : Agree R s) (off : IVec S4096 32) (blk : Nat)
    (hblk : 4096 * blk + 4096 ≤ 16384)
    (hoff : ∀ a : Fin 4096, (off (ix1 a)).toInt = ((4096 * blk + a.val : Nat) : Int)) (y : FVec Ideal S4096 .f32) :
    Agree (scat R off y) (Spec.put s blk y) := by
  intro a
  rw [scat_read R off y (4096 * blk) (by omega) hoff]
  by_cases h : 4096 * blk ≤ a.val ∧ a.val < 4096 * blk + 4096
  · rw [dif_pos h, Spec.put_in s blk y a h]
  · rw [dif_neg h, Spec.put_out s blk y a h]
    exact hA a

theorem agree_step (R : FVec Ideal S18432 .f32) (s : Spec.FV 16384) (hA : Agree R s) (off : IVec S4096 32) (blk : Nat)
    (hblk : 4096 * blk + 4096 ≤ 16384)
    (hoff : ∀ a : Fin 4096, (off (ix1 a)).toInt = ((4096 * blk + a.val : Nat) : Int))
    (ni : IVec S4096 32) (hn : ∀ e, 0 ≤ (ni e).toInt ∧ (ni e).toInt ≤ 16383)
    (W : FVec Ideal S4096x4096 .f32) (b : FVec Ideal S4096 .f32) :
    Agree (stepT R off ni W b) (Spec.step s blk ni W b) := by
  unfold stepT Spec.step
  rw [dense4096T_eq, takeT_eq_gath R s hA ni hn]
  exact agree_scat R s hA off blk hblk hoff _

/-- THE REFERENCE IS THE SPECIFICATION: when every entry of the four index tables lies in [0, 16383] (read signed),
    the reference's composed term at the ideal values is `Spec.G` of the same thirteen arrays. -/
theorem refTerm_eq_G (x : FVec Ideal S4096 .f32) (n0 n1 n2 n3 : IVec S4096 32) (W0 W1 W2 : FVec Ideal S4096x4096 .f32)
    (W3 : FVec Ideal S4096x2048 .f32) (b0 b1 b2 : FVec Ideal S4096 .f32) (b3 : FVec Ideal S2048 .f32)
    (h0 : ∀ e, 0 ≤ (n0 e).toInt ∧ (n0 e).toInt ≤ 16383) (h1 : ∀ e, 0 ≤ (n1 e).toInt ∧ (n1 e).toInt ≤ 16383)
    (h2 : ∀ e, 0 ≤ (n2 e).toInt ∧ (n2 e).toInt ≤ 16383) (h3 : ∀ e, 0 ≤ (n3 e).toInt ∧ (n3 e).toInt ≤ 16383) :
    refTerm (F := Ideal) x n0 n1 n2 n3 W0 W1 W2 W3 b0 b1 b2 b3 = Spec.G x n0 n1 n2 n3 W0 W1 W2 W3 b0 b1 b2 b3 := by
  have A0 := agree_init x
  have A1 := agree_step _ _ A0 (offs 4096#32) 1 (by omega) (offs_toInt 4096#32 (by decide)) n0 h0 W0 b0
  have A2 := agree_step _ _ A1 (offs 8192#32) 2 (by omega) (offs_toInt 8192#32 (by decide)) n1 h1 W1 b1
  have A3 := agree_step _ _ A2 (offs 12288#32) 3 (by omega) (offs_toInt 12288#32 (by decide)) n2 h2 W2 b2
  unfold refTerm Spec.G
  rw [dense2048T_eq, takeT_eq_gath _ _ A3 n3 h3]

end Cert.Proof.RefSpec

end
-- ==== Proof.RefPre.lean ====
/-
  The reference under the claim's precondition: the precondition's integer conjuncts put every index table inside the
  state, so the reference's result is the specification's.
-/
import proofs.«208418_g89945205112833_cont_sun_c4_809_35_alg».proof.Defs
import proofs.«208418_g89945205112833_cont_sun_c4_809_35_alg».proof.Proof.Gen.Pre_input_domain
import proofs.«208418_g89945205112833_cont_sun_c4_809_35_alg».proof.Proof.PreRanges
import proofs.«208418_g89945205112833_cont_sun_c4_809_35_alg».proof.Proof.RefSpec

noncomputable section

namespace Cert.Proof.RefSpec

open Cert.ReferenceIdeal Cert.ReferenceIdeal.Gen Idealize.ShloMosaic Idealize.ShloMosaic.TcCoe Idealize.SL.Sem
open Idealize.ShloMosaic.ValueIdx Cert.Proof.RefRun

/-- THE PRECONDITION DECODED at the reference's arguments: on every device each index table's entries, read as signed
    words, lie in the range the precondition states: table `i` in [0, 4096·(i+1) − 1]. -/
theorem pre_ranges (m : (ℓ : Loc nD τ sig) → Buf (Elt Ideal) ℓ) (h : Cert.Pre_ReferenceIdeal m) (c : Dev nD) :
    (∀ e : S4096.Idx, 0 ≤ ((m ((c.tc : Thread nD τ).loc main_arg1)) e).toInt ∧ ((m ((c.tc : Thread nD τ).loc main_arg1)) e).toInt ≤ 4095)
    ∧ (∀ e : S4096.Idx, 0 ≤ ((m ((c.tc : Thread nD τ).loc main_arg2)) e).toInt ∧ ((m ((c.tc : Thread nD τ).loc main_arg2)) e).toInt ≤ 8191)
    ∧ (∀ e : S4096.Idx, 0 ≤ ((m ((c.tc : Thread nD τ).loc main_arg3)) e).toInt ∧ ((m ((c.tc : Thread nD τ).loc main_arg3)) e).toInt ≤ 12287)
    ∧ (∀ e : S4096.Idx, 0 ≤ ((m ((c.tc : Thread nD τ).loc main_arg4)) e).toInt ∧ ((m ((c.tc : Thread nD τ).loc main_arg4)) e).toInt ≤ 16383) :=
  Cert.Proof.PreRanges.ranges_int _ _ _ _ _ _ _ _ _ _ _ _ _ (h c)

/-- THE REFERENCE UNDER THE PRECONDITION: every weakly fair execution terminates with the result at the
    specification `Spec.G` of the thirteen argument arrays, and the arguments unchanged. -/
theorem run_G (m : (ℓ : Loc nD τ sig) → Buf (Elt Ideal) ℓ) (ρ : Dev nD → PrngReg) (hpre : Cert.Pre_ReferenceIdeal m) :
    θ_run defs (onTc (τ := τ) (main (F := Ideal))) ⟨m, fun _ => 0, ρ⟩ fun r => ∀ c : Dev nD,
      r.2.mem ((c.tc : Thread nD τ).loc main_v54)
          = Cert.Proof.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => by
      obtain ⟨r1, r2, r3, r4⟩ := pre_ranges m hpre c
      exact ⟨(h c).1.trans (refTerm_eq_G _ _ _ _ _ _ _ _ _ _ _ _ _
          (fun e => ⟨(r1 e).1, by have := (r1 e).2; omega⟩) (fun e => ⟨(r2 e).1, by have := (r2 e).2; omega⟩)
          (fun e => ⟨(r3 e).1, by have := (r3 e).2; omega⟩) (fun e => ⟨(r4 e).1, (r4 e).2⟩)), (h c).2⟩)
    (run (F := Ideal) m ρ)

end Cert.Proof.RefSpec

end
-- ==== Proof.ScCallV0.lean ====
/-
  The value of one vector subcore's task of a gather call, and of the call: with the state at known contents, each of
  the task's two 128-entry pieces of the result ends holding, at every entry, the state's slot named by that entry's
  index word; dealt to the sixteen tasks and gathered back, the whole result is the gather of the state through the
  index vector.
-/
import proofs.«208418_g89945205112833_cont_sun_c4_809_35_alg».proof.Proof.ScCall0
import Idealize.ShloMosaic.Lib.ValueIdx

noncomputable section

namespace Cert.Proof.KI.CallV0

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof
open Cert.Proof.KI.Call0

variable {F : FTy → Type}

local notation "𝕄" => MT nD τ sig (HIx 4) (Elt F) ℕ UU ℕ

local notation "xV" => (Memref.whole Cert.KernelIdeal.main_v3_scv : Memref Cert.KernelIdeal.sig Kind.scVector Space.hbm Cert.KernelIdeal.S16384 EltTy.f32)
local notation "iV" => (Memref.whole Cert.KernelIdeal.main_arg1_scv : Memref Cert.KernelIdeal.sig Kind.scVector Space.hbm Cert.KernelIdeal.S4096 EltTy.i32)
local notation "oV" => (Memref.whole Cert.KernelIdeal.main_v4_scv : Memref Cert.KernelIdeal.sig Kind.scVector Space.hbm Cert.KernelIdeal.S4096 EltTy.f32)
local notation "sV" => (Memref.whole Cert.KernelIdeal.cc0_scratch0 : Memref Cert.KernelIdeal.sig Kind.scVector Space.vmem Cert.KernelIdeal.S256 EltTy.i32)
local notation "rV" => (Memref.whole Cert.KernelIdeal.cc0_scratch1 : Memref Cert.KernelIdeal.sig Kind.scVector Space.vmem Cert.KernelIdeal.S256 EltTy.f32)

/-- The gather: entry `j` of the result is the state's slot named by index word `j` (clamped into the state, which
    matters only for a word outside it). -/
def gathFn (d : Dev nD) (fx : Buf (Elt F) (xLoc d)) (fi : Buf (Elt F) (iLoc d)) : Buf (Elt F) (oLoc d) :=
  fun j => fx (ValueIdx.ix1 ⟨min (fi j).toNat 16383, by omega⟩)

variable [FloatOps F]

/-- What task `i` is handed: a read token of the indices and one of the state, both at known contents, and its two
    pieces of the result at whatever they hold. -/
def taskGo (d : Dev nD) (fi : Buf (Elt F) (iLoc d)) (fx : Buf (Elt F) (xLoc d)) (i : Fin 16) : sProp 𝕄 :=
  iprop((iLoc d ↦{tok i} fi) ∗ (xLoc d ↦{tok i} fx)
    ∗ (∃ g, oLoc d ↦[oSet d (2 * i.val)]{fullShare} g) ∗ ∃ g, oLoc d ↦[oSet d (2 * i.val + 1)]{fullShare} g)

/-- What task `i` hands back: the two tokens, and its two pieces of the result holding the gather. -/
def taskTd (d : Dev nD) (fi : Buf (Elt F) (iLoc d)) (fx : Buf (Elt F) (xLoc d)) (i : Fin 16) : sProp 𝕄 :=
  iprop((iLoc d ↦{tok i} fi) ∗ (xLoc d ↦{tok i} fx)
    ∗ (∃ g, ⌜∀ j ∈ oSet d (2 * i.val), g j = gathFn d fx fi j⌝ ∗ oLoc d ↦[oSet d (2 * i.val)]{fullShare} g)
    ∗ ∃ g, ⌜∀ j ∈ oSet d (2 * i.val + 1), g j = gathFn d fx fi j⌝ ∗ oLoc d ↦[oSet d (2 * i.val + 1)]{fullShare} g)

omit [FloatOps F] in
/-- One entry of a gather stream's payload: the source at the row its index word names. -/
theorem gather_entry (hg : S16384.Gathers 0 S128) (src : S16384.Idx → Elt F .f32) (idx : S128.Idx → Elt F .i32)
    (hn : S128.numel = S128.size hg.axis')
    (h : ∀ x, (idx x).toNat < S16384.size hg.axis) (x : S128.Idx) :
    SparseCore.gatherPayload hg src (SparseCore.rows idx hn h) x
      = src (ValueIdx.ix1 ⟨(idx x).toNat, h x⟩) := by
  unfold SparseCore.gatherPayload
  congr 1
  funext b
  obtain rfl : b = hg.axis := Subsingleton.elim _ _
  rw [Shape.Gathers.idx_axis]
  refine Fin.ext ?_
  show (idx (S128.rowMajor.symm ((x hg.axis').cast hn.symm))).toNat = (idx x).toNat
  have hx : S128.rowMajor.symm ((x hg.axis').cast hn.symm) = x := by
    rw [Equiv.symm_apply_eq]
    refine Fin.ext ?_
    rw [Shape.rowMajor_val_one]
    have h0 : hg.axis' = 0 := Subsingleton.elim _ _
    show (x hg.axis').val = (x 0).val
    exact congrArg (fun a => (x a).val) h0
  rw [hx]

/-- Reading through a slice of a view is reading through the view at the slice's embedding. -/
theorem read_slice_eq {sg : RefSig} {κ : Kind} {sp : Space} {s : Shape} {e : EltTy} {Val : EltTy → Type}
    (v : View sg κ sp s e) (r : Rect s) (g : v.ty.Contents Val) (x : r.shape.Idx) :
    (v.slice r).read Val g x = v.read Val g (r.emb x) := rfl

/-- Of two pieces written one after the other, an entry of the earlier piece outside the later one reads the earlier
    piece's payload. -/
theorem read_two_second {sg : RefSig} {κ : Kind} {sp : Space} {s : Shape} {e : EltTy} {Val : EltTy → Type}
    (v : View sg κ sp s e) (f : v.ty.Contents Val) (r1 r2 : Rect s) (w1 : r1.shape.Idx → Val e)
    (w2 : r2.shape.Idx → Val e) (x : r2.shape.Idx) (hd : r2.emb x ∉ r1.set) :
    v.read Val (v.writes Val f [⟨r1, w1⟩, ⟨r2, w2⟩]) (r2.emb x) = w2 x := by
  rw [View.writes_cons, View.read_slice_write_of_not_mem r1 _ _ _ (by rwa [Rect.map_emb_univ]), View.read_writes_cons_emb]

/-- A unit-stride slice of a whole buffer places its entries at the offset. -/
theorem whole_slice_unit_emb_val {sg : RefSig} {κ : Kind} (b : Ref sg κ) (off size : Fin b.ty.shape.rank → Nat)
    (inb : ∀ a, off a + size a ≤ b.ty.shape.size a) (y : (Rect.unit off size inb).shape.Idx) (a : Fin b.ty.shape.rank) :
    ((((View.whole b).slice (Rect.unit off size inb)).emb y) a).val = off a + (y a).val := by
  simp only [View.emb_slice, View.emb_whole, Function.Embedding.trans_apply, Function.Embedding.refl_apply,
    Rect.emb_apply, Rect.off_unit, Rect.stride_unit, Nat.one_mul]

section Tile

variable (d : Dev nD) (L : grid0.Coords)

set_option maxHeartbeats 4000000 in
/-- The task on vector subcore `(L 0, L 1)`, with the state at known contents: its two pieces of the result end
    holding the gather. -/
theorem tile_bodyV (hF : (K (F := F)).Facts) (fi : Buf (Elt F) (iLoc d)) (fx : Buf (Elt F) (xLoc d))
    (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskGo d fi fx (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_gather L xV (Memref.isWhole_whole _) iV (Memref.isWhole_whole _) oV (Memref.isWhole_whole _)
            sV (Memref.isWhole_whole _) rV (Memref.isWhole_whole _) cc0_scratch2 cc0_scratch3 cc0_scoped0 cc0_scoped1 cc0_scoped2)
          fun _ => iprop(taskTd d fi fx (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskGo taskTd
  iintro ⟨#Hlv, -, ⟨Hi, Hx, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc0_scratch0 ↦{fullShare} fs : sProp 𝕄) = ((sV).view.loc (V d (cV L) (jV L)) ↦{fullShare} fs) from rfl)) $$ Hs
  ihave Hr := (Entails.of_eq (show ((V d (cV L) (jV L)).loc cc0_scratch1 ↦{fullShare} fr : sProp 𝕄) = ((rV).view.loc (V d (cV L) (jV L)) ↦{fullShare} fr) from rfl)) $$ Hr
  have hin0 : ∀ (g : Buf (Elt F) ((V d (cV L) (jV L)).loc cc0_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc0_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  have hA : ∀ x : S128.Idx, tile_bodyV.sl.dma0_1 d L fi fx fs fr hin0 hin1 x
      = fx (ValueIdx.ix1 ⟨(fi ((outAK L).view.emb x)).toNat, hidx _⟩) := by
    intro x
    have hx : (x 0).val < 128 := (x 0).isLt
    delta tile_bodyV.sl.dma0_1
    show View.read (Elt F) ((View.whole cc0_scratch1).slice (Rect.unit ![0] S128.size inb_S256_S128_0)) _ x = _
    rw [read_slice_eq, read_two_second]
    · delta tile_bodyV.sl.gather1
      refine (gather_entry _ _ _ _ _ x).trans ?_
      delta tile_bodyV.sl.dma0
      simp only [Memref.view_whole, View.write_whole_univ, View.read_apply, ReadAs.apply_same, cast_eq]
      congr 1
      funext a
      have ha : a.val < 1 := a.isLt
      obtain rfl : a = ⟨0, Nat.one_pos⟩ := Fin.ext (by show a.val = 0; omega)
      refine Fin.ext ?_
      rw [whole_slice_unit_emb_val]
      show 0 + (fi _).toNat = (fi _).toNat
      rw [Nat.zero_add]
      congr 2
      funext a
      have ha : a.val < 1 := a.isLt
      obtain rfl : a = ⟨0, Nat.one_pos⟩ := Fin.ext (by show a.val = 0; omega)
      refine Fin.ext ?_
      rw [whole_slice_unit_emb_val, whole_slice_unit_emb_val, whole_slice_unit_emb_val]
      have e1 := congrFun (k0_off1_eq L) 0
      have e2 := congrFun (k0_off2_eq L) 0
      simp only [Matrix.cons_val_zero] at e1 e2
      show k0_off1 L 0 + (0 + (x 0).val) = k0_off2 L 0 + (x 0).val
      omega
    · rw [Rect.mem_set_unit]
      intro hm
      have := hm 0
      simp only [Rect.emb_apply, Rect.off_unit, Rect.stride_unit, Matrix.cons_val_zero] at this
      omega
  have hB : ∀ x : S128.Idx, tile_bodyV.sl.dma0_2 d L fi fx fs fr hin0 hin1 x
      = fx (ValueIdx.ix1 ⟨(fi ((outBK L).view.emb x)).toNat, hidx _⟩) := by
    intro x
    have hx : (x 0).val < 128 := (x 0).isLt
    delta tile_bodyV.sl.dma0_2
    show View.read (Elt F) ((View.whole cc0_scratch1).slice (Rect.unit ![128] S128.size inb_S256_S128_128)) _ x = _
    rw [read_slice_eq, View.read_writes_cons_emb]
    · delta tile_bodyV.sl.gather2
      refine (gather_entry _ _ _ _ _ x).trans ?_
      delta tile_bodyV.sl.dma0
      simp only [Memref.view_whole, View.write_whole_univ, View.read_apply, ReadAs.apply_same, cast_eq]
      congr 1
      funext a
      have ha : a.val < 1 := a.isLt
      obtain rfl : a = ⟨0, Nat.one_pos⟩ := Fin.ext (by show a.val = 0; omega)
      refine Fin.ext ?_
      rw [whole_slice_unit_emb_val]
      show 0 + (fi _).toNat = (fi _).toNat
      rw [Nat.zero_add]
      congr 2
      funext a
      have ha : a.val < 1 := a.isLt
      obtain rfl : a = ⟨0, Nat.one_pos⟩ := Fin.ext (by show a.val = 0; omega)
      refine Fin.ext ?_
      rw [whole_slice_unit_emb_val, whole_slice_unit_emb_val, whole_slice_unit_emb_val]
      have e1 := congrFun (k0_off1_eq L) 0
      have e2 := congrFun (k0_off3_eq L) 0
      simp only [Matrix.cons_val_zero] at e1 e2
      show k0_off1 L 0 + (128 + (x 0).val) = k0_off3 L 0 + (x 0).val
      omega
  have pA : ∀ j ∈ oSet d (2 * (jL L).val),
      ((outAK L).view.writes (Elt F) ga [⟨Rect.whole S128, tile_bodyV.sl.dma0_1 d L fi fx fs fr hin0 hin1⟩]) j = gathFn d fx fi j := by
    intro j hj
    rw [← set_outAK d L] at hj
    obtain ⟨x, -, rfl⟩ := Finset.mem_map.mp hj
    have hr := View.read_writes_cons_emb (outAK L).view ga (Rect.whole S128) (tile_bodyV.sl.dma0_1 d L fi fx fs fr hin0 hin1) [] x
    simp only [View.read_apply, cast_eq, Rect.emb_whole_apply] at hr
    rw [hr, hA x]
    have hb : (fi ((outAK L).view.emb x)).toNat < 16384 := hidx _
    have hm : min (fi ((outAK L).view.emb x)).toNat 16383 = (fi ((outAK L).view.emb x)).toNat :=
      Nat.min_eq_left (by omega)
    simp only [gathFn, hm]
  have pB : ∀ j ∈ oSet d (2 * (jL L).val + 1),
      ((outBK L).view.writes (Elt F) gb [⟨Rect.whole S128, tile_bodyV.sl.dma0_2 d L fi fx fs fr hin0 hin1⟩]) j = gathFn d fx fi j := by
    intro j hj
    rw [← set_outBK d L] at hj
    obtain ⟨x, -, rfl⟩ := Finset.mem_map.mp hj
    have hr := View.read_writes_cons_emb (outBK L).view gb (Rect.whole S128) (tile_bodyV.sl.dma0_2 d L fi fx fs fr hin0 hin1) [] x
    simp only [View.read_apply, cast_eq, Rect.emb_whole_apply] at hr
    rw [hr, hB x]
    have hb : (fi ((outBK L).view.emb x)).toNat < 16384 := hidx _
    have hm : min (fi ((outBK L).view.emb x)).toNat 16383 = (fi ((outBK L).view.emb x)).toNat :=
      Nat.min_eq_left (by omega)
    simp only [gathFn, hm]
  isplitl [Hi Hx HoA HoB]
  · isplitl [Hi]; · iexact Hi
    isplitl [Hx]; · iexact Hx
    isplitl [HoA]
    · iexists ((outAK L).view.writes (Elt F) ga [⟨Rect.whole S128, tile_bodyV.sl.dma0_1 d L fi fx fs fr hin0 hin1⟩])
      isplitr
      · ipureintro; exact pA
      · iapply (Entails.of_eq (pts_outAK (F := F) d L _)); iexact HoA
    · iexists ((outBK L).view.writes (Elt F) gb [⟨Rect.whole S128, tile_bodyV.sl.dma0_2 d L fi fx fs fr hin0 hin1⟩])
      isplitr
      · ipureintro; exact pB
      · iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and the gather gathered back -/

/-- The call's operands, whole, as the call takes them: the indices and the state at known contents, the result at
    whatever it holds. -/
def callGo (d : Dev nD) (fi : Buf (Elt F) (iLoc d)) (fx : Buf (Elt F) (xLoc d)) : sProp 𝕄 :=
  iprop((iLoc d ↦{fullShare} fi) ∗ (xLoc d ↦{fullShare} fx) ∗ ∃ g, oLoc d ↦{fullShare} g)

/-- The call's operands as it leaves them: the result holds the gather. -/
def callDn (d : Dev nD) (fi : Buf (Elt F) (iLoc d)) (fx : Buf (Elt F) (xLoc d)) : sProp 𝕄 :=
  iprop((iLoc d ↦{fullShare} fi) ∗ (xLoc d ↦{fullShare} fx) ∗ oLoc d ↦{fullShare} gathFn d fx fi)

omit [FloatOps F] in
/-- The result's 32 pieces of 128, each holding the gather, are the tasks' pairs of pieces. -/
theorem out_piecesV (d : Dev nD) (fi : Buf (Elt F) (iLoc d)) (fx : Buf (Elt F) (xLoc d)) :
    (bigSep Finset.univ fun w : Fin 32 =>
        iprop(∃ g, ⌜∀ j ∈ oSet d w.val, g j = gathFn d fx fi j⌝ ∗ oLoc d ↦[oSet d w.val]{fullShare} g) : sProp 𝕄)
      = bigSep Finset.univ fun i : Fin 16 =>
          iprop((∃ g, ⌜∀ j ∈ oSet d (2 * i.val), g j = gathFn d fx fi j⌝ ∗ oLoc d ↦[oSet d (2 * i.val)]{fullShare} g)
            ∗ ∃ g, ⌜∀ j ∈ oSet d (2 * i.val + 1), g j = gathFn d fx fi j⌝ ∗ oLoc d ↦[oSet d (2 * i.val + 1)]{fullShare} g) := by
  refine (LibTiles.bigSep_tiles 16 2 (fun w =>
    (iprop(∃ g, ⌜∀ j ∈ oSet d w, g j = gathFn d fx fi j⌝ ∗ oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
theorem dealV [∀ e, Nonempty (Elt F e)] (d : Dev nD) (fi : Buf (Elt F) (iLoc d)) (fx : Buf (Elt F) (xLoc d)) :
    callGo d fi fx ⊢ |={Set.univ}=> iprop((bigSep Finset.univ fun i : Fin 16 => taskGo d fi fx i)
      ∗ ((bigSep Finset.univ fun i : Fin 16 => taskTd d fi fx i) -∗ callDn d fi fx)) := by
  have eGo : (bigSep Finset.univ fun i : Fin 16 => taskGo d fi fx i)
      = (iprop((bigSep Finset.univ fun i : Fin 16 => (iLoc d ↦{tok i} fi))
          ∗ (bigSep Finset.univ fun i : Fin 16 => (xLoc d ↦{tok i} fx))
          ∗ bigSep Finset.univ fun w : Fin 32 => iprop(∃ g, oLoc d ↦[oSet d w.val]{fullShare} g)) : sProp 𝕄) := by
    unfold taskGo
    rw [bigSep_sep', bigSep_sep', ← out_pieces d]
  have eTd : (bigSep Finset.univ fun i : Fin 16 => taskTd d fi fx i)
      = (iprop((bigSep Finset.univ fun i : Fin 16 => (iLoc d ↦{tok i} fi))
          ∗ (bigSep Finset.univ fun i : Fin 16 => (xLoc d ↦{tok i} fx))
          ∗ bigSep Finset.univ fun w : Fin 32 =>
              iprop(∃ g, ⌜∀ j ∈ oSet d w.val, g j = gathFn d fx fi j⌝ ∗ oLoc d ↦[oSet d w.val]{fullShare} g)) : sProp 𝕄) := by
    unfold taskTd
    rw [bigSep_sep', bigSep_sep', ← out_piecesV d fi fx]
  rw [eGo, eTd]
  unfold callGo callDn
  iintro ⟨Hi, Hx, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iapply (Transfers.pointsTo_toks_join (ℓ := xLoc d) (S := Finset.univ) (f := fx) fullShare 16); isplitl [Hxd] <;> iassumption
  · ihave Ho := (LibTiles.pts_join_val (ℓ := oLoc d) (fun j : S4096.Idx => (j 0).val) 128 32 (by decide) (fun j => (j 0).isLt) fullShare g
        (fun w f => ∀ j ∈ oSet d w.val, f j = gathFn d fx fi j)) $$ Ho
    icases Ho with ⟨%G, %hG, Ho⟩
    have hGe : G = gathFn d fx fi := by
      funext j
      have hlt : (j 0).val / 128 < 32 := by
        have h := (j 0).isLt
        have h' : (j 0).val < 4096 := h
        omega
      obtain ⟨f, hΦ, hag⟩ := hG ⟨(j 0).val / 128, hlt⟩
      have hj : j ∈ oSet d ((j 0).val / 128) := Finset.mem_filter.mpr ⟨Finset.mem_univ _, rfl⟩
      rw [hag j hj, hΦ j hj]
    rw [← hGe]
    iexact Ho

end Cert.Proof.KI.CallV0

end
-- ==== Proof.ScCallV2.lean ====
/-
  The value of one vector subcore's task of a gather call, and of the call: with the state at known contents, each of
  the task's two 128-entry pieces of the result ends holding, at every entry, the state's slot named by that entry's
  index word; dealt to the sixteen tasks and gathered back, the whole result is the gather of the state through the
  index vector.
-/
import proofs.«208418_g89945205112833_cont_sun_c4_809_35_alg».proof.Proof.ScCall2
import Idealize.ShloMosaic.Lib.ValueIdx

noncomputable section

namespace Cert.Proof.KI.CallV2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof
open Cert.Proof.KI.Call2

variable {F : FTy → Type}

local notation "𝕄" => MT nD τ sig (HIx 4) (Elt F) ℕ UU ℕ

local notation "xV" => (Memref.whole Cert.KernelIdeal.main_v8_scv : Memref Cert.KernelIdeal.sig Kind.scVector Space.hbm Cert.KernelIdeal.S16384 EltTy.f32)
local notation "iV" => (Memref.whole Cert.KernelIdeal.main_arg2_scv : Memref Cert.KernelIdeal.sig Kind.scVector Space.hbm Cert.KernelIdeal.S4096 EltTy.i32)
local notation "oV" => (Memref.whole Cert.KernelIdeal.main_v9_scv : Memref Cert.KernelIdeal.sig Kind.scVector Space.hbm Cert.KernelIdeal.S4096 EltTy.f32)
local notation "sV" => (Memref.whole Cert.KernelIdeal.cc2_scratch0 : Memref Cert.KernelIdeal.sig Kind.scVector Space.vmem Cert.KernelIdeal.S256 EltTy.i32)
local notation "rV" => (Memref.whole Cert.KernelIdeal.cc2_scratch1 : Memref Cert.KernelIdeal.sig Kind.scVector Space.vmem Cert.KernelIdeal.S256 EltTy.f32)

/-- The gather: entry `j` of the result is the state's slot named by index word `j` (clamped into the state, which
    matters only for a word outside it). -/
def gathFn (d : Dev nD) (fx : Buf (Elt F) (xLoc d)) (fi : Buf (Elt F) (iLoc d)) : Buf (Elt F) (oLoc d) :=
  fun j => fx (ValueIdx.ix1 ⟨min (fi j).toNat 16383, by omega⟩)

variable [FloatOps F]

/-- What task `i` is handed: a read token of the indices and one of the state, both at known contents, and its two
    pieces of the result at whatever they hold. -/
def taskGo (d : Dev nD) (fi : Buf (Elt F) (iLoc d)) (fx : Buf (Elt F) (xLoc d)) (i : Fin 16) : sProp 𝕄 :=
  iprop((iLoc d ↦{tok i} fi) ∗ (xLoc d ↦{tok i} fx)
    ∗ (∃ g, oLoc d ↦[oSet d (2 * i.val)]{fullShare} g) ∗ ∃ g, oLoc d ↦[oSet d (2 * i.val + 1)]{fullShare} g)

/-- What task `i` hands back: the two tokens, and its two pieces of the result holding the gather. -/
def taskTd (d : Dev nD) (fi : Buf (Elt F) (iLoc d)) (fx : Buf (Elt F) (xLoc d)) (i : Fin 16) : sProp 𝕄 :=
  iprop((iLoc d ↦{tok i} fi) ∗ (xLoc d ↦{tok i} fx)
    ∗ (∃ g, ⌜∀ j ∈ oSet d (2 * i.val), g j = gathFn d fx fi j⌝ ∗ oLoc d ↦[oSet d (2 * i.val)]{fullShare} g)
    ∗ ∃ g, ⌜∀ j ∈ oSet d (2 * i.val + 1), g j = gathFn d fx fi j⌝ ∗ oLoc d ↦[oSet d (2 * i.val + 1)]{fullShare} g)

omit [FloatOps F] in
/-- One entry of a gather stream's payload: the source at the row its index word names. -/
theorem gather_entry (hg : S16384.Gathers 0 S128) (src : S16384.Idx → Elt F .f32) (idx : S128.Idx → Elt F .i32)
    (hn : S128.numel = S128.size hg.axis')
    (h : ∀ x, (idx x).toNat < S16384.size hg.axis) (x : S128.Idx) :
    SparseCore.gatherPayload hg src (SparseCore.rows idx hn h) x
      = src (ValueIdx.ix1 ⟨(idx x).toNat, h x⟩) := by
  unfold SparseCore.gatherPayload
  congr 1
  funext b
  obtain rfl : b = hg.axis := Subsingleton.elim _ _
  rw [Shape.Gathers.idx_axis]
  refine Fin.ext ?_
  show (idx (S128.rowMajor.symm ((x hg.axis').cast hn.symm))).toNat = (idx x).toNat
  have hx : S128.rowMajor.symm ((x hg.axis').cast hn.symm) = x := by
    rw [Equiv.symm_apply_eq]
    refine Fin.ext ?_
    rw [Shape.rowMajor_val_one]
    have h0 : hg.axis' = 0 := Subsingleton.elim _ _
    show (x hg.axis').val = (x 0).val
    exact congrArg (fun a => (x a).val) h0
  rw [hx]

/-- Reading through a slice of a view is reading through the view at the slice's embedding. -/
theorem read_slice_eq {sg : RefSig} {κ : Kind} {sp : Space} {s : Shape} {e : EltTy} {Val : EltTy → Type}
    (v : View sg κ sp s e) (r : Rect s) (g : v.ty.Contents Val) (x : r.shape.Idx) :
    (v.slice r).read Val g x = v.read Val g (r.emb x) := rfl

/-- Of two pieces written one after the other, an entry of the earlier piece outside the later one reads the earlier
    piece's payload. -/
theorem read_two_second {sg : RefSig} {κ : Kind} {sp : Space} {s : Shape} {e : EltTy} {Val : EltTy → Type}
    (v : View sg κ sp s e) (f : v.ty.Contents Val) (r1 r2 : Rect s) (w1 : r1.shape.Idx → Val e)
    (w2 : r2.shape.Idx → Val e) (x : r2.shape.Idx) (hd : r2.emb x ∉ r1.set) :
    v.read Val (v.writes Val f [⟨r1, w1⟩, ⟨r2, w2⟩]) (r2.emb x) = w2 x := by
  rw [View.writes_cons, View.read_slice_write_of_not_mem r1 _ _ _ (by rwa [Rect.map_emb_univ]), View.read_writes_cons_emb]

/-- A unit-stride slice of a whole buffer places its entries at the offset. -/
theorem whole_slice_unit_emb_val {sg : RefSig} {κ : Kind} (b : Ref sg κ) (off size : Fin b.ty.shape.rank → Nat)
    (inb : ∀ a, off a + size a ≤ b.ty.shape.size a) (y : (Rect.unit off size inb).shape.Idx) (a : Fin b.ty.shape.rank) :
    ((((View.whole b).slice (Rect.unit off size inb)).emb y) a).val = off a + (y a).val := by
  simp only [View.emb_slice, View.emb_whole, Function.Embedding.trans_apply, Function.Embedding.refl_apply,
    Rect.emb_apply, Rect.off_unit, Rect.stride_unit, Nat.one_mul]

section Tile

variable (d : Dev nD) (L : grid2.Coords)

set_option maxHeartbeats 4000000 in
/-- The task on vector subcore `(L 0, L 1)`, with the state at known contents: its two pieces of the result end
    holding the gather. -/
theorem tile_bodyV (hF : (K (F := F)).Facts) (fi : Buf (Elt F) (iLoc d)) (fx : Buf (Elt F) (xLoc d))
    (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskGo d fi fx (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_sc_gather L xV (Memref.isWhole_whole _) iV (Memref.isWhole_whole _) oV (Memref.isWhole_whole _)
            sV (Memref.isWhole_whole _) rV (Memref.isWhole_whole _) cc2_scratch2 cc2_scratch3 cc2_scoped0 cc2_scoped1 cc2_scoped2)
          fun _ => iprop(taskTd d fi fx (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskGo taskTd
  iintro ⟨#Hlv, -, ⟨Hi, Hx, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc2_scratch0 ↦{fullShare} fs : sProp 𝕄) = ((sV).view.loc (V d (cV L) (jV L)) ↦{fullShare} fs) from rfl)) $$ Hs
  ihave Hr := (Entails.of_eq (show ((V d (cV L) (jV L)).loc cc2_scratch1 ↦{fullShare} fr : sProp 𝕄) = ((rV).view.loc (V d (cV L) (jV L)) ↦{fullShare} fr) from rfl)) $$ Hr
  have hin0 : ∀ (g : Buf (Elt F) ((V d (cV L) (jV L)).loc cc2_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc2_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  have hA : ∀ x : S128.Idx, tile_bodyV.sl.dma0_1 d L fi fx fs fr hin0 hin1 x
      = fx (ValueIdx.ix1 ⟨(fi ((outAK L).view.emb x)).toNat, hidx _⟩) := by
    intro x
    have hx : (x 0).val < 128 := (x 0).isLt
    delta tile_bodyV.sl.dma0_1
    show View.read (Elt F) ((View.whole cc2_scratch1).slice (Rect.unit ![0] S128.size inb_S256_S128_0)) _ x = _
    rw [read_slice_eq, read_two_second]
    · delta tile_bodyV.sl.gather1
      refine (gather_entry _ _ _ _ _ x).trans ?_
      delta tile_bodyV.sl.dma0
      simp only [Memref.view_whole, View.write_whole_univ, View.read_apply, ReadAs.apply_same, cast_eq]
      congr 1
      funext a
      have ha : a.val < 1 := a.isLt
      obtain rfl : a = ⟨0, Nat.one_pos⟩ := Fin.ext (by show a.val = 0; omega)
      refine Fin.ext ?_
      rw [whole_slice_unit_emb_val]
      show 0 + (fi _).toNat = (fi _).toNat
      rw [Nat.zero_add]
      congr 2
      funext a
      have ha : a.val < 1 := a.isLt
      obtain rfl : a = ⟨0, Nat.one_pos⟩ := Fin.ext (by show a.val = 0; omega)
      refine Fin.ext ?_
      rw [whole_slice_unit_emb_val, whole_slice_unit_emb_val, whole_slice_unit_emb_val]
      have e1 := congrFun (k2_off1_eq L) 0
      have e2 := congrFun (k2_off2_eq L) 0
      simp only [Matrix.cons_val_zero] at e1 e2
      show k2_off1 L 0 + (0 + (x 0).val) = k2_off2 L 0 + (x 0).val
      omega
    · rw [Rect.mem_set_unit]
      intro hm
      have := hm 0
      simp only [Rect.emb_apply, Rect.off_unit, Rect.stride_unit, Matrix.cons_val_zero] at this
      omega
  have hB : ∀ x : S128.Idx, tile_bodyV.sl.dma0_2 d L fi fx fs fr hin0 hin1 x
      = fx (ValueIdx.ix1 ⟨(fi ((outBK L).view.emb x)).toNat, hidx _⟩) := by
    intro x
    have hx : (x 0).val < 128 := (x 0).isLt
    delta tile_bodyV.sl.dma0_2
    show View.read (Elt F) ((View.whole cc2_scratch1).slice (Rect.unit ![128] S128.size inb_S256_S128_128)) _ x = _
    rw [read_slice_eq, View.read_writes_cons_emb]
    · delta tile_bodyV.sl.gather2
      refine (gather_entry _ _ _ _ _ x).trans ?_
      delta tile_bodyV.sl.dma0
      simp only [Memref.view_whole, View.write_whole_univ, View.read_apply, ReadAs.apply_same, cast_eq]
      congr 1
      funext a
      have ha : a.val < 1 := a.isLt
      obtain rfl : a = ⟨0, Nat.one_pos⟩ := Fin.ext (by show a.val = 0; omega)
      refine Fin.ext ?_
      rw [whole_slice_unit_emb_val]
      show 0 + (fi _).toNat = (fi _).toNat
      rw [Nat.zero_add]
      congr 2
      funext a
      have ha : a.val < 1 := a.isLt
      obtain rfl : a = ⟨0, Nat.one_pos⟩ := Fin.ext (by show a.val = 0; omega)
      refine Fin.ext ?_
      rw [whole_slice_unit_emb_val, whole_slice_unit_emb_val, whole_slice_unit_emb_val]
      have e1 := congrFun (k2_off1_eq L) 0
      have e2 := congrFun (k2_off3_eq L) 0
      simp only [Matrix.cons_val_zero] at e1 e2
      show k2_off1 L 0 + (128 + (x 0).val) = k2_off3 L 0 + (x 0).val
      omega
  have pA : ∀ j ∈ oSet d (2 * (jL L).val),
      ((outAK L).view.writes (Elt F) ga [⟨Rect.whole S128, tile_bodyV.sl.dma0_1 d L fi fx fs fr hin0 hin1⟩]) j = gathFn d fx fi j := by
    intro j hj
    rw [← set_outAK d L] at hj
    obtain ⟨x, -, rfl⟩ := Finset.mem_map.mp hj
    have hr := View.read_writes_cons_emb (outAK L).view ga (Rect.whole S128) (tile_bodyV.sl.dma0_1 d L fi fx fs fr hin0 hin1) [] x
    simp only [View.read_apply, cast_eq, Rect.emb_whole_apply] at hr
    rw [hr, hA x]
    have hb : (fi ((outAK L).view.emb x)).toNat < 16384 := hidx _
    have hm : min (fi ((outAK L).view.emb x)).toNat 16383 = (fi ((outAK L).view.emb x)).toNat :=
      Nat.min_eq_left (by omega)
    simp only [gathFn, hm]
  have pB : ∀ j ∈ oSet d (2 * (jL L).val + 1),
      ((outBK L).view.writes (Elt F) gb [⟨Rect.whole S128, tile_bodyV.sl.dma0_2 d L fi fx fs fr hin0 hin1⟩]) j = gathFn d fx fi j := by
    intro j hj
    rw [← set_outBK d L] at hj
    obtain ⟨x, -, rfl⟩ := Finset.mem_map.mp hj
    have hr := View.read_writes_cons_emb (outBK L).view gb (Rect.whole S128) (tile_bodyV.sl.dma0_2 d L fi fx fs fr hin0 hin1) [] x
    simp only [View.read_apply, cast_eq, Rect.emb_whole_apply] at hr
    rw [hr, hB x]
    have hb : (fi ((outBK L).view.emb x)).toNat < 16384 := hidx _
    have hm : min (fi ((outBK L).view.emb x)).toNat 16383 = (fi ((outBK L).view.emb x)).toNat :=
      Nat.min_eq_left (by omega)
    simp only [gathFn, hm]
  isplitl [Hi Hx HoA HoB]
  · isplitl [Hi]; · iexact Hi
    isplitl [Hx]; · iexact Hx
    isplitl [HoA]
    · iexists ((outAK L).view.writes (Elt F) ga [⟨Rect.whole S128, tile_bodyV.sl.dma0_1 d L fi fx fs fr hin0 hin1⟩])
      isplitr
      · ipureintro; exact pA
      · iapply (Entails.of_eq (pts_outAK (F := F) d L _)); iexact HoA
    · iexists ((outBK L).view.writes (Elt F) gb [⟨Rect.whole S128, tile_bodyV.sl.dma0_2 d L fi fx fs fr hin0 hin1⟩])
      isplitr
      · ipureintro; exact pB
      · iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and the gather gathered back -/

/-- The call's operands, whole, as the call takes them: the indices and the state at known contents, the result at
    whatever it holds. -/
def callGo (d : Dev nD) (fi : Buf (Elt F) (iLoc d)) (fx : Buf (Elt F) (xLoc d)) : sProp 𝕄 :=
  iprop((iLoc d ↦{fullShare} fi) ∗ (xLoc d ↦{fullShare} fx) ∗ ∃ g, oLoc d ↦{fullShare} g)

/-- The call's operands as it leaves them: the result holds the gather. -/
def callDn (d : Dev nD) (fi : Buf (Elt F) (iLoc d)) (fx : Buf (Elt F) (xLoc d)) : sProp 𝕄 :=
  iprop((iLoc d ↦{fullShare} fi) ∗ (xLoc d ↦{fullShare} fx) ∗ oLoc d ↦{fullShare} gathFn d fx fi)

omit [FloatOps F] in
/-- The result's 32 pieces of 128, each holding the gather, are the tasks' pairs of pieces. -/
theorem out_piecesV (d : Dev nD) (fi : Buf (Elt F) (iLoc d)) (fx : Buf (Elt F) (xLoc d)) :
    (bigSep Finset.univ fun w : Fin 32 =>
        iprop(∃ g, ⌜∀ j ∈ oSet d w.val, g j = gathFn d fx fi j⌝ ∗ oLoc d ↦[oSet d w.val]{fullShare} g) : sProp 𝕄)
      = bigSep Finset.univ fun i : Fin 16 =>
          iprop((∃ g, ⌜∀ j ∈ oSet d (2 * i.val), g j = gathFn d fx fi j⌝ ∗ oLoc d ↦[oSet d (2 * i.val)]{fullShare} g)
            ∗ ∃ g, ⌜∀ j ∈ oSet d (2 * i.val + 1), g j = gathFn d fx fi j⌝ ∗ oLoc d ↦[oSet d (2 * i.val + 1)]{fullShare} g) := by
  refine (LibTiles.bigSep_tiles 16 2 (fun w =>
    (iprop(∃ g, ⌜∀ j ∈ oSet d w, g j = gathFn d fx fi j⌝ ∗ oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
theorem dealV [∀ e, Nonempty (Elt F e)] (d : Dev nD) (fi : Buf (Elt F) (iLoc d)) (fx : Buf (Elt F) (xLoc d)) :
    callGo d fi fx ⊢ |={Set.univ}=> iprop((bigSep Finset.univ fun i : Fin 16 => taskGo d fi fx i)
      ∗ ((bigSep Finset.univ fun i : Fin 16 => taskTd d fi fx i) -∗ callDn d fi fx)) := by
  have eGo : (bigSep Finset.univ fun i : Fin 16 => taskGo d fi fx i)
      = (iprop((bigSep Finset.univ fun i : Fin 16 => (iLoc d ↦{tok i} fi))
          ∗ (bigSep Finset.univ fun i : Fin 16 => (xLoc d ↦{tok i} fx))
          ∗ bigSep Finset.univ fun w : Fin 32 => iprop(∃ g, oLoc d ↦[oSet d w.val]{fullShare} g)) : sProp 𝕄) := by
    unfold taskGo
    rw [bigSep_sep', bigSep_sep', ← out_pieces d]
  have eTd : (bigSep Finset.univ fun i : Fin 16 => taskTd d fi fx i)
      = (iprop((bigSep Finset.univ fun i : Fin 16 => (iLoc d ↦{tok i} fi))
          ∗ (bigSep Finset.univ fun i : Fin 16 => (xLoc d ↦{tok i} fx))
          ∗ bigSep Finset.univ fun w : Fin 32 =>
              iprop(∃ g, ⌜∀ j ∈ oSet d w.val, g j = gathFn d fx fi j⌝ ∗ oLoc d ↦[oSet d w.val]{fullShare} g)) : sProp 𝕄) := by
    unfold taskTd
    rw [bigSep_sep', bigSep_sep', ← out_piecesV d fi fx]
  rw [eGo, eTd]
  unfold callGo callDn
  iintro ⟨Hi, Hx, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iapply (Transfers.pointsTo_toks_join (ℓ := xLoc d) (S := Finset.univ) (f := fx) fullShare 16); isplitl [Hxd] <;> iassumption
  · ihave Ho := (LibTiles.pts_join_val (ℓ := oLoc d) (fun j : S4096.Idx => (j 0).val) 128 32 (by decide) (fun j => (j 0).isLt) fullShare g
        (fun w f => ∀ j ∈ oSet d w.val, f j = gathFn d fx fi j)) $$ Ho
    icases Ho with ⟨%G, %hG, Ho⟩
    have hGe : G = gathFn d fx fi := by
      funext j
      have hlt : (j 0).val / 128 < 32 := by
        have h := (j 0).isLt
        have h' : (j 0).val < 4096 := h
        omega
      obtain ⟨f, hΦ, hag⟩ := hG ⟨(j 0).val / 128, hlt⟩
      have hj : j ∈ oSet d ((j 0).val / 128) := Finset.mem_filter.mpr ⟨Finset.mem_univ _, rfl⟩
      rw [hag j hj, hΦ j hj]
    rw [← hGe]
    iexact Ho

end Cert.Proof.KI.CallV2

end
-- ==== Proof.ScCallV4.lean ====
/-
  The value of one vector subcore's task of a gather call, and of the call: with the state at known contents, each of
  the task's two 128-entry pieces of the result ends holding, at every entry, the state's slot named by that entry's
  index word; dealt to the sixteen tasks and gathered back, the whole result is the gather of the state through the
  index vector.
-/
import proofs.«208418_g89945205112833_cont_sun_c4_809_35_alg».proof.Proof.ScCall4
import Idealize.ShloMosaic.Lib.ValueIdx

noncomputable section

namespace Cert.Proof.KI.CallV4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof
open Cert.Proof.KI.Call4

variable {F : FTy → Type}

local notation "𝕄" => MT nD τ sig (HIx 4) (Elt F) ℕ UU ℕ

local notation "xV" => (Memref.whole Cert.KernelIdeal.main_v13_scv : Memref Cert.KernelIdeal.sig Kind.scVector Space.hbm Cert.KernelIdeal.S16384 EltTy.f32)
local notation "iV" => (Memref.whole Cert.KernelIdeal.main_arg3_scv : Memref Cert.KernelIdeal.sig Kind.scVector Space.hbm Cert.KernelIdeal.S4096 EltTy.i32)
local notation "oV" => (Memref.whole Cert.KernelIdeal.main_v14_scv : Memref Cert.KernelIdeal.sig Kind.scVector Space.hbm Cert.KernelIdeal.S4096 EltTy.f32)
local notation "sV" => (Memref.whole Cert.KernelIdeal.cc4_scratch0 : Memref Cert.KernelIdeal.sig Kind.scVector Space.vmem Cert.KernelIdeal.S256 EltTy.i32)
local notation "rV" => (Memref.whole Cert.KernelIdeal.cc4_scratch1 : Memref Cert.KernelIdeal.sig Kind.scVector Space.vmem Cert.KernelIdeal.S256 EltTy.f32)

/-- The gather: entry `j` of the result is the state's slot named by index word `j` (clamped into the state, which
    matters only for a word outside it). -/
def gathFn (d : Dev nD) (fx : Buf (Elt F) (xLoc d)) (fi : Buf (Elt F) (iLoc d)) : Buf (Elt F) (oLoc d) :=
  fun j => fx (ValueIdx.ix1 ⟨min (fi j).toNat 16383, by omega⟩)

variable [FloatOps F]

/-- What task `i` is handed: a read token of the indices and one of the state, both at known contents, and its two
    pieces of the result at whatever they hold. -/
def taskGo (d : Dev nD) (fi : Buf (Elt F) (iLoc d)) (fx : Buf (Elt F) (xLoc d)) (i : Fin 16) : sProp 𝕄 :=
  iprop((iLoc d ↦{tok i} fi) ∗ (xLoc d ↦{tok i} fx)
    ∗ (∃ g, oLoc d ↦[oSet d (2 * i.val)]{fullShare} g) ∗ ∃ g, oLoc d ↦[oSet d (2 * i.val + 1)]{fullShare} g)

/-- What task `i` hands back: the two tokens, and its two pieces of the result holding the gather. -/
def taskTd (d : Dev nD) (fi : Buf (Elt F) (iLoc d)) (fx : Buf (Elt F) (xLoc d)) (i : Fin 16) : sProp 𝕄 :=
  iprop((iLoc d ↦{tok i} fi) ∗ (xLoc d ↦{tok i} fx)
    ∗ (∃ g, ⌜∀ j ∈ oSet d (2 * i.val), g j = gathFn d fx fi j⌝ ∗ oLoc d ↦[oSet d (2 * i.val)]{fullShare} g)
    ∗ ∃ g, ⌜∀ j ∈ oSet d (2 * i.val + 1), g j = gathFn d fx fi j⌝ ∗ oLoc d ↦[oSet d (2 * i.val + 1)]{fullShare} g)

omit [FloatOps F] in
/-- One entry of a gather stream's payload: the source at the row its index word names. -/
theorem gather_entry (hg : S16384.Gathers 0 S128) (src : S16384.Idx → Elt F .f32) (idx : S128.Idx → Elt F .i32)
    (hn : S128.numel = S128.size hg.axis')
    (h : ∀ x, (idx x).toNat < S16384.size hg.axis) (x : S128.Idx) :
    SparseCore.gatherPayload hg src (SparseCore.rows idx hn h) x
      = src (ValueIdx.ix1 ⟨(idx x).toNat, h x⟩) := by
  unfold SparseCore.gatherPayload
  congr 1
  funext b
  obtain rfl : b = hg.axis := Subsingleton.elim _ _
  rw [Shape.Gathers.idx_axis]
  refine Fin.ext ?_
  show (idx (S128.rowMajor.symm ((x hg.axis').cast hn.symm))).toNat = (idx x).toNat
  have hx : S128.rowMajor.symm ((x hg.axis').cast hn.symm) = x := by
    rw [Equiv.symm_apply_eq]
    refine Fin.ext ?_
    rw [Shape.rowMajor_val_one]
    have h0 : hg.axis' = 0 := Subsingleton.elim _ _
    show (x hg.axis').val = (x 0).val
    exact congrArg (fun a => (x a).val) h0
  rw [hx]

/-- Reading through a slice of a view is reading through the view at the slice's embedding. -/
theorem read_slice_eq {sg : RefSig} {κ : Kind} {sp : Space} {s : Shape} {e : EltTy} {Val : EltTy → Type}
    (v : View sg κ sp s e) (r : Rect s) (g : v.ty.Contents Val) (x : r.shape.Idx) :
    (v.slice r).read Val g x = v.read Val g (r.emb x) := rfl

/-- Of two pieces written one after the other, an entry of the earlier piece outside the later one reads the earlier
    piece's payload. -/
theorem read_two_second {sg : RefSig} {κ : Kind} {sp : Space} {s : Shape} {e : EltTy} {Val : EltTy → Type}
    (v : View sg κ sp s e) (f : v.ty.Contents Val) (r1 r2 : Rect s) (w1 : r1.shape.Idx → Val e)
    (w2 : r2.shape.Idx → Val e) (x : r2.shape.Idx) (hd : r2.emb x ∉ r1.set) :
    v.read Val (v.writes Val f [⟨r1, w1⟩, ⟨r2, w2⟩]) (r2.emb x) = w2 x := by
  rw [View.writes_cons, View.read_slice_write_of_not_mem r1 _ _ _ (by rwa [Rect.map_emb_univ]), View.read_writes_cons_emb]

/-- A unit-stride slice of a whole buffer places its entries at the offset. -/
theorem whole_slice_unit_emb_val {sg : RefSig} {κ : Kind} (b : Ref sg κ) (off size : Fin b.ty.shape.rank → Nat)
    (inb : ∀ a, off a + size a ≤ b.ty.shape.size a) (y : (Rect.unit off size inb).shape.Idx) (a : Fin b.ty.shape.rank) :
    ((((View.whole b).slice (Rect.unit off size inb)).emb y) a).val = off a + (y a).val := by
  simp only [View.emb_slice, View.emb_whole, Function.Embedding.trans_apply, Function.Embedding.refl_apply,
    Rect.emb_apply, Rect.off_unit, Rect.stride_unit, Nat.one_mul]

section Tile

variable (d : Dev nD) (L : grid4.Coords)

set_option maxHeartbeats 4000000 in
/-- The task on vector subcore `(L 0, L 1)`, with the state at known contents: its two pieces of the result end
    holding the gather. -/
theorem tile_bodyV (hF : (K (F := F)).Facts) (fi : Buf (Elt F) (iLoc d)) (fx : Buf (Elt F) (xLoc d))
    (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskGo d fi fx (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc4_sc_gather L xV (Memref.isWhole_whole _) iV (Memref.isWhole_whole _) oV (Memref.isWhole_whole _)
            sV (Memref.isWhole_whole _) rV (Memref.isWhole_whole _) cc4_scratch2 cc4_scratch3 cc4_scoped0 cc4_scoped1 cc4_scoped2)
          fun _ => iprop(taskTd d fi fx (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskGo taskTd
  iintro ⟨#Hlv, -, ⟨Hi, Hx, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc4_scratch0 ↦{fullShare} fs : sProp 𝕄) = ((sV).view.loc (V d (cV L) (jV L)) ↦{fullShare} fs) from rfl)) $$ Hs
  ihave Hr := (Entails.of_eq (show ((V d (cV L) (jV L)).loc cc4_scratch1 ↦{fullShare} fr : sProp 𝕄) = ((rV).view.loc (V d (cV L) (jV L)) ↦{fullShare} fr) from rfl)) $$ Hr
  have hin0 : ∀ (g : Buf (Elt F) ((V d (cV L) (jV L)).loc cc4_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc4_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  have hA : ∀ x : S128.Idx, tile_bodyV.sl.dma0_1 d L fi fx fs fr hin0 hin1 x
      = fx (ValueIdx.ix1 ⟨(fi ((outAK L).view.emb x)).toNat, hidx _⟩) := by
    intro x
    have hx : (x 0).val < 128 := (x 0).isLt
    delta tile_bodyV.sl.dma0_1
    show View.read (Elt F) ((View.whole cc4_scratch1).slice (Rect.unit ![0] S128.size inb_S256_S128_0)) _ x = _
    rw [read_slice_eq, read_two_second]
    · delta tile_bodyV.sl.gather1
      refine (gather_entry _ _ _ _ _ x).trans ?_
      delta tile_bodyV.sl.dma0
      simp only [Memref.view_whole, View.write_whole_univ, View.read_apply, ReadAs.apply_same, cast_eq]
      congr 1
      funext a
      have ha : a.val < 1 := a.isLt
      obtain rfl : a = ⟨0, Nat.one_pos⟩ := Fin.ext (by show a.val = 0; omega)
      refine Fin.ext ?_
      rw [whole_slice_unit_emb_val]
      show 0 + (fi _).toNat = (fi _).toNat
      rw [Nat.zero_add]
      congr 2
      funext a
      have ha : a.val < 1 := a.isLt
      obtain rfl : a = ⟨0, Nat.one_pos⟩ := Fin.ext (by show a.val = 0; omega)
      refine Fin.ext ?_
      rw [whole_slice_unit_emb_val, whole_slice_unit_emb_val, whole_slice_unit_emb_val]
      have e1 := congrFun (k4_off1_eq L) 0
      have e2 := congrFun (k4_off2_eq L) 0
      simp only [Matrix.cons_val_zero] at e1 e2
      show k4_off1 L 0 + (0 + (x 0).val) = k4_off2 L 0 + (x 0).val
      omega
    · rw [Rect.mem_set_unit]
      intro hm
      have := hm 0
      simp only [Rect.emb_apply, Rect.off_unit, Rect.stride_unit, Matrix.cons_val_zero] at this
      omega
  have hB : ∀ x : S128.Idx, tile_bodyV.sl.dma0_2 d L fi fx fs fr hin0 hin1 x
      = fx (ValueIdx.ix1 ⟨(fi ((outBK L).view.emb x)).toNat, hidx _⟩) := by
    intro x
    have hx : (x 0).val < 128 := (x 0).isLt
    delta tile_bodyV.sl.dma0_2
    show View.read (Elt F) ((View.whole cc4_scratch1).slice (Rect.unit ![128] S128.size inb_S256_S128_128)) _ x = _
    rw [read_slice_eq, View.read_writes_cons_emb]
    · delta tile_bodyV.sl.gather2
      refine (gather_entry _ _ _ _ _ x).trans ?_
      delta tile_bodyV.sl.dma0
      simp only [Memref.view_whole, View.write_whole_univ, View.read_apply, ReadAs.apply_same, cast_eq]
      congr 1
      funext a
      have ha : a.val < 1 := a.isLt
      obtain rfl : a = ⟨0, Nat.one_pos⟩ := Fin.ext (by show a.val = 0; omega)
      refine Fin.ext ?_
      rw [whole_slice_unit_emb_val]
      show 0 + (fi _).toNat = (fi _).toNat
      rw [Nat.zero_add]
      congr 2
      funext a
      have ha : a.val < 1 := a.isLt
      obtain rfl : a = ⟨0, Nat.one_pos⟩ := Fin.ext (by show a.val = 0; omega)
      refine Fin.ext ?_
      rw [whole_slice_unit_emb_val, whole_slice_unit_emb_val, whole_slice_unit_emb_val]
      have e1 := congrFun (k4_off1_eq L) 0
      have e2 := congrFun (k4_off3_eq L) 0
      simp only [Matrix.cons_val_zero] at e1 e2
      show k4_off1 L 0 + (128 + (x 0).val) = k4_off3 L 0 + (x 0).val
      omega
  have pA : ∀ j ∈ oSet d (2 * (jL L).val),
      ((outAK L).view.writes (Elt F) ga [⟨Rect.whole S128, tile_bodyV.sl.dma0_1 d L fi fx fs fr hin0 hin1⟩]) j = gathFn d fx fi j := by
    intro j hj
    rw [← set_outAK d L] at hj
    obtain ⟨x, -, rfl⟩ := Finset.mem_map.mp hj
    have hr := View.read_writes_cons_emb (outAK L).view ga (Rect.whole S128) (tile_bodyV.sl.dma0_1 d L fi fx fs fr hin0 hin1) [] x
    simp only [View.read_apply, cast_eq, Rect.emb_whole_apply] at hr
    rw [hr, hA x]
    have hb : (fi ((outAK L).view.emb x)).toNat < 16384 := hidx _
    have hm : min (fi ((outAK L).view.emb x)).toNat 16383 = (fi ((outAK L).view.emb x)).toNat :=
      Nat.min_eq_left (by omega)
    simp only [gathFn, hm]
  have pB : ∀ j ∈ oSet d (2 * (jL L).val + 1),
      ((outBK L).view.writes (Elt F) gb [⟨Rect.whole S128, tile_bodyV.sl.dma0_2 d L fi fx fs fr hin0 hin1⟩]) j = gathFn d fx fi j := by
    intro j hj
    rw [← set_outBK d L] at hj
    obtain ⟨x, -, rfl⟩ := Finset.mem_map.mp hj
    have hr := View.read_writes_cons_emb (outBK L).view gb (Rect.whole S128) (tile_bodyV.sl.dma0_2 d L fi fx fs fr hin0 hin1) [] x
    simp only [View.read_apply, cast_eq, Rect.emb_whole_apply] at hr
    rw [hr, hB x]
    have hb : (fi ((outBK L).view.emb x)).toNat < 16384 := hidx _
    have hm : min (fi ((outBK L).view.emb x)).toNat 16383 = (fi ((outBK L).view.emb x)).toNat :=
      Nat.min_eq_left (by omega)
    simp only [gathFn, hm]
  isplitl [Hi Hx HoA HoB]
  · isplitl [Hi]; · iexact Hi
    isplitl [Hx]; · iexact Hx
    isplitl [HoA]
    · iexists ((outAK L).view.writes (Elt F) ga [⟨Rect.whole S128, tile_bodyV.sl.dma0_1 d L fi fx fs fr hin0 hin1⟩])
      isplitr
      · ipureintro; exact pA
      · iapply (Entails.of_eq (pts_outAK (F := F) d L _)); iexact HoA
    · iexists ((outBK L).view.writes (Elt F) gb [⟨Rect.whole S128, tile_bodyV.sl.dma0_2 d L fi fx fs fr hin0 hin1⟩])
      isplitr
      · ipureintro; exact pB
      · iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and the gather gathered back -/

/-- The call's operands, whole, as the call takes them: the indices and the state at known contents, the result at
    whatever it holds. -/
def callGo (d : Dev nD) (fi : Buf (Elt F) (iLoc d)) (fx : Buf (Elt F) (xLoc d)) : sProp 𝕄 :=
  iprop((iLoc d ↦{fullShare} fi) ∗ (xLoc d ↦{fullShare} fx) ∗ ∃ g, oLoc d ↦{fullShare} g)

/-- The call's operands as it leaves them: the result holds the gather. -/
def callDn (d : Dev nD) (fi : Buf (Elt F) (iLoc d)) (fx : Buf (Elt F) (xLoc d)) : sProp 𝕄 :=
  iprop((iLoc d ↦{fullShare} fi) ∗ (xLoc d ↦{fullShare} fx) ∗ oLoc d ↦{fullShare} gathFn d fx fi)

omit [FloatOps F] in
/-- The result's 32 pieces of 128, each holding the gather, are the tasks' pairs of pieces. -/
theorem out_piecesV (d : Dev nD) (fi : Buf (Elt F) (iLoc d)) (fx : Buf (Elt F) (xLoc d)) :
    (bigSep Finset.univ fun w : Fin 32 =>
        iprop(∃ g, ⌜∀ j ∈ oSet d w.val, g j = gathFn d fx fi j⌝ ∗ oLoc d ↦[oSet d w.val]{fullShare} g) : sProp 𝕄)
      = bigSep Finset.univ fun i : Fin 16 =>
          iprop((∃ g, ⌜∀ j ∈ oSet d (2 * i.val), g j = gathFn d fx fi j⌝ ∗ oLoc d ↦[oSet d (2 * i.val)]{fullShare} g)
            ∗ ∃ g, ⌜∀ j ∈ oSet d (2 * i.val + 1), g j = gathFn d fx fi j⌝ ∗ oLoc d ↦[oSet d (2 * i.val + 1)]{fullShare} g) := by
  refine (LibTiles.bigSep_tiles 16 2 (fun w =>
    (iprop(∃ g, ⌜∀ j ∈ oSet d w, g j = gathFn d fx fi j⌝ ∗ oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
theorem dealV [∀ e, Nonempty (Elt F e)] (d : Dev nD) (fi : Buf (Elt F) (iLoc d)) (fx : Buf (Elt F) (xLoc d)) :
    callGo d fi fx ⊢ |={Set.univ}=> iprop((bigSep Finset.univ fun i : Fin 16 => taskGo d fi fx i)
      ∗ ((bigSep Finset.univ fun i : Fin 16 => taskTd d fi fx i) -∗ callDn d fi fx)) := by
  have eGo : (bigSep Finset.univ fun i : Fin 16 => taskGo d fi fx i)
      = (iprop((bigSep Finset.univ fun i : Fin 16 => (iLoc d ↦{tok i} fi))
          ∗ (bigSep Finset.univ fun i : Fin 16 => (xLoc d ↦{tok i} fx))
          ∗ bigSep Finset.univ fun w : Fin 32 => iprop(∃ g, oLoc d ↦[oSet d w.val]{fullShare} g)) : sProp 𝕄) := by
    unfold taskGo
    rw [bigSep_sep', bigSep_sep', ← out_pieces d]
  have eTd : (bigSep Finset.univ fun i : Fin 16 => taskTd d fi fx i)
      = (iprop((bigSep Finset.univ fun i : Fin 16 => (iLoc d ↦{tok i} fi))
          ∗ (bigSep Finset.univ fun i : Fin 16 => (xLoc d ↦{tok i} fx))
          ∗ bigSep Finset.univ fun w : Fin 32 =>
              iprop(∃ g, ⌜∀ j ∈ oSet d w.val, g j = gathFn d fx fi j⌝ ∗ oLoc d ↦[oSet d w.val]{fullShare} g)) : sProp 𝕄) := by
    unfold taskTd
    rw [bigSep_sep', bigSep_sep', ← out_piecesV d fi fx]
  rw [eGo, eTd]
  unfold callGo callDn
  iintro ⟨Hi, Hx, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iapply (Transfers.pointsTo_toks_join (ℓ := xLoc d) (S := Finset.univ) (f := fx) fullShare 16); isplitl [Hxd] <;> iassumption
  · ihave Ho := (LibTiles.pts_join_val (ℓ := oLoc d) (fun j : S4096.Idx => (j 0).val) 128 32 (by decide) (fun j => (j 0).isLt) fullShare g
        (fun w f => ∀ j ∈ oSet d w.val, f j = gathFn d fx fi j)) $$ Ho
    icases Ho with ⟨%G, %hG, Ho⟩
    have hGe : G = gathFn d fx fi := by
      funext j
      have hlt : (j 0).val / 128 < 32 := by
        have h := (j 0).isLt
        have h' : (j 0).val < 4096 := h
        omega
      obtain ⟨f, hΦ, hag⟩ := hG ⟨(j 0).val / 128, hlt⟩
      have hj : j ∈ oSet d ((j 0).val / 128) := Finset.mem_filter.mpr ⟨Finset.mem_univ _, rfl⟩
      rw [hag j hj, hΦ j hj]
    rw [← hGe]
    iexact Ho

end Cert.Proof.KI.CallV4

end
-- ==== Proof.ScCallV6.lean ====
/-
  The value of one vector subcore's task of a gather call, and of the call: with the state at known contents, each of
  the task's two 128-entry pieces of the result ends holding, at every entry, the state's slot named by that entry's
  index word; dealt to the sixteen tasks and gathered back, the whole result is the gather of the state through the
  index vector.
-/
import proofs.«208418_g89945205112833_cont_sun_c4_809_35_alg».proof.Proof.ScCall6
import Idealize.ShloMosaic.Lib.ValueIdx

noncomputable section

namespace Cert.Proof.KI.CallV6

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof
open Cert.Proof.KI.Call6

variable {F : FTy → Type}

local notation "𝕄" => MT nD τ sig (HIx 4) (Elt F) ℕ UU ℕ

local notation "xV" => (Memref.whole Cert.KernelIdeal.main_v18_scv : Memref Cert.KernelIdeal.sig Kind.scVector Space.hbm Cert.KernelIdeal.S16384 EltTy.f32)
local notation "iV" => (Memref.whole Cert.KernelIdeal.main_arg4_scv : Memref Cert.KernelIdeal.sig Kind.scVector Space.hbm Cert.KernelIdeal.S4096 EltTy.i32)
local notation "oV" => (Memref.whole Cert.KernelIdeal.main_v19_scv : Memref Cert.KernelIdeal.sig Kind.scVector Space.hbm Cert.KernelIdeal.S4096 EltTy.f32)
local notation "sV" => (Memref.whole Cert.KernelIdeal.cc6_scratch0 : Memref Cert.KernelIdeal.sig Kind.scVector Space.vmem Cert.KernelIdeal.S256 EltTy.i32)
local notation "rV" => (Memref.whole Cert.KernelIdeal.cc6_scratch1 : Memref Cert.KernelIdeal.sig Kind.scVector Space.vmem Cert.KernelIdeal.S256 EltTy.f32)

/-- The gather: entry `j` of the result is the state's slot named by index word `j` (clamped into the state, which
    matters only for a word outside it). -/
def gathFn (d : Dev nD) (fx : Buf (Elt F) (xLoc d)) (fi : Buf (Elt F) (iLoc d)) : Buf (Elt F) (oLoc d) :=
  fun j => fx (ValueIdx.ix1 ⟨min (fi j).toNat 16383, by omega⟩)

variable [FloatOps F]

/-- What task `i` is handed: a read token of the indices and one of the state, both at known contents, and its two
    pieces of the result at whatever they hold. -/
def taskGo (d : Dev nD) (fi : Buf (Elt F) (iLoc d)) (fx : Buf (Elt F) (xLoc d)) (i : Fin 16) : sProp 𝕄 :=
  iprop((iLoc d ↦{tok i} fi) ∗ (xLoc d ↦{tok i} fx)
    ∗ (∃ g, oLoc d ↦[oSet d (2 * i.val)]{fullShare} g) ∗ ∃ g, oLoc d ↦[oSet d (2 * i.val + 1)]{fullShare} g)

/-- What task `i` hands back: the two tokens, and its two pieces of the result holding the gather. -/
def taskTd (d : Dev nD) (fi : Buf (Elt F) (iLoc d)) (fx : Buf (Elt F) (xLoc d)) (i : Fin 16) : sProp 𝕄 :=
  iprop((iLoc d ↦{tok i} fi) ∗ (xLoc d ↦{tok i} fx)
    ∗ (∃ g, ⌜∀ j ∈ oSet d (2 * i.val), g j = gathFn d fx fi j⌝ ∗ oLoc d ↦[oSet d (2 * i.val)]{fullShare} g)
    ∗ ∃ g, ⌜∀ j ∈ oSet d (2 * i.val + 1), g j = gathFn d fx fi j⌝ ∗ oLoc d ↦[oSet d (2 * i.val + 1)]{fullShare} g)

omit [FloatOps F] in
/-- One entry of a gather stream's payload: the source at the row its index word names. -/
theorem gather_entry (hg : S16384.Gathers 0 S128) (src : S16384.Idx → Elt F .f32) (idx : S128.Idx → Elt F .i32)
    (hn : S128.numel = S128.size hg.axis')
    (h : ∀ x, (idx x).toNat < S16384.size hg.axis) (x : S128.Idx) :
    SparseCore.gatherPayload hg src (SparseCore.rows idx hn h) x
      = src (ValueIdx.ix1 ⟨(idx x).toNat, h x⟩) := by
  unfold SparseCore.gatherPayload
  congr 1
  funext b
  obtain rfl : b = hg.axis := Subsingleton.elim _ _
  rw [Shape.Gathers.idx_axis]
  refine Fin.ext ?_
  show (idx (S128.rowMajor.symm ((x hg.axis').cast hn.symm))).toNat = (idx x).toNat
  have hx : S128.rowMajor.symm ((x hg.axis').cast hn.symm) = x := by
    rw [Equiv.symm_apply_eq]
    refine Fin.ext ?_
    rw [Shape.rowMajor_val_one]
    have h0 : hg.axis' = 0 := Subsingleton.elim _ _
    show (x hg.axis').val = (x 0).val
    exact congrArg (fun a => (x a).val) h0
  rw [hx]

/-- Reading through a slice of a view is reading through the view at the slice's embedding. -/
theorem read_slice_eq {sg : RefSig} {κ : Kind} {sp : Space} {s : Shape} {e : EltTy} {Val : EltTy → Type}
    (v : View sg κ sp s e) (r : Rect s) (g : v.ty.Contents Val) (x : r.shape.Idx) :
    (v.slice r).read Val g x = v.read Val g (r.emb x) := rfl

/-- Of two pieces written one after the other, an entry of the earlier piece outside the later one reads the earlier
    piece's payload. -/
theorem read_two_second {sg : RefSig} {κ : Kind} {sp : Space} {s : Shape} {e : EltTy} {Val : EltTy → Type}
    (v : View sg κ sp s e) (f : v.ty.Contents Val) (r1 r2 : Rect s) (w1 : r1.shape.Idx → Val e)
    (w2 : r2.shape.Idx → Val e) (x : r2.shape.Idx) (hd : r2.emb x ∉ r1.set) :
    v.read Val (v.writes Val f [⟨r1, w1⟩, ⟨r2, w2⟩]) (r2.emb x) = w2 x := by
  rw [View.writes_cons, View.read_slice_write_of_not_mem r1 _ _ _ (by rwa [Rect.map_emb_univ]), View.read_writes_cons_emb]

/-- A unit-stride slice of a whole buffer places its entries at the offset. -/
theorem whole_slice_unit_emb_val {sg : RefSig} {κ : Kind} (b : Ref sg κ) (off size : Fin b.ty.shape.rank → Nat)
    (inb : ∀ a, off a + size a ≤ b.ty.shape.size a) (y : (Rect.unit off size inb).shape.Idx) (a : Fin b.ty.shape.rank) :
    ((((View.whole b).slice (Rect.unit off size inb)).emb y) a).val = off a + (y a).val := by
  simp only [View.emb_slice, View.emb_whole, Function.Embedding.trans_apply, Function.Embedding.refl_apply,
    Rect.emb_apply, Rect.off_unit, Rect.stride_unit, Nat.one_mul]

section Tile

variable (d : Dev nD) (L : grid6.Coords)

set_option maxHeartbeats 4000000 in
/-- The task on vector subcore `(L 0, L 1)`, with the state at known contents: its two pieces of the result end
    holding the gather. -/
theorem tile_bodyV (hF : (K (F := F)).Facts) (fi : Buf (Elt F) (iLoc d)) (fx : Buf (Elt F) (xLoc d))
    (hidx : ∀ j, (fi j).toNat < S16384.size gathers_S16384_S128.axis)
    (O : CellTallies nD τ sig (HIx 4)) (W : Waits sig (HIx 4)) (hO : ∀ g, O g none = 0) :
    iprop(levAts (K (F := F)).L (K (F := F)).lev ∗ emp
        ∗ taskGo d fi fx (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc6_sc_gather L xV (Memref.isWhole_whole _) iV (Memref.isWhole_whole _) oV (Memref.isWhole_whole _)
            sV (Memref.isWhole_whole _) rV (Memref.isWhole_whole _) cc6_scratch2 cc6_scratch3 cc6_scoped0 cc6_scoped1 cc6_scoped2)
          fun _ => iprop(taskTd d fi fx (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold taskGo taskTd
  iintro ⟨#Hlv, -, ⟨Hi, Hx, ⟨%ga, HoA⟩, ⟨%gb, HoB⟩⟩, ⟨⟨%fs, Hs⟩, ⟨%fr, Hr⟩, Hbufs⟩, ⟨Hs2, Hs3, HsA, HsB, HsC, Hsems⟩, HO⟩
  ihave Hmw := (show levAts (K (F := F)).L (K (F := F)).lev ⊢ Transfers.MayWaits (V d (cV L) (jV L)) (default : HIx 4) O from
    (K (F := F)).mayWaits_none (thr := V d (cV L) (jV L)) hO) $$ Hlv
  ihave Hi := (Entails.of_eq (show (iLoc d ↦{tok (jL L)} fi : sProp 𝕄) = ((iV).view.loc (V d (cV L) (jV L)) ↦{tok (jL L)} fi) from rfl)) $$ Hi
  ihave Hx := (Entails.of_eq (show (xLoc d ↦{tok (jL L)} fx : sProp 𝕄) = ((xV).view.loc (V d (cV L) (jV L)) ↦{tok (jL L)} fx) from rfl)) $$ Hx
  ihave HoA := (Entails.of_eq (pts_outAK (F := F) d L ga).symm) $$ HoA
  ihave HoB := (Entails.of_eq (pts_outBK (F := F) d L gb).symm) $$ HoB
  ihave Hs := (Entails.of_eq (show ((V d (cV L) (jV L)).loc cc6_scratch0 ↦{fullShare} fs : sProp 𝕄) = ((sV).view.loc (V d (cV L) (jV L)) ↦{fullShare} fs) from rfl)) $$ Hs
  ihave Hr := (Entails.of_eq (show ((V d (cV L) (jV L)).loc cc6_scratch1 ↦{fullShare} fr : sProp 𝕄) = ((rV).view.loc (V d (cV L) (jV L)) ↦{fullShare} fr) from rfl)) $$ Hr
  have hin0 : ∀ (g : Buf (Elt F) ((V d (cV L) (jV L)).loc cc6_scratch0)) (x : S128.Idx),
      (((sV).slice (Rect.unit (s := S256) ![0] S128.size inb_S256_S128_0) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  have hin1 : ∀ (g : Buf (Elt F) ((V d (cV L) (jV L)).loc cc6_scratch0)) (x : S128.Idx),
      (((sV).slice (Rect.unit (s := S256) ![128] S128.size inb_S256_S128_128) (fun _ => rfl)).view.read (Elt F)
        (View.write (Elt F) (sV).view g (ReadAs.same.apply ((idxK L).view.read (Elt F) fi)) Finset.univ) x).toNat
        < S16384.size gathers_S16384_S128.axis := by
    intro g x
    simp only [Memref.view_whole, View.write_whole_univ, View.read_apply, ReadAs.apply_same, cast_eq]
    exact hidx _
  ihave Hx2 := (pointsTo_share (ℓ := (xV).view.loc (V d (cV L) (jV L))) (I := Finset.univ) (f := fx) (PosShare.mem_left_op_right (tok (jL L)))).1 $$ Hx
  icases Hx2 with ⟨HxL, HxR⟩
  sl_exec
  sl_step
  ihave Hx := (pointsTo_share (ℓ := (xV).view.loc (V d (cV L) (jV L))) (I := Finset.univ) (f := fx) (PosShare.mem_left_op_right (tok (jL L)))).2 $$ [HxL HxR]
  · isplitl [HxL] <;> iassumption
  have hA : ∀ x : S128.Idx, tile_bodyV.sl.dma0_1 d L fi fx fs fr hin0 hin1 x
      = fx (ValueIdx.ix1 ⟨(fi ((outAK L).view.emb x)).toNat, hidx _⟩) := by
    intro x
    have hx : (x 0).val < 128 := (x 0).isLt
    delta tile_bodyV.sl.dma0_1
    show View.read (Elt F) ((View.whole cc6_scratch1).slice (Rect.unit ![0] S128.size inb_S256_S128_0)) _ x = _
    rw [read_slice_eq, read_two_second]
    · delta tile_bodyV.sl.gather1
      refine (gather_entry _ _ _ _ _ x).trans ?_
      delta tile_bodyV.sl.dma0
      simp only [Memref.view_whole, View.write_whole_univ, View.read_apply, ReadAs.apply_same, cast_eq]
      congr 1
      funext a
      have ha : a.val < 1 := a.isLt
      obtain rfl : a = ⟨0, Nat.one_pos⟩ := Fin.ext (by show a.val = 0; omega)
      refine Fin.ext ?_
      rw [whole_slice_unit_emb_val]
      show 0 + (fi _).toNat = (fi _).toNat
      rw [Nat.zero_add]
      congr 2
      funext a
      have ha : a.val < 1 := a.isLt
      obtain rfl : a = ⟨0, Nat.one_pos⟩ := Fin.ext (by show a.val = 0; omega)
      refine Fin.ext ?_
      rw [whole_slice_unit_emb_val, whole_slice_unit_emb_val, whole_slice_unit_emb_val]
      have e1 := congrFun (k6_off1_eq L) 0
      have e2 := congrFun (k6_off2_eq L) 0
      simp only [Matrix.cons_val_zero] at e1 e2
      show k6_off1 L 0 + (0 + (x 0).val) = k6_off2 L 0 + (x 0).val
      omega
    · rw [Rect.mem_set_unit]
      intro hm
      have := hm 0
      simp only [Rect.emb_apply, Rect.off_unit, Rect.stride_unit, Matrix.cons_val_zero] at this
      omega
  have hB : ∀ x : S128.Idx, tile_bodyV.sl.dma0_2 d L fi fx fs fr hin0 hin1 x
      = fx (ValueIdx.ix1 ⟨(fi ((outBK L).view.emb x)).toNat, hidx _⟩) := by
    intro x
    have hx : (x 0).val < 128 := (x 0).isLt
    delta tile_bodyV.sl.dma0_2
    show View.read (Elt F) ((View.whole cc6_scratch1).slice (Rect.unit ![128] S128.size inb_S256_S128_128)) _ x = _
    rw [read_slice_eq, View.read_writes_cons_emb]
    · delta tile_bodyV.sl.gather2
      refine (gather_entry _ _ _ _ _ x).trans ?_
      delta tile_bodyV.sl.dma0
      simp only [Memref.view_whole, View.write_whole_univ, View.read_apply, ReadAs.apply_same, cast_eq]
      congr 1
      funext a
      have ha : a.val < 1 := a.isLt
      obtain rfl : a = ⟨0, Nat.one_pos⟩ := Fin.ext (by show a.val = 0; omega)
      refine Fin.ext ?_
      rw [whole_slice_unit_emb_val]
      show 0 + (fi _).toNat = (fi _).toNat
      rw [Nat.zero_add]
      congr 2
      funext a
      have ha : a.val < 1 := a.isLt
      obtain rfl : a = ⟨0, Nat.one_pos⟩ := Fin.ext (by show a.val = 0; omega)
      refine Fin.ext ?_
      rw [whole_slice_unit_emb_val, whole_slice_unit_emb_val, whole_slice_unit_emb_val]
      have e1 := congrFun (k6_off1_eq L) 0
      have e2 := congrFun (k6_off3_eq L) 0
      simp only [Matrix.cons_val_zero] at e1 e2
      show k6_off1 L 0 + (128 + (x 0).val) = k6_off3 L 0 + (x 0).val
      omega
  have pA : ∀ j ∈ oSet d (2 * (jL L).val),
      ((outAK L).view.writes (Elt F) ga [⟨Rect.whole S128, tile_bodyV.sl.dma0_1 d L fi fx fs fr hin0 hin1⟩]) j = gathFn d fx fi j := by
    intro j hj
    rw [← set_outAK d L] at hj
    obtain ⟨x, -, rfl⟩ := Finset.mem_map.mp hj
    have hr := View.read_writes_cons_emb (outAK L).view ga (Rect.whole S128) (tile_bodyV.sl.dma0_1 d L fi fx fs fr hin0 hin1) [] x
    simp only [View.read_apply, cast_eq, Rect.emb_whole_apply] at hr
    rw [hr, hA x]
    have hb : (fi ((outAK L).view.emb x)).toNat < 16384 := hidx _
    have hm : min (fi ((outAK L).view.emb x)).toNat 16383 = (fi ((outAK L).view.emb x)).toNat :=
      Nat.min_eq_left (by omega)
    simp only [gathFn, hm]
  have pB : ∀ j ∈ oSet d (2 * (jL L).val + 1),
      ((outBK L).view.writes (Elt F) gb [⟨Rect.whole S128, tile_bodyV.sl.dma0_2 d L fi fx fs fr hin0 hin1⟩]) j = gathFn d fx fi j := by
    intro j hj
    rw [← set_outBK d L] at hj
    obtain ⟨x, -, rfl⟩ := Finset.mem_map.mp hj
    have hr := View.read_writes_cons_emb (outBK L).view gb (Rect.whole S128) (tile_bodyV.sl.dma0_2 d L fi fx fs fr hin0 hin1) [] x
    simp only [View.read_apply, cast_eq, Rect.emb_whole_apply] at hr
    rw [hr, hB x]
    have hb : (fi ((outBK L).view.emb x)).toNat < 16384 := hidx _
    have hm : min (fi ((outBK L).view.emb x)).toNat 16383 = (fi ((outBK L).view.emb x)).toNat :=
      Nat.min_eq_left (by omega)
    simp only [gathFn, hm]
  isplitl [Hi Hx HoA HoB]
  · isplitl [Hi]; · iexact Hi
    isplitl [Hx]; · iexact Hx
    isplitl [HoA]
    · iexists ((outAK L).view.writes (Elt F) ga [⟨Rect.whole S128, tile_bodyV.sl.dma0_1 d L fi fx fs fr hin0 hin1⟩])
      isplitr
      · ipureintro; exact pA
      · iapply (Entails.of_eq (pts_outAK (F := F) d L _)); iexact HoA
    · iexists ((outBK L).view.writes (Elt F) gb [⟨Rect.whole S128, tile_bodyV.sl.dma0_2 d L fi fx fs fr hin0 hin1⟩])
      isplitr
      · ipureintro; exact pB
      · iapply (Entails.of_eq (pts_outBK (F := F) d L _)); iexact HoB
  isplitl [Hs Hr Hbufs]
  · isplitl [Hs]; · iexists _; iexact Hs
    isplitl [Hr]; · iexists _; iexact Hr
    iexact Hbufs
  isplitl [Hs2 Hs3 HsA HsB HsC Hsems]
  · isplitl [Hs2]; · iexact Hs2
    isplitl [Hs3]; · iexact Hs3
    isplitl [HsA]; · iexact HsA
    isplitl [HsB]; · iexact HsB
    isplitl [HsC]; · iexact HsC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

/-! ## The call's operands dealt to the sixteen tasks, and the gather gathered back -/

/-- The call's operands, whole, as the call takes them: the indices and the state at known contents, the result at
    whatever it holds. -/
def callGo (d : Dev nD) (fi : Buf (Elt F) (iLoc d)) (fx : Buf (Elt F) (xLoc d)) : sProp 𝕄 :=
  iprop((iLoc d ↦{fullShare} fi) ∗ (xLoc d ↦{fullShare} fx) ∗ ∃ g, oLoc d ↦{fullShare} g)

/-- The call's operands as it leaves them: the result holds the gather. -/
def callDn (d : Dev nD) (fi : Buf (Elt F) (iLoc d)) (fx : Buf (Elt F) (xLoc d)) : sProp 𝕄 :=
  iprop((iLoc d ↦{fullShare} fi) ∗ (xLoc d ↦{fullShare} fx) ∗ oLoc d ↦{fullShare} gathFn d fx fi)

omit [FloatOps F] in
/-- The result's 32 pieces of 128, each holding the gather, are the tasks' pairs of pieces. -/
theorem out_piecesV (d : Dev nD) (fi : Buf (Elt F) (iLoc d)) (fx : Buf (Elt F) (xLoc d)) :
    (bigSep Finset.univ fun w : Fin 32 =>
        iprop(∃ g, ⌜∀ j ∈ oSet d w.val, g j = gathFn d fx fi j⌝ ∗ oLoc d ↦[oSet d w.val]{fullShare} g) : sProp 𝕄)
      = bigSep Finset.univ fun i : Fin 16 =>
          iprop((∃ g, ⌜∀ j ∈ oSet d (2 * i.val), g j = gathFn d fx fi j⌝ ∗ oLoc d ↦[oSet d (2 * i.val)]{fullShare} g)
            ∗ ∃ g, ⌜∀ j ∈ oSet d (2 * i.val + 1), g j = gathFn d fx fi j⌝ ∗ oLoc d ↦[oSet d (2 * i.val + 1)]{fullShare} g) := by
  refine (LibTiles.bigSep_tiles 16 2 (fun w =>
    (iprop(∃ g, ⌜∀ j ∈ oSet d w, g j = gathFn d fx fi j⌝ ∗ oLoc d ↦[oSet d w]{fullShare} g) : sProp 𝕄))).symm.trans ?_
  refine bigSep_congr fun c _ => ?_
  rw [bigSep_fin2]
  simp only [Fin.isValue, Fin.val_zero, Fin.val_one, Nat.zero_add, Nat.add_comm 1 (2 * c.val)]

omit [FloatOps F] in
theorem dealV [∀ e, Nonempty (Elt F e)] (d : Dev nD) (fi : Buf (Elt F) (iLoc d)) (fx : Buf (Elt F) (xLoc d)) :
    callGo d fi fx ⊢ |={Set.univ}=> iprop((bigSep Finset.univ fun i : Fin 16 => taskGo d fi fx i)
      ∗ ((bigSep Finset.univ fun i : Fin 16 => taskTd d fi fx i) -∗ callDn d fi fx)) := by
  have eGo : (bigSep Finset.univ fun i : Fin 16 => taskGo d fi fx i)
      = (iprop((bigSep Finset.univ fun i : Fin 16 => (iLoc d ↦{tok i} fi))
          ∗ (bigSep Finset.univ fun i : Fin 16 => (xLoc d ↦{tok i} fx))
          ∗ bigSep Finset.univ fun w : Fin 32 => iprop(∃ g, oLoc d ↦[oSet d w.val]{fullShare} g)) : sProp 𝕄) := by
    unfold taskGo
    rw [bigSep_sep', bigSep_sep', ← out_pieces d]
  have eTd : (bigSep Finset.univ fun i : Fin 16 => taskTd d fi fx i)
      = (iprop((bigSep Finset.univ fun i : Fin 16 => (iLoc d ↦{tok i} fi))
          ∗ (bigSep Finset.univ fun i : Fin 16 => (xLoc d ↦{tok i} fx))
          ∗ bigSep Finset.univ fun w : Fin 32 =>
              iprop(∃ g, ⌜∀ j ∈ oSet d w.val, g j = gathFn d fx fi j⌝ ∗ oLoc d ↦[oSet d w.val]{fullShare} g)) : sProp 𝕄) := by
    unfold taskTd
    rw [bigSep_sep', bigSep_sep', ← out_piecesV d fi fx]
  rw [eGo, eTd]
  unfold callGo callDn
  iintro ⟨Hi, Hx, ⟨%g, Ho⟩⟩
  ihave Hi := (Transfers.pointsTo_toks_split (ℓ := iLoc d) (S := Finset.univ) (f := fi) fullShare 16) $$ Hi
  icases Hi with ⟨Hid, Hit⟩
  ihave Hx := (Transfers.pointsTo_toks_split (ℓ := xLoc d) (S := Finset.univ) (f := fx) fullShare 16) $$ Hx
  icases Hx with ⟨Hxd, Hxt⟩
  ihave Ho := (LibTiles.pts_some (ℓ := oLoc d) (fun j : S4096.Idx => (j 0).val) 128 32 (by decide) (fun j => (j 0).isLt) fullShare g) $$ Ho
  imodintro
  isplitl [Hit Hxt Ho]
  · isplitl [Hit]; · iexact Hit
    isplitl [Hxt]; · iexact Hxt
    iexact Ho
  iintro ⟨Hit, Hxt, Ho⟩
  isplitl [Hid Hit]
  · iapply (Transfers.pointsTo_toks_join (ℓ := iLoc d) (S := Finset.univ) (f := fi) fullShare 16); isplitl [Hid] <;> iassumption
  isplitl [Hxd Hxt]
  · iapply (Transfers.pointsTo_toks_join (ℓ := xLoc d) (S := Finset.univ) (f := fx) fullShare 16); isplitl [Hxd] <;> iassumption
  · ihave Ho := (LibTiles.pts_join_val (ℓ := oLoc d) (fun j : S4096.Idx => (j 0).val) 128 32 (by decide) (fun j => (j 0).isLt) fullShare g
        (fun w f => ∀ j ∈ oSet d w.val, f j = gathFn d fx fi j)) $$ Ho
    icases Ho with ⟨%G, %hG, Ho⟩
    have hGe : G = gathFn d fx fi := by
      funext j
      have hlt : (j 0).val / 128 < 32 := by
        have h := (j 0).isLt
        have h' : (j 0).val < 4096 := h
        omega
      obtain ⟨f, hΦ, hag⟩ := hG ⟨(j 0).val / 128, hlt⟩
      have hj : j ∈ oSet d ((j 0).val / 128) := Finset.mem_filter.mpr ⟨Finset.mem_univ _, rfl⟩
      rw [hag j hj, hΦ j hj]
    rw [← hGe]
    iexact Ho

end Cert.Proof.KI.CallV6

end
-- ==== Proof.ScPayV.lean ====
/-
  The four gather calls together, with values: what the launch handshakes carry for each (the call's operands to the SparseCore, each
  task's share of them to its vector subcore, and the same back), each call's task as the launch theorem asks for it, and
  how a call's operands are dealt to its sixteen tasks and gathered again.
-/
import proofs.«208418_g89945205112833_cont_sun_c4_809_35_alg».proof.Proof.ScPay
import proofs.«208418_g89945205112833_cont_sun_c4_809_35_alg».proof.Proof.ScCallV0
import proofs.«208418_g89945205112833_cont_sun_c4_809_35_alg».proof.Proof.ScCallV2
import proofs.«208418_g89945205112833_cont_sun_c4_809_35_alg».proof.Proof.ScCallV4
import proofs.«208418_g89945205112833_cont_sun_c4_809_35_alg».proof.Proof.ScCallV6

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable (m : (ℓ : Loc nD τ sig) → Buf (Elt F) ℓ) (ρ : Dev nD → PrngReg)
-- what each call's source, the state, holds when the call is made
variable (S0 : (d : Dev nD) → Buf (Elt F) (Call0.xLoc d)) (S1 : (d : Dev nD) → Buf (Elt F) (Call2.xLoc d))
  (S2 : (d : Dev nD) → Buf (Elt F) (Call4.xLoc d)) (S3 : (d : Dev nD) → Buf (Elt F) (Call6.xLoc d))

variable [FloatOps F]

/-- What the handshakes carry: call `q` takes its operands whole and brings them back; each of its tasks its share. -/
def PV : (K (F := F)).Pay (nD := nD) (Val := Elt F) (Name := ℕ) (U := UU) where
  st := fun q d _ => match q with
    | 0 => CallV0.callGo d (m (Call0.iLoc d)) (S0 d) | 1 => CallV2.callGo d (m (Call2.iLoc d)) (S1 d)
    | 2 => CallV4.callGo d (m (Call4.iLoc d)) (S2 d) | 3 => CallV6.callGo d (m (Call6.iLoc d)) (S3 d)
  dn := fun q d _ => match q with
    | 0 => CallV0.callDn d (m (Call0.iLoc d)) (S0 d) | 1 => CallV2.callDn d (m (Call2.iLoc d)) (S1 d)
    | 2 => CallV4.callDn d (m (Call4.iLoc d)) (S2 d) | 3 => CallV6.callDn d (m (Call6.iLoc d)) (S3 d)
  go := fun q d _ i => match q with
    | 0 => CallV0.taskGo d (m (Call0.iLoc d)) (S0 d) (Fin.cast nSub0 i) | 1 => CallV2.taskGo d (m (Call2.iLoc d)) (S1 d) (Fin.cast nSub1 i)
    | 2 => CallV4.taskGo d (m (Call4.iLoc d)) (S2 d) (Fin.cast nSub2 i) | 3 => CallV6.taskGo d (m (Call6.iLoc d)) (S3 d) (Fin.cast nSub3 i)
  td := fun q d _ i => match q with
    | 0 => CallV0.taskTd d (m (Call0.iLoc d)) (S0 d) (Fin.cast nSub0 i) | 1 => CallV2.taskTd d (m (Call2.iLoc d)) (S1 d) (Fin.cast nSub1 i)
    | 2 => CallV4.taskTd d (m (Call4.iLoc d)) (S2 d) (Fin.cast nSub2 i) | 3 => CallV6.taskTd d (m (Call6.iLoc d)) (S3 d) (Fin.cast nSub3 i)
  x := fun _ _ => iprop(emp)

set_option maxHeartbeats 4000000 in
instance PV_storable : (PV (F := F) m S0 S1 S2 S3).IsStorable where
  st q d _ := match q with
    | 0 => (by unfold CallV0.callGo; infer_instance : BI.Storable (upEmb : UEmb _ 𝕄) (CallV0.callGo d (m (Call0.iLoc d)) (S0 d)))
    | 1 => (by unfold CallV2.callGo; infer_instance : BI.Storable (upEmb : UEmb _ 𝕄) (CallV2.callGo d (m (Call2.iLoc d)) (S1 d)))
    | 2 => (by unfold CallV4.callGo; infer_instance : BI.Storable (upEmb : UEmb _ 𝕄) (CallV4.callGo d (m (Call4.iLoc d)) (S2 d)))
    | 3 => (by unfold CallV6.callGo; infer_instance : BI.Storable (upEmb : UEmb _ 𝕄) (CallV6.callGo d (m (Call6.iLoc d)) (S3 d)))
  dn q d _ := match q with
    | 0 => (by unfold CallV0.callDn; infer_instance : BI.Storable (upEmb : UEmb _ 𝕄) (CallV0.callDn d (m (Call0.iLoc d)) (S0 d)))
    | 1 => (by unfold CallV2.callDn; infer_instance : BI.Storable (upEmb : UEmb _ 𝕄) (CallV2.callDn d (m (Call2.iLoc d)) (S1 d)))
    | 2 => (by unfold CallV4.callDn; infer_instance : BI.Storable (upEmb : UEmb _ 𝕄) (CallV4.callDn d (m (Call4.iLoc d)) (S2 d)))
    | 3 => (by unfold CallV6.callDn; infer_instance : BI.Storable (upEmb : UEmb _ 𝕄) (CallV6.callDn d (m (Call6.iLoc d)) (S3 d)))
  go q d _ i := match q with
    | 0 => (by unfold CallV0.taskGo; infer_instance : BI.Storable (upEmb : UEmb _ 𝕄) (CallV0.taskGo d (m (Call0.iLoc d)) (S0 d) (Fin.cast nSub0 i)))
    | 1 => (by unfold CallV2.taskGo; infer_instance : BI.Storable (upEmb : UEmb _ 𝕄) (CallV2.taskGo d (m (Call2.iLoc d)) (S1 d) (Fin.cast nSub1 i)))
    | 2 => (by unfold CallV4.taskGo; infer_instance : BI.Storable (upEmb : UEmb _ 𝕄) (CallV4.taskGo d (m (Call4.iLoc d)) (S2 d) (Fin.cast nSub2 i)))
    | 3 => (by unfold CallV6.taskGo; infer_instance : BI.Storable (upEmb : UEmb _ 𝕄) (CallV6.taskGo d (m (Call6.iLoc d)) (S3 d) (Fin.cast nSub3 i)))
  td q d _ i := match q with
    | 0 => (by unfold CallV0.taskTd; infer_instance : BI.Storable (upEmb : UEmb _ 𝕄) (CallV0.taskTd d (m (Call0.iLoc d)) (S0 d) (Fin.cast nSub0 i)))
    | 1 => (by unfold CallV2.taskTd; infer_instance : BI.Storable (upEmb : UEmb _ 𝕄) (CallV2.taskTd d (m (Call2.iLoc d)) (S1 d) (Fin.cast nSub1 i)))
    | 2 => (by unfold CallV4.taskTd; infer_instance : BI.Storable (upEmb : UEmb _ 𝕄) (CallV4.taskTd d (m (Call4.iLoc d)) (S2 d) (Fin.cast nSub2 i)))
    | 3 => (by unfold CallV6.taskTd; infer_instance : BI.Storable (upEmb : UEmb _ 𝕄) (CallV6.taskTd d (m (Call6.iLoc d)) (S3 d) (Fin.cast nSub3 i)))

/-! ### Call 0 -/

theorem tileOblV0 (hF : (K (F := F)).Facts) (hpre : PreOK m) : (K (F := F)).TileObl (D (F := F)) 𝒱 (PV m S0 S1 S2 S3) v₀ 0 := by
  intro d c i O W hO _ _
  simp only [show (PV m S0 S1 S2 S3).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (CallV0.tile_bodyV d (coordsV0 ⟨_, hc.1⟩ ⟨_, hc.2⟩) hF (m (Call0.iLoc d)) (S0 d) (hpre d).1 O W hO).trans (wp_mono frame _ _ fun _ => obl_post)

set_option maxHeartbeats 4000000 in
theorem vecSplitV0 [∀ e, Nonempty (Elt F e)] : (K (F := F)).VecSplit' (PV m S0 S1 S2 S3) 0 := by
  intro d c
  show CallV0.callGo d (m (Call0.iLoc d)) (S0 d) ⊢ |={Set.univ}=> iprop(
      (bigSep Finset.univ fun i : Fin ((K (F := F)).nSub 0) => CallV0.taskGo d (m (Call0.iLoc d)) (S0 d) (Fin.cast nSub0 i))
      ∗ ((bigSep Finset.univ fun i : Fin ((K (F := F)).nSub 0) => CallV0.taskTd d (m (Call0.iLoc d)) (S0 d) (Fin.cast nSub0 i))
          -∗ CallV0.callDn d (m (Call0.iLoc d)) (S0 d)))
  rw [bigSep_tasks0 (F := F) (fun i => CallV0.taskGo d (m (Call0.iLoc d)) (S0 d) i),
    bigSep_tasks0 (F := F) (fun i => CallV0.taskTd d (m (Call0.iLoc d)) (S0 d) i)]
  exact CallV0.dealV d _ _

/-! ### Call 1 -/

theorem tileOblV1 (hF : (K (F := F)).Facts) (hpre : PreOK m) : (K (F := F)).TileObl (D (F := F)) 𝒱 (PV m S0 S1 S2 S3) v₀ 1 := by
  intro d c i O W hO _ _
  simp only [show (PV m S0 S1 S2 S3).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (CallV2.tile_bodyV d (coordsV2 ⟨_, hc.1⟩ ⟨_, hc.2⟩) hF (m (Call2.iLoc d)) (S1 d) (hpre d).2.1 O W hO).trans (wp_mono frame _ _ fun _ => obl_post)

set_option maxHeartbeats 4000000 in
theorem vecSplitV1 [∀ e, Nonempty (Elt F e)] : (K (F := F)).VecSplit' (PV m S0 S1 S2 S3) 1 := by
  intro d c
  show CallV2.callGo d (m (Call2.iLoc d)) (S1 d) ⊢ |={Set.univ}=> iprop(
      (bigSep Finset.univ fun i : Fin ((K (F := F)).nSub 1) => CallV2.taskGo d (m (Call2.iLoc d)) (S1 d) (Fin.cast nSub1 i))
      ∗ ((bigSep Finset.univ fun i : Fin ((K (F := F)).nSub 1) => CallV2.taskTd d (m (Call2.iLoc d)) (S1 d) (Fin.cast nSub1 i))
          -∗ CallV2.callDn d (m (Call2.iLoc d)) (S1 d)))
  rw [bigSep_tasks1 (F := F) (fun i => CallV2.taskGo d (m (Call2.iLoc d)) (S1 d) i),
    bigSep_tasks1 (F := F) (fun i => CallV2.taskTd d (m (Call2.iLoc d)) (S1 d) i)]
  exact CallV2.dealV d _ _

/-! ### Call 2 -/

theorem tileOblV2 (hF : (K (F := F)).Facts) (hpre : PreOK m) : (K (F := F)).TileObl (D (F := F)) 𝒱 (PV m S0 S1 S2 S3) v₀ 2 := by
  intro d c i O W hO _ _
  simp only [show (PV m S0 S1 S2 S3).ox = fun _ _ => 0 from rfl, add_zero]
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  have hc : ((K (F := F)).core 2 c).val < grid4.bound 0 ∧ ((K (F := F)).sub 2 i).val < grid4.bound 1 := ⟨c.isLt, i.isLt⟩
  rw [defs₀_vector4]; simp only [SparseCore.onTile, hc, and_self, ↓reduceDIte]
  exact (CallV4.tile_bodyV d (coordsV4 ⟨_, hc.1⟩ ⟨_, hc.2⟩) hF (m (Call4.iLoc d)) (S2 d) (hpre d).2.2.1 O W hO).trans (wp_mono frame _ _ fun _ => obl_post)

set_option maxHeartbeats 4000000 in
theorem vecSplitV2 [∀ e, Nonempty (Elt F e)] : (K (F := F)).VecSplit' (PV m S0 S1 S2 S3) 2 := by
  intro d c
  show CallV4.callGo d (m (Call4.iLoc d)) (S2 d) ⊢ |={Set.univ}=> iprop(
      (bigSep Finset.univ fun i : Fin ((K (F := F)).nSub 2) => CallV4.taskGo d (m (Call4.iLoc d)) (S2 d) (Fin.cast nSub2 i))
      ∗ ((bigSep Finset.univ fun i : Fin ((K (F := F)).nSub 2) => CallV4.taskTd d (m (Call4.iLoc d)) (S2 d) (Fin.cast nSub2 i))
          -∗ CallV4.callDn d (m (Call4.iLoc d)) (S2 d)))
  rw [bigSep_tasks2 (F := F) (fun i => CallV4.taskGo d (m (Call4.iLoc d)) (S2 d) i),
    bigSep_tasks2 (F := F) (fun i => CallV4.taskTd d (m (Call4.iLoc d)) (S2 d) i)]
  exact CallV4.dealV d _ _

/-! ### Call 3 -/

theorem tileOblV3 (hF : (K (F := F)).Facts) (hpre : PreOK m) : (K (F := F)).TileObl (D (F := F)) 𝒱 (PV m S0 S1 S2 S3) v₀ 3 := by
  intro d c i O W hO _ _
  simp only [show (PV m S0 S1 S2 S3).ox = fun _ _ => 0 from rfl, add_zero]
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  have hc : ((K (F := F)).core 3 c).val < grid6.bound 0 ∧ ((K (F := F)).sub 3 i).val < grid6.bound 1 := ⟨c.isLt, i.isLt⟩
  rw [defs₀_vector6]; simp only [SparseCore.onTile, hc, and_self, ↓reduceDIte]
  exact (CallV6.tile_bodyV d (coordsV6 ⟨_, hc.1⟩ ⟨_, hc.2⟩) hF (m (Call6.iLoc d)) (S3 d) (hpre d).2.2.2 O W hO).trans (wp_mono frame _ _ fun _ => obl_post)

set_option maxHeartbeats 4000000 in
theorem vecSplitV3 [∀ e, Nonempty (Elt F e)] : (K (F := F)).VecSplit' (PV m S0 S1 S2 S3) 3 := by
  intro d c
  show CallV6.callGo d (m (Call6.iLoc d)) (S3 d) ⊢ |={Set.univ}=> iprop(
      (bigSep Finset.univ fun i : Fin ((K (F := F)).nSub 3) => CallV6.taskGo d (m (Call6.iLoc d)) (S3 d) (Fin.cast nSub3 i))
      ∗ ((bigSep Finset.univ fun i : Fin ((K (F := F)).nSub 3) => CallV6.taskTd d (m (Call6.iLoc d)) (S3 d) (Fin.cast nSub3 i))
          -∗ CallV6.callDn d (m (Call6.iLoc d)) (S3 d)))
  rw [bigSep_tasks3 (F := F) (fun i => CallV6.taskGo d (m (Call6.iLoc d)) (S3 d) i),
    bigSep_tasks3 (F := F) (fun i => CallV6.taskTd d (m (Call6.iLoc d)) (S3 d) i)]
  exact CallV6.dealV d _ _

end Cert.Proof.KI

end
-- ==== Proof.ScIfaceV.lean ====
/-
  The value-carrying form of a region's step: as the plain step, but the output array comes back at contents NAMED as a
  function of what the region was handed — the region's result.
-/
import proofs.«208418_g89945205112833_cont_sun_c4_809_35_alg».proof.Proof.ScIface

noncomputable section

namespace Cert.Proof.KI

open Cert.KernelIdeal Cert.KernelIdeal.Gen

open Idealize.ShloMosaic
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F]

/-- A region's exit with the output at named contents. -/
def regPostV (d : Dev nD) (n : ℕ) (g w b o : Ref sig .tc) (out : Buf (Elt F) ((SparseCore.T d : Thread nD τ).loc o))
    (Vc : (r : Ref sig .tc) → Buf (Elt F) ((SparseCore.T d : Thread nD τ).loc r)) : sProp 𝕄 :=
  iprop((∃ W, ⌜(K (F := F)).WBelow (SparseCore.T d) W (8 * n)⌝ ∗ owes (SparseCore.T d) ((K (F := F)).Otc d n) W)
    ∗ ((SparseCore.T d).loc g ↦{fullShare} Vc g) ∗ ((SparseCore.T d).loc w ↦{fullShare} Vc w) ∗ ((SparseCore.T d).loc b ↦{fullShare} Vc b)
    ∗ ((SparseCore.T d).loc o ↦{fullShare} out))

/-- Region `p` over the arrays `g w b o`, its output named `out d Vc`. -/
def RegionStepV (p : Fin 4) (g w b o : Ref sig .tc)
    (out : (d : Dev nD) → ((r : Ref sig .tc) → Buf (Elt F) ((SparseCore.T d : Thread nD τ).loc r)) → Buf (Elt F) ((SparseCore.T d : Thread nD τ).loc o)) : Prop :=
  ∀ (d : Dev nD) (n : ℕ) (Vc : (r : Ref sig .tc) → Buf (Elt F) ((SparseCore.T d : Thread nD τ).loc r)) (Φ : PUnit → sProp 𝕄),
    iprop((iprop(boundary (SparseCore.T d) ∗ regPostV d n g w b o (out d Vc) Vc) -∗ Φ ⟨⟩) ∗ boundary (SparseCore.T d) ∗ regPre d n g w b o Vc
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Φ

end Cert.Proof.KI

end
-- ==== Proof.ScMainV.lean ====
/-
  @main with values: the contents of the TensorCore's arrays after each stretch of host operations, each gather call and
  each region, as one chain of functions of the launch contents; each step of @main moves the held arrays from one to the
  next; the run ends with the result at the last one.
-/
import proofs.«208418_g89945205112833_cont_sun_c4_809_35_alg».proof.Proof.ScMain
import proofs.«208418_g89945205112833_cont_sun_c4_809_35_alg».proof.Proof.ScPayV
import proofs.«208418_g89945205112833_cont_sun_c4_809_35_alg».proof.Proof.ScIfaceV

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

variable [FloatOps F]

section Vals

/-! ## The arrays' contents after each step -/

def W1 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops0 (F := F)) (V₀ m d)
def W2 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := Function.update (W1 m d out0 out1 out2 out3) (dr main_v4) (CallV0.gathFn d ((W1 m d out0 out1 out2 out3) (dr main_v3)) ((W1 m d out0 out1 out2 out3) (dr main_arg1)))
def W3 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops1 (F := F)) (W2 m d out0 out1 out2 out3)
def W4 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := Function.update (W3 m d out0 out1 out2 out3) (dr main_v7) (out0 d (fun r => (W3 m d out0 out1 out2 out3) (dr r)))
def W5 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops2 (F := F)) (W4 m d out0 out1 out2 out3)
def W6 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := Function.update (W5 m d out0 out1 out2 out3) (dr main_v9) (CallV2.gathFn d ((W5 m d out0 out1 out2 out3) (dr main_v8)) ((W5 m d out0 out1 out2 out3) (dr main_arg2)))
def W7 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops3 (F := F)) (W6 m d out0 out1 out2 out3)
def W8 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := Function.update (W7 m d out0 out1 out2 out3) (dr main_v12) (out1 d (fun r => (W7 m d out0 out1 out2 out3) (dr r)))
def W9 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops4 (F := F)) (W8 m d out0 out1 out2 out3)
def W10 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := Function.update (W9 m d out0 out1 out2 out3) (dr main_v14) (CallV4.gathFn d ((W9 m d out0 out1 out2 out3) (dr main_v13)) ((W9 m d out0 out1 out2 out3) (dr main_arg3)))
def W11 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops5 (F := F)) (W10 m d out0 out1 out2 out3)
def W12 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := Function.update (W11 m d out0 out1 out2 out3) (dr main_v17) (out2 d (fun r => (W11 m d out0 out1 out2 out3) (dr r)))
def W13 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops6 (F := F)) (W12 m d out0 out1 out2 out3)
def W14 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := Function.update (W13 m d out0 out1 out2 out3) (dr main_v19) (CallV6.gathFn d ((W13 m d out0 out1 out2 out3) (dr main_v18)) ((W13 m d out0 out1 out2 out3) (dr main_arg4)))
def W15 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops7 (F := F)) (W14 m d out0 out1 out2 out3)
def W16 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := Function.update (W15 m d out0 out1 out2 out3) (dr main_v22) (out3 d (fun r => (W15 m d out0 out1 out2 out3) (dr r)))
def W17 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Valuation τ sig (Elt F) := StableHlo.after (ops8 (F := F)) (W16 m d out0 out1 out2 out3)

theorem keepsW1 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W1 m d out0 out1 out2 out3) := keeps_after m d _ ops0_W ops0_writes (by decide) (fun _ _ => rfl)
theorem keepsW2 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W2 m d out0 out1 out2 out3) := keeps_update_at m d (keepsW1 m d out0 out1 out2 out3) main_v4 _ (fun h => absurd h (by decide))
theorem keepsW3 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W3 m d out0 out1 out2 out3) := keeps_after m d _ ops1_W ops1_writes (by decide) (keepsW2 m d out0 out1 out2 out3)
theorem keepsW4 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W4 m d out0 out1 out2 out3) := keeps_update_at m d (keepsW3 m d out0 out1 out2 out3) main_v7 _ (fun h => absurd h (by decide))
theorem keepsW5 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W5 m d out0 out1 out2 out3) := keeps_after m d _ ops2_W ops2_writes (by decide) (keepsW4 m d out0 out1 out2 out3)
theorem keepsW6 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W6 m d out0 out1 out2 out3) := keeps_update_at m d (keepsW5 m d out0 out1 out2 out3) main_v9 _ (fun h => absurd h (by decide))
theorem keepsW7 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W7 m d out0 out1 out2 out3) := keeps_after m d _ ops3_W ops3_writes (by decide) (keepsW6 m d out0 out1 out2 out3)
theorem keepsW8 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W8 m d out0 out1 out2 out3) := keeps_update_at m d (keepsW7 m d out0 out1 out2 out3) main_v12 _ (fun h => absurd h (by decide))
theorem keepsW9 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W9 m d out0 out1 out2 out3) := keeps_after m d _ ops4_W ops4_writes (by decide) (keepsW8 m d out0 out1 out2 out3)
theorem keepsW10 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W10 m d out0 out1 out2 out3) := keeps_update_at m d (keepsW9 m d out0 out1 out2 out3) main_v14 _ (fun h => absurd h (by decide))
theorem keepsW11 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W11 m d out0 out1 out2 out3) := keeps_after m d _ ops5_W ops5_writes (by decide) (keepsW10 m d out0 out1 out2 out3)
theorem keepsW12 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W12 m d out0 out1 out2 out3) := keeps_update_at m d (keepsW11 m d out0 out1 out2 out3) main_v17 _ (fun h => absurd h (by decide))
theorem keepsW13 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W13 m d out0 out1 out2 out3) := keeps_after m d _ ops6_W ops6_writes (by decide) (keepsW12 m d out0 out1 out2 out3)
theorem keepsW14 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W14 m d out0 out1 out2 out3) := keeps_update_at m d (keepsW13 m d out0 out1 out2 out3) main_v19 _ (fun h => absurd h (by decide))
theorem keepsW15 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W15 m d out0 out1 out2 out3) := keeps_after m d _ ops7_W ops7_writes (by decide) (keepsW14 m d out0 out1 out2 out3)
theorem keepsW16 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W16 m d out0 out1 out2 out3) := keeps_update_at m d (keepsW15 m d out0 out1 out2 out3) main_v22 _ (fun h => absurd h (by decide))
theorem keepsW17 (m : (ℓ : Loc nD τ sig) → Buf (Elt F) ℓ) (d : Dev nD) (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12)) (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22)) : Keeps m d (W17 m d out0 out1 out2 out3) := keeps_after m d _ ops8_W ops8_writes (by decide) (keepsW16 m d out0 out1 out2 out3)

end Vals

section StepsV

variable (m : (ℓ : Loc nD τ sig) → Buf (Elt F) ℓ) (ρ : Dev nD → PrngReg) (d : Dev nD)
variable (S0 : (d : Dev nD) → Buf (Elt F) (Call0.xLoc d)) (S1 : (d : Dev nD) → Buf (Elt F) (Call2.xLoc d))
  (S2 : (d : Dev nD) → Buf (Elt F) (Call4.xLoc d)) (S3 : (d : Dev nD) → Buf (Elt F) (Call6.xLoc d))

omit [FloatOps F] in
/-- One array back into a held set at the contents the set's valuation already gives it. -/
theorem held_back {Sf : Finset (DevRef τ sig)} {b : DevRef τ sig} (hb : b ∈ Sf) (Vc : Valuation τ sig (Elt F)) (f : b.ty.Contents (Elt F)) (hf : f = Vc b) :
    iprop((((d, b) : Loc nD τ sig) ↦{fullShare} f) ∗ StableHlo.held (SparseCore.T d) (Sf.erase b) Vc) ⊢ (StableHlo.held (SparseCore.T d) Sf Vc : sProp 𝕄) := by
  subst hf; exact Entails.of_eq (held_take d hb Vc).symm

set_option backward.isDefEq.respectTransparency.types false in
/-- A stretch of host operations, the arrays' contents after it named. -/
theorem step_opsV {β : Type} (ops : List (HloOp τ sig (Elt F)))
    (hsub : ops.Forall fun op => op.bufs ⊆ StableHlo.tcRefs τ sig) (hfresh : ops.Forall fun op => op.fresh = ∅)
    (k : PUnit → Prog (TpuEff nD τ sig (Elt F) (SparseCore.Sig (ΛP (F := F)) 4) .tc) β) (Φ : β → sProp 𝕄) (Vc : Valuation τ sig (Elt F)) :
    iprop(boundary (SparseCore.T d) ∗ StableHlo.held (SparseCore.T d) (Pipeline.ucRefs τ sig) Vc
        ∗ (iprop(boundary (SparseCore.T d) ∗ StableHlo.held (SparseCore.T d) (Pipeline.ucRefs τ sig) (StableHlo.after ops Vc)) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (StableHlo.seq ops >>= k) Φ := by
  iintro ⟨Hb, Hh, Hk⟩
  iapply (StableHlo.wp_seq (defs := (K (F := F)).defs (D (F := F))) 𝒱 none Set.univ d (Pipeline.ucRefs τ sig) k ops
      (fun op h => Pipeline.sub_ucRefs op ((List.forall_iff_forall_mem.mp hsub) op h)) (List.forall_iff_forall_mem.mp hfresh) Vc) $$ [Hb Hh]
  · isplitl [Hb] <;> iassumption
  iintro H
  iapply Hk; iexact H

omit [FloatOps F] in
theorem callGo0_eq (fi : Buf (Elt F) (Call0.iLoc d)) (fx : Buf (Elt F) (Call0.xLoc d)) : CallV0.callGo d fi fx
    = (iprop((Call0.iLoc d ↦{fullShare} fi) ∗ (Call0.xLoc d ↦{fullShare} fx) ∗ ∃ g, Call0.oLoc d ↦{fullShare} g) : sProp 𝕄) := rfl
omit [FloatOps F] in
theorem callDn0_eq (fi : Buf (Elt F) (Call0.iLoc d)) (fx : Buf (Elt F) (Call0.xLoc d)) : CallV0.callDn d fi fx
    = (iprop((Call0.iLoc d ↦{fullShare} fi) ∗ (Call0.xLoc d ↦{fullShare} fx) ∗ Call0.oLoc d ↦{fullShare} CallV0.gathFn d fx fi) : sProp 𝕄) := rfl
theorem stV0_eq : (bigSep Finset.univ fun c : Fin ((K (F := F)).nCore 0) => (PV m S0 S1 S2 S3).st 0 d c) = CallV0.callGo d (m (Call0.iLoc d)) (S0 d) :=
  bigSep_univ_of_subsingleton (0 : Fin 1)
theorem dnV0_eq : (bigSep Finset.univ fun c : Fin ((K (F := F)).nCore 0) => (PV m S0 S1 S2 S3).dn 0 d c) = CallV0.callDn d (m (Call0.iLoc d)) (S0 d) :=
  bigSep_univ_of_subsingleton (0 : Fin 1)

set_option maxHeartbeats 2000000 in
/-- Gather call 0, from the indices at their launch contents and the state at the contents the handshake names: the result
    comes back holding the gathered entries. -/
theorem step_runV0 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hi : Vc (dr main_arg1) = V₀ m d (dr main_arg1)) (hs : Vc (dr main_v3) = S0 d) :
    iprop((K (F := F)).ctx EH (PV m S0 S1 S2 S3) κ ∗ (K (F := F)).tcSt EH d 0 ∗ boundary (SparseCore.T d) ∗ StableHlo.held (SparseCore.T d) (Pipeline.ucRefs τ sig) Vc
        ∗ (iprop((K (F := F)).tcSt EH d 1 ∗ boundary (SparseCore.T d)
            ∗ StableHlo.held (SparseCore.T d) (Pipeline.ucRefs τ sig) (Function.update Vc (dr main_v4) (CallV0.gathFn d (Vc (dr main_v3)) (Vc (dr main_arg1))))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 0 >>= k) Φ := by
  rw [wp_bind]
  iintro ⟨#Hctx, Hst, Hb, Hh, Hk⟩
  ihave Hx := (Entails.of_eq (held_take (F := F) d (mem_uc main_arg1 (by decide)) Vc)) $$ Hh
  icases Hx with ⟨Hi, Hh⟩
  ihave Hx := (Entails.of_eq (held_take (F := F) d (Finset.mem_erase.mpr ⟨StableHlo.devRef_ne_of_ne (x := main_v3) (y := main_arg1) (by decide), mem_uc main_v3 (by decide)⟩) Vc)) $$ Hh
  icases Hx with ⟨Hs, Hh⟩
  ihave Hx := (Entails.of_eq (held_take (F := F) d (Finset.mem_erase.mpr ⟨StableHlo.devRef_ne_of_ne (x := main_v4) (y := main_v3) (by decide), Finset.mem_erase.mpr ⟨StableHlo.devRef_ne_of_ne (x := main_v4) (y := main_arg1) (by decide), mem_uc main_v4 (by decide)⟩⟩) Vc)) $$ Hh
  icases Hx with ⟨Ho, Hh⟩
  ihave Hi := (Entails.of_eq (show ((((d, dr main_arg1) : Loc nD τ sig) ↦{fullShare} Vc (dr main_arg1)) : sProp 𝕄)
      = (Call0.iLoc d ↦{fullShare} m (Call0.iLoc d)) from by rw [hi])) $$ Hi
  ihave Hs := (Entails.of_eq (show ((((d, dr main_v3) : Loc nD τ sig) ↦{fullShare} Vc (dr main_v3)) : sProp 𝕄)
      = (Call0.xLoc d ↦{fullShare} S0 d) from by rw [hs])) $$ Hs
  iapply ((K (F := F)).wp_run (D (F := F)) 𝒱 (EH := EH) (P := (PV m S0 S1 S2 S3)) κ d 0) $$ [Hst Hi Hs Ho Hb Hh Hk]
  isplitr; · iexact Hctx
  isplitl [Hst]; · iexact Hst
  isplitl [Hi Hs Ho]
  · iapply (Entails.of_eq ((stV0_eq m d S0 S1 S2 S3).trans (callGo0_eq d _ _)).symm)
    isplitl [Hi]; · iexact Hi
    isplitl [Hs]; · iexact Hs
    iexists _; iexact Ho
  iintro ⟨Hst, Hdn⟩
  ihave Hdn := (Entails.of_eq ((dnV0_eq m d S0 S1 S2 S3).trans (callDn0_eq d _ _))) $$ Hdn
  icases Hdn with ⟨Hi, Hs, Ho⟩
  ihave Ho := (Entails.of_eq (show ((Call0.oLoc d ↦{fullShare} CallV0.gathFn d (S0 d) (m (Call0.iLoc d))) : sProp 𝕄)
      = (((d, dr main_v4) : Loc nD τ sig) ↦{fullShare} CallV0.gathFn d (Vc (dr main_v3)) (Vc (dr main_arg1))) from by rw [hs, hi])) $$ Ho
  ihave Hh := (held_put (F := F) d (Finset.mem_erase.mpr ⟨StableHlo.devRef_ne_of_ne (x := main_v4) (y := main_v3) (by decide), Finset.mem_erase.mpr ⟨StableHlo.devRef_ne_of_ne (x := main_v4) (y := main_arg1) (by decide), mem_uc main_v4 (by decide)⟩⟩) Vc (CallV0.gathFn d (Vc (dr main_v3)) (Vc (dr main_arg1)))) $$ [Ho Hh]
  · isplitl [Ho] <;> iassumption
  ihave Hh := (held_back (F := F) d (Finset.mem_erase.mpr ⟨StableHlo.devRef_ne_of_ne (x := main_v3) (y := main_arg1) (by decide), mem_uc main_v3 (by decide)⟩) (Function.update Vc (dr main_v4) (CallV0.gathFn d (Vc (dr main_v3)) (Vc (dr main_arg1)))) (S0 d)
      (by rw [Function.update_of_ne (StableHlo.devRef_ne_of_ne (x := main_v3) (y := main_v4) (by decide)), hs])) $$ [Hs Hh]
  · isplitl [Hs] <;> iassumption
  ihave Hh := (held_back (F := F) d (mem_uc main_arg1 (by decide)) (Function.update Vc (dr main_v4) (CallV0.gathFn d (Vc (dr main_v3)) (Vc (dr main_arg1)))) (V₀ m d (dr main_arg1))
      (by rw [Function.update_of_ne (StableHlo.devRef_ne_of_ne (x := main_arg1) (y := main_v4) (by decide)), hi])) $$ [Hi Hh]
  · isplitl [Hi] <;> iassumption
  iapply Hk
  isplitl [Hst]; · iexact Hst
  isplitl [Hb]; · iexact Hb
  iexact Hh

omit [FloatOps F] in
theorem callGo1_eq (fi : Buf (Elt F) (Call2.iLoc d)) (fx : Buf (Elt F) (Call2.xLoc d)) : CallV2.callGo d fi fx
    = (iprop((Call2.iLoc d ↦{fullShare} fi) ∗ (Call2.xLoc d ↦{fullShare} fx) ∗ ∃ g, Call2.oLoc d ↦{fullShare} g) : sProp 𝕄) := rfl
omit [FloatOps F] in
theorem callDn1_eq (fi : Buf (Elt F) (Call2.iLoc d)) (fx : Buf (Elt F) (Call2.xLoc d)) : CallV2.callDn d fi fx
    = (iprop((Call2.iLoc d ↦{fullShare} fi) ∗ (Call2.xLoc d ↦{fullShare} fx) ∗ Call2.oLoc d ↦{fullShare} CallV2.gathFn d fx fi) : sProp 𝕄) := rfl
theorem stV1_eq : (bigSep Finset.univ fun c : Fin ((K (F := F)).nCore 1) => (PV m S0 S1 S2 S3).st 1 d c) = CallV2.callGo d (m (Call2.iLoc d)) (S1 d) :=
  bigSep_univ_of_subsingleton (0 : Fin 1)
theorem dnV1_eq : (bigSep Finset.univ fun c : Fin ((K (F := F)).nCore 1) => (PV m S0 S1 S2 S3).dn 1 d c) = CallV2.callDn d (m (Call2.iLoc d)) (S1 d) :=
  bigSep_univ_of_subsingleton (0 : Fin 1)

set_option maxHeartbeats 2000000 in
/-- Gather call 1, from the indices at their launch contents and the state at the contents the handshake names: the result
    comes back holding the gathered entries. -/
theorem step_runV1 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hi : Vc (dr main_arg2) = V₀ m d (dr main_arg2)) (hs : Vc (dr main_v8) = S1 d) :
    iprop((K (F := F)).ctx EH (PV m S0 S1 S2 S3) κ ∗ (K (F := F)).tcSt EH d 1 ∗ boundary (SparseCore.T d) ∗ StableHlo.held (SparseCore.T d) (Pipeline.ucRefs τ sig) Vc
        ∗ (iprop((K (F := F)).tcSt EH d 2 ∗ boundary (SparseCore.T d)
            ∗ StableHlo.held (SparseCore.T d) (Pipeline.ucRefs τ sig) (Function.update Vc (dr main_v9) (CallV2.gathFn d (Vc (dr main_v8)) (Vc (dr main_arg2))))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 1 >>= k) Φ := by
  rw [wp_bind]
  iintro ⟨#Hctx, Hst, Hb, Hh, Hk⟩
  ihave Hx := (Entails.of_eq (held_take (F := F) d (mem_uc main_arg2 (by decide)) Vc)) $$ Hh
  icases Hx with ⟨Hi, Hh⟩
  ihave Hx := (Entails.of_eq (held_take (F := F) d (Finset.mem_erase.mpr ⟨StableHlo.devRef_ne_of_ne (x := main_v8) (y := main_arg2) (by decide), mem_uc main_v8 (by decide)⟩) Vc)) $$ Hh
  icases Hx with ⟨Hs, Hh⟩
  ihave Hx := (Entails.of_eq (held_take (F := F) d (Finset.mem_erase.mpr ⟨StableHlo.devRef_ne_of_ne (x := main_v9) (y := main_v8) (by decide), Finset.mem_erase.mpr ⟨StableHlo.devRef_ne_of_ne (x := main_v9) (y := main_arg2) (by decide), mem_uc main_v9 (by decide)⟩⟩) Vc)) $$ Hh
  icases Hx with ⟨Ho, Hh⟩
  ihave Hi := (Entails.of_eq (show ((((d, dr main_arg2) : Loc nD τ sig) ↦{fullShare} Vc (dr main_arg2)) : sProp 𝕄)
      = (Call2.iLoc d ↦{fullShare} m (Call2.iLoc d)) from by rw [hi])) $$ Hi
  ihave Hs := (Entails.of_eq (show ((((d, dr main_v8) : Loc nD τ sig) ↦{fullShare} Vc (dr main_v8)) : sProp 𝕄)
      = (Call2.xLoc d ↦{fullShare} S1 d) from by rw [hs])) $$ Hs
  iapply ((K (F := F)).wp_run (D (F := F)) 𝒱 (EH := EH) (P := (PV m S0 S1 S2 S3)) κ d 1) $$ [Hst Hi Hs Ho Hb Hh Hk]
  isplitr; · iexact Hctx
  isplitl [Hst]; · iexact Hst
  isplitl [Hi Hs Ho]
  · iapply (Entails.of_eq ((stV1_eq m d S0 S1 S2 S3).trans (callGo1_eq d _ _)).symm)
    isplitl [Hi]; · iexact Hi
    isplitl [Hs]; · iexact Hs
    iexists _; iexact Ho
  iintro ⟨Hst, Hdn⟩
  ihave Hdn := (Entails.of_eq ((dnV1_eq m d S0 S1 S2 S3).trans (callDn1_eq d _ _))) $$ Hdn
  icases Hdn with ⟨Hi, Hs, Ho⟩
  ihave Ho := (Entails.of_eq (show ((Call2.oLoc d ↦{fullShare} CallV2.gathFn d (S1 d) (m (Call2.iLoc d))) : sProp 𝕄)
      = (((d, dr main_v9) : Loc nD τ sig) ↦{fullShare} CallV2.gathFn d (Vc (dr main_v8)) (Vc (dr main_arg2))) from by rw [hs, hi])) $$ Ho
  ihave Hh := (held_put (F := F) d (Finset.mem_erase.mpr ⟨StableHlo.devRef_ne_of_ne (x := main_v9) (y := main_v8) (by decide), Finset.mem_erase.mpr ⟨StableHlo.devRef_ne_of_ne (x := main_v9) (y := main_arg2) (by decide), mem_uc main_v9 (by decide)⟩⟩) Vc (CallV2.gathFn d (Vc (dr main_v8)) (Vc (dr main_arg2)))) $$ [Ho Hh]
  · isplitl [Ho] <;> iassumption
  ihave Hh := (held_back (F := F) d (Finset.mem_erase.mpr ⟨StableHlo.devRef_ne_of_ne (x := main_v8) (y := main_arg2) (by decide), mem_uc main_v8 (by decide)⟩) (Function.update Vc (dr main_v9) (CallV2.gathFn d (Vc (dr main_v8)) (Vc (dr main_arg2)))) (S1 d)
      (by rw [Function.update_of_ne (StableHlo.devRef_ne_of_ne (x := main_v8) (y := main_v9) (by decide)), hs])) $$ [Hs Hh]
  · isplitl [Hs] <;> iassumption
  ihave Hh := (held_back (F := F) d (mem_uc main_arg2 (by decide)) (Function.update Vc (dr main_v9) (CallV2.gathFn d (Vc (dr main_v8)) (Vc (dr main_arg2)))) (V₀ m d (dr main_arg2))
      (by rw [Function.update_of_ne (StableHlo.devRef_ne_of_ne (x := main_arg2) (y := main_v9) (by decide)), hi])) $$ [Hi Hh]
  · isplitl [Hi] <;> iassumption
  iapply Hk
  isplitl [Hst]; · iexact Hst
  isplitl [Hb]; · iexact Hb
  iexact Hh

omit [FloatOps F] in
theorem callGo2_eq (fi : Buf (Elt F) (Call4.iLoc d)) (fx : Buf (Elt F) (Call4.xLoc d)) : CallV4.callGo d fi fx
    = (iprop((Call4.iLoc d ↦{fullShare} fi) ∗ (Call4.xLoc d ↦{fullShare} fx) ∗ ∃ g, Call4.oLoc d ↦{fullShare} g) : sProp 𝕄) := rfl
omit [FloatOps F] in
theorem callDn2_eq (fi : Buf (Elt F) (Call4.iLoc d)) (fx : Buf (Elt F) (Call4.xLoc d)) : CallV4.callDn d fi fx
    = (iprop((Call4.iLoc d ↦{fullShare} fi) ∗ (Call4.xLoc d ↦{fullShare} fx) ∗ Call4.oLoc d ↦{fullShare} CallV4.gathFn d fx fi) : sProp 𝕄) := rfl
theorem stV2_eq : (bigSep Finset.univ fun c : Fin ((K (F := F)).nCore 2) => (PV m S0 S1 S2 S3).st 2 d c) = CallV4.callGo d (m (Call4.iLoc d)) (S2 d) :=
  bigSep_univ_of_subsingleton (0 : Fin 1)
theorem dnV2_eq : (bigSep Finset.univ fun c : Fin ((K (F := F)).nCore 2) => (PV m S0 S1 S2 S3).dn 2 d c) = CallV4.callDn d (m (Call4.iLoc d)) (S2 d) :=
  bigSep_univ_of_subsingleton (0 : Fin 1)

set_option maxHeartbeats 2000000 in
/-- Gather call 2, from the indices at their launch contents and the state at the contents the handshake names: the result
    comes back holding the gathered entries. -/
theorem step_runV2 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hi : Vc (dr main_arg3) = V₀ m d (dr main_arg3)) (hs : Vc (dr main_v13) = S2 d) :
    iprop((K (F := F)).ctx EH (PV m S0 S1 S2 S3) κ ∗ (K (F := F)).tcSt EH d 2 ∗ boundary (SparseCore.T d) ∗ StableHlo.held (SparseCore.T d) (Pipeline.ucRefs τ sig) Vc
        ∗ (iprop((K (F := F)).tcSt EH d 3 ∗ boundary (SparseCore.T d)
            ∗ StableHlo.held (SparseCore.T d) (Pipeline.ucRefs τ sig) (Function.update Vc (dr main_v14) (CallV4.gathFn d (Vc (dr main_v13)) (Vc (dr main_arg3))))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 2 >>= k) Φ := by
  rw [wp_bind]
  iintro ⟨#Hctx, Hst, Hb, Hh, Hk⟩
  ihave Hx := (Entails.of_eq (held_take (F := F) d (mem_uc main_arg3 (by decide)) Vc)) $$ Hh
  icases Hx with ⟨Hi, Hh⟩
  ihave Hx := (Entails.of_eq (held_take (F := F) d (Finset.mem_erase.mpr ⟨StableHlo.devRef_ne_of_ne (x := main_v13) (y := main_arg3) (by decide), mem_uc main_v13 (by decide)⟩) Vc)) $$ Hh
  icases Hx with ⟨Hs, Hh⟩
  ihave Hx := (Entails.of_eq (held_take (F := F) d (Finset.mem_erase.mpr ⟨StableHlo.devRef_ne_of_ne (x := main_v14) (y := main_v13) (by decide), Finset.mem_erase.mpr ⟨StableHlo.devRef_ne_of_ne (x := main_v14) (y := main_arg3) (by decide), mem_uc main_v14 (by decide)⟩⟩) Vc)) $$ Hh
  icases Hx with ⟨Ho, Hh⟩
  ihave Hi := (Entails.of_eq (show ((((d, dr main_arg3) : Loc nD τ sig) ↦{fullShare} Vc (dr main_arg3)) : sProp 𝕄)
      = (Call4.iLoc d ↦{fullShare} m (Call4.iLoc d)) from by rw [hi])) $$ Hi
  ihave Hs := (Entails.of_eq (show ((((d, dr main_v13) : Loc nD τ sig) ↦{fullShare} Vc (dr main_v13)) : sProp 𝕄)
      = (Call4.xLoc d ↦{fullShare} S2 d) from by rw [hs])) $$ Hs
  iapply ((K (F := F)).wp_run (D (F := F)) 𝒱 (EH := EH) (P := (PV m S0 S1 S2 S3)) κ d 2) $$ [Hst Hi Hs Ho Hb Hh Hk]
  isplitr; · iexact Hctx
  isplitl [Hst]; · iexact Hst
  isplitl [Hi Hs Ho]
  · iapply (Entails.of_eq ((stV2_eq m d S0 S1 S2 S3).trans (callGo2_eq d _ _)).symm)
    isplitl [Hi]; · iexact Hi
    isplitl [Hs]; · iexact Hs
    iexists _; iexact Ho
  iintro ⟨Hst, Hdn⟩
  ihave Hdn := (Entails.of_eq ((dnV2_eq m d S0 S1 S2 S3).trans (callDn2_eq d _ _))) $$ Hdn
  icases Hdn with ⟨Hi, Hs, Ho⟩
  ihave Ho := (Entails.of_eq (show ((Call4.oLoc d ↦{fullShare} CallV4.gathFn d (S2 d) (m (Call4.iLoc d))) : sProp 𝕄)
      = (((d, dr main_v14) : Loc nD τ sig) ↦{fullShare} CallV4.gathFn d (Vc (dr main_v13)) (Vc (dr main_arg3))) from by rw [hs, hi])) $$ Ho
  ihave Hh := (held_put (F := F) d (Finset.mem_erase.mpr ⟨StableHlo.devRef_ne_of_ne (x := main_v14) (y := main_v13) (by decide), Finset.mem_erase.mpr ⟨StableHlo.devRef_ne_of_ne (x := main_v14) (y := main_arg3) (by decide), mem_uc main_v14 (by decide)⟩⟩) Vc (CallV4.gathFn d (Vc (dr main_v13)) (Vc (dr main_arg3)))) $$ [Ho Hh]
  · isplitl [Ho] <;> iassumption
  ihave Hh := (held_back (F := F) d (Finset.mem_erase.mpr ⟨StableHlo.devRef_ne_of_ne (x := main_v13) (y := main_arg3) (by decide), mem_uc main_v13 (by decide)⟩) (Function.update Vc (dr main_v14) (CallV4.gathFn d (Vc (dr main_v13)) (Vc (dr main_arg3)))) (S2 d)
      (by rw [Function.update_of_ne (StableHlo.devRef_ne_of_ne (x := main_v13) (y := main_v14) (by decide)), hs])) $$ [Hs Hh]
  · isplitl [Hs] <;> iassumption
  ihave Hh := (held_back (F := F) d (mem_uc main_arg3 (by decide)) (Function.update Vc (dr main_v14) (CallV4.gathFn d (Vc (dr main_v13)) (Vc (dr main_arg3)))) (V₀ m d (dr main_arg3))
      (by rw [Function.update_of_ne (StableHlo.devRef_ne_of_ne (x := main_arg3) (y := main_v14) (by decide)), hi])) $$ [Hi Hh]
  · isplitl [Hi] <;> iassumption
  iapply Hk
  isplitl [Hst]; · iexact Hst
  isplitl [Hb]; · iexact Hb
  iexact Hh

omit [FloatOps F] in
theorem callGo3_eq (fi : Buf (Elt F) (Call6.iLoc d)) (fx : Buf (Elt F) (Call6.xLoc d)) : CallV6.callGo d fi fx
    = (iprop((Call6.iLoc d ↦{fullShare} fi) ∗ (Call6.xLoc d ↦{fullShare} fx) ∗ ∃ g, Call6.oLoc d ↦{fullShare} g) : sProp 𝕄) := rfl
omit [FloatOps F] in
theorem callDn3_eq (fi : Buf (Elt F) (Call6.iLoc d)) (fx : Buf (Elt F) (Call6.xLoc d)) : CallV6.callDn d fi fx
    = (iprop((Call6.iLoc d ↦{fullShare} fi) ∗ (Call6.xLoc d ↦{fullShare} fx) ∗ Call6.oLoc d ↦{fullShare} CallV6.gathFn d fx fi) : sProp 𝕄) := rfl
theorem stV3_eq : (bigSep Finset.univ fun c : Fin ((K (F := F)).nCore 3) => (PV m S0 S1 S2 S3).st 3 d c) = CallV6.callGo d (m (Call6.iLoc d)) (S3 d) :=
  bigSep_univ_of_subsingleton (0 : Fin 1)
theorem dnV3_eq : (bigSep Finset.univ fun c : Fin ((K (F := F)).nCore 3) => (PV m S0 S1 S2 S3).dn 3 d c) = CallV6.callDn d (m (Call6.iLoc d)) (S3 d) :=
  bigSep_univ_of_subsingleton (0 : Fin 1)

set_option maxHeartbeats 2000000 in
/-- Gather call 3, from the indices at their launch contents and the state at the contents the handshake names: the result
    comes back holding the gathered entries. -/
theorem step_runV3 {β : Type} (κ : GSem nD τ sig → ℕ)
    (k : PUnit → Prog (TpuEff nD τ sig (Elt F) (SparseCore.Sig (ΛP (F := F)) 4) .tc) β) (Φ : β → sProp 𝕄)
    (Vc : Valuation τ sig (Elt F)) (hi : Vc (dr main_arg4) = V₀ m d (dr main_arg4)) (hs : Vc (dr main_v18) = S3 d) :
    iprop((K (F := F)).ctx EH (PV m S0 S1 S2 S3) κ ∗ (K (F := F)).tcSt EH d 3 ∗ boundary (SparseCore.T d) ∗ StableHlo.held (SparseCore.T d) (Pipeline.ucRefs τ sig) Vc
        ∗ (iprop((K (F := F)).tcSt EH d 4 ∗ boundary (SparseCore.T d)
            ∗ StableHlo.held (SparseCore.T d) (Pipeline.ucRefs τ sig) (Function.update Vc (dr main_v19) (CallV6.gathFn d (Vc (dr main_v18)) (Vc (dr main_arg4))))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ ((K (F := F)).run d 3 >>= k) Φ := by
  rw [wp_bind]
  iintro ⟨#Hctx, Hst, Hb, Hh, Hk⟩
  ihave Hx := (Entails.of_eq (held_take (F := F) d (mem_uc main_arg4 (by decide)) Vc)) $$ Hh
  icases Hx with ⟨Hi, Hh⟩
  ihave Hx := (Entails.of_eq (held_take (F := F) d (Finset.mem_erase.mpr ⟨StableHlo.devRef_ne_of_ne (x := main_v18) (y := main_arg4) (by decide), mem_uc main_v18 (by decide)⟩) Vc)) $$ Hh
  icases Hx with ⟨Hs, Hh⟩
  ihave Hx := (Entails.of_eq (held_take (F := F) d (Finset.mem_erase.mpr ⟨StableHlo.devRef_ne_of_ne (x := main_v19) (y := main_v18) (by decide), Finset.mem_erase.mpr ⟨StableHlo.devRef_ne_of_ne (x := main_v19) (y := main_arg4) (by decide), mem_uc main_v19 (by decide)⟩⟩) Vc)) $$ Hh
  icases Hx with ⟨Ho, Hh⟩
  ihave Hi := (Entails.of_eq (show ((((d, dr main_arg4) : Loc nD τ sig) ↦{fullShare} Vc (dr main_arg4)) : sProp 𝕄)
      = (Call6.iLoc d ↦{fullShare} m (Call6.iLoc d)) from by rw [hi])) $$ Hi
  ihave Hs := (Entails.of_eq (show ((((d, dr main_v18) : Loc nD τ sig) ↦{fullShare} Vc (dr main_v18)) : sProp 𝕄)
      = (Call6.xLoc d ↦{fullShare} S3 d) from by rw [hs])) $$ Hs
  iapply ((K (F := F)).wp_run (D (F := F)) 𝒱 (EH := EH) (P := (PV m S0 S1 S2 S3)) κ d 3) $$ [Hst Hi Hs Ho Hb Hh Hk]
  isplitr; · iexact Hctx
  isplitl [Hst]; · iexact Hst
  isplitl [Hi Hs Ho]
  · iapply (Entails.of_eq ((stV3_eq m d S0 S1 S2 S3).trans (callGo3_eq d _ _)).symm)
    isplitl [Hi]; · iexact Hi
    isplitl [Hs]; · iexact Hs
    iexists _; iexact Ho
  iintro ⟨Hst, Hdn⟩
  ihave Hdn := (Entails.of_eq ((dnV3_eq m d S0 S1 S2 S3).trans (callDn3_eq d _ _))) $$ Hdn
  icases Hdn with ⟨Hi, Hs, Ho⟩
  ihave Ho := (Entails.of_eq (show ((Call6.oLoc d ↦{fullShare} CallV6.gathFn d (S3 d) (m (Call6.iLoc d))) : sProp 𝕄)
      = (((d, dr main_v19) : Loc nD τ sig) ↦{fullShare} CallV6.gathFn d (Vc (dr main_v18)) (Vc (dr main_arg4))) from by rw [hs, hi])) $$ Ho
  ihave Hh := (held_put (F := F) d (Finset.mem_erase.mpr ⟨StableHlo.devRef_ne_of_ne (x := main_v19) (y := main_v18) (by decide), Finset.mem_erase.mpr ⟨StableHlo.devRef_ne_of_ne (x := main_v19) (y := main_arg4) (by decide), mem_uc main_v19 (by decide)⟩⟩) Vc (CallV6.gathFn d (Vc (dr main_v18)) (Vc (dr main_arg4)))) $$ [Ho Hh]
  · isplitl [Ho] <;> iassumption
  ihave Hh := (held_back (F := F) d (Finset.mem_erase.mpr ⟨StableHlo.devRef_ne_of_ne (x := main_v18) (y := main_arg4) (by decide), mem_uc main_v18 (by decide)⟩) (Function.update Vc (dr main_v19) (CallV6.gathFn d (Vc (dr main_v18)) (Vc (dr main_arg4)))) (S3 d)
      (by rw [Function.update_of_ne (StableHlo.devRef_ne_of_ne (x := main_v18) (y := main_v19) (by decide)), hs])) $$ [Hs Hh]
  · isplitl [Hs] <;> iassumption
  ihave Hh := (held_back (F := F) d (mem_uc main_arg4 (by decide)) (Function.update Vc (dr main_v19) (CallV6.gathFn d (Vc (dr main_v18)) (Vc (dr main_arg4)))) (V₀ m d (dr main_arg4))
      (by rw [Function.update_of_ne (StableHlo.devRef_ne_of_ne (x := main_arg4) (y := main_v19) (by decide)), hi])) $$ [Hi Hh]
  · isplitl [Hi] <;> iassumption
  iapply Hk
  isplitl [Hst]; · iexact Hst
  isplitl [Hb]; · iexact Hb
  iexact Hh

omit [FloatOps F] in
theorem regPostV_eq0 (n : ℕ) (out : Buf (Elt F) ((SparseCore.T d : Thread nD τ).loc main_v7)) (Vc : (r : Ref sig .tc) → Buf (Elt F) ((SparseCore.T d : Thread nD τ).loc r)) :
    regPostV d n main_v5 main_arg5 main_v6 main_v7 out Vc = (iprop((∃ W, ⌜(K (F := F)).WBelow (SparseCore.T d) W (8 * n)⌝ ∗ owes (SparseCore.T d) ((K (F := F)).Otc d n) W)
      ∗ ((SparseCore.T d).loc main_v5 ↦{fullShare} Vc main_v5) ∗ ((SparseCore.T d).loc main_arg5 ↦{fullShare} Vc main_arg5) ∗ ((SparseCore.T d).loc main_v6 ↦{fullShare} Vc main_v6)
      ∗ ((SparseCore.T d).loc main_v7 ↦{fullShare} out)) : sProp 𝕄) := rfl

set_option maxHeartbeats 2000000 in
/-- Region 0, its output named. -/
theorem step_regionV0 (out : (d : Dev nD) → ((r : Ref sig .tc) → Buf (Elt F) ((SparseCore.T d : Thread nD τ).loc r)) → Buf (Elt F) ((SparseCore.T d : Thread nD τ).loc main_v7)) (hr : RegionStepV (F := F) 0 main_v5 main_arg5 main_v6 main_v7 out) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) :
    iprop((K (F := F)).ctx EH (PV m S0 S1 S2 S3) κ ∗ (K (F := F)).tcSt EH d 1 ∗ boundary (SparseCore.T d) ∗ StableHlo.held (SparseCore.T d) (Pipeline.ucRefs τ sig) Vc
        ∗ Pipeline.cellsGhost (Pipeline.pin (pcfgs (F := F)) (adm (F := F))) (EP (F := F)) 0 d ∗ Pipeline.toksInit (Pipeline.pin (pcfgs (F := F)) (adm (F := F))) (EP (F := F)) 0 d
        ∗ (iprop((K (F := F)).tcSt EH d 1 ∗ boundary (SparseCore.T d)
            ∗ StableHlo.held (SparseCore.T d) (Pipeline.ucRefs τ sig) (Function.update Vc (dr main_v7) (out d (fun r => Vc (dr r))))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 0)) ()) >>= k) Φ := by
  rw [wp_bind]
  iintro ⟨#Hctx, Hst, Hb, Hh, Hgp, Htp, Hk⟩
  ihave Hst := (Entails.of_eq (LibScRegion.tcSt_open (K (F := F)) EH d 1)) $$ Hst
  icases Hst with ⟨Hdebt, Hrest⟩
  ihave Hx := (Entails.of_eq (held_take (F := F) d (mem_uc main_v5 (by decide)) Vc)) $$ Hh
  icases Hx with ⟨Hg, Hh⟩
  ihave Hx := (Entails.of_eq (held_take (F := F) d (Finset.mem_erase.mpr ⟨StableHlo.devRef_ne_of_ne (x := main_arg5) (y := main_v5) (by decide), mem_uc main_arg5 (by decide)⟩) Vc)) $$ Hh
  icases Hx with ⟨Hw, Hh⟩
  ihave Hx := (Entails.of_eq (held_take (F := F) d (Finset.mem_erase.mpr ⟨StableHlo.devRef_ne_of_ne (x := main_v6) (y := main_arg5) (by decide), Finset.mem_erase.mpr ⟨StableHlo.devRef_ne_of_ne (x := main_v6) (y := main_v5) (by decide), mem_uc main_v6 (by decide)⟩⟩) Vc)) $$ Hh
  icases Hx with ⟨Hbi, Hh⟩
  ihave Hx := (Entails.of_eq (held_take (F := F) d (Finset.mem_erase.mpr ⟨StableHlo.devRef_ne_of_ne (x := main_v7) (y := main_v6) (by decide), Finset.mem_erase.mpr ⟨StableHlo.devRef_ne_of_ne (x := main_v7) (y := main_arg5) (by decide), Finset.mem_erase.mpr ⟨StableHlo.devRef_ne_of_ne (x := main_v7) (y := main_v5) (by decide), mem_uc main_v7 (by decide)⟩⟩⟩) Vc)) $$ Hh
  icases Hx with ⟨Ho, Hh⟩
  ihave Hlev := ((K (F := F)).ctx_levAts (EH := EH) (P := (PV m S0 S1 S2 S3)) κ) $$ Hctx
  iapply (hr d 1 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPostV_eq0 (F := F) d _ _ _)) $$ Hpost
  icases Hpost with ⟨Hdebt, Hg, Hw, Hbi, Ho⟩
  ihave Hst := (Entails.of_eq (LibScRegion.tcSt_open (K (F := F)) EH d 1).symm) $$ [Hdebt Hrest]
  · isplitl [Hdebt] <;> iassumption
  ihave Hh := (held_put (F := F) d (Finset.mem_erase.mpr ⟨StableHlo.devRef_ne_of_ne (x := main_v7) (y := main_v6) (by decide), Finset.mem_erase.mpr ⟨StableHlo.devRef_ne_of_ne (x := main_v7) (y := main_arg5) (by decide), Finset.mem_erase.mpr ⟨StableHlo.devRef_ne_of_ne (x := main_v7) (y := main_v5) (by decide), mem_uc main_v7 (by decide)⟩⟩⟩) Vc (out d (fun r => Vc (dr r)))) $$ [Ho Hh]
  · isplitl [Ho] <;> iassumption
  ihave Hh := (held_back (F := F) d (Finset.mem_erase.mpr ⟨StableHlo.devRef_ne_of_ne (x := main_v6) (y := main_arg5) (by decide), Finset.mem_erase.mpr ⟨StableHlo.devRef_ne_of_ne (x := main_v6) (y := main_v5) (by decide), mem_uc main_v6 (by decide)⟩⟩) (Function.update Vc (dr main_v7) (out d (fun r => Vc (dr r)))) (Vc (dr main_v6))
      (by rw [Function.update_of_ne (StableHlo.devRef_ne_of_ne (x := main_v6) (y := main_v7) (by decide))])) $$ [Hbi Hh]
  · isplitl [Hbi] <;> iassumption
  ihave Hh := (held_back (F := F) d (Finset.mem_erase.mpr ⟨StableHlo.devRef_ne_of_ne (x := main_arg5) (y := main_v5) (by decide), mem_uc main_arg5 (by decide)⟩) (Function.update Vc (dr main_v7) (out d (fun r => Vc (dr r)))) (Vc (dr main_arg5))
      (by rw [Function.update_of_ne (StableHlo.devRef_ne_of_ne (x := main_arg5) (y := main_v7) (by decide))])) $$ [Hw Hh]
  · isplitl [Hw] <;> iassumption
  ihave Hh := (held_back (F := F) d (mem_uc main_v5 (by decide)) (Function.update Vc (dr main_v7) (out d (fun r => Vc (dr r)))) (Vc (dr main_v5))
      (by rw [Function.update_of_ne (StableHlo.devRef_ne_of_ne (x := main_v5) (y := main_v7) (by decide))])) $$ [Hg Hh]
  · isplitl [Hg] <;> iassumption
  iapply Hk
  isplitl [Hst]; · iexact Hst
  isplitl [Hb]; · iexact Hb
  iexact Hh

omit [FloatOps F] in
theorem regPostV_eq1 (n : ℕ) (out : Buf (Elt F) ((SparseCore.T d : Thread nD τ).loc main_v12)) (Vc : (r : Ref sig .tc) → Buf (Elt F) ((SparseCore.T d : Thread nD τ).loc r)) :
    regPostV d n main_v10 main_arg6 main_v11 main_v12 out Vc = (iprop((∃ W, ⌜(K (F := F)).WBelow (SparseCore.T d) W (8 * n)⌝ ∗ owes (SparseCore.T d) ((K (F := F)).Otc d n) W)
      ∗ ((SparseCore.T d).loc main_v10 ↦{fullShare} Vc main_v10) ∗ ((SparseCore.T d).loc main_arg6 ↦{fullShare} Vc main_arg6) ∗ ((SparseCore.T d).loc main_v11 ↦{fullShare} Vc main_v11)
      ∗ ((SparseCore.T d).loc main_v12 ↦{fullShare} out)) : sProp 𝕄) := rfl

set_option maxHeartbeats 2000000 in
/-- Region 1, its output named. -/
theorem step_regionV1 (out : (d : Dev nD) → ((r : Ref sig .tc) → Buf (Elt F) ((SparseCore.T d : Thread nD τ).loc r)) → Buf (Elt F) ((SparseCore.T d : Thread nD τ).loc main_v12)) (hr : RegionStepV (F := F) 1 main_v10 main_arg6 main_v11 main_v12 out) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) :
    iprop((K (F := F)).ctx EH (PV m S0 S1 S2 S3) κ ∗ (K (F := F)).tcSt EH d 2 ∗ boundary (SparseCore.T d) ∗ StableHlo.held (SparseCore.T d) (Pipeline.ucRefs τ sig) Vc
        ∗ Pipeline.cellsGhost (Pipeline.pin (pcfgs (F := F)) (adm (F := F))) (EP (F := F)) 1 d ∗ Pipeline.toksInit (Pipeline.pin (pcfgs (F := F)) (adm (F := F))) (EP (F := F)) 1 d
        ∗ (iprop((K (F := F)).tcSt EH d 2 ∗ boundary (SparseCore.T d)
            ∗ StableHlo.held (SparseCore.T d) (Pipeline.ucRefs τ sig) (Function.update Vc (dr main_v12) (out d (fun r => Vc (dr r))))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 1)) ()) >>= k) Φ := by
  rw [wp_bind]
  iintro ⟨#Hctx, Hst, Hb, Hh, Hgp, Htp, Hk⟩
  ihave Hst := (Entails.of_eq (LibScRegion.tcSt_open (K (F := F)) EH d 2)) $$ Hst
  icases Hst with ⟨Hdebt, Hrest⟩
  ihave Hx := (Entails.of_eq (held_take (F := F) d (mem_uc main_v10 (by decide)) Vc)) $$ Hh
  icases Hx with ⟨Hg, Hh⟩
  ihave Hx := (Entails.of_eq (held_take (F := F) d (Finset.mem_erase.mpr ⟨StableHlo.devRef_ne_of_ne (x := main_arg6) (y := main_v10) (by decide), mem_uc main_arg6 (by decide)⟩) Vc)) $$ Hh
  icases Hx with ⟨Hw, Hh⟩
  ihave Hx := (Entails.of_eq (held_take (F := F) d (Finset.mem_erase.mpr ⟨StableHlo.devRef_ne_of_ne (x := main_v11) (y := main_arg6) (by decide), Finset.mem_erase.mpr ⟨StableHlo.devRef_ne_of_ne (x := main_v11) (y := main_v10) (by decide), mem_uc main_v11 (by decide)⟩⟩) Vc)) $$ Hh
  icases Hx with ⟨Hbi, Hh⟩
  ihave Hx := (Entails.of_eq (held_take (F := F) d (Finset.mem_erase.mpr ⟨StableHlo.devRef_ne_of_ne (x := main_v12) (y := main_v11) (by decide), Finset.mem_erase.mpr ⟨StableHlo.devRef_ne_of_ne (x := main_v12) (y := main_arg6) (by decide), Finset.mem_erase.mpr ⟨StableHlo.devRef_ne_of_ne (x := main_v12) (y := main_v10) (by decide), mem_uc main_v12 (by decide)⟩⟩⟩) Vc)) $$ Hh
  icases Hx with ⟨Ho, Hh⟩
  ihave Hlev := ((K (F := F)).ctx_levAts (EH := EH) (P := (PV m S0 S1 S2 S3)) κ) $$ Hctx
  iapply (hr d 2 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPostV_eq1 (F := F) d _ _ _)) $$ Hpost
  icases Hpost with ⟨Hdebt, Hg, Hw, Hbi, Ho⟩
  ihave Hst := (Entails.of_eq (LibScRegion.tcSt_open (K (F := F)) EH d 2).symm) $$ [Hdebt Hrest]
  · isplitl [Hdebt] <;> iassumption
  ihave Hh := (held_put (F := F) d (Finset.mem_erase.mpr ⟨StableHlo.devRef_ne_of_ne (x := main_v12) (y := main_v11) (by decide), Finset.mem_erase.mpr ⟨StableHlo.devRef_ne_of_ne (x := main_v12) (y := main_arg6) (by decide), Finset.mem_erase.mpr ⟨StableHlo.devRef_ne_of_ne (x := main_v12) (y := main_v10) (by decide), mem_uc main_v12 (by decide)⟩⟩⟩) Vc (out d (fun r => Vc (dr r)))) $$ [Ho Hh]
  · isplitl [Ho] <;> iassumption
  ihave Hh := (held_back (F := F) d (Finset.mem_erase.mpr ⟨StableHlo.devRef_ne_of_ne (x := main_v11) (y := main_arg6) (by decide), Finset.mem_erase.mpr ⟨StableHlo.devRef_ne_of_ne (x := main_v11) (y := main_v10) (by decide), mem_uc main_v11 (by decide)⟩⟩) (Function.update Vc (dr main_v12) (out d (fun r => Vc (dr r)))) (Vc (dr main_v11))
      (by rw [Function.update_of_ne (StableHlo.devRef_ne_of_ne (x := main_v11) (y := main_v12) (by decide))])) $$ [Hbi Hh]
  · isplitl [Hbi] <;> iassumption
  ihave Hh := (held_back (F := F) d (Finset.mem_erase.mpr ⟨StableHlo.devRef_ne_of_ne (x := main_arg6) (y := main_v10) (by decide), mem_uc main_arg6 (by decide)⟩) (Function.update Vc (dr main_v12) (out d (fun r => Vc (dr r)))) (Vc (dr main_arg6))
      (by rw [Function.update_of_ne (StableHlo.devRef_ne_of_ne (x := main_arg6) (y := main_v12) (by decide))])) $$ [Hw Hh]
  · isplitl [Hw] <;> iassumption
  ihave Hh := (held_back (F := F) d (mem_uc main_v10 (by decide)) (Function.update Vc (dr main_v12) (out d (fun r => Vc (dr r)))) (Vc (dr main_v10))
      (by rw [Function.update_of_ne (StableHlo.devRef_ne_of_ne (x := main_v10) (y := main_v12) (by decide))])) $$ [Hg Hh]
  · isplitl [Hg] <;> iassumption
  iapply Hk
  isplitl [Hst]; · iexact Hst
  isplitl [Hb]; · iexact Hb
  iexact Hh

omit [FloatOps F] in
theorem regPostV_eq2 (n : ℕ) (out : Buf (Elt F) ((SparseCore.T d : Thread nD τ).loc main_v17)) (Vc : (r : Ref sig .tc) → Buf (Elt F) ((SparseCore.T d : Thread nD τ).loc r)) :
    regPostV d n main_v15 main_arg7 main_v16 main_v17 out Vc = (iprop((∃ W, ⌜(K (F := F)).WBelow (SparseCore.T d) W (8 * n)⌝ ∗ owes (SparseCore.T d) ((K (F := F)).Otc d n) W)
      ∗ ((SparseCore.T d).loc main_v15 ↦{fullShare} Vc main_v15) ∗ ((SparseCore.T d).loc main_arg7 ↦{fullShare} Vc main_arg7) ∗ ((SparseCore.T d).loc main_v16 ↦{fullShare} Vc main_v16)
      ∗ ((SparseCore.T d).loc main_v17 ↦{fullShare} out)) : sProp 𝕄) := rfl

set_option maxHeartbeats 2000000 in
/-- Region 2, its output named. -/
theorem step_regionV2 (out : (d : Dev nD) → ((r : Ref sig .tc) → Buf (Elt F) ((SparseCore.T d : Thread nD τ).loc r)) → Buf (Elt F) ((SparseCore.T d : Thread nD τ).loc main_v17)) (hr : RegionStepV (F := F) 2 main_v15 main_arg7 main_v16 main_v17 out) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) :
    iprop((K (F := F)).ctx EH (PV m S0 S1 S2 S3) κ ∗ (K (F := F)).tcSt EH d 3 ∗ boundary (SparseCore.T d) ∗ StableHlo.held (SparseCore.T d) (Pipeline.ucRefs τ sig) Vc
        ∗ Pipeline.cellsGhost (Pipeline.pin (pcfgs (F := F)) (adm (F := F))) (EP (F := F)) 2 d ∗ Pipeline.toksInit (Pipeline.pin (pcfgs (F := F)) (adm (F := F))) (EP (F := F)) 2 d
        ∗ (iprop((K (F := F)).tcSt EH d 3 ∗ boundary (SparseCore.T d)
            ∗ StableHlo.held (SparseCore.T d) (Pipeline.ucRefs τ sig) (Function.update Vc (dr main_v17) (out d (fun r => Vc (dr r))))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 2)) ()) >>= k) Φ := by
  rw [wp_bind]
  iintro ⟨#Hctx, Hst, Hb, Hh, Hgp, Htp, Hk⟩
  ihave Hst := (Entails.of_eq (LibScRegion.tcSt_open (K (F := F)) EH d 3)) $$ Hst
  icases Hst with ⟨Hdebt, Hrest⟩
  ihave Hx := (Entails.of_eq (held_take (F := F) d (mem_uc main_v15 (by decide)) Vc)) $$ Hh
  icases Hx with ⟨Hg, Hh⟩
  ihave Hx := (Entails.of_eq (held_take (F := F) d (Finset.mem_erase.mpr ⟨StableHlo.devRef_ne_of_ne (x := main_arg7) (y := main_v15) (by decide), mem_uc main_arg7 (by decide)⟩) Vc)) $$ Hh
  icases Hx with ⟨Hw, Hh⟩
  ihave Hx := (Entails.of_eq (held_take (F := F) d (Finset.mem_erase.mpr ⟨StableHlo.devRef_ne_of_ne (x := main_v16) (y := main_arg7) (by decide), Finset.mem_erase.mpr ⟨StableHlo.devRef_ne_of_ne (x := main_v16) (y := main_v15) (by decide), mem_uc main_v16 (by decide)⟩⟩) Vc)) $$ Hh
  icases Hx with ⟨Hbi, Hh⟩
  ihave Hx := (Entails.of_eq (held_take (F := F) d (Finset.mem_erase.mpr ⟨StableHlo.devRef_ne_of_ne (x := main_v17) (y := main_v16) (by decide), Finset.mem_erase.mpr ⟨StableHlo.devRef_ne_of_ne (x := main_v17) (y := main_arg7) (by decide), Finset.mem_erase.mpr ⟨StableHlo.devRef_ne_of_ne (x := main_v17) (y := main_v15) (by decide), mem_uc main_v17 (by decide)⟩⟩⟩) Vc)) $$ Hh
  icases Hx with ⟨Ho, Hh⟩
  ihave Hlev := ((K (F := F)).ctx_levAts (EH := EH) (P := (PV m S0 S1 S2 S3)) κ) $$ Hctx
  iapply (hr d 3 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPostV_eq2 (F := F) d _ _ _)) $$ Hpost
  icases Hpost with ⟨Hdebt, Hg, Hw, Hbi, Ho⟩
  ihave Hst := (Entails.of_eq (LibScRegion.tcSt_open (K (F := F)) EH d 3).symm) $$ [Hdebt Hrest]
  · isplitl [Hdebt] <;> iassumption
  ihave Hh := (held_put (F := F) d (Finset.mem_erase.mpr ⟨StableHlo.devRef_ne_of_ne (x := main_v17) (y := main_v16) (by decide), Finset.mem_erase.mpr ⟨StableHlo.devRef_ne_of_ne (x := main_v17) (y := main_arg7) (by decide), Finset.mem_erase.mpr ⟨StableHlo.devRef_ne_of_ne (x := main_v17) (y := main_v15) (by decide), mem_uc main_v17 (by decide)⟩⟩⟩) Vc (out d (fun r => Vc (dr r)))) $$ [Ho Hh]
  · isplitl [Ho] <;> iassumption
  ihave Hh := (held_back (F := F) d (Finset.mem_erase.mpr ⟨StableHlo.devRef_ne_of_ne (x := main_v16) (y := main_arg7) (by decide), Finset.mem_erase.mpr ⟨StableHlo.devRef_ne_of_ne (x := main_v16) (y := main_v15) (by decide), mem_uc main_v16 (by decide)⟩⟩) (Function.update Vc (dr main_v17) (out d (fun r => Vc (dr r)))) (Vc (dr main_v16))
      (by rw [Function.update_of_ne (StableHlo.devRef_ne_of_ne (x := main_v16) (y := main_v17) (by decide))])) $$ [Hbi Hh]
  · isplitl [Hbi] <;> iassumption
  ihave Hh := (held_back (F := F) d (Finset.mem_erase.mpr ⟨StableHlo.devRef_ne_of_ne (x := main_arg7) (y := main_v15) (by decide), mem_uc main_arg7 (by decide)⟩) (Function.update Vc (dr main_v17) (out d (fun r => Vc (dr r)))) (Vc (dr main_arg7))
      (by rw [Function.update_of_ne (StableHlo.devRef_ne_of_ne (x := main_arg7) (y := main_v17) (by decide))])) $$ [Hw Hh]
  · isplitl [Hw] <;> iassumption
  ihave Hh := (held_back (F := F) d (mem_uc main_v15 (by decide)) (Function.update Vc (dr main_v17) (out d (fun r => Vc (dr r)))) (Vc (dr main_v15))
      (by rw [Function.update_of_ne (StableHlo.devRef_ne_of_ne (x := main_v15) (y := main_v17) (by decide))])) $$ [Hg Hh]
  · isplitl [Hg] <;> iassumption
  iapply Hk
  isplitl [Hst]; · iexact Hst
  isplitl [Hb]; · iexact Hb
  iexact Hh

omit [FloatOps F] in
theorem regPostV_eq3 (n : ℕ) (out : Buf (Elt F) ((SparseCore.T d : Thread nD τ).loc main_v22)) (Vc : (r : Ref sig .tc) → Buf (Elt F) ((SparseCore.T d : Thread nD τ).loc r)) :
    regPostV d n main_v20 main_arg8 main_v21 main_v22 out Vc = (iprop((∃ W, ⌜(K (F := F)).WBelow (SparseCore.T d) W (8 * n)⌝ ∗ owes (SparseCore.T d) ((K (F := F)).Otc d n) W)
      ∗ ((SparseCore.T d).loc main_v20 ↦{fullShare} Vc main_v20) ∗ ((SparseCore.T d).loc main_arg8 ↦{fullShare} Vc main_arg8) ∗ ((SparseCore.T d).loc main_v21 ↦{fullShare} Vc main_v21)
      ∗ ((SparseCore.T d).loc main_v22 ↦{fullShare} out)) : sProp 𝕄) := rfl

set_option maxHeartbeats 2000000 in
/-- Region 3, its output named. -/
theorem step_regionV3 (out : (d : Dev nD) → ((r : Ref sig .tc) → Buf (Elt F) ((SparseCore.T d : Thread nD τ).loc r)) → Buf (Elt F) ((SparseCore.T d : Thread nD τ).loc main_v22)) (hr : RegionStepV (F := F) 3 main_v20 main_arg8 main_v21 main_v22 out) {β : Type} (κ : GSem nD τ sig → ℕ)
    (k : PUnit → Prog (TpuEff nD τ sig (Elt F) (SparseCore.Sig (ΛP (F := F)) 4) .tc) β) (Φ : β → sProp 𝕄)
    (Vc : Valuation τ sig (Elt F)) :
    iprop((K (F := F)).ctx EH (PV m S0 S1 S2 S3) κ ∗ (K (F := F)).tcSt EH d 4 ∗ boundary (SparseCore.T d) ∗ StableHlo.held (SparseCore.T d) (Pipeline.ucRefs τ sig) Vc
        ∗ Pipeline.cellsGhost (Pipeline.pin (pcfgs (F := F)) (adm (F := F))) (EP (F := F)) 3 d ∗ Pipeline.toksInit (Pipeline.pin (pcfgs (F := F)) (adm (F := F))) (EP (F := F)) 3 d
        ∗ (iprop((K (F := F)).tcSt EH d 4 ∗ boundary (SparseCore.T d)
            ∗ StableHlo.held (SparseCore.T d) (Pipeline.ucRefs τ sig) (Function.update Vc (dr main_v22) (out d (fun r => Vc (dr r))))) -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (Prog.lift (.customCall (SparseCore.inner (Pipeline.entry 3)) ()) >>= k) Φ := by
  rw [wp_bind]
  iintro ⟨#Hctx, Hst, Hb, Hh, Hgp, Htp, Hk⟩
  ihave Hst := (Entails.of_eq (LibScRegion.tcSt_open (K (F := F)) EH d 4)) $$ Hst
  icases Hst with ⟨Hdebt, Hrest⟩
  ihave Hx := (Entails.of_eq (held_take (F := F) d (mem_uc main_v20 (by decide)) Vc)) $$ Hh
  icases Hx with ⟨Hg, Hh⟩
  ihave Hx := (Entails.of_eq (held_take (F := F) d (Finset.mem_erase.mpr ⟨StableHlo.devRef_ne_of_ne (x := main_arg8) (y := main_v20) (by decide), mem_uc main_arg8 (by decide)⟩) Vc)) $$ Hh
  icases Hx with ⟨Hw, Hh⟩
  ihave Hx := (Entails.of_eq (held_take (F := F) d (Finset.mem_erase.mpr ⟨StableHlo.devRef_ne_of_ne (x := main_v21) (y := main_arg8) (by decide), Finset.mem_erase.mpr ⟨StableHlo.devRef_ne_of_ne (x := main_v21) (y := main_v20) (by decide), mem_uc main_v21 (by decide)⟩⟩) Vc)) $$ Hh
  icases Hx with ⟨Hbi, Hh⟩
  ihave Hx := (Entails.of_eq (held_take (F := F) d (Finset.mem_erase.mpr ⟨StableHlo.devRef_ne_of_ne (x := main_v22) (y := main_v21) (by decide), Finset.mem_erase.mpr ⟨StableHlo.devRef_ne_of_ne (x := main_v22) (y := main_arg8) (by decide), Finset.mem_erase.mpr ⟨StableHlo.devRef_ne_of_ne (x := main_v22) (y := main_v20) (by decide), mem_uc main_v22 (by decide)⟩⟩⟩) Vc)) $$ Hh
  icases Hx with ⟨Ho, Hh⟩
  ihave Hlev := ((K (F := F)).ctx_levAts (EH := EH) (P := (PV m S0 S1 S2 S3)) κ) $$ Hctx
  iapply (hr d 4 (fun r => Vc (dr r)) _)
  isplitr [Hb Hdebt Hg Hw Hbi Ho Hgp Htp Hlev]
  swap
  · isplitl [Hb]; · iexact Hb
    isplitl [Hdebt Hg Hw Hbi Ho]
    · iapply (Entails.of_eq (regPre_eq (F := F) d _ _ _ _ _ _).symm)
      isplitl [Hdebt]; · iexact Hdebt
      isplitl [Hg]; · iexact Hg
      isplitl [Hw]; · iexact Hw
      isplitl [Hbi]; · iexact Hbi
      iexact Ho
    isplitl [Hlev]; · iexact Hlev
    isplitl [Hgp]; · iexact Hgp
    iexact Htp
  iintro ⟨Hb, Hpost⟩
  ihave Hpost := (Entails.of_eq (regPostV_eq3 (F := F) d _ _ _)) $$ Hpost
  icases Hpost with ⟨Hdebt, Hg, Hw, Hbi, Ho⟩
  ihave Hst := (Entails.of_eq (LibScRegion.tcSt_open (K (F := F)) EH d 4).symm) $$ [Hdebt Hrest]
  · isplitl [Hdebt] <;> iassumption
  ihave Hh := (held_put (F := F) d (Finset.mem_erase.mpr ⟨StableHlo.devRef_ne_of_ne (x := main_v22) (y := main_v21) (by decide), Finset.mem_erase.mpr ⟨StableHlo.devRef_ne_of_ne (x := main_v22) (y := main_arg8) (by decide), Finset.mem_erase.mpr ⟨StableHlo.devRef_ne_of_ne (x := main_v22) (y := main_v20) (by decide), mem_uc main_v22 (by decide)⟩⟩⟩) Vc (out d (fun r => Vc (dr r)))) $$ [Ho Hh]
  · isplitl [Ho] <;> iassumption
  ihave Hh := (held_back (F := F) d (Finset.mem_erase.mpr ⟨StableHlo.devRef_ne_of_ne (x := main_v21) (y := main_arg8) (by decide), Finset.mem_erase.mpr ⟨StableHlo.devRef_ne_of_ne (x := main_v21) (y := main_v20) (by decide), mem_uc main_v21 (by decide)⟩⟩) (Function.update Vc (dr main_v22) (out d (fun r => Vc (dr r)))) (Vc (dr main_v21))
      (by rw [Function.update_of_ne (StableHlo.devRef_ne_of_ne (x := main_v21) (y := main_v22) (by decide))])) $$ [Hbi Hh]
  · isplitl [Hbi] <;> iassumption
  ihave Hh := (held_back (F := F) d (Finset.mem_erase.mpr ⟨StableHlo.devRef_ne_of_ne (x := main_arg8) (y := main_v20) (by decide), mem_uc main_arg8 (by decide)⟩) (Function.update Vc (dr main_v22) (out d (fun r => Vc (dr r)))) (Vc (dr main_arg8))
      (by rw [Function.update_of_ne (StableHlo.devRef_ne_of_ne (x := main_arg8) (y := main_v22) (by decide))])) $$ [Hw Hh]
  · isplitl [Hw] <;> iassumption
  ihave Hh := (held_back (F := F) d (mem_uc main_v20 (by decide)) (Function.update Vc (dr main_v22) (out d (fun r => Vc (dr r)))) (Vc (dr main_v20))
      (by rw [Function.update_of_ne (StableHlo.devRef_ne_of_ne (x := main_v20) (y := main_v22) (by decide))])) $$ [Hg Hh]
  · isplitl [Hg] <;> iassumption
  iapply Hk
  isplitl [Hst]; · iexact Hst
  isplitl [Hb]; · iexact Hb
  iexact Hh

end StepsV

section MainV

variable (m : (ℓ : Loc nD τ sig) → Buf (Elt F) ℓ) (ρ : Dev nD → PrngReg)
variable (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12))
  (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22))

/-- What the state holds when each gather call is made. -/
abbrev SV0 (d : Dev nD) : Buf (Elt F) (Call0.xLoc d) := W1 m d out0 out1 out2 out3 (dr main_v3)
abbrev SV1 (d : Dev nD) : Buf (Elt F) (Call2.xLoc d) := W5 m d out0 out1 out2 out3 (dr main_v8)
abbrev SV2 (d : Dev nD) : Buf (Elt F) (Call4.xLoc d) := W9 m d out0 out1 out2 out3 (dr main_v13)
abbrev SV3 (d : Dev nD) : Buf (Elt F) (Call6.xLoc d) := W13 m d out0 out1 out2 out3 (dr main_v18)

variable (d : Dev nD)
variable (hr0 : RegionStepV (F := F) 0 main_v5 main_arg5 main_v6 main_v7 out0) (hr1 : RegionStepV (F := F) 1 main_v10 main_arg6 main_v11 main_v12 out1)
  (hr2 : RegionStepV (F := F) 2 main_v15 main_arg7 main_v16 main_v17 out2) (hr3 : RegionStepV (F := F) 3 main_v20 main_arg8 main_v21 main_v22 out3)

theorem hu₀V : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (PV m (SV0 m out0 out1 out2 out3) (SV1 m out0 out1 out2 out3) (SV2 m out0 out1 out2 out3) (SV3 m out0 out1 out2 out3)).x q thr) := by
  refine (hu₀ (F := F) m).trans (BI.fupd_mono ?_)
  refine sep_mono .rfl (sep_mono .rfl ?_)
  exact .rfl

/-- What @main ends with: its arrays held at the last contents of the chain. -/
def FINV (d : Dev nD) : sProp 𝕄 := StableHlo.held (SparseCore.T d) (Pipeline.ucRefs τ sig) (W17 m d out0 out1 out2 out3)

def fqV (d : Dev nD) (s' : Phys nD τ sig (Elt F)) : Prop :=
  (∀ r ∈ argRefs, s'.mem.mem (d, dr r) = m (d, dr r)) ∧ s'.mem.mem (d, dr main_v23) = W17 m d out0 out1 out2 out3 (dr main_v23)

theorem hfinV (s' : Phys nD τ sig (Elt F)) : iprop(FINV m out0 out1 out2 out3 d ∗ SI s') ⊢ (⌜fqV m out0 out1 out2 out3 d s'⌝ : sProp 𝕄) := by
  unfold FINV StableHlo.held
  iintro ⟨Hh, HSI⟩
  ihave Hr := (pointsTo_read_all (Pipeline.ucRefs τ sig) (fun b => ((d, b) : Loc nD τ sig)) (W17 m d out0 out1 out2 out3) s') $$ [Hh HSI]
  · isplitl [Hh] <;> iassumption
  icases Hr with ⟨%h, -⟩
  ipureintro
  refine ⟨fun r hr => ?_, h (dr main_v23) (mem_uc main_v23 (by decide))⟩
  have hm : dr r ∈ Pipeline.ucRefs τ sig := mem_uc r (by
    simp only [argRefs, List.mem_cons, List.mem_singleton, List.not_mem_nil, or_false] at hr
    rcases hr with rfl | rfl | rfl | rfl | rfl | rfl | rfl | rfl | rfl | rfl | rfl | rfl | rfl <;> decide)
  exact (h (dr r) hm).trans (keepsW17 m d out0 out1 out2 out3 r hr)

include hr0 hr1 hr2 hr3 in
set_option maxHeartbeats 4000000 in
set_option backward.isDefEq.respectTransparency.types false in
/-- @main on the TensorCore, with values: each step moves the held arrays to the next contents of the chain. -/
theorem hmainV (κ : GSem nD τ sig → ℕ) :
    iprop((K (F := F)).ctx EH (PV m (SV0 m out0 out1 out2 out3) (SV1 m out0 out1 out2 out3) (SV2 m out0 out1 out2 out3) (SV3 m out0 out1 out2 out3)) κ ∗ (K (F := F)).tcSt EH d 0 ∗ (K (F := F)).tcRes m ρ d ∗ G (F := F) d)
      ⊢ wp frame (wpE ((K (F := F)).defs (D (F := F))) 𝒱 (SparseCore.T d) none) Set.univ (main d) fun _ => iprop((K (F := F)).tcSt EH d 4 ∗ FINV m out0 out1 out2 out3 d) := by
  unfold SparseCore.Cfg.tcRes G
  rw [main_eq, show (unscopedBufs d (fun b => m ((SparseCore.T d).loc b)) : sProp 𝕄) = StableHlo.held (SparseCore.T d) (Pipeline.ucRefs τ sig) (V₀ m d) from
    Pipeline.unscopedBufs_held d (V₀ m d), bigSep_fin4, bigSep_fin4]
  iintro ⟨#Hctx, Hst, ⟨Hb, Hh, -, -⟩, ⟨⟨Hg0, Hg1, Hg2, Hg3⟩, ⟨Ht0, Ht1, Ht2, Ht3⟩⟩⟩
  iapply (step_opsV d (ops0 (F := F)) ops0_sub ops0_fresh _ _ (V₀ m d))
  isplitl [Hb]; · iexact Hb
  isplitl [Hh]; · iexact Hh
  iintro ⟨Hb, Hh⟩
  iapply (step_runV0 m d (SV0 m out0 out1 out2 out3) (SV1 m out0 out1 out2 out3) (SV2 m out0 out1 out2 out3) (SV3 m out0 out1 out2 out3) κ _ _ (W1 m d out0 out1 out2 out3) (keepsW1 m d out0 out1 out2 out3 main_arg1 (by decide)) rfl)
  isplitr; · iexact Hctx
  isplitl [Hst]; · iexact Hst
  isplitl [Hb]; · iexact Hb
  isplitl [Hh]; · iexact Hh
  iintro ⟨Hst, Hb, Hh⟩
  iapply (step_opsV d (ops1 (F := F)) ops1_sub ops1_fresh _ _ (W2 m d out0 out1 out2 out3))
  isplitl [Hb]; · iexact Hb
  isplitl [Hh]; · iexact Hh
  iintro ⟨Hb, Hh⟩
  iapply (step_regionV0 m d (SV0 m out0 out1 out2 out3) (SV1 m out0 out1 out2 out3) (SV2 m out0 out1 out2 out3) (SV3 m out0 out1 out2 out3) out0 hr0 κ _ _ (W3 m d out0 out1 out2 out3))
  isplitr; · iexact Hctx
  isplitl [Hst]; · iexact Hst
  isplitl [Hb]; · iexact Hb
  isplitl [Hh]; · iexact Hh
  isplitl [Hg0]; · iexact Hg0
  isplitl [Ht0]; · iexact Ht0
  iintro ⟨Hst, Hb, Hh⟩
  iapply (step_opsV d (ops2 (F := F)) ops2_sub ops2_fresh _ _ (W4 m d out0 out1 out2 out3))
  isplitl [Hb]; · iexact Hb
  isplitl [Hh]; · iexact Hh
  iintro ⟨Hb, Hh⟩
  iapply (step_runV1 m d (SV0 m out0 out1 out2 out3) (SV1 m out0 out1 out2 out3) (SV2 m out0 out1 out2 out3) (SV3 m out0 out1 out2 out3) κ _ _ (W5 m d out0 out1 out2 out3) (keepsW5 m d out0 out1 out2 out3 main_arg2 (by decide)) rfl)
  isplitr; · iexact Hctx
  isplitl [Hst]; · iexact Hst
  isplitl [Hb]; · iexact Hb
  isplitl [Hh]; · iexact Hh
  iintro ⟨Hst, Hb, Hh⟩
  iapply (step_opsV d (ops3 (F := F)) ops3_sub ops3_fresh _ _ (W6 m d out0 out1 out2 out3))
  isplitl [Hb]; · iexact Hb
  isplitl [Hh]; · iexact Hh
  iintro ⟨Hb, Hh⟩
  iapply (step_regionV1 m d (SV0 m out0 out1 out2 out3) (SV1 m out0 out1 out2 out3) (SV2 m out0 out1 out2 out3) (SV3 m out0 out1 out2 out3) out1 hr1 κ _ _ (W7 m d out0 out1 out2 out3))
  isplitr; · iexact Hctx
  isplitl [Hst]; · iexact Hst
  isplitl [Hb]; · iexact Hb
  isplitl [Hh]; · iexact Hh
  isplitl [Hg1]; · iexact Hg1
  isplitl [Ht1]; · iexact Ht1
  iintro ⟨Hst, Hb, Hh⟩
  iapply (step_opsV d (ops4 (F := F)) ops4_sub ops4_fresh _ _ (W8 m d out0 out1 out2 out3))
  isplitl [Hb]; · iexact Hb
  isplitl [Hh]; · iexact Hh
  iintro ⟨Hb, Hh⟩
  iapply (step_runV2 m d (SV0 m out0 out1 out2 out3) (SV1 m out0 out1 out2 out3) (SV2 m out0 out1 out2 out3) (SV3 m out0 out1 out2 out3) κ _ _ (W9 m d out0 out1 out2 out3) (keepsW9 m d out0 out1 out2 out3 main_arg3 (by decide)) rfl)
  isplitr; · iexact Hctx
  isplitl [Hst]; · iexact Hst
  isplitl [Hb]; · iexact Hb
  isplitl [Hh]; · iexact Hh
  iintro ⟨Hst, Hb, Hh⟩
  iapply (step_opsV d (ops5 (F := F)) ops5_sub ops5_fresh _ _ (W10 m d out0 out1 out2 out3))
  isplitl [Hb]; · iexact Hb
  isplitl [Hh]; · iexact Hh
  iintro ⟨Hb, Hh⟩
  iapply (step_regionV2 m d (SV0 m out0 out1 out2 out3) (SV1 m out0 out1 out2 out3) (SV2 m out0 out1 out2 out3) (SV3 m out0 out1 out2 out3) out2 hr2 κ _ _ (W11 m d out0 out1 out2 out3))
  isplitr; · iexact Hctx
  isplitl [Hst]; · iexact Hst
  isplitl [Hb]; · iexact Hb
  isplitl [Hh]; · iexact Hh
  isplitl [Hg2]; · iexact Hg2
  isplitl [Ht2]; · iexact Ht2
  iintro ⟨Hst, Hb, Hh⟩
  iapply (step_opsV d (ops6 (F := F)) ops6_sub ops6_fresh _ _ (W12 m d out0 out1 out2 out3))
  isplitl [Hb]; · iexact Hb
  isplitl [Hh]; · iexact Hh
  iintro ⟨Hb, Hh⟩
  iapply (step_runV3 m d (SV0 m out0 out1 out2 out3) (SV1 m out0 out1 out2 out3) (SV2 m out0 out1 out2 out3) (SV3 m out0 out1 out2 out3) κ _ _ (W13 m d out0 out1 out2 out3) (keepsW13 m d out0 out1 out2 out3 main_arg4 (by decide)) rfl)
  isplitr; · iexact Hctx
  isplitl [Hst]; · iexact Hst
  isplitl [Hb]; · iexact Hb
  isplitl [Hh]; · iexact Hh
  iintro ⟨Hst, Hb, Hh⟩
  iapply (step_opsV d (ops7 (F := F)) ops7_sub ops7_fresh _ _ (W14 m d out0 out1 out2 out3))
  isplitl [Hb]; · iexact Hb
  isplitl [Hh]; · iexact Hh
  iintro ⟨Hb, Hh⟩
  iapply (step_regionV3 m d (SV0 m out0 out1 out2 out3) (SV1 m out0 out1 out2 out3) (SV2 m out0 out1 out2 out3) (SV3 m out0 out1 out2 out3) out3 hr3 κ _ _ (W15 m d out0 out1 out2 out3))
  isplitr; · iexact Hctx
  isplitl [Hst]; · iexact Hst
  isplitl [Hb]; · iexact Hb
  isplitl [Hh]; · iexact Hh
  isplitl [Hg3]; · iexact Hg3
  isplitl [Ht3]; · iexact Ht3
  iintro ⟨Hst, Hb, Hh⟩
  iapply (step_opsV d (ops8 (F := F)) ops8_sub ops8_fresh _ _ (W16 m d out0 out1 out2 out3))
  isplitl [Hb]; · iexact Hb
  isplitl [Hh]; · iexact Hh
  iintro ⟨Hb, Hh⟩
  rw [wp_pure]; imodintro
  isplitl [Hst]; · iexact Hst
  iapply (Entails.of_eq (show (FINV m out0 out1 out2 out3 d : sProp 𝕄)
    = StableHlo.held (SparseCore.T d) (Pipeline.ucRefs τ sig) (StableHlo.after (ops8 (F := F)) (W16 m d out0 out1 out2 out3)) from rfl).symm)
  iexact Hh

end MainV

/-! ## The program's run, with its result -/

section RunV

variable (m : (ℓ : Loc nD τ sig) → Buf (Elt F) ℓ) (ρ : Dev nD → PrngReg)
variable (out0 : (d : Dev nD) → ((r : Ref sig .tc) → Buf (Elt F) ((SparseCore.T d : Thread nD τ).loc r)) → Buf (Elt F) ((SparseCore.T d : Thread nD τ).loc main_v7)) (out1 : (d : Dev nD) → ((r : Ref sig .tc) → Buf (Elt F) ((SparseCore.T d : Thread nD τ).loc r)) → Buf (Elt F) ((SparseCore.T d : Thread nD τ).loc main_v12))
  (out2 : (d : Dev nD) → ((r : Ref sig .tc) → Buf (Elt F) ((SparseCore.T d : Thread nD τ).loc r)) → Buf (Elt F) ((SparseCore.T d : Thread nD τ).loc main_v17)) (out3 : (d : Dev nD) → ((r : Ref sig .tc) → Buf (Elt F) ((SparseCore.T d : Thread nD τ).loc r)) → Buf (Elt F) ((SparseCore.T d : Thread nD τ).loc main_v22))
variable (hr0 : RegionStepV (F := F) 0 main_v5 main_arg5 main_v6 main_v7 out0) (hr1 : RegionStepV (F := F) 1 main_v10 main_arg6 main_v11 main_v12 out1)
  (hr2 : RegionStepV (F := F) 2 main_v15 main_arg7 main_v16 main_v17 out2) (hr3 : RegionStepV (F := F) 3 main_v20 main_arg8 main_v21 main_v22 out3)

/-- Every device's arguments end as launched, and its result holds the last contents of the chain. -/
def QCV : PUnit × MemSt nD τ sig (Elt F) → Prop := fun r => ∀ c : Dev nD,
  (∀ r' ∈ argRefs, r.2.mem (c, dr r') = m (c, dr r')) ∧ r.2.mem (c, dr main_v23) = W17 m c out0 out1 out2 out3 (dr main_v23)

include hr0 hr1 hr2 hr3 in
theorem run_mainV [∀ e, Nonempty (Elt F e)] (hpre : PreOK m) :
    θ_run (Cert.KernelIdeal.defs (F := F)) (Cert.KernelIdeal.threads (F := F)) ⟨m, fun _ => 0, ρ⟩ (QCV m out0 out1 out2 out3) :=
  SparseCore.Cfg.θ_run_sc (K := K (F := F)) (D := D (F := F)) (𝒱 := 𝒱) (EH := EH) (P := (PV m (SV0 m out0 out1 out2 out3) (SV1 m out0 out1 out2 out3) (SV2 m out0 out1 out2 out3) (SV3 m out0 out1 out2 out3))) facts v₀
    (fun q hq => match q with | 0 => nomatch hq | 1 => nomatch hq | 2 => nomatch hq | 3 => nomatch hq)
    (fun q _ => match q with | 0 => tileOblV0 m _ _ _ _ facts hpre | 1 => tileOblV1 m _ _ _ _ facts hpre | 2 => tileOblV2 m _ _ _ _ facts hpre | 3 => tileOblV3 m _ _ _ _ facts hpre)
    (fun q _ => match q with
      | 0 => SparseCore.Cfg.VecSplit.of_plain (vecSplitV0 m _ _ _ _) | 1 => SparseCore.Cfg.VecSplit.of_plain (vecSplitV1 m _ _ _ _)
      | 2 => SparseCore.Cfg.VecSplit.of_plain (vecSplitV2 m _ _ _ _) | 3 => SparseCore.Cfg.VecSplit.of_plain (vecSplitV3 m _ _ _ _))
    m ρ main (fun d => G (F := F) d) (fun d => FINV m out0 out1 out2 out3 d) (u₀ (F := F)) (sep_elim_left.trans (hu₀V m out0 out1 out2 out3))
    (fun κ d => hmainV m ρ out0 out1 out2 out3 d hr0 hr1 hr2 hr3 κ) (fqV m out0 out1 out2 out3) (fun d s' => hfinV m out0 out1 out2 out3 d s') (QCV m out0 out1 out2 out3) (fun _ h => h)

end RunV

end Cert.Proof.KI

end
-- ==== Proof.KernGlue.lean ====
/-
  What each stretch of host operations of the kernel program's @main leaves in the buffers the next step reads, from
  arbitrary contents: the state vector built from the inputs and zeros, and the re-layings between a vector and a one-row
  matrix around each gather call and each region.
-/
import proofs.«208418_g89945205112833_cont_sun_c4_809_35_alg».proof.Proof.ScMain

noncomputable section

namespace Cert.Proof.KI

open Cert.KernelIdeal Cert.KernelIdeal.Gen

open Idealize.ShloMosaic
open Idealize.ShloMosaic.StableHlo

variable {F : FTy → Type} [FloatOps F]

section Glue

variable (Vc : Valuation τ sig (Elt F))

theorem ops0_v2 : after (ops0 (F := F)) Vc (dr main_v2)
    = concatenate S1x16384 1 [⟨S1x4096, shapeCast S1x4096 (Vc (dr main_arg0)) shapeCasts_S4096_S1x4096⟩,
        ⟨S1x12288, broadcastInDim S1x12288 ![] bcast_S_S1x12288 (constant S_ .f32 0x00000000#32)⟩] concatenates_S1x4096_S1x12288_S1x16384_d1 := by
  unfold ops0; after_results_simp; rfl

theorem ops0_v3 : after (ops0 (F := F)) Vc (dr main_v3) = shapeCast S16384 (after (ops0 (F := F)) Vc (dr main_v2)) shapeCasts_S1x16384_S16384 := by
  unfold ops0; after_results_simp; rfl

theorem ops1_v5 : after (ops1 (F := F)) Vc (dr main_v5) = shapeCast S1x4096 (Vc (dr main_v4)) shapeCasts_S4096_S1x4096 := by
  unfold ops1; after_results_simp; rfl
theorem ops1_v6 : after (ops1 (F := F)) Vc (dr main_v6) = shapeCast S1x4096 (Vc (dr main_arg9)) shapeCasts_S4096_S1x4096 := by
  unfold ops1; after_results_simp; rfl
theorem ops1_v7 : after (ops1 (F := F)) Vc (dr main_v7) = Vc (dr main_v2) := by
  unfold ops1; after_results_simp; rfl
theorem ops2_v8 : after (ops2 (F := F)) Vc (dr main_v8) = shapeCast S16384 (Vc (dr main_v7)) shapeCasts_S1x16384_S16384 := by
  unfold ops2; after_results_simp; rfl

theorem ops3_v10 : after (ops3 (F := F)) Vc (dr main_v10) = shapeCast S1x4096 (Vc (dr main_v9)) shapeCasts_S4096_S1x4096 := by
  unfold ops3; after_results_simp; rfl
theorem ops3_v11 : after (ops3 (F := F)) Vc (dr main_v11) = shapeCast S1x4096 (Vc (dr main_arg10)) shapeCasts_S4096_S1x4096 := by
  unfold ops3; after_results_simp; rfl
theorem ops3_v12 : after (ops3 (F := F)) Vc (dr main_v12) = Vc (dr main_v7) := by
  unfold ops3; after_results_simp; rfl
theorem ops4_v13 : after (ops4 (F := F)) Vc (dr main_v13) = shapeCast S16384 (Vc (dr main_v12)) shapeCasts_S1x16384_S16384 := by
  unfold ops4; after_results_simp; rfl

theorem ops5_v15 : after (ops5 (F := F)) Vc (dr main_v15) = shapeCast S1x4096 (Vc (dr main_v14)) shapeCasts_S4096_S1x4096 := by
  unfold ops5; after_results_simp; rfl
theorem ops5_v16 : after (ops5 (F := F)) Vc (dr main_v16) = shapeCast S1x4096 (Vc (dr main_arg11)) shapeCasts_S4096_S1x4096 := by
  unfold ops5; after_results_simp; rfl
theorem ops5_v17 : after (ops5 (F := F)) Vc (dr main_v17) = Vc (dr main_v12) := by
  unfold ops5; after_results_simp; rfl
theorem ops6_v18 : after (ops6 (F := F)) Vc (dr main_v18) = shapeCast S16384 (Vc (dr main_v17)) shapeCasts_S1x16384_S16384 := by
  unfold ops6; after_results_simp; rfl

theorem ops7_v20 : after (ops7 (F := F)) Vc (dr main_v20) = shapeCast S1x4096 (Vc (dr main_v19)) shapeCasts_S4096_S1x4096 := by
  unfold ops7; after_results_simp; rfl
theorem ops7_v21 : after (ops7 (F := F)) Vc (dr main_v21) = shapeCast S1x2048 (Vc (dr main_arg12)) shapeCasts_S2048_S1x2048 := by
  unfold ops7; after_results_simp; rfl
theorem ops8_v23 : after (ops8 (F := F)) Vc (dr main_v23) = shapeCast S2048 (Vc (dr main_v22)) shapeCasts_S1x2048_S2048 := by
  unfold ops8; after_results_simp; rfl

/-- A buffer a stretch does not write keeps its contents. -/
theorem ops_keep (ops : List (HloOp τ sig (Elt F))) (W : List (Ref sig .tc))
    (hW : ops.Forall fun op => op.writes ⊆ (W.map (Proc.devRef (τ := τ) .tc)).toFinset) (r : Ref sig .tc) (hr : r ∉ W) :
    after ops Vc (dr r) = Vc (dr r) := after_of_writes_sub ops Vc hW hr

end Glue

end Cert.Proof.KI

end
-- ==== Proof.LibConcatParts.lean ====
/-
  Concatenations read piece by piece, over generic extents.

  * Three matrices with the same rows set side by side along the column axis: at (p, k) the result is the first at
    (p, k) for k below its width, the second at (p, k − b₁) for k in the next b₂ columns, the third at
    (p, k − b₁ − b₂) above that.
  * Three vectors, and two vectors, laid end to end: the same reading along the one axis.
-/
import Idealize.ShloMosaic.Lib.Pipeline.Value
import Idealize.ShloMosaic.Lib.ValueIdx

noncomputable section

open Idealize.ShloMosaic Idealize.ShloMosaic.ValueIdx

namespace KerHostLayout

variable {α : Type}

/-! ## Three matrices side by side -/

section Cols3
variable {a b₁ b₂ b₃ b : ℕ} (x₁ : (⟨2, ![a, b₁]⟩ : Shape).Idx → α) (x₂ : (⟨2, ![a, b₂]⟩ : Shape).Idx → α)
  (x₃ : (⟨2, ![a, b₃]⟩ : Shape).Idx → α)
  (h : Shape.Concatenates [(⟨2, ![a, b₁]⟩ : Shape), ⟨2, ![a, b₂]⟩, ⟨2, ![a, b₃]⟩] ⟨2, ![a, b]⟩ 1)

/-- `[x₁ | x₂ | x₃]` read at a column of the first part. -/
theorem concat3_cols_fst (p : Fin a) (k : Fin b) (q : Fin b₁) (hq : q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₁ (ix2 p q) :=
  concatenate_apply_piece 1 [⟨⟨2, ![a, b₁]⟩, x₁⟩, ⟨⟨2, ![a, b₂]⟩, x₂⟩, ⟨⟨2, ![a, b₃]⟩, x₃⟩] h (ix2 p k) 0 (by show 0 < 3; omega)
    ⟨2, ![a, b₁]⟩ x₁ rfl rfl 0 rfl (ix2 p q)
    (fun c hc => by
      match c with
      | ⟨0, _⟩ => rfl
      | ⟨1, _⟩ => exact absurd rfl hc)
    (by show 0 + q.val = k.val; omega)

/-- `[x₁ | x₂ | x₃]` read at a column of the second part. -/
theorem concat3_cols_snd (p : Fin a) (k : Fin b) (q : Fin b₂) (hq : b₁ + q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₂ (ix2 p q) :=
  concatenate_apply_piece 1 [⟨⟨2, ![a, b₁]⟩, x₁⟩, ⟨⟨2, ![a, b₂]⟩, x₂⟩, ⟨⟨2, ![a, b₃]⟩, x₃⟩] h (ix2 p k) 1 (by show 1 < 3; omega)
    ⟨2, ![a, b₂]⟩ x₂ rfl rfl b₁ (by simp) (ix2 p q)
    (fun c hc => by
      match c with
      | ⟨0, _⟩ => rfl
      | ⟨1, _⟩ => exact absurd rfl hc)
    (by show b₁ + q.val = k.val; omega)

/-- `[x₁ | x₂ | x₃]` read at a column of the third part. -/
theorem concat3_cols_trd (p : Fin a) (k : Fin b) (q : Fin b₃) (hq : b₁ + b₂ + q.val = k.val) :
    concatenate ⟨2, ![a, b]⟩ 1 [⟨⟨2, ![a, b₁]⟩, x₁⟩, ⟨⟨2, ![a, b₂]⟩, x₂⟩, ⟨⟨2, ![a, b₃]⟩, x₃⟩] h (ix2 p k) = x₃ (ix2 p q) :=
  concatenate_apply_piece 1 [⟨⟨2, ![a, b₁]⟩, x₁⟩, ⟨⟨2, ![a, b₂]⟩, x₂⟩, ⟨⟨2, ![a, b₃]⟩, x₃⟩] h (ix2 p k) 2 (by show 2 < 3; omega)
    ⟨2, ![a, b₃]⟩ x₃ rfl rfl (b₁ + b₂) (by simp) (ix2 p q)
    (fun c hc => by
      match c with
      | ⟨0, _⟩ => rfl
      | ⟨1, _⟩ => exact absurd rfl hc)
    (by show b₁ + b₂ + q.val = k.val; omega)

end Cols3

/-! ## Two matrices side by side -/

section Cols2
variable {a b₁ b₂ b : ℕ} (x₁ : (⟨2, ![a, b₁]⟩ : Shape).Idx → α) (x₂ : (⟨2, ![a, b₂]⟩ : Shape).Idx → α)
  (h : Shape.Concatenates [(⟨2, ![a, b₁]⟩ : Shape), ⟨2, ![a, b₂]⟩] ⟨2, ![a, b]⟩ 1)

/-- `[x₁ | x₂]` read at a column of the first part. -/
theorem concat2_cols_fst (p : Fin a) (k : Fin b) (q : Fin b₁) (hq : q.val = k.val) :
    concatenate ⟨2, ![a, b]⟩ 1 [⟨⟨2, ![a, b₁]⟩, x₁⟩, ⟨⟨2, ![a, b₂]⟩, x₂⟩] h (ix2 p k) = x₁ (ix2 p q) :=
  concatenate_apply_piece 1 [⟨⟨2, ![a, b₁]⟩, x₁⟩, ⟨⟨2, ![a, b₂]⟩, x₂⟩] h (ix2 p k) 0 (by show 0 < 2; omega)
    ⟨2, ![a, b₁]⟩ x₁ rfl rfl 0 rfl (ix2 p q)
    (fun c hc => by
      match c with
      | ⟨0, _⟩ => rfl
      | ⟨1, _⟩ => exact absurd rfl hc)
    (by show 0 + q.val = k.val; omega)

/-- `[x₁ | x₂]` read at a column of the second part. -/
theorem concat2_cols_snd (p : Fin a) (k : Fin b) (q : Fin b₂) (hq : b₁ + q.val = k.val) :
    concatenate ⟨2, ![a, b]⟩ 1 [⟨⟨2, ![a, b₁]⟩, x₁⟩, ⟨⟨2, ![a, b₂]⟩, x₂⟩] h (ix2 p k) = x₂ (ix2 p q) :=
  concatenate_apply_piece 1 [⟨⟨2, ![a, b₁]⟩, x₁⟩, ⟨⟨2, ![a, b₂]⟩, x₂⟩] h (ix2 p k) 1 (by show 1 < 2; omega)
    ⟨2, ![a, b₂]⟩ x₂ rfl rfl b₁ (by simp) (ix2 p q)
    (fun c hc => by
      match c with
      | ⟨0, _⟩ => rfl
      | ⟨1, _⟩ => exact absurd rfl hc)
    (by show b₁ + q.val = k.val; omega)

end Cols2

/-! ## Three vectors end to end -/

section Vec3
variable {b₁ b₂ b₃ b : ℕ} (x₁ : (⟨1, ![b₁]⟩ : Shape).Idx → α) (x₂ : (⟨1, ![b₂]⟩ : Shape).Idx → α)
  (x₃ : (⟨1, ![b₃]⟩ : Shape).Idx → α)
  (h : Shape.Concatenates [(⟨1, ![b₁]⟩ : Shape), ⟨1, ![b₂]⟩, ⟨1, ![b₃]⟩] ⟨1, ![b]⟩ 0)

theorem concat3_vec_fst (k : Fin b) (q : Fin b₁) (hq : q.val = k.val) :
    concatenate ⟨1, ![b]⟩ 0 [⟨⟨1, ![b₁]⟩, x₁⟩, ⟨⟨1, ![b₂]⟩, x₂⟩, ⟨⟨1, ![b₃]⟩, x₃⟩] h (ix1 k) = x₁ (ix1 q) :=
  concatenate_apply_piece 0 [⟨⟨1, ![b₁]⟩, x₁⟩, ⟨⟨1, ![b₂]⟩, x₂⟩, ⟨⟨1, ![b₃]⟩, x₃⟩] h (ix1 k) 0 (by show 0 < 3; omega)
    ⟨1, ![b₁]⟩ x₁ rfl rfl 0 rfl (ix1 q)
    (fun c hc => by
      match c with
      | ⟨0, _⟩ => exact absurd rfl hc)
    (by show 0 + q.val = k.val; omega)

theorem concat3_vec_snd (k : Fin b) (q : Fin b₂) (hq : b₁ + q.val = k.val) :
    concatenate ⟨1, ![b]⟩ 0 [⟨⟨1, ![b₁]⟩, x₁⟩, ⟨⟨1, ![b₂]⟩, x₂⟩, ⟨⟨1, ![b₃]⟩, x₃⟩] h (ix1 k) = x₂ (ix1 q) :=
  concatenate_apply_piece 0 [⟨⟨1, ![b₁]⟩, x₁⟩, ⟨⟨1, ![b₂]⟩, x₂⟩, ⟨⟨1, ![b₃]⟩, x₃⟩] h (ix1 k) 1 (by show 1 < 3; omega)
    ⟨1, ![b₂]⟩ x₂ rfl rfl b₁ (by simp) (ix1 q)
    (fun c hc => by
      match c with
      | ⟨0, _⟩ => exact absurd rfl hc)
    (by show b₁ + q.val = k.val; omega)

theorem concat3_vec_trd (k : Fin b) (q : Fin b₃) (hq : b₁ + b₂ + q.val = k.val) :
    concatenate ⟨1, ![b]⟩ 0 [⟨⟨1, ![b₁]⟩, x₁⟩, ⟨⟨1, ![b₂]⟩, x₂⟩, ⟨⟨1, ![b₃]⟩, x₃⟩] h (ix1 k) = x₃ (ix1 q) :=
  concatenate_apply_piece 0 [⟨⟨1, ![b₁]⟩, x₁⟩, ⟨⟨1, ![b₂]⟩, x₂⟩, ⟨⟨1, ![b₃]⟩, x₃⟩] h (ix1 k) 2 (by show 2 < 3; omega)
    ⟨1, ![b₃]⟩ x₃ rfl rfl (b₁ + b₂) (by simp) (ix1 q)
    (fun c hc => by
      match c with
      | ⟨0, _⟩ => exact absurd rfl hc)
    (by show b₁ + b₂ + q.val = k.val; omega)

end Vec3

/-! ## Two vectors end to end -/

section Vec2
variable {b₁ b₂ b : ℕ} (x₁ : (⟨1, ![b₁]⟩ : Shape).Idx → α) (x₂ : (⟨1, ![b₂]⟩ : Shape).Idx → α)
  (h : Shape.Concatenates [(⟨1, ![b₁]⟩ : Shape), ⟨1, ![b₂]⟩] ⟨1, ![b]⟩ 0)

theorem concat2_vec_fst (k : Fin b) (q : Fin b₁) (hq : q.val = k.val) :
    concatenate ⟨1, ![b]⟩ 0 [⟨⟨1, ![b₁]⟩, x₁⟩, ⟨⟨1, ![b₂]⟩, x₂⟩] h (ix1 k) = x₁ (ix1 q) :=
  concatenate_apply_piece 0 [⟨⟨1, ![b₁]⟩, x₁⟩, ⟨⟨1, ![b₂]⟩, x₂⟩] h (ix1 k) 0 (by show 0 < 2; omega)
    ⟨1, ![b₁]⟩ x₁ rfl rfl 0 rfl (ix1 q)
    (fun c hc => by
      match c with
      | ⟨0, _⟩ => exact absurd rfl hc)
    (by show 0 + q.val = k.val; omega)

theorem concat2_vec_snd (k : Fin b) (q : Fin b₂) (hq : b₁ + q.val = k.val) :
    concatenate ⟨1, ![b]⟩ 0 [⟨⟨1, ![b₁]⟩, x₁⟩, ⟨⟨1, ![b₂]⟩, x₂⟩] h (ix1 k) = x₂ (ix1 q) :=
  concatenate_apply_piece 0 [⟨⟨1, ![b₁]⟩, x₁⟩, ⟨⟨1, ![b₂]⟩, x₂⟩] h (ix1 k) 1 (by show 1 < 2; omega)
    ⟨1, ![b₂]⟩ x₂ rfl rfl b₁ (by simp) (ix1 q)
    (fun c hc => by
      match c with
      | ⟨0, _⟩ => exact absurd rfl hc)
    (by show b₁ + q.val = k.val; omega)

end Vec2

end KerHostLayout

end
-- ==== Proof.KernSpec.lean ====
/-
  One layer of the network on the state ROW the kernel program keeps (a one-row matrix of 16384 entries), in the terms of
  the specification: if the row holds a state, the gathered row holds the state's entries at the table's indices, the bias
  row holds the bias, and the region's output is tanh of bias plus row-times-matrix on its block of columns and the old row
  elsewhere, then the output holds the state after the layer. Also the first row (the inputs followed by zeros is the
  initial state) and the last layer (its 2048 outputs are the specification's result).
-/
import proofs.«208418_g89945205112833_cont_sun_c4_809_35_alg».proof.Proof.Spec
import proofs.«208418_g89945205112833_cont_sun_c4_809_35_alg».proof.Proof.LibConcatParts
import Idealize.ShloMosaic.Lib.ValueLayout
import Idealize.ShloMosaic.Lib.Pipeline.Value

noncomputable section

namespace Cert.Proof.KernSpec

open Idealize.ShloMosaic Idealize.ShloMosaic.ValueIdx Cert.Proof.Spec
open scoped BigOperators

/-- The inputs laid as a row and followed by 12288 zeros are the initial state. -/
theorem init_row (x : FV 4096) (h1 : (⟨1, ![4096]⟩ : Shape).ShapeCasts ⟨2, ![1, 4096]⟩)
    (hb : (⟨0, ![]⟩ : Shape).BroadcastsInDim ⟨2, ![1, 12288]⟩ (![] : Fin 0 → Fin 2))
    (hc : Shape.Concatenates [(⟨2, ![1, 4096]⟩ : Shape), ⟨2, ![1, 12288]⟩] ⟨2, ![1, 16384]⟩ 1) (s : Fin 16384) :
    concatenate ⟨2, ![1, 16384]⟩ 1 [⟨⟨2, ![1, 4096]⟩, shapeCast ⟨2, ![1, 4096]⟩ x h1⟩,
        ⟨⟨2, ![1, 12288]⟩, broadcastInDim ⟨2, ![1, 12288]⟩ ![] hb (constant (F := Ideal) ⟨0, ![]⟩ .f32 0x00000000#32)⟩] hc (ix2 (0 : Fin 1) s)
      = st0 x (ix1 s) := by
  by_cases h : s.val < 4096
  · rw [KerHostLayout.concat2_cols_fst _ _ hc 0 s ⟨s.val, h⟩ rfl, shapeCast_a_1a_apply, st0_lo x s h]
  · rw [KerHostLayout.concat2_cols_snd _ _ hc 0 s ⟨s.val - 4096, by omega⟩ (by show 4096 + (s.val - 4096) = s.val; omega), st0_hi x s h]
    rfl

/-- One layer on the state row. -/
theorem layer_row (St : FV 16384) (X X' : FVec Ideal (⟨2, ![1, 16384]⟩ : Shape) .f32) (hX : ∀ s : Fin 16384, X (ix2 (0 : Fin 1) s) = St (ix1 s))
    (i : ℕ) (hi : 4096 * i + 4096 ≤ 16384) (ni : IV 4096) (W : FM 4096 4096) (b : FV 4096)
    (g bb : FVec Ideal (⟨2, ![1, 4096]⟩ : Shape) .f32)
    (hg : ∀ e : Fin 4096, g (ix2 (0 : Fin 1) e) = X (ix2 (0 : Fin 1) ⟨min (ni (ix1 e)).toNat 16383, by omega⟩))
    (hbb : ∀ n : Fin 4096, bb (ix2 (0 : Fin 1) n) = b (ix1 n))
    (hin : ∀ (s : Fin 16384) (n : Fin 4096), s.val = 4096 * i + n.val →
      X' (ix2 (0 : Fin 1) s) = Ideal.tanh (bb (ix2 (0 : Fin 1) n) + ∑ k : Fin 4096, g (ix2 (0 : Fin 1) k) * W (ix2 k n)))
    (hout : ∀ s : Fin 16384, ¬ (4096 * i ≤ s.val ∧ s.val < 4096 * i + 4096) → X' (ix2 (0 : Fin 1) s) = X (ix2 (0 : Fin 1) s)) :
    ∀ s : Fin 16384, X' (ix2 (0 : Fin 1) s) = step St i ni W b (ix1 s) := by
  intro s
  by_cases h : 4096 * i ≤ s.val ∧ s.val < 4096 * i + 4096
  · rw [hin s ⟨s.val - 4096 * i, by omega⟩ (by show s.val = 4096 * i + (s.val - 4096 * i); omega), step, put_in _ _ _ s h, dense4096_apply, hbb]
    congr 2
    refine Finset.sum_congr rfl fun k _ => ?_
    rw [hg k, hX, gath_apply]
  · rw [hout s h, hX, step, put_out _ _ _ s h]

/-- The last layer: its 2048 outputs. -/
theorem last_row (St : FV 16384) (X : FVec Ideal (⟨2, ![1, 16384]⟩ : Shape) .f32) (hX : ∀ s : Fin 16384, X (ix2 (0 : Fin 1) s) = St (ix1 s))
    (ni : IV 4096) (W : FM 4096 2048) (b : FV 2048)
    (g : FVec Ideal (⟨2, ![1, 4096]⟩ : Shape) .f32) (bb Y : FVec Ideal (⟨2, ![1, 2048]⟩ : Shape) .f32)
    (hg : ∀ e : Fin 4096, g (ix2 (0 : Fin 1) e) = X (ix2 (0 : Fin 1) ⟨min (ni (ix1 e)).toNat 16383, by omega⟩))
    (hbb : ∀ n : Fin 2048, bb (ix2 (0 : Fin 1) n) = b (ix1 n))
    (hY : ∀ n : Fin 2048, Y (ix2 (0 : Fin 1) n) = Ideal.tanh (bb (ix2 (0 : Fin 1) n) + ∑ k : Fin 4096, g (ix2 (0 : Fin 1) k) * W (ix2 k n))) :
    ∀ n : Fin 2048, Y (ix2 (0 : Fin 1) n) = dense2048 (gath St ni) W b (ix1 n) := by
  intro n
  rw [hY n, dense2048_apply, hbb]
  congr 2
  refine Finset.sum_congr rfl fun k _ => ?_
  rw [hg k, hX, gath_apply]

end Cert.Proof.KernSpec

end
-- ==== Proof.Gemv1Val.lean ====
import proofs.«208418_g89945205112833_cont_sun_c4_809_35_alg».proof.Proof.Gemv1Outs
import Idealize.ShloMosaic.Lib.Pipeline.Value

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## What each control case leaves in the output block, as a term of the blocks it reads

The body adds to the output block the eight partial products of the point — the gathered row's 128-wide slices against
the eight weight blocks, accumulated from zero in window order —, after storing the bias there at the first point and
before applying tanh in place at the last. -/

theorem hz1 : (![0, 0] : Fin 2 → Nat) = fun _ => 0 := funext fun a => by fin_cases a <;> rfl

/-- The block after a point's accumulation: what it held (`xo`) plus the point's eight partial products. -/
def acc1 (i : grid1.Coords) (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xo : Vec F S1x4096 .f32) : Vec F S1x4096 .f32 :=
  k1_pay1 (k1_pay5 (k1_pay4 (View.ld xg (Rect.unit (s := S1x4096) (k1_off1 i 0#32) S1x128.size (k1_off1_inb i 0))) xw0 (View.ld xg (Rect.unit (s := S1x4096) (k1_off1 i 512#32) S1x128.size (k1_off1_inb i 1))) xw1 (View.ld xg (Rect.unit (s := S1x4096) (k1_off1 i 1024#32) S1x128.size (k1_off1_inb i 2))) xw2) (View.ld xg (Rect.unit (s := S1x4096) (k1_off1 i 1536#32) S1x128.size (k1_off1_inb i 3))) xw3 (View.ld xg (Rect.unit (s := S1x4096) (k1_off1 i 2048#32) S1x128.size (k1_off1_inb i 4))) xw4 (View.ld xg (Rect.unit (s := S1x4096) (k1_off1 i 2560#32) S1x128.size (k1_off1_inb i 5))) xw5) (k1_pay6 (View.ld xg (Rect.unit (s := S1x4096) (k1_off1 i 3072#32) S1x128.size (k1_off1_inb i 6))) xw6) (View.ld xg (Rect.unit (s := S1x4096) (k1_off1 i 3584#32) S1x128.size (k1_off1_inb i 7))) xw7 xo

set_option maxHeartbeats 1000000 in
/-- A middle point: the accumulation over what the block held. -/
theorem out1_B_eq (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    out1_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo
      = acc1 i xg xw0 xw1 xw2 xw3 xw4 xw5 xw6 xw7 xo := by
  unfold out1_B acc1
  rw [View.read_writes_eq_canon _ _ _ (cover1_B 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo)]
  unfold kernelRun1_B
  dsimp only
  sl_unfold_words
  rw [View.canon_unit_zero hz1]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz1, View.ld_unit_zero (S := S1x4096) hz1]

set_option maxHeartbeats 1000000 in
/-- The first point: the accumulation over the bias. -/
theorem out1_A_eq (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond1_0 i) (hc1 : ¬cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    out1_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb
      = acc1 i xg xw0 xw1 xw2 xw3 xw4 xw5 xw6 xw7 (k1_pay3 xb) := by
  unfold out1_A acc1
  rw [View.read_writes_eq_canon _ _ _ (cover1_A 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb)]
  unfold kernelRun1_A
  dsimp only
  sl_unfold_words
  rw [View.canon_cons_unit_zero (S := S1x4096) hz1, View.readCov_unit_zero (S := S1x4096) _ hz1]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz1, View.ld_unit_zero (S := S1x4096) hz1]

set_option maxHeartbeats 1000000 in
/-- The last point: tanh of the accumulation over what the block held. -/
theorem out1_C_eq (𝒱₀ : Variants) (c : Dev nD) (i : grid1.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond1_0 i) (hc1 : cond1_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    out1_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo
      = k1_pay2 (acc1 i xg xw0 xw1 xw2 xw3 xw4 xw5 xw6 xw7 xo) := by
  unfold out1_C acc1
  rw [View.read_writes_eq_canon _ _ _ (cover1_C 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo)]
  unfold kernelRun1_C
  dsimp only
  sl_unfold_words
  rw [View.canon_cons_unit_zero (S := S1x4096) hz1, View.readCov_unit_zero (S := S1x4096) _ hz1]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz1, View.ld_unit_zero (S := S1x4096) hz1]

end Cert.Proof.KI.Gemv1

end
-- ==== Proof.Gemv1Chain.lean ====
import proofs.«208418_g89945205112833_cont_sun_c4_809_35_alg».proof.Proof.Gemv1Val

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The output block after each point, in closed form -/

section Chain
variable (𝒱₀ : Variants) (c : Dev nD) (V : (b : Ref sig .tc) → Buf (Elt F) ((c.tc : Thread nD τ).loc b))

/-- A point's accumulation over what the block held, at the windows' blocks there. -/
def accAt1 (t : Fin cfg1.N) (xo : Vec F S1x4096 .f32) : Vec F S1x4096 .f32 :=
  acc1 (grid1.coords t) (iblk1 c V 0 t) (iblk1 c V 1 t) (iblk1 c V 2 t) (iblk1 c V 3 t) (iblk1 c V 4 t) (iblk1 c V 5 t) (iblk1 c V 6 t) (iblk1 c V 7 t) (iblk1 c V 8 t) xo

/-- The running accumulator after point `n`: the bias, then each point's eight partial products in point order. -/
def chain1 : (n : ℕ) → n < cfg1.N → Vec F S1x4096 .f32
  | 0, h => accAt1 c V ⟨0, h⟩ (k1_pay3 (iblk1 c V 9 ⟨0, h⟩))
  | n + 1, h => accAt1 c V ⟨n + 1, h⟩ (chain1 n (Nat.lt_of_succ_lt h))

set_option maxHeartbeats 1000000 in
/-- What the output's staging buffer holds after point `n` is the running accumulator, under tanh at the last point. -/
theorem outsAt1_eq : ∀ (n : ℕ) (h : n < cfg1.N),
    outsAt1 (Name := Name) (U := U) 𝒱₀ c V n h = if n % 4 = 3 then k1_pay2 (chain1 c V n h) else chain1 c V n h
  | 0, h => by
    rw [if_neg (by decide)]
    exact (outsAt1_A 𝒱₀ c V ⟨0, h⟩ rfl).trans (out1_A_eq ..)
  | n + 1, h => by
    have hN : cfg1.N = 4 := N_1
    have h0 : ¬(⟨n + 1, h⟩ : Fin cfg1.N).val % 4 = 0 := by dsimp only; omega
    have ih := outsAt1_eq n (Nat.lt_of_succ_lt h)
    rw [if_neg (by omega)] at ih
    by_cases h3 : (n + 1) % 4 = 3
    · rw [if_pos h3, outsAt1_C 𝒱₀ c V ⟨n + 1, h⟩ h0 h3, out1_C_eq]
      show k1_pay2 (accAt1 c V ⟨n + 1, h⟩ (outsAt1 (Name := Name) (U := U) 𝒱₀ c V n _)) = k1_pay2 (accAt1 c V ⟨n + 1, h⟩ (chain1 c V n _))
      rw [ih]
    · rw [if_neg h3, outsAt1_B 𝒱₀ c V ⟨n + 1, h⟩ h0 h3, out1_B_eq]
      show accAt1 c V ⟨n + 1, h⟩ (outsAt1 (Name := Name) (U := U) 𝒱₀ c V n _) = accAt1 c V ⟨n + 1, h⟩ (chain1 c V n _)
      rw [ih]

end Chain

end Cert.Proof.KI.Gemv1

end
-- ==== Proof.GemvIdealLib.lean ====
import proofs.«208418_g89945205112833_cont_sun_c4_809_35_alg».proof.Proof.Gen.KernelIdeal
import proofs.«208418_g89945205112833_cont_sun_c4_809_35_alg».proof.Proof.Gen.KernelIdeal.Skeleton
import Idealize.ShloMosaic.Lib.ValueIdx
import Idealize.ShloMosaic.Lib.ValueIdxCoords
import Idealize.ShloMosaic.PureOps.Ideal.Laws
import Idealize.ShloMosaic.Lib.Pipeline.Value

set_option maxRecDepth 16384

noncomputable section

namespace Cert.Proof.KI.Gemv1

open Idealize.ShloMosaic Idealize.ShloMosaic.TcCoe Idealize.ShloMosaic.ValueIdx
open Idealize.SL.Sem
open Cert.KernelIdeal Cert.KernelIdeal.Gen
open scoped BigOperators

/-! ## The partial products at the ideal values -/

/-- One 128-row partial product at a column: the sum over the block's rows. -/
theorem matmul_blk4096_apply (A : FVec Ideal S1x128 .bf16) (B : FVec Ideal S128x4096 .bf16) (n : Fin 4096) :
    matmul dot_S1x128_S128x4096_S1x4096_1_0_0_1_n_n none A B (constant (F := Ideal) S1x4096 .f32 0x00000000#32) (ix2 (0 : Fin 1) n)
      = ∑ c : Fin 128, A (ix2 (0 : Fin 1) c) * B (ix2 c n) := by
  show FloatOps.matmul _ none A B _ (ix2 (0 : Fin 1) n) = _
  rw [Ideal.matmul_constant_zero_apply, ← Equiv.sum_comp (contrEquiv1 dot_S1x128_S128x4096_S1x4096_1_0_0_1_n_n 128 rfl rfl).symm]
  refine Finset.sum_congr rfl fun c _ => ?_
  have c2 := contrEquiv1_symm_val dot_S1x128_S128x4096_S1x4096_1_0_0_1_n_n 128 rfl rfl c
  have l2 : dot_S1x128_S128x4096_S1x4096_1_0_0_1_n_n.lhsIdx (ix2 (0 : Fin 1) n) ((contrEquiv1 _ 128 rfl rfl).symm c) = ix2 (0 : Fin 1) c := by
    funext ax; apply Fin.ext
    match ax with
    | ⟨0, _⟩ => simp [DotDims.lhsIdx, dot_S1x128_S128x4096_S1x4096_1_0_0_1_n_n]; try rfl
    | ⟨1, _⟩ => simp [DotDims.lhsIdx, dot_S1x128_S128x4096_S1x4096_1_0_0_1_n_n]; exact c2
  have r2 : dot_S1x128_S128x4096_S1x4096_1_0_0_1_n_n.rhsIdx (ix2 (0 : Fin 1) n) ((contrEquiv1 _ 128 rfl rfl).symm c) = ix2 c n := by
    funext ax; apply Fin.ext
    match ax with
    | ⟨0, _⟩ => simp [DotDims.rhsIdx, dot_S1x128_S128x4096_S1x4096_1_0_0_1_n_n]; exact c2
    | ⟨1, _⟩ => simp [DotDims.rhsIdx, dot_S1x128_S128x4096_S1x4096_1_0_0_1_n_n]; try rfl
  rw [l2, r2]

/-- One 128-row partial product at a column: the sum over the block's rows. -/
theorem matmul_blk2048_apply (A : FVec Ideal S1x128 .bf16) (B : FVec Ideal S128x2048 .bf16) (n : Fin 2048) :
    matmul dot_S1x128_S128x2048_S1x2048_1_0_0_1_n_n none A B (constant (F := Ideal) S1x2048 .f32 0x00000000#32) (ix2 (0 : Fin 1) n)
      = ∑ c : Fin 128, A (ix2 (0 : Fin 1) c) * B (ix2 c n) := by
  show FloatOps.matmul _ none A B _ (ix2 (0 : Fin 1) n) = _
  rw [Ideal.matmul_constant_zero_apply, ← Equiv.sum_comp (contrEquiv1 dot_S1x128_S128x2048_S1x2048_1_0_0_1_n_n 128 rfl rfl).symm]
  refine Finset.sum_congr rfl fun c _ => ?_
  have c2 := contrEquiv1_symm_val dot_S1x128_S128x2048_S1x2048_1_0_0_1_n_n 128 rfl rfl c
  have l2 : dot_S1x128_S128x2048_S1x2048_1_0_0_1_n_n.lhsIdx (ix2 (0 : Fin 1) n) ((contrEquiv1 _ 128 rfl rfl).symm c) = ix2 (0 : Fin 1) c := by
    funext ax; apply Fin.ext
    match ax with
    | ⟨0, _⟩ => simp [DotDims.lhsIdx, dot_S1x128_S128x2048_S1x2048_1_0_0_1_n_n]; try rfl
    | ⟨1, _⟩ => simp [DotDims.lhsIdx, dot_S1x128_S128x2048_S1x2048_1_0_0_1_n_n]; exact c2
  have r2 : dot_S1x128_S128x2048_S1x2048_1_0_0_1_n_n.rhsIdx (ix2 (0 : Fin 1) n) ((contrEquiv1 _ 128 rfl rfl).symm c) = ix2 c n := by
    funext ax; apply Fin.ext
    match ax with
    | ⟨0, _⟩ => simp [DotDims.rhsIdx, dot_S1x128_S128x2048_S1x2048_1_0_0_1_n_n]; exact c2
    | ⟨1, _⟩ => simp [DotDims.rhsIdx, dot_S1x128_S128x2048_S1x2048_1_0_0_1_n_n]; try rfl
  rw [l2, r2]

end Cert.Proof.KI.Gemv1

end
-- ==== Proof.GemvSums.lean ====
import Mathlib

namespace Cert.Proof.KI.Gemv1

open scoped BigOperators

/-! ## Regrouping a sum over 4096 rows as the kernel accumulates it

The kernel adds the rows' products in the order: grid point, then window, then the 128 rows of the window's block at that
point — row `512 r + 128 k + c` for window `r`, point `k`, row `c` —, starting each point's partial sum from zero and
adding the points' partial sums to the bias one after another. Over a commutative monoid this is the bias plus the sum
over all rows. -/

variable {M : Type*} [AddCommMonoid M]

/-- A sum over `a * b` consecutive naturals, in `a` runs of `b`. -/
theorem sum_range_mul_runs (F : ℕ → M) (a b : ℕ) :
    ∑ k ∈ Finset.range (a * b), F k = ∑ i ∈ Finset.range a, ∑ j ∈ Finset.range b, F (i * b + j) := by
  induction a with
  | zero => simp
  | succ a ih =>
    rw [Nat.succ_mul, Finset.sum_range_add, ih, Finset.sum_range_succ]

/-- The rows of a 4096-row sum, grouped by window (8), grid point (4) and row of the block (128). -/
theorem sum_rows_grouped (f : Fin 4096 → M) :
    ∑ k' : Fin 4096, f k' = ∑ k : Fin 4, ∑ r : Fin 8, ∑ c : Fin 128, f ⟨512 * r.val + 128 * k.val + c.val, by have := r.isLt; have := k.isLt; have := c.isLt; omega⟩ := by
  let F : ℕ → M := fun n => if h : n < 4096 then f ⟨n, h⟩ else 0
  have hF : ∀ (n : ℕ) (h : n < 4096), F n = f ⟨n, h⟩ := fun n h => dif_pos h
  have h1 : ∑ k' : Fin 4096, f k' = ∑ n ∈ Finset.range 4096, F n := by
    rw [Finset.sum_range]; exact Finset.sum_congr rfl fun k' _ => (hF k'.val k'.isLt).symm
  have h3 : ∑ n ∈ Finset.range 4096, F n = ∑ i ∈ Finset.range 8, ∑ j ∈ Finset.range 512, F (i * 512 + j) := sum_range_mul_runs F 8 512
  have h2 : ∀ i, ∑ j ∈ Finset.range 512, F (i * 512 + j) = ∑ k ∈ Finset.range 4, ∑ c ∈ Finset.range 128, F (i * 512 + (k * 128 + c)) := fun i =>
    sum_range_mul_runs (fun j => F (i * 512 + j)) 4 128
  rw [h1, h3]
  simp only [h2]
  rw [Finset.sum_comm]
  rw [Finset.sum_range]
  refine Finset.sum_congr rfl fun k _ => ?_
  rw [Finset.sum_range]
  refine Finset.sum_congr rfl fun r _ => ?_
  rw [Finset.sum_range]
  refine Finset.sum_congr rfl fun c _ => ?_
  have hlt : 512 * r.val + 128 * k.val + c.val < 4096 := by have := r.isLt; have := k.isLt; have := c.isLt; omega
  rw [← hF _ hlt]
  congr 1
  omega

/-- The accumulation order of one layer: the bias, then per grid point the eight windows' partial sums added from zero,
    is the bias plus the sum over all rows. -/
theorem layer_sum (f : Fin 4096 → M) (b0 : M) (S : Fin 4 → Fin 8 → M)
    (hS : ∀ k r, S k r = ∑ c : Fin 128, f ⟨512 * r.val + 128 * k.val + c.val, by have := r.isLt; have := k.isLt; have := c.isLt; omega⟩) :
    (((b0 + ((((((((0 + S 0 0) + S 0 1) + S 0 2) + S 0 3) + S 0 4) + S 0 5) + S 0 6) + S 0 7))
        + ((((((((0 + S 1 0) + S 1 1) + S 1 2) + S 1 3) + S 1 4) + S 1 5) + S 1 6) + S 1 7))
        + ((((((((0 + S 2 0) + S 2 1) + S 2 2) + S 2 3) + S 2 4) + S 2 5) + S 2 6) + S 2 7))
        + ((((((((0 + S 3 0) + S 3 1) + S 3 2) + S 3 3) + S 3 4) + S 3 5) + S 3 6) + S 3 7)
      = b0 + ∑ k' : Fin 4096, f k' := by
  rw [sum_rows_grouped f]
  simp only [← hS, Fin.sum_univ_four, Fin.sum_univ_eight, zero_add]
  abel

end Cert.Proof.KI.Gemv1
-- ==== Proof.GemvIdeal1.lean ====
import proofs.«208418_g89945205112833_cont_sun_c4_809_35_alg».proof.Proof.Gemv1Chain
import proofs.«208418_g89945205112833_cont_sun_c4_809_35_alg».proof.Proof.GemvIdealLib
import proofs.«208418_g89945205112833_cont_sun_c4_809_35_alg».proof.Proof.GemvSums

set_option maxRecDepth 16384

noncomputable section

namespace Cert.Proof.KI.Gemv1

open Idealize.ShloMosaic Idealize.ShloMosaic.TcCoe Idealize.ShloMosaic.ValueIdx
open Idealize.SL.Sem
open Cert.KernelIdeal Cert.KernelIdeal.Gen
open scoped BigOperators

/-! ## One layer's accumulation at the ideal values, read at a column -/

/-- The zero the accumulation starts from. -/
theorem ofBits0_1 : (FloatOps.ofBits (F := Ideal) .f32 0x00000000#32) = (0 : EReal) := Ideal.ofBits_zero_f32

/-- The gathered row's slice for window 0 at the point with coordinate `kt`: its element `c` is row `0 + 128 kt + c`. -/
theorem ld_g1_0 (i : grid1.Coords) (kt : Fin 4) (hk : (i 0).val = kt.val) (xg : Vec Ideal S1x4096 .f32) (c : Fin 128) :
    View.ld xg (Rect.unit (s := S1x4096) (k1_off1 i 0#32) S1x128.size (k1_off1_inb i 0)) (ix2 (0 : Fin 1) c)
      = xg (ix2 (0 : Fin 1) ⟨512 * 0 + 128 * kt.val + c.val, by have := kt.isLt; have := c.isLt; omega⟩) := by
  show xg ((Rect.unit (s := S1x4096) (k1_off1 i 0#32) S1x128.size (k1_off1_inb i 0)).idx (ix2 (0 : Fin 1) c)) = _
  refine congrArg xg ?_
  have he : k1_off1 i 0#32 = ![0, 512 * 0 + 128 * (i 0).val] := k1_off1_eq i 0
  funext a; apply Fin.ext
  show (k1_off1 i 0#32) a + 1 * ((ix2 (0 : Fin 1) c) a).val = _
  rw [he]
  match a with
  | ⟨0, _⟩ => show 0 + 1 * 0 = 0; rfl
  | ⟨1, _⟩ => show (512 * 0 + 128 * (i 0).val) + 1 * c.val = 512 * 0 + 128 * kt.val + c.val; rw [hk]; omega

/-- The gathered row's slice for window 1 at the point with coordinate `kt`: its element `c` is row `512 + 128 kt + c`. -/
theorem ld_g1_1 (i : grid1.Coords) (kt : Fin 4) (hk : (i 0).val = kt.val) (xg : Vec Ideal S1x4096 .f32) (c : Fin 128) :
    View.ld xg (Rect.unit (s := S1x4096) (k1_off1 i 512#32) S1x128.size (k1_off1_inb i 1)) (ix2 (0 : Fin 1) c)
      = xg (ix2 (0 : Fin 1) ⟨512 * 1 + 128 * kt.val + c.val, by have := kt.isLt; have := c.isLt; omega⟩) := by
  show xg ((Rect.unit (s := S1x4096) (k1_off1 i 512#32) S1x128.size (k1_off1_inb i 1)).idx (ix2 (0 : Fin 1) c)) = _
  refine congrArg xg ?_
  have he : k1_off1 i 512#32 = ![0, 512 * 1 + 128 * (i 0).val] := k1_off1_eq i 1
  funext a; apply Fin.ext
  show (k1_off1 i 512#32) a + 1 * ((ix2 (0 : Fin 1) c) a).val = _
  rw [he]
  match a with
  | ⟨0, _⟩ => show 0 + 1 * 0 = 0; rfl
  | ⟨1, _⟩ => show (512 * 1 + 128 * (i 0).val) + 1 * c.val = 512 * 1 + 128 * kt.val + c.val; rw [hk]; omega

/-- The gathered row's slice for window 2 at the point with coordinate `kt`: its element `c` is row `1024 + 128 kt + c`. -/
theorem ld_g1_2 (i : grid1.Coords) (kt : Fin 4) (hk : (i 0).val = kt.val) (xg : Vec Ideal S1x4096 .f32) (c : Fin 128) :
    View.ld xg (Rect.unit (s := S1x4096) (k1_off1 i 1024#32) S1x128.size (k1_off1_inb i 2)) (ix2 (0 : Fin 1) c)
      = xg (ix2 (0 : Fin 1) ⟨512 * 2 + 128 * kt.val + c.val, by have := kt.isLt; have := c.isLt; omega⟩) := by
  show xg ((Rect.unit (s := S1x4096) (k1_off1 i 1024#32) S1x128.size (k1_off1_inb i 2)).idx (ix2 (0 : Fin 1) c)) = _
  refine congrArg xg ?_
  have he : k1_off1 i 1024#32 = ![0, 512 * 2 + 128 * (i 0).val] := k1_off1_eq i 2
  funext a; apply Fin.ext
  show (k1_off1 i 1024#32) a + 1 * ((ix2 (0 : Fin 1) c) a).val = _
  rw [he]
  match a with
  | ⟨0, _⟩ => show 0 + 1 * 0 = 0; rfl
  | ⟨1, _⟩ => show (512 * 2 + 128 * (i 0).val) + 1 * c.val = 512 * 2 + 128 * kt.val + c.val; rw [hk]; omega

/-- The gathered row's slice for window 3 at the point with coordinate `kt`: its element `c` is row `1536 + 128 kt + c`. -/
theorem ld_g1_3 (i : grid1.Coords) (kt : Fin 4) (hk : (i 0).val = kt.val) (xg : Vec Ideal S1x4096 .f32) (c : Fin 128) :
    View.ld xg (Rect.unit (s := S1x4096) (k1_off1 i 1536#32) S1x128.size (k1_off1_inb i 3)) (ix2 (0 : Fin 1) c)
      = xg (ix2 (0 : Fin 1) ⟨512 * 3 + 128 * kt.val + c.val, by have := kt.isLt; have := c.isLt; omega⟩) := by
  show xg ((Rect.unit (s := S1x4096) (k1_off1 i 1536#32) S1x128.size (k1_off1_inb i 3)).idx (ix2 (0 : Fin 1) c)) = _
  refine congrArg xg ?_
  have he : k1_off1 i 1536#32 = ![0, 512 * 3 + 128 * (i 0).val] := k1_off1_eq i 3
  funext a; apply Fin.ext
  show (k1_off1 i 1536#32) a + 1 * ((ix2 (0 : Fin 1) c) a).val = _
  rw [he]
  match a with
  | ⟨0, _⟩ => show 0 + 1 * 0 = 0; rfl
  | ⟨1, _⟩ => show (512 * 3 + 128 * (i 0).val) + 1 * c.val = 512 * 3 + 128 * kt.val + c.val; rw [hk]; omega

/-- The gathered row's slice for window 4 at the point with coordinate `kt`: its element `c` is row `2048 + 128 kt + c`. -/
theorem ld_g1_4 (i : grid1.Coords) (kt : Fin 4) (hk : (i 0).val = kt.val) (xg : Vec Ideal S1x4096 .f32) (c : Fin 128) :
    View.ld xg (Rect.unit (s := S1x4096) (k1_off1 i 2048#32) S1x128.size (k1_off1_inb i 4)) (ix2 (0 : Fin 1) c)
      = xg (ix2 (0 : Fin 1) ⟨512 * 4 + 128 * kt.val + c.val, by have := kt.isLt; have := c.isLt; omega⟩) := by
  show xg ((Rect.unit (s := S1x4096) (k1_off1 i 2048#32) S1x128.size (k1_off1_inb i 4)).idx (ix2 (0 : Fin 1) c)) = _
  refine congrArg xg ?_
  have he : k1_off1 i 2048#32 = ![0, 512 * 4 + 128 * (i 0).val] := k1_off1_eq i 4
  funext a; apply Fin.ext
  show (k1_off1 i 2048#32) a + 1 * ((ix2 (0 : Fin 1) c) a).val = _
  rw [he]
  match a with
  | ⟨0, _⟩ => show 0 + 1 * 0 = 0; rfl
  | ⟨1, _⟩ => show (512 * 4 + 128 * (i 0).val) + 1 * c.val = 512 * 4 + 128 * kt.val + c.val; rw [hk]; omega

/-- The gathered row's slice for window 5 at the point with coordinate `kt`: its element `c` is row `2560 + 128 kt + c`. -/
theorem ld_g1_5 (i : grid1.Coords) (kt : Fin 4) (hk : (i 0).val = kt.val) (xg : Vec Ideal S1x4096 .f32) (c : Fin 128) :
    View.ld xg (Rect.unit (s := S1x4096) (k1_off1 i 2560#32) S1x128.size (k1_off1_inb i 5)) (ix2 (0 : Fin 1) c)
      = xg (ix2 (0 : Fin 1) ⟨512 * 5 + 128 * kt.val + c.val, by have := kt.isLt; have := c.isLt; omega⟩) := by
  show xg ((Rect.unit (s := S1x4096) (k1_off1 i 2560#32) S1x128.size (k1_off1_inb i 5)).idx (ix2 (0 : Fin 1) c)) = _
  refine congrArg xg ?_
  have he : k1_off1 i 2560#32 = ![0, 512 * 5 + 128 * (i 0).val] := k1_off1_eq i 5
  funext a; apply Fin.ext
  show (k1_off1 i 2560#32) a + 1 * ((ix2 (0 : Fin 1) c) a).val = _
  rw [he]
  match a with
  | ⟨0, _⟩ => show 0 + 1 * 0 = 0; rfl
  | ⟨1, _⟩ => show (512 * 5 + 128 * (i 0).val) + 1 * c.val = 512 * 5 + 128 * kt.val + c.val; rw [hk]; omega

/-- The gathered row's slice for window 6 at the point with coordinate `kt`: its element `c` is row `3072 + 128 kt + c`. -/
theorem ld_g1_6 (i : grid1.Coords) (kt : Fin 4) (hk : (i 0).val = kt.val) (xg : Vec Ideal S1x4096 .f32) (c : Fin 128) :
    View.ld xg (Rect.unit (s := S1x4096) (k1_off1 i 3072#32) S1x128.size (k1_off1_inb i 6)) (ix2 (0 : Fin 1) c)
      = xg (ix2 (0 : Fin 1) ⟨512 * 6 + 128 * kt.val + c.val, by have := kt.isLt; have := c.isLt; omega⟩) := by
  show xg ((Rect.unit (s := S1x4096) (k1_off1 i 3072#32) S1x128.size (k1_off1_inb i 6)).idx (ix2 (0 : Fin 1) c)) = _
  refine congrArg xg ?_
  have he : k1_off1 i 3072#32 = ![0, 512 * 6 + 128 * (i 0).val] := k1_off1_eq i 6
  funext a; apply Fin.ext
  show (k1_off1 i 3072#32) a + 1 * ((ix2 (0 : Fin 1) c) a).val = _
  rw [he]
  match a with
  | ⟨0, _⟩ => show 0 + 1 * 0 = 0; rfl
  | ⟨1, _⟩ => show (512 * 6 + 128 * (i 0).val) + 1 * c.val = 512 * 6 + 128 * kt.val + c.val; rw [hk]; omega

/-- The gathered row's slice for window 7 at the point with coordinate `kt`: its element `c` is row `3584 + 128 kt + c`. -/
theorem ld_g1_7 (i : grid1.Coords) (kt : Fin 4) (hk : (i 0).val = kt.val) (xg : Vec Ideal S1x4096 .f32) (c : Fin 128) :
    View.ld xg (Rect.unit (s := S1x4096) (k1_off1 i 3584#32) S1x128.size (k1_off1_inb i 7)) (ix2 (0 : Fin 1) c)
      = xg (ix2 (0 : Fin 1) ⟨512 * 7 + 128 * kt.val + c.val, by have := kt.isLt; have := c.isLt; omega⟩) := by
  show xg ((Rect.unit (s := S1x4096) (k1_off1 i 3584#32) S1x128.size (k1_off1_inb i 7)).idx (ix2 (0 : Fin 1) c)) = _
  refine congrArg xg ?_
  have he : k1_off1 i 3584#32 = ![0, 512 * 7 + 128 * (i 0).val] := k1_off1_eq i 7
  funext a; apply Fin.ext
  show (k1_off1 i 3584#32) a + 1 * ((ix2 (0 : Fin 1) c) a).val = _
  rw [he]
  match a with
  | ⟨0, _⟩ => show 0 + 1 * 0 = 0; rfl
  | ⟨1, _⟩ => show (512 * 7 + 128 * (i 0).val) + 1 * c.val = 512 * 7 + 128 * kt.val + c.val; rw [hk]; omega

set_option maxHeartbeats 1000000 in
/-- A point's accumulation at column `n`: what the block held plus the eight windows' partial sums, added from zero in
    window order. -/
theorem acc1_apply (i : grid1.Coords) (kt : Fin 4) (hk : (i 0).val = kt.val) (xg : Vec Ideal S1x4096 .f32)
    (xw0 : Vec Ideal S128x4096 .f32) (xw1 : Vec Ideal S128x4096 .f32) (xw2 : Vec Ideal S128x4096 .f32) (xw3 : Vec Ideal S128x4096 .f32) (xw4 : Vec Ideal S128x4096 .f32) (xw5 : Vec Ideal S128x4096 .f32) (xw6 : Vec Ideal S128x4096 .f32) (xw7 : Vec Ideal S128x4096 .f32) (xo : Vec Ideal S1x4096 .f32) (n : Fin 4096) :
    acc1 i xg xw0 xw1 xw2 xw3 xw4 xw5 xw6 xw7 xo (ix2 (0 : Fin 1) n)
      = xo (ix2 (0 : Fin 1) n) + ((((((((0 + (∑ c : Fin 128, xg (ix2 (0 : Fin 1) ⟨512 * 0 + 128 * kt.val + c.val, by have := kt.isLt; have := c.isLt; omega⟩) * xw0 (ix2 c n))) + (∑ c : Fin 128, xg (ix2 (0 : Fin 1) ⟨512 * 1 + 128 * kt.val + c.val, by have := kt.isLt; have := c.isLt; omega⟩) * xw1 (ix2 c n))) + (∑ c : Fin 128, xg (ix2 (0 : Fin 1) ⟨512 * 2 + 128 * kt.val + c.val, by have := kt.isLt; have := c.isLt; omega⟩) * xw2 (ix2 c n))) + (∑ c : Fin 128, xg (ix2 (0 : Fin 1) ⟨512 * 3 + 128 * kt.val + c.val, by have := kt.isLt; have := c.isLt; omega⟩) * xw3 (ix2 c n))) + (∑ c : Fin 128, xg (ix2 (0 : Fin 1) ⟨512 * 4 + 128 * kt.val + c.val, by have := kt.isLt; have := c.isLt; omega⟩) * xw4 (ix2 c n))) + (∑ c : Fin 128, xg (ix2 (0 : Fin 1) ⟨512 * 5 + 128 * kt.val + c.val, by have := kt.isLt; have := c.isLt; omega⟩) * xw5 (ix2 c n))) + (∑ c : Fin 128, xg (ix2 (0 : Fin 1) ⟨512 * 6 + 128 * kt.val + c.val, by have := kt.isLt; have := c.isLt; omega⟩) * xw6 (ix2 c n))) + (∑ c : Fin 128, xg (ix2 (0 : Fin 1) ⟨512 * 7 + 128 * kt.val + c.val, by have := kt.isLt; have := c.isLt; omega⟩) * xw7 (ix2 c n))) := by
  unfold acc1 k1_pay1 k1_pay5 k1_pay4 k1_pay6
  simp only [addf_apply, shapeCast_self, ofBits0_1, matmul_blk4096_apply, truncf_apply, broadcast_apply]
  have e0 : ∀ w : Vec Ideal S128x4096 .f32, (∑ c : Fin 128, View.ld xg (Rect.unit (s := S1x4096) (k1_off1 i 0#32) S1x128.size (k1_off1_inb i 0)) (ix2 (0 : Fin 1) c) * w (ix2 c n))
      = ∑ c : Fin 128, xg (ix2 (0 : Fin 1) ⟨512 * 0 + 128 * kt.val + c.val, by have := kt.isLt; have := c.isLt; omega⟩) * w (ix2 c n) :=
    fun w => Finset.sum_congr rfl fun c _ => by rw [ld_g1_0 i kt hk xg c]
  have e1 : ∀ w : Vec Ideal S128x4096 .f32, (∑ c : Fin 128, View.ld xg (Rect.unit (s := S1x4096) (k1_off1 i 512#32) S1x128.size (k1_off1_inb i 1)) (ix2 (0 : Fin 1) c) * w (ix2 c n))
      = ∑ c : Fin 128, xg (ix2 (0 : Fin 1) ⟨512 * 1 + 128 * kt.val + c.val, by have := kt.isLt; have := c.isLt; omega⟩) * w (ix2 c n) :=
    fun w => Finset.sum_congr rfl fun c _ => by rw [ld_g1_1 i kt hk xg c]
  have e2 : ∀ w : Vec Ideal S128x4096 .f32, (∑ c : Fin 128, View.ld xg (Rect.unit (s := S1x4096) (k1_off1 i 1024#32) S1x128.size (k1_off1_inb i 2)) (ix2 (0 : Fin 1) c) * w (ix2 c n))
      = ∑ c : Fin 128, xg (ix2 (0 : Fin 1) ⟨512 * 2 + 128 * kt.val + c.val, by have := kt.isLt; have := c.isLt; omega⟩) * w (ix2 c n) :=
    fun w => Finset.sum_congr rfl fun c _ => by rw [ld_g1_2 i kt hk xg c]
  have e3 : ∀ w : Vec Ideal S128x4096 .f32, (∑ c : Fin 128, View.ld xg (Rect.unit (s := S1x4096) (k1_off1 i 1536#32) S1x128.size (k1_off1_inb i 3)) (ix2 (0 : Fin 1) c) * w (ix2 c n))
      = ∑ c : Fin 128, xg (ix2 (0 : Fin 1) ⟨512 * 3 + 128 * kt.val + c.val, by have := kt.isLt; have := c.isLt; omega⟩) * w (ix2 c n) :=
    fun w => Finset.sum_congr rfl fun c _ => by rw [ld_g1_3 i kt hk xg c]
  have e4 : ∀ w : Vec Ideal S128x4096 .f32, (∑ c : Fin 128, View.ld xg (Rect.unit (s := S1x4096) (k1_off1 i 2048#32) S1x128.size (k1_off1_inb i 4)) (ix2 (0 : Fin 1) c) * w (ix2 c n))
      = ∑ c : Fin 128, xg (ix2 (0 : Fin 1) ⟨512 * 4 + 128 * kt.val + c.val, by have := kt.isLt; have := c.isLt; omega⟩) * w (ix2 c n) :=
    fun w => Finset.sum_congr rfl fun c _ => by rw [ld_g1_4 i kt hk xg c]
  have e5 : ∀ w : Vec Ideal S128x4096 .f32, (∑ c : Fin 128, View.ld xg (Rect.unit (s := S1x4096) (k1_off1 i 2560#32) S1x128.size (k1_off1_inb i 5)) (ix2 (0 : Fin 1) c) * w (ix2 c n))
      = ∑ c : Fin 128, xg (ix2 (0 : Fin 1) ⟨512 * 5 + 128 * kt.val + c.val, by have := kt.isLt; have := c.isLt; omega⟩) * w (ix2 c n) :=
    fun w => Finset.sum_congr rfl fun c _ => by rw [ld_g1_5 i kt hk xg c]
  have e6 : ∀ w : Vec Ideal S128x4096 .f32, (∑ c : Fin 128, View.ld xg (Rect.unit (s := S1x4096) (k1_off1 i 3072#32) S1x128.size (k1_off1_inb i 6)) (ix2 (0 : Fin 1) c) * w (ix2 c n))
      = ∑ c : Fin 128, xg (ix2 (0 : Fin 1) ⟨512 * 6 + 128 * kt.val + c.val, by have := kt.isLt; have := c.isLt; omega⟩) * w (ix2 c n) :=
    fun w => Finset.sum_congr rfl fun c _ => by rw [ld_g1_6 i kt hk xg c]
  have e7 : ∀ w : Vec Ideal S128x4096 .f32, (∑ c : Fin 128, View.ld xg (Rect.unit (s := S1x4096) (k1_off1 i 3584#32) S1x128.size (k1_off1_inb i 7)) (ix2 (0 : Fin 1) c) * w (ix2 c n))
      = ∑ c : Fin 128, xg (ix2 (0 : Fin 1) ⟨512 * 7 + 128 * kt.val + c.val, by have := kt.isLt; have := c.isLt; omega⟩) * w (ix2 c n) :=
    fun w => Finset.sum_congr rfl fun c _ => by rw [ld_g1_7 i kt hk xg c]
  rw [e0 xw0, e1 xw1, e2 xw2, e3 xw3, e4 xw4, e5 xw5, e6 xw6, e7 xw7]

/-! ## The windows' blocks as parts of the arrays -/

section Layer
variable (c : Dev nD) (V : (b : Ref sig .tc) → Buf (Elt Ideal) ((c.tc : Thread nD τ).loc b))

/-- The arrays the layer reads, as vectors of extended reals. -/
abbrev Vg1 : FVec Ideal S1x4096 .f32 := V main_v5
abbrev VW1 : FVec Ideal S4096x4096 .f32 := V main_arg5
abbrev Vb1 : FVec Ideal S1x4096 .f32 := V main_v6

/-- The grid's one coordinate is the point's position. -/
theorem coords1_val : ∀ t : Fin cfg1.N, (grid1.coords t 0).val = t.val :=
  (by decide +kernel : ∀ t : Fin grid1.N, (grid1.coords t 0).val = t.val)

theorem idx1_0 : ∀ t : Fin cfg1.N, win1_0.index t 0 = 0 ∧ win1_0.index t 1 = 0 :=
  (by decide +kernel : ∀ t : Fin grid1.N, win1_0.index t 0 = 0 ∧ win1_0.index t 1 = 0)
theorem idx1_9 : ∀ t : Fin cfg1.N, win1_9.index t 0 = 0 ∧ win1_9.index t 1 = 0 :=
  (by decide +kernel : ∀ t : Fin grid1.N, win1_9.index t 0 = 0 ∧ win1_9.index t 1 = 0)
theorem idx1_1 : ∀ t : Fin cfg1.N, win1_1.index t 0 = 4 * 0 + t.val ∧ win1_1.index t 1 = 0 :=
  (by decide +kernel : ∀ t : Fin grid1.N, win1_1.index t 0 = 4 * 0 + t.val ∧ win1_1.index t 1 = 0)
theorem idx1_2 : ∀ t : Fin cfg1.N, win1_2.index t 0 = 4 * 1 + t.val ∧ win1_2.index t 1 = 0 :=
  (by decide +kernel : ∀ t : Fin grid1.N, win1_2.index t 0 = 4 * 1 + t.val ∧ win1_2.index t 1 = 0)
theorem idx1_3 : ∀ t : Fin cfg1.N, win1_3.index t 0 = 4 * 2 + t.val ∧ win1_3.index t 1 = 0 :=
  (by decide +kernel : ∀ t : Fin grid1.N, win1_3.index t 0 = 4 * 2 + t.val ∧ win1_3.index t 1 = 0)
theorem idx1_4 : ∀ t : Fin cfg1.N, win1_4.index t 0 = 4 * 3 + t.val ∧ win1_4.index t 1 = 0 :=
  (by decide +kernel : ∀ t : Fin grid1.N, win1_4.index t 0 = 4 * 3 + t.val ∧ win1_4.index t 1 = 0)
theorem idx1_5 : ∀ t : Fin cfg1.N, win1_5.index t 0 = 4 * 4 + t.val ∧ win1_5.index t 1 = 0 :=
  (by decide +kernel : ∀ t : Fin grid1.N, win1_5.index t 0 = 4 * 4 + t.val ∧ win1_5.index t 1 = 0)
theorem idx1_6 : ∀ t : Fin cfg1.N, win1_6.index t 0 = 4 * 5 + t.val ∧ win1_6.index t 1 = 0 :=
  (by decide +kernel : ∀ t : Fin grid1.N, win1_6.index t 0 = 4 * 5 + t.val ∧ win1_6.index t 1 = 0)
theorem idx1_7 : ∀ t : Fin cfg1.N, win1_7.index t 0 = 4 * 6 + t.val ∧ win1_7.index t 1 = 0 :=
  (by decide +kernel : ∀ t : Fin grid1.N, win1_7.index t 0 = 4 * 6 + t.val ∧ win1_7.index t 1 = 0)
theorem idx1_8 : ∀ t : Fin cfg1.N, win1_8.index t 0 = 4 * 7 + t.val ∧ win1_8.index t 1 = 0 :=
  (by decide +kernel : ∀ t : Fin grid1.N, win1_8.index t 0 = 4 * 7 + t.val ∧ win1_8.index t 1 = 0)

/-- The gathered row's window is the whole row. -/
theorem iblk1_g (t : Fin cfg1.N) (k' : Fin 4096) : iblk1 c V 0 t (ix2 (0 : Fin 1) k') = Vg1 c V (ix2 (0 : Fin 1) k') := by
  unfold iblk1
  rw [View.read_apply]
  show V main_v5 _ = V main_v5 _
  refine congrArg (V main_v5) ?_
  funext a; apply Fin.ext
  match a with
  | ⟨0, _⟩ => show win1_0.index t 0 * 1 + 1 * 0 = 0; rw [(idx1_0 t).1]
  | ⟨1, _⟩ => show win1_0.index t 1 * 4096 + 1 * k'.val = k'.val; rw [(idx1_0 t).2]; omega

/-- The bias's window is the whole bias. -/
theorem iblk1_b (t : Fin cfg1.N) (n : Fin 4096) : iblk1 c V 9 t (ix2 (0 : Fin 1) n) = Vb1 c V (ix2 (0 : Fin 1) n) := by
  unfold iblk1
  rw [View.read_apply]
  show V main_v6 _ = V main_v6 _
  refine congrArg (V main_v6) ?_
  funext a; apply Fin.ext
  match a with
  | ⟨0, _⟩ => show win1_9.index t 0 * 1 + 1 * 0 = 0; rw [(idx1_9 t).1]
  | ⟨1, _⟩ => show win1_9.index t 1 * 4096 + 1 * n.val = n.val; rw [(idx1_9 t).2]; omega

/-- Weight window 0's block at point `t` is rows `512·0 + 128 t` onward of the weights. -/
theorem iblk1_W0 (t : Fin cfg1.N) (kt : Fin 4) (hk : t.val = kt.val) (cc : Fin 128) (n : Fin 4096) :
    iblk1 c V 1 t (ix2 cc n) = VW1 c V (ix2 (⟨512 * 0 + 128 * kt.val + cc.val, by have := kt.isLt; have := cc.isLt; omega⟩ : Fin 4096) n) := by
  unfold iblk1
  rw [View.read_apply]
  show V main_arg5 _ = V main_arg5 _
  refine congrArg (V main_arg5) ?_
  funext a; apply Fin.ext
  match a with
  | ⟨0, _⟩ => show win1_1.index t 0 * 128 + 1 * cc.val = 512 * 0 + 128 * kt.val + cc.val; rw [(idx1_1 t).1, hk]; omega
  | ⟨1, _⟩ => show win1_1.index t 1 * 4096 + 1 * n.val = n.val; rw [(idx1_1 t).2]; omega

/-- Weight window 1's block at point `t` is rows `512·1 + 128 t` onward of the weights. -/
theorem iblk1_W1 (t : Fin cfg1.N) (kt : Fin 4) (hk : t.val = kt.val) (cc : Fin 128) (n : Fin 4096) :
    iblk1 c V 2 t (ix2 cc n) = VW1 c V (ix2 (⟨512 * 1 + 128 * kt.val + cc.val, by have := kt.isLt; have := cc.isLt; omega⟩ : Fin 4096) n) := by
  unfold iblk1
  rw [View.read_apply]
  show V main_arg5 _ = V main_arg5 _
  refine congrArg (V main_arg5) ?_
  funext a; apply Fin.ext
  match a with
  | ⟨0, _⟩ => show win1_2.index t 0 * 128 + 1 * cc.val = 512 * 1 + 128 * kt.val + cc.val; rw [(idx1_2 t).1, hk]; omega
  | ⟨1, _⟩ => show win1_2.index t 1 * 4096 + 1 * n.val = n.val; rw [(idx1_2 t).2]; omega

/-- Weight window 2's block at point `t` is rows `512·2 + 128 t` onward of the weights. -/
theorem iblk1_W2 (t : Fin cfg1.N) (kt : Fin 4) (hk : t.val = kt.val) (cc : Fin 128) (n : Fin 4096) :
    iblk1 c V 3 t (ix2 cc n) = VW1 c V (ix2 (⟨512 * 2 + 128 * kt.val + cc.val, by have := kt.isLt; have := cc.isLt; omega⟩ : Fin 4096) n) := by
  unfold iblk1
  rw [View.read_apply]
  show V main_arg5 _ = V main_arg5 _
  refine congrArg (V main_arg5) ?_
  funext a; apply Fin.ext
  match a with
  | ⟨0, _⟩ => show win1_3.index t 0 * 128 + 1 * cc.val = 512 * 2 + 128 * kt.val + cc.val; rw [(idx1_3 t).1, hk]; omega
  | ⟨1, _⟩ => show win1_3.index t 1 * 4096 + 1 * n.val = n.val; rw [(idx1_3 t).2]; omega

/-- Weight window 3's block at point `t` is rows `512·3 + 128 t` onward of the weights. -/
theorem iblk1_W3 (t : Fin cfg1.N) (kt : Fin 4) (hk : t.val = kt.val) (cc : Fin 128) (n : Fin 4096) :
    iblk1 c V 4 t (ix2 cc n) = VW1 c V (ix2 (⟨512 * 3 + 128 * kt.val + cc.val, by have := kt.isLt; have := cc.isLt; omega⟩ : Fin 4096) n) := by
  unfold iblk1
  rw [View.read_apply]
  show V main_arg5 _ = V main_arg5 _
  refine congrArg (V main_arg5) ?_
  funext a; apply Fin.ext
  match a with
  | ⟨0, _⟩ => show win1_4.index t 0 * 128 + 1 * cc.val = 512 * 3 + 128 * kt.val + cc.val; rw [(idx1_4 t).1, hk]; omega
  | ⟨1, _⟩ => show win1_4.index t 1 * 4096 + 1 * n.val = n.val; rw [(idx1_4 t).2]; omega

/-- Weight window 4's block at point `t` is rows `512·4 + 128 t` onward of the weights. -/
theorem iblk1_W4 (t : Fin cfg1.N) (kt : Fin 4) (hk : t.val = kt.val) (cc : Fin 128) (n : Fin 4096) :
    iblk1 c V 5 t (ix2 cc n) = VW1 c V (ix2 (⟨512 * 4 + 128 * kt.val + cc.val, by have := kt.isLt; have := cc.isLt; omega⟩ : Fin 4096) n) := by
  unfold iblk1
  rw [View.read_apply]
  show V main_arg5 _ = V main_arg5 _
  refine congrArg (V main_arg5) ?_
  funext a; apply Fin.ext
  match a with
  | ⟨0, _⟩ => show win1_5.index t 0 * 128 + 1 * cc.val = 512 * 4 + 128 * kt.val + cc.val; rw [(idx1_5 t).1, hk]; omega
  | ⟨1, _⟩ => show win1_5.index t 1 * 4096 + 1 * n.val = n.val; rw [(idx1_5 t).2]; omega

/-- Weight window 5's block at point `t` is rows `512·5 + 128 t` onward of the weights. -/
theorem iblk1_W5 (t : Fin cfg1.N) (kt : Fin 4) (hk : t.val = kt.val) (cc : Fin 128) (n : Fin 4096) :
    iblk1 c V 6 t (ix2 cc n) = VW1 c V (ix2 (⟨512 * 5 + 128 * kt.val + cc.val, by have := kt.isLt; have := cc.isLt; omega⟩ : Fin 4096) n) := by
  unfold iblk1
  rw [View.read_apply]
  show V main_arg5 _ = V main_arg5 _
  refine congrArg (V main_arg5) ?_
  funext a; apply Fin.ext
  match a with
  | ⟨0, _⟩ => show win1_6.index t 0 * 128 + 1 * cc.val = 512 * 5 + 128 * kt.val + cc.val; rw [(idx1_6 t).1, hk]; omega
  | ⟨1, _⟩ => show win1_6.index t 1 * 4096 + 1 * n.val = n.val; rw [(idx1_6 t).2]; omega

/-- Weight window 6's block at point `t` is rows `512·6 + 128 t` onward of the weights. -/
theorem iblk1_W6 (t : Fin cfg1.N) (kt : Fin 4) (hk : t.val = kt.val) (cc : Fin 128) (n : Fin 4096) :
    iblk1 c V 7 t (ix2 cc n) = VW1 c V (ix2 (⟨512 * 6 + 128 * kt.val + cc.val, by have := kt.isLt; have := cc.isLt; omega⟩ : Fin 4096) n) := by
  unfold iblk1
  rw [View.read_apply]
  show V main_arg5 _ = V main_arg5 _
  refine congrArg (V main_arg5) ?_
  funext a; apply Fin.ext
  match a with
  | ⟨0, _⟩ => show win1_7.index t 0 * 128 + 1 * cc.val = 512 * 6 + 128 * kt.val + cc.val; rw [(idx1_7 t).1, hk]; omega
  | ⟨1, _⟩ => show win1_7.index t 1 * 4096 + 1 * n.val = n.val; rw [(idx1_7 t).2]; omega

/-- Weight window 7's block at point `t` is rows `512·7 + 128 t` onward of the weights. -/
theorem iblk1_W7 (t : Fin cfg1.N) (kt : Fin 4) (hk : t.val = kt.val) (cc : Fin 128) (n : Fin 4096) :
    iblk1 c V 8 t (ix2 cc n) = VW1 c V (ix2 (⟨512 * 7 + 128 * kt.val + cc.val, by have := kt.isLt; have := cc.isLt; omega⟩ : Fin 4096) n) := by
  unfold iblk1
  rw [View.read_apply]
  show V main_arg5 _ = V main_arg5 _
  refine congrArg (V main_arg5) ?_
  funext a; apply Fin.ext
  match a with
  | ⟨0, _⟩ => show win1_8.index t 0 * 128 + 1 * cc.val = 512 * 7 + 128 * kt.val + cc.val; rw [(idx1_8 t).1, hk]; omega
  | ⟨1, _⟩ => show win1_8.index t 1 * 4096 + 1 * n.val = n.val; rw [(idx1_8 t).2]; omega

set_option maxHeartbeats 1000000 in
/-- A point's accumulation at a column, over the arrays. -/
theorem accAt1_apply (t : Fin cfg1.N) (kt : Fin 4) (hk : t.val = kt.val) (xo : Vec Ideal S1x4096 .f32) (n : Fin 4096) :
    accAt1 c V t xo (ix2 (0 : Fin 1) n)
      = xo (ix2 (0 : Fin 1) n) + ((((((((0 + (∑ cc : Fin 128, Vg1 c V (ix2 (0 : Fin 1) ⟨512 * 0 + 128 * kt.val + cc.val, by have := kt.isLt; have := cc.isLt; omega⟩) * VW1 c V (ix2 (⟨512 * 0 + 128 * kt.val + cc.val, by have := kt.isLt; have := cc.isLt; omega⟩ : Fin 4096) n))) + (∑ cc : Fin 128, Vg1 c V (ix2 (0 : Fin 1) ⟨512 * 1 + 128 * kt.val + cc.val, by have := kt.isLt; have := cc.isLt; omega⟩) * VW1 c V (ix2 (⟨512 * 1 + 128 * kt.val + cc.val, by have := kt.isLt; have := cc.isLt; omega⟩ : Fin 4096) n))) + (∑ cc : Fin 128, Vg1 c V (ix2 (0 : Fin 1) ⟨512 * 2 + 128 * kt.val + cc.val, by have := kt.isLt; have := cc.isLt; omega⟩) * VW1 c V (ix2 (⟨512 * 2 + 128 * kt.val + cc.val, by have := kt.isLt; have := cc.isLt; omega⟩ : Fin 4096) n))) + (∑ cc : Fin 128, Vg1 c V (ix2 (0 : Fin 1) ⟨512 * 3 + 128 * kt.val + cc.val, by have := kt.isLt; have := cc.isLt; omega⟩) * VW1 c V (ix2 (⟨512 * 3 + 128 * kt.val + cc.val, by have := kt.isLt; have := cc.isLt; omega⟩ : Fin 4096) n))) + (∑ cc : Fin 128, Vg1 c V (ix2 (0 : Fin 1) ⟨512 * 4 + 128 * kt.val + cc.val, by have := kt.isLt; have := cc.isLt; omega⟩) * VW1 c V (ix2 (⟨512 * 4 + 128 * kt.val + cc.val, by have := kt.isLt; have := cc.isLt; omega⟩ : Fin 4096) n))) + (∑ cc : Fin 128, Vg1 c V (ix2 (0 : Fin 1) ⟨512 * 5 + 128 * kt.val + cc.val, by have := kt.isLt; have := cc.isLt; omega⟩) * VW1 c V (ix2 (⟨512 * 5 + 128 * kt.val + cc.val, by have := kt.isLt; have := cc.isLt; omega⟩ : Fin 4096) n))) + (∑ cc : Fin 128, Vg1 c V (ix2 (0 : Fin 1) ⟨512 * 6 + 128 * kt.val + cc.val, by have := kt.isLt; have := cc.isLt; omega⟩) * VW1 c V (ix2 (⟨512 * 6 + 128 * kt.val + cc.val, by have := kt.isLt; have := cc.isLt; omega⟩ : Fin 4096) n))) + (∑ cc : Fin 128, Vg1 c V (ix2 (0 : Fin 1) ⟨512 * 7 + 128 * kt.val + cc.val, by have := kt.isLt; have := cc.isLt; omega⟩) * VW1 c V (ix2 (⟨512 * 7 + 128 * kt.val + cc.val, by have := kt.isLt; have := cc.isLt; omega⟩ : Fin 4096) n))) := by
  unfold accAt1
  refine (acc1_apply (grid1.coords t) kt ((coords1_val t).trans hk) (iblk1 c V 0 t) (iblk1 c V 1 t) (iblk1 c V 2 t) (iblk1 c V 3 t) (iblk1 c V 4 t) (iblk1 c V 5 t) (iblk1 c V 6 t) (iblk1 c V 7 t) (iblk1 c V 8 t) xo n).trans ?_
  simp only [iblk1_g c V t, iblk1_W0 c V t kt hk, iblk1_W1 c V t kt hk, iblk1_W2 c V t kt hk, iblk1_W3 c V t kt hk, iblk1_W4 c V t kt hk, iblk1_W5 c V t kt hk, iblk1_W6 c V t kt hk, iblk1_W7 c V t kt hk]

set_option maxHeartbeats 2000000 in
/-- THE LAYER: after the last point the accumulator at column `n` is the bias plus the gathered row times the weights' column. -/
theorem chain1_apply (n : Fin 4096) :
    chain1 c V t1_3.val t1_3.isLt (ix2 (0 : Fin 1) n)
      = Vb1 c V (ix2 (0 : Fin 1) n) + ∑ k' : Fin 4096, Vg1 c V (ix2 (0 : Fin 1) k') * VW1 c V (ix2 k' n) := by
  have hN : cfg1.N = 4 := N_1
  show accAt1 c V ⟨3, by omega⟩ (accAt1 c V ⟨2, by omega⟩ (accAt1 c V ⟨1, by omega⟩ (accAt1 c V ⟨0, by omega⟩ (k1_pay3 (iblk1 c V 9 ⟨0, by omega⟩))))) (ix2 (0 : Fin 1) n) = _
  rw [accAt1_apply c V ⟨3, by omega⟩ 3 rfl, accAt1_apply c V ⟨2, by omega⟩ 2 rfl, accAt1_apply c V ⟨1, by omega⟩ 1 rfl, accAt1_apply c V ⟨0, by omega⟩ 0 rfl]
  have hb : k1_pay3 (iblk1 c V 9 ⟨0, by omega⟩) (ix2 (0 : Fin 1) n) = Vb1 c V (ix2 (0 : Fin 1) n) := by
    unfold k1_pay3; rw [shapeCast_self]; exact iblk1_b c V _ n
  rw [hb]
  exact layer_sum (fun k' : Fin 4096 => Vg1 c V (ix2 (0 : Fin 1) k') * VW1 c V (ix2 k' n)) (Vb1 c V (ix2 (0 : Fin 1) n))
    (fun (k : Fin 4) (r : Fin 8) => ∑ cc : Fin 128, Vg1 c V (ix2 (0 : Fin 1) ⟨512 * r.val + 128 * k.val + cc.val, by have := r.isLt; have := k.isLt; have := cc.isLt; omega⟩) * VW1 c V (ix2 (⟨512 * r.val + 128 * k.val + cc.val, by have := r.isLt; have := k.isLt; have := cc.isLt; omega⟩ : Fin 4096) n))
    (fun k r => rfl)

end Layer

end Cert.Proof.KI.Gemv1

end
-- ==== Proof.Gemv3Val.lean ====
import proofs.«208418_g89945205112833_cont_sun_c4_809_35_alg».proof.Proof.Gemv3Outs
import Idealize.ShloMosaic.Lib.Pipeline.Value

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## What each control case leaves in the output block, as a term of the blocks it reads

The body adds to the output block the eight partial products of the point — the gathered row's 128-wide slices against
the eight weight blocks, accumulated from zero in window order —, after storing the bias there at the first point and
before applying tanh in place at the last. -/

theorem hz3 : (![0, 0] : Fin 2 → Nat) = fun _ => 0 := funext fun a => by fin_cases a <;> rfl

/-- The block after a point's accumulation: what it held (`xo`) plus the point's eight partial products. -/
def acc3 (i : grid3.Coords) (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xo : Vec F S1x4096 .f32) : Vec F S1x4096 .f32 :=
  k3_pay1 (k3_pay5 (k3_pay4 (View.ld xg (Rect.unit (s := S1x4096) (k3_off1 i 0#32) S1x128.size (k3_off1_inb i 0))) xw0 (View.ld xg (Rect.unit (s := S1x4096) (k3_off1 i 512#32) S1x128.size (k3_off1_inb i 1))) xw1 (View.ld xg (Rect.unit (s := S1x4096) (k3_off1 i 1024#32) S1x128.size (k3_off1_inb i 2))) xw2) (View.ld xg (Rect.unit (s := S1x4096) (k3_off1 i 1536#32) S1x128.size (k3_off1_inb i 3))) xw3 (View.ld xg (Rect.unit (s := S1x4096) (k3_off1 i 2048#32) S1x128.size (k3_off1_inb i 4))) xw4 (View.ld xg (Rect.unit (s := S1x4096) (k3_off1 i 2560#32) S1x128.size (k3_off1_inb i 5))) xw5) (k3_pay6 (View.ld xg (Rect.unit (s := S1x4096) (k3_off1 i 3072#32) S1x128.size (k3_off1_inb i 6))) xw6) (View.ld xg (Rect.unit (s := S1x4096) (k3_off1 i 3584#32) S1x128.size (k3_off1_inb i 7))) xw7 xo

set_option maxHeartbeats 1000000 in
/-- A middle point: the accumulation over what the block held. -/
theorem out3_B_eq (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    out3_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo
      = acc3 i xg xw0 xw1 xw2 xw3 xw4 xw5 xw6 xw7 xo := by
  unfold out3_B acc3
  rw [View.read_writes_eq_canon _ _ _ (cover3_B 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo)]
  unfold kernelRun3_B
  dsimp only
  sl_unfold_words
  rw [View.canon_unit_zero hz3]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz3, View.ld_unit_zero (S := S1x4096) hz3]

set_option maxHeartbeats 1000000 in
/-- The first point: the accumulation over the bias. -/
theorem out3_A_eq (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond3_0 i) (hc1 : ¬cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    out3_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb
      = acc3 i xg xw0 xw1 xw2 xw3 xw4 xw5 xw6 xw7 (k3_pay3 xb) := by
  unfold out3_A acc3
  rw [View.read_writes_eq_canon _ _ _ (cover3_A 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb)]
  unfold kernelRun3_A
  dsimp only
  sl_unfold_words
  rw [View.canon_cons_unit_zero (S := S1x4096) hz3, View.readCov_unit_zero (S := S1x4096) _ hz3]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz3, View.ld_unit_zero (S := S1x4096) hz3]

set_option maxHeartbeats 1000000 in
/-- The last point: tanh of the accumulation over what the block held. -/
theorem out3_C_eq (𝒱₀ : Variants) (c : Dev nD) (i : grid3.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond3_0 i) (hc1 : cond3_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    out3_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo
      = k3_pay2 (acc3 i xg xw0 xw1 xw2 xw3 xw4 xw5 xw6 xw7 xo) := by
  unfold out3_C acc3
  rw [View.read_writes_eq_canon _ _ _ (cover3_C 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo)]
  unfold kernelRun3_C
  dsimp only
  sl_unfold_words
  rw [View.canon_cons_unit_zero (S := S1x4096) hz3, View.readCov_unit_zero (S := S1x4096) _ hz3]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz3, View.ld_unit_zero (S := S1x4096) hz3]

end Cert.Proof.KI.Gemv1

end
-- ==== Proof.Gemv3Chain.lean ====
import proofs.«208418_g89945205112833_cont_sun_c4_809_35_alg».proof.Proof.Gemv3Val

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The output block after each point, in closed form -/

section Chain
variable (𝒱₀ : Variants) (c : Dev nD) (V : (b : Ref sig .tc) → Buf (Elt F) ((c.tc : Thread nD τ).loc b))

/-- A point's accumulation over what the block held, at the windows' blocks there. -/
def accAt3 (t : Fin cfg3.N) (xo : Vec F S1x4096 .f32) : Vec F S1x4096 .f32 :=
  acc3 (grid3.coords t) (iblk3 c V 0 t) (iblk3 c V 1 t) (iblk3 c V 2 t) (iblk3 c V 3 t) (iblk3 c V 4 t) (iblk3 c V 5 t) (iblk3 c V 6 t) (iblk3 c V 7 t) (iblk3 c V 8 t) xo

/-- The running accumulator after point `n`: the bias, then each point's eight partial products in point order. -/
def chain3 : (n : ℕ) → n < cfg3.N → Vec F S1x4096 .f32
  | 0, h => accAt3 c V ⟨0, h⟩ (k3_pay3 (iblk3 c V 9 ⟨0, h⟩))
  | n + 1, h => accAt3 c V ⟨n + 1, h⟩ (chain3 n (Nat.lt_of_succ_lt h))

set_option maxHeartbeats 1000000 in
/-- What the output's staging buffer holds after point `n` is the running accumulator, under tanh at the last point. -/
theorem outsAt3_eq : ∀ (n : ℕ) (h : n < cfg3.N),
    outsAt3 (Name := Name) (U := U) 𝒱₀ c V n h = if n % 4 = 3 then k3_pay2 (chain3 c V n h) else chain3 c V n h
  | 0, h => by
    rw [if_neg (by decide)]
    exact (outsAt3_A 𝒱₀ c V ⟨0, h⟩ rfl).trans (out3_A_eq ..)
  | n + 1, h => by
    have hN : cfg3.N = 4 := N_3
    have h0 : ¬(⟨n + 1, h⟩ : Fin cfg3.N).val % 4 = 0 := by dsimp only; omega
    have ih := outsAt3_eq n (Nat.lt_of_succ_lt h)
    rw [if_neg (by omega)] at ih
    by_cases h3 : (n + 1) % 4 = 3
    · rw [if_pos h3, outsAt3_C 𝒱₀ c V ⟨n + 1, h⟩ h0 h3, out3_C_eq]
      show k3_pay2 (accAt3 c V ⟨n + 1, h⟩ (outsAt3 (Name := Name) (U := U) 𝒱₀ c V n _)) = k3_pay2 (accAt3 c V ⟨n + 1, h⟩ (chain3 c V n _))
      rw [ih]
    · rw [if_neg h3, outsAt3_B 𝒱₀ c V ⟨n + 1, h⟩ h0 h3, out3_B_eq]
      show accAt3 c V ⟨n + 1, h⟩ (outsAt3 (Name := Name) (U := U) 𝒱₀ c V n _) = accAt3 c V ⟨n + 1, h⟩ (chain3 c V n _)
      rw [ih]

end Chain

end Cert.Proof.KI.Gemv1

end
-- ==== Proof.GemvIdeal3.lean ====
import proofs.«208418_g89945205112833_cont_sun_c4_809_35_alg».proof.Proof.Gemv3Chain
import proofs.«208418_g89945205112833_cont_sun_c4_809_35_alg».proof.Proof.GemvIdealLib
import proofs.«208418_g89945205112833_cont_sun_c4_809_35_alg».proof.Proof.GemvSums

set_option maxRecDepth 16384

noncomputable section

namespace Cert.Proof.KI.Gemv1

open Idealize.ShloMosaic Idealize.ShloMosaic.TcCoe Idealize.ShloMosaic.ValueIdx
open Idealize.SL.Sem
open Cert.KernelIdeal Cert.KernelIdeal.Gen
open scoped BigOperators

/-! ## One layer's accumulation at the ideal values, read at a column -/

/-- The zero the accumulation starts from. -/
theorem ofBits0_3 : (FloatOps.ofBits (F := Ideal) .f32 0x00000000#32) = (0 : EReal) := Ideal.ofBits_zero_f32

/-- The gathered row's slice for window 0 at the point with coordinate `kt`: its element `c` is row `0 + 128 kt + c`. -/
theorem ld_g3_0 (i : grid3.Coords) (kt : Fin 4) (hk : (i 0).val = kt.val) (xg : Vec Ideal S1x4096 .f32) (c : Fin 128) :
    View.ld xg (Rect.unit (s := S1x4096) (k3_off1 i 0#32) S1x128.size (k3_off1_inb i 0)) (ix2 (0 : Fin 1) c)
      = xg (ix2 (0 : Fin 1) ⟨512 * 0 + 128 * kt.val + c.val, by have := kt.isLt; have := c.isLt; omega⟩) := by
  show xg ((Rect.unit (s := S1x4096) (k3_off1 i 0#32) S1x128.size (k3_off1_inb i 0)).idx (ix2 (0 : Fin 1) c)) = _
  refine congrArg xg ?_
  have he : k3_off1 i 0#32 = ![0, 512 * 0 + 128 * (i 0).val] := k3_off1_eq i 0
  funext a; apply Fin.ext
  show (k3_off1 i 0#32) a + 1 * ((ix2 (0 : Fin 1) c) a).val = _
  rw [he]
  match a with
  | ⟨0, _⟩ => show 0 + 1 * 0 = 0; rfl
  | ⟨1, _⟩ => show (512 * 0 + 128 * (i 0).val) + 1 * c.val = 512 * 0 + 128 * kt.val + c.val; rw [hk]; omega

/-- The gathered row's slice for window 1 at the point with coordinate `kt`: its element `c` is row `512 + 128 kt + c`. -/
theorem ld_g3_1 (i : grid3.Coords) (kt : Fin 4) (hk : (i 0).val = kt.val) (xg : Vec Ideal S1x4096 .f32) (c : Fin 128) :
    View.ld xg (Rect.unit (s := S1x4096) (k3_off1 i 512#32) S1x128.size (k3_off1_inb i 1)) (ix2 (0 : Fin 1) c)
      = xg (ix2 (0 : Fin 1) ⟨512 * 1 + 128 * kt.val + c.val, by have := kt.isLt; have := c.isLt; omega⟩) := by
  show xg ((Rect.unit (s := S1x4096) (k3_off1 i 512#32) S1x128.size (k3_off1_inb i 1)).idx (ix2 (0 : Fin 1) c)) = _
  refine congrArg xg ?_
  have he : k3_off1 i 512#32 = ![0, 512 * 1 + 128 * (i 0).val] := k3_off1_eq i 1
  funext a; apply Fin.ext
  show (k3_off1 i 512#32) a + 1 * ((ix2 (0 : Fin 1) c) a).val = _
  rw [he]
  match a with
  | ⟨0, _⟩ => show 0 + 1 * 0 = 0; rfl
  | ⟨1, _⟩ => show (512 * 1 + 128 * (i 0).val) + 1 * c.val = 512 * 1 + 128 * kt.val + c.val; rw [hk]; omega

/-- The gathered row's slice for window 2 at the point with coordinate `kt`: its element `c` is row `1024 + 128 kt + c`. -/
theorem ld_g3_2 (i : grid3.Coords) (kt : Fin 4) (hk : (i 0).val = kt.val) (xg : Vec Ideal S1x4096 .f32) (c : Fin 128) :
    View.ld xg (Rect.unit (s := S1x4096) (k3_off1 i 1024#32) S1x128.size (k3_off1_inb i 2)) (ix2 (0 : Fin 1) c)
      = xg (ix2 (0 : Fin 1) ⟨512 * 2 + 128 * kt.val + c.val, by have := kt.isLt; have := c.isLt; omega⟩) := by
  show xg ((Rect.unit (s := S1x4096) (k3_off1 i 1024#32) S1x128.size (k3_off1_inb i 2)).idx (ix2 (0 : Fin 1) c)) = _
  refine congrArg xg ?_
  have he : k3_off1 i 1024#32 = ![0, 512 * 2 + 128 * (i 0).val] := k3_off1_eq i 2
  funext a; apply Fin.ext
  show (k3_off1 i 1024#32) a + 1 * ((ix2 (0 : Fin 1) c) a).val = _
  rw [he]
  match a with
  | ⟨0, _⟩ => show 0 + 1 * 0 = 0; rfl
  | ⟨1, _⟩ => show (512 * 2 + 128 * (i 0).val) + 1 * c.val = 512 * 2 + 128 * kt.val + c.val; rw [hk]; omega

/-- The gathered row's slice for window 3 at the point with coordinate `kt`: its element `c` is row `1536 + 128 kt + c`. -/
theorem ld_g3_3 (i : grid3.Coords) (kt : Fin 4) (hk : (i 0).val = kt.val) (xg : Vec Ideal S1x4096 .f32) (c : Fin 128) :
    View.ld xg (Rect.unit (s := S1x4096) (k3_off1 i 1536#32) S1x128.size (k3_off1_inb i 3)) (ix2 (0 : Fin 1) c)
      = xg (ix2 (0 : Fin 1) ⟨512 * 3 + 128 * kt.val + c.val, by have := kt.isLt; have := c.isLt; omega⟩) := by
  show xg ((Rect.unit (s := S1x4096) (k3_off1 i 1536#32) S1x128.size (k3_off1_inb i 3)).idx (ix2 (0 : Fin 1) c)) = _
  refine congrArg xg ?_
  have he : k3_off1 i 1536#32 = ![0, 512 * 3 + 128 * (i 0).val] := k3_off1_eq i 3
  funext a; apply Fin.ext
  show (k3_off1 i 1536#32) a + 1 * ((ix2 (0 : Fin 1) c) a).val = _
  rw [he]
  match a with
  | ⟨0, _⟩ => show 0 + 1 * 0 = 0; rfl
  | ⟨1, _⟩ => show (512 * 3 + 128 * (i 0).val) + 1 * c.val = 512 * 3 + 128 * kt.val + c.val; rw [hk]; omega

/-- The gathered row's slice for window 4 at the point with coordinate `kt`: its element `c` is row `2048 + 128 kt + c`. -/
theorem ld_g3_4 (i : grid3.Coords) (kt : Fin 4) (hk : (i 0).val = kt.val) (xg : Vec Ideal S1x4096 .f32) (c : Fin 128) :
    View.ld xg (Rect.unit (s := S1x4096) (k3_off1 i 2048#32) S1x128.size (k3_off1_inb i 4)) (ix2 (0 : Fin 1) c)
      = xg (ix2 (0 : Fin 1) ⟨512 * 4 + 128 * kt.val + c.val, by have := kt.isLt; have := c.isLt; omega⟩) := by
  show xg ((Rect.unit (s := S1x4096) (k3_off1 i 2048#32) S1x128.size (k3_off1_inb i 4)).idx (ix2 (0 : Fin 1) c)) = _
  refine congrArg xg ?_
  have he : k3_off1 i 2048#32 = ![0, 512 * 4 + 128 * (i 0).val] := k3_off1_eq i 4
  funext a; apply Fin.ext
  show (k3_off1 i 2048#32) a + 1 * ((ix2 (0 : Fin 1) c) a).val = _
  rw [he]
  match a with
  | ⟨0, _⟩ => show 0 + 1 * 0 = 0; rfl
  | ⟨1, _⟩ => show (512 * 4 + 128 * (i 0).val) + 1 * c.val = 512 * 4 + 128 * kt.val + c.val; rw [hk]; omega

/-- The gathered row's slice for window 5 at the point with coordinate `kt`: its element `c` is row `2560 + 128 kt + c`. -/
theorem ld_g3_5 (i : grid3.Coords) (kt : Fin 4) (hk : (i 0).val = kt.val) (xg : Vec Ideal S1x4096 .f32) (c : Fin 128) :
    View.ld xg (Rect.unit (s := S1x4096) (k3_off1 i 2560#32) S1x128.size (k3_off1_inb i 5)) (ix2 (0 : Fin 1) c)
      = xg (ix2 (0 : Fin 1) ⟨512 * 5 + 128 * kt.val + c.val, by have := kt.isLt; have := c.isLt; omega⟩) := by
  show xg ((Rect.unit (s := S1x4096) (k3_off1 i 2560#32) S1x128.size (k3_off1_inb i 5)).idx (ix2 (0 : Fin 1) c)) = _
  refine congrArg xg ?_
  have he : k3_off1 i 2560#32 = ![0, 512 * 5 + 128 * (i 0).val] := k3_off1_eq i 5
  funext a; apply Fin.ext
  show (k3_off1 i 2560#32) a + 1 * ((ix2 (0 : Fin 1) c) a).val = _
  rw [he]
  match a with
  | ⟨0, _⟩ => show 0 + 1 * 0 = 0; rfl
  | ⟨1, _⟩ => show (512 * 5 + 128 * (i 0).val) + 1 * c.val = 512 * 5 + 128 * kt.val + c.val; rw [hk]; omega

/-- The gathered row's slice for window 6 at the point with coordinate `kt`: its element `c` is row `3072 + 128 kt + c`. -/
theorem ld_g3_6 (i : grid3.Coords) (kt : Fin 4) (hk : (i 0).val = kt.val) (xg : Vec Ideal S1x4096 .f32) (c : Fin 128) :
    View.ld xg (Rect.unit (s := S1x4096) (k3_off1 i 3072#32) S1x128.size (k3_off1_inb i 6)) (ix2 (0 : Fin 1) c)
      = xg (ix2 (0 : Fin 1) ⟨512 * 6 + 128 * kt.val + c.val, by have := kt.isLt; have := c.isLt; omega⟩) := by
  show xg ((Rect.unit (s := S1x4096) (k3_off1 i 3072#32) S1x128.size (k3_off1_inb i 6)).idx (ix2 (0 : Fin 1) c)) = _
  refine congrArg xg ?_
  have he : k3_off1 i 3072#32 = ![0, 512 * 6 + 128 * (i 0).val] := k3_off1_eq i 6
  funext a; apply Fin.ext
  show (k3_off1 i 3072#32) a + 1 * ((ix2 (0 : Fin 1) c) a).val = _
  rw [he]
  match a with
  | ⟨0, _⟩ => show 0 + 1 * 0 = 0; rfl
  | ⟨1, _⟩ => show (512 * 6 + 128 * (i 0).val) + 1 * c.val = 512 * 6 + 128 * kt.val + c.val; rw [hk]; omega

/-- The gathered row's slice for window 7 at the point with coordinate `kt`: its element `c` is row `3584 + 128 kt + c`. -/
theorem ld_g3_7 (i : grid3.Coords) (kt : Fin 4) (hk : (i 0).val = kt.val) (xg : Vec Ideal S1x4096 .f32) (c : Fin 128) :
    View.ld xg (Rect.unit (s := S1x4096) (k3_off1 i 3584#32) S1x128.size (k3_off1_inb i 7)) (ix2 (0 : Fin 1) c)
      = xg (ix2 (0 : Fin 1) ⟨512 * 7 + 128 * kt.val + c.val, by have := kt.isLt; have := c.isLt; omega⟩) := by
  show xg ((Rect.unit (s := S1x4096) (k3_off1 i 3584#32) S1x128.size (k3_off1_inb i 7)).idx (ix2 (0 : Fin 1) c)) = _
  refine congrArg xg ?_
  have he : k3_off1 i 3584#32 = ![0, 512 * 7 + 128 * (i 0).val] := k3_off1_eq i 7
  funext a; apply Fin.ext
  show (k3_off1 i 3584#32) a + 1 * ((ix2 (0 : Fin 1) c) a).val = _
  rw [he]
  match a with
  | ⟨0, _⟩ => show 0 + 1 * 0 = 0; rfl
  | ⟨1, _⟩ => show (512 * 7 + 128 * (i 0).val) + 1 * c.val = 512 * 7 + 128 * kt.val + c.val; rw [hk]; omega

set_option maxHeartbeats 1000000 in
/-- A point's accumulation at column `n`: what the block held plus the eight windows' partial sums, added from zero in
    window order. -/
theorem acc3_apply (i : grid3.Coords) (kt : Fin 4) (hk : (i 0).val = kt.val) (xg : Vec Ideal S1x4096 .f32)
    (xw0 : Vec Ideal S128x4096 .f32) (xw1 : Vec Ideal S128x4096 .f32) (xw2 : Vec Ideal S128x4096 .f32) (xw3 : Vec Ideal S128x4096 .f32) (xw4 : Vec Ideal S128x4096 .f32) (xw5 : Vec Ideal S128x4096 .f32) (xw6 : Vec Ideal S128x4096 .f32) (xw7 : Vec Ideal S128x4096 .f32) (xo : Vec Ideal S1x4096 .f32) (n : Fin 4096) :
    acc3 i xg xw0 xw1 xw2 xw3 xw4 xw5 xw6 xw7 xo (ix2 (0 : Fin 1) n)
      = xo (ix2 (0 : Fin 1) n) + ((((((((0 + (∑ c : Fin 128, xg (ix2 (0 : Fin 1) ⟨512 * 0 + 128 * kt.val + c.val, by have := kt.isLt; have := c.isLt; omega⟩) * xw0 (ix2 c n))) + (∑ c : Fin 128, xg (ix2 (0 : Fin 1) ⟨512 * 1 + 128 * kt.val + c.val, by have := kt.isLt; have := c.isLt; omega⟩) * xw1 (ix2 c n))) + (∑ c : Fin 128, xg (ix2 (0 : Fin 1) ⟨512 * 2 + 128 * kt.val + c.val, by have := kt.isLt; have := c.isLt; omega⟩) * xw2 (ix2 c n))) + (∑ c : Fin 128, xg (ix2 (0 : Fin 1) ⟨512 * 3 + 128 * kt.val + c.val, by have := kt.isLt; have := c.isLt; omega⟩) * xw3 (ix2 c n))) + (∑ c : Fin 128, xg (ix2 (0 : Fin 1) ⟨512 * 4 + 128 * kt.val + c.val, by have := kt.isLt; have := c.isLt; omega⟩) * xw4 (ix2 c n))) + (∑ c : Fin 128, xg (ix2 (0 : Fin 1) ⟨512 * 5 + 128 * kt.val + c.val, by have := kt.isLt; have := c.isLt; omega⟩) * xw5 (ix2 c n))) + (∑ c : Fin 128, xg (ix2 (0 : Fin 1) ⟨512 * 6 + 128 * kt.val + c.val, by have := kt.isLt; have := c.isLt; omega⟩) * xw6 (ix2 c n))) + (∑ c : Fin 128, xg (ix2 (0 : Fin 1) ⟨512 * 7 + 128 * kt.val + c.val, by have := kt.isLt; have := c.isLt; omega⟩) * xw7 (ix2 c n))) := by
  unfold acc3 k3_pay1 k3_pay5 k3_pay4 k3_pay6
  simp only [addf_apply, shapeCast_self, ofBits0_3, matmul_blk4096_apply, truncf_apply, broadcast_apply]
  have e0 : ∀ w : Vec Ideal S128x4096 .f32, (∑ c : Fin 128, View.ld xg (Rect.unit (s := S1x4096) (k3_off1 i 0#32) S1x128.size (k3_off1_inb i 0)) (ix2 (0 : Fin 1) c) * w (ix2 c n))
      = ∑ c : Fin 128, xg (ix2 (0 : Fin 1) ⟨512 * 0 + 128 * kt.val + c.val, by have := kt.isLt; have := c.isLt; omega⟩) * w (ix2 c n) :=
    fun w => Finset.sum_congr rfl fun c _ => by rw [ld_g3_0 i kt hk xg c]
  have e1 : ∀ w : Vec Ideal S128x4096 .f32, (∑ c : Fin 128, View.ld xg (Rect.unit (s := S1x4096) (k3_off1 i 512#32) S1x128.size (k3_off1_inb i 1)) (ix2 (0 : Fin 1) c) * w (ix2 c n))
      = ∑ c : Fin 128, xg (ix2 (0 : Fin 1) ⟨512 * 1 + 128 * kt.val + c.val, by have := kt.isLt; have := c.isLt; omega⟩) * w (ix2 c n) :=
    fun w => Finset.sum_congr rfl fun c _ => by rw [ld_g3_1 i kt hk xg c]
  have e2 : ∀ w : Vec Ideal S128x4096 .f32, (∑ c : Fin 128, View.ld xg (Rect.unit (s := S1x4096) (k3_off1 i 1024#32) S1x128.size (k3_off1_inb i 2)) (ix2 (0 : Fin 1) c) * w (ix2 c n))
      = ∑ c : Fin 128, xg (ix2 (0 : Fin 1) ⟨512 * 2 + 128 * kt.val + c.val, by have := kt.isLt; have := c.isLt; omega⟩) * w (ix2 c n) :=
    fun w => Finset.sum_congr rfl fun c _ => by rw [ld_g3_2 i kt hk xg c]
  have e3 : ∀ w : Vec Ideal S128x4096 .f32, (∑ c : Fin 128, View.ld xg (Rect.unit (s := S1x4096) (k3_off1 i 1536#32) S1x128.size (k3_off1_inb i 3)) (ix2 (0 : Fin 1) c) * w (ix2 c n))
      = ∑ c : Fin 128, xg (ix2 (0 : Fin 1) ⟨512 * 3 + 128 * kt.val + c.val, by have := kt.isLt; have := c.isLt; omega⟩) * w (ix2 c n) :=
    fun w => Finset.sum_congr rfl fun c _ => by rw [ld_g3_3 i kt hk xg c]
  have e4 : ∀ w : Vec Ideal S128x4096 .f32, (∑ c : Fin 128, View.ld xg (Rect.unit (s := S1x4096) (k3_off1 i 2048#32) S1x128.size (k3_off1_inb i 4)) (ix2 (0 : Fin 1) c) * w (ix2 c n))
      = ∑ c : Fin 128, xg (ix2 (0 : Fin 1) ⟨512 * 4 + 128 * kt.val + c.val, by have := kt.isLt; have := c.isLt; omega⟩) * w (ix2 c n) :=
    fun w => Finset.sum_congr rfl fun c _ => by rw [ld_g3_4 i kt hk xg c]
  have e5 : ∀ w : Vec Ideal S128x4096 .f32, (∑ c : Fin 128, View.ld xg (Rect.unit (s := S1x4096) (k3_off1 i 2560#32) S1x128.size (k3_off1_inb i 5)) (ix2 (0 : Fin 1) c) * w (ix2 c n))
      = ∑ c : Fin 128, xg (ix2 (0 : Fin 1) ⟨512 * 5 + 128 * kt.val + c.val, by have := kt.isLt; have := c.isLt; omega⟩) * w (ix2 c n) :=
    fun w => Finset.sum_congr rfl fun c _ => by rw [ld_g3_5 i kt hk xg c]
  have e6 : ∀ w : Vec Ideal S128x4096 .f32, (∑ c : Fin 128, View.ld xg (Rect.unit (s := S1x4096) (k3_off1 i 3072#32) S1x128.size (k3_off1_inb i 6)) (ix2 (0 : Fin 1) c) * w (ix2 c n))
      = ∑ c : Fin 128, xg (ix2 (0 : Fin 1) ⟨512 * 6 + 128 * kt.val + c.val, by have := kt.isLt; have := c.isLt; omega⟩) * w (ix2 c n) :=
    fun w => Finset.sum_congr rfl fun c _ => by rw [ld_g3_6 i kt hk xg c]
  have e7 : ∀ w : Vec Ideal S128x4096 .f32, (∑ c : Fin 128, View.ld xg (Rect.unit (s := S1x4096) (k3_off1 i 3584#32) S1x128.size (k3_off1_inb i 7)) (ix2 (0 : Fin 1) c) * w (ix2 c n))
      = ∑ c : Fin 128, xg (ix2 (0 : Fin 1) ⟨512 * 7 + 128 * kt.val + c.val, by have := kt.isLt; have := c.isLt; omega⟩) * w (ix2 c n) :=
    fun w => Finset.sum_congr rfl fun c _ => by rw [ld_g3_7 i kt hk xg c]
  rw [e0 xw0, e1 xw1, e2 xw2, e3 xw3, e4 xw4, e5 xw5, e6 xw6, e7 xw7]

/-! ## The windows' blocks as parts of the arrays -/

section Layer
variable (c : Dev nD) (V : (b : Ref sig .tc) → Buf (Elt Ideal) ((c.tc : Thread nD τ).loc b))

/-- The arrays the layer reads, as vectors of extended reals. -/
abbrev Vg3 : FVec Ideal S1x4096 .f32 := V main_v10
abbrev VW3 : FVec Ideal S4096x4096 .f32 := V main_arg6
abbrev Vb3 : FVec Ideal S1x4096 .f32 := V main_v11

/-- The grid's one coordinate is the point's position. -/
theorem coords3_val : ∀ t : Fin cfg3.N, (grid3.coords t 0).val = t.val :=
  (by decide +kernel : ∀ t : Fin grid3.N, (grid3.coords t 0).val = t.val)

theorem idx3_0 : ∀ t : Fin cfg3.N, win3_0.index t 0 = 0 ∧ win3_0.index t 1 = 0 :=
  (by decide +kernel : ∀ t : Fin grid3.N, win3_0.index t 0 = 0 ∧ win3_0.index t 1 = 0)
theorem idx3_9 : ∀ t : Fin cfg3.N, win3_9.index t 0 = 0 ∧ win3_9.index t 1 = 0 :=
  (by decide +kernel : ∀ t : Fin grid3.N, win3_9.index t 0 = 0 ∧ win3_9.index t 1 = 0)
theorem idx3_1 : ∀ t : Fin cfg3.N, win3_1.index t 0 = 4 * 0 + t.val ∧ win3_1.index t 1 = 0 :=
  (by decide +kernel : ∀ t : Fin grid3.N, win3_1.index t 0 = 4 * 0 + t.val ∧ win3_1.index t 1 = 0)
theorem idx3_2 : ∀ t : Fin cfg3.N, win3_2.index t 0 = 4 * 1 + t.val ∧ win3_2.index t 1 = 0 :=
  (by decide +kernel : ∀ t : Fin grid3.N, win3_2.index t 0 = 4 * 1 + t.val ∧ win3_2.index t 1 = 0)
theorem idx3_3 : ∀ t : Fin cfg3.N, win3_3.index t 0 = 4 * 2 + t.val ∧ win3_3.index t 1 = 0 :=
  (by decide +kernel : ∀ t : Fin grid3.N, win3_3.index t 0 = 4 * 2 + t.val ∧ win3_3.index t 1 = 0)
theorem idx3_4 : ∀ t : Fin cfg3.N, win3_4.index t 0 = 4 * 3 + t.val ∧ win3_4.index t 1 = 0 :=
  (by decide +kernel : ∀ t : Fin grid3.N, win3_4.index t 0 = 4 * 3 + t.val ∧ win3_4.index t 1 = 0)
theorem idx3_5 : ∀ t : Fin cfg3.N, win3_5.index t 0 = 4 * 4 + t.val ∧ win3_5.index t 1 = 0 :=
  (by decide +kernel : ∀ t : Fin grid3.N, win3_5.index t 0 = 4 * 4 + t.val ∧ win3_5.index t 1 = 0)
theorem idx3_6 : ∀ t : Fin cfg3.N, win3_6.index t 0 = 4 * 5 + t.val ∧ win3_6.index t 1 = 0 :=
  (by decide +kernel : ∀ t : Fin grid3.N, win3_6.index t 0 = 4 * 5 + t.val ∧ win3_6.index t 1 = 0)
theorem idx3_7 : ∀ t : Fin cfg3.N, win3_7.index t 0 = 4 * 6 + t.val ∧ win3_7.index t 1 = 0 :=
  (by decide +kernel : ∀ t : Fin grid3.N, win3_7.index t 0 = 4 * 6 + t.val ∧ win3_7.index t 1 = 0)
theorem idx3_8 : ∀ t : Fin cfg3.N, win3_8.index t 0 = 4 * 7 + t.val ∧ win3_8.index t 1 = 0 :=
  (by decide +kernel : ∀ t : Fin grid3.N, win3_8.index t 0 = 4 * 7 + t.val ∧ win3_8.index t 1 = 0)

/-- The gathered row's window is the whole row. -/
theorem iblk3_g (t : Fin cfg3.N) (k' : Fin 4096) : iblk3 c V 0 t (ix2 (0 : Fin 1) k') = Vg3 c V (ix2 (0 : Fin 1) k') := by
  unfold iblk3
  rw [View.read_apply]
  show V main_v10 _ = V main_v10 _
  refine congrArg (V main_v10) ?_
  funext a; apply Fin.ext
  match a with
  | ⟨0, _⟩ => show win3_0.index t 0 * 1 + 1 * 0 = 0; rw [(idx3_0 t).1]
  | ⟨1, _⟩ => show win3_0.index t 1 * 4096 + 1 * k'.val = k'.val; rw [(idx3_0 t).2]; omega

/-- The bias's window is the whole bias. -/
theorem iblk3_b (t : Fin cfg3.N) (n : Fin 4096) : iblk3 c V 9 t (ix2 (0 : Fin 1) n) = Vb3 c V (ix2 (0 : Fin 1) n) := by
  unfold iblk3
  rw [View.read_apply]
  show V main_v11 _ = V main_v11 _
  refine congrArg (V main_v11) ?_
  funext a; apply Fin.ext
  match a with
  | ⟨0, _⟩ => show win3_9.index t 0 * 1 + 1 * 0 = 0; rw [(idx3_9 t).1]
  | ⟨1, _⟩ => show win3_9.index t 1 * 4096 + 1 * n.val = n.val; rw [(idx3_9 t).2]; omega

/-- Weight window 0's block at point `t` is rows `512·0 + 128 t` onward of the weights. -/
theorem iblk3_W0 (t : Fin cfg3.N) (kt : Fin 4) (hk : t.val = kt.val) (cc : Fin 128) (n : Fin 4096) :
    iblk3 c V 1 t (ix2 cc n) = VW3 c V (ix2 (⟨512 * 0 + 128 * kt.val + cc.val, by have := kt.isLt; have := cc.isLt; omega⟩ : Fin 4096) n) := by
  unfold iblk3
  rw [View.read_apply]
  show V main_arg6 _ = V main_arg6 _
  refine congrArg (V main_arg6) ?_
  funext a; apply Fin.ext
  match a with
  | ⟨0, _⟩ => show win3_1.index t 0 * 128 + 1 * cc.val = 512 * 0 + 128 * kt.val + cc.val; rw [(idx3_1 t).1, hk]; omega
  | ⟨1, _⟩ => show win3_1.index t 1 * 4096 + 1 * n.val = n.val; rw [(idx3_1 t).2]; omega

/-- Weight window 1's block at point `t` is rows `512·1 + 128 t` onward of the weights. -/
theorem iblk3_W1 (t : Fin cfg3.N) (kt : Fin 4) (hk : t.val = kt.val) (cc : Fin 128) (n : Fin 4096) :
    iblk3 c V 2 t (ix2 cc n) = VW3 c V (ix2 (⟨512 * 1 + 128 * kt.val + cc.val, by have := kt.isLt; have := cc.isLt; omega⟩ : Fin 4096) n) := by
  unfold iblk3
  rw [View.read_apply]
  show V main_arg6 _ = V main_arg6 _
  refine congrArg (V main_arg6) ?_
  funext a; apply Fin.ext
  match a with
  | ⟨0, _⟩ => show win3_2.index t 0 * 128 + 1 * cc.val = 512 * 1 + 128 * kt.val + cc.val; rw [(idx3_2 t).1, hk]; omega
  | ⟨1, _⟩ => show win3_2.index t 1 * 4096 + 1 * n.val = n.val; rw [(idx3_2 t).2]; omega

/-- Weight window 2's block at point `t` is rows `512·2 + 128 t` onward of the weights. -/
theorem iblk3_W2 (t : Fin cfg3.N) (kt : Fin 4) (hk : t.val = kt.val) (cc : Fin 128) (n : Fin 4096) :
    iblk3 c V 3 t (ix2 cc n) = VW3 c V (ix2 (⟨512 * 2 + 128 * kt.val + cc.val, by have := kt.isLt; have := cc.isLt; omega⟩ : Fin 4096) n) := by
  unfold iblk3
  rw [View.read_apply]
  show V main_arg6 _ = V main_arg6 _
  refine congrArg (V main_arg6) ?_
  funext a; apply Fin.ext
  match a with
  | ⟨0, _⟩ => show win3_3.index t 0 * 128 + 1 * cc.val = 512 * 2 + 128 * kt.val + cc.val; rw [(idx3_3 t).1, hk]; omega
  | ⟨1, _⟩ => show win3_3.index t 1 * 4096 + 1 * n.val = n.val; rw [(idx3_3 t).2]; omega

/-- Weight window 3's block at point `t` is rows `512·3 + 128 t` onward of the weights. -/
theorem iblk3_W3 (t : Fin cfg3.N) (kt : Fin 4) (hk : t.val = kt.val) (cc : Fin 128) (n : Fin 4096) :
    iblk3 c V 4 t (ix2 cc n) = VW3 c V (ix2 (⟨512 * 3 + 128 * kt.val + cc.val, by have := kt.isLt; have := cc.isLt; omega⟩ : Fin 4096) n) := by
  unfold iblk3
  rw [View.read_apply]
  show V main_arg6 _ = V main_arg6 _
  refine congrArg (V main_arg6) ?_
  funext a; apply Fin.ext
  match a with
  | ⟨0, _⟩ => show win3_4.index t 0 * 128 + 1 * cc.val = 512 * 3 + 128 * kt.val + cc.val; rw [(idx3_4 t).1, hk]; omega
  | ⟨1, _⟩ => show win3_4.index t 1 * 4096 + 1 * n.val = n.val; rw [(idx3_4 t).2]; omega

/-- Weight window 4's block at point `t` is rows `512·4 + 128 t` onward of the weights. -/
theorem iblk3_W4 (t : Fin cfg3.N) (kt : Fin 4) (hk : t.val = kt.val) (cc : Fin 128) (n : Fin 4096) :
    iblk3 c V 5 t (ix2 cc n) = VW3 c V (ix2 (⟨512 * 4 + 128 * kt.val + cc.val, by have := kt.isLt; have := cc.isLt; omega⟩ : Fin 4096) n) := by
  unfold iblk3
  rw [View.read_apply]
  show V main_arg6 _ = V main_arg6 _
  refine congrArg (V main_arg6) ?_
  funext a; apply Fin.ext
  match a with
  | ⟨0, _⟩ => show win3_5.index t 0 * 128 + 1 * cc.val = 512 * 4 + 128 * kt.val + cc.val; rw [(idx3_5 t).1, hk]; omega
  | ⟨1, _⟩ => show win3_5.index t 1 * 4096 + 1 * n.val = n.val; rw [(idx3_5 t).2]; omega

/-- Weight window 5's block at point `t` is rows `512·5 + 128 t` onward of the weights. -/
theorem iblk3_W5 (t : Fin cfg3.N) (kt : Fin 4) (hk : t.val = kt.val) (cc : Fin 128) (n : Fin 4096) :
    iblk3 c V 6 t (ix2 cc n) = VW3 c V (ix2 (⟨512 * 5 + 128 * kt.val + cc.val, by have := kt.isLt; have := cc.isLt; omega⟩ : Fin 4096) n) := by
  unfold iblk3
  rw [View.read_apply]
  show V main_arg6 _ = V main_arg6 _
  refine congrArg (V main_arg6) ?_
  funext a; apply Fin.ext
  match a with
  | ⟨0, _⟩ => show win3_6.index t 0 * 128 + 1 * cc.val = 512 * 5 + 128 * kt.val + cc.val; rw [(idx3_6 t).1, hk]; omega
  | ⟨1, _⟩ => show win3_6.index t 1 * 4096 + 1 * n.val = n.val; rw [(idx3_6 t).2]; omega

/-- Weight window 6's block at point `t` is rows `512·6 + 128 t` onward of the weights. -/
theorem iblk3_W6 (t : Fin cfg3.N) (kt : Fin 4) (hk : t.val = kt.val) (cc : Fin 128) (n : Fin 4096) :
    iblk3 c V 7 t (ix2 cc n) = VW3 c V (ix2 (⟨512 * 6 + 128 * kt.val + cc.val, by have := kt.isLt; have := cc.isLt; omega⟩ : Fin 4096) n) := by
  unfold iblk3
  rw [View.read_apply]
  show V main_arg6 _ = V main_arg6 _
  refine congrArg (V main_arg6) ?_
  funext a; apply Fin.ext
  match a with
  | ⟨0, _⟩ => show win3_7.index t 0 * 128 + 1 * cc.val = 512 * 6 + 128 * kt.val + cc.val; rw [(idx3_7 t).1, hk]; omega
  | ⟨1, _⟩ => show win3_7.index t 1 * 4096 + 1 * n.val = n.val; rw [(idx3_7 t).2]; omega

/-- Weight window 7's block at point `t` is rows `512·7 + 128 t` onward of the weights. -/
theorem iblk3_W7 (t : Fin cfg3.N) (kt : Fin 4) (hk : t.val = kt.val) (cc : Fin 128) (n : Fin 4096) :
    iblk3 c V 8 t (ix2 cc n) = VW3 c V (ix2 (⟨512 * 7 + 128 * kt.val + cc.val, by have := kt.isLt; have := cc.isLt; omega⟩ : Fin 4096) n) := by
  unfold iblk3
  rw [View.read_apply]
  show V main_arg6 _ = V main_arg6 _
  refine congrArg (V main_arg6) ?_
  funext a; apply Fin.ext
  match a with
  | ⟨0, _⟩ => show win3_8.index t 0 * 128 + 1 * cc.val = 512 * 7 + 128 * kt.val + cc.val; rw [(idx3_8 t).1, hk]; omega
  | ⟨1, _⟩ => show win3_8.index t 1 * 4096 + 1 * n.val = n.val; rw [(idx3_8 t).2]; omega

set_option maxHeartbeats 1000000 in
/-- A point's accumulation at a column, over the arrays. -/
theorem accAt3_apply (t : Fin cfg3.N) (kt : Fin 4) (hk : t.val = kt.val) (xo : Vec Ideal S1x4096 .f32) (n : Fin 4096) :
    accAt3 c V t xo (ix2 (0 : Fin 1) n)
      = xo (ix2 (0 : Fin 1) n) + ((((((((0 + (∑ cc : Fin 128, Vg3 c V (ix2 (0 : Fin 1) ⟨512 * 0 + 128 * kt.val + cc.val, by have := kt.isLt; have := cc.isLt; omega⟩) * VW3 c V (ix2 (⟨512 * 0 + 128 * kt.val + cc.val, by have := kt.isLt; have := cc.isLt; omega⟩ : Fin 4096) n))) + (∑ cc : Fin 128, Vg3 c V (ix2 (0 : Fin 1) ⟨512 * 1 + 128 * kt.val + cc.val, by have := kt.isLt; have := cc.isLt; omega⟩) * VW3 c V (ix2 (⟨512 * 1 + 128 * kt.val + cc.val, by have := kt.isLt; have := cc.isLt; omega⟩ : Fin 4096) n))) + (∑ cc : Fin 128, Vg3 c V (ix2 (0 : Fin 1) ⟨512 * 2 + 128 * kt.val + cc.val, by have := kt.isLt; have := cc.isLt; omega⟩) * VW3 c V (ix2 (⟨512 * 2 + 128 * kt.val + cc.val, by have := kt.isLt; have := cc.isLt; omega⟩ : Fin 4096) n))) + (∑ cc : Fin 128, Vg3 c V (ix2 (0 : Fin 1) ⟨512 * 3 + 128 * kt.val + cc.val, by have := kt.isLt; have := cc.isLt; omega⟩) * VW3 c V (ix2 (⟨512 * 3 + 128 * kt.val + cc.val, by have := kt.isLt; have := cc.isLt; omega⟩ : Fin 4096) n))) + (∑ cc : Fin 128, Vg3 c V (ix2 (0 : Fin 1) ⟨512 * 4 + 128 * kt.val + cc.val, by have := kt.isLt; have := cc.isLt; omega⟩) * VW3 c V (ix2 (⟨512 * 4 + 128 * kt.val + cc.val, by have := kt.isLt; have := cc.isLt; omega⟩ : Fin 4096) n))) + (∑ cc : Fin 128, Vg3 c V (ix2 (0 : Fin 1) ⟨512 * 5 + 128 * kt.val + cc.val, by have := kt.isLt; have := cc.isLt; omega⟩) * VW3 c V (ix2 (⟨512 * 5 + 128 * kt.val + cc.val, by have := kt.isLt; have := cc.isLt; omega⟩ : Fin 4096) n))) + (∑ cc : Fin 128, Vg3 c V (ix2 (0 : Fin 1) ⟨512 * 6 + 128 * kt.val + cc.val, by have := kt.isLt; have := cc.isLt; omega⟩) * VW3 c V (ix2 (⟨512 * 6 + 128 * kt.val + cc.val, by have := kt.isLt; have := cc.isLt; omega⟩ : Fin 4096) n))) + (∑ cc : Fin 128, Vg3 c V (ix2 (0 : Fin 1) ⟨512 * 7 + 128 * kt.val + cc.val, by have := kt.isLt; have := cc.isLt; omega⟩) * VW3 c V (ix2 (⟨512 * 7 + 128 * kt.val + cc.val, by have := kt.isLt; have := cc.isLt; omega⟩ : Fin 4096) n))) := by
  unfold accAt3
  refine (acc3_apply (grid3.coords t) kt ((coords3_val t).trans hk) (iblk3 c V 0 t) (iblk3 c V 1 t) (iblk3 c V 2 t) (iblk3 c V 3 t) (iblk3 c V 4 t) (iblk3 c V 5 t) (iblk3 c V 6 t) (iblk3 c V 7 t) (iblk3 c V 8 t) xo n).trans ?_
  simp only [iblk3_g c V t, iblk3_W0 c V t kt hk, iblk3_W1 c V t kt hk, iblk3_W2 c V t kt hk, iblk3_W3 c V t kt hk, iblk3_W4 c V t kt hk, iblk3_W5 c V t kt hk, iblk3_W6 c V t kt hk, iblk3_W7 c V t kt hk]

set_option maxHeartbeats 2000000 in
/-- THE LAYER: after the last point the accumulator at column `n` is the bias plus the gathered row times the weights' column. -/
theorem chain3_apply (n : Fin 4096) :
    chain3 c V t3_3.val t3_3.isLt (ix2 (0 : Fin 1) n)
      = Vb3 c V (ix2 (0 : Fin 1) n) + ∑ k' : Fin 4096, Vg3 c V (ix2 (0 : Fin 1) k') * VW3 c V (ix2 k' n) := by
  have hN : cfg3.N = 4 := N_3
  show accAt3 c V ⟨3, by omega⟩ (accAt3 c V ⟨2, by omega⟩ (accAt3 c V ⟨1, by omega⟩ (accAt3 c V ⟨0, by omega⟩ (k3_pay3 (iblk3 c V 9 ⟨0, by omega⟩))))) (ix2 (0 : Fin 1) n) = _
  rw [accAt3_apply c V ⟨3, by omega⟩ 3 rfl, accAt3_apply c V ⟨2, by omega⟩ 2 rfl, accAt3_apply c V ⟨1, by omega⟩ 1 rfl, accAt3_apply c V ⟨0, by omega⟩ 0 rfl]
  have hb : k3_pay3 (iblk3 c V 9 ⟨0, by omega⟩) (ix2 (0 : Fin 1) n) = Vb3 c V (ix2 (0 : Fin 1) n) := by
    unfold k3_pay3; rw [shapeCast_self]; exact iblk3_b c V _ n
  rw [hb]
  exact layer_sum (fun k' : Fin 4096 => Vg3 c V (ix2 (0 : Fin 1) k') * VW3 c V (ix2 k' n)) (Vb3 c V (ix2 (0 : Fin 1) n))
    (fun (k : Fin 4) (r : Fin 8) => ∑ cc : Fin 128, Vg3 c V (ix2 (0 : Fin 1) ⟨512 * r.val + 128 * k.val + cc.val, by have := r.isLt; have := k.isLt; have := cc.isLt; omega⟩) * VW3 c V (ix2 (⟨512 * r.val + 128 * k.val + cc.val, by have := r.isLt; have := k.isLt; have := cc.isLt; omega⟩ : Fin 4096) n))
    (fun k r => rfl)

end Layer

end Cert.Proof.KI.Gemv1

end
-- ==== Proof.Gemv5Val.lean ====
import proofs.«208418_g89945205112833_cont_sun_c4_809_35_alg».proof.Proof.Gemv5Outs
import Idealize.ShloMosaic.Lib.Pipeline.Value

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## What each control case leaves in the output block, as a term of the blocks it reads

The body adds to the output block the eight partial products of the point — the gathered row's 128-wide slices against
the eight weight blocks, accumulated from zero in window order —, after storing the bias there at the first point and
before applying tanh in place at the last. -/

theorem hz5 : (![0, 0] : Fin 2 → Nat) = fun _ => 0 := funext fun a => by fin_cases a <;> rfl

/-- The block after a point's accumulation: what it held (`xo`) plus the point's eight partial products. -/
def acc5 (i : grid5.Coords) (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xo : Vec F S1x4096 .f32) : Vec F S1x4096 .f32 :=
  k5_pay1 (k5_pay5 (k5_pay4 (View.ld xg (Rect.unit (s := S1x4096) (k5_off1 i 0#32) S1x128.size (k5_off1_inb i 0))) xw0 (View.ld xg (Rect.unit (s := S1x4096) (k5_off1 i 512#32) S1x128.size (k5_off1_inb i 1))) xw1 (View.ld xg (Rect.unit (s := S1x4096) (k5_off1 i 1024#32) S1x128.size (k5_off1_inb i 2))) xw2) (View.ld xg (Rect.unit (s := S1x4096) (k5_off1 i 1536#32) S1x128.size (k5_off1_inb i 3))) xw3 (View.ld xg (Rect.unit (s := S1x4096) (k5_off1 i 2048#32) S1x128.size (k5_off1_inb i 4))) xw4 (View.ld xg (Rect.unit (s := S1x4096) (k5_off1 i 2560#32) S1x128.size (k5_off1_inb i 5))) xw5) (k5_pay6 (View.ld xg (Rect.unit (s := S1x4096) (k5_off1 i 3072#32) S1x128.size (k5_off1_inb i 6))) xw6) (View.ld xg (Rect.unit (s := S1x4096) (k5_off1 i 3584#32) S1x128.size (k5_off1_inb i 7))) xw7 xo

set_option maxHeartbeats 1000000 in
/-- A middle point: the accumulation over what the block held. -/
theorem out5_B_eq (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    out5_B (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo
      = acc5 i xg xw0 xw1 xw2 xw3 xw4 xw5 xw6 xw7 xo := by
  unfold out5_B acc5
  rw [View.read_writes_eq_canon _ _ _ (cover5_B 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo)]
  unfold kernelRun5_B
  dsimp only
  sl_unfold_words
  rw [View.canon_unit_zero hz5]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz5, View.ld_unit_zero (S := S1x4096) hz5]

set_option maxHeartbeats 1000000 in
/-- The first point: the accumulation over the bias. -/
theorem out5_A_eq (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : cond5_0 i) (hc1 : ¬cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) :
    out5_A (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb
      = acc5 i xg xw0 xw1 xw2 xw3 xw4 xw5 xw6 xw7 (k5_pay3 xb) := by
  unfold out5_A acc5
  rw [View.read_writes_eq_canon _ _ _ (cover5_A 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb)]
  unfold kernelRun5_A
  dsimp only
  sl_unfold_words
  rw [View.canon_cons_unit_zero (S := S1x4096) hz5, View.readCov_unit_zero (S := S1x4096) _ hz5]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz5, View.ld_unit_zero (S := S1x4096) hz5]

set_option maxHeartbeats 1000000 in
/-- The last point: tanh of the accumulation over what the block held. -/
theorem out5_C_eq (𝒱₀ : Variants) (c : Dev nD) (i : grid5.Coords) (arg1 : Memref sig .tc .hbm S1x16384 .f32) (harg1 : arg1.IsWhole) (a0 : Memref sig .tc .vmem S1x4096 .f32) (ha0 : a0.IsWhole) (a1 : Memref sig .tc .vmem S128x4096 .f32) (ha1 : a1.IsWhole) (a2 : Memref sig .tc .vmem S128x4096 .f32) (ha2 : a2.IsWhole) (a3 : Memref sig .tc .vmem S128x4096 .f32) (ha3 : a3.IsWhole) (a4 : Memref sig .tc .vmem S128x4096 .f32) (ha4 : a4.IsWhole) (a5 : Memref sig .tc .vmem S128x4096 .f32) (ha5 : a5.IsWhole) (a6 : Memref sig .tc .vmem S128x4096 .f32) (ha6 : a6.IsWhole) (a7 : Memref sig .tc .vmem S128x4096 .f32) (ha7 : a7.IsWhole) (a8 : Memref sig .tc .vmem S128x4096 .f32) (ha8 : a8.IsWhole) (a9 : Memref sig .tc .vmem S1x4096 .f32) (ha9 : a9.IsWhole) (a10 : Memref sig .tc .vmem S1x4096 .f32) (ha10 : a10.IsWhole) (hc0 : ¬cond5_0 i) (hc1 : cond5_1 i)
    (xg : Vec F S1x4096 .f32) (xw0 : Vec F S128x4096 .f32) (xw1 : Vec F S128x4096 .f32) (xw2 : Vec F S128x4096 .f32) (xw3 : Vec F S128x4096 .f32) (xw4 : Vec F S128x4096 .f32) (xw5 : Vec F S128x4096 .f32) (xw6 : Vec F S128x4096 .f32) (xw7 : Vec F S128x4096 .f32) (xb : Vec F S1x4096 .f32) (xo : Vec F S1x4096 .f32) :
    out5_C (Name := Name) (U := U) 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo
      = k5_pay2 (acc5 i xg xw0 xw1 xw2 xw3 xw4 xw5 xw6 xw7 xo) := by
  unfold out5_C acc5
  rw [View.read_writes_eq_canon _ _ _ (cover5_C 𝒱₀ c i arg1 harg1 a0 ha0 a1 ha1 a2 ha2 a3 ha3 a4 ha4 a5 ha5 a6 ha6 a7 ha7 a8 ha8 a9 ha9 a10 ha10 hc0 hc1 xg xw0 xw1 xw2 xw3 xw4 xw5 xw6 xw7 xb xo)]
  unfold kernelRun5_C
  dsimp only
  sl_unfold_words
  rw [View.canon_cons_unit_zero (S := S1x4096) hz5, View.readCov_unit_zero (S := S1x4096) _ hz5]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x4096) hz5, View.ld_unit_zero (S := S1x4096) hz5]

end Cert.Proof.KI.Gemv1

end
-- ==== Proof.Gemv5Chain.lean ====
import proofs.«208418_g89945205112833_cont_sun_c4_809_35_alg».proof.Proof.Gemv5Val

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The output block after each point, in closed form -/

section Chain
variable (𝒱₀ : Variants) (c : Dev nD) (V : (b : Ref sig .tc) → Buf (Elt F) ((c.tc : Thread nD τ).loc b))

/-- A point's accumulation over what the block held, at the windows' blocks there. -/
def accAt5 (t : Fin cfg5.N) (xo : Vec F S1x4096 .f32) : Vec F S1x4096 .f32 :=
  acc5 (grid5.coords t) (iblk5 c V 0 t) (iblk5 c V 1 t) (iblk5 c V 2 t) (iblk5 c V 3 t) (iblk5 c V 4 t) (iblk5 c V 5 t) (iblk5 c V 6 t) (iblk5 c V 7 t) (iblk5 c V 8 t) xo

/-- The running accumulator after point `n`: the bias, then each point's eight partial products in point order. -/
def chain5 : (n : ℕ) → n < cfg5.N → Vec F S1x4096 .f32
  | 0, h => accAt5 c V ⟨0, h⟩ (k5_pay3 (iblk5 c V 9 ⟨0, h⟩))
  | n + 1, h => accAt5 c V ⟨n + 1, h⟩ (chain5 n (Nat.lt_of_succ_lt h))

set_option maxHeartbeats 1000000 in
/-- What the output's staging buffer holds after point `n` is the running accumulator, under tanh at the last point. -/
theorem outsAt5_eq : ∀ (n : ℕ) (h : n < cfg5.N),
    outsAt5 (Name := Name) (U := U) 𝒱₀ c V n h = if n % 4 = 3 then k5_pay2 (chain5 c V n h) else chain5 c V n h
  | 0, h => by
    rw [if_neg (by decide)]
    exact (outsAt5_A 𝒱₀ c V ⟨0, h⟩ rfl).trans (out5_A_eq ..)
  | n + 1, h => by
    have hN : cfg5.N = 4 := N_5
    have h0 : ¬(⟨n + 1, h⟩ : Fin cfg5.N).val % 4 = 0 := by dsimp only; omega
    have ih := outsAt5_eq n (Nat.lt_of_succ_lt h)
    rw [if_neg (by omega)] at ih
    by_cases h3 : (n + 1) % 4 = 3
    · rw [if_pos h3, outsAt5_C 𝒱₀ c V ⟨n + 1, h⟩ h0 h3, out5_C_eq]
      show k5_pay2 (accAt5 c V ⟨n + 1, h⟩ (outsAt5 (Name := Name) (U := U) 𝒱₀ c V n _)) = k5_pay2 (accAt5 c V ⟨n + 1, h⟩ (chain5 c V n _))
      rw [ih]
    · rw [if_neg h3, outsAt5_B 𝒱₀ c V ⟨n + 1, h⟩ h0 h3, out5_B_eq]
      show accAt5 c V ⟨n + 1, h⟩ (outsAt5 (Name := Name) (U := U) 𝒱₀ c V n _) = accAt5 c V ⟨n + 1, h⟩ (chain5 c V n _)
      rw [ih]

end Chain

end Cert.Proof.KI.Gemv1

end
-- ==== Proof.GemvIdeal5.lean ====
import proofs.«208418_g89945205112833_cont_sun_c4_809_35_alg».proof.Proof.Gemv5Chain
import proofs.«208418_g89945205112833_cont_sun_c4_809_35_alg».proof.Proof.GemvIdealLib
import proofs.«208418_g89945205112833_cont_sun_c4_809_35_alg».proof.Proof.GemvSums

set_option maxRecDepth 16384

noncomputable section

namespace Cert.Proof.KI.Gemv1

open Idealize.ShloMosaic Idealize.ShloMosaic.TcCoe Idealize.ShloMosaic.ValueIdx
open Idealize.SL.Sem
open Cert.KernelIdeal Cert.KernelIdeal.Gen
open scoped BigOperators

/-! ## One layer's accumulation at the ideal values, read at a column -/

/-- The zero the accumulation starts from. -/
theorem ofBits0_5 : (FloatOps.ofBits (F := Ideal) .f32 0x00000000#32) = (0 : EReal) := Ideal.ofBits_zero_f32

/-- The gathered row's slice for window 0 at the point with coordinate `kt`: its element `c` is row `0 + 128 kt + c`. -/
theorem ld_g5_0 (i : grid5.Coords) (kt : Fin 4) (hk : (i 0).val = kt.val) (xg : Vec Ideal S1x4096 .f32) (c : Fin 128) :
    View.ld xg (Rect.unit (s := S1x4096) (k5_off1 i 0#32) S1x128.size (k5_off1_inb i 0)) (ix2 (0 : Fin 1) c)
      = xg (ix2 (0 : Fin 1) ⟨512 * 0 + 128 * kt.val + c.val, by have := kt.isLt; have := c.isLt; omega⟩) := by
  show xg ((Rect.unit (s := S1x4096) (k5_off1 i 0#32) S1x128.size (k5_off1_inb i 0)).idx (ix2 (0 : Fin 1) c)) = _
  refine congrArg xg ?_
  have he : k5_off1 i 0#32 = ![0, 512 * 0 + 128 * (i 0).val] := k5_off1_eq i 0
  funext a; apply Fin.ext
  show (k5_off1 i 0#32) a + 1 * ((ix2 (0 : Fin 1) c) a).val = _
  rw [he]
  match a with
  | ⟨0, _⟩ => show 0 + 1 * 0 = 0; rfl
  | ⟨1, _⟩ => show (512 * 0 + 128 * (i 0).val) + 1 * c.val = 512 * 0 + 128 * kt.val + c.val; rw [hk]; omega

/-- The gathered row's slice for window 1 at the point with coordinate `kt`: its element `c` is row `512 + 128 kt + c`. -/
theorem ld_g5_1 (i : grid5.Coords) (kt : Fin 4) (hk : (i 0).val = kt.val) (xg : Vec Ideal S1x4096 .f32) (c : Fin 128) :
    View.ld xg (Rect.unit (s := S1x4096) (k5_off1 i 512#32) S1x128.size (k5_off1_inb i 1)) (ix2 (0 : Fin 1) c)
      = xg (ix2 (0 : Fin 1) ⟨512 * 1 + 128 * kt.val + c.val, by have := kt.isLt; have := c.isLt; omega⟩) := by
  show xg ((Rect.unit (s := S1x4096) (k5_off1 i 512#32) S1x128.size (k5_off1_inb i 1)).idx (ix2 (0 : Fin 1) c)) = _
  refine congrArg xg ?_
  have he : k5_off1 i 512#32 = ![0, 512 * 1 + 128 * (i 0).val] := k5_off1_eq i 1
  funext a; apply Fin.ext
  show (k5_off1 i 512#32) a + 1 * ((ix2 (0 : Fin 1) c) a).val = _
  rw [he]
  match a with
  | ⟨0, _⟩ => show 0 + 1 * 0 = 0; rfl
  | ⟨1, _⟩ => show (512 * 1 + 128 * (i 0).val) + 1 * c.val = 512 * 1 + 128 * kt.val + c.val; rw [hk]; omega

/-- The gathered row's slice for window 2 at the point with coordinate `kt`: its element `c` is row `1024 + 128 kt + c`. -/
theorem ld_g5_2 (i : grid5.Coords) (kt : Fin 4) (hk : (i 0).val = kt.val) (xg : Vec Ideal S1x4096 .f32) (c : Fin 128) :
    View.ld xg (Rect.unit (s := S1x4096) (k5_off1 i 1024#32) S1x128.size (k5_off1_inb i 2)) (ix2 (0 : Fin 1) c)
      = xg (ix2 (0 : Fin 1) ⟨512 * 2 + 128 * kt.val + c.val, by have := kt.isLt; have := c.isLt; omega⟩) := by
  show xg ((Rect.unit (s := S1x4096) (k5_off1 i 1024#32) S1x128.size (k5_off1_inb i 2)).idx (ix2 (0 : Fin 1) c)) = _
  refine congrArg xg ?_
  have he : k5_off1 i 1024#32 = ![0, 512 * 2 + 128 * (i 0).val] := k5_off1_eq i 2
  funext a; apply Fin.ext
  show (k5_off1 i 1024#32) a + 1 * ((ix2 (0 : Fin 1) c) a).val = _
  rw [he]
  match a with
  | ⟨0, _⟩ => show 0 + 1 * 0 = 0; rfl
  | ⟨1, _⟩ => show (512 * 2 + 128 * (i 0).val) + 1 * c.val = 512 * 2 + 128 * kt.val + c.val; rw [hk]; omega

/-- The gathered row's slice for window 3 at the point with coordinate `kt`: its element `c` is row `1536 + 128 kt + c`. -/
theorem ld_g5_3 (i : grid5.Coords) (kt : Fin 4) (hk : (i 0).val = kt.val) (xg : Vec Ideal S1x4096 .f32) (c : Fin 128) :
    View.ld xg (Rect.unit (s := S1x4096) (k5_off1 i 1536#32) S1x128.size (k5_off1_inb i 3)) (ix2 (0 : Fin 1) c)
      = xg (ix2 (0 : Fin 1) ⟨512 * 3 + 128 * kt.val + c.val, by have := kt.isLt; have := c.isLt; omega⟩) := by
  show xg ((Rect.unit (s := S1x4096) (k5_off1 i 1536#32) S1x128.size (k5_off1_inb i 3)).idx (ix2 (0 : Fin 1) c)) = _
  refine congrArg xg ?_
  have he : k5_off1 i 1536#32 = ![0, 512 * 3 + 128 * (i 0).val] := k5_off1_eq i 3
  funext a; apply Fin.ext
  show (k5_off1 i 1536#32) a + 1 * ((ix2 (0 : Fin 1) c) a).val = _
  rw [he]
  match a with
  | ⟨0, _⟩ => show 0 + 1 * 0 = 0; rfl
  | ⟨1, _⟩ => show (512 * 3 + 128 * (i 0).val) + 1 * c.val = 512 * 3 + 128 * kt.val + c.val; rw [hk]; omega

/-- The gathered row's slice for window 4 at the point with coordinate `kt`: its element `c` is row `2048 + 128 kt + c`. -/
theorem ld_g5_4 (i : grid5.Coords) (kt : Fin 4) (hk : (i 0).val = kt.val) (xg : Vec Ideal S1x4096 .f32) (c : Fin 128) :
    View.ld xg (Rect.unit (s := S1x4096) (k5_off1 i 2048#32) S1x128.size (k5_off1_inb i 4)) (ix2 (0 : Fin 1) c)
      = xg (ix2 (0 : Fin 1) ⟨512 * 4 + 128 * kt.val + c.val, by have := kt.isLt; have := c.isLt; omega⟩) := by
  show xg ((Rect.unit (s := S1x4096) (k5_off1 i 2048#32) S1x128.size (k5_off1_inb i 4)).idx (ix2 (0 : Fin 1) c)) = _
  refine congrArg xg ?_
  have he : k5_off1 i 2048#32 = ![0, 512 * 4 + 128 * (i 0).val] := k5_off1_eq i 4
  funext a; apply Fin.ext
  show (k5_off1 i 2048#32) a + 1 * ((ix2 (0 : Fin 1) c) a).val = _
  rw [he]
  match a with
  | ⟨0, _⟩ => show 0 + 1 * 0 = 0; rfl
  | ⟨1, _⟩ => show (512 * 4 + 128 * (i 0).val) + 1 * c.val = 512 * 4 + 128 * kt.val + c.val; rw [hk]; omega

/-- The gathered row's slice for window 5 at the point with coordinate `kt`: its element `c` is row `2560 + 128 kt + c`. -/
theorem ld_g5_5 (i : grid5.Coords) (kt : Fin 4) (hk : (i 0).val = kt.val) (xg : Vec Ideal S1x4096 .f32) (c : Fin 128) :
    View.ld xg (Rect.unit (s := S1x4096) (k5_off1 i 2560#32) S1x128.size (k5_off1_inb i 5)) (ix2 (0 : Fin 1) c)
      = xg (ix2 (0 : Fin 1) ⟨512 * 5 + 128 * kt.val + c.val, by have := kt.isLt; have := c.isLt; omega⟩) := by
  show xg ((Rect.unit (s := S1x4096) (k5_off1 i 2560#32) S1x128.size (k5_off1_inb i 5)).idx (ix2 (0 : Fin 1) c)) = _
  refine congrArg xg ?_
  have he : k5_off1 i 2560#32 = ![0, 512 * 5 + 128 * (i 0).val] := k5_off1_eq i 5
  funext a; apply Fin.ext
  show (k5_off1 i 2560#32) a + 1 * ((ix2 (0 : Fin 1) c) a).val = _
  rw [he]
  match a with
  | ⟨0, _⟩ => show 0 + 1 * 0 = 0; rfl
  | ⟨1, _⟩ => show (512 * 5 + 128 * (i 0).val) + 1 * c.val = 512 * 5 + 128 * kt.val + c.val; rw [hk]; omega

/-- The gathered row's slice for window 6 at the point with coordinate `kt`: its element `c` is row `3072 + 128 kt + c`. -/
theorem ld_g5_6 (i : grid5.Coords) (kt : Fin 4) (hk : (i 0).val = kt.val) (xg : Vec Ideal S1x4096 .f32) (c : Fin 128) :
    View.ld xg (Rect.unit (s := S1x4096) (k5_off1 i 3072#32) S1x128.size (k5_off1_inb i 6)) (ix2 (0 : Fin 1) c)
      = xg (ix2 (0 : Fin 1) ⟨512 * 6 + 128 * kt.val + c.val, by have := kt.isLt; have := c.isLt; omega⟩) := by
  show xg ((Rect.unit (s := S1x4096) (k5_off1 i 3072#32) S1x128.size (k5_off1_inb i 6)).idx (ix2 (0 : Fin 1) c)) = _
  refine congrArg xg ?_
  have he : k5_off1 i 3072#32 = ![0, 512 * 6 + 128 * (i 0).val] := k5_off1_eq i 6
  funext a; apply Fin.ext
  show (k5_off1 i 3072#32) a + 1 * ((ix2 (0 : Fin 1) c) a).val = _
  rw [he]
  match a with
  | ⟨0, _⟩ => show 0 + 1 * 0 = 0; rfl
  | ⟨1, _⟩ => show (512 * 6 + 128 * (i 0).val) + 1 * c.val = 512 * 6 + 128 * kt.val + c.val; rw [hk]; omega

/-- The gathered row's slice for window 7 at the point with coordinate `kt`: its element `c` is row `3584 + 128 kt + c`. -/
theorem ld_g5_7 (i : grid5.Coords) (kt : Fin 4) (hk : (i 0).val = kt.val) (xg : Vec Ideal S1x4096 .f32) (c : Fin 128) :
    View.ld xg (Rect.unit (s := S1x4096) (k5_off1 i 3584#32) S1x128.size (k5_off1_inb i 7)) (ix2 (0 : Fin 1) c)
      = xg (ix2 (0 : Fin 1) ⟨512 * 7 + 128 * kt.val + c.val, by have := kt.isLt; have := c.isLt; omega⟩) := by
  show xg ((Rect.unit (s := S1x4096) (k5_off1 i 3584#32) S1x128.size (k5_off1_inb i 7)).idx (ix2 (0 : Fin 1) c)) = _
  refine congrArg xg ?_
  have he : k5_off1 i 3584#32 = ![0, 512 * 7 + 128 * (i 0).val] := k5_off1_eq i 7
  funext a; apply Fin.ext
  show (k5_off1 i 3584#32) a + 1 * ((ix2 (0 : Fin 1) c) a).val = _
  rw [he]
  match a with
  | ⟨0, _⟩ => show 0 + 1 * 0 = 0; rfl
  | ⟨1, _⟩ => show (512 * 7 + 128 * (i 0).val) + 1 * c.val = 512 * 7 + 128 * kt.val + c.val; rw [hk]; omega

set_option maxHeartbeats 1000000 in
/-- A point's accumulation at column `n`: what the block held plus the eight windows' partial sums, added from zero in
    window order. -/
theorem acc5_apply (i : grid5.Coords) (kt : Fin 4) (hk : (i 0).val = kt.val) (xg : Vec Ideal S1x4096 .f32)
    (xw0 : Vec Ideal S128x4096 .f32) (xw1 : Vec Ideal S128x4096 .f32) (xw2 : Vec Ideal S128x4096 .f32) (xw3 : Vec Ideal S128x4096 .f32) (xw4 : Vec Ideal S128x4096 .f32) (xw5 : Vec Ideal S128x4096 .f32) (xw6 : Vec Ideal S128x4096 .f32) (xw7 : Vec Ideal S128x4096 .f32) (xo : Vec Ideal S1x4096 .f32) (n : Fin 4096) :
    acc5 i xg xw0 xw1 xw2 xw3 xw4 xw5 xw6 xw7 xo (ix2 (0 : Fin 1) n)
      = xo (ix2 (0 : Fin 1) n) + ((((((((0 + (∑ c : Fin 128, xg (ix2 (0 : Fin 1) ⟨512 * 0 + 128 * kt.val + c.val, by have := kt.isLt; have := c.isLt; omega⟩) * xw0 (ix2 c n))) + (∑ c : Fin 128, xg (ix2 (0 : Fin 1) ⟨512 * 1 + 128 * kt.val + c.val, by have := kt.isLt; have := c.isLt; omega⟩) * xw1 (ix2 c n))) + (∑ c : Fin 128, xg (ix2 (0 : Fin 1) ⟨512 * 2 + 128 * kt.val + c.val, by have := kt.isLt; have := c.isLt; omega⟩) * xw2 (ix2 c n))) + (∑ c : Fin 128, xg (ix2 (0 : Fin 1) ⟨512 * 3 + 128 * kt.val + c.val, by have := kt.isLt; have := c.isLt; omega⟩) * xw3 (ix2 c n))) + (∑ c : Fin 128, xg (ix2 (0 : Fin 1) ⟨512 * 4 + 128 * kt.val + c.val, by have := kt.isLt; have := c.isLt; omega⟩) * xw4 (ix2 c n))) + (∑ c : Fin 128, xg (ix2 (0 : Fin 1) ⟨512 * 5 + 128 * kt.val + c.val, by have := kt.isLt; have := c.isLt; omega⟩) * xw5 (ix2 c n))) + (∑ c : Fin 128, xg (ix2 (0 : Fin 1) ⟨512 * 6 + 128 * kt.val + c.val, by have := kt.isLt; have := c.isLt; omega⟩) * xw6 (ix2 c n))) + (∑ c : Fin 128, xg (ix2 (0 : Fin 1) ⟨512 * 7 + 128 * kt.val + c.val, by have := kt.isLt; have := c.isLt; omega⟩) * xw7 (ix2 c n))) := by
  unfold acc5 k5_pay1 k5_pay5 k5_pay4 k5_pay6
  simp only [addf_apply, shapeCast_self, ofBits0_5, matmul_blk4096_apply, truncf_apply, broadcast_apply]
  have e0 : ∀ w : Vec Ideal S128x4096 .f32, (∑ c : Fin 128, View.ld xg (Rect.unit (s := S1x4096) (k5_off1 i 0#32) S1x128.size (k5_off1_inb i 0)) (ix2 (0 : Fin 1) c) * w (ix2 c n))
      = ∑ c : Fin 128, xg (ix2 (0 : Fin 1) ⟨512 * 0 + 128 * kt.val + c.val, by have := kt.isLt; have := c.isLt; omega⟩) * w (ix2 c n) :=
    fun w => Finset.sum_congr rfl fun c _ => by rw [ld_g5_0 i kt hk xg c]
  have e1 : ∀ w : Vec Ideal S128x4096 .f32, (∑ c : Fin 128, View.ld xg (Rect.unit (s := S1x4096) (k5_off1 i 512#32) S1x128.size (k5_off1_inb i 1)) (ix2 (0 : Fin 1) c) * w (ix2 c n))
      = ∑ c : Fin 128, xg (ix2 (0 : Fin 1) ⟨512 * 1 + 128 * kt.val + c.val, by have := kt.isLt; have := c.isLt; omega⟩) * w (ix2 c n) :=
    fun w => Finset.sum_congr rfl fun c _ => by rw [ld_g5_1 i kt hk xg c]
  have e2 : ∀ w : Vec Ideal S128x4096 .f32, (∑ c : Fin 128, View.ld xg (Rect.unit (s := S1x4096) (k5_off1 i 1024#32) S1x128.size (k5_off1_inb i 2)) (ix2 (0 : Fin 1) c) * w (ix2 c n))
      = ∑ c : Fin 128, xg (ix2 (0 : Fin 1) ⟨512 * 2 + 128 * kt.val + c.val, by have := kt.isLt; have := c.isLt; omega⟩) * w (ix2 c n) :=
    fun w => Finset.sum_congr rfl fun c _ => by rw [ld_g5_2 i kt hk xg c]
  have e3 : ∀ w : Vec Ideal S128x4096 .f32, (∑ c : Fin 128, View.ld xg (Rect.unit (s := S1x4096) (k5_off1 i 1536#32) S1x128.size (k5_off1_inb i 3)) (ix2 (0 : Fin 1) c) * w (ix2 c n))
      = ∑ c : Fin 128, xg (ix2 (0 : Fin 1) ⟨512 * 3 + 128 * kt.val + c.val, by have := kt.isLt; have := c.isLt; omega⟩) * w (ix2 c n) :=
    fun w => Finset.sum_congr rfl fun c _ => by rw [ld_g5_3 i kt hk xg c]
  have e4 : ∀ w : Vec Ideal S128x4096 .f32, (∑ c : Fin 128, View.ld xg (Rect.unit (s := S1x4096) (k5_off1 i 2048#32) S1x128.size (k5_off1_inb i 4)) (ix2 (0 : Fin 1) c) * w (ix2 c n))
      = ∑ c : Fin 128, xg (ix2 (0 : Fin 1) ⟨512 * 4 + 128 * kt.val + c.val, by have := kt.isLt; have := c.isLt; omega⟩) * w (ix2 c n) :=
    fun w => Finset.sum_congr rfl fun c _ => by rw [ld_g5_4 i kt hk xg c]
  have e5 : ∀ w : Vec Ideal S128x4096 .f32, (∑ c : Fin 128, View.ld xg (Rect.unit (s := S1x4096) (k5_off1 i 2560#32) S1x128.size (k5_off1_inb i 5)) (ix2 (0 : Fin 1) c) * w (ix2 c n))
      = ∑ c : Fin 128, xg (ix2 (0 : Fin 1) ⟨512 * 5 + 128 * kt.val + c.val, by have := kt.isLt; have := c.isLt; omega⟩) * w (ix2 c n) :=
    fun w => Finset.sum_congr rfl fun c _ => by rw [ld_g5_5 i kt hk xg c]
  have e6 : ∀ w : Vec Ideal S128x4096 .f32, (∑ c : Fin 128, View.ld xg (Rect.unit (s := S1x4096) (k5_off1 i 3072#32) S1x128.size (k5_off1_inb i 6)) (ix2 (0 : Fin 1) c) * w (ix2 c n))
      = ∑ c : Fin 128, xg (ix2 (0 : Fin 1) ⟨512 * 6 + 128 * kt.val + c.val, by have := kt.isLt; have := c.isLt; omega⟩) * w (ix2 c n) :=
    fun w => Finset.sum_congr rfl fun c _ => by rw [ld_g5_6 i kt hk xg c]
  have e7 : ∀ w : Vec Ideal S128x4096 .f32, (∑ c : Fin 128, View.ld xg (Rect.unit (s := S1x4096) (k5_off1 i 3584#32) S1x128.size (k5_off1_inb i 7)) (ix2 (0 : Fin 1) c) * w (ix2 c n))
      = ∑ c : Fin 128, xg (ix2 (0 : Fin 1) ⟨512 * 7 + 128 * kt.val + c.val, by have := kt.isLt; have := c.isLt; omega⟩) * w (ix2 c n) :=
    fun w => Finset.sum_congr rfl fun c _ => by rw [ld_g5_7 i kt hk xg c]
  rw [e0 xw0, e1 xw1, e2 xw2, e3 xw3, e4 xw4, e5 xw5, e6 xw6, e7 xw7]

/-! ## The windows' blocks as parts of the arrays -/

section Layer
variable (c : Dev nD) (V : (b : Ref sig .tc) → Buf (Elt Ideal) ((c.tc : Thread nD τ).loc b))

/-- The arrays the layer reads, as vectors of extended reals. -/
abbrev Vg5 : FVec Ideal S1x4096 .f32 := V main_v15
abbrev VW5 : FVec Ideal S4096x4096 .f32 := V main_arg7
abbrev Vb5 : FVec Ideal S1x4096 .f32 := V main_v16

/-- The grid's one coordinate is the point's position. -/
theorem coords5_val : ∀ t : Fin cfg5.N, (grid5.coords t 0).val = t.val :=
  (by decide +kernel : ∀ t : Fin grid5.N, (grid5.coords t 0).val = t.val)

theorem idx5_0 : ∀ t : Fin cfg5.N, win5_0.index t 0 = 0 ∧ win5_0.index t 1 = 0 :=
  (by decide +kernel : ∀ t : Fin grid5.N, win5_0.index t 0 = 0 ∧ win5_0.index t 1 = 0)
theorem idx5_9 : ∀ t : Fin cfg5.N, win5_9.index t 0 = 0 ∧ win5_9.index t 1 = 0 :=
  (by decide +kernel : ∀ t : Fin grid5.N, win5_9.index t 0 = 0 ∧ win5_9.index t 1 = 0)
theorem idx5_1 : ∀ t : Fin cfg5.N, win5_1.index t 0 = 4 * 0 + t.val ∧ win5_1.index t 1 = 0 :=
  (by decide +kernel : ∀ t : Fin grid5.N, win5_1.index t 0 = 4 * 0 + t.val ∧ win5_1.index t 1 = 0)
theorem idx5_2 : ∀ t : Fin cfg5.N, win5_2.index t 0 = 4 * 1 + t.val ∧ win5_2.index t 1 = 0 :=
  (by decide +kernel : ∀ t : Fin grid5.N, win5_2.index t 0 = 4 * 1 + t.val ∧ win5_2.index t 1 = 0)
theorem idx5_3 : ∀ t : Fin cfg5.N, win5_3.index t 0 = 4 * 2 + t.val ∧ win5_3.index t 1 = 0 :=
  (by decide +kernel : ∀ t : Fin grid5.N, win5_3.index t 0 = 4 * 2 + t.val ∧ win5_3.index t 1 = 0)
theorem idx5_4 : ∀ t : Fin cfg5.N, win5_4.index t 0 = 4 * 3 + t.val ∧ win5_4.index t 1 = 0 :=
  (by decide +kernel : ∀ t : Fin grid5.N, win5_4.index t 0 = 4 * 3 + t.val ∧ win5_4.index t 1 = 0)
theorem idx5_5 : ∀ t : Fin cfg5.N, win5_5.index t 0 = 4 * 4 + t.val ∧ win5_5.index t 1 = 0 :=
  (by decide +kernel : ∀ t : Fin grid5.N, win5_5.index t 0 = 4 * 4 + t.val ∧ win5_5.index t 1 = 0)
theorem idx5_6 : ∀ t : Fin cfg5.N, win5_6.index t 0 = 4 * 5 + t.val ∧ win5_6.index t 1 = 0 :=
  (by decide +kernel : ∀ t : Fin grid5.N, win5_6.index t 0 = 4 * 5 + t.val ∧ win5_6.index t 1 = 0)
theorem idx5_7 : ∀ t : Fin cfg5.N, win5_7.index t 0 = 4 * 6 + t.val ∧ win5_7.index t 1 = 0 :=
  (by decide +kernel : ∀ t : Fin grid5.N, win5_7.index t 0 = 4 * 6 + t.val ∧ win5_7.index t 1 = 0)
theorem idx5_8 : ∀ t : Fin cfg5.N, win5_8.index t 0 = 4 * 7 + t.val ∧ win5_8.index t 1 = 0 :=
  (by decide +kernel : ∀ t : Fin grid5.N, win5_8.index t 0 = 4 * 7 + t.val ∧ win5_8.index t 1 = 0)

/-- The gathered row's window is the whole row. -/
theorem iblk5_g (t : Fin cfg5.N) (k' : Fin 4096) : iblk5 c V 0 t (ix2 (0 : Fin 1) k') = Vg5 c V (ix2 (0 : Fin 1) k') := by
  unfold iblk5
  rw [View.read_apply]
  show V main_v15 _ = V main_v15 _
  refine congrArg (V main_v15) ?_
  funext a; apply Fin.ext
  match a with
  | ⟨0, _⟩ => show win5_0.index t 0 * 1 + 1 * 0 = 0; rw [(idx5_0 t).1]
  | ⟨1, _⟩ => show win5_0.index t 1 * 4096 + 1 * k'.val = k'.val; rw [(idx5_0 t).2]; omega

/-- The bias's window is the whole bias. -/
theorem iblk5_b (t : Fin cfg5.N) (n : Fin 4096) : iblk5 c V 9 t (ix2 (0 : Fin 1) n) = Vb5 c V (ix2 (0 : Fin 1) n) := by
  unfold iblk5
  rw [View.read_apply]
  show V main_v16 _ = V main_v16 _
  refine congrArg (V main_v16) ?_
  funext a; apply Fin.ext
  match a with
  | ⟨0, _⟩ => show win5_9.index t 0 * 1 + 1 * 0 = 0; rw [(idx5_9 t).1]
  | ⟨1, _⟩ => show win5_9.index t 1 * 4096 + 1 * n.val = n.val; rw [(idx5_9 t).2]; omega

/-- Weight window 0's block at point `t` is rows `512·0 + 128 t` onward of the weights. -/
theorem iblk5_W0 (t : Fin cfg5.N) (kt : Fin 4) (hk : t.val = kt.val) (cc : Fin 128) (n : Fin 4096) :
    iblk5 c V 1 t (ix2 cc n) = VW5 c V (ix2 (⟨512 * 0 + 128 * kt.val + cc.val, by have := kt.isLt; have := cc.isLt; omega⟩ : Fin 4096) n) := by
  unfold iblk5
  rw [View.read_apply]
  show V main_arg7 _ = V main_arg7 _
  refine congrArg (V main_arg7) ?_
  funext a; apply Fin.ext
  match a with
  | ⟨0, _⟩ => show win5_1.index t 0 * 128 + 1 * cc.val = 512 * 0 + 128 * kt.val + cc.val; rw [(idx5_1 t).1, hk]; omega
  | ⟨1, _⟩ => show win5_1.index t 1 * 4096 + 1 * n.val = n.val; rw [(idx5_1 t).2]; omega

/-- Weight window 1's block at point `t` is rows `512·1 + 128 t` onward of the weights. -/
theorem iblk5_W1 (t : Fin cfg5.N) (kt : Fin 4) (hk : t.val = kt.val) (cc : Fin 128) (n : Fin 4096) :
    iblk5 c V 2 t (ix2 cc n) = VW5 c V (ix2 (⟨512 * 1 + 128 * kt.val + cc.val, by have := kt.isLt; have := cc.isLt; omega⟩ : Fin 4096) n) := by
  unfold iblk5
  rw [View.read_apply]
  show V main_arg7 _ = V main_arg7 _
  refine congrArg (V main_arg7) ?_
  funext a; apply Fin.ext
  match a with
  | ⟨0, _⟩ => show win5_2.index t 0 * 128 + 1 * cc.val = 512 * 1 + 128 * kt.val + cc.val; rw [(idx5_2 t).1, hk]; omega
  | ⟨1, _⟩ => show win5_2.index t 1 * 4096 + 1 * n.val = n.val; rw [(idx5_2 t).2]; omega

/-- Weight window 2's block at point `t` is rows `512·2 + 128 t` onward of the weights. -/
theorem iblk5_W2 (t : Fin cfg5.N) (kt : Fin 4) (hk : t.val = kt.val) (cc : Fin 128) (n : Fin 4096) :
    iblk5 c V 3 t (ix2 cc n) = VW5 c V (ix2 (⟨512 * 2 + 128 * kt.val + cc.val, by have := kt.isLt; have := cc.isLt; omega⟩ : Fin 4096) n) := by
  unfold iblk5
  rw [View.read_apply]
  show V main_arg7 _ = V main_arg7 _
  refine congrArg (V main_arg7) ?_
  funext a; apply Fin.ext
  match a with
  | ⟨0, _⟩ => show win5_3.index t 0 * 128 + 1 * cc.val = 512 * 2 + 128 * kt.val + cc.val; rw [(idx5_3 t).1, hk]; omega
  | ⟨1, _⟩ => show win5_3.index t 1 * 4096 + 1 * n.val = n.val; rw [(idx5_3 t).2]; omega

/-- Weight window 3's block at point `t` is rows `512·3 + 128 t` onward of the weights. -/
theorem iblk5_W3 (t : Fin cfg5.N) (kt : Fin 4) (hk : t.val = kt.val) (cc : Fin 128) (n : Fin 4096) :
    iblk5 c V 4 t (ix2 cc n) = VW5 c V (ix2 (⟨512 * 3 + 128 * kt.val + cc.val, by have := kt.isLt; have := cc.isLt; omega⟩ : Fin 4096) n) := by
  unfold iblk5
  rw [View.read_apply]
  show V main_arg7 _ = V main_arg7 _
  refine congrArg (V main_arg7) ?_
  funext a; apply Fin.ext
  match a with
  | ⟨0, _⟩ => show win5_4.index t 0 * 128 + 1 * cc.val = 512 * 3 + 128 * kt.val + cc.val; rw [(idx5_4 t).1, hk]; omega
  | ⟨1, _⟩ => show win5_4.index t 1 * 4096 + 1 * n.val = n.val; rw [(idx5_4 t).2]; omega

/-- Weight window 4's block at point `t` is rows `512·4 + 128 t` onward of the weights. -/
theorem iblk5_W4 (t : Fin cfg5.N) (kt : Fin 4) (hk : t.val = kt.val) (cc : Fin 128) (n : Fin 4096) :
    iblk5 c V 5 t (ix2 cc n) = VW5 c V (ix2 (⟨512 * 4 + 128 * kt.val + cc.val, by have := kt.isLt; have := cc.isLt; omega⟩ : Fin 4096) n) := by
  unfold iblk5
  rw [View.read_apply]
  show V main_arg7 _ = V main_arg7 _
  refine congrArg (V main_arg7) ?_
  funext a; apply Fin.ext
  match a with
  | ⟨0, _⟩ => show win5_5.index t 0 * 128 + 1 * cc.val = 512 * 4 + 128 * kt.val + cc.val; rw [(idx5_5 t).1, hk]; omega
  | ⟨1, _⟩ => show win5_5.index t 1 * 4096 + 1 * n.val = n.val; rw [(idx5_5 t).2]; omega

/-- Weight window 5's block at point `t` is rows `512·5 + 128 t` onward of the weights. -/
theorem iblk5_W5 (t : Fin cfg5.N) (kt : Fin 4) (hk : t.val = kt.val) (cc : Fin 128) (n : Fin 4096) :
    iblk5 c V 6 t (ix2 cc n) = VW5 c V (ix2 (⟨512 * 5 + 128 * kt.val + cc.val, by have := kt.isLt; have := cc.isLt; omega⟩ : Fin 4096) n) := by
  unfold iblk5
  rw [View.read_apply]
  show V main_arg7 _ = V main_arg7 _
  refine congrArg (V main_arg7) ?_
  funext a; apply Fin.ext
  match a with
  | ⟨0, _⟩ => show win5_6.index t 0 * 128 + 1 * cc.val = 512 * 5 + 128 * kt.val + cc.val; rw [(idx5_6 t).1, hk]; omega
  | ⟨1, _⟩ => show win5_6.index t 1 * 4096 + 1 * n.val = n.val; rw [(idx5_6 t).2]; omega

/-- Weight window 6's block at point `t` is rows `512·6 + 128 t` onward of the weights. -/
theorem iblk5_W6 (t : Fin cfg5.N) (kt : Fin 4) (hk : t.val = kt.val) (cc : Fin 128) (n : Fin 4096) :
    iblk5 c V 7 t (ix2 cc n) = VW5 c V (ix2 (⟨512 * 6 + 128 * kt.val + cc.val, by have := kt.isLt; have := cc.isLt; omega⟩ : Fin 4096) n) := by
  unfold iblk5
  rw [View.read_apply]
  show V main_arg7 _ = V main_arg7 _
  refine congrArg (V main_arg7) ?_
  funext a; apply Fin.ext
  match a with
  | ⟨0, _⟩ => show win5_7.index t 0 * 128 + 1 * cc.val = 512 * 6 + 128 * kt.val + cc.val; rw [(idx5_7 t).1, hk]; omega
  | ⟨1, _⟩ => show win5_7.index t 1 * 4096 + 1 * n.val = n.val; rw [(idx5_7 t).2]; omega

/-- Weight window 7's block at point `t` is rows `512·7 + 128 t` onward of the weights. -/
theorem iblk5_W7 (t : Fin cfg5.N) (kt : Fin 4) (hk : t.val = kt.val) (cc : Fin 128) (n : Fin 4096) :
    iblk5 c V 8 t (ix2 cc n) = VW5 c V (ix2 (⟨512 * 7 + 128 * kt.val + cc.val, by have := kt.isLt; have := cc.isLt; omega⟩ : Fin 4096) n) := by
  unfold iblk5
  rw [View.read_apply]
  show V main_arg7 _ = V main_arg7 _
  refine congrArg (V main_arg7) ?_
  funext a; apply Fin.ext
  match a with
  | ⟨0, _⟩ => show win5_8.index t 0 * 128 + 1 * cc.val = 512 * 7 + 128 * kt.val + cc.val; rw [(idx5_8 t).1, hk]; omega
  | ⟨1, _⟩ => show win5_8.index t 1 * 4096 + 1 * n.val = n.val; rw [(idx5_8 t).2]; omega

set_option maxHeartbeats 1000000 in
/-- A point's accumulation at a column, over the arrays. -/
theorem accAt5_apply (t : Fin cfg5.N) (kt : Fin 4) (hk : t.val = kt.val) (xo : Vec Ideal S1x4096 .f32) (n : Fin 4096) :
    accAt5 c V t xo (ix2 (0 : Fin 1) n)
      = xo (ix2 (0 : Fin 1) n) + ((((((((0 + (∑ cc : Fin 128, Vg5 c V (ix2 (0 : Fin 1) ⟨512 * 0 + 128 * kt.val + cc.val, by have := kt.isLt; have := cc.isLt; omega⟩) * VW5 c V (ix2 (⟨512 * 0 + 128 * kt.val + cc.val, by have := kt.isLt; have := cc.isLt; omega⟩ : Fin 4096) n))) + (∑ cc : Fin 128, Vg5 c V (ix2 (0 : Fin 1) ⟨512 * 1 + 128 * kt.val + cc.val, by have := kt.isLt; have := cc.isLt; omega⟩) * VW5 c V (ix2 (⟨512 * 1 + 128 * kt.val + cc.val, by have := kt.isLt; have := cc.isLt; omega⟩ : Fin 4096) n))) + (∑ cc : Fin 128, Vg5 c V (ix2 (0 : Fin 1) ⟨512 * 2 + 128 * kt.val + cc.val, by have := kt.isLt; have := cc.isLt; omega⟩) * VW5 c V (ix2 (⟨512 * 2 + 128 * kt.val + cc.val, by have := kt.isLt; have := cc.isLt; omega⟩ : Fin 4096) n))) + (∑ cc : Fin 128, Vg5 c V (ix2 (0 : Fin 1) ⟨512 * 3 + 128 * kt.val + cc.val, by have := kt.isLt; have := cc.isLt; omega⟩) * VW5 c V (ix2 (⟨512 * 3 + 128 * kt.val + cc.val, by have := kt.isLt; have := cc.isLt; omega⟩ : Fin 4096) n))) + (∑ cc : Fin 128, Vg5 c V (ix2 (0 : Fin 1) ⟨512 * 4 + 128 * kt.val + cc.val, by have := kt.isLt; have := cc.isLt; omega⟩) * VW5 c V (ix2 (⟨512 * 4 + 128 * kt.val + cc.val, by have := kt.isLt; have := cc.isLt; omega⟩ : Fin 4096) n))) + (∑ cc : Fin 128, Vg5 c V (ix2 (0 : Fin 1) ⟨512 * 5 + 128 * kt.val + cc.val, by have := kt.isLt; have := cc.isLt; omega⟩) * VW5 c V (ix2 (⟨512 * 5 + 128 * kt.val + cc.val, by have := kt.isLt; have := cc.isLt; omega⟩ : Fin 4096) n))) + (∑ cc : Fin 128, Vg5 c V (ix2 (0 : Fin 1) ⟨512 * 6 + 128 * kt.val + cc.val, by have := kt.isLt; have := cc.isLt; omega⟩) * VW5 c V (ix2 (⟨512 * 6 + 128 * kt.val + cc.val, by have := kt.isLt; have := cc.isLt; omega⟩ : Fin 4096) n))) + (∑ cc : Fin 128, Vg5 c V (ix2 (0 : Fin 1) ⟨512 * 7 + 128 * kt.val + cc.val, by have := kt.isLt; have := cc.isLt; omega⟩) * VW5 c V (ix2 (⟨512 * 7 + 128 * kt.val + cc.val, by have := kt.isLt; have := cc.isLt; omega⟩ : Fin 4096) n))) := by
  unfold accAt5
  refine (acc5_apply (grid5.coords t) kt ((coords5_val t).trans hk) (iblk5 c V 0 t) (iblk5 c V 1 t) (iblk5 c V 2 t) (iblk5 c V 3 t) (iblk5 c V 4 t) (iblk5 c V 5 t) (iblk5 c V 6 t) (iblk5 c V 7 t) (iblk5 c V 8 t) xo n).trans ?_
  simp only [iblk5_g c V t, iblk5_W0 c V t kt hk, iblk5_W1 c V t kt hk, iblk5_W2 c V t kt hk, iblk5_W3 c V t kt hk, iblk5_W4 c V t kt hk, iblk5_W5 c V t kt hk, iblk5_W6 c V t kt hk, iblk5_W7 c V t kt hk]

set_option maxHeartbeats 2000000 in
/-- THE LAYER: after the last point the accumulator at column `n` is the bias plus the gathered row times the weights' column. -/
theorem chain5_apply (n : Fin 4096) :
    chain5 c V t5_3.val t5_3.isLt (ix2 (0 : Fin 1) n)
      = Vb5 c V (ix2 (0 : Fin 1) n) + ∑ k' : Fin 4096, Vg5 c V (ix2 (0 : Fin 1) k') * VW5 c V (ix2 k' n) := by
  have hN : cfg5.N = 4 := N_5
  show accAt5 c V ⟨3, by omega⟩ (accAt5 c V ⟨2, by omega⟩ (accAt5 c V ⟨1, by omega⟩ (accAt5 c V ⟨0, by omega⟩ (k5_pay3 (iblk5 c V 9 ⟨0, by omega⟩))))) (ix2 (0 : Fin 1) n) = _
  rw [accAt5_apply c V ⟨3, by omega⟩ 3 rfl, accAt5_apply c V ⟨2, by omega⟩ 2 rfl, accAt5_apply c V ⟨1, by omega⟩ 1 rfl, accAt5_apply c V ⟨0, by omega⟩ 0 rfl]
  have hb : k5_pay3 (iblk5 c V 9 ⟨0, by omega⟩) (ix2 (0 : Fin 1) n) = Vb5 c V (ix2 (0 : Fin 1) n) := by
    unfold k5_pay3; rw [shapeCast_self]; exact iblk5_b c V _ n
  rw [hb]
  exact layer_sum (fun k' : Fin 4096 => Vg5 c V (ix2 (0 : Fin 1) k') * VW5 c V (ix2 k' n)) (Vb5 c V (ix2 (0 : Fin 1) n))
    (fun (k : Fin 4) (r : Fin 8) => ∑ cc : Fin 128, Vg5 c V (ix2 (0 : Fin 1) ⟨512 * r.val + 128 * k.val + cc.val, by have := r.isLt; have := k.isLt; have := cc.isLt; omega⟩) * VW5 c V (ix2 (⟨512 * r.val + 128 * k.val + cc.val, by have := r.isLt; have := k.isLt; have := cc.isLt; omega⟩ : Fin 4096) n))
    (fun k r => rfl)

end Layer

end Cert.Proof.KI.Gemv1

end
-- ==== Proof.Gemv7Val.lean ====
import proofs.«208418_g89945205112833_cont_sun_c4_809_35_alg».proof.Proof.Gemv7Outs
import Idealize.ShloMosaic.Lib.Pipeline.Value

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## What each control case leaves in the output block, as a term of the blocks it reads

The body adds to the output block the eight partial products of the point — the gathered row's 128-wide slices against
the eight weight blocks, accumulated from zero in window order —, after storing the bias there at the first point and
before applying tanh in place at the last. -/

theorem hz7 : (![0, 0] : Fin 2 → Nat) = fun _ => 0 := funext fun a => by fin_cases a <;> rfl

/-- The block after a point's accumulation: what it held (`xo`) plus the point's eight partial products. -/
def acc7 (i : grid7.Coords) (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xo : Vec F S1x2048 .f32) : Vec F S1x2048 .f32 :=
  k7_pay1 (k7_pay5 (k7_pay4 (View.ld xg (Rect.unit (s := S1x4096) (k7_off1 i 0#32) S1x128.size (k7_off1_inb i 0))) xw0 (View.ld xg (Rect.unit (s := S1x4096) (k7_off1 i 512#32) S1x128.size (k7_off1_inb i 1))) xw1 (View.ld xg (Rect.unit (s := S1x4096) (k7_off1 i 1024#32) S1x128.size (k7_off1_inb i 2))) xw2) (View.ld xg (Rect.unit (s := S1x4096) (k7_off1 i 1536#32) S1x128.size (k7_off1_inb i 3))) xw3 (View.ld xg (Rect.unit (s := S1x4096) (k7_off1 i 2048#32) S1x128.size (k7_off1_inb i 4))) xw4 (View.ld xg (Rect.unit (s := S1x4096) (k7_off1 i 2560#32) S1x128.size (k7_off1_inb i 5))) xw5) (k7_pay6 (View.ld xg (Rect.unit (s := S1x4096) (k7_off1 i 3072#32) S1x128.size (k7_off1_inb i 6))) xw6) (View.ld xg (Rect.unit (s := S1x4096) (k7_off1 i 3584#32) S1x128.size (k7_off1_inb i 7))) xw7 xo

set_option maxHeartbeats 1000000 in
/-- A middle point: the accumulation over what the block held. -/
theorem out7_B_eq (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) :
    out7_B (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo
      = acc7 i xg xw0 xw1 xw2 xw3 xw4 xw5 xw6 xw7 xo := by
  unfold out7_B acc7
  rw [View.read_writes_eq_canon _ _ _ (cover7_B 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo)]
  unfold kernelRun7_B
  dsimp only
  sl_unfold_words
  rw [View.canon_unit_zero hz7]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x2048) hz7, View.ld_unit_zero (S := S1x2048) hz7, View.ld_unit_zero (S := S1x4096) hz7]

set_option maxHeartbeats 1000000 in
/-- The first point: the accumulation over the bias. -/
theorem out7_A_eq (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : cond7_0 i) (hc1 : ¬cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) :
    out7_A (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb
      = acc7 i xg xw0 xw1 xw2 xw3 xw4 xw5 xw6 xw7 (k7_pay3 xb) := by
  unfold out7_A acc7
  rw [View.read_writes_eq_canon _ _ _ (cover7_A 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb)]
  unfold kernelRun7_A
  dsimp only
  sl_unfold_words
  rw [View.canon_cons_unit_zero (S := S1x2048) hz7, View.readCov_unit_zero (S := S1x2048) _ hz7]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x2048) hz7, View.ld_unit_zero (S := S1x2048) hz7, View.ld_unit_zero (S := S1x4096) hz7]

set_option maxHeartbeats 1000000 in
/-- The last point: tanh of the accumulation over what the block held. -/
theorem out7_C_eq (𝒱₀ : Variants) (c : Dev nD) (i : grid7.Coords) (a0 : Memref sig .tc .vmem S1x4096 .f32) (ha0 : a0.IsWhole) (a1 : Memref sig .tc .vmem S128x2048 .f32) (ha1 : a1.IsWhole) (a2 : Memref sig .tc .vmem S128x2048 .f32) (ha2 : a2.IsWhole) (a3 : Memref sig .tc .vmem S128x2048 .f32) (ha3 : a3.IsWhole) (a4 : Memref sig .tc .vmem S128x2048 .f32) (ha4 : a4.IsWhole) (a5 : Memref sig .tc .vmem S128x2048 .f32) (ha5 : a5.IsWhole) (a6 : Memref sig .tc .vmem S128x2048 .f32) (ha6 : a6.IsWhole) (a7 : Memref sig .tc .vmem S128x2048 .f32) (ha7 : a7.IsWhole) (a8 : Memref sig .tc .vmem S128x2048 .f32) (ha8 : a8.IsWhole) (a9 : Memref sig .tc .vmem S1x2048 .f32) (ha9 : a9.IsWhole) (a10 : Memref sig .tc .vmem S1x2048 .f32) (ha10 : a10.IsWhole) (hc0 : ¬cond7_0 i) (hc1 : cond7_1 i)
    (xg : Vec F S1x4096 .f32) (xw0 : Vec F S128x2048 .f32) (xw1 : Vec F S128x2048 .f32) (xw2 : Vec F S128x2048 .f32) (xw3 : Vec F S128x2048 .f32) (xw4 : Vec F S128x2048 .f32) (xw5 : Vec F S128x2048 .f32) (xw6 : Vec F S128x2048 .f32) (xw7 : Vec F S128x2048 .f32) (xb : Vec F S1x2048 .f32) (xo : Vec F S1x2048 .f32) :
    out7_C (Name := Name) (U := U) 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo
      = k7_pay2 (acc7 i xg xw0 xw1 xw2 xw3 xw4 xw5 xw6 xw7 xo) := by
  unfold out7_C acc7
  rw [View.read_writes_eq_canon _ _ _ (cover7_C 𝒱₀ c i a0 ha0 a1 ha1 a2 ha2 a3 ha3 a4 ha4 a5 ha5 a6 ha6 a7 ha7 a8 ha8 a9 ha9 a10 ha10 hc0 hc1 xg xw0 xw1 xw2 xw3 xw4 xw5 xw6 xw7 xb xo)]
  unfold kernelRun7_C
  dsimp only
  sl_unfold_words
  rw [View.canon_cons_unit_zero (S := S1x2048) hz7, View.readCov_unit_zero (S := S1x2048) _ hz7]
  simp only [View.readAt_eq_ld, ha0.read_unread, ha1.read_unread, ha2.read_unread, ha3.read_unread, ha4.read_unread, ha5.read_unread, ha6.read_unread, ha7.read_unread, ha8.read_unread, ha9.read_unread, ha10.read_unread, View.ld_unit_zero (S := S128x2048) hz7, View.ld_unit_zero (S := S1x2048) hz7, View.ld_unit_zero (S := S1x4096) hz7]

end Cert.Proof.KI.Gemv1

end
-- ==== Proof.Gemv7Chain.lean ====
import proofs.«208418_g89945205112833_cont_sun_c4_809_35_alg».proof.Proof.Gemv7Val

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
variable {Name : Type} [DecidableEq Name] {U : Type} [URA U]

local notation "𝕄" => MT nD τ sig (HIx 4) (Elt F) Name U ℕ

/-! ## The output block after each point, in closed form -/

section Chain
variable (𝒱₀ : Variants) (c : Dev nD) (V : (b : Ref sig .tc) → Buf (Elt F) ((c.tc : Thread nD τ).loc b))

/-- A point's accumulation over what the block held, at the windows' blocks there. -/
def accAt7 (t : Fin cfg7.N) (xo : Vec F S1x2048 .f32) : Vec F S1x2048 .f32 :=
  acc7 (grid7.coords t) (iblk7 c V 0 t) (iblk7 c V 1 t) (iblk7 c V 2 t) (iblk7 c V 3 t) (iblk7 c V 4 t) (iblk7 c V 5 t) (iblk7 c V 6 t) (iblk7 c V 7 t) (iblk7 c V 8 t) xo

/-- The running accumulator after point `n`: the bias, then each point's eight partial products in point order. -/
def chain7 : (n : ℕ) → n < cfg7.N → Vec F S1x2048 .f32
  | 0, h => accAt7 c V ⟨0, h⟩ (k7_pay3 (iblk7 c V 9 ⟨0, h⟩))
  | n + 1, h => accAt7 c V ⟨n + 1, h⟩ (chain7 n (Nat.lt_of_succ_lt h))

set_option maxHeartbeats 1000000 in
/-- What the output's staging buffer holds after point `n` is the running accumulator, under tanh at the last point. -/
theorem outsAt7_eq : ∀ (n : ℕ) (h : n < cfg7.N),
    outsAt7 (Name := Name) (U := U) 𝒱₀ c V n h = if n % 4 = 3 then k7_pay2 (chain7 c V n h) else chain7 c V n h
  | 0, h => by
    rw [if_neg (by decide)]
    exact (outsAt7_A 𝒱₀ c V ⟨0, h⟩ rfl).trans (out7_A_eq ..)
  | n + 1, h => by
    have hN : cfg7.N = 4 := N_7
    have h0 : ¬(⟨n + 1, h⟩ : Fin cfg7.N).val % 4 = 0 := by dsimp only; omega
    have ih := outsAt7_eq n (Nat.lt_of_succ_lt h)
    rw [if_neg (by omega)] at ih
    by_cases h3 : (n + 1) % 4 = 3
    · rw [if_pos h3, outsAt7_C 𝒱₀ c V ⟨n + 1, h⟩ h0 h3, out7_C_eq]
      show k7_pay2 (accAt7 c V ⟨n + 1, h⟩ (outsAt7 (Name := Name) (U := U) 𝒱₀ c V n _)) = k7_pay2 (accAt7 c V ⟨n + 1, h⟩ (chain7 c V n _))
      rw [ih]
    · rw [if_neg h3, outsAt7_B 𝒱₀ c V ⟨n + 1, h⟩ h0 h3, out7_B_eq]
      show accAt7 c V ⟨n + 1, h⟩ (outsAt7 (Name := Name) (U := U) 𝒱₀ c V n _) = accAt7 c V ⟨n + 1, h⟩ (chain7 c V n _)
      rw [ih]

end Chain

end Cert.Proof.KI.Gemv1

end
-- ==== Proof.GemvIdeal7.lean ====
import proofs.«208418_g89945205112833_cont_sun_c4_809_35_alg».proof.Proof.Gemv7Chain
import proofs.«208418_g89945205112833_cont_sun_c4_809_35_alg».proof.Proof.GemvIdealLib
import proofs.«208418_g89945205112833_cont_sun_c4_809_35_alg».proof.Proof.GemvSums

set_option maxRecDepth 16384

noncomputable section

namespace Cert.Proof.KI.Gemv1

open Idealize.ShloMosaic Idealize.ShloMosaic.TcCoe Idealize.ShloMosaic.ValueIdx
open Idealize.SL.Sem
open Cert.KernelIdeal Cert.KernelIdeal.Gen
open scoped BigOperators

/-! ## One layer's accumulation at the ideal values, read at a column -/

/-- The zero the accumulation starts from. -/
theorem ofBits0_7 : (FloatOps.ofBits (F := Ideal) .f32 0x00000000#32) = (0 : EReal) := Ideal.ofBits_zero_f32

/-- The gathered row's slice for window 0 at the point with coordinate `kt`: its element `c` is row `0 + 128 kt + c`. -/
theorem ld_g7_0 (i : grid7.Coords) (kt : Fin 4) (hk : (i 0).val = kt.val) (xg : Vec Ideal S1x4096 .f32) (c : Fin 128) :
    View.ld xg (Rect.unit (s := S1x4096) (k7_off1 i 0#32) S1x128.size (k7_off1_inb i 0)) (ix2 (0 : Fin 1) c)
      = xg (ix2 (0 : Fin 1) ⟨512 * 0 + 128 * kt.val + c.val, by have := kt.isLt; have := c.isLt; omega⟩) := by
  show xg ((Rect.unit (s := S1x4096) (k7_off1 i 0#32) S1x128.size (k7_off1_inb i 0)).idx (ix2 (0 : Fin 1) c)) = _
  refine congrArg xg ?_
  have he : k7_off1 i 0#32 = ![0, 512 * 0 + 128 * (i 0).val] := k7_off1_eq i 0
  funext a; apply Fin.ext
  show (k7_off1 i 0#32) a + 1 * ((ix2 (0 : Fin 1) c) a).val = _
  rw [he]
  match a with
  | ⟨0, _⟩ => show 0 + 1 * 0 = 0; rfl
  | ⟨1, _⟩ => show (512 * 0 + 128 * (i 0).val) + 1 * c.val = 512 * 0 + 128 * kt.val + c.val; rw [hk]; omega

/-- The gathered row's slice for window 1 at the point with coordinate `kt`: its element `c` is row `512 + 128 kt + c`. -/
theorem ld_g7_1 (i : grid7.Coords) (kt : Fin 4) (hk : (i 0).val = kt.val) (xg : Vec Ideal S1x4096 .f32) (c : Fin 128) :
    View.ld xg (Rect.unit (s := S1x4096) (k7_off1 i 512#32) S1x128.size (k7_off1_inb i 1)) (ix2 (0 : Fin 1) c)
      = xg (ix2 (0 : Fin 1) ⟨512 * 1 + 128 * kt.val + c.val, by have := kt.isLt; have := c.isLt; omega⟩) := by
  show xg ((Rect.unit (s := S1x4096) (k7_off1 i 512#32) S1x128.size (k7_off1_inb i 1)).idx (ix2 (0 : Fin 1) c)) = _
  refine congrArg xg ?_
  have he : k7_off1 i 512#32 = ![0, 512 * 1 + 128 * (i 0).val] := k7_off1_eq i 1
  funext a; apply Fin.ext
  show (k7_off1 i 512#32) a + 1 * ((ix2 (0 : Fin 1) c) a).val = _
  rw [he]
  match a with
  | ⟨0, _⟩ => show 0 + 1 * 0 = 0; rfl
  | ⟨1, _⟩ => show (512 * 1 + 128 * (i 0).val) + 1 * c.val = 512 * 1 + 128 * kt.val + c.val; rw [hk]; omega

/-- The gathered row's slice for window 2 at the point with coordinate `kt`: its element `c` is row `1024 + 128 kt + c`. -/
theorem ld_g7_2 (i : grid7.Coords) (kt : Fin 4) (hk : (i 0).val = kt.val) (xg : Vec Ideal S1x4096 .f32) (c : Fin 128) :
    View.ld xg (Rect.unit (s := S1x4096) (k7_off1 i 1024#32) S1x128.size (k7_off1_inb i 2)) (ix2 (0 : Fin 1) c)
      = xg (ix2 (0 : Fin 1) ⟨512 * 2 + 128 * kt.val + c.val, by have := kt.isLt; have := c.isLt; omega⟩) := by
  show xg ((Rect.unit (s := S1x4096) (k7_off1 i 1024#32) S1x128.size (k7_off1_inb i 2)).idx (ix2 (0 : Fin 1) c)) = _
  refine congrArg xg ?_
  have he : k7_off1 i 1024#32 = ![0, 512 * 2 + 128 * (i 0).val] := k7_off1_eq i 2
  funext a; apply Fin.ext
  show (k7_off1 i 1024#32) a + 1 * ((ix2 (0 : Fin 1) c) a).val = _
  rw [he]
  match a with
  | ⟨0, _⟩ => show 0 + 1 * 0 = 0; rfl
  | ⟨1, _⟩ => show (512 * 2 + 128 * (i 0).val) + 1 * c.val = 512 * 2 + 128 * kt.val + c.val; rw [hk]; omega

/-- The gathered row's slice for window 3 at the point with coordinate `kt`: its element `c` is row `1536 + 128 kt + c`. -/
theorem ld_g7_3 (i : grid7.Coords) (kt : Fin 4) (hk : (i 0).val = kt.val) (xg : Vec Ideal S1x4096 .f32) (c : Fin 128) :
    View.ld xg (Rect.unit (s := S1x4096) (k7_off1 i 1536#32) S1x128.size (k7_off1_inb i 3)) (ix2 (0 : Fin 1) c)
      = xg (ix2 (0 : Fin 1) ⟨512 * 3 + 128 * kt.val + c.val, by have := kt.isLt; have := c.isLt; omega⟩) := by
  show xg ((Rect.unit (s := S1x4096) (k7_off1 i 1536#32) S1x128.size (k7_off1_inb i 3)).idx (ix2 (0 : Fin 1) c)) = _
  refine congrArg xg ?_
  have he : k7_off1 i 1536#32 = ![0, 512 * 3 + 128 * (i 0).val] := k7_off1_eq i 3
  funext a; apply Fin.ext
  show (k7_off1 i 1536#32) a + 1 * ((ix2 (0 : Fin 1) c) a).val = _
  rw [he]
  match a with
  | ⟨0, _⟩ => show 0 + 1 * 0 = 0; rfl
  | ⟨1, _⟩ => show (512 * 3 + 128 * (i 0).val) + 1 * c.val = 512 * 3 + 128 * kt.val + c.val; rw [hk]; omega

/-- The gathered row's slice for window 4 at the point with coordinate `kt`: its element `c` is row `2048 + 128 kt + c`. -/
theorem ld_g7_4 (i : grid7.Coords) (kt : Fin 4) (hk : (i 0).val = kt.val) (xg : Vec Ideal S1x4096 .f32) (c : Fin 128) :
    View.ld xg (Rect.unit (s := S1x4096) (k7_off1 i 2048#32) S1x128.size (k7_off1_inb i 4)) (ix2 (0 : Fin 1) c)
      = xg (ix2 (0 : Fin 1) ⟨512 * 4 + 128 * kt.val + c.val, by have := kt.isLt; have := c.isLt; omega⟩) := by
  show xg ((Rect.unit (s := S1x4096) (k7_off1 i 2048#32) S1x128.size (k7_off1_inb i 4)).idx (ix2 (0 : Fin 1) c)) = _
  refine congrArg xg ?_
  have he : k7_off1 i 2048#32 = ![0, 512 * 4 + 128 * (i 0).val] := k7_off1_eq i 4
  funext a; apply Fin.ext
  show (k7_off1 i 2048#32) a + 1 * ((ix2 (0 : Fin 1) c) a).val = _
  rw [he]
  match a with
  | ⟨0, _⟩ => show 0 + 1 * 0 = 0; rfl
  | ⟨1, _⟩ => show (512 * 4 + 128 * (i 0).val) + 1 * c.val = 512 * 4 + 128 * kt.val + c.val; rw [hk]; omega

/-- The gathered row's slice for window 5 at the point with coordinate `kt`: its element `c` is row `2560 + 128 kt + c`. -/
theorem ld_g7_5 (i : grid7.Coords) (kt : Fin 4) (hk : (i 0).val = kt.val) (xg : Vec Ideal S1x4096 .f32) (c : Fin 128) :
    View.ld xg (Rect.unit (s := S1x4096) (k7_off1 i 2560#32) S1x128.size (k7_off1_inb i 5)) (ix2 (0 : Fin 1) c)
      = xg (ix2 (0 : Fin 1) ⟨512 * 5 + 128 * kt.val + c.val, by have := kt.isLt; have := c.isLt; omega⟩) := by
  show xg ((Rect.unit (s := S1x4096) (k7_off1 i 2560#32) S1x128.size (k7_off1_inb i 5)).idx (ix2 (0 : Fin 1) c)) = _
  refine congrArg xg ?_
  have he : k7_off1 i 2560#32 = ![0, 512 * 5 + 128 * (i 0).val] := k7_off1_eq i 5
  funext a; apply Fin.ext
  show (k7_off1 i 2560#32) a + 1 * ((ix2 (0 : Fin 1) c) a).val = _
  rw [he]
  match a with
  | ⟨0, _⟩ => show 0 + 1 * 0 = 0; rfl
  | ⟨1, _⟩ => show (512 * 5 + 128 * (i 0).val) + 1 * c.val = 512 * 5 + 128 * kt.val + c.val; rw [hk]; omega

/-- The gathered row's slice for window 6 at the point with coordinate `kt`: its element `c` is row `3072 + 128 kt + c`. -/
theorem ld_g7_6 (i : grid7.Coords) (kt : Fin 4) (hk : (i 0).val = kt.val) (xg : Vec Ideal S1x4096 .f32) (c : Fin 128) :
    View.ld xg (Rect.unit (s := S1x4096) (k7_off1 i 3072#32) S1x128.size (k7_off1_inb i 6)) (ix2 (0 : Fin 1) c)
      = xg (ix2 (0 : Fin 1) ⟨512 * 6 + 128 * kt.val + c.val, by have := kt.isLt; have := c.isLt; omega⟩) := by
  show xg ((Rect.unit (s := S1x4096) (k7_off1 i 3072#32) S1x128.size (k7_off1_inb i 6)).idx (ix2 (0 : Fin 1) c)) = _
  refine congrArg xg ?_
  have he : k7_off1 i 3072#32 = ![0, 512 * 6 + 128 * (i 0).val] := k7_off1_eq i 6
  funext a; apply Fin.ext
  show (k7_off1 i 3072#32) a + 1 * ((ix2 (0 : Fin 1) c) a).val = _
  rw [he]
  match a with
  | ⟨0, _⟩ => show 0 + 1 * 0 = 0; rfl
  | ⟨1, _⟩ => show (512 * 6 + 128 * (i 0).val) + 1 * c.val = 512 * 6 + 128 * kt.val + c.val; rw [hk]; omega

/-- The gathered row's slice for window 7 at the point with coordinate `kt`: its element `c` is row `3584 + 128 kt + c`. -/
theorem ld_g7_7 (i : grid7.Coords) (kt : Fin 4) (hk : (i 0).val = kt.val) (xg : Vec Ideal S1x4096 .f32) (c : Fin 128) :
    View.ld xg (Rect.unit (s := S1x4096) (k7_off1 i 3584#32) S1x128.size (k7_off1_inb i 7)) (ix2 (0 : Fin 1) c)
      = xg (ix2 (0 : Fin 1) ⟨512 * 7 + 128 * kt.val + c.val, by have := kt.isLt; have := c.isLt; omega⟩) := by
  show xg ((Rect.unit (s := S1x4096) (k7_off1 i 3584#32) S1x128.size (k7_off1_inb i 7)).idx (ix2 (0 : Fin 1) c)) = _
  refine congrArg xg ?_
  have he : k7_off1 i 3584#32 = ![0, 512 * 7 + 128 * (i 0).val] := k7_off1_eq i 7
  funext a; apply Fin.ext
  show (k7_off1 i 3584#32) a + 1 * ((ix2 (0 : Fin 1) c) a).val = _
  rw [he]
  match a with
  | ⟨0, _⟩ => show 0 + 1 * 0 = 0; rfl
  | ⟨1, _⟩ => show (512 * 7 + 128 * (i 0).val) + 1 * c.val = 512 * 7 + 128 * kt.val + c.val; rw [hk]; omega

set_option maxHeartbeats 1000000 in
/-- A point's accumulation at column `n`: what the block held plus the eight windows' partial sums, added from zero in
    window order. -/
theorem acc7_apply (i : grid7.Coords) (kt : Fin 4) (hk : (i 0).val = kt.val) (xg : Vec Ideal S1x4096 .f32)
    (xw0 : Vec Ideal S128x2048 .f32) (xw1 : Vec Ideal S128x2048 .f32) (xw2 : Vec Ideal S128x2048 .f32) (xw3 : Vec Ideal S128x2048 .f32) (xw4 : Vec Ideal S128x2048 .f32) (xw5 : Vec Ideal S128x2048 .f32) (xw6 : Vec Ideal S128x2048 .f32) (xw7 : Vec Ideal S128x2048 .f32) (xo : Vec Ideal S1x2048 .f32) (n : Fin 2048) :
    acc7 i xg xw0 xw1 xw2 xw3 xw4 xw5 xw6 xw7 xo (ix2 (0 : Fin 1) n)
      = xo (ix2 (0 : Fin 1) n) + ((((((((0 + (∑ c : Fin 128, xg (ix2 (0 : Fin 1) ⟨512 * 0 + 128 * kt.val + c.val, by have := kt.isLt; have := c.isLt; omega⟩) * xw0 (ix2 c n))) + (∑ c : Fin 128, xg (ix2 (0 : Fin 1) ⟨512 * 1 + 128 * kt.val + c.val, by have := kt.isLt; have := c.isLt; omega⟩) * xw1 (ix2 c n))) + (∑ c : Fin 128, xg (ix2 (0 : Fin 1) ⟨512 * 2 + 128 * kt.val + c.val, by have := kt.isLt; have := c.isLt; omega⟩) * xw2 (ix2 c n))) + (∑ c : Fin 128, xg (ix2 (0 : Fin 1) ⟨512 * 3 + 128 * kt.val + c.val, by have := kt.isLt; have := c.isLt; omega⟩) * xw3 (ix2 c n))) + (∑ c : Fin 128, xg (ix2 (0 : Fin 1) ⟨512 * 4 + 128 * kt.val + c.val, by have := kt.isLt; have := c.isLt; omega⟩) * xw4 (ix2 c n))) + (∑ c : Fin 128, xg (ix2 (0 : Fin 1) ⟨512 * 5 + 128 * kt.val + c.val, by have := kt.isLt; have := c.isLt; omega⟩) * xw5 (ix2 c n))) + (∑ c : Fin 128, xg (ix2 (0 : Fin 1) ⟨512 * 6 + 128 * kt.val + c.val, by have := kt.isLt; have := c.isLt; omega⟩) * xw6 (ix2 c n))) + (∑ c : Fin 128, xg (ix2 (0 : Fin 1) ⟨512 * 7 + 128 * kt.val + c.val, by have := kt.isLt; have := c.isLt; omega⟩) * xw7 (ix2 c n))) := by
  unfold acc7 k7_pay1 k7_pay5 k7_pay4 k7_pay6
  simp only [addf_apply, shapeCast_self, ofBits0_7, matmul_blk2048_apply, truncf_apply, broadcast_apply]
  have e0 : ∀ w : Vec Ideal S128x2048 .f32, (∑ c : Fin 128, View.ld xg (Rect.unit (s := S1x4096) (k7_off1 i 0#32) S1x128.size (k7_off1_inb i 0)) (ix2 (0 : Fin 1) c) * w (ix2 c n))
      = ∑ c : Fin 128, xg (ix2 (0 : Fin 1) ⟨512 * 0 + 128 * kt.val + c.val, by have := kt.isLt; have := c.isLt; omega⟩) * w (ix2 c n) :=
    fun w => Finset.sum_congr rfl fun c _ => by rw [ld_g7_0 i kt hk xg c]
  have e1 : ∀ w : Vec Ideal S128x2048 .f32, (∑ c : Fin 128, View.ld xg (Rect.unit (s := S1x4096) (k7_off1 i 512#32) S1x128.size (k7_off1_inb i 1)) (ix2 (0 : Fin 1) c) * w (ix2 c n))
      = ∑ c : Fin 128, xg (ix2 (0 : Fin 1) ⟨512 * 1 + 128 * kt.val + c.val, by have := kt.isLt; have := c.isLt; omega⟩) * w (ix2 c n) :=
    fun w => Finset.sum_congr rfl fun c _ => by rw [ld_g7_1 i kt hk xg c]
  have e2 : ∀ w : Vec Ideal S128x2048 .f32, (∑ c : Fin 128, View.ld xg (Rect.unit (s := S1x4096) (k7_off1 i 1024#32) S1x128.size (k7_off1_inb i 2)) (ix2 (0 : Fin 1) c) * w (ix2 c n))
      = ∑ c : Fin 128, xg (ix2 (0 : Fin 1) ⟨512 * 2 + 128 * kt.val + c.val, by have := kt.isLt; have := c.isLt; omega⟩) * w (ix2 c n) :=
    fun w => Finset.sum_congr rfl fun c _ => by rw [ld_g7_2 i kt hk xg c]
  have e3 : ∀ w : Vec Ideal S128x2048 .f32, (∑ c : Fin 128, View.ld xg (Rect.unit (s := S1x4096) (k7_off1 i 1536#32) S1x128.size (k7_off1_inb i 3)) (ix2 (0 : Fin 1) c) * w (ix2 c n))
      = ∑ c : Fin 128, xg (ix2 (0 : Fin 1) ⟨512 * 3 + 128 * kt.val + c.val, by have := kt.isLt; have := c.isLt; omega⟩) * w (ix2 c n) :=
    fun w => Finset.sum_congr rfl fun c _ => by rw [ld_g7_3 i kt hk xg c]
  have e4 : ∀ w : Vec Ideal S128x2048 .f32, (∑ c : Fin 128, View.ld xg (Rect.unit (s := S1x4096) (k7_off1 i 2048#32) S1x128.size (k7_off1_inb i 4)) (ix2 (0 : Fin 1) c) * w (ix2 c n))
      = ∑ c : Fin 128, xg (ix2 (0 : Fin 1) ⟨512 * 4 + 128 * kt.val + c.val, by have := kt.isLt; have := c.isLt; omega⟩) * w (ix2 c n) :=
    fun w => Finset.sum_congr rfl fun c _ => by rw [ld_g7_4 i kt hk xg c]
  have e5 : ∀ w : Vec Ideal S128x2048 .f32, (∑ c : Fin 128, View.ld xg (Rect.unit (s := S1x4096) (k7_off1 i 2560#32) S1x128.size (k7_off1_inb i 5)) (ix2 (0 : Fin 1) c) * w (ix2 c n))
      = ∑ c : Fin 128, xg (ix2 (0 : Fin 1) ⟨512 * 5 + 128 * kt.val + c.val, by have := kt.isLt; have := c.isLt; omega⟩) * w (ix2 c n) :=
    fun w => Finset.sum_congr rfl fun c _ => by rw [ld_g7_5 i kt hk xg c]
  have e6 : ∀ w : Vec Ideal S128x2048 .f32, (∑ c : Fin 128, View.ld xg (Rect.unit (s := S1x4096) (k7_off1 i 3072#32) S1x128.size (k7_off1_inb i 6)) (ix2 (0 : Fin 1) c) * w (ix2 c n))
      = ∑ c : Fin 128, xg (ix2 (0 : Fin 1) ⟨512 * 6 + 128 * kt.val + c.val, by have := kt.isLt; have := c.isLt; omega⟩) * w (ix2 c n) :=
    fun w => Finset.sum_congr rfl fun c _ => by rw [ld_g7_6 i kt hk xg c]
  have e7 : ∀ w : Vec Ideal S128x2048 .f32, (∑ c : Fin 128, View.ld xg (Rect.unit (s := S1x4096) (k7_off1 i 3584#32) S1x128.size (k7_off1_inb i 7)) (ix2 (0 : Fin 1) c) * w (ix2 c n))
      = ∑ c : Fin 128, xg (ix2 (0 : Fin 1) ⟨512 * 7 + 128 * kt.val + c.val, by have := kt.isLt; have := c.isLt; omega⟩) * w (ix2 c n) :=
    fun w => Finset.sum_congr rfl fun c _ => by rw [ld_g7_7 i kt hk xg c]
  rw [e0 xw0, e1 xw1, e2 xw2, e3 xw3, e4 xw4, e5 xw5, e6 xw6, e7 xw7]

/-! ## The windows' blocks as parts of the arrays -/

section Layer
variable (c : Dev nD) (V : (b : Ref sig .tc) → Buf (Elt Ideal) ((c.tc : Thread nD τ).loc b))

/-- The arrays the layer reads, as vectors of extended reals. -/
abbrev Vg7 : FVec Ideal S1x4096 .f32 := V main_v20
abbrev VW7 : FVec Ideal S4096x2048 .f32 := V main_arg8
abbrev Vb7 : FVec Ideal S1x2048 .f32 := V main_v21

/-- The grid's one coordinate is the point's position. -/
theorem coords7_val : ∀ t : Fin cfg7.N, (grid7.coords t 0).val = t.val :=
  (by decide +kernel : ∀ t : Fin grid7.N, (grid7.coords t 0).val = t.val)

theorem idx7_0 : ∀ t : Fin cfg7.N, win7_0.index t 0 = 0 ∧ win7_0.index t 1 = 0 :=
  (by decide +kernel : ∀ t : Fin grid7.N, win7_0.index t 0 = 0 ∧ win7_0.index t 1 = 0)
theorem idx7_9 : ∀ t : Fin cfg7.N, win7_9.index t 0 = 0 ∧ win7_9.index t 1 = 0 :=
  (by decide +kernel : ∀ t : Fin grid7.N, win7_9.index t 0 = 0 ∧ win7_9.index t 1 = 0)
theorem idx7_1 : ∀ t : Fin cfg7.N, win7_1.index t 0 = 4 * 0 + t.val ∧ win7_1.index t 1 = 0 :=
  (by decide +kernel : ∀ t : Fin grid7.N, win7_1.index t 0 = 4 * 0 + t.val ∧ win7_1.index t 1 = 0)
theorem idx7_2 : ∀ t : Fin cfg7.N, win7_2.index t 0 = 4 * 1 + t.val ∧ win7_2.index t 1 = 0 :=
  (by decide +kernel : ∀ t : Fin grid7.N, win7_2.index t 0 = 4 * 1 + t.val ∧ win7_2.index t 1 = 0)
theorem idx7_3 : ∀ t : Fin cfg7.N, win7_3.index t 0 = 4 * 2 + t.val ∧ win7_3.index t 1 = 0 :=
  (by decide +kernel : ∀ t : Fin grid7.N, win7_3.index t 0 = 4 * 2 + t.val ∧ win7_3.index t 1 = 0)
theorem idx7_4 : ∀ t : Fin cfg7.N, win7_4.index t 0 = 4 * 3 + t.val ∧ win7_4.index t 1 = 0 :=
  (by decide +kernel : ∀ t : Fin grid7.N, win7_4.index t 0 = 4 * 3 + t.val ∧ win7_4.index t 1 = 0)
theorem idx7_5 : ∀ t : Fin cfg7.N, win7_5.index t 0 = 4 * 4 + t.val ∧ win7_5.index t 1 = 0 :=
  (by decide +kernel : ∀ t : Fin grid7.N, win7_5.index t 0 = 4 * 4 + t.val ∧ win7_5.index t 1 = 0)
theorem idx7_6 : ∀ t : Fin cfg7.N, win7_6.index t 0 = 4 * 5 + t.val ∧ win7_6.index t 1 = 0 :=
  (by decide +kernel : ∀ t : Fin grid7.N, win7_6.index t 0 = 4 * 5 + t.val ∧ win7_6.index t 1 = 0)
theorem idx7_7 : ∀ t : Fin cfg7.N, win7_7.index t 0 = 4 * 6 + t.val ∧ win7_7.index t 1 = 0 :=
  (by decide +kernel : ∀ t : Fin grid7.N, win7_7.index t 0 = 4 * 6 + t.val ∧ win7_7.index t 1 = 0)
theorem idx7_8 : ∀ t : Fin cfg7.N, win7_8.index t 0 = 4 * 7 + t.val ∧ win7_8.index t 1 = 0 :=
  (by decide +kernel : ∀ t : Fin grid7.N, win7_8.index t 0 = 4 * 7 + t.val ∧ win7_8.index t 1 = 0)

/-- The gathered row's window is the whole row. -/
theorem iblk7_g (t : Fin cfg7.N) (k' : Fin 4096) : iblk7 c V 0 t (ix2 (0 : Fin 1) k') = Vg7 c V (ix2 (0 : Fin 1) k') := by
  unfold iblk7
  rw [View.read_apply]
  show V main_v20 _ = V main_v20 _
  refine congrArg (V main_v20) ?_
  funext a; apply Fin.ext
  match a with
  | ⟨0, _⟩ => show win7_0.index t 0 * 1 + 1 * 0 = 0; rw [(idx7_0 t).1]
  | ⟨1, _⟩ => show win7_0.index t 1 * 4096 + 1 * k'.val = k'.val; rw [(idx7_0 t).2]; omega

/-- The bias's window is the whole bias. -/
theorem iblk7_b (t : Fin cfg7.N) (n : Fin 2048) : iblk7 c V 9 t (ix2 (0 : Fin 1) n) = Vb7 c V (ix2 (0 : Fin 1) n) := by
  unfold iblk7
  rw [View.read_apply]
  show V main_v21 _ = V main_v21 _
  refine congrArg (V main_v21) ?_
  funext a; apply Fin.ext
  match a with
  | ⟨0, _⟩ => show win7_9.index t 0 * 1 + 1 * 0 = 0; rw [(idx7_9 t).1]
  | ⟨1, _⟩ => show win7_9.index t 1 * 2048 + 1 * n.val = n.val; rw [(idx7_9 t).2]; omega

/-- Weight window 0's block at point `t` is rows `512·0 + 128 t` onward of the weights. -/
theorem iblk7_W0 (t : Fin cfg7.N) (kt : Fin 4) (hk : t.val = kt.val) (cc : Fin 128) (n : Fin 2048) :
    iblk7 c V 1 t (ix2 cc n) = VW7 c V (ix2 (⟨512 * 0 + 128 * kt.val + cc.val, by have := kt.isLt; have := cc.isLt; omega⟩ : Fin 4096) n) := by
  unfold iblk7
  rw [View.read_apply]
  show V main_arg8 _ = V main_arg8 _
  refine congrArg (V main_arg8) ?_
  funext a; apply Fin.ext
  match a with
  | ⟨0, _⟩ => show win7_1.index t 0 * 128 + 1 * cc.val = 512 * 0 + 128 * kt.val + cc.val; rw [(idx7_1 t).1, hk]; omega
  | ⟨1, _⟩ => show win7_1.index t 1 * 2048 + 1 * n.val = n.val; rw [(idx7_1 t).2]; omega

/-- Weight window 1's block at point `t` is rows `512·1 + 128 t` onward of the weights. -/
theorem iblk7_W1 (t : Fin cfg7.N) (kt : Fin 4) (hk : t.val = kt.val) (cc : Fin 128) (n : Fin 2048) :
    iblk7 c V 2 t (ix2 cc n) = VW7 c V (ix2 (⟨512 * 1 + 128 * kt.val + cc.val, by have := kt.isLt; have := cc.isLt; omega⟩ : Fin 4096) n) := by
  unfold iblk7
  rw [View.read_apply]
  show V main_arg8 _ = V main_arg8 _
  refine congrArg (V main_arg8) ?_
  funext a; apply Fin.ext
  match a with
  | ⟨0, _⟩ => show win7_2.index t 0 * 128 + 1 * cc.val = 512 * 1 + 128 * kt.val + cc.val; rw [(idx7_2 t).1, hk]; omega
  | ⟨1, _⟩ => show win7_2.index t 1 * 2048 + 1 * n.val = n.val; rw [(idx7_2 t).2]; omega

/-- Weight window 2's block at point `t` is rows `512·2 + 128 t` onward of the weights. -/
theorem iblk7_W2 (t : Fin cfg7.N) (kt : Fin 4) (hk : t.val = kt.val) (cc : Fin 128) (n : Fin 2048) :
    iblk7 c V 3 t (ix2 cc n) = VW7 c V (ix2 (⟨512 * 2 + 128 * kt.val + cc.val, by have := kt.isLt; have := cc.isLt; omega⟩ : Fin 4096) n) := by
  unfold iblk7
  rw [View.read_apply]
  show V main_arg8 _ = V main_arg8 _
  refine congrArg (V main_arg8) ?_
  funext a; apply Fin.ext
  match a with
  | ⟨0, _⟩ => show win7_3.index t 0 * 128 + 1 * cc.val = 512 * 2 + 128 * kt.val + cc.val; rw [(idx7_3 t).1, hk]; omega
  | ⟨1, _⟩ => show win7_3.index t 1 * 2048 + 1 * n.val = n.val; rw [(idx7_3 t).2]; omega

/-- Weight window 3's block at point `t` is rows `512·3 + 128 t` onward of the weights. -/
theorem iblk7_W3 (t : Fin cfg7.N) (kt : Fin 4) (hk : t.val = kt.val) (cc : Fin 128) (n : Fin 2048) :
    iblk7 c V 4 t (ix2 cc n) = VW7 c V (ix2 (⟨512 * 3 + 128 * kt.val + cc.val, by have := kt.isLt; have := cc.isLt; omega⟩ : Fin 4096) n) := by
  unfold iblk7
  rw [View.read_apply]
  show V main_arg8 _ = V main_arg8 _
  refine congrArg (V main_arg8) ?_
  funext a; apply Fin.ext
  match a with
  | ⟨0, _⟩ => show win7_4.index t 0 * 128 + 1 * cc.val = 512 * 3 + 128 * kt.val + cc.val; rw [(idx7_4 t).1, hk]; omega
  | ⟨1, _⟩ => show win7_4.index t 1 * 2048 + 1 * n.val = n.val; rw [(idx7_4 t).2]; omega

/-- Weight window 4's block at point `t` is rows `512·4 + 128 t` onward of the weights. -/
theorem iblk7_W4 (t : Fin cfg7.N) (kt : Fin 4) (hk : t.val = kt.val) (cc : Fin 128) (n : Fin 2048) :
    iblk7 c V 5 t (ix2 cc n) = VW7 c V (ix2 (⟨512 * 4 + 128 * kt.val + cc.val, by have := kt.isLt; have := cc.isLt; omega⟩ : Fin 4096) n) := by
  unfold iblk7
  rw [View.read_apply]
  show V main_arg8 _ = V main_arg8 _
  refine congrArg (V main_arg8) ?_
  funext a; apply Fin.ext
  match a with
  | ⟨0, _⟩ => show win7_5.index t 0 * 128 + 1 * cc.val = 512 * 4 + 128 * kt.val + cc.val; rw [(idx7_5 t).1, hk]; omega
  | ⟨1, _⟩ => show win7_5.index t 1 * 2048 + 1 * n.val = n.val; rw [(idx7_5 t).2]; omega

/-- Weight window 5's block at point `t` is rows `512·5 + 128 t` onward of the weights. -/
theorem iblk7_W5 (t : Fin cfg7.N) (kt : Fin 4) (hk : t.val = kt.val) (cc : Fin 128) (n : Fin 2048) :
    iblk7 c V 6 t (ix2 cc n) = VW7 c V (ix2 (⟨512 * 5 + 128 * kt.val + cc.val, by have := kt.isLt; have := cc.isLt; omega⟩ : Fin 4096) n) := by
  unfold iblk7
  rw [View.read_apply]
  show V main_arg8 _ = V main_arg8 _
  refine congrArg (V main_arg8) ?_
  funext a; apply Fin.ext
  match a with
  | ⟨0, _⟩ => show win7_6.index t 0 * 128 + 1 * cc.val = 512 * 5 + 128 * kt.val + cc.val; rw [(idx7_6 t).1, hk]; omega
  | ⟨1, _⟩ => show win7_6.index t 1 * 2048 + 1 * n.val = n.val; rw [(idx7_6 t).2]; omega

/-- Weight window 6's block at point `t` is rows `512·6 + 128 t` onward of the weights. -/
theorem iblk7_W6 (t : Fin cfg7.N) (kt : Fin 4) (hk : t.val = kt.val) (cc : Fin 128) (n : Fin 2048) :
    iblk7 c V 7 t (ix2 cc n) = VW7 c V (ix2 (⟨512 * 6 + 128 * kt.val + cc.val, by have := kt.isLt; have := cc.isLt; omega⟩ : Fin 4096) n) := by
  unfold iblk7
  rw [View.read_apply]
  show V main_arg8 _ = V main_arg8 _
  refine congrArg (V main_arg8) ?_
  funext a; apply Fin.ext
  match a with
  | ⟨0, _⟩ => show win7_7.index t 0 * 128 + 1 * cc.val = 512 * 6 + 128 * kt.val + cc.val; rw [(idx7_7 t).1, hk]; omega
  | ⟨1, _⟩ => show win7_7.index t 1 * 2048 + 1 * n.val = n.val; rw [(idx7_7 t).2]; omega

/-- Weight window 7's block at point `t` is rows `512·7 + 128 t` onward of the weights. -/
theorem iblk7_W7 (t : Fin cfg7.N) (kt : Fin 4) (hk : t.val = kt.val) (cc : Fin 128) (n : Fin 2048) :
    iblk7 c V 8 t (ix2 cc n) = VW7 c V (ix2 (⟨512 * 7 + 128 * kt.val + cc.val, by have := kt.isLt; have := cc.isLt; omega⟩ : Fin 4096) n) := by
  unfold iblk7
  rw [View.read_apply]
  show V main_arg8 _ = V main_arg8 _
  refine congrArg (V main_arg8) ?_
  funext a; apply Fin.ext
  match a with
  | ⟨0, _⟩ => show win7_8.index t 0 * 128 + 1 * cc.val = 512 * 7 + 128 * kt.val + cc.val; rw [(idx7_8 t).1, hk]; omega
  | ⟨1, _⟩ => show win7_8.index t 1 * 2048 + 1 * n.val = n.val; rw [(idx7_8 t).2]; omega

set_option maxHeartbeats 1000000 in
/-- A point's accumulation at a column, over the arrays. -/
theorem accAt7_apply (t : Fin cfg7.N) (kt : Fin 4) (hk : t.val = kt.val) (xo : Vec Ideal S1x2048 .f32) (n : Fin 2048) :
    accAt7 c V t xo (ix2 (0 : Fin 1) n)
      = xo (ix2 (0 : Fin 1) n) + ((((((((0 + (∑ cc : Fin 128, Vg7 c V (ix2 (0 : Fin 1) ⟨512 * 0 + 128 * kt.val + cc.val, by have := kt.isLt; have := cc.isLt; omega⟩) * VW7 c V (ix2 (⟨512 * 0 + 128 * kt.val + cc.val, by have := kt.isLt; have := cc.isLt; omega⟩ : Fin 4096) n))) + (∑ cc : Fin 128, Vg7 c V (ix2 (0 : Fin 1) ⟨512 * 1 + 128 * kt.val + cc.val, by have := kt.isLt; have := cc.isLt; omega⟩) * VW7 c V (ix2 (⟨512 * 1 + 128 * kt.val + cc.val, by have := kt.isLt; have := cc.isLt; omega⟩ : Fin 4096) n))) + (∑ cc : Fin 128, Vg7 c V (ix2 (0 : Fin 1) ⟨512 * 2 + 128 * kt.val + cc.val, by have := kt.isLt; have := cc.isLt; omega⟩) * VW7 c V (ix2 (⟨512 * 2 + 128 * kt.val + cc.val, by have := kt.isLt; have := cc.isLt; omega⟩ : Fin 4096) n))) + (∑ cc : Fin 128, Vg7 c V (ix2 (0 : Fin 1) ⟨512 * 3 + 128 * kt.val + cc.val, by have := kt.isLt; have := cc.isLt; omega⟩) * VW7 c V (ix2 (⟨512 * 3 + 128 * kt.val + cc.val, by have := kt.isLt; have := cc.isLt; omega⟩ : Fin 4096) n))) + (∑ cc : Fin 128, Vg7 c V (ix2 (0 : Fin 1) ⟨512 * 4 + 128 * kt.val + cc.val, by have := kt.isLt; have := cc.isLt; omega⟩) * VW7 c V (ix2 (⟨512 * 4 + 128 * kt.val + cc.val, by have := kt.isLt; have := cc.isLt; omega⟩ : Fin 4096) n))) + (∑ cc : Fin 128, Vg7 c V (ix2 (0 : Fin 1) ⟨512 * 5 + 128 * kt.val + cc.val, by have := kt.isLt; have := cc.isLt; omega⟩) * VW7 c V (ix2 (⟨512 * 5 + 128 * kt.val + cc.val, by have := kt.isLt; have := cc.isLt; omega⟩ : Fin 4096) n))) + (∑ cc : Fin 128, Vg7 c V (ix2 (0 : Fin 1) ⟨512 * 6 + 128 * kt.val + cc.val, by have := kt.isLt; have := cc.isLt; omega⟩) * VW7 c V (ix2 (⟨512 * 6 + 128 * kt.val + cc.val, by have := kt.isLt; have := cc.isLt; omega⟩ : Fin 4096) n))) + (∑ cc : Fin 128, Vg7 c V (ix2 (0 : Fin 1) ⟨512 * 7 + 128 * kt.val + cc.val, by have := kt.isLt; have := cc.isLt; omega⟩) * VW7 c V (ix2 (⟨512 * 7 + 128 * kt.val + cc.val, by have := kt.isLt; have := cc.isLt; omega⟩ : Fin 4096) n))) := by
  unfold accAt7
  refine (acc7_apply (grid7.coords t) kt ((coords7_val t).trans hk) (iblk7 c V 0 t) (iblk7 c V 1 t) (iblk7 c V 2 t) (iblk7 c V 3 t) (iblk7 c V 4 t) (iblk7 c V 5 t) (iblk7 c V 6 t) (iblk7 c V 7 t) (iblk7 c V 8 t) xo n).trans ?_
  simp only [iblk7_g c V t, iblk7_W0 c V t kt hk, iblk7_W1 c V t kt hk, iblk7_W2 c V t kt hk, iblk7_W3 c V t kt hk, iblk7_W4 c V t kt hk, iblk7_W5 c V t kt hk, iblk7_W6 c V t kt hk, iblk7_W7 c V t kt hk]

set_option maxHeartbeats 2000000 in
/-- THE LAYER: after the last point the accumulator at column `n` is the bias plus the gathered row times the weights' column. -/
theorem chain7_apply (n : Fin 2048) :
    chain7 c V t7_3.val t7_3.isLt (ix2 (0 : Fin 1) n)
      = Vb7 c V (ix2 (0 : Fin 1) n) + ∑ k' : Fin 4096, Vg7 c V (ix2 (0 : Fin 1) k') * VW7 c V (ix2 k' n) := by
  have hN : cfg7.N = 4 := N_7
  show accAt7 c V ⟨3, by omega⟩ (accAt7 c V ⟨2, by omega⟩ (accAt7 c V ⟨1, by omega⟩ (accAt7 c V ⟨0, by omega⟩ (k7_pay3 (iblk7 c V 9 ⟨0, by omega⟩))))) (ix2 (0 : Fin 1) n) = _
  rw [accAt7_apply c V ⟨3, by omega⟩ 3 rfl, accAt7_apply c V ⟨2, by omega⟩ 2 rfl, accAt7_apply c V ⟨1, by omega⟩ 1 rfl, accAt7_apply c V ⟨0, by omega⟩ 0 rfl]
  have hb : k7_pay3 (iblk7 c V 9 ⟨0, by omega⟩) (ix2 (0 : Fin 1) n) = Vb7 c V (ix2 (0 : Fin 1) n) := by
    unfold k7_pay3; rw [shapeCast_self]; exact iblk7_b c V _ n
  rw [hb]
  exact layer_sum (fun k' : Fin 4096 => Vg7 c V (ix2 (0 : Fin 1) k') * VW7 c V (ix2 k' n)) (Vb7 c V (ix2 (0 : Fin 1) n))
    (fun (k : Fin 4) (r : Fin 8) => ∑ cc : Fin 128, Vg7 c V (ix2 (0 : Fin 1) ⟨512 * r.val + 128 * k.val + cc.val, by have := r.isLt; have := k.isLt; have := cc.isLt; omega⟩) * VW7 c V (ix2 (⟨512 * r.val + 128 * k.val + cc.val, by have := r.isLt; have := k.isLt; have := cc.isLt; omega⟩ : Fin 4096) n))
    (fun k r => rfl)

end Layer

end Cert.Proof.KI.Gemv1

end
-- ==== Proof.GemvLibV.lean ====
import proofs.«208418_g89945205112833_cont_sun_c4_809_35_alg».proof.Proof.ScPay
import Idealize.ShloMosaic.Lib.Pipeline.Regions

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (UU)

local notation "𝕄" => MT nD τ sig (HIx 4) (Elt F) ℕ UU ℕ
local notation "Tc" => SparseCore.T (nD := nD) (τ := τ)

/-! ## The write-backs read only the array's entry contents and what the body leaves in the window -/

/-- Two proof data that agree on a window's array at entry and on what the body leaves in that window's buffer agree on
    the array after any number of write-backs: nothing else of the data enters `Dat.arrAt`. -/
theorem arrAt_indep {Λ₁ : Labels} {cfg : Pipeline.Cfg sig Λ₁} {c : Dev nD} (dat dat' : Dat τ (Elt F) (HIx 4) ℕ UU ℕ cfg c) (w : Fin cfg.W)
    (hA : dat.A w = dat'.A w) (hafter : ∀ t, dat.after w t = dat'.after w t) : ∀ t, dat.arrAt w t = dat'.arrAt w t
  | 0 => hA
  | t + 1 => by
    have hfl : ∀ u, dat.flushed w u = dat'.flushed w u := fun u => by
      show (cfg.win w).cut (cfg.grid.coords u) (dat.after w u) = (cfg.win w).cut (cfg.grid.coords u) (dat'.after w u)
      rw [hafter]
    unfold Dat.arrAt
    simp only [arrAt_indep dat dat' w hA hafter t, hfl]

end Cert.Proof.KI.Gemv1

end
-- ==== Proof.Gemv1EntryV.lean ====
import proofs.«208418_g89945205112833_cont_sun_c4_809_35_alg».proof.Proof.ScIfaceV
import proofs.«208418_g89945205112833_cont_sun_c4_809_35_alg».proof.Proof.GemvLibV
import proofs.«208418_g89945205112833_cont_sun_c4_809_35_alg».proof.Proof.Gemv1Entry

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU adm regPre regPost regPostV RegionStep RegionStepV)
open Cert.Proof

local notation "𝕄" => MT nD τ sig (HIx 4) (Elt F) ℕ UU ℕ
local notation "Tc" => SparseCore.T (nD := nD) (τ := τ)

/-! ## The region's exit with the output array at named contents -/

/-- The output array after the region: its entry contents with the layer's block overwritten by what the last grid
    point's write-back carried (the accumulator after tanh). Stated at the proof data before call 0: nothing of the
    debt enters it. -/
def regOut0 (c : Dev nD) (V : (b : Ref sig .tc) → Buf (Elt F) ((Tc c).loc b)) : Buf (Elt F) ((Tc c).loc main_v7) :=
  (rdat1 c 0 V).arrAt 10 cfg1.N

/-- The same at the proof data before any call. -/
theorem regOut0_eq (c : Dev nD) (n : ℕ) (V : (b : Ref sig .tc) → Buf (Elt F) ((Tc c).loc b)) :
    (rdat1 c n V).arrAt 10 cfg1.N = regOut0 c V :=
  arrAt_indep (rdat1 c n V) (rdat1 c 0 V) 10 (by dsimp only [rdat1, dat1]) (fun t => by dsimp only [rdat1, dat1]) cfg1.N

set_option maxHeartbeats 4000000 in
/-- EXIT, keeping the output array's contents. -/
theorem exitV1 (c : Dev nD) (n : ℕ) (V : (b : Ref sig .tc) → Buf (Elt F) ((Tc c).loc b)) :
    iprop((rdat1 c n V).arrays ((rdat1 c n V).arrAt · cfg1.N) ∗ (rdat1 c n V).owesAt none (Fin.last cfg1.N) ∗ Z1 c V)
      ⊢ regPostV c n main_v5 main_arg5 main_v6 main_v7 (regOut0 c V) V := by
  rw [← regOut0_eq c n V]
  unfold Dat.arrays Cert.Proof.KI.regPostV Z1
  rw [bigSep_W1]
  rw [arrPt1_0 c n V, arrPt1_1 c n V, arrPt1_2 c n V, arrPt1_3 c n V, arrPt1_4 c n V, arrPt1_5 c n V, arrPt1_6 c n V, arrPt1_7 c n V, arrPt1_8 c n V, arrPt1_9 c n V, arrPt1_10 c n V]
  beta_reduce
  rw [arrAtN_1 c n V 0 rfl, arrAtN_1 c n V 1 rfl, arrAtN_1 c n V 2 rfl, arrAtN_1 c n V 3 rfl, arrAtN_1 c n V 4 rfl, arrAtN_1 c n V 5 rfl, arrAtN_1 c n V 6 rfl, arrAtN_1 c n V 7 rfl, arrAtN_1 c n V 8 rfl, arrAtN_1 c n V 9 rfl]
  show iprop(((((Tc c).loc main_v5) ↦{fullShare} V main_v5) ∗ (((Tc c).loc main_arg5) ↦{Transfers.shareTok fullShare 8 0} V main_arg5) ∗ (((Tc c).loc main_arg5) ↦{Transfers.shareTok fullShare 8 1} V main_arg5) ∗ (((Tc c).loc main_arg5) ↦{Transfers.shareTok fullShare 8 2} V main_arg5) ∗ (((Tc c).loc main_arg5) ↦{Transfers.shareTok fullShare 8 3} V main_arg5) ∗ (((Tc c).loc main_arg5) ↦{Transfers.shareTok fullShare 8 4} V main_arg5) ∗ (((Tc c).loc main_arg5) ↦{Transfers.shareTok fullShare 8 5} V main_arg5) ∗ (((Tc c).loc main_arg5) ↦{Transfers.shareTok fullShare 8 6} V main_arg5) ∗ (((Tc c).loc main_arg5) ↦{Transfers.shareTok fullShare 8 7} V main_arg5) ∗ (((Tc c).loc main_v6) ↦{fullShare} V main_v6) ∗ (((Tc c).loc main_v7) ↦{fullShare} (rdat1 c n V).arrAt 10 cfg1.N)) ∗ (rdat1 c n V).owesAt none (Fin.last cfg1.N) ∗ (((Tc c).loc main_arg5) ↦{Transfers.shareDrop fullShare 8} V main_arg5))
    ⊢ iprop((∃ W, ⌜(K (F := F)).WBelow (Tc c) W (8 * n)⌝ ∗ owes (Tc c) ((K (F := F)).Otc c n) W) ∗ (((Tc c).loc main_v5) ↦{fullShare} V main_v5) ∗ (((Tc c).loc main_arg5) ↦{fullShare} V main_arg5) ∗ (((Tc c).loc main_v6) ↦{fullShare} V main_v6) ∗ (((Tc c).loc main_v7) ↦{fullShare} (rdat1 c n V).arrAt 10 cfg1.N))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg1.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexact Ho

end Cert.Proof.KI.Gemv1

end
-- ==== Proof.Gemv1Read.lean ====
import proofs.«208418_g89945205112833_cont_sun_c4_809_35_alg».proof.Proof.Gemv1EntryV
import proofs.«208418_g89945205112833_cont_sun_c4_809_35_alg».proof.Proof.Gemv1Chain
import Idealize.ShloMosaic.Lib.Pipeline.Value
import Idealize.ShloMosaic.Lib.ValueIdx

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU)
open Cert.Proof

local notation "𝕄" => MT nD τ sig (HIx 4) (Elt F) ℕ UU ℕ
local notation "Tc" => SparseCore.T (nD := nD) (τ := τ)

/-! ## The output array after the region, read at an index -/

/-- Only the last point writes the output block back. -/
theorem flushAt1 (t : Fin cfg1.N) (hf : (cfg1.win 10).flush t = true) : t = t1_3 := by
  have h := (flush1_10 t).mp hf
  have hN : cfg1.N = 4 := N_1
  have hlt := t.isLt
  apply Fin.ext
  show t.val = 3
  omega

/-- Inside the layer's block the output array holds what the last point left: tanh of the running accumulator. -/
theorem regOut0_emb (c : Dev nD) (V : (b : Ref sig .tc) → Buf (Elt F) ((Tc c).loc b)) (y : ((cfg1.win 10).xblock (grid1.coords t1_3)).Idx) :
    regOut0 c V (((cfg1.win 10).blk t1_3).view.emb y) = k1_pay2 (chain1 c V t1_3.val t1_3.isLt) y := by
  unfold regOut0 rdat1
  rw [Dat.arrAt_emb_eq_flushed _ 10 (fun t t' hf hf' hne => absurd ((flushAt1 t hf).trans (flushAt1 t' hf').symm) hne) t1_3 ((flush1_10 t1_3).mpr rfl) y, cast_eq]
  show (cfg1.win 10).cut (grid1.coords t1_3) ((dat1 (Name := ℕ) (U := UU) 𝒱₀ c V (Φr1 c) q1 ((K (F := F)).Otc c 0) (LibScRegion.rcAt (K (F := F)) c 0)).after 10 t1_3) y = _
  rw [after1_10, outsAt1_eq, if_pos (show t1_3.val % 4 = 3 from rfl)]

/-- Outside it the array is as the region found it. -/
theorem regOut0_notMem (c : Dev nD) (V : (b : Ref sig .tc) → Buf (Elt F) ((Tc c).loc b)) (i : S1x16384.Idx)
    (hi : i ∉ ((cfg1.win 10).blk t1_3).view.set) : regOut0 c V i = V main_v7 i := by
  unfold regOut0
  exact (Dat.arrAt_apply_of_forall_not_mem (rdat1 c 0 V) 10 cfg1.N i (fun t _ hf => by rw [flushAt1 t hf]; exact hi)).trans rfl

/-- Where the block's elements sit in the array: row 0, columns from 4096. -/
theorem emb1_val (y : ((cfg1.win 10).xblock (grid1.coords t1_3)).Idx) :
    ((((cfg1.win 10).blk t1_3).view.emb y) 0 : ℕ) = (y 0 : ℕ) ∧ ((((cfg1.win 10).blk t1_3).view.emb y) 1 : ℕ) = 4096 + (y 1 : ℕ) := by
  have h0 : win1_10.index t1_3 0 * win1_10.size 0 = 0 := by decide +kernel
  have h1 : win1_10.index t1_3 1 * win1_10.size 1 = 4096 := by decide +kernel
  constructor
  · have := (cfg1.win 10).rect_emb_val t1_3 y 0
    show (((cfg1.win 10).rect t1_3).emb y 0 : ℕ) = _
    rw [this]; show win1_10.index t1_3 0 * win1_10.size 0 + (y 0 : ℕ) = _; rw [h0]; omega
  · have := (cfg1.win 10).rect_emb_val t1_3 y 1
    show (((cfg1.win 10).rect t1_3).emb y 1 : ℕ) = _
    rw [this]; show win1_10.index t1_3 1 * win1_10.size 1 + (y 1 : ℕ) = _; rw [h1]

/-- An index of the array is in the block iff its column is in the layer's range. -/
theorem mem_blk1 (i : S1x16384.Idx) :
    i ∈ ((cfg1.win 10).blk t1_3).view.set ↔ 4096 ≤ (i 1 : ℕ) ∧ (i 1 : ℕ) < 8192 := by
  have h0 : win1_10.index t1_3 0 * win1_10.size 0 = 0 := by decide +kernel
  have h1 : win1_10.index t1_3 1 * win1_10.size 1 = 4096 := by decide +kernel
  have hx0 : win1_10.xsize (grid1.coords t1_3) 0 = 1 := by decide +kernel
  have hx1 : win1_10.xsize (grid1.coords t1_3) 1 = 4096 := by decide +kernel
  show i ∈ ((View.whole main_v7).slice (win1_10.rect t1_3)).set ↔ _
  rw [View.set_slice_whole, Rect.mem_set_unit]
  have hi0 : (i 0 : ℕ) < 1 := (i 0).isLt
  constructor
  · intro h
    have := h 1
    change win1_10.index t1_3 1 * win1_10.size 1 ≤ (i 1 : ℕ) ∧ (i 1 : ℕ) < win1_10.index t1_3 1 * win1_10.size 1 + win1_10.xsize (grid1.coords t1_3) 1 at this
    rw [h1, hx1] at this; omega
  · intro h a
    match a with
    | ⟨0, _⟩ =>
      show win1_10.index t1_3 0 * win1_10.size 0 ≤ (i 0 : ℕ) ∧ (i 0 : ℕ) < win1_10.index t1_3 0 * win1_10.size 0 + win1_10.xsize (grid1.coords t1_3) 0
      rw [h0, hx0]; omega
    | ⟨1, _⟩ =>
      show win1_10.index t1_3 1 * win1_10.size 1 ≤ (i 1 : ℕ) ∧ (i 1 : ℕ) < win1_10.index t1_3 1 * win1_10.size 1 + win1_10.xsize (grid1.coords t1_3) 1
      rw [h1, hx1]; omega

end Cert.Proof.KI.Gemv1

end
-- ==== Proof.Gemv3EntryV.lean ====
import proofs.«208418_g89945205112833_cont_sun_c4_809_35_alg».proof.Proof.ScIfaceV
import proofs.«208418_g89945205112833_cont_sun_c4_809_35_alg».proof.Proof.GemvLibV
import proofs.«208418_g89945205112833_cont_sun_c4_809_35_alg».proof.Proof.Gemv3Entry

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU adm regPre regPost regPostV RegionStep RegionStepV)
open Cert.Proof

local notation "𝕄" => MT nD τ sig (HIx 4) (Elt F) ℕ UU ℕ
local notation "Tc" => SparseCore.T (nD := nD) (τ := τ)

/-! ## The region's exit with the output array at named contents -/

/-- The output array after the region: its entry contents with the layer's block overwritten by what the last grid
    point's write-back carried (the accumulator after tanh). Stated at the proof data before call 0: nothing of the
    debt enters it. -/
def regOut1 (c : Dev nD) (V : (b : Ref sig .tc) → Buf (Elt F) ((Tc c).loc b)) : Buf (Elt F) ((Tc c).loc main_v12) :=
  (rdat3 c 0 V).arrAt 10 cfg3.N

/-- The same at the proof data before any call. -/
theorem regOut1_eq (c : Dev nD) (n : ℕ) (V : (b : Ref sig .tc) → Buf (Elt F) ((Tc c).loc b)) :
    (rdat3 c n V).arrAt 10 cfg3.N = regOut1 c V :=
  arrAt_indep (rdat3 c n V) (rdat3 c 0 V) 10 (by dsimp only [rdat3, dat3]) (fun t => by dsimp only [rdat3, dat3]) cfg3.N

set_option maxHeartbeats 4000000 in
/-- EXIT, keeping the output array's contents. -/
theorem exitV3 (c : Dev nD) (n : ℕ) (V : (b : Ref sig .tc) → Buf (Elt F) ((Tc c).loc b)) :
    iprop((rdat3 c n V).arrays ((rdat3 c n V).arrAt · cfg3.N) ∗ (rdat3 c n V).owesAt none (Fin.last cfg3.N) ∗ Z3 c V)
      ⊢ regPostV c n main_v10 main_arg6 main_v11 main_v12 (regOut1 c V) V := by
  rw [← regOut1_eq c n V]
  unfold Dat.arrays Cert.Proof.KI.regPostV Z3
  rw [bigSep_W3]
  rw [arrPt3_0 c n V, arrPt3_1 c n V, arrPt3_2 c n V, arrPt3_3 c n V, arrPt3_4 c n V, arrPt3_5 c n V, arrPt3_6 c n V, arrPt3_7 c n V, arrPt3_8 c n V, arrPt3_9 c n V, arrPt3_10 c n V]
  beta_reduce
  rw [arrAtN_3 c n V 0 rfl, arrAtN_3 c n V 1 rfl, arrAtN_3 c n V 2 rfl, arrAtN_3 c n V 3 rfl, arrAtN_3 c n V 4 rfl, arrAtN_3 c n V 5 rfl, arrAtN_3 c n V 6 rfl, arrAtN_3 c n V 7 rfl, arrAtN_3 c n V 8 rfl, arrAtN_3 c n V 9 rfl]
  show iprop(((((Tc c).loc main_v10) ↦{fullShare} V main_v10) ∗ (((Tc c).loc main_arg6) ↦{Transfers.shareTok fullShare 8 0} V main_arg6) ∗ (((Tc c).loc main_arg6) ↦{Transfers.shareTok fullShare 8 1} V main_arg6) ∗ (((Tc c).loc main_arg6) ↦{Transfers.shareTok fullShare 8 2} V main_arg6) ∗ (((Tc c).loc main_arg6) ↦{Transfers.shareTok fullShare 8 3} V main_arg6) ∗ (((Tc c).loc main_arg6) ↦{Transfers.shareTok fullShare 8 4} V main_arg6) ∗ (((Tc c).loc main_arg6) ↦{Transfers.shareTok fullShare 8 5} V main_arg6) ∗ (((Tc c).loc main_arg6) ↦{Transfers.shareTok fullShare 8 6} V main_arg6) ∗ (((Tc c).loc main_arg6) ↦{Transfers.shareTok fullShare 8 7} V main_arg6) ∗ (((Tc c).loc main_v11) ↦{fullShare} V main_v11) ∗ (((Tc c).loc main_v12) ↦{fullShare} (rdat3 c n V).arrAt 10 cfg3.N)) ∗ (rdat3 c n V).owesAt none (Fin.last cfg3.N) ∗ (((Tc c).loc main_arg6) ↦{Transfers.shareDrop fullShare 8} V main_arg6))
    ⊢ iprop((∃ W, ⌜(K (F := F)).WBelow (Tc c) W (8 * n)⌝ ∗ owes (Tc c) ((K (F := F)).Otc c n) W) ∗ (((Tc c).loc main_v10) ↦{fullShare} V main_v10) ∗ (((Tc c).loc main_arg6) ↦{fullShare} V main_arg6) ∗ (((Tc c).loc main_v11) ↦{fullShare} V main_v11) ∗ (((Tc c).loc main_v12) ↦{fullShare} (rdat3 c n V).arrAt 10 cfg3.N))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg3.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexact Ho

end Cert.Proof.KI.Gemv1

end
-- ==== Proof.Gemv3Read.lean ====
import proofs.«208418_g89945205112833_cont_sun_c4_809_35_alg».proof.Proof.Gemv3EntryV
import proofs.«208418_g89945205112833_cont_sun_c4_809_35_alg».proof.Proof.Gemv3Chain
import Idealize.ShloMosaic.Lib.Pipeline.Value
import Idealize.ShloMosaic.Lib.ValueIdx

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU)
open Cert.Proof

local notation "𝕄" => MT nD τ sig (HIx 4) (Elt F) ℕ UU ℕ
local notation "Tc" => SparseCore.T (nD := nD) (τ := τ)

/-! ## The output array after the region, read at an index -/

/-- Only the last point writes the output block back. -/
theorem flushAt3 (t : Fin cfg3.N) (hf : (cfg3.win 10).flush t = true) : t = t3_3 := by
  have h := (flush3_10 t).mp hf
  have hN : cfg3.N = 4 := N_3
  have hlt := t.isLt
  apply Fin.ext
  show t.val = 3
  omega

/-- Inside the layer's block the output array holds what the last point left: tanh of the running accumulator. -/
theorem regOut1_emb (c : Dev nD) (V : (b : Ref sig .tc) → Buf (Elt F) ((Tc c).loc b)) (y : ((cfg3.win 10).xblock (grid3.coords t3_3)).Idx) :
    regOut1 c V (((cfg3.win 10).blk t3_3).view.emb y) = k3_pay2 (chain3 c V t3_3.val t3_3.isLt) y := by
  unfold regOut1 rdat3
  rw [Dat.arrAt_emb_eq_flushed _ 10 (fun t t' hf hf' hne => absurd ((flushAt3 t hf).trans (flushAt3 t' hf').symm) hne) t3_3 ((flush3_10 t3_3).mpr rfl) y, cast_eq]
  show (cfg3.win 10).cut (grid3.coords t3_3) ((dat3 (Name := ℕ) (U := UU) 𝒱₀ c V (Φr3 c) q3 ((K (F := F)).Otc c 0) (LibScRegion.rcAt (K (F := F)) c 0)).after 10 t3_3) y = _
  rw [after3_10, outsAt3_eq, if_pos (show t3_3.val % 4 = 3 from rfl)]

/-- Outside it the array is as the region found it. -/
theorem regOut1_notMem (c : Dev nD) (V : (b : Ref sig .tc) → Buf (Elt F) ((Tc c).loc b)) (i : S1x16384.Idx)
    (hi : i ∉ ((cfg3.win 10).blk t3_3).view.set) : regOut1 c V i = V main_v12 i := by
  unfold regOut1
  exact (Dat.arrAt_apply_of_forall_not_mem (rdat3 c 0 V) 10 cfg3.N i (fun t _ hf => by rw [flushAt3 t hf]; exact hi)).trans rfl

/-- Where the block's elements sit in the array: row 0, columns from 8192. -/
theorem emb3_val (y : ((cfg3.win 10).xblock (grid3.coords t3_3)).Idx) :
    ((((cfg3.win 10).blk t3_3).view.emb y) 0 : ℕ) = (y 0 : ℕ) ∧ ((((cfg3.win 10).blk t3_3).view.emb y) 1 : ℕ) = 8192 + (y 1 : ℕ) := by
  have h0 : win3_10.index t3_3 0 * win3_10.size 0 = 0 := by decide +kernel
  have h1 : win3_10.index t3_3 1 * win3_10.size 1 = 8192 := by decide +kernel
  constructor
  · have := (cfg3.win 10).rect_emb_val t3_3 y 0
    show (((cfg3.win 10).rect t3_3).emb y 0 : ℕ) = _
    rw [this]; show win3_10.index t3_3 0 * win3_10.size 0 + (y 0 : ℕ) = _; rw [h0]; omega
  · have := (cfg3.win 10).rect_emb_val t3_3 y 1
    show (((cfg3.win 10).rect t3_3).emb y 1 : ℕ) = _
    rw [this]; show win3_10.index t3_3 1 * win3_10.size 1 + (y 1 : ℕ) = _; rw [h1]

/-- An index of the array is in the block iff its column is in the layer's range. -/
theorem mem_blk3 (i : S1x16384.Idx) :
    i ∈ ((cfg3.win 10).blk t3_3).view.set ↔ 8192 ≤ (i 1 : ℕ) ∧ (i 1 : ℕ) < 12288 := by
  have h0 : win3_10.index t3_3 0 * win3_10.size 0 = 0 := by decide +kernel
  have h1 : win3_10.index t3_3 1 * win3_10.size 1 = 8192 := by decide +kernel
  have hx0 : win3_10.xsize (grid3.coords t3_3) 0 = 1 := by decide +kernel
  have hx1 : win3_10.xsize (grid3.coords t3_3) 1 = 4096 := by decide +kernel
  show i ∈ ((View.whole main_v12).slice (win3_10.rect t3_3)).set ↔ _
  rw [View.set_slice_whole, Rect.mem_set_unit]
  have hi0 : (i 0 : ℕ) < 1 := (i 0).isLt
  constructor
  · intro h
    have := h 1
    change win3_10.index t3_3 1 * win3_10.size 1 ≤ (i 1 : ℕ) ∧ (i 1 : ℕ) < win3_10.index t3_3 1 * win3_10.size 1 + win3_10.xsize (grid3.coords t3_3) 1 at this
    rw [h1, hx1] at this; omega
  · intro h a
    match a with
    | ⟨0, _⟩ =>
      show win3_10.index t3_3 0 * win3_10.size 0 ≤ (i 0 : ℕ) ∧ (i 0 : ℕ) < win3_10.index t3_3 0 * win3_10.size 0 + win3_10.xsize (grid3.coords t3_3) 0
      rw [h0, hx0]; omega
    | ⟨1, _⟩ =>
      show win3_10.index t3_3 1 * win3_10.size 1 ≤ (i 1 : ℕ) ∧ (i 1 : ℕ) < win3_10.index t3_3 1 * win3_10.size 1 + win3_10.xsize (grid3.coords t3_3) 1
      rw [h1, hx1]; omega

end Cert.Proof.KI.Gemv1

end
-- ==== Proof.Gemv5EntryV.lean ====
import proofs.«208418_g89945205112833_cont_sun_c4_809_35_alg».proof.Proof.ScIfaceV
import proofs.«208418_g89945205112833_cont_sun_c4_809_35_alg».proof.Proof.GemvLibV
import proofs.«208418_g89945205112833_cont_sun_c4_809_35_alg».proof.Proof.Gemv5Entry

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU adm regPre regPost regPostV RegionStep RegionStepV)
open Cert.Proof

local notation "𝕄" => MT nD τ sig (HIx 4) (Elt F) ℕ UU ℕ
local notation "Tc" => SparseCore.T (nD := nD) (τ := τ)

/-! ## The region's exit with the output array at named contents -/

/-- The output array after the region: its entry contents with the layer's block overwritten by what the last grid
    point's write-back carried (the accumulator after tanh). Stated at the proof data before call 0: nothing of the
    debt enters it. -/
def regOut2 (c : Dev nD) (V : (b : Ref sig .tc) → Buf (Elt F) ((Tc c).loc b)) : Buf (Elt F) ((Tc c).loc main_v17) :=
  (rdat5 c 0 V).arrAt 10 cfg5.N

/-- The same at the proof data before any call. -/
theorem regOut2_eq (c : Dev nD) (n : ℕ) (V : (b : Ref sig .tc) → Buf (Elt F) ((Tc c).loc b)) :
    (rdat5 c n V).arrAt 10 cfg5.N = regOut2 c V :=
  arrAt_indep (rdat5 c n V) (rdat5 c 0 V) 10 (by dsimp only [rdat5, dat5]) (fun t => by dsimp only [rdat5, dat5]) cfg5.N

set_option maxHeartbeats 4000000 in
/-- EXIT, keeping the output array's contents. -/
theorem exitV5 (c : Dev nD) (n : ℕ) (V : (b : Ref sig .tc) → Buf (Elt F) ((Tc c).loc b)) :
    iprop((rdat5 c n V).arrays ((rdat5 c n V).arrAt · cfg5.N) ∗ (rdat5 c n V).owesAt none (Fin.last cfg5.N) ∗ Z5 c V)
      ⊢ regPostV c n main_v15 main_arg7 main_v16 main_v17 (regOut2 c V) V := by
  rw [← regOut2_eq c n V]
  unfold Dat.arrays Cert.Proof.KI.regPostV Z5
  rw [bigSep_W5]
  rw [arrPt5_0 c n V, arrPt5_1 c n V, arrPt5_2 c n V, arrPt5_3 c n V, arrPt5_4 c n V, arrPt5_5 c n V, arrPt5_6 c n V, arrPt5_7 c n V, arrPt5_8 c n V, arrPt5_9 c n V, arrPt5_10 c n V]
  beta_reduce
  rw [arrAtN_5 c n V 0 rfl, arrAtN_5 c n V 1 rfl, arrAtN_5 c n V 2 rfl, arrAtN_5 c n V 3 rfl, arrAtN_5 c n V 4 rfl, arrAtN_5 c n V 5 rfl, arrAtN_5 c n V 6 rfl, arrAtN_5 c n V 7 rfl, arrAtN_5 c n V 8 rfl, arrAtN_5 c n V 9 rfl]
  show iprop(((((Tc c).loc main_v15) ↦{fullShare} V main_v15) ∗ (((Tc c).loc main_arg7) ↦{Transfers.shareTok fullShare 8 0} V main_arg7) ∗ (((Tc c).loc main_arg7) ↦{Transfers.shareTok fullShare 8 1} V main_arg7) ∗ (((Tc c).loc main_arg7) ↦{Transfers.shareTok fullShare 8 2} V main_arg7) ∗ (((Tc c).loc main_arg7) ↦{Transfers.shareTok fullShare 8 3} V main_arg7) ∗ (((Tc c).loc main_arg7) ↦{Transfers.shareTok fullShare 8 4} V main_arg7) ∗ (((Tc c).loc main_arg7) ↦{Transfers.shareTok fullShare 8 5} V main_arg7) ∗ (((Tc c).loc main_arg7) ↦{Transfers.shareTok fullShare 8 6} V main_arg7) ∗ (((Tc c).loc main_arg7) ↦{Transfers.shareTok fullShare 8 7} V main_arg7) ∗ (((Tc c).loc main_v16) ↦{fullShare} V main_v16) ∗ (((Tc c).loc main_v17) ↦{fullShare} (rdat5 c n V).arrAt 10 cfg5.N)) ∗ (rdat5 c n V).owesAt none (Fin.last cfg5.N) ∗ (((Tc c).loc main_arg7) ↦{Transfers.shareDrop fullShare 8} V main_arg7))
    ⊢ iprop((∃ W, ⌜(K (F := F)).WBelow (Tc c) W (8 * n)⌝ ∗ owes (Tc c) ((K (F := F)).Otc c n) W) ∗ (((Tc c).loc main_v15) ↦{fullShare} V main_v15) ∗ (((Tc c).loc main_arg7) ↦{fullShare} V main_arg7) ∗ (((Tc c).loc main_v16) ↦{fullShare} V main_v16) ∗ (((Tc c).loc main_v17) ↦{fullShare} (rdat5 c n V).arrAt 10 cfg5.N))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg5.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexact Ho

end Cert.Proof.KI.Gemv1

end
-- ==== Proof.Gemv5Read.lean ====
import proofs.«208418_g89945205112833_cont_sun_c4_809_35_alg».proof.Proof.Gemv5EntryV
import proofs.«208418_g89945205112833_cont_sun_c4_809_35_alg».proof.Proof.Gemv5Chain
import Idealize.ShloMosaic.Lib.Pipeline.Value
import Idealize.ShloMosaic.Lib.ValueIdx

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU)
open Cert.Proof

local notation "𝕄" => MT nD τ sig (HIx 4) (Elt F) ℕ UU ℕ
local notation "Tc" => SparseCore.T (nD := nD) (τ := τ)

/-! ## The output array after the region, read at an index -/

/-- Only the last point writes the output block back. -/
theorem flushAt5 (t : Fin cfg5.N) (hf : (cfg5.win 10).flush t = true) : t = t5_3 := by
  have h := (flush5_10 t).mp hf
  have hN : cfg5.N = 4 := N_5
  have hlt := t.isLt
  apply Fin.ext
  show t.val = 3
  omega

/-- Inside the layer's block the output array holds what the last point left: tanh of the running accumulator. -/
theorem regOut2_emb (c : Dev nD) (V : (b : Ref sig .tc) → Buf (Elt F) ((Tc c).loc b)) (y : ((cfg5.win 10).xblock (grid5.coords t5_3)).Idx) :
    regOut2 c V (((cfg5.win 10).blk t5_3).view.emb y) = k5_pay2 (chain5 c V t5_3.val t5_3.isLt) y := by
  unfold regOut2 rdat5
  rw [Dat.arrAt_emb_eq_flushed _ 10 (fun t t' hf hf' hne => absurd ((flushAt5 t hf).trans (flushAt5 t' hf').symm) hne) t5_3 ((flush5_10 t5_3).mpr rfl) y, cast_eq]
  show (cfg5.win 10).cut (grid5.coords t5_3) ((dat5 (Name := ℕ) (U := UU) 𝒱₀ c V (Φr5 c) q5 ((K (F := F)).Otc c 0) (LibScRegion.rcAt (K (F := F)) c 0)).after 10 t5_3) y = _
  rw [after5_10, outsAt5_eq, if_pos (show t5_3.val % 4 = 3 from rfl)]

/-- Outside it the array is as the region found it. -/
theorem regOut2_notMem (c : Dev nD) (V : (b : Ref sig .tc) → Buf (Elt F) ((Tc c).loc b)) (i : S1x16384.Idx)
    (hi : i ∉ ((cfg5.win 10).blk t5_3).view.set) : regOut2 c V i = V main_v17 i := by
  unfold regOut2
  exact (Dat.arrAt_apply_of_forall_not_mem (rdat5 c 0 V) 10 cfg5.N i (fun t _ hf => by rw [flushAt5 t hf]; exact hi)).trans rfl

/-- Where the block's elements sit in the array: row 0, columns from 12288. -/
theorem emb5_val (y : ((cfg5.win 10).xblock (grid5.coords t5_3)).Idx) :
    ((((cfg5.win 10).blk t5_3).view.emb y) 0 : ℕ) = (y 0 : ℕ) ∧ ((((cfg5.win 10).blk t5_3).view.emb y) 1 : ℕ) = 12288 + (y 1 : ℕ) := by
  have h0 : win5_10.index t5_3 0 * win5_10.size 0 = 0 := by decide +kernel
  have h1 : win5_10.index t5_3 1 * win5_10.size 1 = 12288 := by decide +kernel
  constructor
  · have := (cfg5.win 10).rect_emb_val t5_3 y 0
    show (((cfg5.win 10).rect t5_3).emb y 0 : ℕ) = _
    rw [this]; show win5_10.index t5_3 0 * win5_10.size 0 + (y 0 : ℕ) = _; rw [h0]; omega
  · have := (cfg5.win 10).rect_emb_val t5_3 y 1
    show (((cfg5.win 10).rect t5_3).emb y 1 : ℕ) = _
    rw [this]; show win5_10.index t5_3 1 * win5_10.size 1 + (y 1 : ℕ) = _; rw [h1]

/-- An index of the array is in the block iff its column is in the layer's range. -/
theorem mem_blk5 (i : S1x16384.Idx) :
    i ∈ ((cfg5.win 10).blk t5_3).view.set ↔ 12288 ≤ (i 1 : ℕ) ∧ (i 1 : ℕ) < 16384 := by
  have h0 : win5_10.index t5_3 0 * win5_10.size 0 = 0 := by decide +kernel
  have h1 : win5_10.index t5_3 1 * win5_10.size 1 = 12288 := by decide +kernel
  have hx0 : win5_10.xsize (grid5.coords t5_3) 0 = 1 := by decide +kernel
  have hx1 : win5_10.xsize (grid5.coords t5_3) 1 = 4096 := by decide +kernel
  show i ∈ ((View.whole main_v17).slice (win5_10.rect t5_3)).set ↔ _
  rw [View.set_slice_whole, Rect.mem_set_unit]
  have hi0 : (i 0 : ℕ) < 1 := (i 0).isLt
  constructor
  · intro h
    have := h 1
    change win5_10.index t5_3 1 * win5_10.size 1 ≤ (i 1 : ℕ) ∧ (i 1 : ℕ) < win5_10.index t5_3 1 * win5_10.size 1 + win5_10.xsize (grid5.coords t5_3) 1 at this
    rw [h1, hx1] at this; omega
  · intro h a
    match a with
    | ⟨0, _⟩ =>
      show win5_10.index t5_3 0 * win5_10.size 0 ≤ (i 0 : ℕ) ∧ (i 0 : ℕ) < win5_10.index t5_3 0 * win5_10.size 0 + win5_10.xsize (grid5.coords t5_3) 0
      rw [h0, hx0]; omega
    | ⟨1, _⟩ =>
      show win5_10.index t5_3 1 * win5_10.size 1 ≤ (i 1 : ℕ) ∧ (i 1 : ℕ) < win5_10.index t5_3 1 * win5_10.size 1 + win5_10.xsize (grid5.coords t5_3) 1
      rw [h1, hx1]; omega

end Cert.Proof.KI.Gemv1

end
-- ==== Proof.Gemv7EntryV.lean ====
import proofs.«208418_g89945205112833_cont_sun_c4_809_35_alg».proof.Proof.ScIfaceV
import proofs.«208418_g89945205112833_cont_sun_c4_809_35_alg».proof.Proof.GemvLibV
import proofs.«208418_g89945205112833_cont_sun_c4_809_35_alg».proof.Proof.Gemv7Entry

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU adm regPre regPost regPostV RegionStep RegionStepV)
open Cert.Proof

local notation "𝕄" => MT nD τ sig (HIx 4) (Elt F) ℕ UU ℕ
local notation "Tc" => SparseCore.T (nD := nD) (τ := τ)

/-! ## The region's exit with the output array at named contents -/

/-- The output array after the region: its entry contents with the layer's block overwritten by what the last grid
    point's write-back carried (the accumulator after tanh). Stated at the proof data before call 0: nothing of the
    debt enters it. -/
def regOut3 (c : Dev nD) (V : (b : Ref sig .tc) → Buf (Elt F) ((Tc c).loc b)) : Buf (Elt F) ((Tc c).loc main_v22) :=
  (rdat7 c 0 V).arrAt 10 cfg7.N

/-- The same at the proof data before any call. -/
theorem regOut3_eq (c : Dev nD) (n : ℕ) (V : (b : Ref sig .tc) → Buf (Elt F) ((Tc c).loc b)) :
    (rdat7 c n V).arrAt 10 cfg7.N = regOut3 c V :=
  arrAt_indep (rdat7 c n V) (rdat7 c 0 V) 10 (by dsimp only [rdat7, dat7]) (fun t => by dsimp only [rdat7, dat7]) cfg7.N

set_option maxHeartbeats 4000000 in
/-- EXIT, keeping the output array's contents. -/
theorem exitV7 (c : Dev nD) (n : ℕ) (V : (b : Ref sig .tc) → Buf (Elt F) ((Tc c).loc b)) :
    iprop((rdat7 c n V).arrays ((rdat7 c n V).arrAt · cfg7.N) ∗ (rdat7 c n V).owesAt none (Fin.last cfg7.N) ∗ Z7 c V)
      ⊢ regPostV c n main_v20 main_arg8 main_v21 main_v22 (regOut3 c V) V := by
  rw [← regOut3_eq c n V]
  unfold Dat.arrays Cert.Proof.KI.regPostV Z7
  rw [bigSep_W7]
  rw [arrPt7_0 c n V, arrPt7_1 c n V, arrPt7_2 c n V, arrPt7_3 c n V, arrPt7_4 c n V, arrPt7_5 c n V, arrPt7_6 c n V, arrPt7_7 c n V, arrPt7_8 c n V, arrPt7_9 c n V, arrPt7_10 c n V]
  beta_reduce
  rw [arrAtN_7 c n V 0 rfl, arrAtN_7 c n V 1 rfl, arrAtN_7 c n V 2 rfl, arrAtN_7 c n V 3 rfl, arrAtN_7 c n V 4 rfl, arrAtN_7 c n V 5 rfl, arrAtN_7 c n V 6 rfl, arrAtN_7 c n V 7 rfl, arrAtN_7 c n V 8 rfl, arrAtN_7 c n V 9 rfl]
  show iprop(((((Tc c).loc main_v20) ↦{fullShare} V main_v20) ∗ (((Tc c).loc main_arg8) ↦{Transfers.shareTok fullShare 8 0} V main_arg8) ∗ (((Tc c).loc main_arg8) ↦{Transfers.shareTok fullShare 8 1} V main_arg8) ∗ (((Tc c).loc main_arg8) ↦{Transfers.shareTok fullShare 8 2} V main_arg8) ∗ (((Tc c).loc main_arg8) ↦{Transfers.shareTok fullShare 8 3} V main_arg8) ∗ (((Tc c).loc main_arg8) ↦{Transfers.shareTok fullShare 8 4} V main_arg8) ∗ (((Tc c).loc main_arg8) ↦{Transfers.shareTok fullShare 8 5} V main_arg8) ∗ (((Tc c).loc main_arg8) ↦{Transfers.shareTok fullShare 8 6} V main_arg8) ∗ (((Tc c).loc main_arg8) ↦{Transfers.shareTok fullShare 8 7} V main_arg8) ∗ (((Tc c).loc main_v21) ↦{fullShare} V main_v21) ∗ (((Tc c).loc main_v22) ↦{fullShare} (rdat7 c n V).arrAt 10 cfg7.N)) ∗ (rdat7 c n V).owesAt none (Fin.last cfg7.N) ∗ (((Tc c).loc main_arg8) ↦{Transfers.shareDrop fullShare 8} V main_arg8))
    ⊢ iprop((∃ W, ⌜(K (F := F)).WBelow (Tc c) W (8 * n)⌝ ∗ owes (Tc c) ((K (F := F)).Otc c n) W) ∗ (((Tc c).loc main_v20) ↦{fullShare} V main_v20) ∗ (((Tc c).loc main_arg8) ↦{fullShare} V main_arg8) ∗ (((Tc c).loc main_v21) ↦{fullShare} V main_v21) ∗ (((Tc c).loc main_v22) ↦{fullShare} (rdat7 c n V).arrAt 10 cfg7.N))
  iintro ⟨⟨Hg, H0, H1, H2, H3, H4, H5, H6, H7, Hb, Ho⟩, ⟨%W, %hW, HO⟩, Hrem⟩
  isplitl [HO]
  · iexists W; isplitr
    · ipureintro
      exact LibScRegion.wbelow_of_bound (K (F := F)) c n W (cfg7.waitPairs none) (fun pr hpr => by obtain ⟨w, s, h⟩ := hpr; rw [h]) (fun pr hpr => hW hpr)
    iexact HO
  isplitl [Hg]; · iexact Hg
  isplitl [Hrem H0 H1 H2 H3 H4 H5 H6 H7]
  · iapply (join8 (F := F) _ _)
    isplitl [Hrem]; · iexact Hrem
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hb]; · iexact Hb
  iexact Ho

end Cert.Proof.KI.Gemv1

end
-- ==== Proof.Gemv7Read.lean ====
import proofs.«208418_g89945205112833_cont_sun_c4_809_35_alg».proof.Proof.Gemv7EntryV
import proofs.«208418_g89945205112833_cont_sun_c4_809_35_alg».proof.Proof.Gemv7Chain
import Idealize.ShloMosaic.Lib.Pipeline.Value
import Idealize.ShloMosaic.Lib.ValueIdx

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU)
open Cert.Proof

local notation "𝕄" => MT nD τ sig (HIx 4) (Elt F) ℕ UU ℕ
local notation "Tc" => SparseCore.T (nD := nD) (τ := τ)

/-! ## The output array after the region, read at an index -/

/-- Only the last point writes the output block back. -/
theorem flushAt7 (t : Fin cfg7.N) (hf : (cfg7.win 10).flush t = true) : t = t7_3 := by
  have h := (flush7_10 t).mp hf
  have hN : cfg7.N = 4 := N_7
  have hlt := t.isLt
  apply Fin.ext
  show t.val = 3
  omega

/-- Inside the layer's block the output array holds what the last point left: tanh of the running accumulator. -/
theorem regOut3_emb (c : Dev nD) (V : (b : Ref sig .tc) → Buf (Elt F) ((Tc c).loc b)) (y : ((cfg7.win 10).xblock (grid7.coords t7_3)).Idx) :
    regOut3 c V (((cfg7.win 10).blk t7_3).view.emb y) = k7_pay2 (chain7 c V t7_3.val t7_3.isLt) y := by
  unfold regOut3 rdat7
  rw [Dat.arrAt_emb_eq_flushed _ 10 (fun t t' hf hf' hne => absurd ((flushAt7 t hf).trans (flushAt7 t' hf').symm) hne) t7_3 ((flush7_10 t7_3).mpr rfl) y, cast_eq]
  show (cfg7.win 10).cut (grid7.coords t7_3) ((dat7 (Name := ℕ) (U := UU) 𝒱₀ c V (Φr7 c) q7 ((K (F := F)).Otc c 0) (LibScRegion.rcAt (K (F := F)) c 0)).after 10 t7_3) y = _
  rw [after7_10, outsAt7_eq, if_pos (show t7_3.val % 4 = 3 from rfl)]

/-- Outside it the array is as the region found it. -/
theorem regOut3_notMem (c : Dev nD) (V : (b : Ref sig .tc) → Buf (Elt F) ((Tc c).loc b)) (i : S1x2048.Idx)
    (hi : i ∉ ((cfg7.win 10).blk t7_3).view.set) : regOut3 c V i = V main_v22 i := by
  unfold regOut3
  exact (Dat.arrAt_apply_of_forall_not_mem (rdat7 c 0 V) 10 cfg7.N i (fun t _ hf => by rw [flushAt7 t hf]; exact hi)).trans rfl

/-- Where the block's elements sit in the array: row 0, columns from 0. -/
theorem emb7_val (y : ((cfg7.win 10).xblock (grid7.coords t7_3)).Idx) :
    ((((cfg7.win 10).blk t7_3).view.emb y) 0 : ℕ) = (y 0 : ℕ) ∧ ((((cfg7.win 10).blk t7_3).view.emb y) 1 : ℕ) = 0 + (y 1 : ℕ) := by
  have h0 : win7_10.index t7_3 0 * win7_10.size 0 = 0 := by decide +kernel
  have h1 : win7_10.index t7_3 1 * win7_10.size 1 = 0 := by decide +kernel
  constructor
  · have := (cfg7.win 10).rect_emb_val t7_3 y 0
    show (((cfg7.win 10).rect t7_3).emb y 0 : ℕ) = _
    rw [this]; show win7_10.index t7_3 0 * win7_10.size 0 + (y 0 : ℕ) = _; rw [h0]; omega
  · have := (cfg7.win 10).rect_emb_val t7_3 y 1
    show (((cfg7.win 10).rect t7_3).emb y 1 : ℕ) = _
    rw [this]; show win7_10.index t7_3 1 * win7_10.size 1 + (y 1 : ℕ) = _; rw [h1]

/-- An index of the array is in the block iff its column is in the layer's range. -/
theorem mem_blk7 (i : S1x2048.Idx) :
    i ∈ ((cfg7.win 10).blk t7_3).view.set ↔ 0 ≤ (i 1 : ℕ) ∧ (i 1 : ℕ) < 2048 := by
  have h0 : win7_10.index t7_3 0 * win7_10.size 0 = 0 := by decide +kernel
  have h1 : win7_10.index t7_3 1 * win7_10.size 1 = 0 := by decide +kernel
  have hx0 : win7_10.xsize (grid7.coords t7_3) 0 = 1 := by decide +kernel
  have hx1 : win7_10.xsize (grid7.coords t7_3) 1 = 2048 := by decide +kernel
  show i ∈ ((View.whole main_v22).slice (win7_10.rect t7_3)).set ↔ _
  rw [View.set_slice_whole, Rect.mem_set_unit]
  have hi0 : (i 0 : ℕ) < 1 := (i 0).isLt
  constructor
  · intro h
    have := h 1
    change win7_10.index t7_3 1 * win7_10.size 1 ≤ (i 1 : ℕ) ∧ (i 1 : ℕ) < win7_10.index t7_3 1 * win7_10.size 1 + win7_10.xsize (grid7.coords t7_3) 1 at this
    rw [h1, hx1] at this; omega
  · intro h a
    match a with
    | ⟨0, _⟩ =>
      show win7_10.index t7_3 0 * win7_10.size 0 ≤ (i 0 : ℕ) ∧ (i 0 : ℕ) < win7_10.index t7_3 0 * win7_10.size 0 + win7_10.xsize (grid7.coords t7_3) 0
      rw [h0, hx0]; omega
    | ⟨1, _⟩ =>
      show win7_10.index t7_3 1 * win7_10.size 1 ≤ (i 1 : ℕ) ∧ (i 1 : ℕ) < win7_10.index t7_3 1 * win7_10.size 1 + win7_10.xsize (grid7.coords t7_3) 1
      rw [h1, hx1]; omega

end Cert.Proof.KI.Gemv1

end
-- ==== Proof.GemvRead.lean ====
import proofs.«208418_g89945205112833_cont_sun_c4_809_35_alg».proof.Proof.GemvIdeal1
import proofs.«208418_g89945205112833_cont_sun_c4_809_35_alg».proof.Proof.GemvIdeal3
import proofs.«208418_g89945205112833_cont_sun_c4_809_35_alg».proof.Proof.GemvIdeal5
import proofs.«208418_g89945205112833_cont_sun_c4_809_35_alg».proof.Proof.GemvIdeal7
import proofs.«208418_g89945205112833_cont_sun_c4_809_35_alg».proof.Proof.Gemv1Read
import proofs.«208418_g89945205112833_cont_sun_c4_809_35_alg».proof.Proof.Gemv3Read
import proofs.«208418_g89945205112833_cont_sun_c4_809_35_alg».proof.Proof.Gemv5Read
import proofs.«208418_g89945205112833_cont_sun_c4_809_35_alg».proof.Proof.Gemv7Read

set_option maxRecDepth 16384

noncomputable section

namespace Cert.Proof.KI.Gemv1

open Idealize.ShloMosaic Idealize.ShloMosaic.TcCoe Idealize.ShloMosaic.ValueIdx
open Idealize.SL.Sem
open Cert.KernelIdeal Cert.KernelIdeal.Gen
open scoped BigOperators

/-! ## The four regions' outputs at the ideal values, read at a column

Inside the layer's block of columns the output row holds tanh of the bias plus the gathered row times the weights'
column; outside it the row is as the region found it. -/

set_option maxHeartbeats 1000000 in
/-- Layer 0: inside its block. -/
theorem regOut0_in (d : Dev nD) (Vc : (r : Ref sig .tc) → Buf (Elt Ideal) ((SparseCore.T d : Thread nD τ).loc r)) (s : Fin 16384) (n : Fin 4096) (h : s.val = 4096 + n.val) :
    regOut0 (F := Ideal) d Vc (ix2 (0 : Fin 1) s) = Ideal.tanh (Vb1 d Vc (ix2 (0 : Fin 1) n) + ∑ k : Fin 4096, Vg1 d Vc (ix2 (0 : Fin 1) k) * VW1 d Vc (ix2 k n)) := by
  have hy := emb1_val (ix2 (0 : Fin 1) n)
  have he : (ix2 (0 : Fin 1) s : S1x16384.Idx) = ((cfg1.win 10).blk t1_3).view.emb (ix2 (0 : Fin 1) n) := by
    funext a; apply Fin.ext
    match a with
    | ⟨0, _⟩ => exact hy.1.symm
    | ⟨1, _⟩ => exact h.trans hy.2.symm
  show regOut0 (F := Ideal) d Vc (ix2 (0 : Fin 1) s) = _
  rw [he, regOut0_emb]
  unfold k1_pay2
  rw [shapeCast_self]
  show Ideal.tanh (chain1 d Vc t1_3.val t1_3.isLt (ix2 (0 : Fin 1) n)) = _
  rw [chain1_apply]

/-- Layer 0: outside its block the row is unchanged. -/
theorem regOut0_out (d : Dev nD) (Vc : (r : Ref sig .tc) → Buf (Elt Ideal) ((SparseCore.T d : Thread nD τ).loc r)) (s : Fin 16384) (h : ¬(4096 ≤ s.val ∧ s.val < 8192)) :
    regOut0 (F := Ideal) d Vc (ix2 (0 : Fin 1) s) = Vc main_v7 (ix2 (0 : Fin 1) s) :=
  regOut0_notMem d Vc (ix2 (0 : Fin 1) s) fun hm => h ((mem_blk1 (ix2 (0 : Fin 1) s)).mp hm)

set_option maxHeartbeats 1000000 in
/-- Layer 1: inside its block. -/
theorem regOut1_in (d : Dev nD) (Vc : (r : Ref sig .tc) → Buf (Elt Ideal) ((SparseCore.T d : Thread nD τ).loc r)) (s : Fin 16384) (n : Fin 4096) (h : s.val = 8192 + n.val) :
    regOut1 (F := Ideal) d Vc (ix2 (0 : Fin 1) s) = Ideal.tanh (Vb3 d Vc (ix2 (0 : Fin 1) n) + ∑ k : Fin 4096, Vg3 d Vc (ix2 (0 : Fin 1) k) * VW3 d Vc (ix2 k n)) := by
  have hy := emb3_val (ix2 (0 : Fin 1) n)
  have he : (ix2 (0 : Fin 1) s : S1x16384.Idx) = ((cfg3.win 10).blk t3_3).view.emb (ix2 (0 : Fin 1) n) := by
    funext a; apply Fin.ext
    match a with
    | ⟨0, _⟩ => exact hy.1.symm
    | ⟨1, _⟩ => exact h.trans hy.2.symm
  show regOut1 (F := Ideal) d Vc (ix2 (0 : Fin 1) s) = _
  rw [he, regOut1_emb]
  unfold k3_pay2
  rw [shapeCast_self]
  show Ideal.tanh (chain3 d Vc t3_3.val t3_3.isLt (ix2 (0 : Fin 1) n)) = _
  rw [chain3_apply]

/-- Layer 1: outside its block the row is unchanged. -/
theorem regOut1_out (d : Dev nD) (Vc : (r : Ref sig .tc) → Buf (Elt Ideal) ((SparseCore.T d : Thread nD τ).loc r)) (s : Fin 16384) (h : ¬(8192 ≤ s.val ∧ s.val < 12288)) :
    regOut1 (F := Ideal) d Vc (ix2 (0 : Fin 1) s) = Vc main_v12 (ix2 (0 : Fin 1) s) :=
  regOut1_notMem d Vc (ix2 (0 : Fin 1) s) fun hm => h ((mem_blk3 (ix2 (0 : Fin 1) s)).mp hm)

set_option maxHeartbeats 1000000 in
/-- Layer 2: inside its block. -/
theorem regOut2_in (d : Dev nD) (Vc : (r : Ref sig .tc) → Buf (Elt Ideal) ((SparseCore.T d : Thread nD τ).loc r)) (s : Fin 16384) (n : Fin 4096) (h : s.val = 12288 + n.val) :
    regOut2 (F := Ideal) d Vc (ix2 (0 : Fin 1) s) = Ideal.tanh (Vb5 d Vc (ix2 (0 : Fin 1) n) + ∑ k : Fin 4096, Vg5 d Vc (ix2 (0 : Fin 1) k) * VW5 d Vc (ix2 k n)) := by
  have hy := emb5_val (ix2 (0 : Fin 1) n)
  have he : (ix2 (0 : Fin 1) s : S1x16384.Idx) = ((cfg5.win 10).blk t5_3).view.emb (ix2 (0 : Fin 1) n) := by
    funext a; apply Fin.ext
    match a with
    | ⟨0, _⟩ => exact hy.1.symm
    | ⟨1, _⟩ => exact h.trans hy.2.symm
  show regOut2 (F := Ideal) d Vc (ix2 (0 : Fin 1) s) = _
  rw [he, regOut2_emb]
  unfold k5_pay2
  rw [shapeCast_self]
  show Ideal.tanh (chain5 d Vc t5_3.val t5_3.isLt (ix2 (0 : Fin 1) n)) = _
  rw [chain5_apply]

/-- Layer 2: outside its block the row is unchanged. -/
theorem regOut2_out (d : Dev nD) (Vc : (r : Ref sig .tc) → Buf (Elt Ideal) ((SparseCore.T d : Thread nD τ).loc r)) (s : Fin 16384) (h : ¬(12288 ≤ s.val ∧ s.val < 16384)) :
    regOut2 (F := Ideal) d Vc (ix2 (0 : Fin 1) s) = Vc main_v17 (ix2 (0 : Fin 1) s) :=
  regOut2_notMem d Vc (ix2 (0 : Fin 1) s) fun hm => h ((mem_blk5 (ix2 (0 : Fin 1) s)).mp hm)

set_option maxHeartbeats 1000000 in
/-- The last layer: all 2048 outputs. -/
theorem regOut3_all (d : Dev nD) (Vc : (r : Ref sig .tc) → Buf (Elt Ideal) ((SparseCore.T d : Thread nD τ).loc r)) (n : Fin 2048) :
    regOut3 (F := Ideal) d Vc (ix2 (0 : Fin 1) n) = Ideal.tanh (Vb7 d Vc (ix2 (0 : Fin 1) n) + ∑ k : Fin 4096, Vg7 d Vc (ix2 (0 : Fin 1) k) * VW7 d Vc (ix2 k n)) := by
  have hy := emb7_val (ix2 (0 : Fin 1) n)
  have he : (ix2 (0 : Fin 1) n : S1x2048.Idx) = ((cfg7.win 10).blk t7_3).view.emb (ix2 (0 : Fin 1) n) := by
    funext a; apply Fin.ext
    match a with
    | ⟨0, _⟩ => exact hy.1.symm
    | ⟨1, _⟩ => exact (Nat.zero_add _).symm.trans hy.2.symm
  show regOut3 (F := Ideal) d Vc (ix2 (0 : Fin 1) n) = _
  refine (congrArg (regOut3 (F := Ideal) d Vc) he).trans ?_
  rw [regOut3_emb]
  unfold k7_pay2
  rw [shapeCast_self]
  show Ideal.tanh (chain7 d Vc t7_3.val t7_3.isLt (ix2 (0 : Fin 1) n)) = _
  rw [chain7_apply]

end Cert.Proof.KI.Gemv1

end
-- ==== Proof.KernLayer.lean ====
/-
  One region of the kernel program as one layer of the specification, from any contents of the arrays it is entered with: if the
  state row it finds holds a state, the gathered row holds that state's entries at the table's indices and the bias row holds
  the bias, the region's output holds the state after the layer.
-/
import proofs.«208418_g89945205112833_cont_sun_c4_809_35_alg».proof.Proof.KernSpec
import proofs.«208418_g89945205112833_cont_sun_c4_809_35_alg».proof.Proof.GemvRead

noncomputable section

namespace Cert.Proof.KI

open Cert.KernelIdeal Cert.KernelIdeal.Gen

open Idealize.ShloMosaic Idealize.ShloMosaic.ValueIdx
open Cert.Proof.Spec
open scoped BigOperators

theorem layer0 (d : Dev nD) (Vc : (r : Ref sig .tc) → Buf (Elt Ideal) ((SparseCore.T d : Thread nD τ).loc r)) (St : FV 16384) (ni : IV 4096) (b : FV 4096)
    (hX : ∀ s : Fin 16384, (Vc main_v7 : FVec Ideal S1x16384 .f32) (ix2 (0 : Fin 1) s) = St (ix1 s))
    (hg : ∀ e : Fin 4096, (Vc main_v5 : FVec Ideal S1x4096 .f32) (ix2 (0 : Fin 1) e)
      = (Vc main_v7 : FVec Ideal S1x16384 .f32) (ix2 (0 : Fin 1) ⟨min (ni (ix1 e)).toNat 16383, by omega⟩))
    (hb : ∀ n : Fin 4096, (Vc main_v6 : FVec Ideal S1x4096 .f32) (ix2 (0 : Fin 1) n) = b (ix1 n)) :
    ∀ s : Fin 16384, (Gemv1.regOut0 (F := Ideal) d Vc : FVec Ideal S1x16384 .f32) (ix2 (0 : Fin 1) s)
      = step St 1 ni (Vc main_arg5 : FVec Ideal S4096x4096 .f32) b (ix1 s) :=
  KernSpec.layer_row St (Vc main_v7) (Gemv1.regOut0 (F := Ideal) d Vc) hX 1 (by norm_num) ni (Vc main_arg5) b (Vc main_v5) (Vc main_v6) hg hb
    (fun s n h => Gemv1.regOut0_in d Vc s n (by omega)) (fun s h => Gemv1.regOut0_out d Vc s (by omega))

theorem layer1 (d : Dev nD) (Vc : (r : Ref sig .tc) → Buf (Elt Ideal) ((SparseCore.T d : Thread nD τ).loc r)) (St : FV 16384) (ni : IV 4096) (b : FV 4096)
    (hX : ∀ s : Fin 16384, (Vc main_v12 : FVec Ideal S1x16384 .f32) (ix2 (0 : Fin 1) s) = St (ix1 s))
    (hg : ∀ e : Fin 4096, (Vc main_v10 : FVec Ideal S1x4096 .f32) (ix2 (0 : Fin 1) e)
      = (Vc main_v12 : FVec Ideal S1x16384 .f32) (ix2 (0 : Fin 1) ⟨min (ni (ix1 e)).toNat 16383, by omega⟩))
    (hb : ∀ n : Fin 4096, (Vc main_v11 : FVec Ideal S1x4096 .f32) (ix2 (0 : Fin 1) n) = b (ix1 n)) :
    ∀ s : Fin 16384, (Gemv1.regOut1 (F := Ideal) d Vc : FVec Ideal S1x16384 .f32) (ix2 (0 : Fin 1) s)
      = step St 2 ni (Vc main_arg6 : FVec Ideal S4096x4096 .f32) b (ix1 s) :=
  KernSpec.layer_row St (Vc main_v12) (Gemv1.regOut1 (F := Ideal) d Vc) hX 2 (by norm_num) ni (Vc main_arg6) b (Vc main_v10) (Vc main_v11) hg hb
    (fun s n h => Gemv1.regOut1_in d Vc s n (by omega)) (fun s h => Gemv1.regOut1_out d Vc s (by omega))

theorem layer2 (d : Dev nD) (Vc : (r : Ref sig .tc) → Buf (Elt Ideal) ((SparseCore.T d : Thread nD τ).loc r)) (St : FV 16384) (ni : IV 4096) (b : FV 4096)
    (hX : ∀ s : Fin 16384, (Vc main_v17 : FVec Ideal S1x16384 .f32) (ix2 (0 : Fin 1) s) = St (ix1 s))
    (hg : ∀ e : Fin 4096, (Vc main_v15 : FVec Ideal S1x4096 .f32) (ix2 (0 : Fin 1) e)
      = (Vc main_v17 : FVec Ideal S1x16384 .f32) (ix2 (0 : Fin 1) ⟨min (ni (ix1 e)).toNat 16383, by omega⟩))
    (hb : ∀ n : Fin 4096, (Vc main_v16 : FVec Ideal S1x4096 .f32) (ix2 (0 : Fin 1) n) = b (ix1 n)) :
    ∀ s : Fin 16384, (Gemv1.regOut2 (F := Ideal) d Vc : FVec Ideal S1x16384 .f32) (ix2 (0 : Fin 1) s)
      = step St 3 ni (Vc main_arg7 : FVec Ideal S4096x4096 .f32) b (ix1 s) :=
  KernSpec.layer_row St (Vc main_v17) (Gemv1.regOut2 (F := Ideal) d Vc) hX 3 (by norm_num) ni (Vc main_arg7) b (Vc main_v15) (Vc main_v16) hg hb
    (fun s n h => Gemv1.regOut2_in d Vc s n (by omega)) (fun s h => Gemv1.regOut2_out d Vc s (by omega))

theorem layer3 (d : Dev nD) (Vc : (r : Ref sig .tc) → Buf (Elt Ideal) ((SparseCore.T d : Thread nD τ).loc r)) (St : FV 16384) (X : FVec Ideal S1x16384 .f32) (ni : IV 4096) (b : FV 2048)
    (hX : ∀ s : Fin 16384, X (ix2 (0 : Fin 1) s) = St (ix1 s))
    (hg : ∀ e : Fin 4096, (Vc main_v20 : FVec Ideal S1x4096 .f32) (ix2 (0 : Fin 1) e)
      = X (ix2 (0 : Fin 1) ⟨min (ni (ix1 e)).toNat 16383, by omega⟩))
    (hb : ∀ n : Fin 2048, (Vc main_v21 : FVec Ideal S1x2048 .f32) (ix2 (0 : Fin 1) n) = b (ix1 n)) :
    ∀ n : Fin 2048, (Gemv1.regOut3 (F := Ideal) d Vc : FVec Ideal S1x2048 .f32) (ix2 (0 : Fin 1) n)
      = dense2048 (gath St ni) (Vc main_arg8 : FVec Ideal S4096x2048 .f32) b (ix1 n) :=
  KernSpec.last_row St X hX ni (Vc main_arg8) b (Vc main_v20) (Vc main_v21) (Gemv1.regOut3 (F := Ideal) d Vc) hg hb
    (fun n => Gemv1.regOut3_all d Vc n)

end Cert.Proof.KI

end
-- ==== Proof.GemvRegionsV.lean ====
import proofs.«208418_g89945205112833_cont_sun_c4_809_35_alg».proof.Proof.GemvRegions
import proofs.«208418_g89945205112833_cont_sun_c4_809_35_alg».proof.Proof.Gemv1EntryV
import proofs.«208418_g89945205112833_cont_sun_c4_809_35_alg».proof.Proof.Gemv3EntryV
import proofs.«208418_g89945205112833_cont_sun_c4_809_35_alg».proof.Proof.Gemv5EntryV
import proofs.«208418_g89945205112833_cont_sun_c4_809_35_alg».proof.Proof.Gemv7EntryV

set_option maxRecDepth 16384

noncomputable section

namespace Cert.Proof.KI.Gemv1

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]
open Cert.Proof.KI (K 𝒱₀ 𝒱 D EP UU adm regPre regPost regPostV RegionStep RegionStepV)
open Cert.Proof

local notation "𝕄" => MT nD τ sig (HIx 4) (Elt F) ℕ UU ℕ
local notation "Tc" => SparseCore.T (nD := nD) (τ := τ)

/-! ## The four TensorCore regions as steps of @main's proof, the output array's contents named -/

set_option backward.isDefEq.respectTransparency.types false in
set_option maxHeartbeats 4000000 in
/-- Region 0 as before, left with the output array at `regOut0`. -/
def regV0 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 0 where
  win := winFacts₀1
  block_pos := block_pos1
  stage_whole := stage_whole1
  K := PEmpty
  osem k := k.elim
  ho := Pipeline.OwnSemFacts.none _
  hbody := (reg0 d n V).hbody
  hwaits := (reg0 d n V).hwaits
  pre c := pre1 c n (Vfam d V c)
  post c := regPostV c n main_v5 main_arg5 main_v6 main_v7 (regOut0 c (Vfam d V c)) (Vfam d V c)
  X _ := iprop(emp)
  Y _ := iprop(emp)
  Z c := Z1 c (Vfam d V c)
  hentry := (reg0 d n V).hentry
  hin := (reg0 d n V).hin
  hout := (reg0 d n V).hout
  hexit c := by
    iintro ⟨Ha, HO, -, Hz⟩
    imodintro
    iapply (exitV1 c n (Vfam d V c))
    isplitl [Ha]; · iexact Ha
    isplitl [HO]; · iexact HO
    iexact Hz

set_option maxHeartbeats 4000000 in
/-- The region's custom call in @main runs from the debt and the four arrays to the continuation, which finds the output
    array at `regOut0` and everything else as it was. -/
theorem region_stepV0 [∀ e, Nonempty (Elt F e)] : RegionStepV (F := F) 0 main_v5 main_arg5 main_v6 main_v7 regOut0 := fun d n V Φ => by
  have h := LibScRegion.wp_region_step (pcfgs (F := F)) adm (K (F := F)) (pdats d n V) cellOf_inj (EP (F := F)) defs₀ 𝒱₀ (regV0 d n V) d Φ
  exact h

set_option backward.isDefEq.respectTransparency.types false in
set_option maxHeartbeats 4000000 in
/-- Region 1 as before, left with the output array at `regOut1`. -/
def regV1 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 1 where
  win := winFacts₀3
  block_pos := block_pos3
  stage_whole := stage_whole3
  K := PEmpty
  osem k := k.elim
  ho := Pipeline.OwnSemFacts.none _
  hbody := (reg1 d n V).hbody
  hwaits := (reg1 d n V).hwaits
  pre c := pre3 c n (Vfam d V c)
  post c := regPostV c n main_v10 main_arg6 main_v11 main_v12 (regOut1 c (Vfam d V c)) (Vfam d V c)
  X _ := iprop(emp)
  Y _ := iprop(emp)
  Z c := Z3 c (Vfam d V c)
  hentry := (reg1 d n V).hentry
  hin := (reg1 d n V).hin
  hout := (reg1 d n V).hout
  hexit c := by
    iintro ⟨Ha, HO, -, Hz⟩
    imodintro
    iapply (exitV3 c n (Vfam d V c))
    isplitl [Ha]; · iexact Ha
    isplitl [HO]; · iexact HO
    iexact Hz

set_option maxHeartbeats 4000000 in
/-- The region's custom call in @main runs from the debt and the four arrays to the continuation, which finds the output
    array at `regOut1` and everything else as it was. -/
theorem region_stepV1 [∀ e, Nonempty (Elt F e)] : RegionStepV (F := F) 1 main_v10 main_arg6 main_v11 main_v12 regOut1 := fun d n V Φ => by
  have h := LibScRegion.wp_region_step (pcfgs (F := F)) adm (K (F := F)) (pdats d n V) cellOf_inj (EP (F := F)) defs₀ 𝒱₀ (regV1 d n V) d Φ
  exact h

set_option backward.isDefEq.respectTransparency.types false in
set_option maxHeartbeats 4000000 in
/-- Region 2 as before, left with the output array at `regOut2`. -/
def regV2 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 2 where
  win := winFacts₀5
  block_pos := block_pos5
  stage_whole := stage_whole5
  K := PEmpty
  osem k := k.elim
  ho := Pipeline.OwnSemFacts.none _
  hbody := (reg2 d n V).hbody
  hwaits := (reg2 d n V).hwaits
  pre c := pre5 c n (Vfam d V c)
  post c := regPostV c n main_v15 main_arg7 main_v16 main_v17 (regOut2 c (Vfam d V c)) (Vfam d V c)
  X _ := iprop(emp)
  Y _ := iprop(emp)
  Z c := Z5 c (Vfam d V c)
  hentry := (reg2 d n V).hentry
  hin := (reg2 d n V).hin
  hout := (reg2 d n V).hout
  hexit c := by
    iintro ⟨Ha, HO, -, Hz⟩
    imodintro
    iapply (exitV5 c n (Vfam d V c))
    isplitl [Ha]; · iexact Ha
    isplitl [HO]; · iexact HO
    iexact Hz

set_option maxHeartbeats 4000000 in
/-- The region's custom call in @main runs from the debt and the four arrays to the continuation, which finds the output
    array at `regOut2` and everything else as it was. -/
theorem region_stepV2 [∀ e, Nonempty (Elt F e)] : RegionStepV (F := F) 2 main_v15 main_arg7 main_v16 main_v17 regOut2 := fun d n V Φ => by
  have h := LibScRegion.wp_region_step (pcfgs (F := F)) adm (K (F := F)) (pdats d n V) cellOf_inj (EP (F := F)) defs₀ 𝒱₀ (regV2 d n V) d Φ
  exact h

set_option backward.isDefEq.respectTransparency.types false in
set_option maxHeartbeats 4000000 in
/-- Region 3 as before, left with the output array at `regOut3`. -/
def regV3 (d : Dev nD) (n : ℕ) (V : (b : Ref sig .tc) → Buf (Elt F) ((Tc d).loc b)) :
    Pipeline.RegionSeg (pcfgs (F := F)) adm (pdats d n V) (none : HIx 4) defs₀ 𝒱₀ (K (F := F)).L (K (F := F)).lev 3 where
  win := winFacts₀7
  block_pos := block_pos7
  stage_whole := stage_whole7
  K := PEmpty
  osem k := k.elim
  ho := Pipeline.OwnSemFacts.none _
  hbody := (reg3 d n V).hbody
  hwaits := (reg3 d n V).hwaits
  pre c := pre7 c n (Vfam d V c)
  post c := regPostV c n main_v20 main_arg8 main_v21 main_v22 (regOut3 c (Vfam d V c)) (Vfam d V c)
  X _ := iprop(emp)
  Y _ := iprop(emp)
  Z c := Z7 c (Vfam d V c)
  hentry := (reg3 d n V).hentry
  hin := (reg3 d n V).hin
  hout := (reg3 d n V).hout
  hexit c := by
    iintro ⟨Ha, HO, -, Hz⟩
    imodintro
    iapply (exitV7 c n (Vfam d V c))
    isplitl [Ha]; · iexact Ha
    isplitl [HO]; · iexact HO
    iexact Hz

set_option maxHeartbeats 4000000 in
/-- The region's custom call in @main runs from the debt and the four arrays to the continuation, which finds the output
    array at `regOut3` and everything else as it was. -/
theorem region_stepV3 [∀ e, Nonempty (Elt F e)] : RegionStepV (F := F) 3 main_v20 main_arg8 main_v21 main_v22 regOut3 := fun d n V Φ => by
  have h := LibScRegion.wp_region_step (pcfgs (F := F)) adm (K (F := F)) (pdats d n V) cellOf_inj (EP (F := F)) defs₀ 𝒱₀ (regV3 d n V) d Φ
  exact h

end Cert.Proof.KI.Gemv1

end
-- ==== Proof.KernValue.lean ====
/-
  The kernel program's result as the specification's function: the chain of array contents of @main, read layer by layer —
  the state row after each region is the specification's state after that layer — down to the 2048 outputs.
-/
import proofs.«208418_g89945205112833_cont_sun_c4_809_35_alg».proof.Proof.ScMainV
import proofs.«208418_g89945205112833_cont_sun_c4_809_35_alg».proof.Proof.KernGlue
import proofs.«208418_g89945205112833_cont_sun_c4_809_35_alg».proof.Proof.KernLayer
import proofs.«208418_g89945205112833_cont_sun_c4_809_35_alg».proof.Proof.GemvRegionsV

noncomputable section

namespace Cert.Proof.KI

open Cert.KernelIdeal Cert.KernelIdeal.Gen

open Idealize.ShloMosaic Idealize.ShloMosaic.ValueIdx Idealize.ShloMosaic.StableHlo
open Cert.Proof.Spec
open scoped BigOperators

section Value

variable (m : (ℓ : Loc nD τ sig) → Buf (Elt Ideal) ℓ) (c : Dev nD)

/-- The specification's states, over the launch contents of device `c`. -/
abbrev St0 : FV 16384 := st0 (m (c, dr main_arg0))
abbrev St1 : FV 16384 := step (St0 m c) 1 (m (c, dr main_arg1)) (m (c, dr main_arg5)) (m (c, dr main_arg9))
abbrev St2 : FV 16384 := step (St1 m c) 2 (m (c, dr main_arg2)) (m (c, dr main_arg6)) (m (c, dr main_arg10))
abbrev St3 : FV 16384 := step (St2 m c) 3 (m (c, dr main_arg3)) (m (c, dr main_arg7)) (m (c, dr main_arg11))

/-- The first state row: the inputs followed by zeros. -/
theorem row0 (s : Fin 16384) : (W1 m c (Gemv1.regOut0 (F := Ideal)) (Gemv1.regOut1 (F := Ideal)) (Gemv1.regOut2 (F := Ideal)) (Gemv1.regOut3 (F := Ideal))) (dr main_v2) (ix2 (0 : Fin 1) s) = St0 m c (ix1 s) := by
  rw [W1, ops0_v2]
  exact KernSpec.init_row (m (c, dr main_arg0)) _ _ _ s

/-! ### Layer 0 -/

theorem rowc0 : (W3 m c (Gemv1.regOut0 (F := Ideal)) (Gemv1.regOut1 (F := Ideal)) (Gemv1.regOut2 (F := Ideal)) (Gemv1.regOut3 (F := Ideal))) (dr main_v7) = (W1 m c (Gemv1.regOut0 (F := Ideal)) (Gemv1.regOut1 (F := Ideal)) (Gemv1.regOut2 (F := Ideal)) (Gemv1.regOut3 (F := Ideal))) (dr main_v2) := by rw [W3, ops1_v7, W2, Function.update_of_ne (StableHlo.devRef_ne_of_ne (x := main_v2) (y := main_v4) (by decide))]

theorem g0_eq (e : Fin 4096) : (W3 m c (Gemv1.regOut0 (F := Ideal)) (Gemv1.regOut1 (F := Ideal)) (Gemv1.regOut2 (F := Ideal)) (Gemv1.regOut3 (F := Ideal))) (dr main_v5) (ix2 (0 : Fin 1) e)
    = (W3 m c (Gemv1.regOut0 (F := Ideal)) (Gemv1.regOut1 (F := Ideal)) (Gemv1.regOut2 (F := Ideal)) (Gemv1.regOut3 (F := Ideal))) (dr main_v7) (ix2 (0 : Fin 1) ⟨min ((m (c, dr main_arg1)) (ix1 e)).toNat 16383, by omega⟩) := by
  rw [rowc0, W3, ops1_v5, shapeCast_a_1a_apply, W2, Function.update_self]
  show ((W1 m c (Gemv1.regOut0 (F := Ideal)) (Gemv1.regOut1 (F := Ideal)) (Gemv1.regOut2 (F := Ideal)) (Gemv1.regOut3 (F := Ideal))) (dr main_v3)) (ix1 ⟨min (((W1 m c (Gemv1.regOut0 (F := Ideal)) (Gemv1.regOut1 (F := Ideal)) (Gemv1.regOut2 (F := Ideal)) (Gemv1.regOut3 (F := Ideal))) (dr main_arg1)) (ix1 e)).toNat 16383, by omega⟩) = _
  rw [(show (W1 m c (Gemv1.regOut0 (F := Ideal)) (Gemv1.regOut1 (F := Ideal)) (Gemv1.regOut2 (F := Ideal)) (Gemv1.regOut3 (F := Ideal))) (dr main_v3) = shapeCast S16384 ((W1 m c (Gemv1.regOut0 (F := Ideal)) (Gemv1.regOut1 (F := Ideal)) (Gemv1.regOut2 (F := Ideal)) (Gemv1.regOut3 (F := Ideal))) (dr main_v2)) shapeCasts_S1x16384_S16384 from by rw [W1]; exact ops0_v3 _), shapeCast_1a_a_apply]
  have hk : (W1 m c (Gemv1.regOut0 (F := Ideal)) (Gemv1.regOut1 (F := Ideal)) (Gemv1.regOut2 (F := Ideal)) (Gemv1.regOut3 (F := Ideal))) (dr main_arg1) = m (c, dr main_arg1) := keepsW1 m c (Gemv1.regOut0 (F := Ideal)) (Gemv1.regOut1 (F := Ideal)) (Gemv1.regOut2 (F := Ideal)) (Gemv1.regOut3 (F := Ideal)) main_arg1 (by decide)
  exact congrArg (fun t : Fin 16384 => ((W1 m c (Gemv1.regOut0 (F := Ideal)) (Gemv1.regOut1 (F := Ideal)) (Gemv1.regOut2 (F := Ideal)) (Gemv1.regOut3 (F := Ideal))) (dr main_v2)) (ix2 (0 : Fin 1) t)) (Fin.ext (by show min _ 16383 = min _ 16383; rw [hk]))

theorem b0_eq (n : Fin 4096) : (W3 m c (Gemv1.regOut0 (F := Ideal)) (Gemv1.regOut1 (F := Ideal)) (Gemv1.regOut2 (F := Ideal)) (Gemv1.regOut3 (F := Ideal))) (dr main_v6) (ix2 (0 : Fin 1) n) = (m (c, dr main_arg9)) (ix1 n) := by
  rw [W3, ops1_v6, shapeCast_a_1a_apply, keepsW2 m c (Gemv1.regOut0 (F := Ideal)) (Gemv1.regOut1 (F := Ideal)) (Gemv1.regOut2 (F := Ideal)) (Gemv1.regOut3 (F := Ideal)) main_arg9 (by decide)]

theorem row1 (s : Fin 16384) : (W4 m c (Gemv1.regOut0 (F := Ideal)) (Gemv1.regOut1 (F := Ideal)) (Gemv1.regOut2 (F := Ideal)) (Gemv1.regOut3 (F := Ideal))) (dr main_v7) (ix2 (0 : Fin 1) s) = St1 m c (ix1 s) := by
  rw [W4, Function.update_self]
  have hw : (W3 m c (Gemv1.regOut0 (F := Ideal)) (Gemv1.regOut1 (F := Ideal)) (Gemv1.regOut2 (F := Ideal)) (Gemv1.regOut3 (F := Ideal))) (dr main_arg5) = m (c, dr main_arg5) := keepsW3 m c (Gemv1.regOut0 (F := Ideal)) (Gemv1.regOut1 (F := Ideal)) (Gemv1.regOut2 (F := Ideal)) (Gemv1.regOut3 (F := Ideal)) main_arg5 (by decide)
  have h := layer0 c (fun r => (W3 m c (Gemv1.regOut0 (F := Ideal)) (Gemv1.regOut1 (F := Ideal)) (Gemv1.regOut2 (F := Ideal)) (Gemv1.regOut3 (F := Ideal))) (dr r)) (St0 m c) (m (c, dr main_arg1)) (m (c, dr main_arg9))
    (fun s => by rw [rowc0]; exact row0 m c s) (g0_eq m c) (b0_eq m c) s
  rw [hw] at h
  exact h

/-! ### Layer 1 -/

theorem rowc1 : (W7 m c (Gemv1.regOut0 (F := Ideal)) (Gemv1.regOut1 (F := Ideal)) (Gemv1.regOut2 (F := Ideal)) (Gemv1.regOut3 (F := Ideal))) (dr main_v12) = (W4 m c (Gemv1.regOut0 (F := Ideal)) (Gemv1.regOut1 (F := Ideal)) (Gemv1.regOut2 (F := Ideal)) (Gemv1.regOut3 (F := Ideal))) (dr main_v7) := by rw [W7, ops3_v12, W6, Function.update_of_ne (StableHlo.devRef_ne_of_ne (x := main_v7) (y := main_v9) (by decide)), W5, ops_keep _ (ops2 (F := Ideal)) ops2_W ops2_writes main_v7 (by decide)]

theorem g1_eq (e : Fin 4096) : (W7 m c (Gemv1.regOut0 (F := Ideal)) (Gemv1.regOut1 (F := Ideal)) (Gemv1.regOut2 (F := Ideal)) (Gemv1.regOut3 (F := Ideal))) (dr main_v10) (ix2 (0 : Fin 1) e)
    = (W7 m c (Gemv1.regOut0 (F := Ideal)) (Gemv1.regOut1 (F := Ideal)) (Gemv1.regOut2 (F := Ideal)) (Gemv1.regOut3 (F := Ideal))) (dr main_v12) (ix2 (0 : Fin 1) ⟨min ((m (c, dr main_arg2)) (ix1 e)).toNat 16383, by omega⟩) := by
  rw [rowc1, W7, ops3_v10, shapeCast_a_1a_apply, W6, Function.update_self]
  show ((W5 m c (Gemv1.regOut0 (F := Ideal)) (Gemv1.regOut1 (F := Ideal)) (Gemv1.regOut2 (F := Ideal)) (Gemv1.regOut3 (F := Ideal))) (dr main_v8)) (ix1 ⟨min (((W5 m c (Gemv1.regOut0 (F := Ideal)) (Gemv1.regOut1 (F := Ideal)) (Gemv1.regOut2 (F := Ideal)) (Gemv1.regOut3 (F := Ideal))) (dr main_arg2)) (ix1 e)).toNat 16383, by omega⟩) = _
  rw [(show (W5 m c (Gemv1.regOut0 (F := Ideal)) (Gemv1.regOut1 (F := Ideal)) (Gemv1.regOut2 (F := Ideal)) (Gemv1.regOut3 (F := Ideal))) (dr main_v8) = shapeCast S16384 ((W4 m c (Gemv1.regOut0 (F := Ideal)) (Gemv1.regOut1 (F := Ideal)) (Gemv1.regOut2 (F := Ideal)) (Gemv1.regOut3 (F := Ideal))) (dr main_v7)) shapeCasts_S1x16384_S16384 from by rw [W5]; exact ops2_v8 _), shapeCast_1a_a_apply]
  have hk : (W5 m c (Gemv1.regOut0 (F := Ideal)) (Gemv1.regOut1 (F := Ideal)) (Gemv1.regOut2 (F := Ideal)) (Gemv1.regOut3 (F := Ideal))) (dr main_arg2) = m (c, dr main_arg2) := keepsW5 m c (Gemv1.regOut0 (F := Ideal)) (Gemv1.regOut1 (F := Ideal)) (Gemv1.regOut2 (F := Ideal)) (Gemv1.regOut3 (F := Ideal)) main_arg2 (by decide)
  exact congrArg (fun t : Fin 16384 => ((W4 m c (Gemv1.regOut0 (F := Ideal)) (Gemv1.regOut1 (F := Ideal)) (Gemv1.regOut2 (F := Ideal)) (Gemv1.regOut3 (F := Ideal))) (dr main_v7)) (ix2 (0 : Fin 1) t)) (Fin.ext (by show min _ 16383 = min _ 16383; rw [hk]))

theorem b1_eq (n : Fin 4096) : (W7 m c (Gemv1.regOut0 (F := Ideal)) (Gemv1.regOut1 (F := Ideal)) (Gemv1.regOut2 (F := Ideal)) (Gemv1.regOut3 (F := Ideal))) (dr main_v11) (ix2 (0 : Fin 1) n) = (m (c, dr main_arg10)) (ix1 n) := by
  rw [W7, ops3_v11, shapeCast_a_1a_apply, keepsW6 m c (Gemv1.regOut0 (F := Ideal)) (Gemv1.regOut1 (F := Ideal)) (Gemv1.regOut2 (F := Ideal)) (Gemv1.regOut3 (F := Ideal)) main_arg10 (by decide)]

theorem row2 (s : Fin 16384) : (W8 m c (Gemv1.regOut0 (F := Ideal)) (Gemv1.regOut1 (F := Ideal)) (Gemv1.regOut2 (F := Ideal)) (Gemv1.regOut3 (F := Ideal))) (dr main_v12) (ix2 (0 : Fin 1) s) = St2 m c (ix1 s) := by
  rw [W8, Function.update_self]
  have hw : (W7 m c (Gemv1.regOut0 (F := Ideal)) (Gemv1.regOut1 (F := Ideal)) (Gemv1.regOut2 (F := Ideal)) (Gemv1.regOut3 (F := Ideal))) (dr main_arg6) = m (c, dr main_arg6) := keepsW7 m c (Gemv1.regOut0 (F := Ideal)) (Gemv1.regOut1 (F := Ideal)) (Gemv1.regOut2 (F := Ideal)) (Gemv1.regOut3 (F := Ideal)) main_arg6 (by decide)
  have h := layer1 c (fun r => (W7 m c (Gemv1.regOut0 (F := Ideal)) (Gemv1.regOut1 (F := Ideal)) (Gemv1.regOut2 (F := Ideal)) (Gemv1.regOut3 (F := Ideal))) (dr r)) (St1 m c) (m (c, dr main_arg2)) (m (c, dr main_arg10))
    (fun s => by rw [rowc1]; exact row1 m c s) (g1_eq m c) (b1_eq m c) s
  rw [hw] at h
  exact h

/-! ### Layer 2 -/

theorem rowc2 : (W11 m c (Gemv1.regOut0 (F := Ideal)) (Gemv1.regOut1 (F := Ideal)) (Gemv1.regOut2 (F := Ideal)) (Gemv1.regOut3 (F := Ideal))) (dr main_v17) = (W8 m c (Gemv1.regOut0 (F := Ideal)) (Gemv1.regOut1 (F := Ideal)) (Gemv1.regOut2 (F := Ideal)) (Gemv1.regOut3 (F := Ideal))) (dr main_v12) := by rw [W11, ops5_v17, W10, Function.update_of_ne (StableHlo.devRef_ne_of_ne (x := main_v12) (y := main_v14) (by decide)), W9, ops_keep _ (ops4 (F := Ideal)) ops4_W ops4_writes main_v12 (by decide)]

theorem g2_eq (e : Fin 4096) : (W11 m c (Gemv1.regOut0 (F := Ideal)) (Gemv1.regOut1 (F := Ideal)) (Gemv1.regOut2 (F := Ideal)) (Gemv1.regOut3 (F := Ideal))) (dr main_v15) (ix2 (0 : Fin 1) e)
    = (W11 m c (Gemv1.regOut0 (F := Ideal)) (Gemv1.regOut1 (F := Ideal)) (Gemv1.regOut2 (F := Ideal)) (Gemv1.regOut3 (F := Ideal))) (dr main_v17) (ix2 (0 : Fin 1) ⟨min ((m (c, dr main_arg3)) (ix1 e)).toNat 16383, by omega⟩) := by
  rw [rowc2, W11, ops5_v15, shapeCast_a_1a_apply, W10, Function.update_self]
  show ((W9 m c (Gemv1.regOut0 (F := Ideal)) (Gemv1.regOut1 (F := Ideal)) (Gemv1.regOut2 (F := Ideal)) (Gemv1.regOut3 (F := Ideal))) (dr main_v13)) (ix1 ⟨min (((W9 m c (Gemv1.regOut0 (F := Ideal)) (Gemv1.regOut1 (F := Ideal)) (Gemv1.regOut2 (F := Ideal)) (Gemv1.regOut3 (F := Ideal))) (dr main_arg3)) (ix1 e)).toNat 16383, by omega⟩) = _
  rw [(show (W9 m c (Gemv1.regOut0 (F := Ideal)) (Gemv1.regOut1 (F := Ideal)) (Gemv1.regOut2 (F := Ideal)) (Gemv1.regOut3 (F := Ideal))) (dr main_v13) = shapeCast S16384 ((W8 m c (Gemv1.regOut0 (F := Ideal)) (Gemv1.regOut1 (F := Ideal)) (Gemv1.regOut2 (F := Ideal)) (Gemv1.regOut3 (F := Ideal))) (dr main_v12)) shapeCasts_S1x16384_S16384 from by rw [W9]; exact ops4_v13 _), shapeCast_1a_a_apply]
  have hk : (W9 m c (Gemv1.regOut0 (F := Ideal)) (Gemv1.regOut1 (F := Ideal)) (Gemv1.regOut2 (F := Ideal)) (Gemv1.regOut3 (F := Ideal))) (dr main_arg3) = m (c, dr main_arg3) := keepsW9 m c (Gemv1.regOut0 (F := Ideal)) (Gemv1.regOut1 (F := Ideal)) (Gemv1.regOut2 (F := Ideal)) (Gemv1.regOut3 (F := Ideal)) main_arg3 (by decide)
  exact congrArg (fun t : Fin 16384 => ((W8 m c (Gemv1.regOut0 (F := Ideal)) (Gemv1.regOut1 (F := Ideal)) (Gemv1.regOut2 (F := Ideal)) (Gemv1.regOut3 (F := Ideal))) (dr main_v12)) (ix2 (0 : Fin 1) t)) (Fin.ext (by show min _ 16383 = min _ 16383; rw [hk]))

theorem b2_eq (n : Fin 4096) : (W11 m c (Gemv1.regOut0 (F := Ideal)) (Gemv1.regOut1 (F := Ideal)) (Gemv1.regOut2 (F := Ideal)) (Gemv1.regOut3 (F := Ideal))) (dr main_v16) (ix2 (0 : Fin 1) n) = (m (c, dr main_arg11)) (ix1 n) := by
  rw [W11, ops5_v16, shapeCast_a_1a_apply, keepsW10 m c (Gemv1.regOut0 (F := Ideal)) (Gemv1.regOut1 (F := Ideal)) (Gemv1.regOut2 (F := Ideal)) (Gemv1.regOut3 (F := Ideal)) main_arg11 (by decide)]

theorem row3 (s : Fin 16384) : (W12 m c (Gemv1.regOut0 (F := Ideal)) (Gemv1.regOut1 (F := Ideal)) (Gemv1.regOut2 (F := Ideal)) (Gemv1.regOut3 (F := Ideal))) (dr main_v17) (ix2 (0 : Fin 1) s) = St3 m c (ix1 s) := by
  rw [W12, Function.update_self]
  have hw : (W11 m c (Gemv1.regOut0 (F := Ideal)) (Gemv1.regOut1 (F := Ideal)) (Gemv1.regOut2 (F := Ideal)) (Gemv1.regOut3 (F := Ideal))) (dr main_arg7) = m (c, dr main_arg7) := keepsW11 m c (Gemv1.regOut0 (F := Ideal)) (Gemv1.regOut1 (F := Ideal)) (Gemv1.regOut2 (F := Ideal)) (Gemv1.regOut3 (F := Ideal)) main_arg7 (by decide)
  have h := layer2 c (fun r => (W11 m c (Gemv1.regOut0 (F := Ideal)) (Gemv1.regOut1 (F := Ideal)) (Gemv1.regOut2 (F := Ideal)) (Gemv1.regOut3 (F := Ideal))) (dr r)) (St2 m c) (m (c, dr main_arg3)) (m (c, dr main_arg11))
    (fun s => by rw [rowc2]; exact row2 m c s) (g2_eq m c) (b2_eq m c) s
  rw [hw] at h
  exact h

/-! ### The last layer -/

theorem g3_eq (e : Fin 4096) : (W15 m c (Gemv1.regOut0 (F := Ideal)) (Gemv1.regOut1 (F := Ideal)) (Gemv1.regOut2 (F := Ideal)) (Gemv1.regOut3 (F := Ideal))) (dr main_v20) (ix2 (0 : Fin 1) e)
    = (W12 m c (Gemv1.regOut0 (F := Ideal)) (Gemv1.regOut1 (F := Ideal)) (Gemv1.regOut2 (F := Ideal)) (Gemv1.regOut3 (F := Ideal))) (dr main_v17) (ix2 (0 : Fin 1) ⟨min ((m (c, dr main_arg4)) (ix1 e)).toNat 16383, by omega⟩) := by
  rw [W15, ops7_v20, shapeCast_a_1a_apply, W14, Function.update_self]
  show ((W13 m c (Gemv1.regOut0 (F := Ideal)) (Gemv1.regOut1 (F := Ideal)) (Gemv1.regOut2 (F := Ideal)) (Gemv1.regOut3 (F := Ideal))) (dr main_v18)) (ix1 ⟨min (((W13 m c (Gemv1.regOut0 (F := Ideal)) (Gemv1.regOut1 (F := Ideal)) (Gemv1.regOut2 (F := Ideal)) (Gemv1.regOut3 (F := Ideal))) (dr main_arg4)) (ix1 e)).toNat 16383, by omega⟩) = _
  rw [(show (W13 m c (Gemv1.regOut0 (F := Ideal)) (Gemv1.regOut1 (F := Ideal)) (Gemv1.regOut2 (F := Ideal)) (Gemv1.regOut3 (F := Ideal))) (dr main_v18) = shapeCast S16384 ((W12 m c (Gemv1.regOut0 (F := Ideal)) (Gemv1.regOut1 (F := Ideal)) (Gemv1.regOut2 (F := Ideal)) (Gemv1.regOut3 (F := Ideal))) (dr main_v17)) shapeCasts_S1x16384_S16384 from by rw [W13]; exact ops6_v18 _),
    shapeCast_1a_a_apply]
  have hk : (W13 m c (Gemv1.regOut0 (F := Ideal)) (Gemv1.regOut1 (F := Ideal)) (Gemv1.regOut2 (F := Ideal)) (Gemv1.regOut3 (F := Ideal))) (dr main_arg4) = m (c, dr main_arg4) := keepsW13 m c (Gemv1.regOut0 (F := Ideal)) (Gemv1.regOut1 (F := Ideal)) (Gemv1.regOut2 (F := Ideal)) (Gemv1.regOut3 (F := Ideal)) main_arg4 (by decide)
  exact congrArg (fun t : Fin 16384 => ((W12 m c (Gemv1.regOut0 (F := Ideal)) (Gemv1.regOut1 (F := Ideal)) (Gemv1.regOut2 (F := Ideal)) (Gemv1.regOut3 (F := Ideal))) (dr main_v17)) (ix2 (0 : Fin 1) t)) (Fin.ext (by show min _ 16383 = min _ 16383; rw [hk]))

theorem b3_eq (n : Fin 2048) : (W15 m c (Gemv1.regOut0 (F := Ideal)) (Gemv1.regOut1 (F := Ideal)) (Gemv1.regOut2 (F := Ideal)) (Gemv1.regOut3 (F := Ideal))) (dr main_v21) (ix2 (0 : Fin 1) n) = (m (c, dr main_arg12)) (ix1 n) := by
  rw [W15, ops7_v21, shapeCast_a_1a_apply, keepsW14 m c (Gemv1.regOut0 (F := Ideal)) (Gemv1.regOut1 (F := Ideal)) (Gemv1.regOut2 (F := Ideal)) (Gemv1.regOut3 (F := Ideal)) main_arg12 (by decide)]

/-- The kernel program's result is the specification's function of the launch contents. -/
theorem result_eq_G : (W17 m c (Gemv1.regOut0 (F := Ideal)) (Gemv1.regOut1 (F := Ideal)) (Gemv1.regOut2 (F := Ideal)) (Gemv1.regOut3 (F := Ideal))) (dr main_v23)
    = Spec.G (m (c, dr main_arg0)) (m (c, dr main_arg1)) (m (c, dr main_arg2)) (m (c, dr main_arg3)) (m (c, dr main_arg4))
        (m (c, dr main_arg5)) (m (c, dr main_arg6)) (m (c, dr main_arg7)) (m (c, dr main_arg8))
        (m (c, dr main_arg9)) (m (c, dr main_arg10)) (m (c, dr main_arg11)) (m (c, dr main_arg12)) := by
  funext j
  obtain ⟨n, rfl⟩ : ∃ n : Fin 2048, j = ix1 n := ⟨j 0, eq_ix1 j⟩
  rw [W17, ops8_v23, shapeCast_1a_a_apply, W16, Function.update_self]
  have hw : (W15 m c (Gemv1.regOut0 (F := Ideal)) (Gemv1.regOut1 (F := Ideal)) (Gemv1.regOut2 (F := Ideal)) (Gemv1.regOut3 (F := Ideal))) (dr main_arg8) = m (c, dr main_arg8) := keepsW15 m c (Gemv1.regOut0 (F := Ideal)) (Gemv1.regOut1 (F := Ideal)) (Gemv1.regOut2 (F := Ideal)) (Gemv1.regOut3 (F := Ideal)) main_arg8 (by decide)
  have h := layer3 c (fun r => (W15 m c (Gemv1.regOut0 (F := Ideal)) (Gemv1.regOut1 (F := Ideal)) (Gemv1.regOut2 (F := Ideal)) (Gemv1.regOut3 (F := Ideal))) (dr r)) (St3 m c) ((W12 m c (Gemv1.regOut0 (F := Ideal)) (Gemv1.regOut1 (F := Ideal)) (Gemv1.regOut2 (F := Ideal)) (Gemv1.regOut3 (F := Ideal))) (dr main_v17)) (m (c, dr main_arg4)) (m (c, dr main_arg12))
    (row3 m c) (g3_eq m c) (b3_eq m c) n
  rw [hw] at h
  exact h

end Value

end Cert.Proof.KI

end
-- ==== Proof.lean ====
/-
  The certificate of a four-layer sparse network evaluated over one flat state vector: the state holds the 4096 inputs and,
  after them, the 4096 outputs of each of the first three layers; layer i gathers 4096 entries of the state at the indices of
  its table (which name slots already written), multiplies the gathered vector by its weight matrix, adds its bias and
  applies tanh; the first three layers write their output into their block of the state, the fourth (2048 wide) returns it.
  The kernel program does each gather on a SparseCore (sixteen vector subcores, each fetching 256 indices and gathering in two
  streams of 128) and each dense layer as a TensorCore pipeline over four grid points (the bias stored at the first, a sum
  of eight 128-row products added at each, tanh at the last); the reference does the same with a scatter, a take and one
  matrix product per layer.

  Proved here: the three FRAMES — every weakly fair execution of each program terminates, nothing faulting, and its thirteen
  arguments end unchanged (for the kernel programs over all threads: the TensorCore's @main, the SparseCores' sequencers and
  vector subcores) — and that the idealized kernel is the kernel's own text read at the exact instance (no rewrite was
  applied). The indices' ranges in the precondition are what make every gather answer. And the RESULTS: run from memories that
  agree on the arguments, the idealized kernel and the idealized reference both end with the same 2048 values — each is the
  specification's function G of the arguments (the state after each layer is the state before it with that layer's block
  replaced by tanh of bias plus gathered-row-times-matrix; the kernel's sum over four grid points of eight 128-row products
  is the reference's one sum over 4096 rows, addition on the extended reals being commutative and associative).
-/
import proofs.«208418_g89945205112833_cont_sun_c4_809_35_alg».proof.Defs
import proofs.«208418_g89945205112833_cont_sun_c4_809_35_alg».proof.Proof.Gen.Kernel
import proofs.«208418_g89945205112833_cont_sun_c4_809_35_alg».proof.Proof.Gen.KernelIdeal
import proofs.«208418_g89945205112833_cont_sun_c4_809_35_alg».proof.Proof.Gen.ReferenceIdeal
import proofs.«208418_g89945205112833_cont_sun_c4_809_35_alg».proof.Proof.Gen.Pre_input_domain
import proofs.«208418_g89945205112833_cont_sun_c4_809_35_alg».proof.Proof.ScRun
import proofs.«208418_g89945205112833_cont_sun_c4_809_35_alg».proof.Proof.KbRun
import proofs.«208418_g89945205112833_cont_sun_c4_809_35_alg».proof.Proof.GemvRegions
import proofs.«208418_g89945205112833_cont_sun_c4_809_35_alg».proof.Proof.KbGemvRegions
import proofs.«208418_g89945205112833_cont_sun_c4_809_35_alg».proof.Proof.PreKernel
import proofs.«208418_g89945205112833_cont_sun_c4_809_35_alg».proof.Proof.RefOps
import proofs.«208418_g89945205112833_cont_sun_c4_809_35_alg».proof.Proof.RefPre
import proofs.«208418_g89945205112833_cont_sun_c4_809_35_alg».proof.Proof.KernValue
import Idealize.ShloMosaic.Adequacy
import Idealize.ShloMosaic.Init

noncomputable section

namespace Cert.Proof

open Idealize.ShloMosaic Idealize.SL.Sem

/-- The kernel program as printed, at the word-level instance: it runs to the end and leaves its arguments unchanged. -/
theorem frame_k : Cert.frame_Kernel := fun m ρ hpre =>
  (θ_run Cert.Kernel.defs _ _).mono (fun _ h c =>
    ⟨h c Cert.Kernel.main_arg0 (by decide),
      h c Cert.Kernel.main_arg1 (by decide),
      h c Cert.Kernel.main_arg2 (by decide),
      h c Cert.Kernel.main_arg3 (by decide),
      h c Cert.Kernel.main_arg4 (by decide),
      h c Cert.Kernel.main_arg5 (by decide),
      h c Cert.Kernel.main_arg6 (by decide),
      h c Cert.Kernel.main_arg7 (by decide),
      h c Cert.Kernel.main_arg8 (by decide),
      h c Cert.Kernel.main_arg9 (by decide),
      h c Cert.Kernel.main_arg10 (by decide),
      h c Cert.Kernel.main_arg11 (by decide),
      h c Cert.Kernel.main_arg12 (by decide)⟩)
    (Cert.Proof.KB.run_main (F := Bits) m ρ Cert.Proof.KB.Gemv1.region_step0 Cert.Proof.KB.Gemv1.region_step1
      Cert.Proof.KB.Gemv1.region_step2 Cert.Proof.KB.Gemv1.region_step3 (Cert.Proof.ok_of_pre_bits m hpre))

/-- The idealized kernel program, at the exact instance: the same. -/
theorem frame_ki : Cert.frame_KernelIdeal := fun m ρ hpre =>
  (θ_run Cert.KernelIdeal.defs _ _).mono (fun _ h c =>
    ⟨h c Cert.KernelIdeal.main_arg0 (by decide),
      h c Cert.KernelIdeal.main_arg1 (by decide),
      h c Cert.KernelIdeal.main_arg2 (by decide),
      h c Cert.KernelIdeal.main_arg3 (by decide),
      h c Cert.KernelIdeal.main_arg4 (by decide),
      h c Cert.KernelIdeal.main_arg5 (by decide),
      h c Cert.KernelIdeal.main_arg6 (by decide),
      h c Cert.KernelIdeal.main_arg7 (by decide),
      h c Cert.KernelIdeal.main_arg8 (by decide),
      h c Cert.KernelIdeal.main_arg9 (by decide),
      h c Cert.KernelIdeal.main_arg10 (by decide),
      h c Cert.KernelIdeal.main_arg11 (by decide),
      h c Cert.KernelIdeal.main_arg12 (by decide)⟩)
    (Cert.Proof.KI.run_main (F := Ideal) m ρ Cert.Proof.KI.Gemv1.region_step0 Cert.Proof.KI.Gemv1.region_step1
      Cert.Proof.KI.Gemv1.region_step2 Cert.Proof.KI.Gemv1.region_step3 (Cert.Proof.ok_of_pre_ideal m hpre))

/-- The reference: a straight line of host operations that write none of the arguments. -/
theorem frame_ri : Cert.frame_ReferenceIdeal := fun m g _ => Cert.Proof.RefRun.frame (F := Ideal) m g

/-- The precondition of the reference's memory follows from the kernel's: they agree on the arguments. -/
theorem pre_ref (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.Pre_ReferenceIdeal m' := fun c => by
  obtain ⟨h0, h1, h2, h3, h4, h5, h6, h7, h8, h9, h10, h11, h12⟩ := hagree c
  rw [h0, h1, h2, h3, h4, h5, h6, h7, h8, h9, h10, h11, h12]
  exact hpre c

/-- Both idealized programs end with the specification's function of the arguments. -/
theorem algebraic : Cert.algebraic_KernelIdeal_ReferenceIdeal := by
  intro m ρ m' ρ' hpre hagree
  refine ⟨fun c => Cert.Proof.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun _ h c => ⟨((h c).2).trans (Cert.Proof.KI.result_eq_G m c), ?_⟩)
      (Cert.Proof.KI.run_mainV (F := Ideal) m ρ _ _ _ _ Cert.Proof.KI.Gemv1.region_stepV0 Cert.Proof.KI.Gemv1.region_stepV1
        Cert.Proof.KI.Gemv1.region_stepV2 Cert.Proof.KI.Gemv1.region_stepV3 (Cert.Proof.ok_of_pre_ideal m hpre))
    exact ⟨(h c).1 Cert.KernelIdeal.main_arg0 (by decide),
      (h c).1 Cert.KernelIdeal.main_arg1 (by decide),
      (h c).1 Cert.KernelIdeal.main_arg2 (by decide),
      (h c).1 Cert.KernelIdeal.main_arg3 (by decide),
      (h c).1 Cert.KernelIdeal.main_arg4 (by decide),
      (h c).1 Cert.KernelIdeal.main_arg5 (by decide),
      (h c).1 Cert.KernelIdeal.main_arg6 (by decide),
      (h c).1 Cert.KernelIdeal.main_arg7 (by decide),
      (h c).1 Cert.KernelIdeal.main_arg8 (by decide),
      (h c).1 Cert.KernelIdeal.main_arg9 (by decide),
      (h c).1 Cert.KernelIdeal.main_arg10 (by decide),
      (h c).1 Cert.KernelIdeal.main_arg11 (by decide),
      (h c).1 Cert.KernelIdeal.main_arg12 (by decide)⟩
  · refine (θ_run Cert.ReferenceIdeal.defs _ _).mono (fun _ h c => ⟨?_, (h c).2⟩)
      (Cert.Proof.RefSpec.run_G m' ρ' (pre_ref m m' hpre hagree))
    obtain ⟨h0, h1, h2, h3, h4, h5, h6, h7, h8, h9, h10, h11, h12⟩ := hagree c
    rw [(h c).1, h0, h1, h2, h3, h4, h5, h6, h7, h8, h9, h10, h11, h12]

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
